-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x256 : Shape := ⟨2, ![256, 256]⟩
abbrev S256 : Shape := ⟨1, ![256]⟩
abbrev S1024x512 : Shape := ⟨2, ![1024, 512]⟩
abbrev S1024x256 : Shape := ⟨2, ![1024, 256]⟩
abbrev S1024 : Shape := ⟨1, ![1024]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1024x512 : S_.BroadcastsInDim S1024x512 (![] : Fin 0 → Fin S1024x512.rank)
  reducesTo_S1024x512_S_d0_1 : S1024x512.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  main_v88

def fn_part4 {F : FTy → Type} [FloatOps F] (main_arg15 : FVec F S1024x256 .f32) (main_arg16 : FVec F S1024x256 .f32) (main_arg17 : FVec F S1024 .f32) (main_arg18 : FVec F S1024 .f32) (main_v63 : IVec S_ 1) (main_v67 : IVec S_ 1) : IVec S_ 1 :=
  let main_v68 : IVec S_ 1 := andi main_v63 main_v67
  let main_v69 : FVec F S1024x256 .f32 := Host.absf main_arg15
  let main_cst_26 : FVec F S_ .f32 := constant S_ .f32 0x7F800000#32
  let main_v70 : FVec F S1024x256 .f32 := broadcastInDim S1024x256 ![] bcast_S_S1024x256 main_cst_26
  let main_v71 : IVec S1024x256 1 := cmpf .olt main_v69 main_v70
  let main_c_27 : IVec S_ 1 := constantI S_ 1 1#1
  let main_v72 : IVec S_ 1 := (fun x v => Host.reduce IntOp.andi x v reducesTo_S1024x256_S_d0_1 h_S_) main_v71 main_c_27
  let main_v73 : IVec S_ 1 := andi main_v68 main_v72
  let main_v74 : FVec F S1024x256 .f32 := Host.absf main_arg16
  let main_cst_28 : FVec F S_ .f32 := constant S_ .f32 0x7F800000#32
  let main_v75 : FVec F S1024x256 .f32 := broadcastInDim S1024x256 ![] bcast_S_S1024x256 main_cst_28
  let main_v76 : IVec S1024x256 1 := cmpf .olt main_v74 main_v75
  let main_c_29 : IVec S_ 1 := constantI S_ 1 1#1
  let main_v77 : IVec S_ 1 := (fun x v => Host.reduce IntOp.andi x v reducesTo_S1024x256_S_d0_1 h_S_) main_v76 main_c_29
  let main_v78 : IVec S_ 1 := andi main_v73 main_v77
  let main_v79 : FVec F S1024 .f32 := Host.absf main_arg17
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg18
  let main_cst_32 : FVec F S_ .f32 := constant S_ .f32 0x7F800000#32
  fn_part5 (F := F) main_v83 main_v84 main_cst_32

def fn_part3 {F : FTy → Type} [FloatOps F] (main_arg12 : FVec F S1024x256 .f32) (main_arg13 : FVec F S1024 .f32) (main_arg14 : FVec F S1024 .f32) (main_arg15 : FVec F S1024x256 .f32) (main_arg16 : FVec F S1024x256 .f32) (main_arg17 : FVec F S1024 .f32) (main_arg18 : FVec F S1024 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S1024x256 .f32 := Host.absf main_arg12
  let main_cst_20 : FVec F S_ .f32 := constant S_ .f32 0x7F800000#32
  let main_v55 : FVec F S1024x256 .f32 := broadcastInDim S1024x256 ![] bcast_S_S1024x256 main_cst_20
  let main_v56 : IVec S1024x256 1 := cmpf .olt main_v54 main_v55
  let main_c_21 : IVec S_ 1 := constantI S_ 1 1#1
  let main_v57 : IVec S_ 1 := (fun x v => Host.reduce IntOp.andi x v reducesTo_S1024x256_S_d0_1 h_S_) main_v56 main_c_21
  let main_v58 : IVec S_ 1 := andi main_v53 main_v57
  let main_v59 : FVec F S1024 .f32 := Host.absf main_arg13
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg14
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg15 main_arg16 main_arg17 main_arg18 main_v63 main_v67

def fn_part2 {F : FTy → Type} [FloatOps F] (main_arg8 : FVec F S256 .f32) (main_arg9 : FVec F S256 .f32) (main_arg10 : FVec F S256 .f32) (main_arg11 : FVec F S1024x512 .f32) (main_arg12 : FVec F S1024x256 .f32) (main_arg13 : FVec F S1024 .f32) (main_arg14 : FVec F S1024 .f32) (main_arg15 : FVec F S1024x256 .f32) (main_arg16 : FVec F S1024x256 .f32) (main_arg17 : FVec F S1024 .f32) (main_arg18 : FVec F S1024 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1024x512 .f32 := Host.absf main_arg11
  let main_cst_18 : FVec F S_ .f32 := constant S_ .f32 0x7F800000#32
  let main_v50 : FVec F S1024x512 .f32 := broadcastInDim S1024x512 ![] bcast_S_S1024x512 main_cst_18
  fn_part3 (F := F) main_arg12 main_arg13 main_arg14 main_arg15 main_arg16 main_arg17 main_arg18 main_v48 main_v49 main_v50

def fn_part1 {F : FTy → Type} [FloatOps F] (main_arg5 : FVec F S256x256 .f32) (main_arg6 : FVec F S256 .f32) (main_arg7 : FVec F S256 .f32) (main_arg8 : FVec F S256 .f32) (main_arg9 : FVec F S256 .f32) (main_arg10 : FVec F S256 .f32) (main_arg11 : FVec F S1024x512 .f32) (main_arg12 : FVec F S1024x256 .f32) (main_arg13 : FVec F S1024 .f32) (main_arg14 : FVec F S1024 .f32) (main_arg15 : FVec F S1024x256 .f32) (main_arg16 : FVec F S1024x256 .f32) (main_arg17 : FVec F S1024 .f32) (main_arg18 : FVec F S1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x256 .f32) (main_arg1 : IVec S2x800000 32) (main_arg2 : FVec F S800000 .f32) (main_arg3 : FVec F S256x256 .f32) (main_arg4 : FVec F S256 .f32) (main_arg5 : FVec F S256x256 .f32) (main_arg6 : FVec F S256 .f32) (main_arg7 : FVec F S256 .f32) (main_arg8 : FVec F S256 .f32) (main_arg9 : FVec F S256 .f32) (main_arg10 : FVec F S256 .f32) (main_arg11 : FVec F S1024x512 .f32) (main_arg12 : FVec F S1024x256 .f32) (main_arg13 : FVec F S1024 .f32) (main_arg14 : FVec F S1024 .f32) (main_arg15 : FVec F S1024x256 .f32) (main_arg16 : FVec F S1024x256 .f32) (main_arg17 : FVec F S1024 .f32) (main_arg18 : FVec F S1024 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x256 : Shape := ⟨2, ![256, 256]⟩
abbrev S256 : Shape := ⟨1, ![256]⟩
abbrev S1024x512 : Shape := ⟨2, ![1024, 512]⟩
abbrev S1024x256 : Shape := ⟨2, ![1024, 256]⟩
abbrev S1024 : Shape := ⟨1, ![1024]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1000x256 : Shape := ⟨2, ![1000, 256]⟩
abbrev S850000x256 : Shape := ⟨2, ![850000, 256]⟩
abbrev S1x256 : Shape := ⟨2, ![1, 256]⟩
abbrev S50000x512 : Shape := ⟨2, ![50000, 512]⟩
abbrev S512x1024 : Shape := ⟨2, ![512, 1024]⟩
abbrev S1x1024 : Shape := ⟨2, ![1, 1024]⟩
abbrev S1000x512 : Shape := ⟨2, ![1000, 512]⟩
abbrev S1000x1024 : Shape := ⟨2, ![1000, 1024]⟩
abbrev S256x1024 : Shape := ⟨2, ![256, 1024]⟩
abbrev S50000x768 : Shape := ⟨2, ![50000, 768]⟩

abbrev nBuf : Space → Nat
  | .hbm => 184
  | .vmem => 22
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S256x256, .f32⟩
  | 4 => ⟨S256, .f32⟩
  | 5 => ⟨S256x256, .f32⟩
  | 6 => ⟨S256, .f32⟩
  | 7 => ⟨S256, .f32⟩
  | 8 => ⟨S256, .f32⟩
  | 9 => ⟨S256, .f32⟩
  | 10 => ⟨S256, .f32⟩
  | 11 => ⟨S1024x512, .f32⟩
  | 12 => ⟨S1024x256, .f32⟩
  | 13 => ⟨S1024, .f32⟩
  | 14 => ⟨S1024, .f32⟩
  | 15 => ⟨S1024x256, .f32⟩
  | 16 => ⟨S1024x256, .f32⟩
  | 17 => ⟨S1024, .f32⟩
  | 18 => ⟨S1024, .f32⟩
  | 19 => ⟨S1x800000, .i32⟩
  | 20 => ⟨S800000, .i32⟩
  | 21 => ⟨S1x800000, .i32⟩
  | 22 => ⟨S800000, .i32⟩
  | 23 => ⟨S50000, .i32⟩
  | 24 => ⟨S850000, .i32⟩
  | 25 => ⟨S850000, .i32⟩
  | 26 => ⟨S_, .f32⟩
  | 27 => ⟨S50000, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S_, .f32⟩
  | 34 => ⟨S50000, .f32⟩
  | 35 => ⟨S50000, .i1⟩
  | 36 => ⟨S_, .f32⟩
  | 37 => ⟨S_, .f32⟩
  | 38 => ⟨S50000, .f32⟩
  | 39 => ⟨S50000, .f32⟩
  | 40 => ⟨S_, .f32⟩
  | 41 => ⟨S50000, .f32⟩
  | 42 => ⟨S50000, .i1⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000, .f32⟩
  | 67 => ⟨S850000, .f32⟩
  | 68 => ⟨S50000x256, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x256, .f32⟩
  | 78 => ⟨S850000x1, .f32⟩
  | 79 => ⟨S850000x256, .f32⟩
  | 80 => ⟨S850000x256, .f32⟩
  | 81 => ⟨S_, .f32⟩
  | 82 => ⟨S50000x256, .f32⟩
  | 83 => ⟨S850000x1, .i32⟩
  | 84 => ⟨S50000x256, .f32⟩
  | 85 => ⟨S1x256, .f32⟩
  | 86 => ⟨S50000x256, .f32⟩
  | 87 => ⟨S50000x256, .f32⟩
  | 88 => ⟨S_, .f32⟩
  | 89 => ⟨S50000x256, .f32⟩
  | 90 => ⟨S50000x256, .f32⟩
  | 91 => ⟨S_, .f32⟩
  | 92 => ⟨S256, .f32⟩
  | 93 => ⟨S_, .f32⟩
  | 94 => ⟨S256, .f32⟩
  | 95 => ⟨S256, .f32⟩
  | 96 => ⟨S1x256, .f32⟩
  | 97 => ⟨S50000x256, .f32⟩
  | 98 => ⟨S50000x256, .f32⟩
  | 99 => ⟨S50000x256, .f32⟩
  | 100 => ⟨S_, .f32⟩
  | 101 => ⟨S256, .f32⟩
  | 102 => ⟨S_, .f32⟩
  | 103 => ⟨S256, .f32⟩
  | 104 => ⟨S256, .f32⟩
  | 105 => ⟨S1x256, .f32⟩
  | 106 => ⟨S50000x256, .f32⟩
  | 107 => ⟨S50000x256, .f32⟩
  | 108 => ⟨S_, .f32⟩
  | 109 => ⟨S256, .f32⟩
  | 110 => ⟨S256, .f32⟩
  | 111 => ⟨S256, .f32⟩
  | 112 => ⟨S1x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S1x256, .f32⟩
  | 119 => ⟨S50000x256, .f32⟩
  | 120 => ⟨S50000x256, .f32⟩
  | 121 => ⟨S50000x256, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x256, .f32⟩

abbrev hbmTy0_1 (i : Nat) : BufTy := match i % 128 with
  | 0 => ⟨S850000, .i32⟩
  | 1 => ⟨S850000x1, .i32⟩
  | 2 => ⟨S850000x256, .f32⟩
  | 3 => ⟨S850000x1, .f32⟩
  | 4 => ⟨S850000x256, .f32⟩
  | 5 => ⟨S850000x256, .f32⟩
  | 6 => ⟨S_, .f32⟩
  | 7 => ⟨S50000x256, .f32⟩
  | 8 => ⟨S850000x1, .i32⟩
  | 9 => ⟨S50000x256, .f32⟩
  | 10 => ⟨S1x256, .f32⟩
  | 11 => ⟨S50000x256, .f32⟩
  | 12 => ⟨S50000x256, .f32⟩
  | 13 => ⟨S_, .f32⟩
  | 14 => ⟨S50000x256, .f32⟩
  | 15 => ⟨S50000x256, .f32⟩
  | 16 => ⟨S_, .f32⟩
  | 17 => ⟨S256, .f32⟩
  | 18 => ⟨S_, .f32⟩
  | 19 => ⟨S256, .f32⟩
  | 20 => ⟨S256, .f32⟩
  | 21 => ⟨S1x256, .f32⟩
  | 22 => ⟨S50000x256, .f32⟩
  | 23 => ⟨S50000x256, .f32⟩
  | 24 => ⟨S50000x256, .f32⟩
  | 25 => ⟨S_, .f32⟩
  | 26 => ⟨S256, .f32⟩
  | 27 => ⟨S_, .f32⟩
  | 28 => ⟨S256, .f32⟩
  | 29 => ⟨S256, .f32⟩
  | 30 => ⟨S1x256, .f32⟩
  | 31 => ⟨S50000x256, .f32⟩
  | 32 => ⟨S50000x256, .f32⟩
  | 33 => ⟨S_, .f32⟩
  | 34 => ⟨S256, .f32⟩
  | 35 => ⟨S256, .f32⟩
  | 36 => ⟨S256, .f32⟩
  | 37 => ⟨S1x256, .f32⟩
  | 38 => ⟨S50000x256, .f32⟩
  | 39 => ⟨S50000x256, .f32⟩
  | 40 => ⟨S1x256, .f32⟩
  | 41 => ⟨S50000x256, .f32⟩
  | 42 => ⟨S50000x256, .f32⟩
  | 43 => ⟨S1x256, .f32⟩
  | 44 => ⟨S50000x256, .f32⟩
  | 45 => ⟨S50000x256, .f32⟩
  | 46 => ⟨S50000x512, .f32⟩
  | 47 => ⟨S512x1024, .f32⟩
  | 48 => ⟨S1024, .f32⟩
  | 49 => ⟨S1x1024, .f32⟩
  | 50 => ⟨S50000x256, .f32⟩
  | 51 => ⟨S256x1024, .f32⟩
  | 52 => ⟨S1024, .f32⟩
  | 53 => ⟨S1x1024, .f32⟩
  | 54 => ⟨S50000x256, .f32⟩
  | 55 => ⟨S50000x768, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S256x256, .f32⟩
  | .local _ .vmem, ⟨8, _⟩ => ⟨S1000x256, .f32⟩
  | .local _ .vmem, ⟨9, _⟩ => ⟨S1000x256, .f32⟩
  | .local _ .vmem, ⟨10, _⟩ => ⟨S1000x512, .f32⟩
  | .local _ .vmem, ⟨11, _⟩ => ⟨S1000x512, .f32⟩
  | .local _ .vmem, ⟨12, _⟩ => ⟨S512x1024, .f32⟩
  | .local _ .vmem, ⟨13, _⟩ => ⟨S1x1024, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S256x1024, .f32⟩
  | .local _ .vmem, ⟨19, _⟩ => ⟨S1x1024, .f32⟩
  | .local _ .vmem, ⟨20, _⟩ => ⟨S1000x256, .f32⟩
  | .local _ .vmem, ⟨21, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_cst_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_v18 : Ref sig .tc := ⟨.hbm, 47, rfl⟩
abbrev main_c : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_6 : Ref sig .tc := ⟨.hbm, 58, rfl⟩
abbrev main_v27 : Ref sig .tc := ⟨.hbm, 59, rfl⟩
abbrev main_v28 : Ref sig .tc := ⟨.hbm, 60, rfl⟩
abbrev main_c_7 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_8 : Ref sig .tc := ⟨.hbm, 69, rfl⟩
abbrev main_v36 : Ref sig .tc := ⟨.hbm, 70, rfl⟩
abbrev main_v37 : Ref sig .tc := ⟨.hbm, 71, rfl⟩
abbrev main_c_9 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_10 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call2_cst : Ref sig .tc := ⟨.hbm, 88, rfl⟩
abbrev main_call2_v0 : Ref sig .tc := ⟨.hbm, 89, rfl⟩
abbrev main_v52 : Ref sig .tc := ⟨.hbm, 90, rfl⟩
abbrev main_cst_11 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_13 : Ref sig .tc := ⟨.hbm, 100, rfl⟩
abbrev main_v60 : Ref sig .tc := ⟨.hbm, 101, rfl⟩
abbrev main_cst_14 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_15 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_16 : Ref sig .tc := ⟨.hbm, 122, rfl⟩
abbrev main_v79 : Ref sig .tc := ⟨.hbm, 123, rfl⟩
abbrev main_v80 : Ref sig .tc := ⟨.hbm, 124, rfl⟩
abbrev main_c_17 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_18 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_call3_cst : Ref sig .tc := ⟨.hbm, 141, rfl⟩
abbrev main_call3_v0 : Ref sig .tc := ⟨.hbm, 142, rfl⟩
abbrev main_v95 : Ref sig .tc := ⟨.hbm, 143, rfl⟩
abbrev main_cst_19 : Ref sig .tc := ⟨.hbm, 144, rfl⟩
abbrev main_v96 : Ref sig .tc := ⟨.hbm, 145, rfl⟩
abbrev main_cst_20 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_21 : Ref sig .tc := ⟨.hbm, 153, rfl⟩
abbrev main_v103 : Ref sig .tc := ⟨.hbm, 154, rfl⟩
abbrev main_cst_22 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_23 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  shapeCasts_S1000x256_S1000x256 : S1000x256.ShapeCasts S1000x256
  concatenates_S50000x256_S50000x256_S50000x512_d1 : Shape.Concatenates [S50000x256, S50000x256] S50000x512 1
  transposes_S1024x512_S512x1024_1_0 : S1024x512.Transposes [1, 0] S512x1024
  shapeCasts_S1024_S1x1024 : S1024.ShapeCasts S1x1024
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  slices_S1000x1024_o0_0_S1000x256 : S1000x1024.Slices ![0, 0] S1000x256
  slices_S1000x1024_o0_512_S1000x256 : S1000x1024.Slices ![0, 512] S1000x256
  slices_S1000x1024_o0_768_S1000x256 : S1000x1024.Slices ![0, 768] S1000x256
  transposes_S1024x256_S256x1024_1_0 : S1024x256.Transposes [1, 0] S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  concatenates_S50000x256_S50000x256_S50000x256_S50000x768_d1 : Shape.Concatenates [S50000x256, S50000x256, S50000x256] S50000x768 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x256_S256x256_S1000x256_1_0_0_1_n_n_wf : DotDims.WF S1000x256 S256x256 S1000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S1000x512_S512x1024_S1000x1024_1_0_0_1_n_n_wf : DotDims.WF S1000x512 S512x1024 S1000x1024 [1] [0] [0] [1] [] []
  dot_S1000x256_S256x1024_S1000x1024_1_0_0_1_n_n_wf : DotDims.WF S1000x256 S256x1024 S1000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S50000x512.size a
  hwx2_0 : ∀ i : grid2.Coords, EltTy.bits .f32 = 32 ∨ (Rect.block (s := S50000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x1024.size a
  hwx2_1 : ∀ i : grid2.Coords, EltTy.bits .f32 = 32 ∨ (Rect.block (s := S512x1024) S512x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x256.size a ≤ S50000x256.size a
  hwx2_3 : ∀ i : grid2.Coords, EltTy.bits .f32 = 32 ∨ (Rect.block (s := S50000x256) S1000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S50000x256.size a
  hwx3_0 : ∀ i : grid3.Coords, EltTy.bits .f32 = 32 ∨ (Rect.block (s := S50000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x1024.size a ≤ S256x1024.size a
  hwx3_1 : ∀ i : grid3.Coords, EltTy.bits .f32 = 32 ∨ (Rect.block (s := S256x1024) S256x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x256.size a ≤ S50000x256.size a
  hwx3_3 : ∀ i : grid3.Coords, EltTy.bits .f32 = 32 ∨ (Rect.block (s := S50000x256) S1000x256.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S1000x512_S512x1024_S1000x1024_1_0_0_1_n_n : DotDims S1000x512 S512x1024 S1000x1024 where
  lhsContracting := [1]
  rhsContracting := [0]
  lhsNonContracting := [0]
  rhsNonContracting := [1]
  lhsBatch := []
  rhsBatch := []
  wf := dot_S1000x512_S512x1024_S1000x1024_1_0_0_1_n_n_wf
def dot_S1000x256_S256x1024_S1000x1024_1_0_0_1_n_n : DotDims S1000x256 S256x1024 S1000x1024 where
  lhsContracting := [1]
  rhsContracting := [0]
  lhsNonContracting := [0]
  rhsNonContracting := [1]
  lhsBatch := []
  rhsBatch := []
  wf := dot_S1000x256_S256x1024_S1000x1024_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v77) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v78) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v121) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v122) S512x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v124) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v125) S1000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v125) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v126) S256x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v128) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v129) S1000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x256 : Shape := ⟨2, ![256, 256]⟩
abbrev S256 : Shape := ⟨1, ![256]⟩
abbrev S1024x512 : Shape := ⟨2, ![1024, 512]⟩
abbrev S1024x256 : Shape := ⟨2, ![1024, 256]⟩
abbrev S1024 : Shape := ⟨1, ![1024]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x512 : Shape := ⟨2, ![50000, 512]⟩
abbrev S512x1024 : Shape := ⟨2, ![512, 1024]⟩
abbrev S50000x1024 : Shape := ⟨2, ![50000, 1024]⟩
abbrev S1x1024 : Shape := ⟨2, ![1, 1024]⟩
abbrev S256x1024 : Shape := ⟨2, ![256, 1024]⟩
abbrev S50000x768 : Shape := ⟨2, ![50000, 768]⟩

abbrev nBuf : Space → Nat
  | .hbm => 240
  | .vmem => 0
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S256x256, .f32⟩
  | 4 => ⟨S256, .f32⟩
  | 5 => ⟨S256x256, .f32⟩
  | 6 => ⟨S256, .f32⟩
  | 7 => ⟨S256, .f32⟩
  | 8 => ⟨S256, .f32⟩
  | 9 => ⟨S256, .f32⟩
  | 10 => ⟨S256, .f32⟩
  | 11 => ⟨S1024x512, .f32⟩
  | 12 => ⟨S1024x256, .f32⟩
  | 13 => ⟨S1024, .f32⟩
  | 14 => ⟨S1024, .f32⟩
  | 15 => ⟨S1024x256, .f32⟩
  | 16 => ⟨S1024x256, .f32⟩
  | 17 => ⟨S1024, .f32⟩
  | 18 => ⟨S1024, .f32⟩
  | 19 => ⟨S1x800000, .i32⟩
  | 20 => ⟨S800000, .i32⟩
  | 21 => ⟨S1x800000, .i32⟩
  | 22 => ⟨S800000, .i32⟩
  | 23 => ⟨S50000, .i32⟩
  | 24 => ⟨S850000, .i32⟩
  | 25 => ⟨S850000, .i32⟩
  | 26 => ⟨S_, .f32⟩
  | 27 => ⟨S50000, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S_, .f32⟩
  | 34 => ⟨S50000, .f32⟩
  | 35 => ⟨S50000, .i1⟩
  | 36 => ⟨S_, .f32⟩
  | 37 => ⟨S_, .f32⟩
  | 38 => ⟨S50000, .f32⟩
  | 39 => ⟨S50000, .f32⟩
  | 40 => ⟨S_, .f32⟩
  | 41 => ⟨S50000, .f32⟩
  | 42 => ⟨S50000, .i1⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000, .f32⟩
  | 67 => ⟨S850000, .f32⟩
  | 68 => ⟨S50000x256, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x256, .f32⟩
  | 78 => ⟨S850000x1, .f32⟩
  | 79 => ⟨S850000x256, .f32⟩
  | 80 => ⟨S850000x256, .f32⟩
  | 81 => ⟨S_, .f32⟩
  | 82 => ⟨S50000x256, .f32⟩
  | 83 => ⟨S850000x1, .i32⟩
  | 84 => ⟨S50000x256, .f32⟩
  | 85 => ⟨S1x256, .f32⟩
  | 86 => ⟨S50000x256, .f32⟩
  | 87 => ⟨S50000x256, .f32⟩
  | 88 => ⟨S_, .f32⟩
  | 89 => ⟨S50000x256, .f32⟩
  | 90 => ⟨S50000x256, .f32⟩
  | 91 => ⟨S_, .f32⟩
  | 92 => ⟨S256, .f32⟩
  | 93 => ⟨S_, .f32⟩
  | 94 => ⟨S256, .f32⟩
  | 95 => ⟨S256, .f32⟩
  | 96 => ⟨S1x256, .f32⟩
  | 97 => ⟨S50000x256, .f32⟩
  | 98 => ⟨S50000x256, .f32⟩
  | 99 => ⟨S50000x256, .f32⟩
  | 100 => ⟨S_, .f32⟩
  | 101 => ⟨S256, .f32⟩
  | 102 => ⟨S_, .f32⟩
  | 103 => ⟨S256, .f32⟩
  | 104 => ⟨S256, .f32⟩
  | 105 => ⟨S1x256, .f32⟩
  | 106 => ⟨S50000x256, .f32⟩
  | 107 => ⟨S50000x256, .f32⟩
  | 108 => ⟨S_, .f32⟩
  | 109 => ⟨S256, .f32⟩
  | 110 => ⟨S256, .f32⟩
  | 111 => ⟨S256, .f32⟩
  | 112 => ⟨S1x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S1x256, .f32⟩
  | 119 => ⟨S50000x256, .f32⟩
  | 120 => ⟨S50000x256, .f32⟩
  | 121 => ⟨S50000x256, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x256, .f32⟩

abbrev hbmTy0_1 (i : Nat) : BufTy := match i % 128 with
  | 0 => ⟨S850000, .i32⟩
  | 1 => ⟨S850000x1, .i32⟩
  | 2 => ⟨S850000x256, .f32⟩
  | 3 => ⟨S850000x1, .f32⟩
  | 4 => ⟨S850000x256, .f32⟩
  | 5 => ⟨S850000x256, .f32⟩
  | 6 => ⟨S_, .f32⟩
  | 7 => ⟨S50000x256, .f32⟩
  | 8 => ⟨S850000x1, .i32⟩
  | 9 => ⟨S50000x256, .f32⟩
  | 10 => ⟨S1x256, .f32⟩
  | 11 => ⟨S50000x256, .f32⟩
  | 12 => ⟨S50000x256, .f32⟩
  | 13 => ⟨S_, .f32⟩
  | 14 => ⟨S50000x256, .f32⟩
  | 15 => ⟨S50000x256, .f32⟩
  | 16 => ⟨S_, .f32⟩
  | 17 => ⟨S256, .f32⟩
  | 18 => ⟨S_, .f32⟩
  | 19 => ⟨S256, .f32⟩
  | 20 => ⟨S256, .f32⟩
  | 21 => ⟨S1x256, .f32⟩
  | 22 => ⟨S50000x256, .f32⟩
  | 23 => ⟨S50000x256, .f32⟩
  | 24 => ⟨S50000x256, .f32⟩
  | 25 => ⟨S_, .f32⟩
  | 26 => ⟨S256, .f32⟩
  | 27 => ⟨S_, .f32⟩
  | 28 => ⟨S256, .f32⟩
  | 29 => ⟨S256, .f32⟩
  | 30 => ⟨S1x256, .f32⟩
  | 31 => ⟨S50000x256, .f32⟩
  | 32 => ⟨S50000x256, .f32⟩
  | 33 => ⟨S_, .f32⟩
  | 34 => ⟨S256, .f32⟩
  | 35 => ⟨S256, .f32⟩
  | 36 => ⟨S256, .f32⟩
  | 37 => ⟨S1x256, .f32⟩
  | 38 => ⟨S50000x256, .f32⟩
  | 39 => ⟨S50000x256, .f32⟩
  | 40 => ⟨S1x256, .f32⟩
  | 41 => ⟨S50000x256, .f32⟩
  | 42 => ⟨S50000x256, .f32⟩
  | 43 => ⟨S1x256, .f32⟩
  | 44 => ⟨S50000x256, .f32⟩
  | 45 => ⟨S50000x256, .f32⟩
  | 46 => ⟨S50000x512, .f32⟩
  | 47 => ⟨S512x1024, .f32⟩
  | 48 => ⟨S50000x1024, .f32⟩
  | 49 => ⟨S1x1024, .f32⟩
  | 50 => ⟨S50000x1024, .f32⟩
  | 51 => ⟨S50000x1024, .f32⟩
  | 52 => ⟨S1x1024, .f32⟩
  | 53 => ⟨S50000x1024, .f32⟩
  | 54 => ⟨S50000x1024, .f32⟩
  | 55 => ⟨S50000x256, .f32⟩
  | 56 => ⟨S50000x256, .f32⟩
  | 57 => ⟨S50000x256, .f32⟩
  | 58 => ⟨S50000x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S_, .f32⟩
  | 65 => ⟨S50000x256, .f32⟩
  | 66 => ⟨S50000x256, .f32⟩
  | 67 => ⟨S50000x256, .f32⟩
  | 68 => ⟨S50000x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000x256, .f32⟩
  | 78 => ⟨S50000x256, .f32⟩
  | 79 => ⟨S256x1024, .f32⟩
  | 80 => ⟨S50000x1024, .f32⟩
  | 81 => ⟨S1x1024, .f32⟩
  | 82 => ⟨S50000x1024, .f32⟩
  | 83 => ⟨S50000x1024, .f32⟩
  | 84 => ⟨S1x1024, .f32⟩
  | 85 => ⟨S50000x1024, .f32⟩
  | 86 => ⟨S50000x1024, .f32⟩
  | 87 => ⟨S50000x256, .f32⟩
  | 88 => ⟨S50000x256, .f32⟩
  | 89 => ⟨S50000x256, .f32⟩
  | 90 => ⟨S50000x256, .f32⟩
  | 91 => ⟨S50000x256, .f32⟩
  | 92 => ⟨S50000x256, .f32⟩
  | 93 => ⟨S_, .f32⟩
  | 94 => ⟨S50000x256, .f32⟩
  | 95 => ⟨S50000x256, .f32⟩
  | 96 => ⟨S_, .f32⟩
  | 97 => ⟨S50000x256, .f32⟩
  | 98 => ⟨S50000x256, .f32⟩
  | 99 => ⟨S50000x256, .f32⟩
  | 100 => ⟨S50000x256, .f32⟩
  | 101 => ⟨S50000x256, .f32⟩
  | 102 => ⟨S50000x256, .f32⟩
  | 103 => ⟨S_, .f32⟩
  | 104 => ⟨S50000x256, .f32⟩
  | 105 => ⟨S50000x256, .f32⟩
  | 106 => ⟨S_, .f32⟩
  | 107 => ⟨S50000x256, .f32⟩
  | 108 => ⟨S50000x256, .f32⟩
  | 109 => ⟨S50000x256, .f32⟩
  | 110 => ⟨S50000x256, .f32⟩
  | 111 => ⟨S50000x768, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_cst_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_v18 : Ref sig .tc := ⟨.hbm, 47, rfl⟩
abbrev main_c : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_6 : Ref sig .tc := ⟨.hbm, 58, rfl⟩
abbrev main_v27 : Ref sig .tc := ⟨.hbm, 59, rfl⟩
abbrev main_v28 : Ref sig .tc := ⟨.hbm, 60, rfl⟩
abbrev main_c_7 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_8 : Ref sig .tc := ⟨.hbm, 69, rfl⟩
abbrev main_v36 : Ref sig .tc := ⟨.hbm, 70, rfl⟩
abbrev main_v37 : Ref sig .tc := ⟨.hbm, 71, rfl⟩
abbrev main_c_9 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_10 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call2_cst : Ref sig .tc := ⟨.hbm, 88, rfl⟩
abbrev main_call2_v0 : Ref sig .tc := ⟨.hbm, 89, rfl⟩
abbrev main_v52 : Ref sig .tc := ⟨.hbm, 90, rfl⟩
abbrev main_cst_11 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_13 : Ref sig .tc := ⟨.hbm, 100, rfl⟩
abbrev main_v60 : Ref sig .tc := ⟨.hbm, 101, rfl⟩
abbrev main_cst_14 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_15 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_16 : Ref sig .tc := ⟨.hbm, 122, rfl⟩
abbrev main_v79 : Ref sig .tc := ⟨.hbm, 123, rfl⟩
abbrev main_v80 : Ref sig .tc := ⟨.hbm, 124, rfl⟩
abbrev main_c_17 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_18 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_call3_cst : Ref sig .tc := ⟨.hbm, 141, rfl⟩
abbrev main_call3_v0 : Ref sig .tc := ⟨.hbm, 142, rfl⟩
abbrev main_v95 : Ref sig .tc := ⟨.hbm, 143, rfl⟩
abbrev main_cst_19 : Ref sig .tc := ⟨.hbm, 144, rfl⟩
abbrev main_v96 : Ref sig .tc := ⟨.hbm, 145, rfl⟩
abbrev main_cst_20 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_21 : Ref sig .tc := ⟨.hbm, 153, rfl⟩
abbrev main_v103 : Ref sig .tc := ⟨.hbm, 154, rfl⟩
abbrev main_cst_22 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_23 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_24 : Ref sig .tc := ⟨.hbm, 189, rfl⟩
abbrev main_v136 : Ref sig .tc := ⟨.hbm, 190, rfl⟩
abbrev main_v137 : Ref sig .tc := ⟨.hbm, 191, rfl⟩
abbrev main_cst_25 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_cst_26 : Ref sig .tc := ⟨.hbm, 199, rfl⟩
abbrev main_v144 : Ref sig .tc := ⟨.hbm, 200, rfl⟩
abbrev main_v145 : Ref sig .tc := ⟨.hbm, 201, rfl⟩
abbrev main_cst_27 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_cst_28 : Ref sig .tc := ⟨.hbm, 221, rfl⟩
abbrev main_v164 : Ref sig .tc := ⟨.hbm, 222, rfl⟩
abbrev main_v165 : Ref sig .tc := ⟨.hbm, 223, rfl⟩
abbrev main_cst_29 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_cst_30 : Ref sig .tc := ⟨.hbm, 231, rfl⟩
abbrev main_v172 : Ref sig .tc := ⟨.hbm, 232, rfl⟩
abbrev main_v173 : Ref sig .tc := ⟨.hbm, 233, rfl⟩
abbrev main_cst_31 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  concatenates_S50000x256_S50000x256_S50000x512_d1 : Shape.Concatenates [S50000x256, S50000x256] S50000x512 1
  transposes_S1024x512_S512x1024_1_0 : S1024x512.Transposes [1, 0] S512x1024
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  slices_S50000x1024_S50000x256_0_0 : S50000x1024.Slices ![0, 0] S50000x256
  slices_S50000x1024_S50000x256_0_256 : S50000x1024.Slices ![0, 256] S50000x256
  slices_S50000x1024_S50000x256_0_512 : S50000x1024.Slices ![0, 512] S50000x256
  slices_S50000x1024_S50000x256_0_768 : S50000x1024.Slices ![0, 768] S50000x256
  transposes_S1024x256_S256x1024_1_0 : S1024x256.Transposes [1, 0] S256x1024
  concatenates_S50000x256_S50000x256_S50000x256_S50000x768_d1 : Shape.Concatenates [S50000x256, S50000x256, S50000x256] S50000x768 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x512_S512x1024_S50000x1024_1_0_0_1_n_n_wf : DotDims.WF S50000x512 S512x1024 S50000x1024 [1] [0] [0] [1] [] []
  dot_S50000x256_S256x1024_S50000x1024_1_0_0_1_n_n_wf : DotDims.WF S50000x256 S256x1024 S50000x1024 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x512_S512x1024_S50000x1024_1_0_0_1_n_n : DotDims S50000x512 S512x1024 S50000x1024 where
  lhsContracting := [1]
  rhsContracting := [0]
  lhsNonContracting := [0]
  rhsNonContracting := [1]
  lhsBatch := []
  rhsBatch := []
  wf := dot_S50000x512_S512x1024_S50000x1024_1_0_0_1_n_n_wf
def dot_S50000x256_S256x1024_S50000x1024_1_0_0_1_n_n : DotDims S50000x256 S256x1024 S50000x1024 where
  lhsContracting := [1]
  rhsContracting := [0]
  lhsNonContracting := [0]
  rhsNonContracting := [1]
  lhsBatch := []
  rhsBatch := []
  wf := dot_S50000x256_S256x1024_S50000x1024_1_0_0_1_n_n_wf

class Facts : Prop extends Facts₀ where

variable [Facts]
-- ==== Proof.Bits.Block0.lean ====
import proofs.«178557_j80719615361183_1_alg».proof.Proof.Gen.Kernel.Launch
import proofs.«178557_j80719615361183_1_alg».proof.Proof.Gen.Kernel.Skeleton
import proofs.«178557_j80719615361183_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first product `x · W1`: one grid point multiplies a 1000-row block of `x` by the whole of `W1` -/

/-- The block of window `w` that grid point `t` works on, cut from the array the call is entered with. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows block of the left operand is in its staging buffer at every point: it is fetched at every point. -/
theorem rows0_found {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight matrix is in its staging buffer at every point: fetched at the first, and its block index never moves. -/
theorem weights0_found {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole of each staging buffer: the only rectangles the body touches. -/
abbrev all1000x256_0 : Rect S1000x256 := Rect.unit (s := S1000x256) ![0, 0] S1000x256.size inb_S1000x256_S1000x256_0_0
abbrev all256x256_0 : Rect S256x256 := Rect.unit (s := S256x256) ![0, 0] S256x256.size inb_S256x256_S256x256_0_0

/-- What one grid point leaves in the output's staging buffer: the product of the rows block and the weights, stored whole. -/
def prod0 (a : Vec F S1000x256 .f32) (b : Vec F S256x256 .f32) : Vec F S1000x256 .f32 :=
  View.canon [⟨all1000x256_0, k0_pay1 (View.ld a all1000x256_0) (View.ld b all256x256_0)⟩]

/-- The one store covers the output buffer. -/
theorem prod0_covers (p0 : Vec F S1000x256 .f32) (y : S1000x256.Idx) :
    ∃ pc ∈ ([⟨all1000x256_0, p0⟩] : List (View.Piece (Elt F) S1000x256 .f32)), y ∈ pc.1.set :=
  View.cover_of_tiled [⟨all1000x256_0, p0⟩] S1000x256.size (by rfl) y

set_option maxHeartbeats 1000000 in
/-- The body on whole staging buffers, the inputs' at given contents and the output's at anything: it ends with the inputs as they
    were and the output at `prod0` of them. -/
theorem body0_runs (c : Dev nD) (E : Set ℕ) (i : grid0.Coords)
    (arg1 : Memref sig .tc .vmem S1000x256 .f32) (harg1 : arg1.IsWhole)
    (arg2 : Memref sig .tc .vmem S256x256 .f32) (harg2 : arg2.IsWhole)
    (arg3 : Memref sig .tc .vmem S1000x256 .f32) (harg3 : arg3.IsWhole)
    (a : Vec F S1000x256 .f32) (b : Vec F S256x256 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b
            ∗ owns (c : Thread nD τ) arg3 fullShare (prod0 a b)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod0_covers _)

/-- The proof data of this call on core `c`: the arrays as the call finds them; after a point each input's buffer still at its
    block, the output's at `prod0` of the input blocks; nothing owed, full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_rows (c : Dev nD) (t : Fin cfg0.N) : (dat0 V c).after 0 t = blk0 V c 0 t := by dsimp only [dat0]
theorem dat0_after_weights (c : Dev nD) (t : Fin cfg0.N) : (dat0 V c).after 1 t = blk0 V c 1 t := by dsimp only [dat0]
theorem dat0_after_out (c : Dev nD) (t : Fin cfg0.N) : (dat0 V c).after 2 t = prod0 (blk0 V c 0 t) (blk0 V c 1 t) := by dsimp only [dat0]

theorem dat0_before_rows (c : Dev nD) (t : Fin cfg0.N) (d) : (dat0 V c).before 0 t d = blk0 V c 0 t :=
  rows0_found V (dat0 V c) (dat0_A V c 0) (dat0_after_rows V c) t d
theorem dat0_before_weights (c : Dev nD) (t : Fin cfg0.N) (d) : (dat0 V c).before 1 t d = blk0 V c 1 t :=
  weights0_found V (dat0 V c) (dat0_A V c 1) (dat0_after_weights V c) t d

/-- What the pipeline hands the body at point `t`, window by window, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it takes back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `body0_runs` applies; the invariant and what the core owes pass through. -/
theorem body0_at (c : Dev nD) (t : Fin cfg0.N) :
    handed0 V c t ⊢ wp frame (wpE (defs₀ (F := F)) Variants.none c none) Set.univ (bodyAt0 t) (fun _ => returned0 V c t) := by
  unfold handed0 returned0 bodyAt0
  simp only [dat0_before_rows, dat0_before_weights]
  rw [show (dat0 V c).Φ t.succ = (dat0 V c).Φ t.castSucc from rfl,
    show (dat0 V c).owesAt () t.succ = (dat0 V c).owesAt () t.castSucc from rfl,
    dat0_after_rows, dat0_after_weights, dat0_after_out]
  iintro ⟨HΦ, Ho, ⟨%d0, H0⟩, ⟨%d1, H1⟩, ⟨%d2, H2⟩⟩
  iapply (body0_runs c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this call, at every point. -/
theorem body0_obligation (c : Dev nD) : BodyObligation (dat0 (F := F) V c) (defs₀ (F := F)) Variants.none () Set.univ := fun t => by
  rw [bigSep_W0, bigSep_W0]
  exact body0_at V c t

end Cert.Kernel.Blocks

end
-- ==== Proof.Bits.Block1.lean ====
import proofs.«178557_j80719615361183_1_alg».proof.Proof.Gen.Kernel.Launch
import proofs.«178557_j80719615361183_1_alg».proof.Proof.Gen.Kernel.Skeleton
import proofs.«178557_j80719615361183_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second product `h1 · W2`: one grid point multiplies a 1000-row block of the normalised first layer by the whole of `W2` -/

/-- The block of window `w` that grid point `t` works on, cut from the array the call is entered with. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows block of the left operand is in its staging buffer at every point: it is fetched at every point. -/
theorem rows1_found {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The weight matrix is in its staging buffer at every point: fetched at the first, and its block index never moves. -/
theorem weights1_found {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole of each staging buffer: the only rectangles the body touches. -/
abbrev all1000x256_1 : Rect S1000x256 := Rect.unit (s := S1000x256) ![0, 0] S1000x256.size inb_S1000x256_S1000x256_0_0
abbrev all256x256_1 : Rect S256x256 := Rect.unit (s := S256x256) ![0, 0] S256x256.size inb_S256x256_S256x256_0_0

/-- What one grid point leaves in the output's staging buffer: the product of the rows block and the weights, stored whole. -/
def prod1 (a : Vec F S1000x256 .f32) (b : Vec F S256x256 .f32) : Vec F S1000x256 .f32 :=
  View.canon [⟨all1000x256_1, k1_pay1 (View.ld a all1000x256_1) (View.ld b all256x256_1)⟩]

/-- The one store covers the output buffer. -/
theorem prod1_covers (p0 : Vec F S1000x256 .f32) (y : S1000x256.Idx) :
    ∃ pc ∈ ([⟨all1000x256_1, p0⟩] : List (View.Piece (Elt F) S1000x256 .f32)), y ∈ pc.1.set :=
  View.cover_of_tiled [⟨all1000x256_1, p0⟩] S1000x256.size (by rfl) y

set_option maxHeartbeats 1000000 in
/-- The body on whole staging buffers, the inputs' at given contents and the output's at anything: it ends with the inputs as they
    were and the output at `prod1` of them. -/
theorem body1_runs (c : Dev nD) (E : Set ℕ) (i : grid1.Coords)
    (arg1 : Memref sig .tc .vmem S1000x256 .f32) (harg1 : arg1.IsWhole)
    (arg2 : Memref sig .tc .vmem S256x256 .f32) (harg2 : arg2.IsWhole)
    (arg3 : Memref sig .tc .vmem S1000x256 .f32) (harg3 : arg3.IsWhole)
    (a : Vec F S1000x256 .f32) (b : Vec F S256x256 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b
            ∗ owns (c : Thread nD τ) arg3 fullShare (prod1 a b)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod1_covers _)

/-- The proof data of this call on core `c`: the arrays as the call finds them; after a point each input's buffer still at its
    block, the output's at `prod1` of the input blocks; nothing owed, full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => prod1 (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after_rows (c : Dev nD) (t : Fin cfg1.N) : (dat1 V c).after 0 t = blk1 V c 0 t := by dsimp only [dat1]
theorem dat1_after_weights (c : Dev nD) (t : Fin cfg1.N) : (dat1 V c).after 1 t = blk1 V c 1 t := by dsimp only [dat1]
theorem dat1_after_out (c : Dev nD) (t : Fin cfg1.N) : (dat1 V c).after 2 t = prod1 (blk1 V c 0 t) (blk1 V c 1 t) := by dsimp only [dat1]

theorem dat1_before_rows (c : Dev nD) (t : Fin cfg1.N) (d) : (dat1 V c).before 0 t d = blk1 V c 0 t :=
  rows1_found V (dat1 V c) (dat1_A V c 0) (dat1_after_rows V c) t d
theorem dat1_before_weights (c : Dev nD) (t : Fin cfg1.N) (d) : (dat1 V c).before 1 t d = blk1 V c 1 t :=
  weights1_found V (dat1 V c) (dat1_A V c 1) (dat1_after_weights V c) t d

/-- What the pipeline hands the body at point `t`, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it takes back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `body1_runs` applies; the invariant and what the core owes pass through. -/
theorem body1_at (c : Dev nD) (t : Fin cfg1.N) :
    handed1 V c t ⊢ wp frame (wpE (defs₀ (F := F)) Variants.none c none) Set.univ (bodyAt1 t) (fun _ => returned1 V c t) := by
  unfold handed1 returned1 bodyAt1
  simp only [dat1_before_rows, dat1_before_weights]
  rw [show (dat1 V c).Φ t.succ = (dat1 V c).Φ t.castSucc from rfl,
    show (dat1 V c).owesAt () t.succ = (dat1 V c).owesAt () t.castSucc from rfl,
    dat1_after_rows, dat1_after_weights, dat1_after_out]
  iintro ⟨HΦ, Ho, ⟨%d0, H0⟩, ⟨%d1, H1⟩, ⟨%d2, H2⟩⟩
  iapply (body1_runs c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this call, at every point. -/
theorem body1_obligation (c : Dev nD) : BodyObligation (dat1 (F := F) V c) (defs₀ (F := F)) Variants.none () Set.univ := fun t => by
  rw [bigSep_W1, bigSep_W1]
  exact body1_at V c t

end Cert.Kernel.Blocks

end
-- ==== Proof.Bits.Block2.lean ====
import proofs.«178557_j80719615361183_1_alg».proof.Proof.Gen.Kernel.Launch
import proofs.«178557_j80719615361183_1_alg».proof.Proof.Gen.Kernel.Skeleton
import proofs.«178557_j80719615361183_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first recurrent step from a zero state: one grid point turns a 1000-row block of `[h1, h2]` into its hidden state -/

/-- The block of window `w` that grid point `t` works on, cut from the array the call is entered with. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows block of the concatenated features is in its staging buffer at every point: it is fetched at every point. -/
theorem rows2_found {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The transposed input weights are in their staging buffer at every point: fetched at the first, and the block index never moves. -/
theorem weights2_found {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The summed bias row is in its staging buffer at every point: fetched at the first, and the block index never moves. -/
theorem bias2_found {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole of each staging buffer: the only rectangles the body touches. -/
abbrev all1000x512_2 : Rect S1000x512 := Rect.unit (s := S1000x512) ![0, 0] S1000x512.size inb_S1000x512_S1000x512_0_0
abbrev all512x1024_2 : Rect S512x1024 := Rect.unit (s := S512x1024) ![0, 0] S512x1024.size inb_S512x1024_S512x1024_0_0
abbrev all1x1024_2 : Rect S1x1024 := Rect.unit (s := S1x1024) ![0, 0] S1x1024.size inb_S1x1024_S1x1024_0_0
abbrev all1000x256_2 : Rect S1000x256 := Rect.unit (s := S1000x256) ![0, 0] S1000x256.size inb_S1000x256_S1000x256_0_0

/-- What one grid point leaves in the output's staging buffer: the gated hidden state of the rows block, stored whole. -/
def cell2 (a : Vec F S1000x512 .f32) (b : Vec F S512x1024 .f32) (v : Vec F S1x1024 .f32) : Vec F S1000x256 .f32 :=
  View.canon [⟨all1000x256_2, k2_pay1 (View.ld a all1000x512_2) (View.ld b all512x1024_2) (View.ld v all1x1024_2)⟩]

/-- The one store covers the output buffer. -/
theorem cell2_covers (p0 : Vec F S1000x256 .f32) (y : S1000x256.Idx) :
    ∃ pc ∈ ([⟨all1000x256_2, p0⟩] : List (View.Piece (Elt F) S1000x256 .f32)), y ∈ pc.1.set :=
  View.cover_of_tiled [⟨all1000x256_2, p0⟩] S1000x256.size (by rfl) y

set_option maxHeartbeats 1000000 in
/-- The body on whole staging buffers, the inputs' at given contents and the output's at anything: it ends with the inputs as they
    were and the output at `cell2` of them. -/
theorem body2_runs (c : Dev nD) (E : Set ℕ) (i : grid2.Coords)
    (arg1 : Memref sig .tc .vmem S1000x512 .f32) (harg1 : arg1.IsWhole)
    (arg2 : Memref sig .tc .vmem S512x1024 .f32) (harg2 : arg2.IsWhole)
    (arg3 : Memref sig .tc .vmem S1x1024 .f32) (harg3 : arg3.IsWhole)
    (arg4 : Memref sig .tc .vmem S1000x256 .f32) (harg4 : arg4.IsWhole)
    (a : Vec F S1000x512 .f32) (b : Vec F S512x1024 .f32) (v : Vec F S1x1024 .f32) (K : PUnit → sProp 𝕄) :
    iprop(owns (c : Thread nD τ) arg1 fullShare a ∗ owns (c : Thread nD τ) arg2 fullShare b ∗ owns (c : Thread nD τ) arg3 fullShare v ∗ (∃ d, owns (c : Thread nD τ) arg4 fullShare d)
        ∗ (iprop(owns (c : Thread nD τ) arg1 fullShare a ∗ owns (c : Thread nD τ) arg2 fullShare b ∗ owns (c : Thread nD τ) arg3 fullShare v
            ∗ owns (c : Thread nD τ) arg4 fullShare (cell2 a b v)) -∗ K ⟨⟩))
      ⊢ wp frame (wpE (defs₀ (F := F)) Variants.none c none) E (cc2__lstm_kernel i arg1 harg1 arg2 harg2 arg3 harg3 arg4 harg4) K := by
  simp only [cc2__lstm_kernel_eq_skeleton]; unfold cc2__lstm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cell2_covers _)

/-- The proof data of this call on core `c`: the arrays as the call finds them; after a point each input's buffer still at its
    block, the output's at `cell2` of the input blocks; nothing owed, full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => cell2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after_rows (c : Dev nD) (t : Fin cfg2.N) : (dat2 V c).after 0 t = blk2 V c 0 t := by dsimp only [dat2]
theorem dat2_after_weights (c : Dev nD) (t : Fin cfg2.N) : (dat2 V c).after 1 t = blk2 V c 1 t := by dsimp only [dat2]
theorem dat2_after_bias (c : Dev nD) (t : Fin cfg2.N) : (dat2 V c).after 2 t = blk2 V c 2 t := by dsimp only [dat2]
theorem dat2_after_out (c : Dev nD) (t : Fin cfg2.N) : (dat2 V c).after 3 t = cell2 (blk2 V c 0 t) (blk2 V c 1 t) (blk2 V c 2 t) := by dsimp only [dat2]

theorem dat2_before_rows (c : Dev nD) (t : Fin cfg2.N) (d) : (dat2 V c).before 0 t d = blk2 V c 0 t :=
  rows2_found V (dat2 V c) (dat2_A V c 0) (dat2_after_rows V c) t d
theorem dat2_before_weights (c : Dev nD) (t : Fin cfg2.N) (d) : (dat2 V c).before 1 t d = blk2 V c 1 t :=
  weights2_found V (dat2 V c) (dat2_A V c 1) (dat2_after_weights V c) t d
theorem dat2_before_bias (c : Dev nD) (t : Fin cfg2.N) (d) : (dat2 V c).before 2 t d = blk2 V c 2 t :=
  bias2_found V (dat2 V c) (dat2_A V c 2) (dat2_after_bias V c) t d

/-- What the pipeline hands the body at point `t`, window by window, -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it takes back. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `body2_runs` applies; the invariant and what the core owes pass through. -/
theorem body2_at (c : Dev nD) (t : Fin cfg2.N) :
    handed2 V c t ⊢ wp frame (wpE (defs₀ (F := F)) Variants.none c none) Set.univ (bodyAt2 t) (fun _ => returned2 V c t) := by
  unfold handed2 returned2 bodyAt2
  simp only [dat2_before_rows, dat2_before_weights, dat2_before_bias]
  rw [show (dat2 V c).Φ t.succ = (dat2 V c).Φ t.castSucc from rfl,
    show (dat2 V c).owesAt () t.succ = (dat2 V c).owesAt () t.castSucc from rfl,
    dat2_after_rows, dat2_after_weights, dat2_after_bias, dat2_after_out]
  iintro ⟨HΦ, Ho, ⟨%d0, H0⟩, ⟨%d1, H1⟩, ⟨%d2, H2⟩, ⟨%d3, H3⟩⟩
  iapply (body2_runs c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this call, at every point. -/
theorem body2_obligation (c : Dev nD) : BodyObligation (dat2 (F := F) V c) (defs₀ (F := F)) Variants.none () Set.univ := fun t => by
  rw [bigSep_W2, bigSep_W2]
  exact body2_at V c t

end Cert.Kernel.Blocks

end
-- ==== Proof.Bits.Block3.lean ====
import proofs.«178557_j80719615361183_1_alg».proof.Proof.Gen.Kernel.Launch
import proofs.«178557_j80719615361183_1_alg».proof.Proof.Gen.Kernel.Skeleton
import proofs.«178557_j80719615361183_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second recurrent step from a zero state: one grid point turns a 1000-row block of the first hidden state into the second -/

/-- The block of window `w` that grid point `t` works on, cut from the array the call is entered with. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows block of the first hidden state is in its staging buffer at every point: it is fetched at every point. -/
theorem rows3_found {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The transposed input weights are in their staging buffer at every point: fetched at the first, and the block index never moves. -/
theorem weights3_found {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The summed bias row is in its staging buffer at every point: fetched at the first, and the block index never moves. -/
theorem bias3_found {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- The whole of each staging buffer: the only rectangles the body touches. -/
abbrev all1000x256_3 : Rect S1000x256 := Rect.unit (s := S1000x256) ![0, 0] S1000x256.size inb_S1000x256_S1000x256_0_0
abbrev all256x1024_3 : Rect S256x1024 := Rect.unit (s := S256x1024) ![0, 0] S256x1024.size inb_S256x1024_S256x1024_0_0
abbrev all1x1024_3 : Rect S1x1024 := Rect.unit (s := S1x1024) ![0, 0] S1x1024.size inb_S1x1024_S1x1024_0_0

/-- What one grid point leaves in the output's staging buffer: the gated hidden state of the rows block, stored whole. -/
def cell3 (a : Vec F S1000x256 .f32) (b : Vec F S256x1024 .f32) (v : Vec F S1x1024 .f32) : Vec F S1000x256 .f32 :=
  View.canon [⟨all1000x256_3, k3_pay1 (View.ld a all1000x256_3) (View.ld b all256x1024_3) (View.ld v all1x1024_3)⟩]

/-- The one store covers the output buffer. -/
theorem cell3_covers (p0 : Vec F S1000x256 .f32) (y : S1000x256.Idx) :
    ∃ pc ∈ ([⟨all1000x256_3, p0⟩] : List (View.Piece (Elt F) S1000x256 .f32)), y ∈ pc.1.set :=
  View.cover_of_tiled [⟨all1000x256_3, p0⟩] S1000x256.size (by rfl) y

set_option maxHeartbeats 1000000 in
/-- The body on whole staging buffers, the inputs' at given contents and the output's at anything: it ends with the inputs as they
    were and the output at `cell3` of them. -/
theorem body3_runs (c : Dev nD) (E : Set ℕ) (i : grid3.Coords)
    (arg1 : Memref sig .tc .vmem S1000x256 .f32) (harg1 : arg1.IsWhole)
    (arg2 : Memref sig .tc .vmem S256x1024 .f32) (harg2 : arg2.IsWhole)
    (arg3 : Memref sig .tc .vmem S1x1024 .f32) (harg3 : arg3.IsWhole)
    (arg4 : Memref sig .tc .vmem S1000x256 .f32) (harg4 : arg4.IsWhole)
    (a : Vec F S1000x256 .f32) (b : Vec F S256x1024 .f32) (v : Vec F S1x1024 .f32) (K : PUnit → sProp 𝕄) :
    iprop(owns (c : Thread nD τ) arg1 fullShare a ∗ owns (c : Thread nD τ) arg2 fullShare b ∗ owns (c : Thread nD τ) arg3 fullShare v ∗ (∃ d, owns (c : Thread nD τ) arg4 fullShare d)
        ∗ (iprop(owns (c : Thread nD τ) arg1 fullShare a ∗ owns (c : Thread nD τ) arg2 fullShare b ∗ owns (c : Thread nD τ) arg3 fullShare v
            ∗ owns (c : Thread nD τ) arg4 fullShare (cell3 a b v)) -∗ K ⟨⟩))
      ⊢ wp frame (wpE (defs₀ (F := F)) Variants.none c none) E (cc3__lstm_kernel i arg1 harg1 arg2 harg2 arg3 harg3 arg4 harg4) K := by
  simp only [cc3__lstm_kernel_eq_skeleton]; unfold cc3__lstm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cell3_covers _)

/-- The proof data of this call on core `c`: the arrays as the call finds them; after a point each input's buffer still at its
    block, the output's at `cell3` of the input blocks; nothing owed, full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => cell3 (blk3 V c 0 t) (blk3 V c 1 t) (blk3 V c 2 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after_rows (c : Dev nD) (t : Fin cfg3.N) : (dat3 V c).after 0 t = blk3 V c 0 t := by dsimp only [dat3]
theorem dat3_after_weights (c : Dev nD) (t : Fin cfg3.N) : (dat3 V c).after 1 t = blk3 V c 1 t := by dsimp only [dat3]
theorem dat3_after_bias (c : Dev nD) (t : Fin cfg3.N) : (dat3 V c).after 2 t = blk3 V c 2 t := by dsimp only [dat3]
theorem dat3_after_out (c : Dev nD) (t : Fin cfg3.N) : (dat3 V c).after 3 t = cell3 (blk3 V c 0 t) (blk3 V c 1 t) (blk3 V c 2 t) := by dsimp only [dat3]

theorem dat3_before_rows (c : Dev nD) (t : Fin cfg3.N) (d) : (dat3 V c).before 0 t d = blk3 V c 0 t :=
  rows3_found V (dat3 V c) (dat3_A V c 0) (dat3_after_rows V c) t d
theorem dat3_before_weights (c : Dev nD) (t : Fin cfg3.N) (d) : (dat3 V c).before 1 t d = blk3 V c 1 t :=
  weights3_found V (dat3 V c) (dat3_A V c 1) (dat3_after_weights V c) t d
theorem dat3_before_bias (c : Dev nD) (t : Fin cfg3.N) (d) : (dat3 V c).before 2 t d = blk3 V c 2 t :=
  bias3_found V (dat3 V c) (dat3_A V c 2) (dat3_after_bias V c) t d

/-- What the pipeline hands the body at point `t`, window by window, -/
def handed3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it takes back. -/
def returned3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `body3_runs` applies; the invariant and what the core owes pass through. -/
theorem body3_at (c : Dev nD) (t : Fin cfg3.N) :
    handed3 V c t ⊢ wp frame (wpE (defs₀ (F := F)) Variants.none c none) Set.univ (bodyAt3 t) (fun _ => returned3 V c t) := by
  unfold handed3 returned3 bodyAt3
  simp only [dat3_before_rows, dat3_before_weights, dat3_before_bias]
  rw [show (dat3 V c).Φ t.succ = (dat3 V c).Φ t.castSucc from rfl,
    show (dat3 V c).owesAt () t.succ = (dat3 V c).owesAt () t.castSucc from rfl,
    dat3_after_rows, dat3_after_weights, dat3_after_bias, dat3_after_out]
  iintro ⟨HΦ, Ho, ⟨%d0, H0⟩, ⟨%d1, H1⟩, ⟨%d2, H2⟩, ⟨%d3, H3⟩⟩
  iapply (body3_runs c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this call, at every point. -/
theorem body3_obligation (c : Dev nD) : BodyObligation (dat3 (F := F) V c) (defs₀ (F := F)) Variants.none () Set.univ := fun t => by
  rw [bigSep_W3, bigSep_W3]
  exact body3_at V c t

end Cert.Kernel.Blocks

end
-- ==== Proof.Bits.Calls.lean ====
import proofs.«178557_j80719615361183_1_alg».proof.Proof.Gen.Kernel.Regions
import proofs.«178557_j80719615361183_1_alg».proof.Proof.Bits.Block0
import proofs.«178557_j80719615361183_1_alg».proof.Proof.Bits.Block1
import proofs.«178557_j80719615361183_1_alg».proof.Proof.Bits.Block2
import proofs.«178557_j80719615361183_1_alg».proof.Proof.Bits.Block3

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! # The four calls in sequence

Between two items of the program every buffer outside the kernels' scratch holds a known array: the launch contents pushed through
the host operations so far, with each call's result array at `outs`. Each call is entered from those contents and leaves them
changed at its one result array only. -/

/-- The contents each call is entered with and leaves, read at the program's references. -/
abbrev into0 (c : Dev nD) (b : Ref sig .tc) : Buf (Elt F) ((c : Thread nD τ).loc b) := V5 m c b
abbrev outof0 (c : Dev nD) (b : Ref sig .tc) : Buf (Elt F) ((c : Thread nD τ).loc b) := V6 m outs c b
abbrev into1 (c : Dev nD) (b : Ref sig .tc) : Buf (Elt F) ((c : Thread nD τ).loc b) := V9 m outs c b
abbrev outof1 (c : Dev nD) (b : Ref sig .tc) : Buf (Elt F) ((c : Thread nD τ).loc b) := V10 m outs c b
abbrev into2 (c : Dev nD) (b : Ref sig .tc) : Buf (Elt F) ((c : Thread nD τ).loc b) := V13 m outs c b
abbrev outof2 (c : Dev nD) (b : Ref sig .tc) : Buf (Elt F) ((c : Thread nD τ).loc b) := V14 m outs c b
abbrev into3 (c : Dev nD) (b : Ref sig .tc) : Buf (Elt F) ((c : Thread nD τ).loc b) := V15 m outs c b
abbrev outof3 (c : Dev nD) (b : Ref sig .tc) : Buf (Elt F) ((c : Thread nD τ).loc b) := V16 m outs c b

/-- `outs` names what each call's write-backs leave in its result array. -/
structure Fits : Prop where
  at0 : ∀ c : Dev nD, (dat0 (into0 m) c).arrAt 2 cfg0.N = outs 6 main_v35 c
  at1 : ∀ c : Dev nD, (dat1 (into1 m outs) c).arrAt 2 cfg1.N = outs 10 main_v78 c
  at2 : ∀ c : Dev nD, (dat2 (into2 m outs) c).arrAt 3 cfg2.N = outs 14 main_v125 c
  at3 : ∀ c : Dev nD, (dat3 (into3 m outs) c).arrAt 3 cfg3.N = outs 16 main_v129 c

/-- The proof data of the four calls, each at the contents it is entered with. -/
def pdats : (p : Fin 4) → (c : Dev nD) → Dat τ (Elt F) Unit ℕ (UR sig nD τ) ℕ (cfgs p) c
  | ⟨0, _⟩ => fun c => dat0 (into0 m) c
  | ⟨1, _⟩ => fun c => dat1 (into1 m outs) c
  | ⟨2, _⟩ => fun c => dat2 (into2 m outs) c
  | ⟨3, _⟩ => fun c => dat3 (into3 m outs) c

abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

/-- At the exit of call 0 each of its arrays holds what the pipeline leaves: an input as entered, the result at `outs`. -/
theorem leaves0 (hf : Fits m outs) (c : Dev nD) : ∀ w : Fin cfg0.W, (pdats m outs 0 c).arrAt w cfg0.N = outof0 m outs c (Pipeline.arrRef spec0 w)
  | ⟨0, _⟩ => ((pdats m outs 0 c).arrAt_in 0 rfl _).trans ((dat0_A (into0 m) c 0).trans (V6_of m outs c main_arg0 (by decide)).symm)
  | ⟨1, _⟩ => ((pdats m outs 0 c).arrAt_in 1 rfl _).trans ((dat0_A (into0 m) c 1).trans (V6_of m outs c main_arg3 (by decide)).symm)
  | ⟨2, _⟩ => (hf.at0 c).trans (Function.update_self (Proc.devRef .tc main_v35 : DevRef τ sig) (outs 6 main_v35 c) (V5 m c)).symm

/-- and every other buffer what it held at entry. -/
theorem keeps0 (c : Dev nD) : ∀ b : Ref sig .tc, b ∉ Finset.univ.image (Pipeline.arrRef spec0) → outof0 m outs c b = into0 m c b :=
  fun b hb => V6_of m outs c b (by
    intro h; rw [List.mem_singleton] at h; subst h
    exact hb (Finset.mem_image.mpr ⟨2, Finset.mem_univ _, rfl⟩))

set_option backward.isDefEq.respectTransparency.types false in
/-- Call 0 as an item of the run: entered with every unscoped buffer at `V5`, left at `V6`. Its arrays are split out of
    the unscoped buffers and put back at the exit contents; the generator register passes through the invariant; nothing is owed. -/
def call0 (hf : Fits m outs) : RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body0_obligation (into0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec0 c (into0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (into0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (into0 m c) (outof0 m outs c) ((pdats m outs 0 c).arrAt · cfg0.N) (leaves0 m outs hf c) (keeps0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the exit of call 1 each of its arrays holds what the pipeline leaves: an input as entered, the result at `outs`. -/
theorem leaves1 (hf : Fits m outs) (c : Dev nD) : ∀ w : Fin cfg1.W, (pdats m outs 1 c).arrAt w cfg1.N = outof1 m outs c (Pipeline.arrRef spec1 w)
  | ⟨0, _⟩ => ((pdats m outs 1 c).arrAt_in 0 rfl _).trans ((dat1_A (into1 m outs) c 0).trans (V10_of m outs c main_v77 (by decide)).symm)
  | ⟨1, _⟩ => ((pdats m outs 1 c).arrAt_in 1 rfl _).trans ((dat1_A (into1 m outs) c 1).trans (V10_of m outs c main_arg5 (by decide)).symm)
  | ⟨2, _⟩ => (hf.at1 c).trans (Function.update_self (Proc.devRef .tc main_v78 : DevRef τ sig) (outs 10 main_v78 c) (V9 m outs c)).symm

/-- and every other buffer what it held at entry. -/
theorem keeps1 (c : Dev nD) : ∀ b : Ref sig .tc, b ∉ Finset.univ.image (Pipeline.arrRef spec1) → outof1 m outs c b = into1 m outs c b :=
  fun b hb => V10_of m outs c b (by
    intro h; rw [List.mem_singleton] at h; subst h
    exact hb (Finset.mem_image.mpr ⟨2, Finset.mem_univ _, rfl⟩))

set_option backward.isDefEq.respectTransparency.types false in
/-- Call 1 as an item of the run: entered with every unscoped buffer at `V9`, left at `V10`. Its arrays are split out of
    the unscoped buffers and put back at the exit contents; the generator register passes through the invariant; nothing is owed. -/
def call1 (hf : Fits m outs) : RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body1_obligation (into1 m outs) c).loose
  hwaits := Pipeline.hwaits_of_owed_zero _ _ _ _ L lv 1 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec1 c (into1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (into1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (into1 m outs c) (outof1 m outs c) ((pdats m outs 1 c).arrAt · cfg1.N) (leaves1 m outs hf c) (keeps1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the exit of call 2 each of its arrays holds what the pipeline leaves: an input as entered, the result at `outs`. -/
theorem leaves2 (hf : Fits m outs) (c : Dev nD) : ∀ w : Fin cfg2.W, (pdats m outs 2 c).arrAt w cfg2.N = outof2 m outs c (Pipeline.arrRef spec2 w)
  | ⟨0, _⟩ => ((pdats m outs 2 c).arrAt_in 0 rfl _).trans ((dat2_A (into2 m outs) c 0).trans (V14_of m outs c main_v121 (by decide)).symm)
  | ⟨1, _⟩ => ((pdats m outs 2 c).arrAt_in 1 rfl _).trans ((dat2_A (into2 m outs) c 1).trans (V14_of m outs c main_v122 (by decide)).symm)
  | ⟨2, _⟩ => ((pdats m outs 2 c).arrAt_in 2 rfl _).trans ((dat2_A (into2 m outs) c 2).trans (V14_of m outs c main_v124 (by decide)).symm)
  | ⟨3, _⟩ => (hf.at2 c).trans (Function.update_self (Proc.devRef .tc main_v125 : DevRef τ sig) (outs 14 main_v125 c) (V13 m outs c)).symm

/-- and every other buffer what it held at entry. -/
theorem keeps2 (c : Dev nD) : ∀ b : Ref sig .tc, b ∉ Finset.univ.image (Pipeline.arrRef spec2) → outof2 m outs c b = into2 m outs c b :=
  fun b hb => V14_of m outs c b (by
    intro h; rw [List.mem_singleton] at h; subst h
    exact hb (Finset.mem_image.mpr ⟨3, Finset.mem_univ _, rfl⟩))

set_option backward.isDefEq.respectTransparency.types false in
/-- Call 2 as an item of the run: entered with every unscoped buffer at `V13`, left at `V14`. Its arrays are split out of
    the unscoped buffers and put back at the exit contents; the generator register passes through the invariant; nothing is owed. -/
def call2 (hf : Fits m outs) : RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body2_obligation (into2 m outs) c).loose
  hwaits := Pipeline.hwaits_of_owed_zero _ _ _ _ L lv 2 fun _ _ => rfl
  pre c := iprop(StableHlo.held (c : Thread nD τ) (Pipeline.ucRefs τ sig) (V13 m outs c) ∗ R c)
  post c := iprop(StableHlo.held (c : Thread nD τ) (Pipeline.ucRefs τ sig) (V14 m outs c) ∗ R c)
  X c := iprop(∃ r, prngReg c r)
  Y c := iprop(∃ r, prngReg c r)
  Z c := Pipeline.unscopedRest (Ix := Unit) (Name := ℕ) (U := UR sig nD τ) (Lvl := ℕ) spec2 c (into2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (into2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (into2 m outs c) (outof2 m outs c) ((pdats m outs 2 c).arrAt · cfg2.N) (leaves2 m outs hf c) (keeps2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the exit of call 3 each of its arrays holds what the pipeline leaves: an input as entered, the result at `outs`. -/
theorem leaves3 (hf : Fits m outs) (c : Dev nD) : ∀ w : Fin cfg3.W, (pdats m outs 3 c).arrAt w cfg3.N = outof3 m outs c (Pipeline.arrRef spec3 w)
  | ⟨0, _⟩ => ((pdats m outs 3 c).arrAt_in 0 rfl _).trans ((dat3_A (into3 m outs) c 0).trans (V16_of m outs c main_v125 (by decide)).symm)
  | ⟨1, _⟩ => ((pdats m outs 3 c).arrAt_in 1 rfl _).trans ((dat3_A (into3 m outs) c 1).trans (V16_of m outs c main_v126 (by decide)).symm)
  | ⟨2, _⟩ => ((pdats m outs 3 c).arrAt_in 2 rfl _).trans ((dat3_A (into3 m outs) c 2).trans (V16_of m outs c main_v128 (by decide)).symm)
  | ⟨3, _⟩ => (hf.at3 c).trans (Function.update_self (Proc.devRef .tc main_v129 : DevRef τ sig) (outs 16 main_v129 c) (V15 m outs c)).symm

/-- and every other buffer what it held at entry. -/
theorem keeps3 (c : Dev nD) : ∀ b : Ref sig .tc, b ∉ Finset.univ.image (Pipeline.arrRef spec3) → outof3 m outs c b = into3 m outs c b :=
  fun b hb => V16_of m outs c b (by
    intro h; rw [List.mem_singleton] at h; subst h
    exact hb (Finset.mem_image.mpr ⟨3, Finset.mem_univ _, rfl⟩))

set_option backward.isDefEq.respectTransparency.types false in
/-- Call 3 as an item of the run: entered with every unscoped buffer at `V15`, left at `V16`. Its arrays are split out of
    the unscoped buffers and put back at the exit contents; the generator register passes through the invariant; nothing is owed. -/
def call3 (hf : Fits m outs) : RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body3_obligation (into3 m outs) c).loose
  hwaits := Pipeline.hwaits_of_owed_zero _ _ _ _ L lv 3 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec3 c (into3 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (into3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (into3 m outs c) (outof3 m outs c) ((pdats m outs 3 c).arrAt · cfg3.N) (leaves3 m outs hf c) (keeps3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Blocks

end
-- ==== Proof.Bits.Whole.lean ====
import proofs.«178557_j80719615361183_1_alg».proof.Proof.Bits.Calls

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! # The whole program: host operations and the four calls, in order -/

/-- The launch's ghost state: the cells' tokens, and nothing else to share out. -/
theorem launch_tokens :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- A core's share of the launch makes what rides beside the buffers: its generator register, and nothing owed. -/
theorem rider_of_launch (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

theorem rider_owes (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- From any memory with zero counters every weakly fair execution of the program terminates, nothing faulting, and every buffer
    outside the kernels' scratch ends at the last contents: the launch memory pushed through every host operation, each call's
    result array at `outs`. -/
theorem run_reads (hf : Fits m outs) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V17 m outs c b) := by
  refine Pipeline.θ_run_regions_kit_dev (pcfgs (F := F)) adm (pdats m outs) () cellOf_inj emb₁ defs₀ 𝒱₀ L lv m ρ main
    (Gen.segs m outs 𝒱₀ L lv (fun _ c => R c) () (pdats m outs) (call0 m outs hf) (call1 m outs hf) (call2 m outs hf) (call3 m outs hf))
    (fun c Q => by
      rewrite [main_chain c, Seg.run_eq_chain,
        show (Gen.segs m outs 𝒱₀ L lv (fun _ c => R c) () (pdats m outs) (call0 m outs hf) (call1 m outs hf) (call2 m outs hf) (call3 m outs hf) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4 ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj)) launch_tokens
    (T₀ := fun c => iprop(StableHlo.held (c : Thread nD τ) (Pipeline.ucRefs τ sig) (V0 m c) ∗ R c))
    (Tₙ := fun c => StableHlo.held (c : Thread nD τ) (Pipeline.ucRefs τ sig) (V17 m outs c))
    (hch := fun c => ⟨.rfl, .rfl, .rfl, .rfl, .rfl, .rfl, .rfl, .rfl, .rfl, .rfl, .rfl, .rfl, .rfl, .rfl, .rfl, .rfl, .rfl, sep_mono .rfl (rider_owes c)⟩)
    (hinit := ?_) (QY := fun c s => ∀ b ∈ Pipeline.ucRefs τ sig, s.mem ((c : Thread nD τ).1, b) = V17 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
                ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rider_of_launch (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => R (F := F) c)]
    isplitl [Hh]; · iexact Hh
    iexact HE
  · unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro; exact h
    · iexact HSI

/-- A reference of the program that is not a kernel's scratch is among those the run's post speaks of. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The argument arrays end as launched. -/
theorem arguments_kept (hf : Fits m outs) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_unscoped main_arg0 (by decide))).trans (V17_main_arg0 m outs c),
     (h c _ (mem_unscoped main_arg1 (by decide))).trans (V17_main_arg1 m outs c),
     (h c _ (mem_unscoped main_arg2 (by decide))).trans (V17_main_arg2 m outs c),
     (h c _ (mem_unscoped main_arg3 (by decide))).trans (V17_main_arg3 m outs c),
     (h c _ (mem_unscoped main_arg4 (by decide))).trans (V17_main_arg4 m outs c),
     (h c _ (mem_unscoped main_arg5 (by decide))).trans (V17_main_arg5 m outs c),
     (h c _ (mem_unscoped main_arg6 (by decide))).trans (V17_main_arg6 m outs c),
     (h c _ (mem_unscoped main_arg7 (by decide))).trans (V17_main_arg7 m outs c),
     (h c _ (mem_unscoped main_arg8 (by decide))).trans (V17_main_arg8 m outs c),
     (h c _ (mem_unscoped main_arg9 (by decide))).trans (V17_main_arg9 m outs c),
     (h c _ (mem_unscoped main_arg10 (by decide))).trans (V17_main_arg10 m outs c),
     (h c _ (mem_unscoped main_arg11 (by decide))).trans (V17_main_arg11 m outs c),
     (h c _ (mem_unscoped main_arg12 (by decide))).trans (V17_main_arg12 m outs c),
     (h c _ (mem_unscoped main_arg13 (by decide))).trans (V17_main_arg13 m outs c),
     (h c _ (mem_unscoped main_arg14 (by decide))).trans (V17_main_arg14 m outs c),
     (h c _ (mem_unscoped main_arg15 (by decide))).trans (V17_main_arg15 m outs c),
     (h c _ (mem_unscoped main_arg16 (by decide))).trans (V17_main_arg16 m outs c),
     (h c _ (mem_unscoped main_arg17 (by decide))).trans (V17_main_arg17 m outs c),
     (h c _ (mem_unscoped main_arg18 (by decide))).trans (V17_main_arg18 m outs c)⟩)
    (run_reads m outs hf ρ)

end Cert.Kernel.Blocks

end
-- ==== Proof.Bits.Outs.lean ====
import proofs.«178557_j80719615361183_1_alg».proof.Proof.Bits.Calls

set_option maxRecDepth 16384

noncomputable section

namespace Cert.Kernel.Blocks

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-! # There is a fitting `outs`

Each call's result depends on the earlier calls' results only (through the host operations between them), so the four result arrays
are fixed one after the other: start from any filler, then set the first call's result, then the second's computed from the
contents that follow from the first, and so on. A later setting never changes what an earlier call is entered with. -/

/-- `o` with `v` at the one point `(j, y)`. -/
def put (o : Gen.Outs (F := F)) (j : ℕ) (y : Ref sig .tc) (v : (c : Dev nD) → Buf (Elt F) ((c : Thread nD τ).loc y)) : Gen.Outs (F := F) :=
  fun j' r c => if h : j' = j ∧ r = y then h.2 ▸ v c else o j' r c

theorem put_at (o : Gen.Outs (F := F)) (j : ℕ) (y : Ref sig .tc) (v) (c : Dev nD) : put o j y v j y c = v c := by
  unfold put; rw [dif_pos ⟨rfl, rfl⟩]

theorem put_off (o : Gen.Outs (F := F)) (j : ℕ) (y : Ref sig .tc) (v) (j' : ℕ) (r : Ref sig .tc) (c : Dev nD) (h : j' ≠ j) :
    put o j y v j' r c = o j' r c := by
  unfold put; rw [dif_neg fun hh => h hh.1]

/-- The contents the second call is entered with read `outs` at the first call's result only, -/
theorem into1_congr (o o' : Gen.Outs (F := F)) (h : ∀ c, o 6 main_v35 c = o' 6 main_v35 c) : into1 m o = into1 m o' := by
  funext c b
  show StableHlo.after hostOps1_2 (StableHlo.after hostOps1_1 (StableHlo.after hostOps1 (Function.update (V5 m c) _ (o 6 main_v35 c)))) _
     = StableHlo.after hostOps1_2 (StableHlo.after hostOps1_1 (StableHlo.after hostOps1 (Function.update (V5 m c) _ (o' 6 main_v35 c)))) _
  rw [h c]

theorem V9_congr (o o' : Gen.Outs (F := F)) (h : ∀ c, o 6 main_v35 c = o' 6 main_v35 c) (c : Dev nD) : V9 m o c = V9 m o' c := by
  show StableHlo.after hostOps1_2 (StableHlo.after hostOps1_1 (StableHlo.after hostOps1 (Function.update (V5 m c) _ (o 6 main_v35 c))))
     = StableHlo.after hostOps1_2 (StableHlo.after hostOps1_1 (StableHlo.after hostOps1 (Function.update (V5 m c) _ (o' 6 main_v35 c))))
  rw [h c]

/-- the third at the first two, -/
theorem V13_congr (o o' : Gen.Outs (F := F)) (h6 : ∀ c, o 6 main_v35 c = o' 6 main_v35 c) (h10 : ∀ c, o 10 main_v78 c = o' 10 main_v78 c)
    (c : Dev nD) : V13 m o c = V13 m o' c := by
  show StableHlo.after hostOps2_2 (StableHlo.after hostOps2_1 (StableHlo.after hostOps2 (Function.update (V9 m o c) _ (o 10 main_v78 c))))
     = StableHlo.after hostOps2_2 (StableHlo.after hostOps2_1 (StableHlo.after hostOps2 (Function.update (V9 m o' c) _ (o' 10 main_v78 c))))
  rw [V9_congr m o o' h6 c, h10 c]

theorem into2_congr (o o' : Gen.Outs (F := F)) (h6 : ∀ c, o 6 main_v35 c = o' 6 main_v35 c) (h10 : ∀ c, o 10 main_v78 c = o' 10 main_v78 c) :
    into2 m o = into2 m o' := by
  funext c b; exact congrFun (V13_congr m o o' h6 h10 c) _

/-- the fourth at the first three. -/
theorem V15_congr (o o' : Gen.Outs (F := F)) (h6 : ∀ c, o 6 main_v35 c = o' 6 main_v35 c) (h10 : ∀ c, o 10 main_v78 c = o' 10 main_v78 c)
    (h14 : ∀ c, o 14 main_v125 c = o' 14 main_v125 c) (c : Dev nD) : V15 m o c = V15 m o' c := by
  show StableHlo.after hostOps3 (Function.update (V13 m o c) _ (o 14 main_v125 c))
     = StableHlo.after hostOps3 (Function.update (V13 m o' c) _ (o' 14 main_v125 c))
  rw [V13_congr m o o' h6 h10 c, h14 c]

theorem into3_congr (o o' : Gen.Outs (F := F)) (h6 : ∀ c, o 6 main_v35 c = o' 6 main_v35 c) (h10 : ∀ c, o 10 main_v78 c = o' 10 main_v78 c)
    (h14 : ∀ c, o 14 main_v125 c = o' 14 main_v125 c) : into3 m o = into3 m o' := by
  funext c b; exact congrFun (V15_congr m o o' h6 h10 h14 c) _

/-- The four results, fixed in order. -/
def filler : Gen.Outs (F := F) := fun _ r c => m ((c : Thread nD τ).loc r)
def res0 (c : Dev nD) : Buf (Elt F) ((c : Thread nD τ).loc main_v35) := (dat0 (into0 m) c).arrAt 2 cfg0.N
def outs1 : Gen.Outs (F := F) := put (filler m) 6 main_v35 (res0 m)
def res1 (c : Dev nD) : Buf (Elt F) ((c : Thread nD τ).loc main_v78) := (dat1 (into1 m (outs1 m)) c).arrAt 2 cfg1.N
def outs2 : Gen.Outs (F := F) := put (outs1 m) 10 main_v78 (res1 m)
def res2 (c : Dev nD) : Buf (Elt F) ((c : Thread nD τ).loc main_v125) := (dat2 (into2 m (outs2 m)) c).arrAt 3 cfg2.N
def outs3 : Gen.Outs (F := F) := put (outs2 m) 14 main_v125 (res2 m)
def res3 (c : Dev nD) : Buf (Elt F) ((c : Thread nD τ).loc main_v129) := (dat3 (into3 m (outs3 m)) c).arrAt 3 cfg3.N
/-- The results of the four calls, as the run leaves them. -/
def results : Gen.Outs (F := F) := put (outs3 m) 16 main_v129 (res3 m)

theorem results_6 (c : Dev nD) : results m 6 main_v35 c = res0 m c := by
  unfold results outs3 outs2 outs1
  rw [put_off _ _ _ _ _ _ _ (by decide), put_off _ _ _ _ _ _ _ (by decide), put_off _ _ _ _ _ _ _ (by decide), put_at]
theorem results_10 (c : Dev nD) : results m 10 main_v78 c = res1 m c := by
  unfold results outs3 outs2
  rw [put_off _ _ _ _ _ _ _ (by decide), put_off _ _ _ _ _ _ _ (by decide), put_at]
theorem results_14 (c : Dev nD) : results m 14 main_v125 c = res2 m c := by
  unfold results outs3
  rw [put_off _ _ _ _ _ _ _ (by decide), put_at]
theorem results_16 (c : Dev nD) : results m 16 main_v129 c = res3 m c := by
  unfold results; rw [put_at]

theorem outs1_6 (c : Dev nD) : outs1 m 6 main_v35 c = res0 m c := by unfold outs1; rw [put_at]
theorem outs2_6 (c : Dev nD) : outs2 m 6 main_v35 c = res0 m c := by unfold outs2; rw [put_off _ _ _ _ _ _ _ (by decide), outs1_6]
theorem outs2_10 (c : Dev nD) : outs2 m 10 main_v78 c = res1 m c := by unfold outs2; rw [put_at]
theorem outs3_6 (c : Dev nD) : outs3 m 6 main_v35 c = res0 m c := by unfold outs3; rw [put_off _ _ _ _ _ _ _ (by decide), outs2_6]
theorem outs3_10 (c : Dev nD) : outs3 m 10 main_v78 c = res1 m c := by unfold outs3; rw [put_off _ _ _ _ _ _ _ (by decide), outs2_10]
theorem outs3_14 (c : Dev nD) : outs3 m 14 main_v125 c = res2 m c := by unfold outs3; rw [put_at]

/-- They fit. -/
theorem results_fit : Fits m (results m) where
  at0 c := (results_6 m c).symm
  at1 c := by
    rw [results_10, into1_congr m (results m) (outs1 m) fun c => (results_6 m c).trans (outs1_6 m c).symm]; rfl
  at2 c := by
    rw [results_14, into2_congr m (results m) (outs2 m) (fun c => (results_6 m c).trans (outs2_6 m c).symm)
      (fun c => (results_10 m c).trans (outs2_10 m c).symm)]; rfl
  at3 c := by
    rw [results_16, into3_congr m (results m) (outs3 m) (fun c => (results_6 m c).trans (outs3_6 m c).symm)
      (fun c => (results_10 m c).trans (outs3_10 m c).symm) (fun c => (results_14 m c).trans (outs3_14 m c).symm)]; rfl

end Cert.Kernel.Blocks

end
-- ==== Proof.Ideal.Block0.lean ====
import proofs.«178557_j80719615361183_1_alg».proof.Proof.Gen.KernelIdeal.Launch
import proofs.«178557_j80719615361183_1_alg».proof.Proof.Gen.KernelIdeal.Skeleton
import proofs.«178557_j80719615361183_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first product `x · W1`: one grid point multiplies a 1000-row block of `x` by the whole of `W1` -/

/-- The block of window `w` that grid point `t` works on, cut from the array the call is entered with. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows block of the left operand is in its staging buffer at every point: it is fetched at every point. -/
theorem rows0_found {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight matrix is in its staging buffer at every point: fetched at the first, and its block index never moves. -/
theorem weights0_found {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole of each staging buffer: the only rectangles the body touches. -/
abbrev all1000x256_0 : Rect S1000x256 := Rect.unit (s := S1000x256) ![0, 0] S1000x256.size inb_S1000x256_S1000x256_0_0
abbrev all256x256_0 : Rect S256x256 := Rect.unit (s := S256x256) ![0, 0] S256x256.size inb_S256x256_S256x256_0_0

/-- What one grid point leaves in the output's staging buffer: the product of the rows block and the weights, stored whole. -/
def prod0 (a : Vec F S1000x256 .f32) (b : Vec F S256x256 .f32) : Vec F S1000x256 .f32 :=
  View.canon [⟨all1000x256_0, k0_pay1 (View.ld a all1000x256_0) (View.ld b all256x256_0)⟩]

/-- The one store covers the output buffer. -/
theorem prod0_covers (p0 : Vec F S1000x256 .f32) (y : S1000x256.Idx) :
    ∃ pc ∈ ([⟨all1000x256_0, p0⟩] : List (View.Piece (Elt F) S1000x256 .f32)), y ∈ pc.1.set :=
  View.cover_of_tiled [⟨all1000x256_0, p0⟩] S1000x256.size (by rfl) y

set_option maxHeartbeats 1000000 in
/-- The body on whole staging buffers, the inputs' at given contents and the output's at anything: it ends with the inputs as they
    were and the output at `prod0` of them. -/
theorem body0_runs (c : Dev nD) (E : Set ℕ) (i : grid0.Coords)
    (arg1 : Memref sig .tc .vmem S1000x256 .f32) (harg1 : arg1.IsWhole)
    (arg2 : Memref sig .tc .vmem S256x256 .f32) (harg2 : arg2.IsWhole)
    (arg3 : Memref sig .tc .vmem S1000x256 .f32) (harg3 : arg3.IsWhole)
    (a : Vec F S1000x256 .f32) (b : Vec F S256x256 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b
            ∗ owns (c : Thread nD τ) arg3 fullShare (prod0 a b)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod0_covers _)

/-- The proof data of this call on core `c`: the arrays as the call finds them; after a point each input's buffer still at its
    block, the output's at `prod0` of the input blocks; nothing owed, full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_rows (c : Dev nD) (t : Fin cfg0.N) : (dat0 V c).after 0 t = blk0 V c 0 t := by dsimp only [dat0]
theorem dat0_after_weights (c : Dev nD) (t : Fin cfg0.N) : (dat0 V c).after 1 t = blk0 V c 1 t := by dsimp only [dat0]
theorem dat0_after_out (c : Dev nD) (t : Fin cfg0.N) : (dat0 V c).after 2 t = prod0 (blk0 V c 0 t) (blk0 V c 1 t) := by dsimp only [dat0]

theorem dat0_before_rows (c : Dev nD) (t : Fin cfg0.N) (d) : (dat0 V c).before 0 t d = blk0 V c 0 t :=
  rows0_found V (dat0 V c) (dat0_A V c 0) (dat0_after_rows V c) t d
theorem dat0_before_weights (c : Dev nD) (t : Fin cfg0.N) (d) : (dat0 V c).before 1 t d = blk0 V c 1 t :=
  weights0_found V (dat0 V c) (dat0_A V c 1) (dat0_after_weights V c) t d

/-- What the pipeline hands the body at point `t`, window by window, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it takes back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `body0_runs` applies; the invariant and what the core owes pass through. -/
theorem body0_at (c : Dev nD) (t : Fin cfg0.N) :
    handed0 V c t ⊢ wp frame (wpE (defs₀ (F := F)) Variants.none c none) Set.univ (bodyAt0 t) (fun _ => returned0 V c t) := by
  unfold handed0 returned0 bodyAt0
  simp only [dat0_before_rows, dat0_before_weights]
  rw [show (dat0 V c).Φ t.succ = (dat0 V c).Φ t.castSucc from rfl,
    show (dat0 V c).owesAt () t.succ = (dat0 V c).owesAt () t.castSucc from rfl,
    dat0_after_rows, dat0_after_weights, dat0_after_out]
  iintro ⟨HΦ, Ho, ⟨%d0, H0⟩, ⟨%d1, H1⟩, ⟨%d2, H2⟩⟩
  iapply (body0_runs c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this call, at every point. -/
theorem body0_obligation (c : Dev nD) : BodyObligation (dat0 (F := F) V c) (defs₀ (F := F)) Variants.none () Set.univ := fun t => by
  rw [bigSep_W0, bigSep_W0]
  exact body0_at V c t

end Cert.KernelIdeal.Blocks

end
-- ==== Proof.Ideal.Block1.lean ====
import proofs.«178557_j80719615361183_1_alg».proof.Proof.Gen.KernelIdeal.Launch
import proofs.«178557_j80719615361183_1_alg».proof.Proof.Gen.KernelIdeal.Skeleton
import proofs.«178557_j80719615361183_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second product `h1 · W2`: one grid point multiplies a 1000-row block of the normalised first layer by the whole of `W2` -/

/-- The block of window `w` that grid point `t` works on, cut from the array the call is entered with. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows block of the left operand is in its staging buffer at every point: it is fetched at every point. -/
theorem rows1_found {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The weight matrix is in its staging buffer at every point: fetched at the first, and its block index never moves. -/
theorem weights1_found {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole of each staging buffer: the only rectangles the body touches. -/
abbrev all1000x256_1 : Rect S1000x256 := Rect.unit (s := S1000x256) ![0, 0] S1000x256.size inb_S1000x256_S1000x256_0_0
abbrev all256x256_1 : Rect S256x256 := Rect.unit (s := S256x256) ![0, 0] S256x256.size inb_S256x256_S256x256_0_0

/-- What one grid point leaves in the output's staging buffer: the product of the rows block and the weights, stored whole. -/
def prod1 (a : Vec F S1000x256 .f32) (b : Vec F S256x256 .f32) : Vec F S1000x256 .f32 :=
  View.canon [⟨all1000x256_1, k1_pay1 (View.ld a all1000x256_1) (View.ld b all256x256_1)⟩]

/-- The one store covers the output buffer. -/
theorem prod1_covers (p0 : Vec F S1000x256 .f32) (y : S1000x256.Idx) :
    ∃ pc ∈ ([⟨all1000x256_1, p0⟩] : List (View.Piece (Elt F) S1000x256 .f32)), y ∈ pc.1.set :=
  View.cover_of_tiled [⟨all1000x256_1, p0⟩] S1000x256.size (by rfl) y

set_option maxHeartbeats 1000000 in
/-- The body on whole staging buffers, the inputs' at given contents and the output's at anything: it ends with the inputs as they
    were and the output at `prod1` of them. -/
theorem body1_runs (c : Dev nD) (E : Set ℕ) (i : grid1.Coords)
    (arg1 : Memref sig .tc .vmem S1000x256 .f32) (harg1 : arg1.IsWhole)
    (arg2 : Memref sig .tc .vmem S256x256 .f32) (harg2 : arg2.IsWhole)
    (arg3 : Memref sig .tc .vmem S1000x256 .f32) (harg3 : arg3.IsWhole)
    (a : Vec F S1000x256 .f32) (b : Vec F S256x256 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b
            ∗ owns (c : Thread nD τ) arg3 fullShare (prod1 a b)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod1_covers _)

/-- The proof data of this call on core `c`: the arrays as the call finds them; after a point each input's buffer still at its
    block, the output's at `prod1` of the input blocks; nothing owed, full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => prod1 (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after_rows (c : Dev nD) (t : Fin cfg1.N) : (dat1 V c).after 0 t = blk1 V c 0 t := by dsimp only [dat1]
theorem dat1_after_weights (c : Dev nD) (t : Fin cfg1.N) : (dat1 V c).after 1 t = blk1 V c 1 t := by dsimp only [dat1]
theorem dat1_after_out (c : Dev nD) (t : Fin cfg1.N) : (dat1 V c).after 2 t = prod1 (blk1 V c 0 t) (blk1 V c 1 t) := by dsimp only [dat1]

theorem dat1_before_rows (c : Dev nD) (t : Fin cfg1.N) (d) : (dat1 V c).before 0 t d = blk1 V c 0 t :=
  rows1_found V (dat1 V c) (dat1_A V c 0) (dat1_after_rows V c) t d
theorem dat1_before_weights (c : Dev nD) (t : Fin cfg1.N) (d) : (dat1 V c).before 1 t d = blk1 V c 1 t :=
  weights1_found V (dat1 V c) (dat1_A V c 1) (dat1_after_weights V c) t d

/-- What the pipeline hands the body at point `t`, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it takes back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `body1_runs` applies; the invariant and what the core owes pass through. -/
theorem body1_at (c : Dev nD) (t : Fin cfg1.N) :
    handed1 V c t ⊢ wp frame (wpE (defs₀ (F := F)) Variants.none c none) Set.univ (bodyAt1 t) (fun _ => returned1 V c t) := by
  unfold handed1 returned1 bodyAt1
  simp only [dat1_before_rows, dat1_before_weights]
  rw [show (dat1 V c).Φ t.succ = (dat1 V c).Φ t.castSucc from rfl,
    show (dat1 V c).owesAt () t.succ = (dat1 V c).owesAt () t.castSucc from rfl,
    dat1_after_rows, dat1_after_weights, dat1_after_out]
  iintro ⟨HΦ, Ho, ⟨%d0, H0⟩, ⟨%d1, H1⟩, ⟨%d2, H2⟩⟩
  iapply (body1_runs c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this call, at every point. -/
theorem body1_obligation (c : Dev nD) : BodyObligation (dat1 (F := F) V c) (defs₀ (F := F)) Variants.none () Set.univ := fun t => by
  rw [bigSep_W1, bigSep_W1]
  exact body1_at V c t

end Cert.KernelIdeal.Blocks

end
-- ==== Proof.Ideal.Block2.lean ====
import proofs.«178557_j80719615361183_1_alg».proof.Proof.Gen.KernelIdeal.Launch
import proofs.«178557_j80719615361183_1_alg».proof.Proof.Gen.KernelIdeal.Skeleton
import proofs.«178557_j80719615361183_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first recurrent step from a zero state: one grid point turns a 1000-row block of `[h1, h2]` into its hidden state -/

/-- The block of window `w` that grid point `t` works on, cut from the array the call is entered with. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows block of the concatenated features is in its staging buffer at every point: it is fetched at every point. -/
theorem rows2_found {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The transposed input weights are in their staging buffer at every point: fetched at the first, and the block index never moves. -/
theorem weights2_found {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The summed bias row is in its staging buffer at every point: fetched at the first, and the block index never moves. -/
theorem bias2_found {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole of each staging buffer: the only rectangles the body touches. -/
abbrev all1000x512_2 : Rect S1000x512 := Rect.unit (s := S1000x512) ![0, 0] S1000x512.size inb_S1000x512_S1000x512_0_0
abbrev all512x1024_2 : Rect S512x1024 := Rect.unit (s := S512x1024) ![0, 0] S512x1024.size inb_S512x1024_S512x1024_0_0
abbrev all1x1024_2 : Rect S1x1024 := Rect.unit (s := S1x1024) ![0, 0] S1x1024.size inb_S1x1024_S1x1024_0_0
abbrev all1000x256_2 : Rect S1000x256 := Rect.unit (s := S1000x256) ![0, 0] S1000x256.size inb_S1000x256_S1000x256_0_0

/-- What one grid point leaves in the output's staging buffer: the gated hidden state of the rows block, stored whole. -/
def cell2 (a : Vec F S1000x512 .f32) (b : Vec F S512x1024 .f32) (v : Vec F S1x1024 .f32) : Vec F S1000x256 .f32 :=
  View.canon [⟨all1000x256_2, k2_pay1 (View.ld a all1000x512_2) (View.ld b all512x1024_2) (View.ld v all1x1024_2)⟩]

/-- The one store covers the output buffer. -/
theorem cell2_covers (p0 : Vec F S1000x256 .f32) (y : S1000x256.Idx) :
    ∃ pc ∈ ([⟨all1000x256_2, p0⟩] : List (View.Piece (Elt F) S1000x256 .f32)), y ∈ pc.1.set :=
  View.cover_of_tiled [⟨all1000x256_2, p0⟩] S1000x256.size (by rfl) y

set_option maxHeartbeats 1000000 in
/-- The body on whole staging buffers, the inputs' at given contents and the output's at anything: it ends with the inputs as they
    were and the output at `cell2` of them. -/
theorem body2_runs (c : Dev nD) (E : Set ℕ) (i : grid2.Coords)
    (arg1 : Memref sig .tc .vmem S1000x512 .f32) (harg1 : arg1.IsWhole)
    (arg2 : Memref sig .tc .vmem S512x1024 .f32) (harg2 : arg2.IsWhole)
    (arg3 : Memref sig .tc .vmem S1x1024 .f32) (harg3 : arg3.IsWhole)
    (arg4 : Memref sig .tc .vmem S1000x256 .f32) (harg4 : arg4.IsWhole)
    (a : Vec F S1000x512 .f32) (b : Vec F S512x1024 .f32) (v : Vec F S1x1024 .f32) (K : PUnit → sProp 𝕄) :
    iprop(owns (c : Thread nD τ) arg1 fullShare a ∗ owns (c : Thread nD τ) arg2 fullShare b ∗ owns (c : Thread nD τ) arg3 fullShare v ∗ (∃ d, owns (c : Thread nD τ) arg4 fullShare d)
        ∗ (iprop(owns (c : Thread nD τ) arg1 fullShare a ∗ owns (c : Thread nD τ) arg2 fullShare b ∗ owns (c : Thread nD τ) arg3 fullShare v
            ∗ owns (c : Thread nD τ) arg4 fullShare (cell2 a b v)) -∗ K ⟨⟩))
      ⊢ wp frame (wpE (defs₀ (F := F)) Variants.none c none) E (cc2__lstm_kernel i arg1 harg1 arg2 harg2 arg3 harg3 arg4 harg4) K := by
  simp only [cc2__lstm_kernel_eq_skeleton]; unfold cc2__lstm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cell2_covers _)

/-- The proof data of this call on core `c`: the arrays as the call finds them; after a point each input's buffer still at its
    block, the output's at `cell2` of the input blocks; nothing owed, full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => cell2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after_rows (c : Dev nD) (t : Fin cfg2.N) : (dat2 V c).after 0 t = blk2 V c 0 t := by dsimp only [dat2]
theorem dat2_after_weights (c : Dev nD) (t : Fin cfg2.N) : (dat2 V c).after 1 t = blk2 V c 1 t := by dsimp only [dat2]
theorem dat2_after_bias (c : Dev nD) (t : Fin cfg2.N) : (dat2 V c).after 2 t = blk2 V c 2 t := by dsimp only [dat2]
theorem dat2_after_out (c : Dev nD) (t : Fin cfg2.N) : (dat2 V c).after 3 t = cell2 (blk2 V c 0 t) (blk2 V c 1 t) (blk2 V c 2 t) := by dsimp only [dat2]

theorem dat2_before_rows (c : Dev nD) (t : Fin cfg2.N) (d) : (dat2 V c).before 0 t d = blk2 V c 0 t :=
  rows2_found V (dat2 V c) (dat2_A V c 0) (dat2_after_rows V c) t d
theorem dat2_before_weights (c : Dev nD) (t : Fin cfg2.N) (d) : (dat2 V c).before 1 t d = blk2 V c 1 t :=
  weights2_found V (dat2 V c) (dat2_A V c 1) (dat2_after_weights V c) t d
theorem dat2_before_bias (c : Dev nD) (t : Fin cfg2.N) (d) : (dat2 V c).before 2 t d = blk2 V c 2 t :=
  bias2_found V (dat2 V c) (dat2_A V c 2) (dat2_after_bias V c) t d

/-- What the pipeline hands the body at point `t`, window by window, -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it takes back. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `body2_runs` applies; the invariant and what the core owes pass through. -/
theorem body2_at (c : Dev nD) (t : Fin cfg2.N) :
    handed2 V c t ⊢ wp frame (wpE (defs₀ (F := F)) Variants.none c none) Set.univ (bodyAt2 t) (fun _ => returned2 V c t) := by
  unfold handed2 returned2 bodyAt2
  simp only [dat2_before_rows, dat2_before_weights, dat2_before_bias]
  rw [show (dat2 V c).Φ t.succ = (dat2 V c).Φ t.castSucc from rfl,
    show (dat2 V c).owesAt () t.succ = (dat2 V c).owesAt () t.castSucc from rfl,
    dat2_after_rows, dat2_after_weights, dat2_after_bias, dat2_after_out]
  iintro ⟨HΦ, Ho, ⟨%d0, H0⟩, ⟨%d1, H1⟩, ⟨%d2, H2⟩, ⟨%d3, H3⟩⟩
  iapply (body2_runs c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this call, at every point. -/
theorem body2_obligation (c : Dev nD) : BodyObligation (dat2 (F := F) V c) (defs₀ (F := F)) Variants.none () Set.univ := fun t => by
  rw [bigSep_W2, bigSep_W2]
  exact body2_at V c t

end Cert.KernelIdeal.Blocks

end
-- ==== Proof.Ideal.Block3.lean ====
import proofs.«178557_j80719615361183_1_alg».proof.Proof.Gen.KernelIdeal.Launch
import proofs.«178557_j80719615361183_1_alg».proof.Proof.Gen.KernelIdeal.Skeleton
import proofs.«178557_j80719615361183_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second recurrent step from a zero state: one grid point turns a 1000-row block of the first hidden state into the second -/

/-- The block of window `w` that grid point `t` works on, cut from the array the call is entered with. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows block of the first hidden state is in its staging buffer at every point: it is fetched at every point. -/
theorem rows3_found {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The transposed input weights are in their staging buffer at every point: fetched at the first, and the block index never moves. -/
theorem weights3_found {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The summed bias row is in its staging buffer at every point: fetched at the first, and the block index never moves. -/
theorem bias3_found {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- The whole of each staging buffer: the only rectangles the body touches. -/
abbrev all1000x256_3 : Rect S1000x256 := Rect.unit (s := S1000x256) ![0, 0] S1000x256.size inb_S1000x256_S1000x256_0_0
abbrev all256x1024_3 : Rect S256x1024 := Rect.unit (s := S256x1024) ![0, 0] S256x1024.size inb_S256x1024_S256x1024_0_0
abbrev all1x1024_3 : Rect S1x1024 := Rect.unit (s := S1x1024) ![0, 0] S1x1024.size inb_S1x1024_S1x1024_0_0

/-- What one grid point leaves in the output's staging buffer: the gated hidden state of the rows block, stored whole. -/
def cell3 (a : Vec F S1000x256 .f32) (b : Vec F S256x1024 .f32) (v : Vec F S1x1024 .f32) : Vec F S1000x256 .f32 :=
  View.canon [⟨all1000x256_3, k3_pay1 (View.ld a all1000x256_3) (View.ld b all256x1024_3) (View.ld v all1x1024_3)⟩]

/-- The one store covers the output buffer. -/
theorem cell3_covers (p0 : Vec F S1000x256 .f32) (y : S1000x256.Idx) :
    ∃ pc ∈ ([⟨all1000x256_3, p0⟩] : List (View.Piece (Elt F) S1000x256 .f32)), y ∈ pc.1.set :=
  View.cover_of_tiled [⟨all1000x256_3, p0⟩] S1000x256.size (by rfl) y

set_option maxHeartbeats 1000000 in
/-- The body on whole staging buffers, the inputs' at given contents and the output's at anything: it ends with the inputs as they
    were and the output at `cell3` of them. -/
theorem body3_runs (c : Dev nD) (E : Set ℕ) (i : grid3.Coords)
    (arg1 : Memref sig .tc .vmem S1000x256 .f32) (harg1 : arg1.IsWhole)
    (arg2 : Memref sig .tc .vmem S256x1024 .f32) (harg2 : arg2.IsWhole)
    (arg3 : Memref sig .tc .vmem S1x1024 .f32) (harg3 : arg3.IsWhole)
    (arg4 : Memref sig .tc .vmem S1000x256 .f32) (harg4 : arg4.IsWhole)
    (a : Vec F S1000x256 .f32) (b : Vec F S256x1024 .f32) (v : Vec F S1x1024 .f32) (K : PUnit → sProp 𝕄) :
    iprop(owns (c : Thread nD τ) arg1 fullShare a ∗ owns (c : Thread nD τ) arg2 fullShare b ∗ owns (c : Thread nD τ) arg3 fullShare v ∗ (∃ d, owns (c : Thread nD τ) arg4 fullShare d)
        ∗ (iprop(owns (c : Thread nD τ) arg1 fullShare a ∗ owns (c : Thread nD τ) arg2 fullShare b ∗ owns (c : Thread nD τ) arg3 fullShare v
            ∗ owns (c : Thread nD τ) arg4 fullShare (cell3 a b v)) -∗ K ⟨⟩))
      ⊢ wp frame (wpE (defs₀ (F := F)) Variants.none c none) E (cc3__lstm_kernel i arg1 harg1 arg2 harg2 arg3 harg3 arg4 harg4) K := by
  simp only [cc3__lstm_kernel_eq_skeleton]; unfold cc3__lstm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cell3_covers _)

/-- The proof data of this call on core `c`: the arrays as the call finds them; after a point each input's buffer still at its
    block, the output's at `cell3` of the input blocks; nothing owed, full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => cell3 (blk3 V c 0 t) (blk3 V c 1 t) (blk3 V c 2 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after_rows (c : Dev nD) (t : Fin cfg3.N) : (dat3 V c).after 0 t = blk3 V c 0 t := by dsimp only [dat3]
theorem dat3_after_weights (c : Dev nD) (t : Fin cfg3.N) : (dat3 V c).after 1 t = blk3 V c 1 t := by dsimp only [dat3]
theorem dat3_after_bias (c : Dev nD) (t : Fin cfg3.N) : (dat3 V c).after 2 t = blk3 V c 2 t := by dsimp only [dat3]
theorem dat3_after_out (c : Dev nD) (t : Fin cfg3.N) : (dat3 V c).after 3 t = cell3 (blk3 V c 0 t) (blk3 V c 1 t) (blk3 V c 2 t) := by dsimp only [dat3]

theorem dat3_before_rows (c : Dev nD) (t : Fin cfg3.N) (d) : (dat3 V c).before 0 t d = blk3 V c 0 t :=
  rows3_found V (dat3 V c) (dat3_A V c 0) (dat3_after_rows V c) t d
theorem dat3_before_weights (c : Dev nD) (t : Fin cfg3.N) (d) : (dat3 V c).before 1 t d = blk3 V c 1 t :=
  weights3_found V (dat3 V c) (dat3_A V c 1) (dat3_after_weights V c) t d
theorem dat3_before_bias (c : Dev nD) (t : Fin cfg3.N) (d) : (dat3 V c).before 2 t d = blk3 V c 2 t :=
  bias3_found V (dat3 V c) (dat3_A V c 2) (dat3_after_bias V c) t d

/-- What the pipeline hands the body at point `t`, window by window, -/
def handed3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it takes back. -/
def returned3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `body3_runs` applies; the invariant and what the core owes pass through. -/
theorem body3_at (c : Dev nD) (t : Fin cfg3.N) :
    handed3 V c t ⊢ wp frame (wpE (defs₀ (F := F)) Variants.none c none) Set.univ (bodyAt3 t) (fun _ => returned3 V c t) := by
  unfold handed3 returned3 bodyAt3
  simp only [dat3_before_rows, dat3_before_weights, dat3_before_bias]
  rw [show (dat3 V c).Φ t.succ = (dat3 V c).Φ t.castSucc from rfl,
    show (dat3 V c).owesAt () t.succ = (dat3 V c).owesAt () t.castSucc from rfl,
    dat3_after_rows, dat3_after_weights, dat3_after_bias, dat3_after_out]
  iintro ⟨HΦ, Ho, ⟨%d0, H0⟩, ⟨%d1, H1⟩, ⟨%d2, H2⟩, ⟨%d3, H3⟩⟩
  iapply (body3_runs c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this call, at every point. -/
theorem body3_obligation (c : Dev nD) : BodyObligation (dat3 (F := F) V c) (defs₀ (F := F)) Variants.none () Set.univ := fun t => by
  rw [bigSep_W3, bigSep_W3]
  exact body3_at V c t

end Cert.KernelIdeal.Blocks

end
-- ==== Proof.Ideal.Calls.lean ====
import proofs.«178557_j80719615361183_1_alg».proof.Proof.Gen.KernelIdeal.Regions
import proofs.«178557_j80719615361183_1_alg».proof.Proof.Ideal.Block0
import proofs.«178557_j80719615361183_1_alg».proof.Proof.Ideal.Block1
import proofs.«178557_j80719615361183_1_alg».proof.Proof.Ideal.Block2
import proofs.«178557_j80719615361183_1_alg».proof.Proof.Ideal.Block3

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! # The four calls in sequence

Between two items of the program every buffer outside the kernels' scratch holds a known array: the launch contents pushed through
the host operations so far, with each call's result array at `outs`. Each call is entered from those contents and leaves them
changed at its one result array only. -/

/-- The contents each call is entered with and leaves, read at the program's references. -/
abbrev into0 (c : Dev nD) (b : Ref sig .tc) : Buf (Elt F) ((c : Thread nD τ).loc b) := V5 m c b
abbrev outof0 (c : Dev nD) (b : Ref sig .tc) : Buf (Elt F) ((c : Thread nD τ).loc b) := V6 m outs c b
abbrev into1 (c : Dev nD) (b : Ref sig .tc) : Buf (Elt F) ((c : Thread nD τ).loc b) := V9 m outs c b
abbrev outof1 (c : Dev nD) (b : Ref sig .tc) : Buf (Elt F) ((c : Thread nD τ).loc b) := V10 m outs c b
abbrev into2 (c : Dev nD) (b : Ref sig .tc) : Buf (Elt F) ((c : Thread nD τ).loc b) := V13 m outs c b
abbrev outof2 (c : Dev nD) (b : Ref sig .tc) : Buf (Elt F) ((c : Thread nD τ).loc b) := V14 m outs c b
abbrev into3 (c : Dev nD) (b : Ref sig .tc) : Buf (Elt F) ((c : Thread nD τ).loc b) := V15 m outs c b
abbrev outof3 (c : Dev nD) (b : Ref sig .tc) : Buf (Elt F) ((c : Thread nD τ).loc b) := V16 m outs c b

/-- `outs` names what each call's write-backs leave in its result array. -/
structure Fits : Prop where
  at0 : ∀ c : Dev nD, (dat0 (into0 m) c).arrAt 2 cfg0.N = outs 6 main_v35 c
  at1 : ∀ c : Dev nD, (dat1 (into1 m outs) c).arrAt 2 cfg1.N = outs 10 main_v78 c
  at2 : ∀ c : Dev nD, (dat2 (into2 m outs) c).arrAt 3 cfg2.N = outs 14 main_v125 c
  at3 : ∀ c : Dev nD, (dat3 (into3 m outs) c).arrAt 3 cfg3.N = outs 16 main_v129 c

/-- The proof data of the four calls, each at the contents it is entered with. -/
def pdats : (p : Fin 4) → (c : Dev nD) → Dat τ (Elt F) Unit ℕ (UR sig nD τ) ℕ (cfgs p) c
  | ⟨0, _⟩ => fun c => dat0 (into0 m) c
  | ⟨1, _⟩ => fun c => dat1 (into1 m outs) c
  | ⟨2, _⟩ => fun c => dat2 (into2 m outs) c
  | ⟨3, _⟩ => fun c => dat3 (into3 m outs) c

abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

/-- At the exit of call 0 each of its arrays holds what the pipeline leaves: an input as entered, the result at `outs`. -/
theorem leaves0 (hf : Fits m outs) (c : Dev nD) : ∀ w : Fin cfg0.W, (pdats m outs 0 c).arrAt w cfg0.N = outof0 m outs c (Pipeline.arrRef spec0 w)
  | ⟨0, _⟩ => ((pdats m outs 0 c).arrAt_in 0 rfl _).trans ((dat0_A (into0 m) c 0).trans (V6_of m outs c main_arg0 (by decide)).symm)
  | ⟨1, _⟩ => ((pdats m outs 0 c).arrAt_in 1 rfl _).trans ((dat0_A (into0 m) c 1).trans (V6_of m outs c main_arg3 (by decide)).symm)
  | ⟨2, _⟩ => (hf.at0 c).trans (Function.update_self (Proc.devRef .tc main_v35 : DevRef τ sig) (outs 6 main_v35 c) (V5 m c)).symm

/-- and every other buffer what it held at entry. -/
theorem keeps0 (c : Dev nD) : ∀ b : Ref sig .tc, b ∉ Finset.univ.image (Pipeline.arrRef spec0) → outof0 m outs c b = into0 m c b :=
  fun b hb => V6_of m outs c b (by
    intro h; rw [List.mem_singleton] at h; subst h
    exact hb (Finset.mem_image.mpr ⟨2, Finset.mem_univ _, rfl⟩))

set_option backward.isDefEq.respectTransparency.types false in
/-- Call 0 as an item of the run: entered with every unscoped buffer at `V5`, left at `V6`. Its arrays are split out of
    the unscoped buffers and put back at the exit contents; the generator register passes through the invariant; nothing is owed. -/
def call0 (hf : Fits m outs) : RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body0_obligation (into0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec0 c (into0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (into0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (into0 m c) (outof0 m outs c) ((pdats m outs 0 c).arrAt · cfg0.N) (leaves0 m outs hf c) (keeps0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the exit of call 1 each of its arrays holds what the pipeline leaves: an input as entered, the result at `outs`. -/
theorem leaves1 (hf : Fits m outs) (c : Dev nD) : ∀ w : Fin cfg1.W, (pdats m outs 1 c).arrAt w cfg1.N = outof1 m outs c (Pipeline.arrRef spec1 w)
  | ⟨0, _⟩ => ((pdats m outs 1 c).arrAt_in 0 rfl _).trans ((dat1_A (into1 m outs) c 0).trans (V10_of m outs c main_v77 (by decide)).symm)
  | ⟨1, _⟩ => ((pdats m outs 1 c).arrAt_in 1 rfl _).trans ((dat1_A (into1 m outs) c 1).trans (V10_of m outs c main_arg5 (by decide)).symm)
  | ⟨2, _⟩ => (hf.at1 c).trans (Function.update_self (Proc.devRef .tc main_v78 : DevRef τ sig) (outs 10 main_v78 c) (V9 m outs c)).symm

/-- and every other buffer what it held at entry. -/
theorem keeps1 (c : Dev nD) : ∀ b : Ref sig .tc, b ∉ Finset.univ.image (Pipeline.arrRef spec1) → outof1 m outs c b = into1 m outs c b :=
  fun b hb => V10_of m outs c b (by
    intro h; rw [List.mem_singleton] at h; subst h
    exact hb (Finset.mem_image.mpr ⟨2, Finset.mem_univ _, rfl⟩))

set_option backward.isDefEq.respectTransparency.types false in
/-- Call 1 as an item of the run: entered with every unscoped buffer at `V9`, left at `V10`. Its arrays are split out of
    the unscoped buffers and put back at the exit contents; the generator register passes through the invariant; nothing is owed. -/
def call1 (hf : Fits m outs) : RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body1_obligation (into1 m outs) c).loose
  hwaits := Pipeline.hwaits_of_owed_zero _ _ _ _ L lv 1 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec1 c (into1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (into1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (into1 m outs c) (outof1 m outs c) ((pdats m outs 1 c).arrAt · cfg1.N) (leaves1 m outs hf c) (keeps1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the exit of call 2 each of its arrays holds what the pipeline leaves: an input as entered, the result at `outs`. -/
theorem leaves2 (hf : Fits m outs) (c : Dev nD) : ∀ w : Fin cfg2.W, (pdats m outs 2 c).arrAt w cfg2.N = outof2 m outs c (Pipeline.arrRef spec2 w)
  | ⟨0, _⟩ => ((pdats m outs 2 c).arrAt_in 0 rfl _).trans ((dat2_A (into2 m outs) c 0).trans (V14_of m outs c main_v121 (by decide)).symm)
  | ⟨1, _⟩ => ((pdats m outs 2 c).arrAt_in 1 rfl _).trans ((dat2_A (into2 m outs) c 1).trans (V14_of m outs c main_v122 (by decide)).symm)
  | ⟨2, _⟩ => ((pdats m outs 2 c).arrAt_in 2 rfl _).trans ((dat2_A (into2 m outs) c 2).trans (V14_of m outs c main_v124 (by decide)).symm)
  | ⟨3, _⟩ => (hf.at2 c).trans (Function.update_self (Proc.devRef .tc main_v125 : DevRef τ sig) (outs 14 main_v125 c) (V13 m outs c)).symm

/-- and every other buffer what it held at entry. -/
theorem keeps2 (c : Dev nD) : ∀ b : Ref sig .tc, b ∉ Finset.univ.image (Pipeline.arrRef spec2) → outof2 m outs c b = into2 m outs c b :=
  fun b hb => V14_of m outs c b (by
    intro h; rw [List.mem_singleton] at h; subst h
    exact hb (Finset.mem_image.mpr ⟨3, Finset.mem_univ _, rfl⟩))

set_option backward.isDefEq.respectTransparency.types false in
/-- Call 2 as an item of the run: entered with every unscoped buffer at `V13`, left at `V14`. Its arrays are split out of
    the unscoped buffers and put back at the exit contents; the generator register passes through the invariant; nothing is owed. -/
def call2 (hf : Fits m outs) : RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body2_obligation (into2 m outs) c).loose
  hwaits := Pipeline.hwaits_of_owed_zero _ _ _ _ L lv 2 fun _ _ => rfl
  pre c := iprop(StableHlo.held (c : Thread nD τ) (Pipeline.ucRefs τ sig) (V13 m outs c) ∗ R c)
  post c := iprop(StableHlo.held (c : Thread nD τ) (Pipeline.ucRefs τ sig) (V14 m outs c) ∗ R c)
  X c := iprop(∃ r, prngReg c r)
  Y c := iprop(∃ r, prngReg c r)
  Z c := Pipeline.unscopedRest (Ix := Unit) (Name := ℕ) (U := UR sig nD τ) (Lvl := ℕ) spec2 c (into2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (into2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (into2 m outs c) (outof2 m outs c) ((pdats m outs 2 c).arrAt · cfg2.N) (leaves2 m outs hf c) (keeps2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the exit of call 3 each of its arrays holds what the pipeline leaves: an input as entered, the result at `outs`. -/
theorem leaves3 (hf : Fits m outs) (c : Dev nD) : ∀ w : Fin cfg3.W, (pdats m outs 3 c).arrAt w cfg3.N = outof3 m outs c (Pipeline.arrRef spec3 w)
  | ⟨0, _⟩ => ((pdats m outs 3 c).arrAt_in 0 rfl _).trans ((dat3_A (into3 m outs) c 0).trans (V16_of m outs c main_v125 (by decide)).symm)
  | ⟨1, _⟩ => ((pdats m outs 3 c).arrAt_in 1 rfl _).trans ((dat3_A (into3 m outs) c 1).trans (V16_of m outs c main_v126 (by decide)).symm)
  | ⟨2, _⟩ => ((pdats m outs 3 c).arrAt_in 2 rfl _).trans ((dat3_A (into3 m outs) c 2).trans (V16_of m outs c main_v128 (by decide)).symm)
  | ⟨3, _⟩ => (hf.at3 c).trans (Function.update_self (Proc.devRef .tc main_v129 : DevRef τ sig) (outs 16 main_v129 c) (V15 m outs c)).symm

/-- and every other buffer what it held at entry. -/
theorem keeps3 (c : Dev nD) : ∀ b : Ref sig .tc, b ∉ Finset.univ.image (Pipeline.arrRef spec3) → outof3 m outs c b = into3 m outs c b :=
  fun b hb => V16_of m outs c b (by
    intro h; rw [List.mem_singleton] at h; subst h
    exact hb (Finset.mem_image.mpr ⟨3, Finset.mem_univ _, rfl⟩))

set_option backward.isDefEq.respectTransparency.types false in
/-- Call 3 as an item of the run: entered with every unscoped buffer at `V15`, left at `V16`. Its arrays are split out of
    the unscoped buffers and put back at the exit contents; the generator register passes through the invariant; nothing is owed. -/
def call3 (hf : Fits m outs) : RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body3_obligation (into3 m outs) c).loose
  hwaits := Pipeline.hwaits_of_owed_zero _ _ _ _ L lv 3 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec3 c (into3 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (into3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (into3 m outs c) (outof3 m outs c) ((pdats m outs 3 c).arrAt · cfg3.N) (leaves3 m outs hf c) (keeps3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Blocks

end
-- ==== Proof.Ideal.Whole.lean ====
import proofs.«178557_j80719615361183_1_alg».proof.Proof.Ideal.Calls

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! # The whole program: host operations and the four calls, in order -/

/-- The launch's ghost state: the cells' tokens, and nothing else to share out. -/
theorem launch_tokens :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- A core's share of the launch makes what rides beside the buffers: its generator register, and nothing owed. -/
theorem rider_of_launch (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

theorem rider_owes (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- From any memory with zero counters every weakly fair execution of the program terminates, nothing faulting, and every buffer
    outside the kernels' scratch ends at the last contents: the launch memory pushed through every host operation, each call's
    result array at `outs`. -/
theorem run_reads (hf : Fits m outs) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V17 m outs c b) := by
  refine Pipeline.θ_run_regions_kit_dev (pcfgs (F := F)) adm (pdats m outs) () cellOf_inj emb₁ defs₀ 𝒱₀ L lv m ρ main
    (Gen.segs m outs 𝒱₀ L lv (fun _ c => R c) () (pdats m outs) (call0 m outs hf) (call1 m outs hf) (call2 m outs hf) (call3 m outs hf))
    (fun c Q => by
      rewrite [main_chain c, Seg.run_eq_chain,
        show (Gen.segs m outs 𝒱₀ L lv (fun _ c => R c) () (pdats m outs) (call0 m outs hf) (call1 m outs hf) (call2 m outs hf) (call3 m outs hf) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4 ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj)) launch_tokens
    (T₀ := fun c => iprop(StableHlo.held (c : Thread nD τ) (Pipeline.ucRefs τ sig) (V0 m c) ∗ R c))
    (Tₙ := fun c => StableHlo.held (c : Thread nD τ) (Pipeline.ucRefs τ sig) (V17 m outs c))
    (hch := fun c => ⟨.rfl, .rfl, .rfl, .rfl, .rfl, .rfl, .rfl, .rfl, .rfl, .rfl, .rfl, .rfl, .rfl, .rfl, .rfl, .rfl, .rfl, sep_mono .rfl (rider_owes c)⟩)
    (hinit := ?_) (QY := fun c s => ∀ b ∈ Pipeline.ucRefs τ sig, s.mem ((c : Thread nD τ).1, b) = V17 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
                ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rider_of_launch (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => R (F := F) c)]
    isplitl [Hh]; · iexact Hh
    iexact HE
  · unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro; exact h
    · iexact HSI

/-- A reference of the program that is not a kernel's scratch is among those the run's post speaks of. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The argument arrays end as launched. -/
theorem arguments_kept (hf : Fits m outs) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_unscoped main_arg0 (by decide))).trans (V17_main_arg0 m outs c),
     (h c _ (mem_unscoped main_arg1 (by decide))).trans (V17_main_arg1 m outs c),
     (h c _ (mem_unscoped main_arg2 (by decide))).trans (V17_main_arg2 m outs c),
     (h c _ (mem_unscoped main_arg3 (by decide))).trans (V17_main_arg3 m outs c),
     (h c _ (mem_unscoped main_arg4 (by decide))).trans (V17_main_arg4 m outs c),
     (h c _ (mem_unscoped main_arg5 (by decide))).trans (V17_main_arg5 m outs c),
     (h c _ (mem_unscoped main_arg6 (by decide))).trans (V17_main_arg6 m outs c),
     (h c _ (mem_unscoped main_arg7 (by decide))).trans (V17_main_arg7 m outs c),
     (h c _ (mem_unscoped main_arg8 (by decide))).trans (V17_main_arg8 m outs c),
     (h c _ (mem_unscoped main_arg9 (by decide))).trans (V17_main_arg9 m outs c),
     (h c _ (mem_unscoped main_arg10 (by decide))).trans (V17_main_arg10 m outs c),
     (h c _ (mem_unscoped main_arg11 (by decide))).trans (V17_main_arg11 m outs c),
     (h c _ (mem_unscoped main_arg12 (by decide))).trans (V17_main_arg12 m outs c),
     (h c _ (mem_unscoped main_arg13 (by decide))).trans (V17_main_arg13 m outs c),
     (h c _ (mem_unscoped main_arg14 (by decide))).trans (V17_main_arg14 m outs c),
     (h c _ (mem_unscoped main_arg15 (by decide))).trans (V17_main_arg15 m outs c),
     (h c _ (mem_unscoped main_arg16 (by decide))).trans (V17_main_arg16 m outs c),
     (h c _ (mem_unscoped main_arg17 (by decide))).trans (V17_main_arg17 m outs c),
     (h c _ (mem_unscoped main_arg18 (by decide))).trans (V17_main_arg18 m outs c)⟩)
    (run_reads m outs hf ρ)

end Cert.KernelIdeal.Blocks

end
-- ==== Proof.Ideal.Outs.lean ====
import proofs.«178557_j80719615361183_1_alg».proof.Proof.Ideal.Calls

set_option maxRecDepth 16384

noncomputable section

namespace Cert.KernelIdeal.Blocks

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-! # There is a fitting `outs`

Each call's result depends on the earlier calls' results only (through the host operations between them), so the four result arrays
are fixed one after the other: start from any filler, then set the first call's result, then the second's computed from the
contents that follow from the first, and so on. A later setting never changes what an earlier call is entered with. -/

/-- `o` with `v` at the one point `(j, y)`. -/
def put (o : Gen.Outs (F := F)) (j : ℕ) (y : Ref sig .tc) (v : (c : Dev nD) → Buf (Elt F) ((c : Thread nD τ).loc y)) : Gen.Outs (F := F) :=
  fun j' r c => if h : j' = j ∧ r = y then h.2 ▸ v c else o j' r c

theorem put_at (o : Gen.Outs (F := F)) (j : ℕ) (y : Ref sig .tc) (v) (c : Dev nD) : put o j y v j y c = v c := by
  unfold put; rw [dif_pos ⟨rfl, rfl⟩]

theorem put_off (o : Gen.Outs (F := F)) (j : ℕ) (y : Ref sig .tc) (v) (j' : ℕ) (r : Ref sig .tc) (c : Dev nD) (h : j' ≠ j) :
    put o j y v j' r c = o j' r c := by
  unfold put; rw [dif_neg fun hh => h hh.1]

/-- The contents the second call is entered with read `outs` at the first call's result only, -/
theorem into1_congr (o o' : Gen.Outs (F := F)) (h : ∀ c, o 6 main_v35 c = o' 6 main_v35 c) : into1 m o = into1 m o' := by
  funext c b
  show StableHlo.after hostOps1_2 (StableHlo.after hostOps1_1 (StableHlo.after hostOps1 (Function.update (V5 m c) _ (o 6 main_v35 c)))) _
     = StableHlo.after hostOps1_2 (StableHlo.after hostOps1_1 (StableHlo.after hostOps1 (Function.update (V5 m c) _ (o' 6 main_v35 c)))) _
  rw [h c]

theorem V9_congr (o o' : Gen.Outs (F := F)) (h : ∀ c, o 6 main_v35 c = o' 6 main_v35 c) (c : Dev nD) : V9 m o c = V9 m o' c := by
  show StableHlo.after hostOps1_2 (StableHlo.after hostOps1_1 (StableHlo.after hostOps1 (Function.update (V5 m c) _ (o 6 main_v35 c))))
     = StableHlo.after hostOps1_2 (StableHlo.after hostOps1_1 (StableHlo.after hostOps1 (Function.update (V5 m c) _ (o' 6 main_v35 c))))
  rw [h c]

/-- the third at the first two, -/
theorem V13_congr (o o' : Gen.Outs (F := F)) (h6 : ∀ c, o 6 main_v35 c = o' 6 main_v35 c) (h10 : ∀ c, o 10 main_v78 c = o' 10 main_v78 c)
    (c : Dev nD) : V13 m o c = V13 m o' c := by
  show StableHlo.after hostOps2_2 (StableHlo.after hostOps2_1 (StableHlo.after hostOps2 (Function.update (V9 m o c) _ (o 10 main_v78 c))))
     = StableHlo.after hostOps2_2 (StableHlo.after hostOps2_1 (StableHlo.after hostOps2 (Function.update (V9 m o' c) _ (o' 10 main_v78 c))))
  rw [V9_congr m o o' h6 c, h10 c]

theorem into2_congr (o o' : Gen.Outs (F := F)) (h6 : ∀ c, o 6 main_v35 c = o' 6 main_v35 c) (h10 : ∀ c, o 10 main_v78 c = o' 10 main_v78 c) :
    into2 m o = into2 m o' := by
  funext c b; exact congrFun (V13_congr m o o' h6 h10 c) _

/-- the fourth at the first three. -/
theorem V15_congr (o o' : Gen.Outs (F := F)) (h6 : ∀ c, o 6 main_v35 c = o' 6 main_v35 c) (h10 : ∀ c, o 10 main_v78 c = o' 10 main_v78 c)
    (h14 : ∀ c, o 14 main_v125 c = o' 14 main_v125 c) (c : Dev nD) : V15 m o c = V15 m o' c := by
  show StableHlo.after hostOps3 (Function.update (V13 m o c) _ (o 14 main_v125 c))
     = StableHlo.after hostOps3 (Function.update (V13 m o' c) _ (o' 14 main_v125 c))
  rw [V13_congr m o o' h6 h10 c, h14 c]

theorem into3_congr (o o' : Gen.Outs (F := F)) (h6 : ∀ c, o 6 main_v35 c = o' 6 main_v35 c) (h10 : ∀ c, o 10 main_v78 c = o' 10 main_v78 c)
    (h14 : ∀ c, o 14 main_v125 c = o' 14 main_v125 c) : into3 m o = into3 m o' := by
  funext c b; exact congrFun (V15_congr m o o' h6 h10 h14 c) _

/-- The four results, fixed in order. -/
def filler : Gen.Outs (F := F) := fun _ r c => m ((c : Thread nD τ).loc r)
def res0 (c : Dev nD) : Buf (Elt F) ((c : Thread nD τ).loc main_v35) := (dat0 (into0 m) c).arrAt 2 cfg0.N
def outs1 : Gen.Outs (F := F) := put (filler m) 6 main_v35 (res0 m)
def res1 (c : Dev nD) : Buf (Elt F) ((c : Thread nD τ).loc main_v78) := (dat1 (into1 m (outs1 m)) c).arrAt 2 cfg1.N
def outs2 : Gen.Outs (F := F) := put (outs1 m) 10 main_v78 (res1 m)
def res2 (c : Dev nD) : Buf (Elt F) ((c : Thread nD τ).loc main_v125) := (dat2 (into2 m (outs2 m)) c).arrAt 3 cfg2.N
def outs3 : Gen.Outs (F := F) := put (outs2 m) 14 main_v125 (res2 m)
def res3 (c : Dev nD) : Buf (Elt F) ((c : Thread nD τ).loc main_v129) := (dat3 (into3 m (outs3 m)) c).arrAt 3 cfg3.N
/-- The results of the four calls, as the run leaves them. -/
def results : Gen.Outs (F := F) := put (outs3 m) 16 main_v129 (res3 m)

theorem results_6 (c : Dev nD) : results m 6 main_v35 c = res0 m c := by
  unfold results outs3 outs2 outs1
  rw [put_off _ _ _ _ _ _ _ (by decide), put_off _ _ _ _ _ _ _ (by decide), put_off _ _ _ _ _ _ _ (by decide), put_at]
theorem results_10 (c : Dev nD) : results m 10 main_v78 c = res1 m c := by
  unfold results outs3 outs2
  rw [put_off _ _ _ _ _ _ _ (by decide), put_off _ _ _ _ _ _ _ (by decide), put_at]
theorem results_14 (c : Dev nD) : results m 14 main_v125 c = res2 m c := by
  unfold results outs3
  rw [put_off _ _ _ _ _ _ _ (by decide), put_at]
theorem results_16 (c : Dev nD) : results m 16 main_v129 c = res3 m c := by
  unfold results; rw [put_at]

theorem outs1_6 (c : Dev nD) : outs1 m 6 main_v35 c = res0 m c := by unfold outs1; rw [put_at]
theorem outs2_6 (c : Dev nD) : outs2 m 6 main_v35 c = res0 m c := by unfold outs2; rw [put_off _ _ _ _ _ _ _ (by decide), outs1_6]
theorem outs2_10 (c : Dev nD) : outs2 m 10 main_v78 c = res1 m c := by unfold outs2; rw [put_at]
theorem outs3_6 (c : Dev nD) : outs3 m 6 main_v35 c = res0 m c := by unfold outs3; rw [put_off _ _ _ _ _ _ _ (by decide), outs2_6]
theorem outs3_10 (c : Dev nD) : outs3 m 10 main_v78 c = res1 m c := by unfold outs3; rw [put_off _ _ _ _ _ _ _ (by decide), outs2_10]
theorem outs3_14 (c : Dev nD) : outs3 m 14 main_v125 c = res2 m c := by unfold outs3; rw [put_at]

/-- They fit. -/
theorem results_fit : Fits m (results m) where
  at0 c := (results_6 m c).symm
  at1 c := by
    rw [results_10, into1_congr m (results m) (outs1 m) fun c => (results_6 m c).trans (outs1_6 m c).symm]; rfl
  at2 c := by
    rw [results_14, into2_congr m (results m) (outs2 m) (fun c => (results_6 m c).trans (outs2_6 m c).symm)
      (fun c => (results_10 m c).trans (outs2_10 m c).symm)]; rfl
  at3 c := by
    rw [results_16, into3_congr m (results m) (outs3 m) (fun c => (results_6 m c).trans (outs3_6 m c).symm)
      (fun c => (results_10 m c).trans (outs3_10 m c).symm) (fun c => (results_14 m c).trans (outs3_14 m c).symm)]; rfl

end Cert.KernelIdeal.Blocks

end
-- ==== Proof.LibLineOfOps.lean ====
/-
  A straight line of host operations in which every operation writes one buffer of its own (as a printed @main does:
  each tensor value has its buffer), read one operation at a time.

  `after ops V` is what the buffers hold once the line has run from the contents `V`.  If the k-th operation writes
  exactly the k-th reference of a list `wr`, then a reference that is not written from position k on holds, after the
  whole line, what it holds after the first k operations; so the k-th operation's result buffer holds, after the whole
  line, the operation's function of what its operand buffers hold after the whole line (operands are written earlier,
  the result by no later operation).  Each side condition is a non-membership in a literal list of references.
-/
import Idealize.ShloMosaic.Lib.StableHlo.Run
import Mathlib.Data.List.Forall2

noncomputable section

namespace Idealize.ShloMosaic.StableHlo

open Idealize.ShloMosaic.TcCoe

variable {τ : Topo} {sig : RefSig} {Val : EltTy → Type}

/-- The line run in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a line related entry by entry to a list has its partner in the list. -/
theorem exists_of_forall₂_mem {α β : Type*} {R : α → β → Prop} :
    ∀ {l₁ : List α} {l₂ : List β}, List.Forall₂ R l₁ l₂ → ∀ a ∈ l₁, ∃ b ∈ l₂, R a b
  | _, _, .nil, a, ha => absurd ha List.not_mem_nil
  | _, _, .cons hab h, a, ha => by
    rcases List.mem_cons.mp ha with rfl | ha
    · exact ⟨_, List.mem_cons_self, hab⟩
    · obtain ⟨b, hb, hr⟩ := exists_of_forall₂_mem h a ha
      exact ⟨b, List.mem_cons_of_mem _ hb, hr⟩

/-- "The k-th operation writes exactly the k-th reference." -/
abbrev WritesEach (ops : List (HloOp τ sig Val)) (wr : List (Ref sig .tc)) : Prop :=
  List.Forall₂ (fun (op : HloOp τ sig Val) (r : Ref sig .tc) => op.writes = {Proc.devRef .tc r}) ops wr

variable {ops : List (HloOp τ sig Val)} {wr : List (Ref sig .tc)}

/-- A reference not written from position `k` on holds after the line what it holds after the first `k` operations. -/
theorem after_eq_after_take (h : WritesEach ops wr) (V : Valuation τ sig Val) (k : ℕ) (r : Ref sig .tc)
    (hr : r ∉ wr.drop k) : after ops V (Proc.devRef .tc r) = after (ops.take k) V (Proc.devRef .tc r) := by
  have h' := List.forall₂_drop k h
  have e : after ops V = after (ops.drop k) (after (ops.take k) V) := by
    rw [← after_append, List.take_append_drop]
  rw [e]
  refine after_of_forall_not_mem _ _ fun op hop hb => ?_
  obtain ⟨r', hr', hw⟩ := exists_of_forall₂_mem h' op hop
  rw [hw, Finset.mem_singleton] at hb
  exact hr (Proc.devRef_injective _ hb ▸ hr')

/-- A reference the line never writes keeps its launch contents. -/
theorem after_of_not_written (h : WritesEach ops wr) (V : Valuation τ sig Val) (r : Ref sig .tc) (hr : r ∉ wr) :
    after ops V (Proc.devRef .tc r) = V (Proc.devRef .tc r) :=
  (after_eq_after_take h V 0 r hr).trans rfl

/-- The k-th operation's result buffer, not written later, holds what the operation leaves there. -/
theorem after_at (h : WritesEach ops wr) (V : Valuation τ sig Val) (k : ℕ) (op : HloOp τ sig Val) (y : Ref sig .tc)
    (hk : ops[k]? = some op) (hy : y ∉ wr.drop (k + 1)) :
    after ops V (Proc.devRef .tc y) = op.result (after (ops.take k) V) (Proc.devRef .tc y) := by
  rw [after_eq_after_take h V (k + 1) y hy]
  have e : ops.take (k + 1) = ops.take k ++ [op] := by rw [List.take_succ, hk]; rfl
  rw [e, after_append]
  rfl

theorem after_nullary (h : WritesEach ops wr) (V : Valuation τ sig Val) (k : ℕ) (y : Ref sig .tc) (v : y.ty.Contents Val)
    (hy) (hk : ops[k]? = some (nullary y v hy)) (hy' : y ∉ wr.drop (k + 1)) :
    after ops V (Proc.devRef .tc y) = v := by
  rw [after_at h V k _ y hk hy']
  exact nullary_result y v hy _

theorem after_unary (h : WritesEach ops wr) (V : Valuation τ sig Val) (k : ℕ) (x y : Ref sig .tc)
    (f : x.ty.Contents Val → y.ty.Contents Val) (hx hy) (hk : ops[k]? = some (unary x y f hx hy))
    (hy' : y ∉ wr.drop (k + 1)) (hx' : x ∉ wr.drop k) :
    after ops V (Proc.devRef .tc y) = f (after ops V (Proc.devRef .tc x)) := by
  rw [after_at h V k _ y hk hy', after_eq_after_take h V k x hx']
  exact unary_result x y f hx hy _

theorem after_binary (h : WritesEach ops wr) (V : Valuation τ sig Val) (k : ℕ) (a b y : Ref sig .tc)
    (f : a.ty.Contents Val → b.ty.Contents Val → y.ty.Contents Val) (ha hb hy)
    (hk : ops[k]? = some (binary a b y f ha hb hy))
    (hy' : y ∉ wr.drop (k + 1)) (ha' : a ∉ wr.drop k) (hb' : b ∉ wr.drop k) :
    after ops V (Proc.devRef .tc y) = f (after ops V (Proc.devRef .tc a)) (after ops V (Proc.devRef .tc b)) := by
  rw [after_at h V k _ y hk hy', after_eq_after_take h V k a ha', after_eq_after_take h V k b hb']
  exact binary_result a b y f ha hb hy _

theorem after_ternary (h : WritesEach ops wr) (V : Valuation τ sig Val) (k : ℕ) (c a b y : Ref sig .tc)
    (f : c.ty.Contents Val → a.ty.Contents Val → b.ty.Contents Val → y.ty.Contents Val) (hc ha hb hy)
    (hk : ops[k]? = some (ternary c a b y f hc ha hb hy))
    (hy' : y ∉ wr.drop (k + 1)) (hc' : c ∉ wr.drop k) (ha' : a ∉ wr.drop k) (hb' : b ∉ wr.drop k) :
    after ops V (Proc.devRef .tc y)
      = f (after ops V (Proc.devRef .tc c)) (after ops V (Proc.devRef .tc a)) (after ops V (Proc.devRef .tc b)) := by
  rw [after_at h V k _ y hk hy', after_eq_after_take h V k c hc', after_eq_after_take h V k a ha',
    after_eq_after_take h V k b hb']
  exact ternary_result c a b y f hc ha hb hy _

theorem after_reshape (h : WritesEach ops wr) (V : Valuation τ sig Val) (k : ℕ) (x y : Ref sig .tc)
    (he : x.ty.elt = y.ty.elt) (hn : x.ty.shape.ShapeCasts y.ty.shape) (hx hy)
    (hk : ops[k]? = some (reshape x y he hn hx hy)) (hy' : y ∉ wr.drop (k + 1)) (hx' : x ∉ wr.drop k) :
    after ops V (Proc.devRef .tc y)
      = fun i => he ▸ shapeCast y.ty.shape (after ops V (Proc.devRef .tc x)) hn i := by
  rw [after_at h V k _ y hk hy', after_eq_after_take h V k x hx']
  exact reshape_result x y he hn hx hy _

theorem after_nary4 (h : WritesEach ops wr) (V : Valuation τ sig Val) (k : ℕ) (x a b c y : Ref sig .tc)
    (f : ((j : Fin 4) → ((![x, a, b, c] : Fin 4 → Ref sig .tc) j).ty.Contents Val) → y.ty.Contents Val) (hxs hy)
    (hk : ops[k]? = some (nary ![x, a, b, c] y f hxs hy)) (hy' : y ∉ wr.drop (k + 1))
    (hx' : x ∉ wr.drop k) (ha' : a ∉ wr.drop k) (hb' : b ∉ wr.drop k) (hc' : c ∉ wr.drop k) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  rw [after_at h V k _ y hk hy', after_eq_after_take h V k x hx', after_eq_after_take h V k a ha',
    after_eq_after_take h V k b hb', after_eq_after_take h V k c hc']
  exact nary4_result f hxs hy _

end Idealize.ShloMosaic.StableHlo

end
-- ==== Proof.Same.Lines.lean ====
import proofs.«178557_j80719615361183_1_alg».proof.Proof.Ideal.Whole
import proofs.«178557_j80719615361183_1_alg».proof.Proof.RefLine
import proofs.«178557_j80719615361183_1_alg».proof.Proof.LibLineOfOps
import Idealize.ShloMosaic.PureOps.Ideal

set_option maxRecDepth 16384

noncomputable section

namespace Idealize.ShloMosaic.StableHlo

open Idealize.ShloMosaic.TcCoe

variable {τ : Topo} {sig : RefSig} {Val : EltTy → Type} {ops : List (HloOp τ sig Val)} {wr : List (Ref sig .tc)}

/-- The k-th operation, of any number of operands, none written from position k on: its result buffer holds after the whole line
    its function of what the operand buffers hold after the whole line. -/
theorem after_nary (h : WritesEach ops wr) (V : Valuation τ sig Val) (k : ℕ) {n : ℕ} (xs : Fin n → Ref sig .tc) (y : Ref sig .tc)
    (f : ((j : Fin n) → (xs j).ty.Contents Val) → y.ty.Contents Val) (hxs hy)
    (hk : ops[k]? = some (nary xs y f hxs hy)) (hy' : y ∉ wr.drop (k + 1)) (hx' : ∀ j, xs j ∉ wr.drop k) :
    after ops V (Proc.devRef .tc y) = f (fun j => after ops V (Proc.devRef .tc (xs j))) := by
  rw [after_at h V k _ y hk hy', nary_result]
  congr 1; funext j; exact (after_eq_after_take h V k (xs j) (hx' j)).symm

end Idealize.ShloMosaic.StableHlo

namespace Cert.Same

open Idealize.ShloMosaic Idealize.ShloMosaic.TcCoe Idealize.ShloMosaic.StableHlo Idealize.SL.Sem

/-! # Both programs as lines of operations, each writing a buffer of its own -/

/-- The references the reference's operations write, in order. -/
def wrR : List (Ref Cert.ReferenceIdeal.sig .tc) := [Cert.ReferenceIdeal.main_v0, Cert.ReferenceIdeal.main_v1, Cert.ReferenceIdeal.main_v2, Cert.ReferenceIdeal.main_v3, Cert.ReferenceIdeal.main_v4, Cert.ReferenceIdeal.main_v5, Cert.ReferenceIdeal.main_v6, Cert.ReferenceIdeal.main_cst, Cert.ReferenceIdeal.main_v7, Cert.ReferenceIdeal.main_v8, Cert.ReferenceIdeal.main_cst_0, Cert.ReferenceIdeal.main_v9, Cert.ReferenceIdeal.main_v10, Cert.ReferenceIdeal.main_v11, Cert.ReferenceIdeal.main_cst_1, Cert.ReferenceIdeal.main_v12, Cert.ReferenceIdeal.main_v13, Cert.ReferenceIdeal.main_cst_2, Cert.ReferenceIdeal.main_call0_v0, Cert.ReferenceIdeal.main_call0_v1, Cert.ReferenceIdeal.main_v14, Cert.ReferenceIdeal.main_cst_3, Cert.ReferenceIdeal.main_v15, Cert.ReferenceIdeal.main_v16, Cert.ReferenceIdeal.main_v17, Cert.ReferenceIdeal.main_cst_4, Cert.ReferenceIdeal.main_call1_v0, Cert.ReferenceIdeal.main_call1_v1, Cert.ReferenceIdeal.main_v18, Cert.ReferenceIdeal.main_c, Cert.ReferenceIdeal.main_v19, Cert.ReferenceIdeal.main_v20, Cert.ReferenceIdeal.main_c_5, Cert.ReferenceIdeal.main_v21, Cert.ReferenceIdeal.main_v22, Cert.ReferenceIdeal.main_v23, Cert.ReferenceIdeal.main_v24, Cert.ReferenceIdeal.main_v25, Cert.ReferenceIdeal.main_v26, Cert.ReferenceIdeal.main_c_6, Cert.ReferenceIdeal.main_v27, Cert.ReferenceIdeal.main_v28, Cert.ReferenceIdeal.main_c_7, Cert.ReferenceIdeal.main_v29, Cert.ReferenceIdeal.main_v30, Cert.ReferenceIdeal.main_v31, Cert.ReferenceIdeal.main_v32, Cert.ReferenceIdeal.main_v33, Cert.ReferenceIdeal.main_v34, Cert.ReferenceIdeal.main_v35, Cert.ReferenceIdeal.main_c_8, Cert.ReferenceIdeal.main_v36, Cert.ReferenceIdeal.main_v37, Cert.ReferenceIdeal.main_c_9, Cert.ReferenceIdeal.main_v38, Cert.ReferenceIdeal.main_v39, Cert.ReferenceIdeal.main_v40, Cert.ReferenceIdeal.main_v41, Cert.ReferenceIdeal.main_v42, Cert.ReferenceIdeal.main_v43, Cert.ReferenceIdeal.main_v44, Cert.ReferenceIdeal.main_v45, Cert.ReferenceIdeal.main_cst_10, Cert.ReferenceIdeal.main_v46, Cert.ReferenceIdeal.main_v47, Cert.ReferenceIdeal.main_v48, Cert.ReferenceIdeal.main_v49, Cert.ReferenceIdeal.main_v50, Cert.ReferenceIdeal.main_v51, Cert.ReferenceIdeal.main_call2_cst, Cert.ReferenceIdeal.main_call2_v0, Cert.ReferenceIdeal.main_v52, Cert.ReferenceIdeal.main_cst_11, Cert.ReferenceIdeal.main_v53, Cert.ReferenceIdeal.main_cst_12, Cert.ReferenceIdeal.main_v54, Cert.ReferenceIdeal.main_v55, Cert.ReferenceIdeal.main_v56, Cert.ReferenceIdeal.main_v57, Cert.ReferenceIdeal.main_v58, Cert.ReferenceIdeal.main_v59, Cert.ReferenceIdeal.main_cst_13, Cert.ReferenceIdeal.main_v60, Cert.ReferenceIdeal.main_cst_14, Cert.ReferenceIdeal.main_v61, Cert.ReferenceIdeal.main_v62, Cert.ReferenceIdeal.main_v63, Cert.ReferenceIdeal.main_v64, Cert.ReferenceIdeal.main_v65, Cert.ReferenceIdeal.main_cst_15, Cert.ReferenceIdeal.main_v66, Cert.ReferenceIdeal.main_v67, Cert.ReferenceIdeal.main_v68, Cert.ReferenceIdeal.main_v69, Cert.ReferenceIdeal.main_v70, Cert.ReferenceIdeal.main_v71, Cert.ReferenceIdeal.main_v72, Cert.ReferenceIdeal.main_v73, Cert.ReferenceIdeal.main_v74, Cert.ReferenceIdeal.main_v75, Cert.ReferenceIdeal.main_v76, Cert.ReferenceIdeal.main_v77, Cert.ReferenceIdeal.main_v78, Cert.ReferenceIdeal.main_c_16, Cert.ReferenceIdeal.main_v79, Cert.ReferenceIdeal.main_v80, Cert.ReferenceIdeal.main_c_17, Cert.ReferenceIdeal.main_v81, Cert.ReferenceIdeal.main_v82, Cert.ReferenceIdeal.main_v83, Cert.ReferenceIdeal.main_v84, Cert.ReferenceIdeal.main_v85, Cert.ReferenceIdeal.main_v86, Cert.ReferenceIdeal.main_v87, Cert.ReferenceIdeal.main_v88, Cert.ReferenceIdeal.main_cst_18, Cert.ReferenceIdeal.main_v89, Cert.ReferenceIdeal.main_v90, Cert.ReferenceIdeal.main_v91, Cert.ReferenceIdeal.main_v92, Cert.ReferenceIdeal.main_v93, Cert.ReferenceIdeal.main_v94, Cert.ReferenceIdeal.main_call3_cst, Cert.ReferenceIdeal.main_call3_v0, Cert.ReferenceIdeal.main_v95, Cert.ReferenceIdeal.main_cst_19, Cert.ReferenceIdeal.main_v96, Cert.ReferenceIdeal.main_cst_20, Cert.ReferenceIdeal.main_v97, Cert.ReferenceIdeal.main_v98, Cert.ReferenceIdeal.main_v99, Cert.ReferenceIdeal.main_v100, Cert.ReferenceIdeal.main_v101, Cert.ReferenceIdeal.main_v102, Cert.ReferenceIdeal.main_cst_21, Cert.ReferenceIdeal.main_v103, Cert.ReferenceIdeal.main_cst_22, Cert.ReferenceIdeal.main_v104, Cert.ReferenceIdeal.main_v105, Cert.ReferenceIdeal.main_v106, Cert.ReferenceIdeal.main_v107, Cert.ReferenceIdeal.main_v108, Cert.ReferenceIdeal.main_cst_23, Cert.ReferenceIdeal.main_v109, Cert.ReferenceIdeal.main_v110, Cert.ReferenceIdeal.main_v111, Cert.ReferenceIdeal.main_v112, Cert.ReferenceIdeal.main_v113, Cert.ReferenceIdeal.main_v114, Cert.ReferenceIdeal.main_v115, Cert.ReferenceIdeal.main_v116, Cert.ReferenceIdeal.main_v117, Cert.ReferenceIdeal.main_v118, Cert.ReferenceIdeal.main_v119, Cert.ReferenceIdeal.main_v120, Cert.ReferenceIdeal.main_v121, Cert.ReferenceIdeal.main_v122, Cert.ReferenceIdeal.main_v123, Cert.ReferenceIdeal.main_v124, Cert.ReferenceIdeal.main_v125, Cert.ReferenceIdeal.main_v126, Cert.ReferenceIdeal.main_v127, Cert.ReferenceIdeal.main_v128, Cert.ReferenceIdeal.main_v129, Cert.ReferenceIdeal.main_v130, Cert.ReferenceIdeal.main_v131, Cert.ReferenceIdeal.main_v132, Cert.ReferenceIdeal.main_v133, Cert.ReferenceIdeal.main_v134, Cert.ReferenceIdeal.main_v135, Cert.ReferenceIdeal.main_cst_24, Cert.ReferenceIdeal.main_v136, Cert.ReferenceIdeal.main_v137, Cert.ReferenceIdeal.main_cst_25, Cert.ReferenceIdeal.main_v138, Cert.ReferenceIdeal.main_v139, Cert.ReferenceIdeal.main_v140, Cert.ReferenceIdeal.main_v141, Cert.ReferenceIdeal.main_v142, Cert.ReferenceIdeal.main_v143, Cert.ReferenceIdeal.main_cst_26, Cert.ReferenceIdeal.main_v144, Cert.ReferenceIdeal.main_v145, Cert.ReferenceIdeal.main_cst_27, Cert.ReferenceIdeal.main_v146, Cert.ReferenceIdeal.main_v147, Cert.ReferenceIdeal.main_v148, Cert.ReferenceIdeal.main_v149, Cert.ReferenceIdeal.main_v150, Cert.ReferenceIdeal.main_v151, Cert.ReferenceIdeal.main_v152, Cert.ReferenceIdeal.main_v153, Cert.ReferenceIdeal.main_v154, Cert.ReferenceIdeal.main_v155, Cert.ReferenceIdeal.main_v156, Cert.ReferenceIdeal.main_v157, Cert.ReferenceIdeal.main_v158, Cert.ReferenceIdeal.main_v159, Cert.ReferenceIdeal.main_v160, Cert.ReferenceIdeal.main_v161, Cert.ReferenceIdeal.main_v162, Cert.ReferenceIdeal.main_v163, Cert.ReferenceIdeal.main_cst_28, Cert.ReferenceIdeal.main_v164, Cert.ReferenceIdeal.main_v165, Cert.ReferenceIdeal.main_cst_29, Cert.ReferenceIdeal.main_v166, Cert.ReferenceIdeal.main_v167, Cert.ReferenceIdeal.main_v168, Cert.ReferenceIdeal.main_v169, Cert.ReferenceIdeal.main_v170, Cert.ReferenceIdeal.main_v171, Cert.ReferenceIdeal.main_cst_30, Cert.ReferenceIdeal.main_v172, Cert.ReferenceIdeal.main_v173, Cert.ReferenceIdeal.main_cst_31, Cert.ReferenceIdeal.main_v174, Cert.ReferenceIdeal.main_v175, Cert.ReferenceIdeal.main_v176, Cert.ReferenceIdeal.main_v177, Cert.ReferenceIdeal.main_v178]

set_option maxHeartbeats 4000000 in
theorem eachR : WritesEach (Cert.ReferenceIdeal.ValueP.ops (F := Ideal)) wrR :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))))))))))))))))))))))))))))))))))))))))))))))))))))))))))))))))))))))))))))))))))))))))))))))))))))))))))))))))))))))))))))))))))))))))))))))))))))))))))))))))))))))))))))))))))))))))))))))))))))))))))))))

def wr_hostOps0 : List (Ref Cert.KernelIdeal.sig .tc) := [Cert.KernelIdeal.main_v0, Cert.KernelIdeal.main_v1, Cert.KernelIdeal.main_v2, Cert.KernelIdeal.main_v3, Cert.KernelIdeal.main_v4, Cert.KernelIdeal.main_v5, Cert.KernelIdeal.main_v6, Cert.KernelIdeal.main_cst, Cert.KernelIdeal.main_v7, Cert.KernelIdeal.main_v8, Cert.KernelIdeal.main_cst_0, Cert.KernelIdeal.main_v9, Cert.KernelIdeal.main_v10, Cert.KernelIdeal.main_v11, Cert.KernelIdeal.main_cst_1, Cert.KernelIdeal.main_v12, Cert.KernelIdeal.main_v13, Cert.KernelIdeal.main_cst_2]
theorem each_hostOps0 : WritesEach (Cert.KernelIdeal.Gen.hostOps0 (F := Ideal)) wr_hostOps0 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))

def wr_hostOps0_1 : List (Ref Cert.KernelIdeal.sig .tc) := [Cert.KernelIdeal.main_call0_v0, Cert.KernelIdeal.main_call0_v1, Cert.KernelIdeal.main_v14]
theorem each_hostOps0_1 : WritesEach (Cert.KernelIdeal.Gen.hostOps0_1 (F := Ideal)) wr_hostOps0_1 :=
  List.Forall₂.cons rfl (List.Forall₂.cons rfl (List.Forall₂.cons rfl (List.Forall₂.nil)))

def wr_hostOps0_2 : List (Ref Cert.KernelIdeal.sig .tc) := [Cert.KernelIdeal.main_cst_3, Cert.KernelIdeal.main_v15, Cert.KernelIdeal.main_v16, Cert.KernelIdeal.main_v17, Cert.KernelIdeal.main_cst_4]
theorem each_hostOps0_2 : WritesEach (Cert.KernelIdeal.Gen.hostOps0_2 (F := Ideal)) wr_hostOps0_2 :=
  List.Forall₂.cons rfl (List.Forall₂.cons rfl (List.Forall₂.cons rfl (List.Forall₂.cons rfl (List.Forall₂.cons rfl (List.Forall₂.nil)))))

def wr_hostOps0_3 : List (Ref Cert.KernelIdeal.sig .tc) := [Cert.KernelIdeal.main_call1_v0, Cert.KernelIdeal.main_call1_v1, Cert.KernelIdeal.main_v18]
theorem each_hostOps0_3 : WritesEach (Cert.KernelIdeal.Gen.hostOps0_3 (F := Ideal)) wr_hostOps0_3 :=
  List.Forall₂.cons rfl (List.Forall₂.cons rfl (List.Forall₂.cons rfl (List.Forall₂.nil)))

def wr_hostOps0_4 : List (Ref Cert.KernelIdeal.sig .tc) := [Cert.KernelIdeal.main_c, Cert.KernelIdeal.main_v19, Cert.KernelIdeal.main_v20, Cert.KernelIdeal.main_c_5, Cert.KernelIdeal.main_v21, Cert.KernelIdeal.main_v22, Cert.KernelIdeal.main_v23, Cert.KernelIdeal.main_v24, Cert.KernelIdeal.main_v25, Cert.KernelIdeal.main_v26, Cert.KernelIdeal.main_c_6, Cert.KernelIdeal.main_v27, Cert.KernelIdeal.main_v28, Cert.KernelIdeal.main_c_7, Cert.KernelIdeal.main_v29, Cert.KernelIdeal.main_v30, Cert.KernelIdeal.main_v31, Cert.KernelIdeal.main_v32, Cert.KernelIdeal.main_v33, Cert.KernelIdeal.main_v34]
theorem each_hostOps0_4 : WritesEach (Cert.KernelIdeal.Gen.hostOps0_4 (F := Ideal)) wr_hostOps0_4 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))

def wr_hostOps1 : List (Ref Cert.KernelIdeal.sig .tc) := [Cert.KernelIdeal.main_c_8, Cert.KernelIdeal.main_v36, Cert.KernelIdeal.main_v37, Cert.KernelIdeal.main_c_9, Cert.KernelIdeal.main_v38, Cert.KernelIdeal.main_v39, Cert.KernelIdeal.main_v40, Cert.KernelIdeal.main_v41, Cert.KernelIdeal.main_v42, Cert.KernelIdeal.main_v43, Cert.KernelIdeal.main_v44, Cert.KernelIdeal.main_v45, Cert.KernelIdeal.main_cst_10, Cert.KernelIdeal.main_v46, Cert.KernelIdeal.main_v47, Cert.KernelIdeal.main_v48, Cert.KernelIdeal.main_v49, Cert.KernelIdeal.main_v50, Cert.KernelIdeal.main_v51]
theorem each_hostOps1 : WritesEach (Cert.KernelIdeal.Gen.hostOps1 (F := Ideal)) wr_hostOps1 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))))

def wr_hostOps1_1 : List (Ref Cert.KernelIdeal.sig .tc) := [Cert.KernelIdeal.main_call2_cst, Cert.KernelIdeal.main_call2_v0, Cert.KernelIdeal.main_v52]
theorem each_hostOps1_1 : WritesEach (Cert.KernelIdeal.Gen.hostOps1_1 (F := Ideal)) wr_hostOps1_1 :=
  List.Forall₂.cons rfl (List.Forall₂.cons rfl (List.Forall₂.cons rfl (List.Forall₂.nil)))

def wr_hostOps1_2 : List (Ref Cert.KernelIdeal.sig .tc) := [Cert.KernelIdeal.main_cst_11, Cert.KernelIdeal.main_v53, Cert.KernelIdeal.main_cst_12, Cert.KernelIdeal.main_v54, Cert.KernelIdeal.main_v55, Cert.KernelIdeal.main_v56, Cert.KernelIdeal.main_v57, Cert.KernelIdeal.main_v58, Cert.KernelIdeal.main_v59, Cert.KernelIdeal.main_cst_13, Cert.KernelIdeal.main_v60, Cert.KernelIdeal.main_cst_14, Cert.KernelIdeal.main_v61, Cert.KernelIdeal.main_v62, Cert.KernelIdeal.main_v63, Cert.KernelIdeal.main_v64, Cert.KernelIdeal.main_v65, Cert.KernelIdeal.main_cst_15, Cert.KernelIdeal.main_v66, Cert.KernelIdeal.main_v67, Cert.KernelIdeal.main_v68, Cert.KernelIdeal.main_v69, Cert.KernelIdeal.main_v70, Cert.KernelIdeal.main_v71, Cert.KernelIdeal.main_v72, Cert.KernelIdeal.main_v73, Cert.KernelIdeal.main_v74, Cert.KernelIdeal.main_v75, Cert.KernelIdeal.main_v76, Cert.KernelIdeal.main_v77]
theorem each_hostOps1_2 : WritesEach (Cert.KernelIdeal.Gen.hostOps1_2 (F := Ideal)) wr_hostOps1_2 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))

def wr_hostOps2 : List (Ref Cert.KernelIdeal.sig .tc) := [Cert.KernelIdeal.main_c_16, Cert.KernelIdeal.main_v79, Cert.KernelIdeal.main_v80, Cert.KernelIdeal.main_c_17, Cert.KernelIdeal.main_v81, Cert.KernelIdeal.main_v82, Cert.KernelIdeal.main_v83, Cert.KernelIdeal.main_v84, Cert.KernelIdeal.main_v85, Cert.KernelIdeal.main_v86, Cert.KernelIdeal.main_v87, Cert.KernelIdeal.main_v88, Cert.KernelIdeal.main_cst_18, Cert.KernelIdeal.main_v89, Cert.KernelIdeal.main_v90, Cert.KernelIdeal.main_v91, Cert.KernelIdeal.main_v92, Cert.KernelIdeal.main_v93, Cert.KernelIdeal.main_v94]
theorem each_hostOps2 : WritesEach (Cert.KernelIdeal.Gen.hostOps2 (F := Ideal)) wr_hostOps2 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))))

def wr_hostOps2_1 : List (Ref Cert.KernelIdeal.sig .tc) := [Cert.KernelIdeal.main_call3_cst, Cert.KernelIdeal.main_call3_v0, Cert.KernelIdeal.main_v95]
theorem each_hostOps2_1 : WritesEach (Cert.KernelIdeal.Gen.hostOps2_1 (F := Ideal)) wr_hostOps2_1 :=
  List.Forall₂.cons rfl (List.Forall₂.cons rfl (List.Forall₂.cons rfl (List.Forall₂.nil)))

def wr_hostOps2_2 : List (Ref Cert.KernelIdeal.sig .tc) := [Cert.KernelIdeal.main_cst_19, Cert.KernelIdeal.main_v96, Cert.KernelIdeal.main_cst_20, Cert.KernelIdeal.main_v97, Cert.KernelIdeal.main_v98, Cert.KernelIdeal.main_v99, Cert.KernelIdeal.main_v100, Cert.KernelIdeal.main_v101, Cert.KernelIdeal.main_v102, Cert.KernelIdeal.main_cst_21, Cert.KernelIdeal.main_v103, Cert.KernelIdeal.main_cst_22, Cert.KernelIdeal.main_v104, Cert.KernelIdeal.main_v105, Cert.KernelIdeal.main_v106, Cert.KernelIdeal.main_v107, Cert.KernelIdeal.main_v108, Cert.KernelIdeal.main_cst_23, Cert.KernelIdeal.main_v109, Cert.KernelIdeal.main_v110, Cert.KernelIdeal.main_v111, Cert.KernelIdeal.main_v112, Cert.KernelIdeal.main_v113, Cert.KernelIdeal.main_v114, Cert.KernelIdeal.main_v115, Cert.KernelIdeal.main_v116, Cert.KernelIdeal.main_v117, Cert.KernelIdeal.main_v118, Cert.KernelIdeal.main_v119, Cert.KernelIdeal.main_v120, Cert.KernelIdeal.main_v121, Cert.KernelIdeal.main_v122, Cert.KernelIdeal.main_v123, Cert.KernelIdeal.main_v124]
theorem each_hostOps2_2 : WritesEach (Cert.KernelIdeal.Gen.hostOps2_2 (F := Ideal)) wr_hostOps2_2 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))

def wr_hostOps3 : List (Ref Cert.KernelIdeal.sig .tc) := [Cert.KernelIdeal.main_v126, Cert.KernelIdeal.main_v127, Cert.KernelIdeal.main_v128]
theorem each_hostOps3 : WritesEach (Cert.KernelIdeal.Gen.hostOps3 (F := Ideal)) wr_hostOps3 :=
  List.Forall₂.cons rfl (List.Forall₂.cons rfl (List.Forall₂.cons rfl (List.Forall₂.nil)))

def wr_hostOps4 : List (Ref Cert.KernelIdeal.sig .tc) := [Cert.KernelIdeal.main_v130]
theorem each_hostOps4 : WritesEach (Cert.KernelIdeal.Gen.hostOps4 (F := Ideal)) wr_hostOps4 :=
  List.Forall₂.cons rfl (List.Forall₂.nil)

/-- What the reference's line leaves in a buffer, from the launch contents of core `c`. -/
abbrev Rf (m' : (ℓ : Loc Cert.ReferenceIdeal.nD Cert.ReferenceIdeal.τ Cert.ReferenceIdeal.sig) → Buf (Elt Ideal) ℓ) (c : Dev Cert.KernelIdeal.nD) (r : Ref Cert.ReferenceIdeal.sig .tc) :=
  after (Cert.ReferenceIdeal.ValueP.ops (F := Ideal)) (launchContents m' c) (Proc.devRef .tc r)

end Cert.Same

end
-- ==== Proof.Same.A.lean ====
import proofs.«178557_j80719615361183_1_alg».proof.Proof.Same.Lines

set_option maxRecDepth 16384

noncomputable section

namespace Cert.Same

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ) (outs : Cert.KernelIdeal.Gen.Outs (F := Ideal))
  (m' : (ℓ : Loc Cert.ReferenceIdeal.nD Cert.ReferenceIdeal.τ Cert.ReferenceIdeal.sig) → Buf (Elt Ideal) ℓ)
  (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
  (c : Dev Cert.KernelIdeal.nD)
include hag

/-! # The argument arrays, and the edge normalisation: every host operation before the first product -/

theorem same_main_arg0 : Cert.KernelIdeal.Gen.V17 m outs c Cert.KernelIdeal.main_arg0 = Rf m' c Cert.ReferenceIdeal.main_arg0 :=
  (Cert.KernelIdeal.Gen.V17_main_arg0 m outs c).trans (((hag c).1).symm.trans (after_of_not_written eachR (launchContents m' c) Cert.ReferenceIdeal.main_arg0 (by decide)).symm)

theorem same_main_arg1 : Cert.KernelIdeal.Gen.V17 m outs c Cert.KernelIdeal.main_arg1 = Rf m' c Cert.ReferenceIdeal.main_arg1 :=
  (Cert.KernelIdeal.Gen.V17_main_arg1 m outs c).trans (((hag c).2.1).symm.trans (after_of_not_written eachR (launchContents m' c) Cert.ReferenceIdeal.main_arg1 (by decide)).symm)

theorem same_main_arg2 : Cert.KernelIdeal.Gen.V17 m outs c Cert.KernelIdeal.main_arg2 = Rf m' c Cert.ReferenceIdeal.main_arg2 :=
  (Cert.KernelIdeal.Gen.V17_main_arg2 m outs c).trans (((hag c).2.2.1).symm.trans (after_of_not_written eachR (launchContents m' c) Cert.ReferenceIdeal.main_arg2 (by decide)).symm)

theorem same_main_arg3 : Cert.KernelIdeal.Gen.V17 m outs c Cert.KernelIdeal.main_arg3 = Rf m' c Cert.ReferenceIdeal.main_arg3 :=
  (Cert.KernelIdeal.Gen.V17_main_arg3 m outs c).trans (((hag c).2.2.2.1).symm.trans (after_of_not_written eachR (launchContents m' c) Cert.ReferenceIdeal.main_arg3 (by decide)).symm)

theorem same_main_arg4 : Cert.KernelIdeal.Gen.V17 m outs c Cert.KernelIdeal.main_arg4 = Rf m' c Cert.ReferenceIdeal.main_arg4 :=
  (Cert.KernelIdeal.Gen.V17_main_arg4 m outs c).trans (((hag c).2.2.2.2.1).symm.trans (after_of_not_written eachR (launchContents m' c) Cert.ReferenceIdeal.main_arg4 (by decide)).symm)

theorem same_main_arg5 : Cert.KernelIdeal.Gen.V17 m outs c Cert.KernelIdeal.main_arg5 = Rf m' c Cert.ReferenceIdeal.main_arg5 :=
  (Cert.KernelIdeal.Gen.V17_main_arg5 m outs c).trans (((hag c).2.2.2.2.2.1).symm.trans (after_of_not_written eachR (launchContents m' c) Cert.ReferenceIdeal.main_arg5 (by decide)).symm)

theorem same_main_arg6 : Cert.KernelIdeal.Gen.V17 m outs c Cert.KernelIdeal.main_arg6 = Rf m' c Cert.ReferenceIdeal.main_arg6 :=
  (Cert.KernelIdeal.Gen.V17_main_arg6 m outs c).trans (((hag c).2.2.2.2.2.2.1).symm.trans (after_of_not_written eachR (launchContents m' c) Cert.ReferenceIdeal.main_arg6 (by decide)).symm)

theorem same_main_arg7 : Cert.KernelIdeal.Gen.V17 m outs c Cert.KernelIdeal.main_arg7 = Rf m' c Cert.ReferenceIdeal.main_arg7 :=
  (Cert.KernelIdeal.Gen.V17_main_arg7 m outs c).trans (((hag c).2.2.2.2.2.2.2.1).symm.trans (after_of_not_written eachR (launchContents m' c) Cert.ReferenceIdeal.main_arg7 (by decide)).symm)

theorem same_main_arg8 : Cert.KernelIdeal.Gen.V17 m outs c Cert.KernelIdeal.main_arg8 = Rf m' c Cert.ReferenceIdeal.main_arg8 :=
  (Cert.KernelIdeal.Gen.V17_main_arg8 m outs c).trans (((hag c).2.2.2.2.2.2.2.2.1).symm.trans (after_of_not_written eachR (launchContents m' c) Cert.ReferenceIdeal.main_arg8 (by decide)).symm)

theorem same_main_arg9 : Cert.KernelIdeal.Gen.V17 m outs c Cert.KernelIdeal.main_arg9 = Rf m' c Cert.ReferenceIdeal.main_arg9 :=
  (Cert.KernelIdeal.Gen.V17_main_arg9 m outs c).trans (((hag c).2.2.2.2.2.2.2.2.2.1).symm.trans (after_of_not_written eachR (launchContents m' c) Cert.ReferenceIdeal.main_arg9 (by decide)).symm)

theorem same_main_arg10 : Cert.KernelIdeal.Gen.V17 m outs c Cert.KernelIdeal.main_arg10 = Rf m' c Cert.ReferenceIdeal.main_arg10 :=
  (Cert.KernelIdeal.Gen.V17_main_arg10 m outs c).trans (((hag c).2.2.2.2.2.2.2.2.2.2.1).symm.trans (after_of_not_written eachR (launchContents m' c) Cert.ReferenceIdeal.main_arg10 (by decide)).symm)

theorem same_main_arg11 : Cert.KernelIdeal.Gen.V17 m outs c Cert.KernelIdeal.main_arg11 = Rf m' c Cert.ReferenceIdeal.main_arg11 :=
  (Cert.KernelIdeal.Gen.V17_main_arg11 m outs c).trans (((hag c).2.2.2.2.2.2.2.2.2.2.2.1).symm.trans (after_of_not_written eachR (launchContents m' c) Cert.ReferenceIdeal.main_arg11 (by decide)).symm)

theorem same_main_arg12 : Cert.KernelIdeal.Gen.V17 m outs c Cert.KernelIdeal.main_arg12 = Rf m' c Cert.ReferenceIdeal.main_arg12 :=
  (Cert.KernelIdeal.Gen.V17_main_arg12 m outs c).trans (((hag c).2.2.2.2.2.2.2.2.2.2.2.2.1).symm.trans (after_of_not_written eachR (launchContents m' c) Cert.ReferenceIdeal.main_arg12 (by decide)).symm)

theorem same_main_arg13 : Cert.KernelIdeal.Gen.V17 m outs c Cert.KernelIdeal.main_arg13 = Rf m' c Cert.ReferenceIdeal.main_arg13 :=
  (Cert.KernelIdeal.Gen.V17_main_arg13 m outs c).trans (((hag c).2.2.2.2.2.2.2.2.2.2.2.2.2.1).symm.trans (after_of_not_written eachR (launchContents m' c) Cert.ReferenceIdeal.main_arg13 (by decide)).symm)

theorem same_main_arg14 : Cert.KernelIdeal.Gen.V17 m outs c Cert.KernelIdeal.main_arg14 = Rf m' c Cert.ReferenceIdeal.main_arg14 :=
  (Cert.KernelIdeal.Gen.V17_main_arg14 m outs c).trans (((hag c).2.2.2.2.2.2.2.2.2.2.2.2.2.2.1).symm.trans (after_of_not_written eachR (launchContents m' c) Cert.ReferenceIdeal.main_arg14 (by decide)).symm)

theorem same_main_arg15 : Cert.KernelIdeal.Gen.V17 m outs c Cert.KernelIdeal.main_arg15 = Rf m' c Cert.ReferenceIdeal.main_arg15 :=
  (Cert.KernelIdeal.Gen.V17_main_arg15 m outs c).trans (((hag c).2.2.2.2.2.2.2.2.2.2.2.2.2.2.2.1).symm.trans (after_of_not_written eachR (launchContents m' c) Cert.ReferenceIdeal.main_arg15 (by decide)).symm)

theorem same_main_arg16 : Cert.KernelIdeal.Gen.V17 m outs c Cert.KernelIdeal.main_arg16 = Rf m' c Cert.ReferenceIdeal.main_arg16 :=
  (Cert.KernelIdeal.Gen.V17_main_arg16 m outs c).trans (((hag c).2.2.2.2.2.2.2.2.2.2.2.2.2.2.2.2.1).symm.trans (after_of_not_written eachR (launchContents m' c) Cert.ReferenceIdeal.main_arg16 (by decide)).symm)

theorem same_main_arg17 : Cert.KernelIdeal.Gen.V17 m outs c Cert.KernelIdeal.main_arg17 = Rf m' c Cert.ReferenceIdeal.main_arg17 :=
  (Cert.KernelIdeal.Gen.V17_main_arg17 m outs c).trans (((hag c).2.2.2.2.2.2.2.2.2.2.2.2.2.2.2.2.2.1).symm.trans (after_of_not_written eachR (launchContents m' c) Cert.ReferenceIdeal.main_arg17 (by decide)).symm)

theorem same_main_arg18 : Cert.KernelIdeal.Gen.V17 m outs c Cert.KernelIdeal.main_arg18 = Rf m' c Cert.ReferenceIdeal.main_arg18 :=
  (Cert.KernelIdeal.Gen.V17_main_arg18 m outs c).trans (((hag c).2.2.2.2.2.2.2.2.2.2.2.2.2.2.2.2.2.2).symm.trans (after_of_not_written eachR (launchContents m' c) Cert.ReferenceIdeal.main_arg18 (by decide)).symm)

theorem same_main_v0 : Cert.KernelIdeal.Gen.V17 m outs c Cert.KernelIdeal.main_v0 = Rf m' c Cert.ReferenceIdeal.main_v0 := by
  have hK := (((Cert.KernelIdeal.Gen.V17_of m outs c Cert.KernelIdeal.main_v0 (by decide)).trans ((Cert.KernelIdeal.Gen.V16_of m outs c Cert.KernelIdeal.main_v0 (by decide)).trans ((Cert.KernelIdeal.Gen.V15_of m outs c Cert.KernelIdeal.main_v0 (by decide)).trans ((Cert.KernelIdeal.Gen.V14_of m outs c Cert.KernelIdeal.main_v0 (by decide)).trans ((Cert.KernelIdeal.Gen.V13_of m outs c Cert.KernelIdeal.main_v0 (by decide)).trans ((Cert.KernelIdeal.Gen.V12_of m outs c Cert.KernelIdeal.main_v0 (by decide)).trans ((Cert.KernelIdeal.Gen.V11_of m outs c Cert.KernelIdeal.main_v0 (by decide)).trans ((Cert.KernelIdeal.Gen.V10_of m outs c Cert.KernelIdeal.main_v0 (by decide)).trans ((Cert.KernelIdeal.Gen.V9_of m outs c Cert.KernelIdeal.main_v0 (by decide)).trans ((Cert.KernelIdeal.Gen.V8_of m outs c Cert.KernelIdeal.main_v0 (by decide)).trans ((Cert.KernelIdeal.Gen.V7_of m outs c Cert.KernelIdeal.main_v0 (by decide)).trans ((Cert.KernelIdeal.Gen.V6_of m outs c Cert.KernelIdeal.main_v0 (by decide)).trans ((Cert.KernelIdeal.Gen.V5_of m c Cert.KernelIdeal.main_v0 (by decide)).trans ((Cert.KernelIdeal.Gen.V4_of m c Cert.KernelIdeal.main_v0 (by decide)).trans ((Cert.KernelIdeal.Gen.V3_of m c Cert.KernelIdeal.main_v0 (by decide)).trans (Cert.KernelIdeal.Gen.V2_of m c Cert.KernelIdeal.main_v0 (by decide)))))))))))))))))).trans (after_unary each_hostOps0 (Cert.KernelIdeal.Gen.V0 m c) 0 _ _ _ _ _ rfl (by decide) (by decide))
  have hR := after_unary eachR (launchContents m' c) 0 _ _ _ _ _ rfl (by decide) (by decide)
  have E0 : after (Cert.KernelIdeal.Gen.hostOps0 (F := Ideal)) (Cert.KernelIdeal.Gen.V0 m c) (Proc.devRef .tc Cert.KernelIdeal.main_arg1) = Rf m' c Cert.ReferenceIdeal.main_arg1 :=
    (((Cert.KernelIdeal.Gen.V17_of m outs c Cert.KernelIdeal.main_arg1 (by decide)).trans ((Cert.KernelIdeal.Gen.V16_of m outs c Cert.KernelIdeal.main_arg1 (by decide)).trans ((Cert.KernelIdeal.Gen.V15_of m outs c Cert.KernelIdeal.main_arg1 (by decide)).trans ((Cert.KernelIdeal.Gen.V14_of m outs c Cert.KernelIdeal.main_arg1 (by decide)).trans ((Cert.KernelIdeal.Gen.V13_of m outs c Cert.KernelIdeal.main_arg1 (by decide)).trans ((Cert.KernelIdeal.Gen.V12_of m outs c Cert.KernelIdeal.main_arg1 (by decide)).trans ((Cert.KernelIdeal.Gen.V11_of m outs c Cert.KernelIdeal.main_arg1 (by decide)).trans ((Cert.KernelIdeal.Gen.V10_of m outs c Cert.KernelIdeal.main_arg1 (by decide)).trans ((Cert.KernelIdeal.Gen.V9_of m outs c Cert.KernelIdeal.main_arg1 (by decide)).trans ((Cert.KernelIdeal.Gen.V8_of m outs c Cert.KernelIdeal.main_arg1 (by decide)).trans ((Cert.KernelIdeal.Gen.V7_of m outs c Cert.KernelIdeal.main_arg1 (by decide)).trans ((Cert.KernelIdeal.Gen.V6_of m outs c Cert.KernelIdeal.main_arg1 (by decide)).trans ((Cert.KernelIdeal.Gen.V5_of m c Cert.KernelIdeal.main_arg1 (by decide)).trans ((Cert.KernelIdeal.Gen.V4_of m c Cert.KernelIdeal.main_arg1 (by decide)).trans ((Cert.KernelIdeal.Gen.V3_of m c Cert.KernelIdeal.main_arg1 (by decide)).trans (Cert.KernelIdeal.Gen.V2_of m c Cert.KernelIdeal.main_arg1 (by decide)))))))))))))))))).symm.trans (same_main_arg1 m outs m' hag c)
  rw [E0] at hK
  exact hK.trans hR.symm

theorem same_main_v1 : Cert.KernelIdeal.Gen.V17 m outs c Cert.KernelIdeal.main_v1 = Rf m' c Cert.ReferenceIdeal.main_v1 := by
  have hK := (((Cert.KernelIdeal.Gen.V17_of m outs c Cert.KernelIdeal.main_v1 (by decide)).trans ((Cert.KernelIdeal.Gen.V16_of m outs c Cert.KernelIdeal.main_v1 (by decide)).trans ((Cert.KernelIdeal.Gen.V15_of m outs c Cert.KernelIdeal.main_v1 (by decide)).trans ((Cert.KernelIdeal.Gen.V14_of m outs c Cert.KernelIdeal.main_v1 (by decide)).trans ((Cert.KernelIdeal.Gen.V13_of m outs c Cert.KernelIdeal.main_v1 (by decide)).trans ((Cert.KernelIdeal.Gen.V12_of m outs c Cert.KernelIdeal.main_v1 (by decide)).trans ((Cert.KernelIdeal.Gen.V11_of m outs c Cert.KernelIdeal.main_v1 (by decide)).trans ((Cert.KernelIdeal.Gen.V10_of m outs c Cert.KernelIdeal.main_v1 (by decide)).trans ((Cert.KernelIdeal.Gen.V9_of m outs c Cert.KernelIdeal.main_v1 (by decide)).trans ((Cert.KernelIdeal.Gen.V8_of m outs c Cert.KernelIdeal.main_v1 (by decide)).trans ((Cert.KernelIdeal.Gen.V7_of m outs c Cert.KernelIdeal.main_v1 (by decide)).trans ((Cert.KernelIdeal.Gen.V6_of m outs c Cert.KernelIdeal.main_v1 (by decide)).trans ((Cert.KernelIdeal.Gen.V5_of m c Cert.KernelIdeal.main_v1 (by decide)).trans ((Cert.KernelIdeal.Gen.V4_of m c Cert.KernelIdeal.main_v1 (by decide)).trans ((Cert.KernelIdeal.Gen.V3_of m c Cert.KernelIdeal.main_v1 (by decide)).trans (Cert.KernelIdeal.Gen.V2_of m c Cert.KernelIdeal.main_v1 (by decide)))))))))))))))))).trans (after_reshape each_hostOps0 (Cert.KernelIdeal.Gen.V0 m c) 1 _ _ _ _ _ _ rfl (by decide) (by decide))
  have hR := after_reshape eachR (launchContents m' c) 1 _ _ _ _ _ _ rfl (by decide) (by decide)
  have E0 : after (Cert.KernelIdeal.Gen.hostOps0 (F := Ideal)) (Cert.KernelIdeal.Gen.V0 m c) (Proc.devRef .tc Cert.KernelIdeal.main_v0) = Rf m' c Cert.ReferenceIdeal.main_v0 :=
    (((Cert.KernelIdeal.Gen.V17_of m outs c Cert.KernelIdeal.main_v0 (by decide)).trans ((Cert.KernelIdeal.Gen.V16_of m outs c Cert.KernelIdeal.main_v0 (by decide)).trans ((Cert.KernelIdeal.Gen.V15_of m outs c Cert.KernelIdeal.main_v0 (by decide)).trans ((Cert.KernelIdeal.Gen.V14_of m outs c Cert.KernelIdeal.main_v0 (by decide)).trans ((Cert.KernelIdeal.Gen.V13_of m outs c Cert.KernelIdeal.main_v0 (by decide)).trans ((Cert.KernelIdeal.Gen.V12_of m outs c Cert.KernelIdeal.main_v0 (by decide)).trans ((Cert.KernelIdeal.Gen.V11_of m outs c Cert.KernelIdeal.main_v0 (by decide)).trans ((Cert.KernelIdeal.Gen.V10_of m outs c Cert.KernelIdeal.main_v0 (by decide)).trans ((Cert.KernelIdeal.Gen.V9_of m outs c Cert.KernelIdeal.main_v0 (by decide)).trans ((Cert.KernelIdeal.Gen.V8_of m outs c Cert.KernelIdeal.main_v0 (by decide)).trans ((Cert.KernelIdeal.Gen.V7_of m outs c Cert.KernelIdeal.main_v0 (by decide)).trans ((Cert.KernelIdeal.Gen.V6_of m outs c Cert.KernelIdeal.main_v0 (by decide)).trans ((Cert.KernelIdeal.Gen.V5_of m c Cert.KernelIdeal.main_v0 (by decide)).trans ((Cert.KernelIdeal.Gen.V4_of m c Cert.KernelIdeal.main_v0 (by decide)).trans ((Cert.KernelIdeal.Gen.V3_of m c Cert.KernelIdeal.main_v0 (by decide)).trans (Cert.KernelIdeal.Gen.V2_of m c Cert.KernelIdeal.main_v0 (by decide)))))))))))))))))).symm.trans (same_main_v0 m outs m' hag c)
  rw [E0] at hK
  exact hK.trans hR.symm

theorem same_main_v2 : Cert.KernelIdeal.Gen.V17 m outs c Cert.KernelIdeal.main_v2 = Rf m' c Cert.ReferenceIdeal.main_v2 := by
  have hK := (((Cert.KernelIdeal.Gen.V17_of m outs c Cert.KernelIdeal.main_v2 (by decide)).trans ((Cert.KernelIdeal.Gen.V16_of m outs c Cert.KernelIdeal.main_v2 (by decide)).trans ((Cert.KernelIdeal.Gen.V15_of m outs c Cert.KernelIdeal.main_v2 (by decide)).trans ((Cert.KernelIdeal.Gen.V14_of m outs c Cert.KernelIdeal.main_v2 (by decide)).trans ((Cert.KernelIdeal.Gen.V13_of m outs c Cert.KernelIdeal.main_v2 (by decide)).trans ((Cert.KernelIdeal.Gen.V12_of m outs c Cert.KernelIdeal.main_v2 (by decide)).trans ((Cert.KernelIdeal.Gen.V11_of m outs c Cert.KernelIdeal.main_v2 (by decide)).trans ((Cert.KernelIdeal.Gen.V10_of m outs c Cert.KernelIdeal.main_v2 (by decide)).trans ((Cert.KernelIdeal.Gen.V9_of m outs c Cert.KernelIdeal.main_v2 (by decide)).trans ((Cert.KernelIdeal.Gen.V8_of m outs c Cert.KernelIdeal.main_v2 (by decide)).trans ((Cert.KernelIdeal.Gen.V7_of m outs c Cert.KernelIdeal.main_v2 (by decide)).trans ((Cert.KernelIdeal.Gen.V6_of m outs c Cert.KernelIdeal.main_v2 (by decide)).trans ((Cert.KernelIdeal.Gen.V5_of m c Cert.KernelIdeal.main_v2 (by decide)).trans ((Cert.KernelIdeal.Gen.V4_of m c Cert.KernelIdeal.main_v2 (by decide)).trans ((Cert.KernelIdeal.Gen.V3_of m c Cert.KernelIdeal.main_v2 (by decide)).trans (Cert.KernelIdeal.Gen.V2_of m c Cert.KernelIdeal.main_v2 (by decide)))))))))))))))))).trans (after_unary each_hostOps0 (Cert.KernelIdeal.Gen.V0 m c) 2 _ _ _ _ _ rfl (by decide) (by decide))
  have hR := after_unary eachR (launchContents m' c) 2 _ _ _ _ _ rfl (by decide) (by decide)
  have E0 : after (Cert.KernelIdeal.Gen.hostOps0 (F := Ideal)) (Cert.KernelIdeal.Gen.V0 m c) (Proc.devRef .tc Cert.KernelIdeal.main_arg1) = Rf m' c Cert.ReferenceIdeal.main_arg1 :=
    (((Cert.KernelIdeal.Gen.V17_of m outs c Cert.KernelIdeal.main_arg1 (by decide)).trans ((Cert.KernelIdeal.Gen.V16_of m outs c Cert.KernelIdeal.main_arg1 (by decide)).trans ((Cert.KernelIdeal.Gen.V15_of m outs c Cert.KernelIdeal.main_arg1 (by decide)).trans ((Cert.KernelIdeal.Gen.V14_of m outs c Cert.KernelIdeal.main_arg1 (by decide)).trans ((Cert.KernelIdeal.Gen.V13_of m outs c Cert.KernelIdeal.main_arg1 (by decide)).trans ((Cert.KernelIdeal.Gen.V12_of m outs c Cert.KernelIdeal.main_arg1 (by decide)).trans ((Cert.KernelIdeal.Gen.V11_of m outs c Cert.KernelIdeal.main_arg1 (by decide)).trans ((Cert.KernelIdeal.Gen.V10_of m outs c Cert.KernelIdeal.main_arg1 (by decide)).trans ((Cert.KernelIdeal.Gen.V9_of m outs c Cert.KernelIdeal.main_arg1 (by decide)).trans ((Cert.KernelIdeal.Gen.V8_of m outs c Cert.KernelIdeal.main_arg1 (by decide)).trans ((Cert.KernelIdeal.Gen.V7_of m outs c Cert.KernelIdeal.main_arg1 (by decide)).trans ((Cert.KernelIdeal.Gen.V6_of m outs c Cert.KernelIdeal.main_arg1 (by decide)).trans ((Cert.KernelIdeal.Gen.V5_of m c Cert.KernelIdeal.main_arg1 (by decide)).trans ((Cert.KernelIdeal.Gen.V4_of m c Cert.KernelIdeal.main_arg1 (by decide)).trans ((Cert.KernelIdeal.Gen.V3_of m c Cert.KernelIdeal.main_arg1 (by decide)).trans (Cert.KernelIdeal.Gen.V2_of m c Cert.KernelIdeal.main_arg1 (by decide)))))))))))))))))).symm.trans (same_main_arg1 m outs m' hag c)
  rw [E0] at hK
  exact hK.trans hR.symm

theorem same_main_v3 : Cert.KernelIdeal.Gen.V17 m outs c Cert.KernelIdeal.main_v3 = Rf m' c Cert.ReferenceIdeal.main_v3 := by
  have hK := (((Cert.KernelIdeal.Gen.V17_of m outs c Cert.KernelIdeal.main_v3 (by decide)).trans ((Cert.KernelIdeal.Gen.V16_of m outs c Cert.KernelIdeal.main_v3 (by decide)).trans ((Cert.KernelIdeal.Gen.V15_of m outs c Cert.KernelIdeal.main_v3 (by decide)).trans ((Cert.KernelIdeal.Gen.V14_of m outs c Cert.KernelIdeal.main_v3 (by decide)).trans ((Cert.KernelIdeal.Gen.V13_of m outs c Cert.KernelIdeal.main_v3 (by decide)).trans ((Cert.KernelIdeal.Gen.V12_of m outs c Cert.KernelIdeal.main_v3 (by decide)).trans ((Cert.KernelIdeal.Gen.V11_of m outs c Cert.KernelIdeal.main_v3 (by decide)).trans ((Cert.KernelIdeal.Gen.V10_of m outs c Cert.KernelIdeal.main_v3 (by decide)).trans ((Cert.KernelIdeal.Gen.V9_of m outs c Cert.KernelIdeal.main_v3 (by decide)).trans ((Cert.KernelIdeal.Gen.V8_of m outs c Cert.KernelIdeal.main_v3 (by decide)).trans ((Cert.KernelIdeal.Gen.V7_of m outs c Cert.KernelIdeal.main_v3 (by decide)).trans ((Cert.KernelIdeal.Gen.V6_of m outs c Cert.KernelIdeal.main_v3 (by decide)).trans ((Cert.KernelIdeal.Gen.V5_of m c Cert.KernelIdeal.main_v3 (by decide)).trans ((Cert.KernelIdeal.Gen.V4_of m c Cert.KernelIdeal.main_v3 (by decide)).trans ((Cert.KernelIdeal.Gen.V3_of m c Cert.KernelIdeal.main_v3 (by decide)).trans (Cert.KernelIdeal.Gen.V2_of m c Cert.KernelIdeal.main_v3 (by decide)))))))))))))))))).trans (after_reshape each_hostOps0 (Cert.KernelIdeal.Gen.V0 m c) 3 _ _ _ _ _ _ rfl (by decide) (by decide))
  have hR := after_reshape eachR (launchContents m' c) 3 _ _ _ _ _ _ rfl (by decide) (by decide)
  have E0 : after (Cert.KernelIdeal.Gen.hostOps0 (F := Ideal)) (Cert.KernelIdeal.Gen.V0 m c) (Proc.devRef .tc Cert.KernelIdeal.main_v2) = Rf m' c Cert.ReferenceIdeal.main_v2 :=
    (((Cert.KernelIdeal.Gen.V17_of m outs c Cert.KernelIdeal.main_v2 (by decide)).trans ((Cert.KernelIdeal.Gen.V16_of m outs c Cert.KernelIdeal.main_v2 (by decide)).trans ((Cert.KernelIdeal.Gen.V15_of m outs c Cert.KernelIdeal.main_v2 (by decide)).trans ((Cert.KernelIdeal.Gen.V14_of m outs c Cert.KernelIdeal.main_v2 (by decide)).trans ((Cert.KernelIdeal.Gen.V13_of m outs c Cert.KernelIdeal.main_v2 (by decide)).trans ((Cert.KernelIdeal.Gen.V12_of m outs c Cert.KernelIdeal.main_v2 (by decide)).trans ((Cert.KernelIdeal.Gen.V11_of m outs c Cert.KernelIdeal.main_v2 (by decide)).trans ((Cert.KernelIdeal.Gen.V10_of m outs c Cert.KernelIdeal.main_v2 (by decide)).trans ((Cert.KernelIdeal.Gen.V9_of m outs c Cert.KernelIdeal.main_v2 (by decide)).trans ((Cert.KernelIdeal.Gen.V8_of m outs c Cert.KernelIdeal.main_v2 (by decide)).trans ((Cert.KernelIdeal.Gen.V7_of m outs c Cert.KernelIdeal.main_v2 (by decide)).trans ((Cert.KernelIdeal.Gen.V6_of m outs c Cert.KernelIdeal.main_v2 (by decide)).trans ((Cert.KernelIdeal.Gen.V5_of m c Cert.KernelIdeal.main_v2 (by decide)).trans ((Cert.KernelIdeal.Gen.V4_of m c Cert.KernelIdeal.main_v2 (by decide)).trans ((Cert.KernelIdeal.Gen.V3_of m c Cert.KernelIdeal.main_v2 (by decide)).trans (Cert.KernelIdeal.Gen.V2_of m c Cert.KernelIdeal.main_v2 (by decide)))))))))))))))))).symm.trans (same_main_v2 m outs m' hag c)
  rw [E0] at hK
  exact hK.trans hR.symm

theorem same_main_v4 : Cert.KernelIdeal.Gen.V17 m outs c Cert.KernelIdeal.main_v4 = Rf m' c Cert.ReferenceIdeal.main_v4 := by
  have hK := (((Cert.KernelIdeal.Gen.V17_of m outs c Cert.KernelIdeal.main_v4 (by decide)).trans ((Cert.KernelIdeal.Gen.V16_of m outs c Cert.KernelIdeal.main_v4 (by decide)).trans ((Cert.KernelIdeal.Gen.V15_of m outs c Cert.KernelIdeal.main_v4 (by decide)).trans ((Cert.KernelIdeal.Gen.V14_of m outs c Cert.KernelIdeal.main_v4 (by decide)).trans ((Cert.KernelIdeal.Gen.V13_of m outs c Cert.KernelIdeal.main_v4 (by decide)).trans ((Cert.KernelIdeal.Gen.V12_of m outs c Cert.KernelIdeal.main_v4 (by decide)).trans ((Cert.KernelIdeal.Gen.V11_of m outs c Cert.KernelIdeal.main_v4 (by decide)).trans ((Cert.KernelIdeal.Gen.V10_of m outs c Cert.KernelIdeal.main_v4 (by decide)).trans ((Cert.KernelIdeal.Gen.V9_of m outs c Cert.KernelIdeal.main_v4 (by decide)).trans ((Cert.KernelIdeal.Gen.V8_of m outs c Cert.KernelIdeal.main_v4 (by decide)).trans ((Cert.KernelIdeal.Gen.V7_of m outs c Cert.KernelIdeal.main_v4 (by decide)).trans ((Cert.KernelIdeal.Gen.V6_of m outs c Cert.KernelIdeal.main_v4 (by decide)).trans ((Cert.KernelIdeal.Gen.V5_of m c Cert.KernelIdeal.main_v4 (by decide)).trans ((Cert.KernelIdeal.Gen.V4_of m c Cert.KernelIdeal.main_v4 (by decide)).trans ((Cert.KernelIdeal.Gen.V3_of m c Cert.KernelIdeal.main_v4 (by decide)).trans (Cert.KernelIdeal.Gen.V2_of m c Cert.KernelIdeal.main_v4 (by decide)))))))))))))))))).trans (after_nullary each_hostOps0 (Cert.KernelIdeal.Gen.V0 m c) 4 _ _ _ rfl (by decide))
  have hR := after_nullary eachR (launchContents m' c) 4 _ _ _ rfl (by decide)

  exact hK.trans hR.symm

theorem same_main_v5 : Cert.KernelIdeal.Gen.V17 m outs c Cert.KernelIdeal.main_v5 = Rf m' c Cert.ReferenceIdeal.main_v5 := by
  have hK := (((Cert.KernelIdeal.Gen.V17_of m outs c Cert.KernelIdeal.main_v5 (by decide)).trans ((Cert.KernelIdeal.Gen.V16_of m outs c Cert.KernelIdeal.main_v5 (by decide)).trans ((Cert.KernelIdeal.Gen.V15_of m outs c Cert.KernelIdeal.main_v5 (by decide)).trans ((Cert.KernelIdeal.Gen.V14_of m outs c Cert.KernelIdeal.main_v5 (by decide)).trans ((Cert.KernelIdeal.Gen.V13_of m outs c Cert.KernelIdeal.main_v5 (by decide)).trans ((Cert.KernelIdeal.Gen.V12_of m outs c Cert.KernelIdeal.main_v5 (by decide)).trans ((Cert.KernelIdeal.Gen.V11_of m outs c Cert.KernelIdeal.main_v5 (by decide)).trans ((Cert.KernelIdeal.Gen.V10_of m outs c Cert.KernelIdeal.main_v5 (by decide)).trans ((Cert.KernelIdeal.Gen.V9_of m outs c Cert.KernelIdeal.main_v5 (by decide)).trans ((Cert.KernelIdeal.Gen.V8_of m outs c Cert.KernelIdeal.main_v5 (by decide)).trans ((Cert.KernelIdeal.Gen.V7_of m outs c Cert.KernelIdeal.main_v5 (by decide)).trans ((Cert.KernelIdeal.Gen.V6_of m outs c Cert.KernelIdeal.main_v5 (by decide)).trans ((Cert.KernelIdeal.Gen.V5_of m c Cert.KernelIdeal.main_v5 (by decide)).trans ((Cert.KernelIdeal.Gen.V4_of m c Cert.KernelIdeal.main_v5 (by decide)).trans ((Cert.KernelIdeal.Gen.V3_of m c Cert.KernelIdeal.main_v5 (by decide)).trans (Cert.KernelIdeal.Gen.V2_of m c Cert.KernelIdeal.main_v5 (by decide)))))))))))))))))).trans (after_binary each_hostOps0 (Cert.KernelIdeal.Gen.V0 m c) 5 _ _ _ _ _ _ _ rfl (by decide) (by decide) (by decide))
  have hR := after_binary eachR (launchContents m' c) 5 _ _ _ _ _ _ _ rfl (by decide) (by decide) (by decide)
  have E0 : after (Cert.KernelIdeal.Gen.hostOps0 (F := Ideal)) (Cert.KernelIdeal.Gen.V0 m c) (Proc.devRef .tc Cert.KernelIdeal.main_v1) = Rf m' c Cert.ReferenceIdeal.main_v1 :=
    (((Cert.KernelIdeal.Gen.V17_of m outs c Cert.KernelIdeal.main_v1 (by decide)).trans ((Cert.KernelIdeal.Gen.V16_of m outs c Cert.KernelIdeal.main_v1 (by decide)).trans ((Cert.KernelIdeal.Gen.V15_of m outs c Cert.KernelIdeal.main_v1 (by decide)).trans ((Cert.KernelIdeal.Gen.V14_of m outs c Cert.KernelIdeal.main_v1 (by decide)).trans ((Cert.KernelIdeal.Gen.V13_of m outs c Cert.KernelIdeal.main_v1 (by decide)).trans ((Cert.KernelIdeal.Gen.V12_of m outs c Cert.KernelIdeal.main_v1 (by decide)).trans ((Cert.KernelIdeal.Gen.V11_of m outs c Cert.KernelIdeal.main_v1 (by decide)).trans ((Cert.KernelIdeal.Gen.V10_of m outs c Cert.KernelIdeal.main_v1 (by decide)).trans ((Cert.KernelIdeal.Gen.V9_of m outs c Cert.KernelIdeal.main_v1 (by decide)).trans ((Cert.KernelIdeal.Gen.V8_of m outs c Cert.KernelIdeal.main_v1 (by decide)).trans ((Cert.KernelIdeal.Gen.V7_of m outs c Cert.KernelIdeal.main_v1 (by decide)).trans ((Cert.KernelIdeal.Gen.V6_of m outs c Cert.KernelIdeal.main_v1 (by decide)).trans ((Cert.KernelIdeal.Gen.V5_of m c Cert.KernelIdeal.main_v1 (by decide)).trans ((Cert.KernelIdeal.Gen.V4_of m c Cert.KernelIdeal.main_v1 (by decide)).trans ((Cert.KernelIdeal.Gen.V3_of m c Cert.KernelIdeal.main_v1 (by decide)).trans (Cert.KernelIdeal.Gen.V2_of m c Cert.KernelIdeal.main_v1 (by decide)))))))))))))))))).symm.trans (same_main_v1 m outs m' hag c)
  have E1 : after (Cert.KernelIdeal.Gen.hostOps0 (F := Ideal)) (Cert.KernelIdeal.Gen.V0 m c) (Proc.devRef .tc Cert.KernelIdeal.main_v4) = Rf m' c Cert.ReferenceIdeal.main_v4 :=
    (((Cert.KernelIdeal.Gen.V17_of m outs c Cert.KernelIdeal.main_v4 (by decide)).trans ((Cert.KernelIdeal.Gen.V16_of m outs c Cert.KernelIdeal.main_v4 (by decide)).trans ((Cert.KernelIdeal.Gen.V15_of m outs c Cert.KernelIdeal.main_v4 (by decide)).trans ((Cert.KernelIdeal.Gen.V14_of m outs c Cert.KernelIdeal.main_v4 (by decide)).trans ((Cert.KernelIdeal.Gen.V13_of m outs c Cert.KernelIdeal.main_v4 (by decide)).trans ((Cert.KernelIdeal.Gen.V12_of m outs c Cert.KernelIdeal.main_v4 (by decide)).trans ((Cert.KernelIdeal.Gen.V11_of m outs c Cert.KernelIdeal.main_v4 (by decide)).trans ((Cert.KernelIdeal.Gen.V10_of m outs c Cert.KernelIdeal.main_v4 (by decide)).trans ((Cert.KernelIdeal.Gen.V9_of m outs c Cert.KernelIdeal.main_v4 (by decide)).trans ((Cert.KernelIdeal.Gen.V8_of m outs c Cert.KernelIdeal.main_v4 (by decide)).trans ((Cert.KernelIdeal.Gen.V7_of m outs c Cert.KernelIdeal.main_v4 (by decide)).trans ((Cert.KernelIdeal.Gen.V6_of m outs c Cert.KernelIdeal.main_v4 (by decide)).trans ((Cert.KernelIdeal.Gen.V5_of m c Cert.KernelIdeal.main_v4 (by decide)).trans ((Cert.KernelIdeal.Gen.V4_of m c Cert.KernelIdeal.main_v4 (by decide)).trans ((Cert.KernelIdeal.Gen.V3_of m c Cert.KernelIdeal.main_v4 (by decide)).trans (Cert.KernelIdeal.Gen.V2_of m c Cert.KernelIdeal.main_v4 (by decide)))))))))))))))))).symm.trans (same_main_v4 m outs m' hag c)
  rw [E0, E1] at hK
  exact hK.trans hR.symm

theorem same_main_v6 : Cert.KernelIdeal.Gen.V17 m outs c Cert.KernelIdeal.main_v6 = Rf m' c Cert.ReferenceIdeal.main_v6 := by
  have hK := (((Cert.KernelIdeal.Gen.V17_of m outs c Cert.KernelIdeal.main_v6 (by decide)).trans ((Cert.KernelIdeal.Gen.V16_of m outs c Cert.KernelIdeal.main_v6 (by decide)).trans ((Cert.KernelIdeal.Gen.V15_of m outs c Cert.KernelIdeal.main_v6 (by decide)).trans ((Cert.KernelIdeal.Gen.V14_of m outs c Cert.KernelIdeal.main_v6 (by decide)).trans ((Cert.KernelIdeal.Gen.V13_of m outs c Cert.KernelIdeal.main_v6 (by decide)).trans ((Cert.KernelIdeal.Gen.V12_of m outs c Cert.KernelIdeal.main_v6 (by decide)).trans ((Cert.KernelIdeal.Gen.V11_of m outs c Cert.KernelIdeal.main_v6 (by decide)).trans ((Cert.KernelIdeal.Gen.V10_of m outs c Cert.KernelIdeal.main_v6 (by decide)).trans ((Cert.KernelIdeal.Gen.V9_of m outs c Cert.KernelIdeal.main_v6 (by decide)).trans ((Cert.KernelIdeal.Gen.V8_of m outs c Cert.KernelIdeal.main_v6 (by decide)).trans ((Cert.KernelIdeal.Gen.V7_of m outs c Cert.KernelIdeal.main_v6 (by decide)).trans ((Cert.KernelIdeal.Gen.V6_of m outs c Cert.KernelIdeal.main_v6 (by decide)).trans ((Cert.KernelIdeal.Gen.V5_of m c Cert.KernelIdeal.main_v6 (by decide)).trans ((Cert.KernelIdeal.Gen.V4_of m c Cert.KernelIdeal.main_v6 (by decide)).trans ((Cert.KernelIdeal.Gen.V3_of m c Cert.KernelIdeal.main_v6 (by decide)).trans (Cert.KernelIdeal.Gen.V2_of m c Cert.KernelIdeal.main_v6 (by decide)))))))))))))))))).trans (after_binary each_hostOps0 (Cert.KernelIdeal.Gen.V0 m c) 6 _ _ _ _ _ _ _ rfl (by decide) (by decide) (by decide))
  have hR := after_binary eachR (launchContents m' c) 6 _ _ _ _ _ _ _ rfl (by decide) (by decide) (by decide)
  have E0 : after (Cert.KernelIdeal.Gen.hostOps0 (F := Ideal)) (Cert.KernelIdeal.Gen.V0 m c) (Proc.devRef .tc Cert.KernelIdeal.main_v3) = Rf m' c Cert.ReferenceIdeal.main_v3 :=
    (((Cert.KernelIdeal.Gen.V17_of m outs c Cert.KernelIdeal.main_v3 (by decide)).trans ((Cert.KernelIdeal.Gen.V16_of m outs c Cert.KernelIdeal.main_v3 (by decide)).trans ((Cert.KernelIdeal.Gen.V15_of m outs c Cert.KernelIdeal.main_v3 (by decide)).trans ((Cert.KernelIdeal.Gen.V14_of m outs c Cert.KernelIdeal.main_v3 (by decide)).trans ((Cert.KernelIdeal.Gen.V13_of m outs c Cert.KernelIdeal.main_v3 (by decide)).trans ((Cert.KernelIdeal.Gen.V12_of m outs c Cert.KernelIdeal.main_v3 (by decide)).trans ((Cert.KernelIdeal.Gen.V11_of m outs c Cert.KernelIdeal.main_v3 (by decide)).trans ((Cert.KernelIdeal.Gen.V10_of m outs c Cert.KernelIdeal.main_v3 (by decide)).trans ((Cert.KernelIdeal.Gen.V9_of m outs c Cert.KernelIdeal.main_v3 (by decide)).trans ((Cert.KernelIdeal.Gen.V8_of m outs c Cert.KernelIdeal.main_v3 (by decide)).trans ((Cert.KernelIdeal.Gen.V7_of m outs c Cert.KernelIdeal.main_v3 (by decide)).trans ((Cert.KernelIdeal.Gen.V6_of m outs c Cert.KernelIdeal.main_v3 (by decide)).trans ((Cert.KernelIdeal.Gen.V5_of m c Cert.KernelIdeal.main_v3 (by decide)).trans ((Cert.KernelIdeal.Gen.V4_of m c Cert.KernelIdeal.main_v3 (by decide)).trans ((Cert.KernelIdeal.Gen.V3_of m c Cert.KernelIdeal.main_v3 (by decide)).trans (Cert.KernelIdeal.Gen.V2_of m c Cert.KernelIdeal.main_v3 (by decide)))))))))))))))))).symm.trans (same_main_v3 m outs m' hag c)
  have E1 : after (Cert.KernelIdeal.Gen.hostOps0 (F := Ideal)) (Cert.KernelIdeal.Gen.V0 m c) (Proc.devRef .tc Cert.KernelIdeal.main_v4) = Rf m' c Cert.ReferenceIdeal.main_v4 :=
    (((Cert.KernelIdeal.Gen.V17_of m outs c Cert.KernelIdeal.main_v4 (by decide)).trans ((Cert.KernelIdeal.Gen.V16_of m outs c Cert.KernelIdeal.main_v4 (by decide)).trans ((Cert.KernelIdeal.Gen.V15_of m outs c Cert.KernelIdeal.main_v4 (by decide)).trans ((Cert.KernelIdeal.Gen.V14_of m outs c Cert.KernelIdeal.main_v4 (by decide)).trans ((Cert.KernelIdeal.Gen.V13_of m outs c Cert.KernelIdeal.main_v4 (by decide)).trans ((Cert.KernelIdeal.Gen.V12_of m outs c Cert.KernelIdeal.main_v4 (by decide)).trans ((Cert.KernelIdeal.Gen.V11_of m outs c Cert.KernelIdeal.main_v4 (by decide)).trans ((Cert.KernelIdeal.Gen.V10_of m outs c Cert.KernelIdeal.main_v4 (by decide)).trans ((Cert.KernelIdeal.Gen.V9_of m outs c Cert.KernelIdeal.main_v4 (by decide)).trans ((Cert.KernelIdeal.Gen.V8_of m outs c Cert.KernelIdeal.main_v4 (by decide)).trans ((Cert.KernelIdeal.Gen.V7_of m outs c Cert.KernelIdeal.main_v4 (by decide)).trans ((Cert.KernelIdeal.Gen.V6_of m outs c Cert.KernelIdeal.main_v4 (by decide)).trans ((Cert.KernelIdeal.Gen.V5_of m c Cert.KernelIdeal.main_v4 (by decide)).trans ((Cert.KernelIdeal.Gen.V4_of m c Cert.KernelIdeal.main_v4 (by decide)).trans ((Cert.KernelIdeal.Gen.V3_of m c Cert.KernelIdeal.main_v4 (by decide)).trans (Cert.KernelIdeal.Gen.V2_of m c Cert.KernelIdeal.main_v4 (by decide)))))))))))))))))).symm.trans (same_main_v4 m outs m' hag c)
  rw [E0, E1] at hK
  exact hK.trans hR.symm

theorem same_main_cst : Cert.KernelIdeal.Gen.V17 m outs c Cert.KernelIdeal.main_cst = Rf m' c Cert.ReferenceIdeal.main_cst := by
  have hK := (((Cert.KernelIdeal.Gen.V17_of m outs c Cert.KernelIdeal.main_cst (by decide)).trans ((Cert.KernelIdeal.Gen.V16_of m outs c Cert.KernelIdeal.main_cst (by decide)).trans ((Cert.KernelIdeal.Gen.V15_of m outs c Cert.KernelIdeal.main_cst (by decide)).trans ((Cert.KernelIdeal.Gen.V14_of m outs c Cert.KernelIdeal.main_cst (by decide)).trans ((Cert.KernelIdeal.Gen.V13_of m outs c Cert.KernelIdeal.main_cst (by decide)).trans ((Cert.KernelIdeal.Gen.V12_of m outs c Cert.KernelIdeal.main_cst (by decide)).trans ((Cert.KernelIdeal.Gen.V11_of m outs c Cert.KernelIdeal.main_cst (by decide)).trans ((Cert.KernelIdeal.Gen.V10_of m outs c Cert.KernelIdeal.main_cst (by decide)).trans ((Cert.KernelIdeal.Gen.V9_of m outs c Cert.KernelIdeal.main_cst (by decide)).trans ((Cert.KernelIdeal.Gen.V8_of m outs c Cert.KernelIdeal.main_cst (by decide)).trans ((Cert.KernelIdeal.Gen.V7_of m outs c Cert.KernelIdeal.main_cst (by decide)).trans ((Cert.KernelIdeal.Gen.V6_of m outs c Cert.KernelIdeal.main_cst (by decide)).trans ((Cert.KernelIdeal.Gen.V5_of m c Cert.KernelIdeal.main_cst (by decide)).trans ((Cert.KernelIdeal.Gen.V4_of m c Cert.KernelIdeal.main_cst (by decide)).trans ((Cert.KernelIdeal.Gen.V3_of m c Cert.KernelIdeal.main_cst (by decide)).trans (Cert.KernelIdeal.Gen.V2_of m c Cert.KernelIdeal.main_cst (by decide)))))))))))))))))).trans (after_nullary each_hostOps0 (Cert.KernelIdeal.Gen.V0 m c) 7 _ _ _ rfl (by decide))
  have hR := after_nullary eachR (launchContents m' c) 7 _ _ _ rfl (by decide)

  exact hK.trans hR.symm

theorem same_main_v7 : Cert.KernelIdeal.Gen.V17 m outs c Cert.KernelIdeal.main_v7 = Rf m' c Cert.ReferenceIdeal.main_v7 := by
  have hK := (((Cert.KernelIdeal.Gen.V17_of m outs c Cert.KernelIdeal.main_v7 (by decide)).trans ((Cert.KernelIdeal.Gen.V16_of m outs c Cert.KernelIdeal.main_v7 (by decide)).trans ((Cert.KernelIdeal.Gen.V15_of m outs c Cert.KernelIdeal.main_v7 (by decide)).trans ((Cert.KernelIdeal.Gen.V14_of m outs c Cert.KernelIdeal.main_v7 (by decide)).trans ((Cert.KernelIdeal.Gen.V13_of m outs c Cert.KernelIdeal.main_v7 (by decide)).trans ((Cert.KernelIdeal.Gen.V12_of m outs c Cert.KernelIdeal.main_v7 (by decide)).trans ((Cert.KernelIdeal.Gen.V11_of m outs c Cert.KernelIdeal.main_v7 (by decide)).trans ((Cert.KernelIdeal.Gen.V10_of m outs c Cert.KernelIdeal.main_v7 (by decide)).trans ((Cert.KernelIdeal.Gen.V9_of m outs c Cert.KernelIdeal.main_v7 (by decide)).trans ((Cert.KernelIdeal.Gen.V8_of m outs c Cert.KernelIdeal.main_v7 (by decide)).trans ((Cert.KernelIdeal.Gen.V7_of m outs c Cert.KernelIdeal.main_v7 (by decide)).trans ((Cert.KernelIdeal.Gen.V6_of m outs c Cert.KernelIdeal.main_v7 (by decide)).trans ((Cert.KernelIdeal.Gen.V5_of m c Cert.KernelIdeal.main_v7 (by decide)).trans ((Cert.KernelIdeal.Gen.V4_of m c Cert.KernelIdeal.main_v7 (by decide)).trans ((Cert.KernelIdeal.Gen.V3_of m c Cert.KernelIdeal.main_v7 (by decide)).trans (Cert.KernelIdeal.Gen.V2_of m c Cert.KernelIdeal.main_v7 (by decide)))))))))))))))))).trans (after_unary each_hostOps0 (Cert.KernelIdeal.Gen.V0 m c) 8 _ _ _ _ _ rfl (by decide) (by decide))
  have hR := after_unary eachR (launchContents m' c) 8 _ _ _ _ _ rfl (by decide) (by decide)
  have E0 : after (Cert.KernelIdeal.Gen.hostOps0 (F := Ideal)) (Cert.KernelIdeal.Gen.V0 m c) (Proc.devRef .tc Cert.KernelIdeal.main_cst) = Rf m' c Cert.ReferenceIdeal.main_cst :=
    (((Cert.KernelIdeal.Gen.V17_of m outs c Cert.KernelIdeal.main_cst (by decide)).trans ((Cert.KernelIdeal.Gen.V16_of m outs c Cert.KernelIdeal.main_cst (by decide)).trans ((Cert.KernelIdeal.Gen.V15_of m outs c Cert.KernelIdeal.main_cst (by decide)).trans ((Cert.KernelIdeal.Gen.V14_of m outs c Cert.KernelIdeal.main_cst (by decide)).trans ((Cert.KernelIdeal.Gen.V13_of m outs c Cert.KernelIdeal.main_cst (by decide)).trans ((Cert.KernelIdeal.Gen.V12_of m outs c Cert.KernelIdeal.main_cst (by decide)).trans ((Cert.KernelIdeal.Gen.V11_of m outs c Cert.KernelIdeal.main_cst (by decide)).trans ((Cert.KernelIdeal.Gen.V10_of m outs c Cert.KernelIdeal.main_cst (by decide)).trans ((Cert.KernelIdeal.Gen.V9_of m outs c Cert.KernelIdeal.main_cst (by decide)).trans ((Cert.KernelIdeal.Gen.V8_of m outs c Cert.KernelIdeal.main_cst (by decide)).trans ((Cert.KernelIdeal.Gen.V7_of m outs c Cert.KernelIdeal.main_cst (by decide)).trans ((Cert.KernelIdeal.Gen.V6_of m outs c Cert.KernelIdeal.main_cst (by decide)).trans ((Cert.KernelIdeal.Gen.V5_of m c Cert.KernelIdeal.main_cst (by decide)).trans ((Cert.KernelIdeal.Gen.V4_of m c Cert.KernelIdeal.main_cst (by decide)).trans ((Cert.KernelIdeal.Gen.V3_of m c Cert.KernelIdeal.main_cst (by decide)).trans (Cert.KernelIdeal.Gen.V2_of m c Cert.KernelIdeal.main_cst (by decide)))))))))))))))))).symm.trans (same_main_cst m outs m' hag c)
  rw [E0] at hK
  exact hK.trans hR.symm

theorem same_main_v8 : Cert.KernelIdeal.Gen.V17 m outs c Cert.KernelIdeal.main_v8 = Rf m' c Cert.ReferenceIdeal.main_v8 := by
  have hK := (((Cert.KernelIdeal.Gen.V17_of m outs c Cert.KernelIdeal.main_v8 (by decide)).trans ((Cert.KernelIdeal.Gen.V16_of m outs c Cert.KernelIdeal.main_v8 (by decide)).trans ((Cert.KernelIdeal.Gen.V15_of m outs c Cert.KernelIdeal.main_v8 (by decide)).trans ((Cert.KernelIdeal.Gen.V14_of m outs c Cert.KernelIdeal.main_v8 (by decide)).trans ((Cert.KernelIdeal.Gen.V13_of m outs c Cert.KernelIdeal.main_v8 (by decide)).trans ((Cert.KernelIdeal.Gen.V12_of m outs c Cert.KernelIdeal.main_v8 (by decide)).trans ((Cert.KernelIdeal.Gen.V11_of m outs c Cert.KernelIdeal.main_v8 (by decide)).trans ((Cert.KernelIdeal.Gen.V10_of m outs c Cert.KernelIdeal.main_v8 (by decide)).trans ((Cert.KernelIdeal.Gen.V9_of m outs c Cert.KernelIdeal.main_v8 (by decide)).trans ((Cert.KernelIdeal.Gen.V8_of m outs c Cert.KernelIdeal.main_v8 (by decide)).trans ((Cert.KernelIdeal.Gen.V7_of m outs c Cert.KernelIdeal.main_v8 (by decide)).trans ((Cert.KernelIdeal.Gen.V6_of m outs c Cert.KernelIdeal.main_v8 (by decide)).trans ((Cert.KernelIdeal.Gen.V5_of m c Cert.KernelIdeal.main_v8 (by decide)).trans ((Cert.KernelIdeal.Gen.V4_of m c Cert.KernelIdeal.main_v8 (by decide)).trans ((Cert.KernelIdeal.Gen.V3_of m c Cert.KernelIdeal.main_v8 (by decide)).trans (Cert.KernelIdeal.Gen.V2_of m c Cert.KernelIdeal.main_v8 (by decide)))))))))))))))))).trans (after_binary each_hostOps0 (Cert.KernelIdeal.Gen.V0 m c) 9 _ _ _ _ _ _ _ rfl (by decide) (by decide) (by decide))
  have hR := after_binary eachR (launchContents m' c) 9 _ _ _ _ _ _ _ rfl (by decide) (by decide) (by decide)
  have E0 : after (Cert.KernelIdeal.Gen.hostOps0 (F := Ideal)) (Cert.KernelIdeal.Gen.V0 m c) (Proc.devRef .tc Cert.KernelIdeal.main_arg2) = Rf m' c Cert.ReferenceIdeal.main_arg2 :=
    (((Cert.KernelIdeal.Gen.V17_of m outs c Cert.KernelIdeal.main_arg2 (by decide)).trans ((Cert.KernelIdeal.Gen.V16_of m outs c Cert.KernelIdeal.main_arg2 (by decide)).trans ((Cert.KernelIdeal.Gen.V15_of m outs c Cert.KernelIdeal.main_arg2 (by decide)).trans ((Cert.KernelIdeal.Gen.V14_of m outs c Cert.KernelIdeal.main_arg2 (by decide)).trans ((Cert.KernelIdeal.Gen.V13_of m outs c Cert.KernelIdeal.main_arg2 (by decide)).trans ((Cert.KernelIdeal.Gen.V12_of m outs c Cert.KernelIdeal.main_arg2 (by decide)).trans ((Cert.KernelIdeal.Gen.V11_of m outs c Cert.KernelIdeal.main_arg2 (by decide)).trans ((Cert.KernelIdeal.Gen.V10_of m outs c Cert.KernelIdeal.main_arg2 (by decide)).trans ((Cert.KernelIdeal.Gen.V9_of m outs c Cert.KernelIdeal.main_arg2 (by decide)).trans ((Cert.KernelIdeal.Gen.V8_of m outs c Cert.KernelIdeal.main_arg2 (by decide)).trans ((Cert.KernelIdeal.Gen.V7_of m outs c Cert.KernelIdeal.main_arg2 (by decide)).trans ((Cert.KernelIdeal.Gen.V6_of m outs c Cert.KernelIdeal.main_arg2 (by decide)).trans ((Cert.KernelIdeal.Gen.V5_of m c Cert.KernelIdeal.main_arg2 (by decide)).trans ((Cert.KernelIdeal.Gen.V4_of m c Cert.KernelIdeal.main_arg2 (by decide)).trans ((Cert.KernelIdeal.Gen.V3_of m c Cert.KernelIdeal.main_arg2 (by decide)).trans (Cert.KernelIdeal.Gen.V2_of m c Cert.KernelIdeal.main_arg2 (by decide)))))))))))))))))).symm.trans (same_main_arg2 m outs m' hag c)
  have E1 : after (Cert.KernelIdeal.Gen.hostOps0 (F := Ideal)) (Cert.KernelIdeal.Gen.V0 m c) (Proc.devRef .tc Cert.KernelIdeal.main_v7) = Rf m' c Cert.ReferenceIdeal.main_v7 :=
    (((Cert.KernelIdeal.Gen.V17_of m outs c Cert.KernelIdeal.main_v7 (by decide)).trans ((Cert.KernelIdeal.Gen.V16_of m outs c Cert.KernelIdeal.main_v7 (by decide)).trans ((Cert.KernelIdeal.Gen.V15_of m outs c Cert.KernelIdeal.main_v7 (by decide)).trans ((Cert.KernelIdeal.Gen.V14_of m outs c Cert.KernelIdeal.main_v7 (by decide)).trans ((Cert.KernelIdeal.Gen.V13_of m outs c Cert.KernelIdeal.main_v7 (by decide)).trans ((Cert.KernelIdeal.Gen.V12_of m outs c Cert.KernelIdeal.main_v7 (by decide)).trans ((Cert.KernelIdeal.Gen.V11_of m outs c Cert.KernelIdeal.main_v7 (by decide)).trans ((Cert.KernelIdeal.Gen.V10_of m outs c Cert.KernelIdeal.main_v7 (by decide)).trans ((Cert.KernelIdeal.Gen.V9_of m outs c Cert.KernelIdeal.main_v7 (by decide)).trans ((Cert.KernelIdeal.Gen.V8_of m outs c Cert.KernelIdeal.main_v7 (by decide)).trans ((Cert.KernelIdeal.Gen.V7_of m outs c Cert.KernelIdeal.main_v7 (by decide)).trans ((Cert.KernelIdeal.Gen.V6_of m outs c Cert.KernelIdeal.main_v7 (by decide)).trans ((Cert.KernelIdeal.Gen.V5_of m c Cert.KernelIdeal.main_v7 (by decide)).trans ((Cert.KernelIdeal.Gen.V4_of m c Cert.KernelIdeal.main_v7 (by decide)).trans ((Cert.KernelIdeal.Gen.V3_of m c Cert.KernelIdeal.main_v7 (by decide)).trans (Cert.KernelIdeal.Gen.V2_of m c Cert.KernelIdeal.main_v7 (by decide)))))))))))))))))).symm.trans (same_main_v7 m outs m' hag c)
  rw [E0, E1] at hK
  exact hK.trans hR.symm

theorem same_main_cst_0 : Cert.KernelIdeal.Gen.V17 m outs c Cert.KernelIdeal.main_cst_0 = Rf m' c Cert.ReferenceIdeal.main_cst_0 := by
  have hK := (((Cert.KernelIdeal.Gen.V17_of m outs c Cert.KernelIdeal.main_cst_0 (by decide)).trans ((Cert.KernelIdeal.Gen.V16_of m outs c Cert.KernelIdeal.main_cst_0 (by decide)).trans ((Cert.KernelIdeal.Gen.V15_of m outs c Cert.KernelIdeal.main_cst_0 (by decide)).trans ((Cert.KernelIdeal.Gen.V14_of m outs c Cert.KernelIdeal.main_cst_0 (by decide)).trans ((Cert.KernelIdeal.Gen.V13_of m outs c Cert.KernelIdeal.main_cst_0 (by decide)).trans ((Cert.KernelIdeal.Gen.V12_of m outs c Cert.KernelIdeal.main_cst_0 (by decide)).trans ((Cert.KernelIdeal.Gen.V11_of m outs c Cert.KernelIdeal.main_cst_0 (by decide)).trans ((Cert.KernelIdeal.Gen.V10_of m outs c Cert.KernelIdeal.main_cst_0 (by decide)).trans ((Cert.KernelIdeal.Gen.V9_of m outs c Cert.KernelIdeal.main_cst_0 (by decide)).trans ((Cert.KernelIdeal.Gen.V8_of m outs c Cert.KernelIdeal.main_cst_0 (by decide)).trans ((Cert.KernelIdeal.Gen.V7_of m outs c Cert.KernelIdeal.main_cst_0 (by decide)).trans ((Cert.KernelIdeal.Gen.V6_of m outs c Cert.KernelIdeal.main_cst_0 (by decide)).trans ((Cert.KernelIdeal.Gen.V5_of m c Cert.KernelIdeal.main_cst_0 (by decide)).trans ((Cert.KernelIdeal.Gen.V4_of m c Cert.KernelIdeal.main_cst_0 (by decide)).trans ((Cert.KernelIdeal.Gen.V3_of m c Cert.KernelIdeal.main_cst_0 (by decide)).trans (Cert.KernelIdeal.Gen.V2_of m c Cert.KernelIdeal.main_cst_0 (by decide)))))))))))))))))).trans (after_nullary each_hostOps0 (Cert.KernelIdeal.Gen.V0 m c) 10 _ _ _ rfl (by decide))
  have hR := after_nullary eachR (launchContents m' c) 10 _ _ _ rfl (by decide)

  exact hK.trans hR.symm

theorem same_main_v9 : Cert.KernelIdeal.Gen.V17 m outs c Cert.KernelIdeal.main_v9 = Rf m' c Cert.ReferenceIdeal.main_v9 := by
  have hK := (((Cert.KernelIdeal.Gen.V17_of m outs c Cert.KernelIdeal.main_v9 (by decide)).trans ((Cert.KernelIdeal.Gen.V16_of m outs c Cert.KernelIdeal.main_v9 (by decide)).trans ((Cert.KernelIdeal.Gen.V15_of m outs c Cert.KernelIdeal.main_v9 (by decide)).trans ((Cert.KernelIdeal.Gen.V14_of m outs c Cert.KernelIdeal.main_v9 (by decide)).trans ((Cert.KernelIdeal.Gen.V13_of m outs c Cert.KernelIdeal.main_v9 (by decide)).trans ((Cert.KernelIdeal.Gen.V12_of m outs c Cert.KernelIdeal.main_v9 (by decide)).trans ((Cert.KernelIdeal.Gen.V11_of m outs c Cert.KernelIdeal.main_v9 (by decide)).trans ((Cert.KernelIdeal.Gen.V10_of m outs c Cert.KernelIdeal.main_v9 (by decide)).trans ((Cert.KernelIdeal.Gen.V9_of m outs c Cert.KernelIdeal.main_v9 (by decide)).trans ((Cert.KernelIdeal.Gen.V8_of m outs c Cert.KernelIdeal.main_v9 (by decide)).trans ((Cert.KernelIdeal.Gen.V7_of m outs c Cert.KernelIdeal.main_v9 (by decide)).trans ((Cert.KernelIdeal.Gen.V6_of m outs c Cert.KernelIdeal.main_v9 (by decide)).trans ((Cert.KernelIdeal.Gen.V5_of m c Cert.KernelIdeal.main_v9 (by decide)).trans ((Cert.KernelIdeal.Gen.V4_of m c Cert.KernelIdeal.main_v9 (by decide)).trans ((Cert.KernelIdeal.Gen.V3_of m c Cert.KernelIdeal.main_v9 (by decide)).trans (Cert.KernelIdeal.Gen.V2_of m c Cert.KernelIdeal.main_v9 (by decide)))))))))))))))))).trans (after_unary each_hostOps0 (Cert.KernelIdeal.Gen.V0 m c) 11 _ _ _ _ _ rfl (by decide) (by decide))
  have hR := after_unary eachR (launchContents m' c) 11 _ _ _ _ _ rfl (by decide) (by decide)
  have E0 : after (Cert.KernelIdeal.Gen.hostOps0 (F := Ideal)) (Cert.KernelIdeal.Gen.V0 m c) (Proc.devRef .tc Cert.KernelIdeal.main_cst_0) = Rf m' c Cert.ReferenceIdeal.main_cst_0 :=
    (((Cert.KernelIdeal.Gen.V17_of m outs c Cert.KernelIdeal.main_cst_0 (by decide)).trans ((Cert.KernelIdeal.Gen.V16_of m outs c Cert.KernelIdeal.main_cst_0 (by decide)).trans ((Cert.KernelIdeal.Gen.V15_of m outs c Cert.KernelIdeal.main_cst_0 (by decide)).trans ((Cert.KernelIdeal.Gen.V14_of m outs c Cert.KernelIdeal.main_cst_0 (by decide)).trans ((Cert.KernelIdeal.Gen.V13_of m outs c Cert.KernelIdeal.main_cst_0 (by decide)).trans ((Cert.KernelIdeal.Gen.V12_of m outs c Cert.KernelIdeal.main_cst_0 (by decide)).trans ((Cert.KernelIdeal.Gen.V11_of m outs c Cert.KernelIdeal.main_cst_0 (by decide)).trans ((Cert.KernelIdeal.Gen.V10_of m outs c Cert.KernelIdeal.main_cst_0 (by decide)).trans ((Cert.KernelIdeal.Gen.V9_of m outs c Cert.KernelIdeal.main_cst_0 (by decide)).trans ((Cert.KernelIdeal.Gen.V8_of m outs c Cert.KernelIdeal.main_cst_0 (by decide)).trans ((Cert.KernelIdeal.Gen.V7_of m outs c Cert.KernelIdeal.main_cst_0 (by decide)).trans ((Cert.KernelIdeal.Gen.V6_of m outs c Cert.KernelIdeal.main_cst_0 (by decide)).trans ((Cert.KernelIdeal.Gen.V5_of m c Cert.KernelIdeal.main_cst_0 (by decide)).trans ((Cert.KernelIdeal.Gen.V4_of m c Cert.KernelIdeal.main_cst_0 (by decide)).trans ((Cert.KernelIdeal.Gen.V3_of m c Cert.KernelIdeal.main_cst_0 (by decide)).trans (Cert.KernelIdeal.Gen.V2_of m c Cert.KernelIdeal.main_cst_0 (by decide)))))))))))))))))).symm.trans (same_main_cst_0 m outs m' hag c)
  rw [E0] at hK
  exact hK.trans hR.symm

theorem same_main_v10 : Cert.KernelIdeal.Gen.V17 m outs c Cert.KernelIdeal.main_v10 = Rf m' c Cert.ReferenceIdeal.main_v10 := by
  have hK := (((Cert.KernelIdeal.Gen.V17_of m outs c Cert.KernelIdeal.main_v10 (by decide)).trans ((Cert.KernelIdeal.Gen.V16_of m outs c Cert.KernelIdeal.main_v10 (by decide)).trans ((Cert.KernelIdeal.Gen.V15_of m outs c Cert.KernelIdeal.main_v10 (by decide)).trans ((Cert.KernelIdeal.Gen.V14_of m outs c Cert.KernelIdeal.main_v10 (by decide)).trans ((Cert.KernelIdeal.Gen.V13_of m outs c Cert.KernelIdeal.main_v10 (by decide)).trans ((Cert.KernelIdeal.Gen.V12_of m outs c Cert.KernelIdeal.main_v10 (by decide)).trans ((Cert.KernelIdeal.Gen.V11_of m outs c Cert.KernelIdeal.main_v10 (by decide)).trans ((Cert.KernelIdeal.Gen.V10_of m outs c Cert.KernelIdeal.main_v10 (by decide)).trans ((Cert.KernelIdeal.Gen.V9_of m outs c Cert.KernelIdeal.main_v10 (by decide)).trans ((Cert.KernelIdeal.Gen.V8_of m outs c Cert.KernelIdeal.main_v10 (by decide)).trans ((Cert.KernelIdeal.Gen.V7_of m outs c Cert.KernelIdeal.main_v10 (by decide)).trans ((Cert.KernelIdeal.Gen.V6_of m outs c Cert.KernelIdeal.main_v10 (by decide)).trans ((Cert.KernelIdeal.Gen.V5_of m c Cert.KernelIdeal.main_v10 (by decide)).trans ((Cert.KernelIdeal.Gen.V4_of m c Cert.KernelIdeal.main_v10 (by decide)).trans ((Cert.KernelIdeal.Gen.V3_of m c Cert.KernelIdeal.main_v10 (by decide)).trans (Cert.KernelIdeal.Gen.V2_of m c Cert.KernelIdeal.main_v10 (by decide)))))))))))))))))).trans (after_unary each_hostOps0 (Cert.KernelIdeal.Gen.V0 m c) 12 _ _ _ _ _ rfl (by decide) (by decide))
  have hR := after_unary eachR (launchContents m' c) 12 _ _ _ _ _ rfl (by decide) (by decide)
  have E0 : after (Cert.KernelIdeal.Gen.hostOps0 (F := Ideal)) (Cert.KernelIdeal.Gen.V0 m c) (Proc.devRef .tc Cert.KernelIdeal.main_v6) = Rf m' c Cert.ReferenceIdeal.main_v6 :=
    (((Cert.KernelIdeal.Gen.V17_of m outs c Cert.KernelIdeal.main_v6 (by decide)).trans ((Cert.KernelIdeal.Gen.V16_of m outs c Cert.KernelIdeal.main_v6 (by decide)).trans ((Cert.KernelIdeal.Gen.V15_of m outs c Cert.KernelIdeal.main_v6 (by decide)).trans ((Cert.KernelIdeal.Gen.V14_of m outs c Cert.KernelIdeal.main_v6 (by decide)).trans ((Cert.KernelIdeal.Gen.V13_of m outs c Cert.KernelIdeal.main_v6 (by decide)).trans ((Cert.KernelIdeal.Gen.V12_of m outs c Cert.KernelIdeal.main_v6 (by decide)).trans ((Cert.KernelIdeal.Gen.V11_of m outs c Cert.KernelIdeal.main_v6 (by decide)).trans ((Cert.KernelIdeal.Gen.V10_of m outs c Cert.KernelIdeal.main_v6 (by decide)).trans ((Cert.KernelIdeal.Gen.V9_of m outs c Cert.KernelIdeal.main_v6 (by decide)).trans ((Cert.KernelIdeal.Gen.V8_of m outs c Cert.KernelIdeal.main_v6 (by decide)).trans ((Cert.KernelIdeal.Gen.V7_of m outs c Cert.KernelIdeal.main_v6 (by decide)).trans ((Cert.KernelIdeal.Gen.V6_of m outs c Cert.KernelIdeal.main_v6 (by decide)).trans ((Cert.KernelIdeal.Gen.V5_of m c Cert.KernelIdeal.main_v6 (by decide)).trans ((Cert.KernelIdeal.Gen.V4_of m c Cert.KernelIdeal.main_v6 (by decide)).trans ((Cert.KernelIdeal.Gen.V3_of m c Cert.KernelIdeal.main_v6 (by decide)).trans (Cert.KernelIdeal.Gen.V2_of m c Cert.KernelIdeal.main_v6 (by decide)))))))))))))))))).symm.trans (same_main_v6 m outs m' hag c)
  rw [E0] at hK
  exact hK.trans hR.symm

theorem same_main_v11 : Cert.KernelIdeal.Gen.V17 m outs c Cert.KernelIdeal.main_v11 = Rf m' c Cert.ReferenceIdeal.main_v11 := by
  have hK := (((Cert.KernelIdeal.Gen.V17_of m outs c Cert.KernelIdeal.main_v11 (by decide)).trans ((Cert.KernelIdeal.Gen.V16_of m outs c Cert.KernelIdeal.main_v11 (by decide)).trans ((Cert.KernelIdeal.Gen.V15_of m outs c Cert.KernelIdeal.main_v11 (by decide)).trans ((Cert.KernelIdeal.Gen.V14_of m outs c Cert.KernelIdeal.main_v11 (by decide)).trans ((Cert.KernelIdeal.Gen.V13_of m outs c Cert.KernelIdeal.main_v11 (by decide)).trans ((Cert.KernelIdeal.Gen.V12_of m outs c Cert.KernelIdeal.main_v11 (by decide)).trans ((Cert.KernelIdeal.Gen.V11_of m outs c Cert.KernelIdeal.main_v11 (by decide)).trans ((Cert.KernelIdeal.Gen.V10_of m outs c Cert.KernelIdeal.main_v11 (by decide)).trans ((Cert.KernelIdeal.Gen.V9_of m outs c Cert.KernelIdeal.main_v11 (by decide)).trans ((Cert.KernelIdeal.Gen.V8_of m outs c Cert.KernelIdeal.main_v11 (by decide)).trans ((Cert.KernelIdeal.Gen.V7_of m outs c Cert.KernelIdeal.main_v11 (by decide)).trans ((Cert.KernelIdeal.Gen.V6_of m outs c Cert.KernelIdeal.main_v11 (by decide)).trans ((Cert.KernelIdeal.Gen.V5_of m c Cert.KernelIdeal.main_v11 (by decide)).trans ((Cert.KernelIdeal.Gen.V4_of m c Cert.KernelIdeal.main_v11 (by decide)).trans ((Cert.KernelIdeal.Gen.V3_of m c Cert.KernelIdeal.main_v11 (by decide)).trans (Cert.KernelIdeal.Gen.V2_of m c Cert.KernelIdeal.main_v11 (by decide)))))))))))))))))).trans (after_ternary each_hostOps0 (Cert.KernelIdeal.Gen.V0 m c) 13 _ _ _ _ _ _ _ _ _ rfl (by decide) (by decide) (by decide) (by decide))
  have hR := after_ternary eachR (launchContents m' c) 13 _ _ _ _ _ _ _ _ _ rfl (by decide) (by decide) (by decide) (by decide)
  have E0 : after (Cert.KernelIdeal.Gen.hostOps0 (F := Ideal)) (Cert.KernelIdeal.Gen.V0 m c) (Proc.devRef .tc Cert.KernelIdeal.main_v9) = Rf m' c Cert.ReferenceIdeal.main_v9 :=
    (((Cert.KernelIdeal.Gen.V17_of m outs c Cert.KernelIdeal.main_v9 (by decide)).trans ((Cert.KernelIdeal.Gen.V16_of m outs c Cert.KernelIdeal.main_v9 (by decide)).trans ((Cert.KernelIdeal.Gen.V15_of m outs c Cert.KernelIdeal.main_v9 (by decide)).trans ((Cert.KernelIdeal.Gen.V14_of m outs c Cert.KernelIdeal.main_v9 (by decide)).trans ((Cert.KernelIdeal.Gen.V13_of m outs c Cert.KernelIdeal.main_v9 (by decide)).trans ((Cert.KernelIdeal.Gen.V12_of m outs c Cert.KernelIdeal.main_v9 (by decide)).trans ((Cert.KernelIdeal.Gen.V11_of m outs c Cert.KernelIdeal.main_v9 (by decide)).trans ((Cert.KernelIdeal.Gen.V10_of m outs c Cert.KernelIdeal.main_v9 (by decide)).trans ((Cert.KernelIdeal.Gen.V9_of m outs c Cert.KernelIdeal.main_v9 (by decide)).trans ((Cert.KernelIdeal.Gen.V8_of m outs c Cert.KernelIdeal.main_v9 (by decide)).trans ((Cert.KernelIdeal.Gen.V7_of m outs c Cert.KernelIdeal.main_v9 (by decide)).trans ((Cert.KernelIdeal.Gen.V6_of m outs c Cert.KernelIdeal.main_v9 (by decide)).trans ((Cert.KernelIdeal.Gen.V5_of m c Cert.KernelIdeal.main_v9 (by decide)).trans ((Cert.KernelIdeal.Gen.V4_of m c Cert.KernelIdeal.main_v9 (by decide)).trans ((Cert.KernelIdeal.Gen.V3_of m c Cert.KernelIdeal.main_v9 (by decide)).trans (Cert.KernelIdeal.Gen.V2_of m c Cert.KernelIdeal.main_v9 (by decide)))))))))))))))))).symm.trans (same_main_v9 m outs m' hag c)
  have E1 : after (Cert.KernelIdeal.Gen.hostOps0 (F := Ideal)) (Cert.KernelIdeal.Gen.V0 m c) (Proc.devRef .tc Cert.KernelIdeal.main_v10) = Rf m' c Cert.ReferenceIdeal.main_v10 :=
    (((Cert.KernelIdeal.Gen.V17_of m outs c Cert.KernelIdeal.main_v10 (by decide)).trans ((Cert.KernelIdeal.Gen.V16_of m outs c Cert.KernelIdeal.main_v10 (by decide)).trans ((Cert.KernelIdeal.Gen.V15_of m outs c Cert.KernelIdeal.main_v10 (by decide)).trans ((Cert.KernelIdeal.Gen.V14_of m outs c Cert.KernelIdeal.main_v10 (by decide)).trans ((Cert.KernelIdeal.Gen.V13_of m outs c Cert.KernelIdeal.main_v10 (by decide)).trans ((Cert.KernelIdeal.Gen.V12_of m outs c Cert.KernelIdeal.main_v10 (by decide)).trans ((Cert.KernelIdeal.Gen.V11_of m outs c Cert.KernelIdeal.main_v10 (by decide)).trans ((Cert.KernelIdeal.Gen.V10_of m outs c Cert.KernelIdeal.main_v10 (by decide)).trans ((Cert.KernelIdeal.Gen.V9_of m outs c Cert.KernelIdeal.main_v10 (by decide)).trans ((Cert.KernelIdeal.Gen.V8_of m outs c Cert.KernelIdeal.main_v10 (by decide)).trans ((Cert.KernelIdeal.Gen.V7_of m outs c Cert.KernelIdeal.main_v10 (by decide)).trans ((Cert.KernelIdeal.Gen.V6_of m outs c Cert.KernelIdeal.main_v10 (by decide)).trans ((Cert.KernelIdeal.Gen.V5_of m c Cert.KernelIdeal.main_v10 (by decide)).trans ((Cert.KernelIdeal.Gen.V4_of m c Cert.KernelIdeal.main_v10 (by decide)).trans ((Cert.KernelIdeal.Gen.V3_of m c Cert.KernelIdeal.main_v10 (by decide)).trans (Cert.KernelIdeal.Gen.V2_of m c Cert.KernelIdeal.main_v10 (by decide)))))))))))))))))).symm.trans (same_main_v10 m outs m' hag c)
  have E2 : after (Cert.KernelIdeal.Gen.hostOps0 (F := Ideal)) (Cert.KernelIdeal.Gen.V0 m c) (Proc.devRef .tc Cert.KernelIdeal.main_v8) = Rf m' c Cert.ReferenceIdeal.main_v8 :=
    (((Cert.KernelIdeal.Gen.V17_of m outs c Cert.KernelIdeal.main_v8 (by decide)).trans ((Cert.KernelIdeal.Gen.V16_of m outs c Cert.KernelIdeal.main_v8 (by decide)).trans ((Cert.KernelIdeal.Gen.V15_of m outs c Cert.KernelIdeal.main_v8 (by decide)).trans ((Cert.KernelIdeal.Gen.V14_of m outs c Cert.KernelIdeal.main_v8 (by decide)).trans ((Cert.KernelIdeal.Gen.V13_of m outs c Cert.KernelIdeal.main_v8 (by decide)).trans ((Cert.KernelIdeal.Gen.V12_of m outs c Cert.KernelIdeal.main_v8 (by decide)).trans ((Cert.KernelIdeal.Gen.V11_of m outs c Cert.KernelIdeal.main_v8 (by decide)).trans ((Cert.KernelIdeal.Gen.V10_of m outs c Cert.KernelIdeal.main_v8 (by decide)).trans ((Cert.KernelIdeal.Gen.V9_of m outs c Cert.KernelIdeal.main_v8 (by decide)).trans ((Cert.KernelIdeal.Gen.V8_of m outs c Cert.KernelIdeal.main_v8 (by decide)).trans ((Cert.KernelIdeal.Gen.V7_of m outs c Cert.KernelIdeal.main_v8 (by decide)).trans ((Cert.KernelIdeal.Gen.V6_of m outs c Cert.KernelIdeal.main_v8 (by decide)).trans ((Cert.KernelIdeal.Gen.V5_of m c Cert.KernelIdeal.main_v8 (by decide)).trans ((Cert.KernelIdeal.Gen.V4_of m c Cert.KernelIdeal.main_v8 (by decide)).trans ((Cert.KernelIdeal.Gen.V3_of m c Cert.KernelIdeal.main_v8 (by decide)).trans (Cert.KernelIdeal.Gen.V2_of m c Cert.KernelIdeal.main_v8 (by decide)))))))))))))))))).symm.trans (same_main_v8 m outs m' hag c)
  rw [E0, E1, E2] at hK
  exact hK.trans hR.symm

theorem same_main_cst_1 : Cert.KernelIdeal.Gen.V17 m outs c Cert.KernelIdeal.main_cst_1 = Rf m' c Cert.ReferenceIdeal.main_cst_1 := by
  have hK := (((Cert.KernelIdeal.Gen.V17_of m outs c Cert.KernelIdeal.main_cst_1 (by decide)).trans ((Cert.KernelIdeal.Gen.V16_of m outs c Cert.KernelIdeal.main_cst_1 (by decide)).trans ((Cert.KernelIdeal.Gen.V15_of m outs c Cert.KernelIdeal.main_cst_1 (by decide)).trans ((Cert.KernelIdeal.Gen.V14_of m outs c Cert.KernelIdeal.main_cst_1 (by decide)).trans ((Cert.KernelIdeal.Gen.V13_of m outs c Cert.KernelIdeal.main_cst_1 (by decide)).trans ((Cert.KernelIdeal.Gen.V12_of m outs c Cert.KernelIdeal.main_cst_1 (by decide)).trans ((Cert.KernelIdeal.Gen.V11_of m outs c Cert.KernelIdeal.main_cst_1 (by decide)).trans ((Cert.KernelIdeal.Gen.V10_of m outs c Cert.KernelIdeal.main_cst_1 (by decide)).trans ((Cert.KernelIdeal.Gen.V9_of m outs c Cert.KernelIdeal.main_cst_1 (by decide)).trans ((Cert.KernelIdeal.Gen.V8_of m outs c Cert.KernelIdeal.main_cst_1 (by decide)).trans ((Cert.KernelIdeal.Gen.V7_of m outs c Cert.KernelIdeal.main_cst_1 (by decide)).trans ((Cert.KernelIdeal.Gen.V6_of m outs c Cert.KernelIdeal.main_cst_1 (by decide)).trans ((Cert.KernelIdeal.Gen.V5_of m c Cert.KernelIdeal.main_cst_1 (by decide)).trans ((Cert.KernelIdeal.Gen.V4_of m c Cert.KernelIdeal.main_cst_1 (by decide)).trans ((Cert.KernelIdeal.Gen.V3_of m c Cert.KernelIdeal.main_cst_1 (by decide)).trans (Cert.KernelIdeal.Gen.V2_of m c Cert.KernelIdeal.main_cst_1 (by decide)))))))))))))))))).trans (after_nullary each_hostOps0 (Cert.KernelIdeal.Gen.V0 m c) 14 _ _ _ rfl (by decide))
  have hR := after_nullary eachR (launchContents m' c) 14 _ _ _ rfl (by decide)

  exact hK.trans hR.symm

theorem same_main_v12 : Cert.KernelIdeal.Gen.V17 m outs c Cert.KernelIdeal.main_v12 = Rf m' c Cert.ReferenceIdeal.main_v12 := by
  have hK := (((Cert.KernelIdeal.Gen.V17_of m outs c Cert.KernelIdeal.main_v12 (by decide)).trans ((Cert.KernelIdeal.Gen.V16_of m outs c Cert.KernelIdeal.main_v12 (by decide)).trans ((Cert.KernelIdeal.Gen.V15_of m outs c Cert.KernelIdeal.main_v12 (by decide)).trans ((Cert.KernelIdeal.Gen.V14_of m outs c Cert.KernelIdeal.main_v12 (by decide)).trans ((Cert.KernelIdeal.Gen.V13_of m outs c Cert.KernelIdeal.main_v12 (by decide)).trans ((Cert.KernelIdeal.Gen.V12_of m outs c Cert.KernelIdeal.main_v12 (by decide)).trans ((Cert.KernelIdeal.Gen.V11_of m outs c Cert.KernelIdeal.main_v12 (by decide)).trans ((Cert.KernelIdeal.Gen.V10_of m outs c Cert.KernelIdeal.main_v12 (by decide)).trans ((Cert.KernelIdeal.Gen.V9_of m outs c Cert.KernelIdeal.main_v12 (by decide)).trans ((Cert.KernelIdeal.Gen.V8_of m outs c Cert.KernelIdeal.main_v12 (by decide)).trans ((Cert.KernelIdeal.Gen.V7_of m outs c Cert.KernelIdeal.main_v12 (by decide)).trans ((Cert.KernelIdeal.Gen.V6_of m outs c Cert.KernelIdeal.main_v12 (by decide)).trans ((Cert.KernelIdeal.Gen.V5_of m c Cert.KernelIdeal.main_v12 (by decide)).trans ((Cert.KernelIdeal.Gen.V4_of m c Cert.KernelIdeal.main_v12 (by decide)).trans ((Cert.KernelIdeal.Gen.V3_of m c Cert.KernelIdeal.main_v12 (by decide)).trans (Cert.KernelIdeal.Gen.V2_of m c Cert.KernelIdeal.main_v12 (by decide)))))))))))))))))).trans (after_unary each_hostOps0 (Cert.KernelIdeal.Gen.V0 m c) 15 _ _ _ _ _ rfl (by decide) (by decide))
  have hR := after_unary eachR (launchContents m' c) 15 _ _ _ _ _ rfl (by decide) (by decide)
  have E0 : after (Cert.KernelIdeal.Gen.hostOps0 (F := Ideal)) (Cert.KernelIdeal.Gen.V0 m c) (Proc.devRef .tc Cert.KernelIdeal.main_cst_1) = Rf m' c Cert.ReferenceIdeal.main_cst_1 :=
    (((Cert.KernelIdeal.Gen.V17_of m outs c Cert.KernelIdeal.main_cst_1 (by decide)).trans ((Cert.KernelIdeal.Gen.V16_of m outs c Cert.KernelIdeal.main_cst_1 (by decide)).trans ((Cert.KernelIdeal.Gen.V15_of m outs c Cert.KernelIdeal.main_cst_1 (by decide)).trans ((Cert.KernelIdeal.Gen.V14_of m outs c Cert.KernelIdeal.main_cst_1 (by decide)).trans ((Cert.KernelIdeal.Gen.V13_of m outs c Cert.KernelIdeal.main_cst_1 (by decide)).trans ((Cert.KernelIdeal.Gen.V12_of m outs c Cert.KernelIdeal.main_cst_1 (by decide)).trans ((Cert.KernelIdeal.Gen.V11_of m outs c Cert.KernelIdeal.main_cst_1 (by decide)).trans ((Cert.KernelIdeal.Gen.V10_of m outs c Cert.KernelIdeal.main_cst_1 (by decide)).trans ((Cert.KernelIdeal.Gen.V9_of m outs c Cert.KernelIdeal.main_cst_1 (by decide)).trans ((Cert.KernelIdeal.Gen.V8_of m outs c Cert.KernelIdeal.main_cst_1 (by decide)).trans ((Cert.KernelIdeal.Gen.V7_of m outs c Cert.KernelIdeal.main_cst_1 (by decide)).trans ((Cert.KernelIdeal.Gen.V6_of m outs c Cert.KernelIdeal.main_cst_1 (by decide)).trans ((Cert.KernelIdeal.Gen.V5_of m c Cert.KernelIdeal.main_cst_1 (by decide)).trans ((Cert.KernelIdeal.Gen.V4_of m c Cert.KernelIdeal.main_cst_1 (by decide)).trans ((Cert.KernelIdeal.Gen.V3_of m c Cert.KernelIdeal.main_cst_1 (by decide)).trans (Cert.KernelIdeal.Gen.V2_of m c Cert.KernelIdeal.main_cst_1 (by decide)))))))))))))))))).symm.trans (same_main_cst_1 m outs m' hag c)
  rw [E0] at hK
  exact hK.trans hR.symm

theorem same_main_v13 : Cert.KernelIdeal.Gen.V17 m outs c Cert.KernelIdeal.main_v13 = Rf m' c Cert.ReferenceIdeal.main_v13 := by
  have hK := (((Cert.KernelIdeal.Gen.V17_of m outs c Cert.KernelIdeal.main_v13 (by decide)).trans ((Cert.KernelIdeal.Gen.V16_of m outs c Cert.KernelIdeal.main_v13 (by decide)).trans ((Cert.KernelIdeal.Gen.V15_of m outs c Cert.KernelIdeal.main_v13 (by decide)).trans ((Cert.KernelIdeal.Gen.V14_of m outs c Cert.KernelIdeal.main_v13 (by decide)).trans ((Cert.KernelIdeal.Gen.V13_of m outs c Cert.KernelIdeal.main_v13 (by decide)).trans ((Cert.KernelIdeal.Gen.V12_of m outs c Cert.KernelIdeal.main_v13 (by decide)).trans ((Cert.KernelIdeal.Gen.V11_of m outs c Cert.KernelIdeal.main_v13 (by decide)).trans ((Cert.KernelIdeal.Gen.V10_of m outs c Cert.KernelIdeal.main_v13 (by decide)).trans ((Cert.KernelIdeal.Gen.V9_of m outs c Cert.KernelIdeal.main_v13 (by decide)).trans ((Cert.KernelIdeal.Gen.V8_of m outs c Cert.KernelIdeal.main_v13 (by decide)).trans ((Cert.KernelIdeal.Gen.V7_of m outs c Cert.KernelIdeal.main_v13 (by decide)).trans ((Cert.KernelIdeal.Gen.V6_of m outs c Cert.KernelIdeal.main_v13 (by decide)).trans ((Cert.KernelIdeal.Gen.V5_of m c Cert.KernelIdeal.main_v13 (by decide)).trans ((Cert.KernelIdeal.Gen.V4_of m c Cert.KernelIdeal.main_v13 (by decide)).trans ((Cert.KernelIdeal.Gen.V3_of m c Cert.KernelIdeal.main_v13 (by decide)).trans (Cert.KernelIdeal.Gen.V2_of m c Cert.KernelIdeal.main_v13 (by decide)))))))))))))))))).trans (after_binary each_hostOps0 (Cert.KernelIdeal.Gen.V0 m c) 16 _ _ _ _ _ _ _ rfl (by decide) (by decide) (by decide))
  have hR := after_binary eachR (launchContents m' c) 16 _ _ _ _ _ _ _ rfl (by decide) (by decide) (by decide)
  have E0 : after (Cert.KernelIdeal.Gen.hostOps0 (F := Ideal)) (Cert.KernelIdeal.Gen.V0 m c) (Proc.devRef .tc Cert.KernelIdeal.main_v11) = Rf m' c Cert.ReferenceIdeal.main_v11 :=
    (((Cert.KernelIdeal.Gen.V17_of m outs c Cert.KernelIdeal.main_v11 (by decide)).trans ((Cert.KernelIdeal.Gen.V16_of m outs c Cert.KernelIdeal.main_v11 (by decide)).trans ((Cert.KernelIdeal.Gen.V15_of m outs c Cert.KernelIdeal.main_v11 (by decide)).trans ((Cert.KernelIdeal.Gen.V14_of m outs c Cert.KernelIdeal.main_v11 (by decide)).trans ((Cert.KernelIdeal.Gen.V13_of m outs c Cert.KernelIdeal.main_v11 (by decide)).trans ((Cert.KernelIdeal.Gen.V12_of m outs c Cert.KernelIdeal.main_v11 (by decide)).trans ((Cert.KernelIdeal.Gen.V11_of m outs c Cert.KernelIdeal.main_v11 (by decide)).trans ((Cert.KernelIdeal.Gen.V10_of m outs c Cert.KernelIdeal.main_v11 (by decide)).trans ((Cert.KernelIdeal.Gen.V9_of m outs c Cert.KernelIdeal.main_v11 (by decide)).trans ((Cert.KernelIdeal.Gen.V8_of m outs c Cert.KernelIdeal.main_v11 (by decide)).trans ((Cert.KernelIdeal.Gen.V7_of m outs c Cert.KernelIdeal.main_v11 (by decide)).trans ((Cert.KernelIdeal.Gen.V6_of m outs c Cert.KernelIdeal.main_v11 (by decide)).trans ((Cert.KernelIdeal.Gen.V5_of m c Cert.KernelIdeal.main_v11 (by decide)).trans ((Cert.KernelIdeal.Gen.V4_of m c Cert.KernelIdeal.main_v11 (by decide)).trans ((Cert.KernelIdeal.Gen.V3_of m c Cert.KernelIdeal.main_v11 (by decide)).trans (Cert.KernelIdeal.Gen.V2_of m c Cert.KernelIdeal.main_v11 (by decide)))))))))))))))))).symm.trans (same_main_v11 m outs m' hag c)
  have E1 : after (Cert.KernelIdeal.Gen.hostOps0 (F := Ideal)) (Cert.KernelIdeal.Gen.V0 m c) (Proc.devRef .tc Cert.KernelIdeal.main_v12) = Rf m' c Cert.ReferenceIdeal.main_v12 :=
    (((Cert.KernelIdeal.Gen.V17_of m outs c Cert.KernelIdeal.main_v12 (by decide)).trans ((Cert.KernelIdeal.Gen.V16_of m outs c Cert.KernelIdeal.main_v12 (by decide)).trans ((Cert.KernelIdeal.Gen.V15_of m outs c Cert.KernelIdeal.main_v12 (by decide)).trans ((Cert.KernelIdeal.Gen.V14_of m outs c Cert.KernelIdeal.main_v12 (by decide)).trans ((Cert.KernelIdeal.Gen.V13_of m outs c Cert.KernelIdeal.main_v12 (by decide)).trans ((Cert.KernelIdeal.Gen.V12_of m outs c Cert.KernelIdeal.main_v12 (by decide)).trans ((Cert.KernelIdeal.Gen.V11_of m outs c Cert.KernelIdeal.main_v12 (by decide)).trans ((Cert.KernelIdeal.Gen.V10_of m outs c Cert.KernelIdeal.main_v12 (by decide)).trans ((Cert.KernelIdeal.Gen.V9_of m outs c Cert.KernelIdeal.main_v12 (by decide)).trans ((Cert.KernelIdeal.Gen.V8_of m outs c Cert.KernelIdeal.main_v12 (by decide)).trans ((Cert.KernelIdeal.Gen.V7_of m outs c Cert.KernelIdeal.main_v12 (by decide)).trans ((Cert.KernelIdeal.Gen.V6_of m outs c Cert.KernelIdeal.main_v12 (by decide)).trans ((Cert.KernelIdeal.Gen.V5_of m c Cert.KernelIdeal.main_v12 (by decide)).trans ((Cert.KernelIdeal.Gen.V4_of m c Cert.KernelIdeal.main_v12 (by decide)).trans ((Cert.KernelIdeal.Gen.V3_of m c Cert.KernelIdeal.main_v12 (by decide)).trans (Cert.KernelIdeal.Gen.V2_of m c Cert.KernelIdeal.main_v12 (by decide)))))))))))))))))).symm.trans (same_main_v12 m outs m' hag c)
  rw [E0, E1] at hK
  exact hK.trans hR.symm

theorem same_main_cst_2 : Cert.KernelIdeal.Gen.V17 m outs c Cert.KernelIdeal.main_cst_2 = Rf m' c Cert.ReferenceIdeal.main_cst_2 := by
  have hK := (((Cert.KernelIdeal.Gen.V17_of m outs c Cert.KernelIdeal.main_cst_2 (by decide)).trans ((Cert.KernelIdeal.Gen.V16_of m outs c Cert.KernelIdeal.main_cst_2 (by decide)).trans ((Cert.KernelIdeal.Gen.V15_of m outs c Cert.KernelIdeal.main_cst_2 (by decide)).trans ((Cert.KernelIdeal.Gen.V14_of m outs c Cert.KernelIdeal.main_cst_2 (by decide)).trans ((Cert.KernelIdeal.Gen.V13_of m outs c Cert.KernelIdeal.main_cst_2 (by decide)).trans ((Cert.KernelIdeal.Gen.V12_of m outs c Cert.KernelIdeal.main_cst_2 (by decide)).trans ((Cert.KernelIdeal.Gen.V11_of m outs c Cert.KernelIdeal.main_cst_2 (by decide)).trans ((Cert.KernelIdeal.Gen.V10_of m outs c Cert.KernelIdeal.main_cst_2 (by decide)).trans ((Cert.KernelIdeal.Gen.V9_of m outs c Cert.KernelIdeal.main_cst_2 (by decide)).trans ((Cert.KernelIdeal.Gen.V8_of m outs c Cert.KernelIdeal.main_cst_2 (by decide)).trans ((Cert.KernelIdeal.Gen.V7_of m outs c Cert.KernelIdeal.main_cst_2 (by decide)).trans ((Cert.KernelIdeal.Gen.V6_of m outs c Cert.KernelIdeal.main_cst_2 (by decide)).trans ((Cert.KernelIdeal.Gen.V5_of m c Cert.KernelIdeal.main_cst_2 (by decide)).trans ((Cert.KernelIdeal.Gen.V4_of m c Cert.KernelIdeal.main_cst_2 (by decide)).trans ((Cert.KernelIdeal.Gen.V3_of m c Cert.KernelIdeal.main_cst_2 (by decide)).trans (Cert.KernelIdeal.Gen.V2_of m c Cert.KernelIdeal.main_cst_2 (by decide)))))))))))))))))).trans (after_nullary each_hostOps0 (Cert.KernelIdeal.Gen.V0 m c) 17 _ _ _ rfl (by decide))
  have hR := after_nullary eachR (launchContents m' c) 17 _ _ _ rfl (by decide)

  exact hK.trans hR.symm

theorem same_main_call0_v0 : Cert.KernelIdeal.Gen.V17 m outs c Cert.KernelIdeal.main_call0_v0 = Rf m' c Cert.ReferenceIdeal.main_call0_v0 := by
  have hK := (((Cert.KernelIdeal.Gen.V17_of m outs c Cert.KernelIdeal.main_call0_v0 (by decide)).trans ((Cert.KernelIdeal.Gen.V16_of m outs c Cert.KernelIdeal.main_call0_v0 (by decide)).trans ((Cert.KernelIdeal.Gen.V15_of m outs c Cert.KernelIdeal.main_call0_v0 (by decide)).trans ((Cert.KernelIdeal.Gen.V14_of m outs c Cert.KernelIdeal.main_call0_v0 (by decide)).trans ((Cert.KernelIdeal.Gen.V13_of m outs c Cert.KernelIdeal.main_call0_v0 (by decide)).trans ((Cert.KernelIdeal.Gen.V12_of m outs c Cert.KernelIdeal.main_call0_v0 (by decide)).trans ((Cert.KernelIdeal.Gen.V11_of m outs c Cert.KernelIdeal.main_call0_v0 (by decide)).trans ((Cert.KernelIdeal.Gen.V10_of m outs c Cert.KernelIdeal.main_call0_v0 (by decide)).trans ((Cert.KernelIdeal.Gen.V9_of m outs c Cert.KernelIdeal.main_call0_v0 (by decide)).trans ((Cert.KernelIdeal.Gen.V8_of m outs c Cert.KernelIdeal.main_call0_v0 (by decide)).trans ((Cert.KernelIdeal.Gen.V7_of m outs c Cert.KernelIdeal.main_call0_v0 (by decide)).trans ((Cert.KernelIdeal.Gen.V6_of m outs c Cert.KernelIdeal.main_call0_v0 (by decide)).trans ((Cert.KernelIdeal.Gen.V5_of m c Cert.KernelIdeal.main_call0_v0 (by decide)).trans ((Cert.KernelIdeal.Gen.V4_of m c Cert.KernelIdeal.main_call0_v0 (by decide)).trans (Cert.KernelIdeal.Gen.V3_of m c Cert.KernelIdeal.main_call0_v0 (by decide))))))))))))))))).trans (after_unary each_hostOps0_1 (Cert.KernelIdeal.Gen.V1 m c) 0 _ _ _ _ _ rfl (by decide) (by decide))
  have hR := after_unary eachR (launchContents m' c) 18 _ _ _ _ _ rfl (by decide) (by decide)
  have E0 : after (Cert.KernelIdeal.Gen.hostOps0_1 (F := Ideal)) (Cert.KernelIdeal.Gen.V1 m c) (Proc.devRef .tc Cert.KernelIdeal.main_cst_2) = Rf m' c Cert.ReferenceIdeal.main_cst_2 :=
    (((Cert.KernelIdeal.Gen.V17_of m outs c Cert.KernelIdeal.main_cst_2 (by decide)).trans ((Cert.KernelIdeal.Gen.V16_of m outs c Cert.KernelIdeal.main_cst_2 (by decide)).trans ((Cert.KernelIdeal.Gen.V15_of m outs c Cert.KernelIdeal.main_cst_2 (by decide)).trans ((Cert.KernelIdeal.Gen.V14_of m outs c Cert.KernelIdeal.main_cst_2 (by decide)).trans ((Cert.KernelIdeal.Gen.V13_of m outs c Cert.KernelIdeal.main_cst_2 (by decide)).trans ((Cert.KernelIdeal.Gen.V12_of m outs c Cert.KernelIdeal.main_cst_2 (by decide)).trans ((Cert.KernelIdeal.Gen.V11_of m outs c Cert.KernelIdeal.main_cst_2 (by decide)).trans ((Cert.KernelIdeal.Gen.V10_of m outs c Cert.KernelIdeal.main_cst_2 (by decide)).trans ((Cert.KernelIdeal.Gen.V9_of m outs c Cert.KernelIdeal.main_cst_2 (by decide)).trans ((Cert.KernelIdeal.Gen.V8_of m outs c Cert.KernelIdeal.main_cst_2 (by decide)).trans ((Cert.KernelIdeal.Gen.V7_of m outs c Cert.KernelIdeal.main_cst_2 (by decide)).trans ((Cert.KernelIdeal.Gen.V6_of m outs c Cert.KernelIdeal.main_cst_2 (by decide)).trans ((Cert.KernelIdeal.Gen.V5_of m c Cert.KernelIdeal.main_cst_2 (by decide)).trans ((Cert.KernelIdeal.Gen.V4_of m c Cert.KernelIdeal.main_cst_2 (by decide)).trans (Cert.KernelIdeal.Gen.V3_of m c Cert.KernelIdeal.main_cst_2 (by decide))))))))))))))))).symm.trans (same_main_cst_2 m outs m' hag c)
  rw [E0] at hK
  exact hK.trans hR.symm

theorem same_main_call0_v1 : Cert.KernelIdeal.Gen.V17 m outs c Cert.KernelIdeal.main_call0_v1 = Rf m' c Cert.ReferenceIdeal.main_call0_v1 := by
  have hK := (((Cert.KernelIdeal.Gen.V17_of m outs c Cert.KernelIdeal.main_call0_v1 (by decide)).trans ((Cert.KernelIdeal.Gen.V16_of m outs c Cert.KernelIdeal.main_call0_v1 (by decide)).trans ((Cert.KernelIdeal.Gen.V15_of m outs c Cert.KernelIdeal.main_call0_v1 (by decide)).trans ((Cert.KernelIdeal.Gen.V14_of m outs c Cert.KernelIdeal.main_call0_v1 (by decide)).trans ((Cert.KernelIdeal.Gen.V13_of m outs c Cert.KernelIdeal.main_call0_v1 (by decide)).trans ((Cert.KernelIdeal.Gen.V12_of m outs c Cert.KernelIdeal.main_call0_v1 (by decide)).trans ((Cert.KernelIdeal.Gen.V11_of m outs c Cert.KernelIdeal.main_call0_v1 (by decide)).trans ((Cert.KernelIdeal.Gen.V10_of m outs c Cert.KernelIdeal.main_call0_v1 (by decide)).trans ((Cert.KernelIdeal.Gen.V9_of m outs c Cert.KernelIdeal.main_call0_v1 (by decide)).trans ((Cert.KernelIdeal.Gen.V8_of m outs c Cert.KernelIdeal.main_call0_v1 (by decide)).trans ((Cert.KernelIdeal.Gen.V7_of m outs c Cert.KernelIdeal.main_call0_v1 (by decide)).trans ((Cert.KernelIdeal.Gen.V6_of m outs c Cert.KernelIdeal.main_call0_v1 (by decide)).trans ((Cert.KernelIdeal.Gen.V5_of m c Cert.KernelIdeal.main_call0_v1 (by decide)).trans ((Cert.KernelIdeal.Gen.V4_of m c Cert.KernelIdeal.main_call0_v1 (by decide)).trans (Cert.KernelIdeal.Gen.V3_of m c Cert.KernelIdeal.main_call0_v1 (by decide))))))))))))))))).trans (after_unary each_hostOps0_1 (Cert.KernelIdeal.Gen.V1 m c) 1 _ _ _ _ _ rfl (by decide) (by decide))
  have hR := after_unary eachR (launchContents m' c) 19 _ _ _ _ _ rfl (by decide) (by decide)
  have E0 : after (Cert.KernelIdeal.Gen.hostOps0_1 (F := Ideal)) (Cert.KernelIdeal.Gen.V1 m c) (Proc.devRef .tc Cert.KernelIdeal.main_call0_v0) = Rf m' c Cert.ReferenceIdeal.main_call0_v0 :=
    (((Cert.KernelIdeal.Gen.V17_of m outs c Cert.KernelIdeal.main_call0_v0 (by decide)).trans ((Cert.KernelIdeal.Gen.V16_of m outs c Cert.KernelIdeal.main_call0_v0 (by decide)).trans ((Cert.KernelIdeal.Gen.V15_of m outs c Cert.KernelIdeal.main_call0_v0 (by decide)).trans ((Cert.KernelIdeal.Gen.V14_of m outs c Cert.KernelIdeal.main_call0_v0 (by decide)).trans ((Cert.KernelIdeal.Gen.V13_of m outs c Cert.KernelIdeal.main_call0_v0 (by decide)).trans ((Cert.KernelIdeal.Gen.V12_of m outs c Cert.KernelIdeal.main_call0_v0 (by decide)).trans ((Cert.KernelIdeal.Gen.V11_of m outs c Cert.KernelIdeal.main_call0_v0 (by decide)).trans ((Cert.KernelIdeal.Gen.V10_of m outs c Cert.KernelIdeal.main_call0_v0 (by decide)).trans ((Cert.KernelIdeal.Gen.V9_of m outs c Cert.KernelIdeal.main_call0_v0 (by decide)).trans ((Cert.KernelIdeal.Gen.V8_of m outs c Cert.KernelIdeal.main_call0_v0 (by decide)).trans ((Cert.KernelIdeal.Gen.V7_of m outs c Cert.KernelIdeal.main_call0_v0 (by decide)).trans ((Cert.KernelIdeal.Gen.V6_of m outs c Cert.KernelIdeal.main_call0_v0 (by decide)).trans ((Cert.KernelIdeal.Gen.V5_of m c Cert.KernelIdeal.main_call0_v0 (by decide)).trans ((Cert.KernelIdeal.Gen.V4_of m c Cert.KernelIdeal.main_call0_v0 (by decide)).trans (Cert.KernelIdeal.Gen.V3_of m c Cert.KernelIdeal.main_call0_v0 (by decide))))))))))))))))).symm.trans (same_main_call0_v0 m outs m' hag c)
  rw [E0] at hK
  exact hK.trans hR.symm

theorem same_main_v14 : Cert.KernelIdeal.Gen.V17 m outs c Cert.KernelIdeal.main_v14 = Rf m' c Cert.ReferenceIdeal.main_v14 := by
  have hK := (((Cert.KernelIdeal.Gen.V17_of m outs c Cert.KernelIdeal.main_v14 (by decide)).trans ((Cert.KernelIdeal.Gen.V16_of m outs c Cert.KernelIdeal.main_v14 (by decide)).trans ((Cert.KernelIdeal.Gen.V15_of m outs c Cert.KernelIdeal.main_v14 (by decide)).trans ((Cert.KernelIdeal.Gen.V14_of m outs c Cert.KernelIdeal.main_v14 (by decide)).trans ((Cert.KernelIdeal.Gen.V13_of m outs c Cert.KernelIdeal.main_v14 (by decide)).trans ((Cert.KernelIdeal.Gen.V12_of m outs c Cert.KernelIdeal.main_v14 (by decide)).trans ((Cert.KernelIdeal.Gen.V11_of m outs c Cert.KernelIdeal.main_v14 (by decide)).trans ((Cert.KernelIdeal.Gen.V10_of m outs c Cert.KernelIdeal.main_v14 (by decide)).trans ((Cert.KernelIdeal.Gen.V9_of m outs c Cert.KernelIdeal.main_v14 (by decide)).trans ((Cert.KernelIdeal.Gen.V8_of m outs c Cert.KernelIdeal.main_v14 (by decide)).trans ((Cert.KernelIdeal.Gen.V7_of m outs c Cert.KernelIdeal.main_v14 (by decide)).trans ((Cert.KernelIdeal.Gen.V6_of m outs c Cert.KernelIdeal.main_v14 (by decide)).trans ((Cert.KernelIdeal.Gen.V5_of m c Cert.KernelIdeal.main_v14 (by decide)).trans ((Cert.KernelIdeal.Gen.V4_of m c Cert.KernelIdeal.main_v14 (by decide)).trans (Cert.KernelIdeal.Gen.V3_of m c Cert.KernelIdeal.main_v14 (by decide))))))))))))))))).trans (after_ternary each_hostOps0_1 (Cert.KernelIdeal.Gen.V1 m c) 2 _ _ _ _ _ _ _ _ _ rfl (by decide) (by decide) (by decide) (by decide))
  have hR := after_ternary eachR (launchContents m' c) 20 _ _ _ _ _ _ _ _ _ rfl (by decide) (by decide) (by decide) (by decide)
  have E0 : after (Cert.KernelIdeal.Gen.hostOps0_1 (F := Ideal)) (Cert.KernelIdeal.Gen.V1 m c) (Proc.devRef .tc Cert.KernelIdeal.main_v13) = Rf m' c Cert.ReferenceIdeal.main_v13 :=
    (((Cert.KernelIdeal.Gen.V17_of m outs c Cert.KernelIdeal.main_v13 (by decide)).trans ((Cert.KernelIdeal.Gen.V16_of m outs c Cert.KernelIdeal.main_v13 (by decide)).trans ((Cert.KernelIdeal.Gen.V15_of m outs c Cert.KernelIdeal.main_v13 (by decide)).trans ((Cert.KernelIdeal.Gen.V14_of m outs c Cert.KernelIdeal.main_v13 (by decide)).trans ((Cert.KernelIdeal.Gen.V13_of m outs c Cert.KernelIdeal.main_v13 (by decide)).trans ((Cert.KernelIdeal.Gen.V12_of m outs c Cert.KernelIdeal.main_v13 (by decide)).trans ((Cert.KernelIdeal.Gen.V11_of m outs c Cert.KernelIdeal.main_v13 (by decide)).trans ((Cert.KernelIdeal.Gen.V10_of m outs c Cert.KernelIdeal.main_v13 (by decide)).trans ((Cert.KernelIdeal.Gen.V9_of m outs c Cert.KernelIdeal.main_v13 (by decide)).trans ((Cert.KernelIdeal.Gen.V8_of m outs c Cert.KernelIdeal.main_v13 (by decide)).trans ((Cert.KernelIdeal.Gen.V7_of m outs c Cert.KernelIdeal.main_v13 (by decide)).trans ((Cert.KernelIdeal.Gen.V6_of m outs c Cert.KernelIdeal.main_v13 (by decide)).trans ((Cert.KernelIdeal.Gen.V5_of m c Cert.KernelIdeal.main_v13 (by decide)).trans ((Cert.KernelIdeal.Gen.V4_of m c Cert.KernelIdeal.main_v13 (by decide)).trans (Cert.KernelIdeal.Gen.V3_of m c Cert.KernelIdeal.main_v13 (by decide))))))))))))))))).symm.trans (same_main_v13 m outs m' hag c)
  have E1 : after (Cert.KernelIdeal.Gen.hostOps0_1 (F := Ideal)) (Cert.KernelIdeal.Gen.V1 m c) (Proc.devRef .tc Cert.KernelIdeal.main_v11) = Rf m' c Cert.ReferenceIdeal.main_v11 :=
    (((Cert.KernelIdeal.Gen.V17_of m outs c Cert.KernelIdeal.main_v11 (by decide)).trans ((Cert.KernelIdeal.Gen.V16_of m outs c Cert.KernelIdeal.main_v11 (by decide)).trans ((Cert.KernelIdeal.Gen.V15_of m outs c Cert.KernelIdeal.main_v11 (by decide)).trans ((Cert.KernelIdeal.Gen.V14_of m outs c Cert.KernelIdeal.main_v11 (by decide)).trans ((Cert.KernelIdeal.Gen.V13_of m outs c Cert.KernelIdeal.main_v11 (by decide)).trans ((Cert.KernelIdeal.Gen.V12_of m outs c Cert.KernelIdeal.main_v11 (by decide)).trans ((Cert.KernelIdeal.Gen.V11_of m outs c Cert.KernelIdeal.main_v11 (by decide)).trans ((Cert.KernelIdeal.Gen.V10_of m outs c Cert.KernelIdeal.main_v11 (by decide)).trans ((Cert.KernelIdeal.Gen.V9_of m outs c Cert.KernelIdeal.main_v11 (by decide)).trans ((Cert.KernelIdeal.Gen.V8_of m outs c Cert.KernelIdeal.main_v11 (by decide)).trans ((Cert.KernelIdeal.Gen.V7_of m outs c Cert.KernelIdeal.main_v11 (by decide)).trans ((Cert.KernelIdeal.Gen.V6_of m outs c Cert.KernelIdeal.main_v11 (by decide)).trans ((Cert.KernelIdeal.Gen.V5_of m c Cert.KernelIdeal.main_v11 (by decide)).trans ((Cert.KernelIdeal.Gen.V4_of m c Cert.KernelIdeal.main_v11 (by decide)).trans (Cert.KernelIdeal.Gen.V3_of m c Cert.KernelIdeal.main_v11 (by decide))))))))))))))))).symm.trans (same_main_v11 m outs m' hag c)
  have E2 : after (Cert.KernelIdeal.Gen.hostOps0_1 (F := Ideal)) (Cert.KernelIdeal.Gen.V1 m c) (Proc.devRef .tc Cert.KernelIdeal.main_call0_v1) = Rf m' c Cert.ReferenceIdeal.main_call0_v1 :=
    (((Cert.KernelIdeal.Gen.V17_of m outs c Cert.KernelIdeal.main_call0_v1 (by decide)).trans ((Cert.KernelIdeal.Gen.V16_of m outs c Cert.KernelIdeal.main_call0_v1 (by decide)).trans ((Cert.KernelIdeal.Gen.V15_of m outs c Cert.KernelIdeal.main_call0_v1 (by decide)).trans ((Cert.KernelIdeal.Gen.V14_of m outs c Cert.KernelIdeal.main_call0_v1 (by decide)).trans ((Cert.KernelIdeal.Gen.V13_of m outs c Cert.KernelIdeal.main_call0_v1 (by decide)).trans ((Cert.KernelIdeal.Gen.V12_of m outs c Cert.KernelIdeal.main_call0_v1 (by decide)).trans ((Cert.KernelIdeal.Gen.V11_of m outs c Cert.KernelIdeal.main_call0_v1 (by decide)).trans ((Cert.KernelIdeal.Gen.V10_of m outs c Cert.KernelIdeal.main_call0_v1 (by decide)).trans ((Cert.KernelIdeal.Gen.V9_of m outs c Cert.KernelIdeal.main_call0_v1 (by decide)).trans ((Cert.KernelIdeal.Gen.V8_of m outs c Cert.KernelIdeal.main_call0_v1 (by decide)).trans ((Cert.KernelIdeal.Gen.V7_of m outs c Cert.KernelIdeal.main_call0_v1 (by decide)).trans ((Cert.KernelIdeal.Gen.V6_of m outs c Cert.KernelIdeal.main_call0_v1 (by decide)).trans ((Cert.KernelIdeal.Gen.V5_of m c Cert.KernelIdeal.main_call0_v1 (by decide)).trans ((Cert.KernelIdeal.Gen.V4_of m c Cert.KernelIdeal.main_call0_v1 (by decide)).trans (Cert.KernelIdeal.Gen.V3_of m c Cert.KernelIdeal.main_call0_v1 (by decide))))))))))))))))).symm.trans (same_main_call0_v1 m outs m' hag c)
  rw [E0, E1, E2] at hK
  exact hK.trans hR.symm

theorem same_main_cst_3 : Cert.KernelIdeal.Gen.V17 m outs c Cert.KernelIdeal.main_cst_3 = Rf m' c Cert.ReferenceIdeal.main_cst_3 := by
  have hK := (((Cert.KernelIdeal.Gen.V17_of m outs c Cert.KernelIdeal.main_cst_3 (by decide)).trans ((Cert.KernelIdeal.Gen.V16_of m outs c Cert.KernelIdeal.main_cst_3 (by decide)).trans ((Cert.KernelIdeal.Gen.V15_of m outs c Cert.KernelIdeal.main_cst_3 (by decide)).trans ((Cert.KernelIdeal.Gen.V14_of m outs c Cert.KernelIdeal.main_cst_3 (by decide)).trans ((Cert.KernelIdeal.Gen.V13_of m outs c Cert.KernelIdeal.main_cst_3 (by decide)).trans ((Cert.KernelIdeal.Gen.V12_of m outs c Cert.KernelIdeal.main_cst_3 (by decide)).trans ((Cert.KernelIdeal.Gen.V11_of m outs c Cert.KernelIdeal.main_cst_3 (by decide)).trans ((Cert.KernelIdeal.Gen.V10_of m outs c Cert.KernelIdeal.main_cst_3 (by decide)).trans ((Cert.KernelIdeal.Gen.V9_of m outs c Cert.KernelIdeal.main_cst_3 (by decide)).trans ((Cert.KernelIdeal.Gen.V8_of m outs c Cert.KernelIdeal.main_cst_3 (by decide)).trans ((Cert.KernelIdeal.Gen.V7_of m outs c Cert.KernelIdeal.main_cst_3 (by decide)).trans ((Cert.KernelIdeal.Gen.V6_of m outs c Cert.KernelIdeal.main_cst_3 (by decide)).trans ((Cert.KernelIdeal.Gen.V5_of m c Cert.KernelIdeal.main_cst_3 (by decide)).trans (Cert.KernelIdeal.Gen.V4_of m c Cert.KernelIdeal.main_cst_3 (by decide)))))))))))))))).trans (after_nullary each_hostOps0_2 (Cert.KernelIdeal.Gen.V2 m c) 0 _ _ _ rfl (by decide))
  have hR := after_nullary eachR (launchContents m' c) 21 _ _ _ rfl (by decide)

  exact hK.trans hR.symm

theorem same_main_v15 : Cert.KernelIdeal.Gen.V17 m outs c Cert.KernelIdeal.main_v15 = Rf m' c Cert.ReferenceIdeal.main_v15 := by
  have hK := (((Cert.KernelIdeal.Gen.V17_of m outs c Cert.KernelIdeal.main_v15 (by decide)).trans ((Cert.KernelIdeal.Gen.V16_of m outs c Cert.KernelIdeal.main_v15 (by decide)).trans ((Cert.KernelIdeal.Gen.V15_of m outs c Cert.KernelIdeal.main_v15 (by decide)).trans ((Cert.KernelIdeal.Gen.V14_of m outs c Cert.KernelIdeal.main_v15 (by decide)).trans ((Cert.KernelIdeal.Gen.V13_of m outs c Cert.KernelIdeal.main_v15 (by decide)).trans ((Cert.KernelIdeal.Gen.V12_of m outs c Cert.KernelIdeal.main_v15 (by decide)).trans ((Cert.KernelIdeal.Gen.V11_of m outs c Cert.KernelIdeal.main_v15 (by decide)).trans ((Cert.KernelIdeal.Gen.V10_of m outs c Cert.KernelIdeal.main_v15 (by decide)).trans ((Cert.KernelIdeal.Gen.V9_of m outs c Cert.KernelIdeal.main_v15 (by decide)).trans ((Cert.KernelIdeal.Gen.V8_of m outs c Cert.KernelIdeal.main_v15 (by decide)).trans ((Cert.KernelIdeal.Gen.V7_of m outs c Cert.KernelIdeal.main_v15 (by decide)).trans ((Cert.KernelIdeal.Gen.V6_of m outs c Cert.KernelIdeal.main_v15 (by decide)).trans ((Cert.KernelIdeal.Gen.V5_of m c Cert.KernelIdeal.main_v15 (by decide)).trans (Cert.KernelIdeal.Gen.V4_of m c Cert.KernelIdeal.main_v15 (by decide)))))))))))))))).trans (after_unary each_hostOps0_2 (Cert.KernelIdeal.Gen.V2 m c) 1 _ _ _ _ _ rfl (by decide) (by decide))
  have hR := after_unary eachR (launchContents m' c) 22 _ _ _ _ _ rfl (by decide) (by decide)
  have E0 : after (Cert.KernelIdeal.Gen.hostOps0_2 (F := Ideal)) (Cert.KernelIdeal.Gen.V2 m c) (Proc.devRef .tc Cert.KernelIdeal.main_cst_3) = Rf m' c Cert.ReferenceIdeal.main_cst_3 :=
    (((Cert.KernelIdeal.Gen.V17_of m outs c Cert.KernelIdeal.main_cst_3 (by decide)).trans ((Cert.KernelIdeal.Gen.V16_of m outs c Cert.KernelIdeal.main_cst_3 (by decide)).trans ((Cert.KernelIdeal.Gen.V15_of m outs c Cert.KernelIdeal.main_cst_3 (by decide)).trans ((Cert.KernelIdeal.Gen.V14_of m outs c Cert.KernelIdeal.main_cst_3 (by decide)).trans ((Cert.KernelIdeal.Gen.V13_of m outs c Cert.KernelIdeal.main_cst_3 (by decide)).trans ((Cert.KernelIdeal.Gen.V12_of m outs c Cert.KernelIdeal.main_cst_3 (by decide)).trans ((Cert.KernelIdeal.Gen.V11_of m outs c Cert.KernelIdeal.main_cst_3 (by decide)).trans ((Cert.KernelIdeal.Gen.V10_of m outs c Cert.KernelIdeal.main_cst_3 (by decide)).trans ((Cert.KernelIdeal.Gen.V9_of m outs c Cert.KernelIdeal.main_cst_3 (by decide)).trans ((Cert.KernelIdeal.Gen.V8_of m outs c Cert.KernelIdeal.main_cst_3 (by decide)).trans ((Cert.KernelIdeal.Gen.V7_of m outs c Cert.KernelIdeal.main_cst_3 (by decide)).trans ((Cert.KernelIdeal.Gen.V6_of m outs c Cert.KernelIdeal.main_cst_3 (by decide)).trans ((Cert.KernelIdeal.Gen.V5_of m c Cert.KernelIdeal.main_cst_3 (by decide)).trans (Cert.KernelIdeal.Gen.V4_of m c Cert.KernelIdeal.main_cst_3 (by decide)))))))))))))))).symm.trans (same_main_cst_3 m outs m' hag c)
  rw [E0] at hK
  exact hK.trans hR.symm

theorem same_main_v16 : Cert.KernelIdeal.Gen.V17 m outs c Cert.KernelIdeal.main_v16 = Rf m' c Cert.ReferenceIdeal.main_v16 := by
  have hK := (((Cert.KernelIdeal.Gen.V17_of m outs c Cert.KernelIdeal.main_v16 (by decide)).trans ((Cert.KernelIdeal.Gen.V16_of m outs c Cert.KernelIdeal.main_v16 (by decide)).trans ((Cert.KernelIdeal.Gen.V15_of m outs c Cert.KernelIdeal.main_v16 (by decide)).trans ((Cert.KernelIdeal.Gen.V14_of m outs c Cert.KernelIdeal.main_v16 (by decide)).trans ((Cert.KernelIdeal.Gen.V13_of m outs c Cert.KernelIdeal.main_v16 (by decide)).trans ((Cert.KernelIdeal.Gen.V12_of m outs c Cert.KernelIdeal.main_v16 (by decide)).trans ((Cert.KernelIdeal.Gen.V11_of m outs c Cert.KernelIdeal.main_v16 (by decide)).trans ((Cert.KernelIdeal.Gen.V10_of m outs c Cert.KernelIdeal.main_v16 (by decide)).trans ((Cert.KernelIdeal.Gen.V9_of m outs c Cert.KernelIdeal.main_v16 (by decide)).trans ((Cert.KernelIdeal.Gen.V8_of m outs c Cert.KernelIdeal.main_v16 (by decide)).trans ((Cert.KernelIdeal.Gen.V7_of m outs c Cert.KernelIdeal.main_v16 (by decide)).trans ((Cert.KernelIdeal.Gen.V6_of m outs c Cert.KernelIdeal.main_v16 (by decide)).trans ((Cert.KernelIdeal.Gen.V5_of m c Cert.KernelIdeal.main_v16 (by decide)).trans (Cert.KernelIdeal.Gen.V4_of m c Cert.KernelIdeal.main_v16 (by decide)))))))))))))))).trans (after_binary each_hostOps0_2 (Cert.KernelIdeal.Gen.V2 m c) 2 _ _ _ _ _ _ _ rfl (by decide) (by decide) (by decide))
  have hR := after_binary eachR (launchContents m' c) 23 _ _ _ _ _ _ _ rfl (by decide) (by decide) (by decide)
  have E0 : after (Cert.KernelIdeal.Gen.hostOps0_2 (F := Ideal)) (Cert.KernelIdeal.Gen.V2 m c) (Proc.devRef .tc Cert.KernelIdeal.main_v11) = Rf m' c Cert.ReferenceIdeal.main_v11 :=
    (((Cert.KernelIdeal.Gen.V17_of m outs c Cert.KernelIdeal.main_v11 (by decide)).trans ((Cert.KernelIdeal.Gen.V16_of m outs c Cert.KernelIdeal.main_v11 (by decide)).trans ((Cert.KernelIdeal.Gen.V15_of m outs c Cert.KernelIdeal.main_v11 (by decide)).trans ((Cert.KernelIdeal.Gen.V14_of m outs c Cert.KernelIdeal.main_v11 (by decide)).trans ((Cert.KernelIdeal.Gen.V13_of m outs c Cert.KernelIdeal.main_v11 (by decide)).trans ((Cert.KernelIdeal.Gen.V12_of m outs c Cert.KernelIdeal.main_v11 (by decide)).trans ((Cert.KernelIdeal.Gen.V11_of m outs c Cert.KernelIdeal.main_v11 (by decide)).trans ((Cert.KernelIdeal.Gen.V10_of m outs c Cert.KernelIdeal.main_v11 (by decide)).trans ((Cert.KernelIdeal.Gen.V9_of m outs c Cert.KernelIdeal.main_v11 (by decide)).trans ((Cert.KernelIdeal.Gen.V8_of m outs c Cert.KernelIdeal.main_v11 (by decide)).trans ((Cert.KernelIdeal.Gen.V7_of m outs c Cert.KernelIdeal.main_v11 (by decide)).trans ((Cert.KernelIdeal.Gen.V6_of m outs c Cert.KernelIdeal.main_v11 (by decide)).trans ((Cert.KernelIdeal.Gen.V5_of m c Cert.KernelIdeal.main_v11 (by decide)).trans (Cert.KernelIdeal.Gen.V4_of m c Cert.KernelIdeal.main_v11 (by decide)))))))))))))))).symm.trans (same_main_v11 m outs m' hag c)
  have E1 : after (Cert.KernelIdeal.Gen.hostOps0_2 (F := Ideal)) (Cert.KernelIdeal.Gen.V2 m c) (Proc.devRef .tc Cert.KernelIdeal.main_v15) = Rf m' c Cert.ReferenceIdeal.main_v15 :=
    (((Cert.KernelIdeal.Gen.V17_of m outs c Cert.KernelIdeal.main_v15 (by decide)).trans ((Cert.KernelIdeal.Gen.V16_of m outs c Cert.KernelIdeal.main_v15 (by decide)).trans ((Cert.KernelIdeal.Gen.V15_of m outs c Cert.KernelIdeal.main_v15 (by decide)).trans ((Cert.KernelIdeal.Gen.V14_of m outs c Cert.KernelIdeal.main_v15 (by decide)).trans ((Cert.KernelIdeal.Gen.V13_of m outs c Cert.KernelIdeal.main_v15 (by decide)).trans ((Cert.KernelIdeal.Gen.V12_of m outs c Cert.KernelIdeal.main_v15 (by decide)).trans ((Cert.KernelIdeal.Gen.V11_of m outs c Cert.KernelIdeal.main_v15 (by decide)).trans ((Cert.KernelIdeal.Gen.V10_of m outs c Cert.KernelIdeal.main_v15 (by decide)).trans ((Cert.KernelIdeal.Gen.V9_of m outs c Cert.KernelIdeal.main_v15 (by decide)).trans ((Cert.KernelIdeal.Gen.V8_of m outs c Cert.KernelIdeal.main_v15 (by decide)).trans ((Cert.KernelIdeal.Gen.V7_of m outs c Cert.KernelIdeal.main_v15 (by decide)).trans ((Cert.KernelIdeal.Gen.V6_of m outs c Cert.KernelIdeal.main_v15 (by decide)).trans ((Cert.KernelIdeal.Gen.V5_of m c Cert.KernelIdeal.main_v15 (by decide)).trans (Cert.KernelIdeal.Gen.V4_of m c Cert.KernelIdeal.main_v15 (by decide)))))))))))))))).symm.trans (same_main_v15 m outs m' hag c)
  rw [E0, E1] at hK
  exact hK.trans hR.symm

theorem same_main_v17 : Cert.KernelIdeal.Gen.V17 m outs c Cert.KernelIdeal.main_v17 = Rf m' c Cert.ReferenceIdeal.main_v17 := by
  have hK := (((Cert.KernelIdeal.Gen.V17_of m outs c Cert.KernelIdeal.main_v17 (by decide)).trans ((Cert.KernelIdeal.Gen.V16_of m outs c Cert.KernelIdeal.main_v17 (by decide)).trans ((Cert.KernelIdeal.Gen.V15_of m outs c Cert.KernelIdeal.main_v17 (by decide)).trans ((Cert.KernelIdeal.Gen.V14_of m outs c Cert.KernelIdeal.main_v17 (by decide)).trans ((Cert.KernelIdeal.Gen.V13_of m outs c Cert.KernelIdeal.main_v17 (by decide)).trans ((Cert.KernelIdeal.Gen.V12_of m outs c Cert.KernelIdeal.main_v17 (by decide)).trans ((Cert.KernelIdeal.Gen.V11_of m outs c Cert.KernelIdeal.main_v17 (by decide)).trans ((Cert.KernelIdeal.Gen.V10_of m outs c Cert.KernelIdeal.main_v17 (by decide)).trans ((Cert.KernelIdeal.Gen.V9_of m outs c Cert.KernelIdeal.main_v17 (by decide)).trans ((Cert.KernelIdeal.Gen.V8_of m outs c Cert.KernelIdeal.main_v17 (by decide)).trans ((Cert.KernelIdeal.Gen.V7_of m outs c Cert.KernelIdeal.main_v17 (by decide)).trans ((Cert.KernelIdeal.Gen.V6_of m outs c Cert.KernelIdeal.main_v17 (by decide)).trans ((Cert.KernelIdeal.Gen.V5_of m c Cert.KernelIdeal.main_v17 (by decide)).trans (Cert.KernelIdeal.Gen.V4_of m c Cert.KernelIdeal.main_v17 (by decide)))))))))))))))).trans (after_unary each_hostOps0_2 (Cert.KernelIdeal.Gen.V2 m c) 3 _ _ _ _ _ rfl (by decide) (by decide))
  have hR := after_unary eachR (launchContents m' c) 24 _ _ _ _ _ rfl (by decide) (by decide)
  have E0 : after (Cert.KernelIdeal.Gen.hostOps0_2 (F := Ideal)) (Cert.KernelIdeal.Gen.V2 m c) (Proc.devRef .tc Cert.KernelIdeal.main_v14) = Rf m' c Cert.ReferenceIdeal.main_v14 :=
    (((Cert.KernelIdeal.Gen.V17_of m outs c Cert.KernelIdeal.main_v14 (by decide)).trans ((Cert.KernelIdeal.Gen.V16_of m outs c Cert.KernelIdeal.main_v14 (by decide)).trans ((Cert.KernelIdeal.Gen.V15_of m outs c Cert.KernelIdeal.main_v14 (by decide)).trans ((Cert.KernelIdeal.Gen.V14_of m outs c Cert.KernelIdeal.main_v14 (by decide)).trans ((Cert.KernelIdeal.Gen.V13_of m outs c Cert.KernelIdeal.main_v14 (by decide)).trans ((Cert.KernelIdeal.Gen.V12_of m outs c Cert.KernelIdeal.main_v14 (by decide)).trans ((Cert.KernelIdeal.Gen.V11_of m outs c Cert.KernelIdeal.main_v14 (by decide)).trans ((Cert.KernelIdeal.Gen.V10_of m outs c Cert.KernelIdeal.main_v14 (by decide)).trans ((Cert.KernelIdeal.Gen.V9_of m outs c Cert.KernelIdeal.main_v14 (by decide)).trans ((Cert.KernelIdeal.Gen.V8_of m outs c Cert.KernelIdeal.main_v14 (by decide)).trans ((Cert.KernelIdeal.Gen.V7_of m outs c Cert.KernelIdeal.main_v14 (by decide)).trans ((Cert.KernelIdeal.Gen.V6_of m outs c Cert.KernelIdeal.main_v14 (by decide)).trans ((Cert.KernelIdeal.Gen.V5_of m c Cert.KernelIdeal.main_v14 (by decide)).trans (Cert.KernelIdeal.Gen.V4_of m c Cert.KernelIdeal.main_v14 (by decide)))))))))))))))).symm.trans (same_main_v14 m outs m' hag c)
  rw [E0] at hK
  exact hK.trans hR.symm

theorem same_main_cst_4 : Cert.KernelIdeal.Gen.V17 m outs c Cert.KernelIdeal.main_cst_4 = Rf m' c Cert.ReferenceIdeal.main_cst_4 := by
  have hK := (((Cert.KernelIdeal.Gen.V17_of m outs c Cert.KernelIdeal.main_cst_4 (by decide)).trans ((Cert.KernelIdeal.Gen.V16_of m outs c Cert.KernelIdeal.main_cst_4 (by decide)).trans ((Cert.KernelIdeal.Gen.V15_of m outs c Cert.KernelIdeal.main_cst_4 (by decide)).trans ((Cert.KernelIdeal.Gen.V14_of m outs c Cert.KernelIdeal.main_cst_4 (by decide)).trans ((Cert.KernelIdeal.Gen.V13_of m outs c Cert.KernelIdeal.main_cst_4 (by decide)).trans ((Cert.KernelIdeal.Gen.V12_of m outs c Cert.KernelIdeal.main_cst_4 (by decide)).trans ((Cert.KernelIdeal.Gen.V11_of m outs c Cert.KernelIdeal.main_cst_4 (by decide)).trans ((Cert.KernelIdeal.Gen.V10_of m outs c Cert.KernelIdeal.main_cst_4 (by decide)).trans ((Cert.KernelIdeal.Gen.V9_of m outs c Cert.KernelIdeal.main_cst_4 (by decide)).trans ((Cert.KernelIdeal.Gen.V8_of m outs c Cert.KernelIdeal.main_cst_4 (by decide)).trans ((Cert.KernelIdeal.Gen.V7_of m outs c Cert.KernelIdeal.main_cst_4 (by decide)).trans ((Cert.KernelIdeal.Gen.V6_of m outs c Cert.KernelIdeal.main_cst_4 (by decide)).trans ((Cert.KernelIdeal.Gen.V5_of m c Cert.KernelIdeal.main_cst_4 (by decide)).trans (Cert.KernelIdeal.Gen.V4_of m c Cert.KernelIdeal.main_cst_4 (by decide)))))))))))))))).trans (after_nullary each_hostOps0_2 (Cert.KernelIdeal.Gen.V2 m c) 4 _ _ _ rfl (by decide))
  have hR := after_nullary eachR (launchContents m' c) 25 _ _ _ rfl (by decide)

  exact hK.trans hR.symm

theorem same_main_call1_v0 : Cert.KernelIdeal.Gen.V17 m outs c Cert.KernelIdeal.main_call1_v0 = Rf m' c Cert.ReferenceIdeal.main_call1_v0 := by
  have hK := (((Cert.KernelIdeal.Gen.V17_of m outs c Cert.KernelIdeal.main_call1_v0 (by decide)).trans ((Cert.KernelIdeal.Gen.V16_of m outs c Cert.KernelIdeal.main_call1_v0 (by decide)).trans ((Cert.KernelIdeal.Gen.V15_of m outs c Cert.KernelIdeal.main_call1_v0 (by decide)).trans ((Cert.KernelIdeal.Gen.V14_of m outs c Cert.KernelIdeal.main_call1_v0 (by decide)).trans ((Cert.KernelIdeal.Gen.V13_of m outs c Cert.KernelIdeal.main_call1_v0 (by decide)).trans ((Cert.KernelIdeal.Gen.V12_of m outs c Cert.KernelIdeal.main_call1_v0 (by decide)).trans ((Cert.KernelIdeal.Gen.V11_of m outs c Cert.KernelIdeal.main_call1_v0 (by decide)).trans ((Cert.KernelIdeal.Gen.V10_of m outs c Cert.KernelIdeal.main_call1_v0 (by decide)).trans ((Cert.KernelIdeal.Gen.V9_of m outs c Cert.KernelIdeal.main_call1_v0 (by decide)).trans ((Cert.KernelIdeal.Gen.V8_of m outs c Cert.KernelIdeal.main_call1_v0 (by decide)).trans ((Cert.KernelIdeal.Gen.V7_of m outs c Cert.KernelIdeal.main_call1_v0 (by decide)).trans ((Cert.KernelIdeal.Gen.V6_of m outs c Cert.KernelIdeal.main_call1_v0 (by decide)).trans (Cert.KernelIdeal.Gen.V5_of m c Cert.KernelIdeal.main_call1_v0 (by decide))))))))))))))).trans (after_unary each_hostOps0_3 (Cert.KernelIdeal.Gen.V3 m c) 0 _ _ _ _ _ rfl (by decide) (by decide))
  have hR := after_unary eachR (launchContents m' c) 26 _ _ _ _ _ rfl (by decide) (by decide)
  have E0 : after (Cert.KernelIdeal.Gen.hostOps0_3 (F := Ideal)) (Cert.KernelIdeal.Gen.V3 m c) (Proc.devRef .tc Cert.KernelIdeal.main_cst_4) = Rf m' c Cert.ReferenceIdeal.main_cst_4 :=
    (((Cert.KernelIdeal.Gen.V17_of m outs c Cert.KernelIdeal.main_cst_4 (by decide)).trans ((Cert.KernelIdeal.Gen.V16_of m outs c Cert.KernelIdeal.main_cst_4 (by decide)).trans ((Cert.KernelIdeal.Gen.V15_of m outs c Cert.KernelIdeal.main_cst_4 (by decide)).trans ((Cert.KernelIdeal.Gen.V14_of m outs c Cert.KernelIdeal.main_cst_4 (by decide)).trans ((Cert.KernelIdeal.Gen.V13_of m outs c Cert.KernelIdeal.main_cst_4 (by decide)).trans ((Cert.KernelIdeal.Gen.V12_of m outs c Cert.KernelIdeal.main_cst_4 (by decide)).trans ((Cert.KernelIdeal.Gen.V11_of m outs c Cert.KernelIdeal.main_cst_4 (by decide)).trans ((Cert.KernelIdeal.Gen.V10_of m outs c Cert.KernelIdeal.main_cst_4 (by decide)).trans ((Cert.KernelIdeal.Gen.V9_of m outs c Cert.KernelIdeal.main_cst_4 (by decide)).trans ((Cert.KernelIdeal.Gen.V8_of m outs c Cert.KernelIdeal.main_cst_4 (by decide)).trans ((Cert.KernelIdeal.Gen.V7_of m outs c Cert.KernelIdeal.main_cst_4 (by decide)).trans ((Cert.KernelIdeal.Gen.V6_of m outs c Cert.KernelIdeal.main_cst_4 (by decide)).trans (Cert.KernelIdeal.Gen.V5_of m c Cert.KernelIdeal.main_cst_4 (by decide))))))))))))))).symm.trans (same_main_cst_4 m outs m' hag c)
  rw [E0] at hK
  exact hK.trans hR.symm

theorem same_main_call1_v1 : Cert.KernelIdeal.Gen.V17 m outs c Cert.KernelIdeal.main_call1_v1 = Rf m' c Cert.ReferenceIdeal.main_call1_v1 := by
  have hK := (((Cert.KernelIdeal.Gen.V17_of m outs c Cert.KernelIdeal.main_call1_v1 (by decide)).trans ((Cert.KernelIdeal.Gen.V16_of m outs c Cert.KernelIdeal.main_call1_v1 (by decide)).trans ((Cert.KernelIdeal.Gen.V15_of m outs c Cert.KernelIdeal.main_call1_v1 (by decide)).trans ((Cert.KernelIdeal.Gen.V14_of m outs c Cert.KernelIdeal.main_call1_v1 (by decide)).trans ((Cert.KernelIdeal.Gen.V13_of m outs c Cert.KernelIdeal.main_call1_v1 (by decide)).trans ((Cert.KernelIdeal.Gen.V12_of m outs c Cert.KernelIdeal.main_call1_v1 (by decide)).trans ((Cert.KernelIdeal.Gen.V11_of m outs c Cert.KernelIdeal.main_call1_v1 (by decide)).trans ((Cert.KernelIdeal.Gen.V10_of m outs c Cert.KernelIdeal.main_call1_v1 (by decide)).trans ((Cert.KernelIdeal.Gen.V9_of m outs c Cert.KernelIdeal.main_call1_v1 (by decide)).trans ((Cert.KernelIdeal.Gen.V8_of m outs c Cert.KernelIdeal.main_call1_v1 (by decide)).trans ((Cert.KernelIdeal.Gen.V7_of m outs c Cert.KernelIdeal.main_call1_v1 (by decide)).trans ((Cert.KernelIdeal.Gen.V6_of m outs c Cert.KernelIdeal.main_call1_v1 (by decide)).trans (Cert.KernelIdeal.Gen.V5_of m c Cert.KernelIdeal.main_call1_v1 (by decide))))))))))))))).trans (after_unary each_hostOps0_3 (Cert.KernelIdeal.Gen.V3 m c) 1 _ _ _ _ _ rfl (by decide) (by decide))
  have hR := after_unary eachR (launchContents m' c) 27 _ _ _ _ _ rfl (by decide) (by decide)
  have E0 : after (Cert.KernelIdeal.Gen.hostOps0_3 (F := Ideal)) (Cert.KernelIdeal.Gen.V3 m c) (Proc.devRef .tc Cert.KernelIdeal.main_call1_v0) = Rf m' c Cert.ReferenceIdeal.main_call1_v0 :=
    (((Cert.KernelIdeal.Gen.V17_of m outs c Cert.KernelIdeal.main_call1_v0 (by decide)).trans ((Cert.KernelIdeal.Gen.V16_of m outs c Cert.KernelIdeal.main_call1_v0 (by decide)).trans ((Cert.KernelIdeal.Gen.V15_of m outs c Cert.KernelIdeal.main_call1_v0 (by decide)).trans ((Cert.KernelIdeal.Gen.V14_of m outs c Cert.KernelIdeal.main_call1_v0 (by decide)).trans ((Cert.KernelIdeal.Gen.V13_of m outs c Cert.KernelIdeal.main_call1_v0 (by decide)).trans ((Cert.KernelIdeal.Gen.V12_of m outs c Cert.KernelIdeal.main_call1_v0 (by decide)).trans ((Cert.KernelIdeal.Gen.V11_of m outs c Cert.KernelIdeal.main_call1_v0 (by decide)).trans ((Cert.KernelIdeal.Gen.V10_of m outs c Cert.KernelIdeal.main_call1_v0 (by decide)).trans ((Cert.KernelIdeal.Gen.V9_of m outs c Cert.KernelIdeal.main_call1_v0 (by decide)).trans ((Cert.KernelIdeal.Gen.V8_of m outs c Cert.KernelIdeal.main_call1_v0 (by decide)).trans ((Cert.KernelIdeal.Gen.V7_of m outs c Cert.KernelIdeal.main_call1_v0 (by decide)).trans ((Cert.KernelIdeal.Gen.V6_of m outs c Cert.KernelIdeal.main_call1_v0 (by decide)).trans (Cert.KernelIdeal.Gen.V5_of m c Cert.KernelIdeal.main_call1_v0 (by decide))))))))))))))).symm.trans (same_main_call1_v0 m outs m' hag c)
  rw [E0] at hK
  exact hK.trans hR.symm

theorem same_main_v18 : Cert.KernelIdeal.Gen.V17 m outs c Cert.KernelIdeal.main_v18 = Rf m' c Cert.ReferenceIdeal.main_v18 := by
  have hK := (((Cert.KernelIdeal.Gen.V17_of m outs c Cert.KernelIdeal.main_v18 (by decide)).trans ((Cert.KernelIdeal.Gen.V16_of m outs c Cert.KernelIdeal.main_v18 (by decide)).trans ((Cert.KernelIdeal.Gen.V15_of m outs c Cert.KernelIdeal.main_v18 (by decide)).trans ((Cert.KernelIdeal.Gen.V14_of m outs c Cert.KernelIdeal.main_v18 (by decide)).trans ((Cert.KernelIdeal.Gen.V13_of m outs c Cert.KernelIdeal.main_v18 (by decide)).trans ((Cert.KernelIdeal.Gen.V12_of m outs c Cert.KernelIdeal.main_v18 (by decide)).trans ((Cert.KernelIdeal.Gen.V11_of m outs c Cert.KernelIdeal.main_v18 (by decide)).trans ((Cert.KernelIdeal.Gen.V10_of m outs c Cert.KernelIdeal.main_v18 (by decide)).trans ((Cert.KernelIdeal.Gen.V9_of m outs c Cert.KernelIdeal.main_v18 (by decide)).trans ((Cert.KernelIdeal.Gen.V8_of m outs c Cert.KernelIdeal.main_v18 (by decide)).trans ((Cert.KernelIdeal.Gen.V7_of m outs c Cert.KernelIdeal.main_v18 (by decide)).trans ((Cert.KernelIdeal.Gen.V6_of m outs c Cert.KernelIdeal.main_v18 (by decide)).trans (Cert.KernelIdeal.Gen.V5_of m c Cert.KernelIdeal.main_v18 (by decide))))))))))))))).trans (after_ternary each_hostOps0_3 (Cert.KernelIdeal.Gen.V3 m c) 2 _ _ _ _ _ _ _ _ _ rfl (by decide) (by decide) (by decide) (by decide))
  have hR := after_ternary eachR (launchContents m' c) 28 _ _ _ _ _ _ _ _ _ rfl (by decide) (by decide) (by decide) (by decide)
  have E0 : after (Cert.KernelIdeal.Gen.hostOps0_3 (F := Ideal)) (Cert.KernelIdeal.Gen.V3 m c) (Proc.devRef .tc Cert.KernelIdeal.main_v16) = Rf m' c Cert.ReferenceIdeal.main_v16 :=
    (((Cert.KernelIdeal.Gen.V17_of m outs c Cert.KernelIdeal.main_v16 (by decide)).trans ((Cert.KernelIdeal.Gen.V16_of m outs c Cert.KernelIdeal.main_v16 (by decide)).trans ((Cert.KernelIdeal.Gen.V15_of m outs c Cert.KernelIdeal.main_v16 (by decide)).trans ((Cert.KernelIdeal.Gen.V14_of m outs c Cert.KernelIdeal.main_v16 (by decide)).trans ((Cert.KernelIdeal.Gen.V13_of m outs c Cert.KernelIdeal.main_v16 (by decide)).trans ((Cert.KernelIdeal.Gen.V12_of m outs c Cert.KernelIdeal.main_v16 (by decide)).trans ((Cert.KernelIdeal.Gen.V11_of m outs c Cert.KernelIdeal.main_v16 (by decide)).trans ((Cert.KernelIdeal.Gen.V10_of m outs c Cert.KernelIdeal.main_v16 (by decide)).trans ((Cert.KernelIdeal.Gen.V9_of m outs c Cert.KernelIdeal.main_v16 (by decide)).trans ((Cert.KernelIdeal.Gen.V8_of m outs c Cert.KernelIdeal.main_v16 (by decide)).trans ((Cert.KernelIdeal.Gen.V7_of m outs c Cert.KernelIdeal.main_v16 (by decide)).trans ((Cert.KernelIdeal.Gen.V6_of m outs c Cert.KernelIdeal.main_v16 (by decide)).trans (Cert.KernelIdeal.Gen.V5_of m c Cert.KernelIdeal.main_v16 (by decide))))))))))))))).symm.trans (same_main_v16 m outs m' hag c)
  have E1 : after (Cert.KernelIdeal.Gen.hostOps0_3 (F := Ideal)) (Cert.KernelIdeal.Gen.V3 m c) (Proc.devRef .tc Cert.KernelIdeal.main_v17) = Rf m' c Cert.ReferenceIdeal.main_v17 :=
    (((Cert.KernelIdeal.Gen.V17_of m outs c Cert.KernelIdeal.main_v17 (by decide)).trans ((Cert.KernelIdeal.Gen.V16_of m outs c Cert.KernelIdeal.main_v17 (by decide)).trans ((Cert.KernelIdeal.Gen.V15_of m outs c Cert.KernelIdeal.main_v17 (by decide)).trans ((Cert.KernelIdeal.Gen.V14_of m outs c Cert.KernelIdeal.main_v17 (by decide)).trans ((Cert.KernelIdeal.Gen.V13_of m outs c Cert.KernelIdeal.main_v17 (by decide)).trans ((Cert.KernelIdeal.Gen.V12_of m outs c Cert.KernelIdeal.main_v17 (by decide)).trans ((Cert.KernelIdeal.Gen.V11_of m outs c Cert.KernelIdeal.main_v17 (by decide)).trans ((Cert.KernelIdeal.Gen.V10_of m outs c Cert.KernelIdeal.main_v17 (by decide)).trans ((Cert.KernelIdeal.Gen.V9_of m outs c Cert.KernelIdeal.main_v17 (by decide)).trans ((Cert.KernelIdeal.Gen.V8_of m outs c Cert.KernelIdeal.main_v17 (by decide)).trans ((Cert.KernelIdeal.Gen.V7_of m outs c Cert.KernelIdeal.main_v17 (by decide)).trans ((Cert.KernelIdeal.Gen.V6_of m outs c Cert.KernelIdeal.main_v17 (by decide)).trans (Cert.KernelIdeal.Gen.V5_of m c Cert.KernelIdeal.main_v17 (by decide))))))))))))))).symm.trans (same_main_v17 m outs m' hag c)
  have E2 : after (Cert.KernelIdeal.Gen.hostOps0_3 (F := Ideal)) (Cert.KernelIdeal.Gen.V3 m c) (Proc.devRef .tc Cert.KernelIdeal.main_call1_v1) = Rf m' c Cert.ReferenceIdeal.main_call1_v1 :=
    (((Cert.KernelIdeal.Gen.V17_of m outs c Cert.KernelIdeal.main_call1_v1 (by decide)).trans ((Cert.KernelIdeal.Gen.V16_of m outs c Cert.KernelIdeal.main_call1_v1 (by decide)).trans ((Cert.KernelIdeal.Gen.V15_of m outs c Cert.KernelIdeal.main_call1_v1 (by decide)).trans ((Cert.KernelIdeal.Gen.V14_of m outs c Cert.KernelIdeal.main_call1_v1 (by decide)).trans ((Cert.KernelIdeal.Gen.V13_of m outs c Cert.KernelIdeal.main_call1_v1 (by decide)).trans ((Cert.KernelIdeal.Gen.V12_of m outs c Cert.KernelIdeal.main_call1_v1 (by decide)).trans ((Cert.KernelIdeal.Gen.V11_of m outs c Cert.KernelIdeal.main_call1_v1 (by decide)).trans ((Cert.KernelIdeal.Gen.V10_of m outs c Cert.KernelIdeal.main_call1_v1 (by decide)).trans ((Cert.KernelIdeal.Gen.V9_of m outs c Cert.KernelIdeal.main_call1_v1 (by decide)).trans ((Cert.KernelIdeal.Gen.V8_of m outs c Cert.KernelIdeal.main_call1_v1 (by decide)).trans ((Cert.KernelIdeal.Gen.V7_of m outs c Cert.KernelIdeal.main_call1_v1 (by decide)).trans ((Cert.KernelIdeal.Gen.V6_of m outs c Cert.KernelIdeal.main_call1_v1 (by decide)).trans (Cert.KernelIdeal.Gen.V5_of m c Cert.KernelIdeal.main_call1_v1 (by decide))))))))))))))).symm.trans (same_main_call1_v1 m outs m' hag c)
  rw [E0, E1, E2] at hK
  exact hK.trans hR.symm

theorem same_main_c : Cert.KernelIdeal.Gen.V17 m outs c Cert.KernelIdeal.main_c = Rf m' c Cert.ReferenceIdeal.main_c := by
  have hK := (((Cert.KernelIdeal.Gen.V17_of m outs c Cert.KernelIdeal.main_c (by decide)).trans ((Cert.KernelIdeal.Gen.V16_of m outs c Cert.KernelIdeal.main_c (by decide)).trans ((Cert.KernelIdeal.Gen.V15_of m outs c Cert.KernelIdeal.main_c (by decide)).trans ((Cert.KernelIdeal.Gen.V14_of m outs c Cert.KernelIdeal.main_c (by decide)).trans ((Cert.KernelIdeal.Gen.V13_of m outs c Cert.KernelIdeal.main_c (by decide)).trans ((Cert.KernelIdeal.Gen.V12_of m outs c Cert.KernelIdeal.main_c (by decide)).trans ((Cert.KernelIdeal.Gen.V11_of m outs c Cert.KernelIdeal.main_c (by decide)).trans ((Cert.KernelIdeal.Gen.V10_of m outs c Cert.KernelIdeal.main_c (by decide)).trans ((Cert.KernelIdeal.Gen.V9_of m outs c Cert.KernelIdeal.main_c (by decide)).trans ((Cert.KernelIdeal.Gen.V8_of m outs c Cert.KernelIdeal.main_c (by decide)).trans ((Cert.KernelIdeal.Gen.V7_of m outs c Cert.KernelIdeal.main_c (by decide)).trans (Cert.KernelIdeal.Gen.V6_of m outs c Cert.KernelIdeal.main_c (by decide)))))))))))))).trans (after_nullary each_hostOps0_4 (Cert.KernelIdeal.Gen.V4 m c) 0 _ _ _ rfl (by decide))
  have hR := after_nullary eachR (launchContents m' c) 29 _ _ _ rfl (by decide)

  exact hK.trans hR.symm

theorem same_main_v19 : Cert.KernelIdeal.Gen.V17 m outs c Cert.KernelIdeal.main_v19 = Rf m' c Cert.ReferenceIdeal.main_v19 := by
  have hK := (((Cert.KernelIdeal.Gen.V17_of m outs c Cert.KernelIdeal.main_v19 (by decide)).trans ((Cert.KernelIdeal.Gen.V16_of m outs c Cert.KernelIdeal.main_v19 (by decide)).trans ((Cert.KernelIdeal.Gen.V15_of m outs c Cert.KernelIdeal.main_v19 (by decide)).trans ((Cert.KernelIdeal.Gen.V14_of m outs c Cert.KernelIdeal.main_v19 (by decide)).trans ((Cert.KernelIdeal.Gen.V13_of m outs c Cert.KernelIdeal.main_v19 (by decide)).trans ((Cert.KernelIdeal.Gen.V12_of m outs c Cert.KernelIdeal.main_v19 (by decide)).trans ((Cert.KernelIdeal.Gen.V11_of m outs c Cert.KernelIdeal.main_v19 (by decide)).trans ((Cert.KernelIdeal.Gen.V10_of m outs c Cert.KernelIdeal.main_v19 (by decide)).trans ((Cert.KernelIdeal.Gen.V9_of m outs c Cert.KernelIdeal.main_v19 (by decide)).trans ((Cert.KernelIdeal.Gen.V8_of m outs c Cert.KernelIdeal.main_v19 (by decide)).trans ((Cert.KernelIdeal.Gen.V7_of m outs c Cert.KernelIdeal.main_v19 (by decide)).trans (Cert.KernelIdeal.Gen.V6_of m outs c Cert.KernelIdeal.main_v19 (by decide)))))))))))))).trans (after_unary each_hostOps0_4 (Cert.KernelIdeal.Gen.V4 m c) 1 _ _ _ _ _ rfl (by decide) (by decide))
  have hR := after_unary eachR (launchContents m' c) 30 _ _ _ _ _ rfl (by decide) (by decide)
  have E0 : after (Cert.KernelIdeal.Gen.hostOps0_4 (F := Ideal)) (Cert.KernelIdeal.Gen.V4 m c) (Proc.devRef .tc Cert.KernelIdeal.main_c) = Rf m' c Cert.ReferenceIdeal.main_c :=
    (((Cert.KernelIdeal.Gen.V17_of m outs c Cert.KernelIdeal.main_c (by decide)).trans ((Cert.KernelIdeal.Gen.V16_of m outs c Cert.KernelIdeal.main_c (by decide)).trans ((Cert.KernelIdeal.Gen.V15_of m outs c Cert.KernelIdeal.main_c (by decide)).trans ((Cert.KernelIdeal.Gen.V14_of m outs c Cert.KernelIdeal.main_c (by decide)).trans ((Cert.KernelIdeal.Gen.V13_of m outs c Cert.KernelIdeal.main_c (by decide)).trans ((Cert.KernelIdeal.Gen.V12_of m outs c Cert.KernelIdeal.main_c (by decide)).trans ((Cert.KernelIdeal.Gen.V11_of m outs c Cert.KernelIdeal.main_c (by decide)).trans ((Cert.KernelIdeal.Gen.V10_of m outs c Cert.KernelIdeal.main_c (by decide)).trans ((Cert.KernelIdeal.Gen.V9_of m outs c Cert.KernelIdeal.main_c (by decide)).trans ((Cert.KernelIdeal.Gen.V8_of m outs c Cert.KernelIdeal.main_c (by decide)).trans ((Cert.KernelIdeal.Gen.V7_of m outs c Cert.KernelIdeal.main_c (by decide)).trans (Cert.KernelIdeal.Gen.V6_of m outs c Cert.KernelIdeal.main_c (by decide)))))))))))))).symm.trans (same_main_c m outs m' hag c)
  rw [E0] at hK
  exact hK.trans hR.symm

theorem same_main_v20 : Cert.KernelIdeal.Gen.V17 m outs c Cert.KernelIdeal.main_v20 = Rf m' c Cert.ReferenceIdeal.main_v20 := by
  have hK := (((Cert.KernelIdeal.Gen.V17_of m outs c Cert.KernelIdeal.main_v20 (by decide)).trans ((Cert.KernelIdeal.Gen.V16_of m outs c Cert.KernelIdeal.main_v20 (by decide)).trans ((Cert.KernelIdeal.Gen.V15_of m outs c Cert.KernelIdeal.main_v20 (by decide)).trans ((Cert.KernelIdeal.Gen.V14_of m outs c Cert.KernelIdeal.main_v20 (by decide)).trans ((Cert.KernelIdeal.Gen.V13_of m outs c Cert.KernelIdeal.main_v20 (by decide)).trans ((Cert.KernelIdeal.Gen.V12_of m outs c Cert.KernelIdeal.main_v20 (by decide)).trans ((Cert.KernelIdeal.Gen.V11_of m outs c Cert.KernelIdeal.main_v20 (by decide)).trans ((Cert.KernelIdeal.Gen.V10_of m outs c Cert.KernelIdeal.main_v20 (by decide)).trans ((Cert.KernelIdeal.Gen.V9_of m outs c Cert.KernelIdeal.main_v20 (by decide)).trans ((Cert.KernelIdeal.Gen.V8_of m outs c Cert.KernelIdeal.main_v20 (by decide)).trans ((Cert.KernelIdeal.Gen.V7_of m outs c Cert.KernelIdeal.main_v20 (by decide)).trans (Cert.KernelIdeal.Gen.V6_of m outs c Cert.KernelIdeal.main_v20 (by decide)))))))))))))).trans (after_binary each_hostOps0_4 (Cert.KernelIdeal.Gen.V4 m c) 2 _ _ _ _ _ _ _ rfl (by decide) (by decide) (by decide))
  have hR := after_binary eachR (launchContents m' c) 31 _ _ _ _ _ _ _ rfl (by decide) (by decide) (by decide)
  have E0 : after (Cert.KernelIdeal.Gen.hostOps0_4 (F := Ideal)) (Cert.KernelIdeal.Gen.V4 m c) (Proc.devRef .tc Cert.KernelIdeal.main_v5) = Rf m' c Cert.ReferenceIdeal.main_v5 :=
    (((Cert.KernelIdeal.Gen.V17_of m outs c Cert.KernelIdeal.main_v5 (by decide)).trans ((Cert.KernelIdeal.Gen.V16_of m outs c Cert.KernelIdeal.main_v5 (by decide)).trans ((Cert.KernelIdeal.Gen.V15_of m outs c Cert.KernelIdeal.main_v5 (by decide)).trans ((Cert.KernelIdeal.Gen.V14_of m outs c Cert.KernelIdeal.main_v5 (by decide)).trans ((Cert.KernelIdeal.Gen.V13_of m outs c Cert.KernelIdeal.main_v5 (by decide)).trans ((Cert.KernelIdeal.Gen.V12_of m outs c Cert.KernelIdeal.main_v5 (by decide)).trans ((Cert.KernelIdeal.Gen.V11_of m outs c Cert.KernelIdeal.main_v5 (by decide)).trans ((Cert.KernelIdeal.Gen.V10_of m outs c Cert.KernelIdeal.main_v5 (by decide)).trans ((Cert.KernelIdeal.Gen.V9_of m outs c Cert.KernelIdeal.main_v5 (by decide)).trans ((Cert.KernelIdeal.Gen.V8_of m outs c Cert.KernelIdeal.main_v5 (by decide)).trans ((Cert.KernelIdeal.Gen.V7_of m outs c Cert.KernelIdeal.main_v5 (by decide)).trans (Cert.KernelIdeal.Gen.V6_of m outs c Cert.KernelIdeal.main_v5 (by decide)))))))))))))).symm.trans (same_main_v5 m outs m' hag c)
  have E1 : after (Cert.KernelIdeal.Gen.hostOps0_4 (F := Ideal)) (Cert.KernelIdeal.Gen.V4 m c) (Proc.devRef .tc Cert.KernelIdeal.main_v19) = Rf m' c Cert.ReferenceIdeal.main_v19 :=
    (((Cert.KernelIdeal.Gen.V17_of m outs c Cert.KernelIdeal.main_v19 (by decide)).trans ((Cert.KernelIdeal.Gen.V16_of m outs c Cert.KernelIdeal.main_v19 (by decide)).trans ((Cert.KernelIdeal.Gen.V15_of m outs c Cert.KernelIdeal.main_v19 (by decide)).trans ((Cert.KernelIdeal.Gen.V14_of m outs c Cert.KernelIdeal.main_v19 (by decide)).trans ((Cert.KernelIdeal.Gen.V13_of m outs c Cert.KernelIdeal.main_v19 (by decide)).trans ((Cert.KernelIdeal.Gen.V12_of m outs c Cert.KernelIdeal.main_v19 (by decide)).trans ((Cert.KernelIdeal.Gen.V11_of m outs c Cert.KernelIdeal.main_v19 (by decide)).trans ((Cert.KernelIdeal.Gen.V10_of m outs c Cert.KernelIdeal.main_v19 (by decide)).trans ((Cert.KernelIdeal.Gen.V9_of m outs c Cert.KernelIdeal.main_v19 (by decide)).trans ((Cert.KernelIdeal.Gen.V8_of m outs c Cert.KernelIdeal.main_v19 (by decide)).trans ((Cert.KernelIdeal.Gen.V7_of m outs c Cert.KernelIdeal.main_v19 (by decide)).trans (Cert.KernelIdeal.Gen.V6_of m outs c Cert.KernelIdeal.main_v19 (by decide)))))))))))))).symm.trans (same_main_v19 m outs m' hag c)
  rw [E0, E1] at hK
  exact hK.trans hR.symm

theorem same_main_c_5 : Cert.KernelIdeal.Gen.V17 m outs c Cert.KernelIdeal.main_c_5 = Rf m' c Cert.ReferenceIdeal.main_c_5 := by
  have hK := (((Cert.KernelIdeal.Gen.V17_of m outs c Cert.KernelIdeal.main_c_5 (by decide)).trans ((Cert.KernelIdeal.Gen.V16_of m outs c Cert.KernelIdeal.main_c_5 (by decide)).trans ((Cert.KernelIdeal.Gen.V15_of m outs c Cert.KernelIdeal.main_c_5 (by decide)).trans ((Cert.KernelIdeal.Gen.V14_of m outs c Cert.KernelIdeal.main_c_5 (by decide)).trans ((Cert.KernelIdeal.Gen.V13_of m outs c Cert.KernelIdeal.main_c_5 (by decide)).trans ((Cert.KernelIdeal.Gen.V12_of m outs c Cert.KernelIdeal.main_c_5 (by decide)).trans ((Cert.KernelIdeal.Gen.V11_of m outs c Cert.KernelIdeal.main_c_5 (by decide)).trans ((Cert.KernelIdeal.Gen.V10_of m outs c Cert.KernelIdeal.main_c_5 (by decide)).trans ((Cert.KernelIdeal.Gen.V9_of m outs c Cert.KernelIdeal.main_c_5 (by decide)).trans ((Cert.KernelIdeal.Gen.V8_of m outs c Cert.KernelIdeal.main_c_5 (by decide)).trans ((Cert.KernelIdeal.Gen.V7_of m outs c Cert.KernelIdeal.main_c_5 (by decide)).trans (Cert.KernelIdeal.Gen.V6_of m outs c Cert.KernelIdeal.main_c_5 (by decide)))))))))))))).trans (after_nullary each_hostOps0_4 (Cert.KernelIdeal.Gen.V4 m c) 3 _ _ _ rfl (by decide))
  have hR := after_nullary eachR (launchContents m' c) 32 _ _ _ rfl (by decide)

  exact hK.trans hR.symm

theorem same_main_v21 : Cert.KernelIdeal.Gen.V17 m outs c Cert.KernelIdeal.main_v21 = Rf m' c Cert.ReferenceIdeal.main_v21 := by
  have hK := (((Cert.KernelIdeal.Gen.V17_of m outs c Cert.KernelIdeal.main_v21 (by decide)).trans ((Cert.KernelIdeal.Gen.V16_of m outs c Cert.KernelIdeal.main_v21 (by decide)).trans ((Cert.KernelIdeal.Gen.V15_of m outs c Cert.KernelIdeal.main_v21 (by decide)).trans ((Cert.KernelIdeal.Gen.V14_of m outs c Cert.KernelIdeal.main_v21 (by decide)).trans ((Cert.KernelIdeal.Gen.V13_of m outs c Cert.KernelIdeal.main_v21 (by decide)).trans ((Cert.KernelIdeal.Gen.V12_of m outs c Cert.KernelIdeal.main_v21 (by decide)).trans ((Cert.KernelIdeal.Gen.V11_of m outs c Cert.KernelIdeal.main_v21 (by decide)).trans ((Cert.KernelIdeal.Gen.V10_of m outs c Cert.KernelIdeal.main_v21 (by decide)).trans ((Cert.KernelIdeal.Gen.V9_of m outs c Cert.KernelIdeal.main_v21 (by decide)).trans ((Cert.KernelIdeal.Gen.V8_of m outs c Cert.KernelIdeal.main_v21 (by decide)).trans ((Cert.KernelIdeal.Gen.V7_of m outs c Cert.KernelIdeal.main_v21 (by decide)).trans (Cert.KernelIdeal.Gen.V6_of m outs c Cert.KernelIdeal.main_v21 (by decide)))))))))))))).trans (after_unary each_hostOps0_4 (Cert.KernelIdeal.Gen.V4 m c) 4 _ _ _ _ _ rfl (by decide) (by decide))
  have hR := after_unary eachR (launchContents m' c) 33 _ _ _ _ _ rfl (by decide) (by decide)
  have E0 : after (Cert.KernelIdeal.Gen.hostOps0_4 (F := Ideal)) (Cert.KernelIdeal.Gen.V4 m c) (Proc.devRef .tc Cert.KernelIdeal.main_c_5) = Rf m' c Cert.ReferenceIdeal.main_c_5 :=
    (((Cert.KernelIdeal.Gen.V17_of m outs c Cert.KernelIdeal.main_c_5 (by decide)).trans ((Cert.KernelIdeal.Gen.V16_of m outs c Cert.KernelIdeal.main_c_5 (by decide)).trans ((Cert.KernelIdeal.Gen.V15_of m outs c Cert.KernelIdeal.main_c_5 (by decide)).trans ((Cert.KernelIdeal.Gen.V14_of m outs c Cert.KernelIdeal.main_c_5 (by decide)).trans ((Cert.KernelIdeal.Gen.V13_of m outs c Cert.KernelIdeal.main_c_5 (by decide)).trans ((Cert.KernelIdeal.Gen.V12_of m outs c Cert.KernelIdeal.main_c_5 (by decide)).trans ((Cert.KernelIdeal.Gen.V11_of m outs c Cert.KernelIdeal.main_c_5 (by decide)).trans ((Cert.KernelIdeal.Gen.V10_of m outs c Cert.KernelIdeal.main_c_5 (by decide)).trans ((Cert.KernelIdeal.Gen.V9_of m outs c Cert.KernelIdeal.main_c_5 (by decide)).trans ((Cert.KernelIdeal.Gen.V8_of m outs c Cert.KernelIdeal.main_c_5 (by decide)).trans ((Cert.KernelIdeal.Gen.V7_of m outs c Cert.KernelIdeal.main_c_5 (by decide)).trans (Cert.KernelIdeal.Gen.V6_of m outs c Cert.KernelIdeal.main_c_5 (by decide)))))))))))))).symm.trans (same_main_c_5 m outs m' hag c)
  rw [E0] at hK
  exact hK.trans hR.symm

theorem same_main_v22 : Cert.KernelIdeal.Gen.V17 m outs c Cert.KernelIdeal.main_v22 = Rf m' c Cert.ReferenceIdeal.main_v22 := by
  have hK := (((Cert.KernelIdeal.Gen.V17_of m outs c Cert.KernelIdeal.main_v22 (by decide)).trans ((Cert.KernelIdeal.Gen.V16_of m outs c Cert.KernelIdeal.main_v22 (by decide)).trans ((Cert.KernelIdeal.Gen.V15_of m outs c Cert.KernelIdeal.main_v22 (by decide)).trans ((Cert.KernelIdeal.Gen.V14_of m outs c Cert.KernelIdeal.main_v22 (by decide)).trans ((Cert.KernelIdeal.Gen.V13_of m outs c Cert.KernelIdeal.main_v22 (by decide)).trans ((Cert.KernelIdeal.Gen.V12_of m outs c Cert.KernelIdeal.main_v22 (by decide)).trans ((Cert.KernelIdeal.Gen.V11_of m outs c Cert.KernelIdeal.main_v22 (by decide)).trans ((Cert.KernelIdeal.Gen.V10_of m outs c Cert.KernelIdeal.main_v22 (by decide)).trans ((Cert.KernelIdeal.Gen.V9_of m outs c Cert.KernelIdeal.main_v22 (by decide)).trans ((Cert.KernelIdeal.Gen.V8_of m outs c Cert.KernelIdeal.main_v22 (by decide)).trans ((Cert.KernelIdeal.Gen.V7_of m outs c Cert.KernelIdeal.main_v22 (by decide)).trans (Cert.KernelIdeal.Gen.V6_of m outs c Cert.KernelIdeal.main_v22 (by decide)))))))))))))).trans (after_binary each_hostOps0_4 (Cert.KernelIdeal.Gen.V4 m c) 5 _ _ _ _ _ _ _ rfl (by decide) (by decide) (by decide))
  have hR := after_binary eachR (launchContents m' c) 34 _ _ _ _ _ _ _ rfl (by decide) (by decide) (by decide)
  have E0 : after (Cert.KernelIdeal.Gen.hostOps0_4 (F := Ideal)) (Cert.KernelIdeal.Gen.V4 m c) (Proc.devRef .tc Cert.KernelIdeal.main_v5) = Rf m' c Cert.ReferenceIdeal.main_v5 :=
    (((Cert.KernelIdeal.Gen.V17_of m outs c Cert.KernelIdeal.main_v5 (by decide)).trans ((Cert.KernelIdeal.Gen.V16_of m outs c Cert.KernelIdeal.main_v5 (by decide)).trans ((Cert.KernelIdeal.Gen.V15_of m outs c Cert.KernelIdeal.main_v5 (by decide)).trans ((Cert.KernelIdeal.Gen.V14_of m outs c Cert.KernelIdeal.main_v5 (by decide)).trans ((Cert.KernelIdeal.Gen.V13_of m outs c Cert.KernelIdeal.main_v5 (by decide)).trans ((Cert.KernelIdeal.Gen.V12_of m outs c Cert.KernelIdeal.main_v5 (by decide)).trans ((Cert.KernelIdeal.Gen.V11_of m outs c Cert.KernelIdeal.main_v5 (by decide)).trans ((Cert.KernelIdeal.Gen.V10_of m outs c Cert.KernelIdeal.main_v5 (by decide)).trans ((Cert.KernelIdeal.Gen.V9_of m outs c Cert.KernelIdeal.main_v5 (by decide)).trans ((Cert.KernelIdeal.Gen.V8_of m outs c Cert.KernelIdeal.main_v5 (by decide)).trans ((Cert.KernelIdeal.Gen.V7_of m outs c Cert.KernelIdeal.main_v5 (by decide)).trans (Cert.KernelIdeal.Gen.V6_of m outs c Cert.KernelIdeal.main_v5 (by decide)))))))))))))).symm.trans (same_main_v5 m outs m' hag c)
  have E1 : after (Cert.KernelIdeal.Gen.hostOps0_4 (F := Ideal)) (Cert.KernelIdeal.Gen.V4 m c) (Proc.devRef .tc Cert.KernelIdeal.main_v21) = Rf m' c Cert.ReferenceIdeal.main_v21 :=
    (((Cert.KernelIdeal.Gen.V17_of m outs c Cert.KernelIdeal.main_v21 (by decide)).trans ((Cert.KernelIdeal.Gen.V16_of m outs c Cert.KernelIdeal.main_v21 (by decide)).trans ((Cert.KernelIdeal.Gen.V15_of m outs c Cert.KernelIdeal.main_v21 (by decide)).trans ((Cert.KernelIdeal.Gen.V14_of m outs c Cert.KernelIdeal.main_v21 (by decide)).trans ((Cert.KernelIdeal.Gen.V13_of m outs c Cert.KernelIdeal.main_v21 (by decide)).trans ((Cert.KernelIdeal.Gen.V12_of m outs c Cert.KernelIdeal.main_v21 (by decide)).trans ((Cert.KernelIdeal.Gen.V11_of m outs c Cert.KernelIdeal.main_v21 (by decide)).trans ((Cert.KernelIdeal.Gen.V10_of m outs c Cert.KernelIdeal.main_v21 (by decide)).trans ((Cert.KernelIdeal.Gen.V9_of m outs c Cert.KernelIdeal.main_v21 (by decide)).trans ((Cert.KernelIdeal.Gen.V8_of m outs c Cert.KernelIdeal.main_v21 (by decide)).trans ((Cert.KernelIdeal.Gen.V7_of m outs c Cert.KernelIdeal.main_v21 (by decide)).trans (Cert.KernelIdeal.Gen.V6_of m outs c Cert.KernelIdeal.main_v21 (by decide)))))))))))))).symm.trans (same_main_v21 m outs m' hag c)
  rw [E0, E1] at hK
  exact hK.trans hR.symm

theorem same_main_v23 : Cert.KernelIdeal.Gen.V17 m outs c Cert.KernelIdeal.main_v23 = Rf m' c Cert.ReferenceIdeal.main_v23 := by
  have hK := (((Cert.KernelIdeal.Gen.V17_of m outs c Cert.KernelIdeal.main_v23 (by decide)).trans ((Cert.KernelIdeal.Gen.V16_of m outs c Cert.KernelIdeal.main_v23 (by decide)).trans ((Cert.KernelIdeal.Gen.V15_of m outs c Cert.KernelIdeal.main_v23 (by decide)).trans ((Cert.KernelIdeal.Gen.V14_of m outs c Cert.KernelIdeal.main_v23 (by decide)).trans ((Cert.KernelIdeal.Gen.V13_of m outs c Cert.KernelIdeal.main_v23 (by decide)).trans ((Cert.KernelIdeal.Gen.V12_of m outs c Cert.KernelIdeal.main_v23 (by decide)).trans ((Cert.KernelIdeal.Gen.V11_of m outs c Cert.KernelIdeal.main_v23 (by decide)).trans ((Cert.KernelIdeal.Gen.V10_of m outs c Cert.KernelIdeal.main_v23 (by decide)).trans ((Cert.KernelIdeal.Gen.V9_of m outs c Cert.KernelIdeal.main_v23 (by decide)).trans ((Cert.KernelIdeal.Gen.V8_of m outs c Cert.KernelIdeal.main_v23 (by decide)).trans ((Cert.KernelIdeal.Gen.V7_of m outs c Cert.KernelIdeal.main_v23 (by decide)).trans (Cert.KernelIdeal.Gen.V6_of m outs c Cert.KernelIdeal.main_v23 (by decide)))))))))))))).trans (after_ternary each_hostOps0_4 (Cert.KernelIdeal.Gen.V4 m c) 6 _ _ _ _ _ _ _ _ _ rfl (by decide) (by decide) (by decide) (by decide))
  have hR := after_ternary eachR (launchContents m' c) 35 _ _ _ _ _ _ _ _ _ rfl (by decide) (by decide) (by decide) (by decide)
  have E0 : after (Cert.KernelIdeal.Gen.hostOps0_4 (F := Ideal)) (Cert.KernelIdeal.Gen.V4 m c) (Proc.devRef .tc Cert.KernelIdeal.main_v20) = Rf m' c Cert.ReferenceIdeal.main_v20 :=
    (((Cert.KernelIdeal.Gen.V17_of m outs c Cert.KernelIdeal.main_v20 (by decide)).trans ((Cert.KernelIdeal.Gen.V16_of m outs c Cert.KernelIdeal.main_v20 (by decide)).trans ((Cert.KernelIdeal.Gen.V15_of m outs c Cert.KernelIdeal.main_v20 (by decide)).trans ((Cert.KernelIdeal.Gen.V14_of m outs c Cert.KernelIdeal.main_v20 (by decide)).trans ((Cert.KernelIdeal.Gen.V13_of m outs c Cert.KernelIdeal.main_v20 (by decide)).trans ((Cert.KernelIdeal.Gen.V12_of m outs c Cert.KernelIdeal.main_v20 (by decide)).trans ((Cert.KernelIdeal.Gen.V11_of m outs c Cert.KernelIdeal.main_v20 (by decide)).trans ((Cert.KernelIdeal.Gen.V10_of m outs c Cert.KernelIdeal.main_v20 (by decide)).trans ((Cert.KernelIdeal.Gen.V9_of m outs c Cert.KernelIdeal.main_v20 (by decide)).trans ((Cert.KernelIdeal.Gen.V8_of m outs c Cert.KernelIdeal.main_v20 (by decide)).trans ((Cert.KernelIdeal.Gen.V7_of m outs c Cert.KernelIdeal.main_v20 (by decide)).trans (Cert.KernelIdeal.Gen.V6_of m outs c Cert.KernelIdeal.main_v20 (by decide)))))))))))))).symm.trans (same_main_v20 m outs m' hag c)
  have E1 : after (Cert.KernelIdeal.Gen.hostOps0_4 (F := Ideal)) (Cert.KernelIdeal.Gen.V4 m c) (Proc.devRef .tc Cert.KernelIdeal.main_v22) = Rf m' c Cert.ReferenceIdeal.main_v22 :=
    (((Cert.KernelIdeal.Gen.V17_of m outs c Cert.KernelIdeal.main_v22 (by decide)).trans ((Cert.KernelIdeal.Gen.V16_of m outs c Cert.KernelIdeal.main_v22 (by decide)).trans ((Cert.KernelIdeal.Gen.V15_of m outs c Cert.KernelIdeal.main_v22 (by decide)).trans ((Cert.KernelIdeal.Gen.V14_of m outs c Cert.KernelIdeal.main_v22 (by decide)).trans ((Cert.KernelIdeal.Gen.V13_of m outs c Cert.KernelIdeal.main_v22 (by decide)).trans ((Cert.KernelIdeal.Gen.V12_of m outs c Cert.KernelIdeal.main_v22 (by decide)).trans ((Cert.KernelIdeal.Gen.V11_of m outs c Cert.KernelIdeal.main_v22 (by decide)).trans ((Cert.KernelIdeal.Gen.V10_of m outs c Cert.KernelIdeal.main_v22 (by decide)).trans ((Cert.KernelIdeal.Gen.V9_of m outs c Cert.KernelIdeal.main_v22 (by decide)).trans ((Cert.KernelIdeal.Gen.V8_of m outs c Cert.KernelIdeal.main_v22 (by decide)).trans ((Cert.KernelIdeal.Gen.V7_of m outs c Cert.KernelIdeal.main_v22 (by decide)).trans (Cert.KernelIdeal.Gen.V6_of m outs c Cert.KernelIdeal.main_v22 (by decide)))))))))))))).symm.trans (same_main_v22 m outs m' hag c)
  have E2 : after (Cert.KernelIdeal.Gen.hostOps0_4 (F := Ideal)) (Cert.KernelIdeal.Gen.V4 m c) (Proc.devRef .tc Cert.KernelIdeal.main_v5) = Rf m' c Cert.ReferenceIdeal.main_v5 :=
    (((Cert.KernelIdeal.Gen.V17_of m outs c Cert.KernelIdeal.main_v5 (by decide)).trans ((Cert.KernelIdeal.Gen.V16_of m outs c Cert.KernelIdeal.main_v5 (by decide)).trans ((Cert.KernelIdeal.Gen.V15_of m outs c Cert.KernelIdeal.main_v5 (by decide)).trans ((Cert.KernelIdeal.Gen.V14_of m outs c Cert.KernelIdeal.main_v5 (by decide)).trans ((Cert.KernelIdeal.Gen.V13_of m outs c Cert.KernelIdeal.main_v5 (by decide)).trans ((Cert.KernelIdeal.Gen.V12_of m outs c Cert.KernelIdeal.main_v5 (by decide)).trans ((Cert.KernelIdeal.Gen.V11_of m outs c Cert.KernelIdeal.main_v5 (by decide)).trans ((Cert.KernelIdeal.Gen.V10_of m outs c Cert.KernelIdeal.main_v5 (by decide)).trans ((Cert.KernelIdeal.Gen.V9_of m outs c Cert.KernelIdeal.main_v5 (by decide)).trans ((Cert.KernelIdeal.Gen.V8_of m outs c Cert.KernelIdeal.main_v5 (by decide)).trans ((Cert.KernelIdeal.Gen.V7_of m outs c Cert.KernelIdeal.main_v5 (by decide)).trans (Cert.KernelIdeal.Gen.V6_of m outs c Cert.KernelIdeal.main_v5 (by decide)))))))))))))).symm.trans (same_main_v5 m outs m' hag c)
  rw [E0, E1, E2] at hK
  exact hK.trans hR.symm

theorem same_main_v24 : Cert.KernelIdeal.Gen.V17 m outs c Cert.KernelIdeal.main_v24 = Rf m' c Cert.ReferenceIdeal.main_v24 := by
  have hK := (((Cert.KernelIdeal.Gen.V17_of m outs c Cert.KernelIdeal.main_v24 (by decide)).trans ((Cert.KernelIdeal.Gen.V16_of m outs c Cert.KernelIdeal.main_v24 (by decide)).trans ((Cert.KernelIdeal.Gen.V15_of m outs c Cert.KernelIdeal.main_v24 (by decide)).trans ((Cert.KernelIdeal.Gen.V14_of m outs c Cert.KernelIdeal.main_v24 (by decide)).trans ((Cert.KernelIdeal.Gen.V13_of m outs c Cert.KernelIdeal.main_v24 (by decide)).trans ((Cert.KernelIdeal.Gen.V12_of m outs c Cert.KernelIdeal.main_v24 (by decide)).trans ((Cert.KernelIdeal.Gen.V11_of m outs c Cert.KernelIdeal.main_v24 (by decide)).trans ((Cert.KernelIdeal.Gen.V10_of m outs c Cert.KernelIdeal.main_v24 (by decide)).trans ((Cert.KernelIdeal.Gen.V9_of m outs c Cert.KernelIdeal.main_v24 (by decide)).trans ((Cert.KernelIdeal.Gen.V8_of m outs c Cert.KernelIdeal.main_v24 (by decide)).trans ((Cert.KernelIdeal.Gen.V7_of m outs c Cert.KernelIdeal.main_v24 (by decide)).trans (Cert.KernelIdeal.Gen.V6_of m outs c Cert.KernelIdeal.main_v24 (by decide)))))))))))))).trans (after_unary each_hostOps0_4 (Cert.KernelIdeal.Gen.V4 m c) 7 _ _ _ _ _ rfl (by decide) (by decide))
  have hR := after_unary eachR (launchContents m' c) 36 _ _ _ _ _ rfl (by decide) (by decide)
  have E0 : after (Cert.KernelIdeal.Gen.hostOps0_4 (F := Ideal)) (Cert.KernelIdeal.Gen.V4 m c) (Proc.devRef .tc Cert.KernelIdeal.main_v23) = Rf m' c Cert.ReferenceIdeal.main_v23 :=
    (((Cert.KernelIdeal.Gen.V17_of m outs c Cert.KernelIdeal.main_v23 (by decide)).trans ((Cert.KernelIdeal.Gen.V16_of m outs c Cert.KernelIdeal.main_v23 (by decide)).trans ((Cert.KernelIdeal.Gen.V15_of m outs c Cert.KernelIdeal.main_v23 (by decide)).trans ((Cert.KernelIdeal.Gen.V14_of m outs c Cert.KernelIdeal.main_v23 (by decide)).trans ((Cert.KernelIdeal.Gen.V13_of m outs c Cert.KernelIdeal.main_v23 (by decide)).trans ((Cert.KernelIdeal.Gen.V12_of m outs c Cert.KernelIdeal.main_v23 (by decide)).trans ((Cert.KernelIdeal.Gen.V11_of m outs c Cert.KernelIdeal.main_v23 (by decide)).trans ((Cert.KernelIdeal.Gen.V10_of m outs c Cert.KernelIdeal.main_v23 (by decide)).trans ((Cert.KernelIdeal.Gen.V9_of m outs c Cert.KernelIdeal.main_v23 (by decide)).trans ((Cert.KernelIdeal.Gen.V8_of m outs c Cert.KernelIdeal.main_v23 (by decide)).trans ((Cert.KernelIdeal.Gen.V7_of m outs c Cert.KernelIdeal.main_v23 (by decide)).trans (Cert.KernelIdeal.Gen.V6_of m outs c Cert.KernelIdeal.main_v23 (by decide)))))))))))))).symm.trans (same_main_v23 m outs m' hag c)
  rw [E0] at hK
  exact hK.trans hR.symm

theorem same_main_v25 : Cert.KernelIdeal.Gen.V17 m outs c Cert.KernelIdeal.main_v25 = Rf m' c Cert.ReferenceIdeal.main_v25 := by
  have hK := (((Cert.KernelIdeal.Gen.V17_of m outs c Cert.KernelIdeal.main_v25 (by decide)).trans ((Cert.KernelIdeal.Gen.V16_of m outs c Cert.KernelIdeal.main_v25 (by decide)).trans ((Cert.KernelIdeal.Gen.V15_of m outs c Cert.KernelIdeal.main_v25 (by decide)).trans ((Cert.KernelIdeal.Gen.V14_of m outs c Cert.KernelIdeal.main_v25 (by decide)).trans ((Cert.KernelIdeal.Gen.V13_of m outs c Cert.KernelIdeal.main_v25 (by decide)).trans ((Cert.KernelIdeal.Gen.V12_of m outs c Cert.KernelIdeal.main_v25 (by decide)).trans ((Cert.KernelIdeal.Gen.V11_of m outs c Cert.KernelIdeal.main_v25 (by decide)).trans ((Cert.KernelIdeal.Gen.V10_of m outs c Cert.KernelIdeal.main_v25 (by decide)).trans ((Cert.KernelIdeal.Gen.V9_of m outs c Cert.KernelIdeal.main_v25 (by decide)).trans ((Cert.KernelIdeal.Gen.V8_of m outs c Cert.KernelIdeal.main_v25 (by decide)).trans ((Cert.KernelIdeal.Gen.V7_of m outs c Cert.KernelIdeal.main_v25 (by decide)).trans (Cert.KernelIdeal.Gen.V6_of m outs c Cert.KernelIdeal.main_v25 (by decide)))))))))))))).trans (after_binary each_hostOps0_4 (Cert.KernelIdeal.Gen.V4 m c) 8 _ _ _ _ _ _ _ rfl (by decide) (by decide) (by decide))
  have hR := after_binary eachR (launchContents m' c) 37 _ _ _ _ _ _ _ rfl (by decide) (by decide) (by decide)
  have E0 : after (Cert.KernelIdeal.Gen.hostOps0_4 (F := Ideal)) (Cert.KernelIdeal.Gen.V4 m c) (Proc.devRef .tc Cert.KernelIdeal.main_v18) = Rf m' c Cert.ReferenceIdeal.main_v18 :=
    (((Cert.KernelIdeal.Gen.V17_of m outs c Cert.KernelIdeal.main_v18 (by decide)).trans ((Cert.KernelIdeal.Gen.V16_of m outs c Cert.KernelIdeal.main_v18 (by decide)).trans ((Cert.KernelIdeal.Gen.V15_of m outs c Cert.KernelIdeal.main_v18 (by decide)).trans ((Cert.KernelIdeal.Gen.V14_of m outs c Cert.KernelIdeal.main_v18 (by decide)).trans ((Cert.KernelIdeal.Gen.V13_of m outs c Cert.KernelIdeal.main_v18 (by decide)).trans ((Cert.KernelIdeal.Gen.V12_of m outs c Cert.KernelIdeal.main_v18 (by decide)).trans ((Cert.KernelIdeal.Gen.V11_of m outs c Cert.KernelIdeal.main_v18 (by decide)).trans ((Cert.KernelIdeal.Gen.V10_of m outs c Cert.KernelIdeal.main_v18 (by decide)).trans ((Cert.KernelIdeal.Gen.V9_of m outs c Cert.KernelIdeal.main_v18 (by decide)).trans ((Cert.KernelIdeal.Gen.V8_of m outs c Cert.KernelIdeal.main_v18 (by decide)).trans ((Cert.KernelIdeal.Gen.V7_of m outs c Cert.KernelIdeal.main_v18 (by decide)).trans (Cert.KernelIdeal.Gen.V6_of m outs c Cert.KernelIdeal.main_v18 (by decide)))))))))))))).symm.trans (same_main_v18 m outs m' hag c)
  have E1 : after (Cert.KernelIdeal.Gen.hostOps0_4 (F := Ideal)) (Cert.KernelIdeal.Gen.V4 m c) (Proc.devRef .tc Cert.KernelIdeal.main_v24) = Rf m' c Cert.ReferenceIdeal.main_v24 :=
    (((Cert.KernelIdeal.Gen.V17_of m outs c Cert.KernelIdeal.main_v24 (by decide)).trans ((Cert.KernelIdeal.Gen.V16_of m outs c Cert.KernelIdeal.main_v24 (by decide)).trans ((Cert.KernelIdeal.Gen.V15_of m outs c Cert.KernelIdeal.main_v24 (by decide)).trans ((Cert.KernelIdeal.Gen.V14_of m outs c Cert.KernelIdeal.main_v24 (by decide)).trans ((Cert.KernelIdeal.Gen.V13_of m outs c Cert.KernelIdeal.main_v24 (by decide)).trans ((Cert.KernelIdeal.Gen.V12_of m outs c Cert.KernelIdeal.main_v24 (by decide)).trans ((Cert.KernelIdeal.Gen.V11_of m outs c Cert.KernelIdeal.main_v24 (by decide)).trans ((Cert.KernelIdeal.Gen.V10_of m outs c Cert.KernelIdeal.main_v24 (by decide)).trans ((Cert.KernelIdeal.Gen.V9_of m outs c Cert.KernelIdeal.main_v24 (by decide)).trans ((Cert.KernelIdeal.Gen.V8_of m outs c Cert.KernelIdeal.main_v24 (by decide)).trans ((Cert.KernelIdeal.Gen.V7_of m outs c Cert.KernelIdeal.main_v24 (by decide)).trans (Cert.KernelIdeal.Gen.V6_of m outs c Cert.KernelIdeal.main_v24 (by decide)))))))))))))).symm.trans (same_main_v24 m outs m' hag c)
  rw [E0, E1] at hK
  exact hK.trans hR.symm

theorem same_main_v26 : Cert.KernelIdeal.Gen.V17 m outs c Cert.KernelIdeal.main_v26 = Rf m' c Cert.ReferenceIdeal.main_v26 := by
  have hK := (((Cert.KernelIdeal.Gen.V17_of m outs c Cert.KernelIdeal.main_v26 (by decide)).trans ((Cert.KernelIdeal.Gen.V16_of m outs c Cert.KernelIdeal.main_v26 (by decide)).trans ((Cert.KernelIdeal.Gen.V15_of m outs c Cert.KernelIdeal.main_v26 (by decide)).trans ((Cert.KernelIdeal.Gen.V14_of m outs c Cert.KernelIdeal.main_v26 (by decide)).trans ((Cert.KernelIdeal.Gen.V13_of m outs c Cert.KernelIdeal.main_v26 (by decide)).trans ((Cert.KernelIdeal.Gen.V12_of m outs c Cert.KernelIdeal.main_v26 (by decide)).trans ((Cert.KernelIdeal.Gen.V11_of m outs c Cert.KernelIdeal.main_v26 (by decide)).trans ((Cert.KernelIdeal.Gen.V10_of m outs c Cert.KernelIdeal.main_v26 (by decide)).trans ((Cert.KernelIdeal.Gen.V9_of m outs c Cert.KernelIdeal.main_v26 (by decide)).trans ((Cert.KernelIdeal.Gen.V8_of m outs c Cert.KernelIdeal.main_v26 (by decide)).trans ((Cert.KernelIdeal.Gen.V7_of m outs c Cert.KernelIdeal.main_v26 (by decide)).trans (Cert.KernelIdeal.Gen.V6_of m outs c Cert.KernelIdeal.main_v26 (by decide)))))))))))))).trans (after_binary each_hostOps0_4 (Cert.KernelIdeal.Gen.V4 m c) 9 _ _ _ _ _ _ _ rfl (by decide) (by decide) (by decide))
  have hR := after_binary eachR (launchContents m' c) 38 _ _ _ _ _ _ _ rfl (by decide) (by decide) (by decide)
  have E0 : after (Cert.KernelIdeal.Gen.hostOps0_4 (F := Ideal)) (Cert.KernelIdeal.Gen.V4 m c) (Proc.devRef .tc Cert.KernelIdeal.main_v25) = Rf m' c Cert.ReferenceIdeal.main_v25 :=
    (((Cert.KernelIdeal.Gen.V17_of m outs c Cert.KernelIdeal.main_v25 (by decide)).trans ((Cert.KernelIdeal.Gen.V16_of m outs c Cert.KernelIdeal.main_v25 (by decide)).trans ((Cert.KernelIdeal.Gen.V15_of m outs c Cert.KernelIdeal.main_v25 (by decide)).trans ((Cert.KernelIdeal.Gen.V14_of m outs c Cert.KernelIdeal.main_v25 (by decide)).trans ((Cert.KernelIdeal.Gen.V13_of m outs c Cert.KernelIdeal.main_v25 (by decide)).trans ((Cert.KernelIdeal.Gen.V12_of m outs c Cert.KernelIdeal.main_v25 (by decide)).trans ((Cert.KernelIdeal.Gen.V11_of m outs c Cert.KernelIdeal.main_v25 (by decide)).trans ((Cert.KernelIdeal.Gen.V10_of m outs c Cert.KernelIdeal.main_v25 (by decide)).trans ((Cert.KernelIdeal.Gen.V9_of m outs c Cert.KernelIdeal.main_v25 (by decide)).trans ((Cert.KernelIdeal.Gen.V8_of m outs c Cert.KernelIdeal.main_v25 (by decide)).trans ((Cert.KernelIdeal.Gen.V7_of m outs c Cert.KernelIdeal.main_v25 (by decide)).trans (Cert.KernelIdeal.Gen.V6_of m outs c Cert.KernelIdeal.main_v25 (by decide)))))))))))))).symm.trans (same_main_v25 m outs m' hag c)
  have E1 : after (Cert.KernelIdeal.Gen.hostOps0_4 (F := Ideal)) (Cert.KernelIdeal.Gen.V4 m c) (Proc.devRef .tc Cert.KernelIdeal.main_v8) = Rf m' c Cert.ReferenceIdeal.main_v8 :=
    (((Cert.KernelIdeal.Gen.V17_of m outs c Cert.KernelIdeal.main_v8 (by decide)).trans ((Cert.KernelIdeal.Gen.V16_of m outs c Cert.KernelIdeal.main_v8 (by decide)).trans ((Cert.KernelIdeal.Gen.V15_of m outs c Cert.KernelIdeal.main_v8 (by decide)).trans ((Cert.KernelIdeal.Gen.V14_of m outs c Cert.KernelIdeal.main_v8 (by decide)).trans ((Cert.KernelIdeal.Gen.V13_of m outs c Cert.KernelIdeal.main_v8 (by decide)).trans ((Cert.KernelIdeal.Gen.V12_of m outs c Cert.KernelIdeal.main_v8 (by decide)).trans ((Cert.KernelIdeal.Gen.V11_of m outs c Cert.KernelIdeal.main_v8 (by decide)).trans ((Cert.KernelIdeal.Gen.V10_of m outs c Cert.KernelIdeal.main_v8 (by decide)).trans ((Cert.KernelIdeal.Gen.V9_of m outs c Cert.KernelIdeal.main_v8 (by decide)).trans ((Cert.KernelIdeal.Gen.V8_of m outs c Cert.KernelIdeal.main_v8 (by decide)).trans ((Cert.KernelIdeal.Gen.V7_of m outs c Cert.KernelIdeal.main_v8 (by decide)).trans (Cert.KernelIdeal.Gen.V6_of m outs c Cert.KernelIdeal.main_v8 (by decide)))))))))))))).symm.trans (same_main_v8 m outs m' hag c)
  rw [E0, E1] at hK
  exact hK.trans hR.symm

theorem same_main_c_6 : Cert.KernelIdeal.Gen.V17 m outs c Cert.KernelIdeal.main_c_6 = Rf m' c Cert.ReferenceIdeal.main_c_6 := by
  have hK := (((Cert.KernelIdeal.Gen.V17_of m outs c Cert.KernelIdeal.main_c_6 (by decide)).trans ((Cert.KernelIdeal.Gen.V16_of m outs c Cert.KernelIdeal.main_c_6 (by decide)).trans ((Cert.KernelIdeal.Gen.V15_of m outs c Cert.KernelIdeal.main_c_6 (by decide)).trans ((Cert.KernelIdeal.Gen.V14_of m outs c Cert.KernelIdeal.main_c_6 (by decide)).trans ((Cert.KernelIdeal.Gen.V13_of m outs c Cert.KernelIdeal.main_c_6 (by decide)).trans ((Cert.KernelIdeal.Gen.V12_of m outs c Cert.KernelIdeal.main_c_6 (by decide)).trans ((Cert.KernelIdeal.Gen.V11_of m outs c Cert.KernelIdeal.main_c_6 (by decide)).trans ((Cert.KernelIdeal.Gen.V10_of m outs c Cert.KernelIdeal.main_c_6 (by decide)).trans ((Cert.KernelIdeal.Gen.V9_of m outs c Cert.KernelIdeal.main_c_6 (by decide)).trans ((Cert.KernelIdeal.Gen.V8_of m outs c Cert.KernelIdeal.main_c_6 (by decide)).trans ((Cert.KernelIdeal.Gen.V7_of m outs c Cert.KernelIdeal.main_c_6 (by decide)).trans (Cert.KernelIdeal.Gen.V6_of m outs c Cert.KernelIdeal.main_c_6 (by decide)))))))))))))).trans (after_nullary each_hostOps0_4 (Cert.KernelIdeal.Gen.V4 m c) 10 _ _ _ rfl (by decide))
  have hR := after_nullary eachR (launchContents m' c) 39 _ _ _ rfl (by decide)

  exact hK.trans hR.symm

theorem same_main_v27 : Cert.KernelIdeal.Gen.V17 m outs c Cert.KernelIdeal.main_v27 = Rf m' c Cert.ReferenceIdeal.main_v27 := by
  have hK := (((Cert.KernelIdeal.Gen.V17_of m outs c Cert.KernelIdeal.main_v27 (by decide)).trans ((Cert.KernelIdeal.Gen.V16_of m outs c Cert.KernelIdeal.main_v27 (by decide)).trans ((Cert.KernelIdeal.Gen.V15_of m outs c Cert.KernelIdeal.main_v27 (by decide)).trans ((Cert.KernelIdeal.Gen.V14_of m outs c Cert.KernelIdeal.main_v27 (by decide)).trans ((Cert.KernelIdeal.Gen.V13_of m outs c Cert.KernelIdeal.main_v27 (by decide)).trans ((Cert.KernelIdeal.Gen.V12_of m outs c Cert.KernelIdeal.main_v27 (by decide)).trans ((Cert.KernelIdeal.Gen.V11_of m outs c Cert.KernelIdeal.main_v27 (by decide)).trans ((Cert.KernelIdeal.Gen.V10_of m outs c Cert.KernelIdeal.main_v27 (by decide)).trans ((Cert.KernelIdeal.Gen.V9_of m outs c Cert.KernelIdeal.main_v27 (by decide)).trans ((Cert.KernelIdeal.Gen.V8_of m outs c Cert.KernelIdeal.main_v27 (by decide)).trans ((Cert.KernelIdeal.Gen.V7_of m outs c Cert.KernelIdeal.main_v27 (by decide)).trans (Cert.KernelIdeal.Gen.V6_of m outs c Cert.KernelIdeal.main_v27 (by decide)))))))))))))).trans (after_unary each_hostOps0_4 (Cert.KernelIdeal.Gen.V4 m c) 11 _ _ _ _ _ rfl (by decide) (by decide))
  have hR := after_unary eachR (launchContents m' c) 40 _ _ _ _ _ rfl (by decide) (by decide)
  have E0 : after (Cert.KernelIdeal.Gen.hostOps0_4 (F := Ideal)) (Cert.KernelIdeal.Gen.V4 m c) (Proc.devRef .tc Cert.KernelIdeal.main_c_6) = Rf m' c Cert.ReferenceIdeal.main_c_6 :=
    (((Cert.KernelIdeal.Gen.V17_of m outs c Cert.KernelIdeal.main_c_6 (by decide)).trans ((Cert.KernelIdeal.Gen.V16_of m outs c Cert.KernelIdeal.main_c_6 (by decide)).trans ((Cert.KernelIdeal.Gen.V15_of m outs c Cert.KernelIdeal.main_c_6 (by decide)).trans ((Cert.KernelIdeal.Gen.V14_of m outs c Cert.KernelIdeal.main_c_6 (by decide)).trans ((Cert.KernelIdeal.Gen.V13_of m outs c Cert.KernelIdeal.main_c_6 (by decide)).trans ((Cert.KernelIdeal.Gen.V12_of m outs c Cert.KernelIdeal.main_c_6 (by decide)).trans ((Cert.KernelIdeal.Gen.V11_of m outs c Cert.KernelIdeal.main_c_6 (by decide)).trans ((Cert.KernelIdeal.Gen.V10_of m outs c Cert.KernelIdeal.main_c_6 (by decide)).trans ((Cert.KernelIdeal.Gen.V9_of m outs c Cert.KernelIdeal.main_c_6 (by decide)).trans ((Cert.KernelIdeal.Gen.V8_of m outs c Cert.KernelIdeal.main_c_6 (by decide)).trans ((Cert.KernelIdeal.Gen.V7_of m outs c Cert.KernelIdeal.main_c_6 (by decide)).trans (Cert.KernelIdeal.Gen.V6_of m outs c Cert.KernelIdeal.main_c_6 (by decide)))))))))))))).symm.trans (same_main_c_6 m outs m' hag c)
  rw [E0] at hK
  exact hK.trans hR.symm

theorem same_main_v28 : Cert.KernelIdeal.Gen.V17 m outs c Cert.KernelIdeal.main_v28 = Rf m' c Cert.ReferenceIdeal.main_v28 := by
  have hK := (((Cert.KernelIdeal.Gen.V17_of m outs c Cert.KernelIdeal.main_v28 (by decide)).trans ((Cert.KernelIdeal.Gen.V16_of m outs c Cert.KernelIdeal.main_v28 (by decide)).trans ((Cert.KernelIdeal.Gen.V15_of m outs c Cert.KernelIdeal.main_v28 (by decide)).trans ((Cert.KernelIdeal.Gen.V14_of m outs c Cert.KernelIdeal.main_v28 (by decide)).trans ((Cert.KernelIdeal.Gen.V13_of m outs c Cert.KernelIdeal.main_v28 (by decide)).trans ((Cert.KernelIdeal.Gen.V12_of m outs c Cert.KernelIdeal.main_v28 (by decide)).trans ((Cert.KernelIdeal.Gen.V11_of m outs c Cert.KernelIdeal.main_v28 (by decide)).trans ((Cert.KernelIdeal.Gen.V10_of m outs c Cert.KernelIdeal.main_v28 (by decide)).trans ((Cert.KernelIdeal.Gen.V9_of m outs c Cert.KernelIdeal.main_v28 (by decide)).trans ((Cert.KernelIdeal.Gen.V8_of m outs c Cert.KernelIdeal.main_v28 (by decide)).trans ((Cert.KernelIdeal.Gen.V7_of m outs c Cert.KernelIdeal.main_v28 (by decide)).trans (Cert.KernelIdeal.Gen.V6_of m outs c Cert.KernelIdeal.main_v28 (by decide)))))))))))))).trans (after_binary each_hostOps0_4 (Cert.KernelIdeal.Gen.V4 m c) 12 _ _ _ _ _ _ _ rfl (by decide) (by decide) (by decide))
  have hR := after_binary eachR (launchContents m' c) 41 _ _ _ _ _ _ _ rfl (by decide) (by decide) (by decide)
  have E0 : after (Cert.KernelIdeal.Gen.hostOps0_4 (F := Ideal)) (Cert.KernelIdeal.Gen.V4 m c) (Proc.devRef .tc Cert.KernelIdeal.main_v6) = Rf m' c Cert.ReferenceIdeal.main_v6 :=
    (((Cert.KernelIdeal.Gen.V17_of m outs c Cert.KernelIdeal.main_v6 (by decide)).trans ((Cert.KernelIdeal.Gen.V16_of m outs c Cert.KernelIdeal.main_v6 (by decide)).trans ((Cert.KernelIdeal.Gen.V15_of m outs c Cert.KernelIdeal.main_v6 (by decide)).trans ((Cert.KernelIdeal.Gen.V14_of m outs c Cert.KernelIdeal.main_v6 (by decide)).trans ((Cert.KernelIdeal.Gen.V13_of m outs c Cert.KernelIdeal.main_v6 (by decide)).trans ((Cert.KernelIdeal.Gen.V12_of m outs c Cert.KernelIdeal.main_v6 (by decide)).trans ((Cert.KernelIdeal.Gen.V11_of m outs c Cert.KernelIdeal.main_v6 (by decide)).trans ((Cert.KernelIdeal.Gen.V10_of m outs c Cert.KernelIdeal.main_v6 (by decide)).trans ((Cert.KernelIdeal.Gen.V9_of m outs c Cert.KernelIdeal.main_v6 (by decide)).trans ((Cert.KernelIdeal.Gen.V8_of m outs c Cert.KernelIdeal.main_v6 (by decide)).trans ((Cert.KernelIdeal.Gen.V7_of m outs c Cert.KernelIdeal.main_v6 (by decide)).trans (Cert.KernelIdeal.Gen.V6_of m outs c Cert.KernelIdeal.main_v6 (by decide)))))))))))))).symm.trans (same_main_v6 m outs m' hag c)
  have E1 : after (Cert.KernelIdeal.Gen.hostOps0_4 (F := Ideal)) (Cert.KernelIdeal.Gen.V4 m c) (Proc.devRef .tc Cert.KernelIdeal.main_v27) = Rf m' c Cert.ReferenceIdeal.main_v27 :=
    (((Cert.KernelIdeal.Gen.V17_of m outs c Cert.KernelIdeal.main_v27 (by decide)).trans ((Cert.KernelIdeal.Gen.V16_of m outs c Cert.KernelIdeal.main_v27 (by decide)).trans ((Cert.KernelIdeal.Gen.V15_of m outs c Cert.KernelIdeal.main_v27 (by decide)).trans ((Cert.KernelIdeal.Gen.V14_of m outs c Cert.KernelIdeal.main_v27 (by decide)).trans ((Cert.KernelIdeal.Gen.V13_of m outs c Cert.KernelIdeal.main_v27 (by decide)).trans ((Cert.KernelIdeal.Gen.V12_of m outs c Cert.KernelIdeal.main_v27 (by decide)).trans ((Cert.KernelIdeal.Gen.V11_of m outs c Cert.KernelIdeal.main_v27 (by decide)).trans ((Cert.KernelIdeal.Gen.V10_of m outs c Cert.KernelIdeal.main_v27 (by decide)).trans ((Cert.KernelIdeal.Gen.V9_of m outs c Cert.KernelIdeal.main_v27 (by decide)).trans ((Cert.KernelIdeal.Gen.V8_of m outs c Cert.KernelIdeal.main_v27 (by decide)).trans ((Cert.KernelIdeal.Gen.V7_of m outs c Cert.KernelIdeal.main_v27 (by decide)).trans (Cert.KernelIdeal.Gen.V6_of m outs c Cert.KernelIdeal.main_v27 (by decide)))))))))))))).symm.trans (same_main_v27 m outs m' hag c)
  rw [E0, E1] at hK
  exact hK.trans hR.symm

theorem same_main_c_7 : Cert.KernelIdeal.Gen.V17 m outs c Cert.KernelIdeal.main_c_7 = Rf m' c Cert.ReferenceIdeal.main_c_7 := by
  have hK := (((Cert.KernelIdeal.Gen.V17_of m outs c Cert.KernelIdeal.main_c_7 (by decide)).trans ((Cert.KernelIdeal.Gen.V16_of m outs c Cert.KernelIdeal.main_c_7 (by decide)).trans ((Cert.KernelIdeal.Gen.V15_of m outs c Cert.KernelIdeal.main_c_7 (by decide)).trans ((Cert.KernelIdeal.Gen.V14_of m outs c Cert.KernelIdeal.main_c_7 (by decide)).trans ((Cert.KernelIdeal.Gen.V13_of m outs c Cert.KernelIdeal.main_c_7 (by decide)).trans ((Cert.KernelIdeal.Gen.V12_of m outs c Cert.KernelIdeal.main_c_7 (by decide)).trans ((Cert.KernelIdeal.Gen.V11_of m outs c Cert.KernelIdeal.main_c_7 (by decide)).trans ((Cert.KernelIdeal.Gen.V10_of m outs c Cert.KernelIdeal.main_c_7 (by decide)).trans ((Cert.KernelIdeal.Gen.V9_of m outs c Cert.KernelIdeal.main_c_7 (by decide)).trans ((Cert.KernelIdeal.Gen.V8_of m outs c Cert.KernelIdeal.main_c_7 (by decide)).trans ((Cert.KernelIdeal.Gen.V7_of m outs c Cert.KernelIdeal.main_c_7 (by decide)).trans (Cert.KernelIdeal.Gen.V6_of m outs c Cert.KernelIdeal.main_c_7 (by decide)))))))))))))).trans (after_nullary each_hostOps0_4 (Cert.KernelIdeal.Gen.V4 m c) 13 _ _ _ rfl (by decide))
  have hR := after_nullary eachR (launchContents m' c) 42 _ _ _ rfl (by decide)

  exact hK.trans hR.symm

theorem same_main_v29 : Cert.KernelIdeal.Gen.V17 m outs c Cert.KernelIdeal.main_v29 = Rf m' c Cert.ReferenceIdeal.main_v29 := by
  have hK := (((Cert.KernelIdeal.Gen.V17_of m outs c Cert.KernelIdeal.main_v29 (by decide)).trans ((Cert.KernelIdeal.Gen.V16_of m outs c Cert.KernelIdeal.main_v29 (by decide)).trans ((Cert.KernelIdeal.Gen.V15_of m outs c Cert.KernelIdeal.main_v29 (by decide)).trans ((Cert.KernelIdeal.Gen.V14_of m outs c Cert.KernelIdeal.main_v29 (by decide)).trans ((Cert.KernelIdeal.Gen.V13_of m outs c Cert.KernelIdeal.main_v29 (by decide)).trans ((Cert.KernelIdeal.Gen.V12_of m outs c Cert.KernelIdeal.main_v29 (by decide)).trans ((Cert.KernelIdeal.Gen.V11_of m outs c Cert.KernelIdeal.main_v29 (by decide)).trans ((Cert.KernelIdeal.Gen.V10_of m outs c Cert.KernelIdeal.main_v29 (by decide)).trans ((Cert.KernelIdeal.Gen.V9_of m outs c Cert.KernelIdeal.main_v29 (by decide)).trans ((Cert.KernelIdeal.Gen.V8_of m outs c Cert.KernelIdeal.main_v29 (by decide)).trans ((Cert.KernelIdeal.Gen.V7_of m outs c Cert.KernelIdeal.main_v29 (by decide)).trans (Cert.KernelIdeal.Gen.V6_of m outs c Cert.KernelIdeal.main_v29 (by decide)))))))))))))).trans (after_unary each_hostOps0_4 (Cert.KernelIdeal.Gen.V4 m c) 14 _ _ _ _ _ rfl (by decide) (by decide))
  have hR := after_unary eachR (launchContents m' c) 43 _ _ _ _ _ rfl (by decide) (by decide)
  have E0 : after (Cert.KernelIdeal.Gen.hostOps0_4 (F := Ideal)) (Cert.KernelIdeal.Gen.V4 m c) (Proc.devRef .tc Cert.KernelIdeal.main_c_7) = Rf m' c Cert.ReferenceIdeal.main_c_7 :=
    (((Cert.KernelIdeal.Gen.V17_of m outs c Cert.KernelIdeal.main_c_7 (by decide)).trans ((Cert.KernelIdeal.Gen.V16_of m outs c Cert.KernelIdeal.main_c_7 (by decide)).trans ((Cert.KernelIdeal.Gen.V15_of m outs c Cert.KernelIdeal.main_c_7 (by decide)).trans ((Cert.KernelIdeal.Gen.V14_of m outs c Cert.KernelIdeal.main_c_7 (by decide)).trans ((Cert.KernelIdeal.Gen.V13_of m outs c Cert.KernelIdeal.main_c_7 (by decide)).trans ((Cert.KernelIdeal.Gen.V12_of m outs c Cert.KernelIdeal.main_c_7 (by decide)).trans ((Cert.KernelIdeal.Gen.V11_of m outs c Cert.KernelIdeal.main_c_7 (by decide)).trans ((Cert.KernelIdeal.Gen.V10_of m outs c Cert.KernelIdeal.main_c_7 (by decide)).trans ((Cert.KernelIdeal.Gen.V9_of m outs c Cert.KernelIdeal.main_c_7 (by decide)).trans ((Cert.KernelIdeal.Gen.V8_of m outs c Cert.KernelIdeal.main_c_7 (by decide)).trans ((Cert.KernelIdeal.Gen.V7_of m outs c Cert.KernelIdeal.main_c_7 (by decide)).trans (Cert.KernelIdeal.Gen.V6_of m outs c Cert.KernelIdeal.main_c_7 (by decide)))))))))))))).symm.trans (same_main_c_7 m outs m' hag c)
  rw [E0] at hK
  exact hK.trans hR.symm

theorem same_main_v30 : Cert.KernelIdeal.Gen.V17 m outs c Cert.KernelIdeal.main_v30 = Rf m' c Cert.ReferenceIdeal.main_v30 := by
  have hK := (((Cert.KernelIdeal.Gen.V17_of m outs c Cert.KernelIdeal.main_v30 (by decide)).trans ((Cert.KernelIdeal.Gen.V16_of m outs c Cert.KernelIdeal.main_v30 (by decide)).trans ((Cert.KernelIdeal.Gen.V15_of m outs c Cert.KernelIdeal.main_v30 (by decide)).trans ((Cert.KernelIdeal.Gen.V14_of m outs c Cert.KernelIdeal.main_v30 (by decide)).trans ((Cert.KernelIdeal.Gen.V13_of m outs c Cert.KernelIdeal.main_v30 (by decide)).trans ((Cert.KernelIdeal.Gen.V12_of m outs c Cert.KernelIdeal.main_v30 (by decide)).trans ((Cert.KernelIdeal.Gen.V11_of m outs c Cert.KernelIdeal.main_v30 (by decide)).trans ((Cert.KernelIdeal.Gen.V10_of m outs c Cert.KernelIdeal.main_v30 (by decide)).trans ((Cert.KernelIdeal.Gen.V9_of m outs c Cert.KernelIdeal.main_v30 (by decide)).trans ((Cert.KernelIdeal.Gen.V8_of m outs c Cert.KernelIdeal.main_v30 (by decide)).trans ((Cert.KernelIdeal.Gen.V7_of m outs c Cert.KernelIdeal.main_v30 (by decide)).trans (Cert.KernelIdeal.Gen.V6_of m outs c Cert.KernelIdeal.main_v30 (by decide)))))))))))))).trans (after_binary each_hostOps0_4 (Cert.KernelIdeal.Gen.V4 m c) 15 _ _ _ _ _ _ _ rfl (by decide) (by decide) (by decide))
  have hR := after_binary eachR (launchContents m' c) 44 _ _ _ _ _ _ _ rfl (by decide) (by decide) (by decide)
  have E0 : after (Cert.KernelIdeal.Gen.hostOps0_4 (F := Ideal)) (Cert.KernelIdeal.Gen.V4 m c) (Proc.devRef .tc Cert.KernelIdeal.main_v6) = Rf m' c Cert.ReferenceIdeal.main_v6 :=
    (((Cert.KernelIdeal.Gen.V17_of m outs c Cert.KernelIdeal.main_v6 (by decide)).trans ((Cert.KernelIdeal.Gen.V16_of m outs c Cert.KernelIdeal.main_v6 (by decide)).trans ((Cert.KernelIdeal.Gen.V15_of m outs c Cert.KernelIdeal.main_v6 (by decide)).trans ((Cert.KernelIdeal.Gen.V14_of m outs c Cert.KernelIdeal.main_v6 (by decide)).trans ((Cert.KernelIdeal.Gen.V13_of m outs c Cert.KernelIdeal.main_v6 (by decide)).trans ((Cert.KernelIdeal.Gen.V12_of m outs c Cert.KernelIdeal.main_v6 (by decide)).trans ((Cert.KernelIdeal.Gen.V11_of m outs c Cert.KernelIdeal.main_v6 (by decide)).trans ((Cert.KernelIdeal.Gen.V10_of m outs c Cert.KernelIdeal.main_v6 (by decide)).trans ((Cert.KernelIdeal.Gen.V9_of m outs c Cert.KernelIdeal.main_v6 (by decide)).trans ((Cert.KernelIdeal.Gen.V8_of m outs c Cert.KernelIdeal.main_v6 (by decide)).trans ((Cert.KernelIdeal.Gen.V7_of m outs c Cert.KernelIdeal.main_v6 (by decide)).trans (Cert.KernelIdeal.Gen.V6_of m outs c Cert.KernelIdeal.main_v6 (by decide)))))))))))))).symm.trans (same_main_v6 m outs m' hag c)
  have E1 : after (Cert.KernelIdeal.Gen.hostOps0_4 (F := Ideal)) (Cert.KernelIdeal.Gen.V4 m c) (Proc.devRef .tc Cert.KernelIdeal.main_v29) = Rf m' c Cert.ReferenceIdeal.main_v29 :=
    (((Cert.KernelIdeal.Gen.V17_of m outs c Cert.KernelIdeal.main_v29 (by decide)).trans ((Cert.KernelIdeal.Gen.V16_of m outs c Cert.KernelIdeal.main_v29 (by decide)).trans ((Cert.KernelIdeal.Gen.V15_of m outs c Cert.KernelIdeal.main_v29 (by decide)).trans ((Cert.KernelIdeal.Gen.V14_of m outs c Cert.KernelIdeal.main_v29 (by decide)).trans ((Cert.KernelIdeal.Gen.V13_of m outs c Cert.KernelIdeal.main_v29 (by decide)).trans ((Cert.KernelIdeal.Gen.V12_of m outs c Cert.KernelIdeal.main_v29 (by decide)).trans ((Cert.KernelIdeal.Gen.V11_of m outs c Cert.KernelIdeal.main_v29 (by decide)).trans ((Cert.KernelIdeal.Gen.V10_of m outs c Cert.KernelIdeal.main_v29 (by decide)).trans ((Cert.KernelIdeal.Gen.V9_of m outs c Cert.KernelIdeal.main_v29 (by decide)).trans ((Cert.KernelIdeal.Gen.V8_of m outs c Cert.KernelIdeal.main_v29 (by decide)).trans ((Cert.KernelIdeal.Gen.V7_of m outs c Cert.KernelIdeal.main_v29 (by decide)).trans (Cert.KernelIdeal.Gen.V6_of m outs c Cert.KernelIdeal.main_v29 (by decide)))))))))))))).symm.trans (same_main_v29 m outs m' hag c)
  rw [E0, E1] at hK
  exact hK.trans hR.symm

theorem same_main_v31 : Cert.KernelIdeal.Gen.V17 m outs c Cert.KernelIdeal.main_v31 = Rf m' c Cert.ReferenceIdeal.main_v31 := by
  have hK := (((Cert.KernelIdeal.Gen.V17_of m outs c Cert.KernelIdeal.main_v31 (by decide)).trans ((Cert.KernelIdeal.Gen.V16_of m outs c Cert.KernelIdeal.main_v31 (by decide)).trans ((Cert.KernelIdeal.Gen.V15_of m outs c Cert.KernelIdeal.main_v31 (by decide)).trans ((Cert.KernelIdeal.Gen.V14_of m outs c Cert.KernelIdeal.main_v31 (by decide)).trans ((Cert.KernelIdeal.Gen.V13_of m outs c Cert.KernelIdeal.main_v31 (by decide)).trans ((Cert.KernelIdeal.Gen.V12_of m outs c Cert.KernelIdeal.main_v31 (by decide)).trans ((Cert.KernelIdeal.Gen.V11_of m outs c Cert.KernelIdeal.main_v31 (by decide)).trans ((Cert.KernelIdeal.Gen.V10_of m outs c Cert.KernelIdeal.main_v31 (by decide)).trans ((Cert.KernelIdeal.Gen.V9_of m outs c Cert.KernelIdeal.main_v31 (by decide)).trans ((Cert.KernelIdeal.Gen.V8_of m outs c Cert.KernelIdeal.main_v31 (by decide)).trans ((Cert.KernelIdeal.Gen.V7_of m outs c Cert.KernelIdeal.main_v31 (by decide)).trans (Cert.KernelIdeal.Gen.V6_of m outs c Cert.KernelIdeal.main_v31 (by decide)))))))))))))).trans (after_ternary each_hostOps0_4 (Cert.KernelIdeal.Gen.V4 m c) 16 _ _ _ _ _ _ _ _ _ rfl (by decide) (by decide) (by decide) (by decide))
  have hR := after_ternary eachR (launchContents m' c) 45 _ _ _ _ _ _ _ _ _ rfl (by decide) (by decide) (by decide) (by decide)
  have E0 : after (Cert.KernelIdeal.Gen.hostOps0_4 (F := Ideal)) (Cert.KernelIdeal.Gen.V4 m c) (Proc.devRef .tc Cert.KernelIdeal.main_v28) = Rf m' c Cert.ReferenceIdeal.main_v28 :=
    (((Cert.KernelIdeal.Gen.V17_of m outs c Cert.KernelIdeal.main_v28 (by decide)).trans ((Cert.KernelIdeal.Gen.V16_of m outs c Cert.KernelIdeal.main_v28 (by decide)).trans ((Cert.KernelIdeal.Gen.V15_of m outs c Cert.KernelIdeal.main_v28 (by decide)).trans ((Cert.KernelIdeal.Gen.V14_of m outs c Cert.KernelIdeal.main_v28 (by decide)).trans ((Cert.KernelIdeal.Gen.V13_of m outs c Cert.KernelIdeal.main_v28 (by decide)).trans ((Cert.KernelIdeal.Gen.V12_of m outs c Cert.KernelIdeal.main_v28 (by decide)).trans ((Cert.KernelIdeal.Gen.V11_of m outs c Cert.KernelIdeal.main_v28 (by decide)).trans ((Cert.KernelIdeal.Gen.V10_of m outs c Cert.KernelIdeal.main_v28 (by decide)).trans ((Cert.KernelIdeal.Gen.V9_of m outs c Cert.KernelIdeal.main_v28 (by decide)).trans ((Cert.KernelIdeal.Gen.V8_of m outs c Cert.KernelIdeal.main_v28 (by decide)).trans ((Cert.KernelIdeal.Gen.V7_of m outs c Cert.KernelIdeal.main_v28 (by decide)).trans (Cert.KernelIdeal.Gen.V6_of m outs c Cert.KernelIdeal.main_v28 (by decide)))))))))))))).symm.trans (same_main_v28 m outs m' hag c)
  have E1 : after (Cert.KernelIdeal.Gen.hostOps0_4 (F := Ideal)) (Cert.KernelIdeal.Gen.V4 m c) (Proc.devRef .tc Cert.KernelIdeal.main_v30) = Rf m' c Cert.ReferenceIdeal.main_v30 :=
    (((Cert.KernelIdeal.Gen.V17_of m outs c Cert.KernelIdeal.main_v30 (by decide)).trans ((Cert.KernelIdeal.Gen.V16_of m outs c Cert.KernelIdeal.main_v30 (by decide)).trans ((Cert.KernelIdeal.Gen.V15_of m outs c Cert.KernelIdeal.main_v30 (by decide)).trans ((Cert.KernelIdeal.Gen.V14_of m outs c Cert.KernelIdeal.main_v30 (by decide)).trans ((Cert.KernelIdeal.Gen.V13_of m outs c Cert.KernelIdeal.main_v30 (by decide)).trans ((Cert.KernelIdeal.Gen.V12_of m outs c Cert.KernelIdeal.main_v30 (by decide)).trans ((Cert.KernelIdeal.Gen.V11_of m outs c Cert.KernelIdeal.main_v30 (by decide)).trans ((Cert.KernelIdeal.Gen.V10_of m outs c Cert.KernelIdeal.main_v30 (by decide)).trans ((Cert.KernelIdeal.Gen.V9_of m outs c Cert.KernelIdeal.main_v30 (by decide)).trans ((Cert.KernelIdeal.Gen.V8_of m outs c Cert.KernelIdeal.main_v30 (by decide)).trans ((Cert.KernelIdeal.Gen.V7_of m outs c Cert.KernelIdeal.main_v30 (by decide)).trans (Cert.KernelIdeal.Gen.V6_of m outs c Cert.KernelIdeal.main_v30 (by decide)))))))))))))).symm.trans (same_main_v30 m outs m' hag c)
  have E2 : after (Cert.KernelIdeal.Gen.hostOps0_4 (F := Ideal)) (Cert.KernelIdeal.Gen.V4 m c) (Proc.devRef .tc Cert.KernelIdeal.main_v6) = Rf m' c Cert.ReferenceIdeal.main_v6 :=
    (((Cert.KernelIdeal.Gen.V17_of m outs c Cert.KernelIdeal.main_v6 (by decide)).trans ((Cert.KernelIdeal.Gen.V16_of m outs c Cert.KernelIdeal.main_v6 (by decide)).trans ((Cert.KernelIdeal.Gen.V15_of m outs c Cert.KernelIdeal.main_v6 (by decide)).trans ((Cert.KernelIdeal.Gen.V14_of m outs c Cert.KernelIdeal.main_v6 (by decide)).trans ((Cert.KernelIdeal.Gen.V13_of m outs c Cert.KernelIdeal.main_v6 (by decide)).trans ((Cert.KernelIdeal.Gen.V12_of m outs c Cert.KernelIdeal.main_v6 (by decide)).trans ((Cert.KernelIdeal.Gen.V11_of m outs c Cert.KernelIdeal.main_v6 (by decide)).trans ((Cert.KernelIdeal.Gen.V10_of m outs c Cert.KernelIdeal.main_v6 (by decide)).trans ((Cert.KernelIdeal.Gen.V9_of m outs c Cert.KernelIdeal.main_v6 (by decide)).trans ((Cert.KernelIdeal.Gen.V8_of m outs c Cert.KernelIdeal.main_v6 (by decide)).trans ((Cert.KernelIdeal.Gen.V7_of m outs c Cert.KernelIdeal.main_v6 (by decide)).trans (Cert.KernelIdeal.Gen.V6_of m outs c Cert.KernelIdeal.main_v6 (by decide)))))))))))))).symm.trans (same_main_v6 m outs m' hag c)
  rw [E0, E1, E2] at hK
  exact hK.trans hR.symm

theorem same_main_v32 : Cert.KernelIdeal.Gen.V17 m outs c Cert.KernelIdeal.main_v32 = Rf m' c Cert.ReferenceIdeal.main_v32 := by
  have hK := (((Cert.KernelIdeal.Gen.V17_of m outs c Cert.KernelIdeal.main_v32 (by decide)).trans ((Cert.KernelIdeal.Gen.V16_of m outs c Cert.KernelIdeal.main_v32 (by decide)).trans ((Cert.KernelIdeal.Gen.V15_of m outs c Cert.KernelIdeal.main_v32 (by decide)).trans ((Cert.KernelIdeal.Gen.V14_of m outs c Cert.KernelIdeal.main_v32 (by decide)).trans ((Cert.KernelIdeal.Gen.V13_of m outs c Cert.KernelIdeal.main_v32 (by decide)).trans ((Cert.KernelIdeal.Gen.V12_of m outs c Cert.KernelIdeal.main_v32 (by decide)).trans ((Cert.KernelIdeal.Gen.V11_of m outs c Cert.KernelIdeal.main_v32 (by decide)).trans ((Cert.KernelIdeal.Gen.V10_of m outs c Cert.KernelIdeal.main_v32 (by decide)).trans ((Cert.KernelIdeal.Gen.V9_of m outs c Cert.KernelIdeal.main_v32 (by decide)).trans ((Cert.KernelIdeal.Gen.V8_of m outs c Cert.KernelIdeal.main_v32 (by decide)).trans ((Cert.KernelIdeal.Gen.V7_of m outs c Cert.KernelIdeal.main_v32 (by decide)).trans (Cert.KernelIdeal.Gen.V6_of m outs c Cert.KernelIdeal.main_v32 (by decide)))))))))))))).trans (after_unary each_hostOps0_4 (Cert.KernelIdeal.Gen.V4 m c) 17 _ _ _ _ _ rfl (by decide) (by decide))
  have hR := after_unary eachR (launchContents m' c) 46 _ _ _ _ _ rfl (by decide) (by decide)
  have E0 : after (Cert.KernelIdeal.Gen.hostOps0_4 (F := Ideal)) (Cert.KernelIdeal.Gen.V4 m c) (Proc.devRef .tc Cert.KernelIdeal.main_v31) = Rf m' c Cert.ReferenceIdeal.main_v31 :=
    (((Cert.KernelIdeal.Gen.V17_of m outs c Cert.KernelIdeal.main_v31 (by decide)).trans ((Cert.KernelIdeal.Gen.V16_of m outs c Cert.KernelIdeal.main_v31 (by decide)).trans ((Cert.KernelIdeal.Gen.V15_of m outs c Cert.KernelIdeal.main_v31 (by decide)).trans ((Cert.KernelIdeal.Gen.V14_of m outs c Cert.KernelIdeal.main_v31 (by decide)).trans ((Cert.KernelIdeal.Gen.V13_of m outs c Cert.KernelIdeal.main_v31 (by decide)).trans ((Cert.KernelIdeal.Gen.V12_of m outs c Cert.KernelIdeal.main_v31 (by decide)).trans ((Cert.KernelIdeal.Gen.V11_of m outs c Cert.KernelIdeal.main_v31 (by decide)).trans ((Cert.KernelIdeal.Gen.V10_of m outs c Cert.KernelIdeal.main_v31 (by decide)).trans ((Cert.KernelIdeal.Gen.V9_of m outs c Cert.KernelIdeal.main_v31 (by decide)).trans ((Cert.KernelIdeal.Gen.V8_of m outs c Cert.KernelIdeal.main_v31 (by decide)).trans ((Cert.KernelIdeal.Gen.V7_of m outs c Cert.KernelIdeal.main_v31 (by decide)).trans (Cert.KernelIdeal.Gen.V6_of m outs c Cert.KernelIdeal.main_v31 (by decide)))))))))))))).symm.trans (same_main_v31 m outs m' hag c)
  rw [E0] at hK
  exact hK.trans hR.symm

theorem same_main_v33 : Cert.KernelIdeal.Gen.V17 m outs c Cert.KernelIdeal.main_v33 = Rf m' c Cert.ReferenceIdeal.main_v33 := by
  have hK := (((Cert.KernelIdeal.Gen.V17_of m outs c Cert.KernelIdeal.main_v33 (by decide)).trans ((Cert.KernelIdeal.Gen.V16_of m outs c Cert.KernelIdeal.main_v33 (by decide)).trans ((Cert.KernelIdeal.Gen.V15_of m outs c Cert.KernelIdeal.main_v33 (by decide)).trans ((Cert.KernelIdeal.Gen.V14_of m outs c Cert.KernelIdeal.main_v33 (by decide)).trans ((Cert.KernelIdeal.Gen.V13_of m outs c Cert.KernelIdeal.main_v33 (by decide)).trans ((Cert.KernelIdeal.Gen.V12_of m outs c Cert.KernelIdeal.main_v33 (by decide)).trans ((Cert.KernelIdeal.Gen.V11_of m outs c Cert.KernelIdeal.main_v33 (by decide)).trans ((Cert.KernelIdeal.Gen.V10_of m outs c Cert.KernelIdeal.main_v33 (by decide)).trans ((Cert.KernelIdeal.Gen.V9_of m outs c Cert.KernelIdeal.main_v33 (by decide)).trans ((Cert.KernelIdeal.Gen.V8_of m outs c Cert.KernelIdeal.main_v33 (by decide)).trans ((Cert.KernelIdeal.Gen.V7_of m outs c Cert.KernelIdeal.main_v33 (by decide)).trans (Cert.KernelIdeal.Gen.V6_of m outs c Cert.KernelIdeal.main_v33 (by decide)))))))))))))).trans (after_binary each_hostOps0_4 (Cert.KernelIdeal.Gen.V4 m c) 18 _ _ _ _ _ _ _ rfl (by decide) (by decide) (by decide))
  have hR := after_binary eachR (launchContents m' c) 47 _ _ _ _ _ _ _ rfl (by decide) (by decide) (by decide)
  have E0 : after (Cert.KernelIdeal.Gen.hostOps0_4 (F := Ideal)) (Cert.KernelIdeal.Gen.V4 m c) (Proc.devRef .tc Cert.KernelIdeal.main_v18) = Rf m' c Cert.ReferenceIdeal.main_v18 :=
    (((Cert.KernelIdeal.Gen.V17_of m outs c Cert.KernelIdeal.main_v18 (by decide)).trans ((Cert.KernelIdeal.Gen.V16_of m outs c Cert.KernelIdeal.main_v18 (by decide)).trans ((Cert.KernelIdeal.Gen.V15_of m outs c Cert.KernelIdeal.main_v18 (by decide)).trans ((Cert.KernelIdeal.Gen.V14_of m outs c Cert.KernelIdeal.main_v18 (by decide)).trans ((Cert.KernelIdeal.Gen.V13_of m outs c Cert.KernelIdeal.main_v18 (by decide)).trans ((Cert.KernelIdeal.Gen.V12_of m outs c Cert.KernelIdeal.main_v18 (by decide)).trans ((Cert.KernelIdeal.Gen.V11_of m outs c Cert.KernelIdeal.main_v18 (by decide)).trans ((Cert.KernelIdeal.Gen.V10_of m outs c Cert.KernelIdeal.main_v18 (by decide)).trans ((Cert.KernelIdeal.Gen.V9_of m outs c Cert.KernelIdeal.main_v18 (by decide)).trans ((Cert.KernelIdeal.Gen.V8_of m outs c Cert.KernelIdeal.main_v18 (by decide)).trans ((Cert.KernelIdeal.Gen.V7_of m outs c Cert.KernelIdeal.main_v18 (by decide)).trans (Cert.KernelIdeal.Gen.V6_of m outs c Cert.KernelIdeal.main_v18 (by decide)))))))))))))).symm.trans (same_main_v18 m outs m' hag c)
  have E1 : after (Cert.KernelIdeal.Gen.hostOps0_4 (F := Ideal)) (Cert.KernelIdeal.Gen.V4 m c) (Proc.devRef .tc Cert.KernelIdeal.main_v32) = Rf m' c Cert.ReferenceIdeal.main_v32 :=
    (((Cert.KernelIdeal.Gen.V17_of m outs c Cert.KernelIdeal.main_v32 (by decide)).trans ((Cert.KernelIdeal.Gen.V16_of m outs c Cert.KernelIdeal.main_v32 (by decide)).trans ((Cert.KernelIdeal.Gen.V15_of m outs c Cert.KernelIdeal.main_v32 (by decide)).trans ((Cert.KernelIdeal.Gen.V14_of m outs c Cert.KernelIdeal.main_v32 (by decide)).trans ((Cert.KernelIdeal.Gen.V13_of m outs c Cert.KernelIdeal.main_v32 (by decide)).trans ((Cert.KernelIdeal.Gen.V12_of m outs c Cert.KernelIdeal.main_v32 (by decide)).trans ((Cert.KernelIdeal.Gen.V11_of m outs c Cert.KernelIdeal.main_v32 (by decide)).trans ((Cert.KernelIdeal.Gen.V10_of m outs c Cert.KernelIdeal.main_v32 (by decide)).trans ((Cert.KernelIdeal.Gen.V9_of m outs c Cert.KernelIdeal.main_v32 (by decide)).trans ((Cert.KernelIdeal.Gen.V8_of m outs c Cert.KernelIdeal.main_v32 (by decide)).trans ((Cert.KernelIdeal.Gen.V7_of m outs c Cert.KernelIdeal.main_v32 (by decide)).trans (Cert.KernelIdeal.Gen.V6_of m outs c Cert.KernelIdeal.main_v32 (by decide)))))))))))))).symm.trans (same_main_v32 m outs m' hag c)
  rw [E0, E1] at hK
  exact hK.trans hR.symm

theorem same_main_v34 : Cert.KernelIdeal.Gen.V17 m outs c Cert.KernelIdeal.main_v34 = Rf m' c Cert.ReferenceIdeal.main_v34 := by
  have hK := (((Cert.KernelIdeal.Gen.V17_of m outs c Cert.KernelIdeal.main_v34 (by decide)).trans ((Cert.KernelIdeal.Gen.V16_of m outs c Cert.KernelIdeal.main_v34 (by decide)).trans ((Cert.KernelIdeal.Gen.V15_of m outs c Cert.KernelIdeal.main_v34 (by decide)).trans ((Cert.KernelIdeal.Gen.V14_of m outs c Cert.KernelIdeal.main_v34 (by decide)).trans ((Cert.KernelIdeal.Gen.V13_of m outs c Cert.KernelIdeal.main_v34 (by decide)).trans ((Cert.KernelIdeal.Gen.V12_of m outs c Cert.KernelIdeal.main_v34 (by decide)).trans ((Cert.KernelIdeal.Gen.V11_of m outs c Cert.KernelIdeal.main_v34 (by decide)).trans ((Cert.KernelIdeal.Gen.V10_of m outs c Cert.KernelIdeal.main_v34 (by decide)).trans ((Cert.KernelIdeal.Gen.V9_of m outs c Cert.KernelIdeal.main_v34 (by decide)).trans ((Cert.KernelIdeal.Gen.V8_of m outs c Cert.KernelIdeal.main_v34 (by decide)).trans ((Cert.KernelIdeal.Gen.V7_of m outs c Cert.KernelIdeal.main_v34 (by decide)).trans (Cert.KernelIdeal.Gen.V6_of m outs c Cert.KernelIdeal.main_v34 (by decide)))))))))))))).trans (after_binary each_hostOps0_4 (Cert.KernelIdeal.Gen.V4 m c) 19 _ _ _ _ _ _ _ rfl (by decide) (by decide) (by decide))
  have hR := after_binary eachR (launchContents m' c) 48 _ _ _ _ _ _ _ rfl (by decide) (by decide) (by decide)
  have E0 : after (Cert.KernelIdeal.Gen.hostOps0_4 (F := Ideal)) (Cert.KernelIdeal.Gen.V4 m c) (Proc.devRef .tc Cert.KernelIdeal.main_v26) = Rf m' c Cert.ReferenceIdeal.main_v26 :=
    (((Cert.KernelIdeal.Gen.V17_of m outs c Cert.KernelIdeal.main_v26 (by decide)).trans ((Cert.KernelIdeal.Gen.V16_of m outs c Cert.KernelIdeal.main_v26 (by decide)).trans ((Cert.KernelIdeal.Gen.V15_of m outs c Cert.KernelIdeal.main_v26 (by decide)).trans ((Cert.KernelIdeal.Gen.V14_of m outs c Cert.KernelIdeal.main_v26 (by decide)).trans ((Cert.KernelIdeal.Gen.V13_of m outs c Cert.KernelIdeal.main_v26 (by decide)).trans ((Cert.KernelIdeal.Gen.V12_of m outs c Cert.KernelIdeal.main_v26 (by decide)).trans ((Cert.KernelIdeal.Gen.V11_of m outs c Cert.KernelIdeal.main_v26 (by decide)).trans ((Cert.KernelIdeal.Gen.V10_of m outs c Cert.KernelIdeal.main_v26 (by decide)).trans ((Cert.KernelIdeal.Gen.V9_of m outs c Cert.KernelIdeal.main_v26 (by decide)).trans ((Cert.KernelIdeal.Gen.V8_of m outs c Cert.KernelIdeal.main_v26 (by decide)).trans ((Cert.KernelIdeal.Gen.V7_of m outs c Cert.KernelIdeal.main_v26 (by decide)).trans (Cert.KernelIdeal.Gen.V6_of m outs c Cert.KernelIdeal.main_v26 (by decide)))))))))))))).symm.trans (same_main_v26 m outs m' hag c)
  have E1 : after (Cert.KernelIdeal.Gen.hostOps0_4 (F := Ideal)) (Cert.KernelIdeal.Gen.V4 m c) (Proc.devRef .tc Cert.KernelIdeal.main_v33) = Rf m' c Cert.ReferenceIdeal.main_v33 :=
    (((Cert.KernelIdeal.Gen.V17_of m outs c Cert.KernelIdeal.main_v33 (by decide)).trans ((Cert.KernelIdeal.Gen.V16_of m outs c Cert.KernelIdeal.main_v33 (by decide)).trans ((Cert.KernelIdeal.Gen.V15_of m outs c Cert.KernelIdeal.main_v33 (by decide)).trans ((Cert.KernelIdeal.Gen.V14_of m outs c Cert.KernelIdeal.main_v33 (by decide)).trans ((Cert.KernelIdeal.Gen.V13_of m outs c Cert.KernelIdeal.main_v33 (by decide)).trans ((Cert.KernelIdeal.Gen.V12_of m outs c Cert.KernelIdeal.main_v33 (by decide)).trans ((Cert.KernelIdeal.Gen.V11_of m outs c Cert.KernelIdeal.main_v33 (by decide)).trans ((Cert.KernelIdeal.Gen.V10_of m outs c Cert.KernelIdeal.main_v33 (by decide)).trans ((Cert.KernelIdeal.Gen.V9_of m outs c Cert.KernelIdeal.main_v33 (by decide)).trans ((Cert.KernelIdeal.Gen.V8_of m outs c Cert.KernelIdeal.main_v33 (by decide)).trans ((Cert.KernelIdeal.Gen.V7_of m outs c Cert.KernelIdeal.main_v33 (by decide)).trans (Cert.KernelIdeal.Gen.V6_of m outs c Cert.KernelIdeal.main_v33 (by decide)))))))))))))).symm.trans (same_main_v33 m outs m' hag c)
  rw [E0, E1] at hK
  exact hK.trans hR.symm

end Cert.Same

end
-- ==== Proof.Same.B.lean ====
import proofs.«178557_j80719615361183_1_alg».proof.Proof.Same.A

set_option maxRecDepth 16384

noncomputable section

namespace Cert.Same

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ) (outs : Cert.KernelIdeal.Gen.Outs (F := Ideal))
  (m' : (ℓ : Loc Cert.ReferenceIdeal.nD Cert.ReferenceIdeal.τ Cert.ReferenceIdeal.sig) → Buf (Elt Ideal) ℓ)
  (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
  (c : Dev Cert.KernelIdeal.nD)
variable (h35 : Cert.KernelIdeal.Gen.V17 m outs c Cert.KernelIdeal.main_v35 = Rf m' c Cert.ReferenceIdeal.main_v35)
include hag h35

/-! # The first graph layer and its normalisation: every host operation between the two products -/

theorem same_main_c_8 : Cert.KernelIdeal.Gen.V17 m outs c Cert.KernelIdeal.main_c_8 = Rf m' c Cert.ReferenceIdeal.main_c_8 := by
  have hK := (((Cert.KernelIdeal.Gen.V17_of m outs c Cert.KernelIdeal.main_c_8 (by decide)).trans ((Cert.KernelIdeal.Gen.V16_of m outs c Cert.KernelIdeal.main_c_8 (by decide)).trans ((Cert.KernelIdeal.Gen.V15_of m outs c Cert.KernelIdeal.main_c_8 (by decide)).trans ((Cert.KernelIdeal.Gen.V14_of m outs c Cert.KernelIdeal.main_c_8 (by decide)).trans ((Cert.KernelIdeal.Gen.V13_of m outs c Cert.KernelIdeal.main_c_8 (by decide)).trans ((Cert.KernelIdeal.Gen.V12_of m outs c Cert.KernelIdeal.main_c_8 (by decide)).trans ((Cert.KernelIdeal.Gen.V11_of m outs c Cert.KernelIdeal.main_c_8 (by decide)).trans ((Cert.KernelIdeal.Gen.V10_of m outs c Cert.KernelIdeal.main_c_8 (by decide)).trans ((Cert.KernelIdeal.Gen.V9_of m outs c Cert.KernelIdeal.main_c_8 (by decide)).trans (Cert.KernelIdeal.Gen.V8_of m outs c Cert.KernelIdeal.main_c_8 (by decide)))))))))))).trans (after_nullary each_hostOps1 (Cert.KernelIdeal.Gen.V6 m outs c) 0 _ _ _ rfl (by decide))
  have hR := after_nullary eachR (launchContents m' c) 50 _ _ _ rfl (by decide)

  exact hK.trans hR.symm

theorem same_main_v36 : Cert.KernelIdeal.Gen.V17 m outs c Cert.KernelIdeal.main_v36 = Rf m' c Cert.ReferenceIdeal.main_v36 := by
  have hK := (((Cert.KernelIdeal.Gen.V17_of m outs c Cert.KernelIdeal.main_v36 (by decide)).trans ((Cert.KernelIdeal.Gen.V16_of m outs c Cert.KernelIdeal.main_v36 (by decide)).trans ((Cert.KernelIdeal.Gen.V15_of m outs c Cert.KernelIdeal.main_v36 (by decide)).trans ((Cert.KernelIdeal.Gen.V14_of m outs c Cert.KernelIdeal.main_v36 (by decide)).trans ((Cert.KernelIdeal.Gen.V13_of m outs c Cert.KernelIdeal.main_v36 (by decide)).trans ((Cert.KernelIdeal.Gen.V12_of m outs c Cert.KernelIdeal.main_v36 (by decide)).trans ((Cert.KernelIdeal.Gen.V11_of m outs c Cert.KernelIdeal.main_v36 (by decide)).trans ((Cert.KernelIdeal.Gen.V10_of m outs c Cert.KernelIdeal.main_v36 (by decide)).trans ((Cert.KernelIdeal.Gen.V9_of m outs c Cert.KernelIdeal.main_v36 (by decide)).trans (Cert.KernelIdeal.Gen.V8_of m outs c Cert.KernelIdeal.main_v36 (by decide)))))))))))).trans (after_unary each_hostOps1 (Cert.KernelIdeal.Gen.V6 m outs c) 1 _ _ _ _ _ rfl (by decide) (by decide))
  have hR := after_unary eachR (launchContents m' c) 51 _ _ _ _ _ rfl (by decide) (by decide)
  have E0 : after (Cert.KernelIdeal.Gen.hostOps1 (F := Ideal)) (Cert.KernelIdeal.Gen.V6 m outs c) (Proc.devRef .tc Cert.KernelIdeal.main_c_8) = Rf m' c Cert.ReferenceIdeal.main_c_8 :=
    (((Cert.KernelIdeal.Gen.V17_of m outs c Cert.KernelIdeal.main_c_8 (by decide)).trans ((Cert.KernelIdeal.Gen.V16_of m outs c Cert.KernelIdeal.main_c_8 (by decide)).trans ((Cert.KernelIdeal.Gen.V15_of m outs c Cert.KernelIdeal.main_c_8 (by decide)).trans ((Cert.KernelIdeal.Gen.V14_of m outs c Cert.KernelIdeal.main_c_8 (by decide)).trans ((Cert.KernelIdeal.Gen.V13_of m outs c Cert.KernelIdeal.main_c_8 (by decide)).trans ((Cert.KernelIdeal.Gen.V12_of m outs c Cert.KernelIdeal.main_c_8 (by decide)).trans ((Cert.KernelIdeal.Gen.V11_of m outs c Cert.KernelIdeal.main_c_8 (by decide)).trans ((Cert.KernelIdeal.Gen.V10_of m outs c Cert.KernelIdeal.main_c_8 (by decide)).trans ((Cert.KernelIdeal.Gen.V9_of m outs c Cert.KernelIdeal.main_c_8 (by decide)).trans (Cert.KernelIdeal.Gen.V8_of m outs c Cert.KernelIdeal.main_c_8 (by decide)))))))))))).symm.trans (same_main_c_8 m outs m' hag c h35)
  rw [E0] at hK
  exact hK.trans hR.symm

theorem same_main_v37 : Cert.KernelIdeal.Gen.V17 m outs c Cert.KernelIdeal.main_v37 = Rf m' c Cert.ReferenceIdeal.main_v37 := by
  have hK := (((Cert.KernelIdeal.Gen.V17_of m outs c Cert.KernelIdeal.main_v37 (by decide)).trans ((Cert.KernelIdeal.Gen.V16_of m outs c Cert.KernelIdeal.main_v37 (by decide)).trans ((Cert.KernelIdeal.Gen.V15_of m outs c Cert.KernelIdeal.main_v37 (by decide)).trans ((Cert.KernelIdeal.Gen.V14_of m outs c Cert.KernelIdeal.main_v37 (by decide)).trans ((Cert.KernelIdeal.Gen.V13_of m outs c Cert.KernelIdeal.main_v37 (by decide)).trans ((Cert.KernelIdeal.Gen.V12_of m outs c Cert.KernelIdeal.main_v37 (by decide)).trans ((Cert.KernelIdeal.Gen.V11_of m outs c Cert.KernelIdeal.main_v37 (by decide)).trans ((Cert.KernelIdeal.Gen.V10_of m outs c Cert.KernelIdeal.main_v37 (by decide)).trans ((Cert.KernelIdeal.Gen.V9_of m outs c Cert.KernelIdeal.main_v37 (by decide)).trans (Cert.KernelIdeal.Gen.V8_of m outs c Cert.KernelIdeal.main_v37 (by decide)))))))))))).trans (after_binary each_hostOps1 (Cert.KernelIdeal.Gen.V6 m outs c) 2 _ _ _ _ _ _ _ rfl (by decide) (by decide) (by decide))
  have hR := after_binary eachR (launchContents m' c) 52 _ _ _ _ _ _ _ rfl (by decide) (by decide) (by decide)
  have E0 : after (Cert.KernelIdeal.Gen.hostOps1 (F := Ideal)) (Cert.KernelIdeal.Gen.V6 m outs c) (Proc.devRef .tc Cert.KernelIdeal.main_v5) = Rf m' c Cert.ReferenceIdeal.main_v5 :=
    (((Cert.KernelIdeal.Gen.V17_of m outs c Cert.KernelIdeal.main_v5 (by decide)).trans ((Cert.KernelIdeal.Gen.V16_of m outs c Cert.KernelIdeal.main_v5 (by decide)).trans ((Cert.KernelIdeal.Gen.V15_of m outs c Cert.KernelIdeal.main_v5 (by decide)).trans ((Cert.KernelIdeal.Gen.V14_of m outs c Cert.KernelIdeal.main_v5 (by decide)).trans ((Cert.KernelIdeal.Gen.V13_of m outs c Cert.KernelIdeal.main_v5 (by decide)).trans ((Cert.KernelIdeal.Gen.V12_of m outs c Cert.KernelIdeal.main_v5 (by decide)).trans ((Cert.KernelIdeal.Gen.V11_of m outs c Cert.KernelIdeal.main_v5 (by decide)).trans ((Cert.KernelIdeal.Gen.V10_of m outs c Cert.KernelIdeal.main_v5 (by decide)).trans ((Cert.KernelIdeal.Gen.V9_of m outs c Cert.KernelIdeal.main_v5 (by decide)).trans (Cert.KernelIdeal.Gen.V8_of m outs c Cert.KernelIdeal.main_v5 (by decide)))))))))))).symm.trans (same_main_v5 m outs m' hag c)
  have E1 : after (Cert.KernelIdeal.Gen.hostOps1 (F := Ideal)) (Cert.KernelIdeal.Gen.V6 m outs c) (Proc.devRef .tc Cert.KernelIdeal.main_v36) = Rf m' c Cert.ReferenceIdeal.main_v36 :=
    (((Cert.KernelIdeal.Gen.V17_of m outs c Cert.KernelIdeal.main_v36 (by decide)).trans ((Cert.KernelIdeal.Gen.V16_of m outs c Cert.KernelIdeal.main_v36 (by decide)).trans ((Cert.KernelIdeal.Gen.V15_of m outs c Cert.KernelIdeal.main_v36 (by decide)).trans ((Cert.KernelIdeal.Gen.V14_of m outs c Cert.KernelIdeal.main_v36 (by decide)).trans ((Cert.KernelIdeal.Gen.V13_of m outs c Cert.KernelIdeal.main_v36 (by decide)).trans ((Cert.KernelIdeal.Gen.V12_of m outs c Cert.KernelIdeal.main_v36 (by decide)).trans ((Cert.KernelIdeal.Gen.V11_of m outs c Cert.KernelIdeal.main_v36 (by decide)).trans ((Cert.KernelIdeal.Gen.V10_of m outs c Cert.KernelIdeal.main_v36 (by decide)).trans ((Cert.KernelIdeal.Gen.V9_of m outs c Cert.KernelIdeal.main_v36 (by decide)).trans (Cert.KernelIdeal.Gen.V8_of m outs c Cert.KernelIdeal.main_v36 (by decide)))))))))))).symm.trans (same_main_v36 m outs m' hag c h35)
  rw [E0, E1] at hK
  exact hK.trans hR.symm

theorem same_main_c_9 : Cert.KernelIdeal.Gen.V17 m outs c Cert.KernelIdeal.main_c_9 = Rf m' c Cert.ReferenceIdeal.main_c_9 := by
  have hK := (((Cert.KernelIdeal.Gen.V17_of m outs c Cert.KernelIdeal.main_c_9 (by decide)).trans ((Cert.KernelIdeal.Gen.V16_of m outs c Cert.KernelIdeal.main_c_9 (by decide)).trans ((Cert.KernelIdeal.Gen.V15_of m outs c Cert.KernelIdeal.main_c_9 (by decide)).trans ((Cert.KernelIdeal.Gen.V14_of m outs c Cert.KernelIdeal.main_c_9 (by decide)).trans ((Cert.KernelIdeal.Gen.V13_of m outs c Cert.KernelIdeal.main_c_9 (by decide)).trans ((Cert.KernelIdeal.Gen.V12_of m outs c Cert.KernelIdeal.main_c_9 (by decide)).trans ((Cert.KernelIdeal.Gen.V11_of m outs c Cert.KernelIdeal.main_c_9 (by decide)).trans ((Cert.KernelIdeal.Gen.V10_of m outs c Cert.KernelIdeal.main_c_9 (by decide)).trans ((Cert.KernelIdeal.Gen.V9_of m outs c Cert.KernelIdeal.main_c_9 (by decide)).trans (Cert.KernelIdeal.Gen.V8_of m outs c Cert.KernelIdeal.main_c_9 (by decide)))))))))))).trans (after_nullary each_hostOps1 (Cert.KernelIdeal.Gen.V6 m outs c) 3 _ _ _ rfl (by decide))
  have hR := after_nullary eachR (launchContents m' c) 53 _ _ _ rfl (by decide)

  exact hK.trans hR.symm

theorem same_main_v38 : Cert.KernelIdeal.Gen.V17 m outs c Cert.KernelIdeal.main_v38 = Rf m' c Cert.ReferenceIdeal.main_v38 := by
  have hK := (((Cert.KernelIdeal.Gen.V17_of m outs c Cert.KernelIdeal.main_v38 (by decide)).trans ((Cert.KernelIdeal.Gen.V16_of m outs c Cert.KernelIdeal.main_v38 (by decide)).trans ((Cert.KernelIdeal.Gen.V15_of m outs c Cert.KernelIdeal.main_v38 (by decide)).trans ((Cert.KernelIdeal.Gen.V14_of m outs c Cert.KernelIdeal.main_v38 (by decide)).trans ((Cert.KernelIdeal.Gen.V13_of m outs c Cert.KernelIdeal.main_v38 (by decide)).trans ((Cert.KernelIdeal.Gen.V12_of m outs c Cert.KernelIdeal.main_v38 (by decide)).trans ((Cert.KernelIdeal.Gen.V11_of m outs c Cert.KernelIdeal.main_v38 (by decide)).trans ((Cert.KernelIdeal.Gen.V10_of m outs c Cert.KernelIdeal.main_v38 (by decide)).trans ((Cert.KernelIdeal.Gen.V9_of m outs c Cert.KernelIdeal.main_v38 (by decide)).trans (Cert.KernelIdeal.Gen.V8_of m outs c Cert.KernelIdeal.main_v38 (by decide)))))))))))).trans (after_unary each_hostOps1 (Cert.KernelIdeal.Gen.V6 m outs c) 4 _ _ _ _ _ rfl (by decide) (by decide))
  have hR := after_unary eachR (launchContents m' c) 54 _ _ _ _ _ rfl (by decide) (by decide)
  have E0 : after (Cert.KernelIdeal.Gen.hostOps1 (F := Ideal)) (Cert.KernelIdeal.Gen.V6 m outs c) (Proc.devRef .tc Cert.KernelIdeal.main_c_9) = Rf m' c Cert.ReferenceIdeal.main_c_9 :=
    (((Cert.KernelIdeal.Gen.V17_of m outs c Cert.KernelIdeal.main_c_9 (by decide)).trans ((Cert.KernelIdeal.Gen.V16_of m outs c Cert.KernelIdeal.main_c_9 (by decide)).trans ((Cert.KernelIdeal.Gen.V15_of m outs c Cert.KernelIdeal.main_c_9 (by decide)).trans ((Cert.KernelIdeal.Gen.V14_of m outs c Cert.KernelIdeal.main_c_9 (by decide)).trans ((Cert.KernelIdeal.Gen.V13_of m outs c Cert.KernelIdeal.main_c_9 (by decide)).trans ((Cert.KernelIdeal.Gen.V12_of m outs c Cert.KernelIdeal.main_c_9 (by decide)).trans ((Cert.KernelIdeal.Gen.V11_of m outs c Cert.KernelIdeal.main_c_9 (by decide)).trans ((Cert.KernelIdeal.Gen.V10_of m outs c Cert.KernelIdeal.main_c_9 (by decide)).trans ((Cert.KernelIdeal.Gen.V9_of m outs c Cert.KernelIdeal.main_c_9 (by decide)).trans (Cert.KernelIdeal.Gen.V8_of m outs c Cert.KernelIdeal.main_c_9 (by decide)))))))))))).symm.trans (same_main_c_9 m outs m' hag c h35)
  rw [E0] at hK
  exact hK.trans hR.symm

theorem same_main_v39 : Cert.KernelIdeal.Gen.V17 m outs c Cert.KernelIdeal.main_v39 = Rf m' c Cert.ReferenceIdeal.main_v39 := by
  have hK := (((Cert.KernelIdeal.Gen.V17_of m outs c Cert.KernelIdeal.main_v39 (by decide)).trans ((Cert.KernelIdeal.Gen.V16_of m outs c Cert.KernelIdeal.main_v39 (by decide)).trans ((Cert.KernelIdeal.Gen.V15_of m outs c Cert.KernelIdeal.main_v39 (by decide)).trans ((Cert.KernelIdeal.Gen.V14_of m outs c Cert.KernelIdeal.main_v39 (by decide)).trans ((Cert.KernelIdeal.Gen.V13_of m outs c Cert.KernelIdeal.main_v39 (by decide)).trans ((Cert.KernelIdeal.Gen.V12_of m outs c Cert.KernelIdeal.main_v39 (by decide)).trans ((Cert.KernelIdeal.Gen.V11_of m outs c Cert.KernelIdeal.main_v39 (by decide)).trans ((Cert.KernelIdeal.Gen.V10_of m outs c Cert.KernelIdeal.main_v39 (by decide)).trans ((Cert.KernelIdeal.Gen.V9_of m outs c Cert.KernelIdeal.main_v39 (by decide)).trans (Cert.KernelIdeal.Gen.V8_of m outs c Cert.KernelIdeal.main_v39 (by decide)))))))))))).trans (after_binary each_hostOps1 (Cert.KernelIdeal.Gen.V6 m outs c) 5 _ _ _ _ _ _ _ rfl (by decide) (by decide) (by decide))
  have hR := after_binary eachR (launchContents m' c) 55 _ _ _ _ _ _ _ rfl (by decide) (by decide) (by decide)
  have E0 : after (Cert.KernelIdeal.Gen.hostOps1 (F := Ideal)) (Cert.KernelIdeal.Gen.V6 m outs c) (Proc.devRef .tc Cert.KernelIdeal.main_v5) = Rf m' c Cert.ReferenceIdeal.main_v5 :=
    (((Cert.KernelIdeal.Gen.V17_of m outs c Cert.KernelIdeal.main_v5 (by decide)).trans ((Cert.KernelIdeal.Gen.V16_of m outs c Cert.KernelIdeal.main_v5 (by decide)).trans ((Cert.KernelIdeal.Gen.V15_of m outs c Cert.KernelIdeal.main_v5 (by decide)).trans ((Cert.KernelIdeal.Gen.V14_of m outs c Cert.KernelIdeal.main_v5 (by decide)).trans ((Cert.KernelIdeal.Gen.V13_of m outs c Cert.KernelIdeal.main_v5 (by decide)).trans ((Cert.KernelIdeal.Gen.V12_of m outs c Cert.KernelIdeal.main_v5 (by decide)).trans ((Cert.KernelIdeal.Gen.V11_of m outs c Cert.KernelIdeal.main_v5 (by decide)).trans ((Cert.KernelIdeal.Gen.V10_of m outs c Cert.KernelIdeal.main_v5 (by decide)).trans ((Cert.KernelIdeal.Gen.V9_of m outs c Cert.KernelIdeal.main_v5 (by decide)).trans (Cert.KernelIdeal.Gen.V8_of m outs c Cert.KernelIdeal.main_v5 (by decide)))))))))))).symm.trans (same_main_v5 m outs m' hag c)
  have E1 : after (Cert.KernelIdeal.Gen.hostOps1 (F := Ideal)) (Cert.KernelIdeal.Gen.V6 m outs c) (Proc.devRef .tc Cert.KernelIdeal.main_v38) = Rf m' c Cert.ReferenceIdeal.main_v38 :=
    (((Cert.KernelIdeal.Gen.V17_of m outs c Cert.KernelIdeal.main_v38 (by decide)).trans ((Cert.KernelIdeal.Gen.V16_of m outs c Cert.KernelIdeal.main_v38 (by decide)).trans ((Cert.KernelIdeal.Gen.V15_of m outs c Cert.KernelIdeal.main_v38 (by decide)).trans ((Cert.KernelIdeal.Gen.V14_of m outs c Cert.KernelIdeal.main_v38 (by decide)).trans ((Cert.KernelIdeal.Gen.V13_of m outs c Cert.KernelIdeal.main_v38 (by decide)).trans ((Cert.KernelIdeal.Gen.V12_of m outs c Cert.KernelIdeal.main_v38 (by decide)).trans ((Cert.KernelIdeal.Gen.V11_of m outs c Cert.KernelIdeal.main_v38 (by decide)).trans ((Cert.KernelIdeal.Gen.V10_of m outs c Cert.KernelIdeal.main_v38 (by decide)).trans ((Cert.KernelIdeal.Gen.V9_of m outs c Cert.KernelIdeal.main_v38 (by decide)).trans (Cert.KernelIdeal.Gen.V8_of m outs c Cert.KernelIdeal.main_v38 (by decide)))))))))))).symm.trans (same_main_v38 m outs m' hag c h35)
  rw [E0, E1] at hK
  exact hK.trans hR.symm

theorem same_main_v40 : Cert.KernelIdeal.Gen.V17 m outs c Cert.KernelIdeal.main_v40 = Rf m' c Cert.ReferenceIdeal.main_v40 := by
  have hK := (((Cert.KernelIdeal.Gen.V17_of m outs c Cert.KernelIdeal.main_v40 (by decide)).trans ((Cert.KernelIdeal.Gen.V16_of m outs c Cert.KernelIdeal.main_v40 (by decide)).trans ((Cert.KernelIdeal.Gen.V15_of m outs c Cert.KernelIdeal.main_v40 (by decide)).trans ((Cert.KernelIdeal.Gen.V14_of m outs c Cert.KernelIdeal.main_v40 (by decide)).trans ((Cert.KernelIdeal.Gen.V13_of m outs c Cert.KernelIdeal.main_v40 (by decide)).trans ((Cert.KernelIdeal.Gen.V12_of m outs c Cert.KernelIdeal.main_v40 (by decide)).trans ((Cert.KernelIdeal.Gen.V11_of m outs c Cert.KernelIdeal.main_v40 (by decide)).trans ((Cert.KernelIdeal.Gen.V10_of m outs c Cert.KernelIdeal.main_v40 (by decide)).trans ((Cert.KernelIdeal.Gen.V9_of m outs c Cert.KernelIdeal.main_v40 (by decide)).trans (Cert.KernelIdeal.Gen.V8_of m outs c Cert.KernelIdeal.main_v40 (by decide)))))))))))).trans (after_ternary each_hostOps1 (Cert.KernelIdeal.Gen.V6 m outs c) 6 _ _ _ _ _ _ _ _ _ rfl (by decide) (by decide) (by decide) (by decide))
  have hR := after_ternary eachR (launchContents m' c) 56 _ _ _ _ _ _ _ _ _ rfl (by decide) (by decide) (by decide) (by decide)
  have E0 : after (Cert.KernelIdeal.Gen.hostOps1 (F := Ideal)) (Cert.KernelIdeal.Gen.V6 m outs c) (Proc.devRef .tc Cert.KernelIdeal.main_v37) = Rf m' c Cert.ReferenceIdeal.main_v37 :=
    (((Cert.KernelIdeal.Gen.V17_of m outs c Cert.KernelIdeal.main_v37 (by decide)).trans ((Cert.KernelIdeal.Gen.V16_of m outs c Cert.KernelIdeal.main_v37 (by decide)).trans ((Cert.KernelIdeal.Gen.V15_of m outs c Cert.KernelIdeal.main_v37 (by decide)).trans ((Cert.KernelIdeal.Gen.V14_of m outs c Cert.KernelIdeal.main_v37 (by decide)).trans ((Cert.KernelIdeal.Gen.V13_of m outs c Cert.KernelIdeal.main_v37 (by decide)).trans ((Cert.KernelIdeal.Gen.V12_of m outs c Cert.KernelIdeal.main_v37 (by decide)).trans ((Cert.KernelIdeal.Gen.V11_of m outs c Cert.KernelIdeal.main_v37 (by decide)).trans ((Cert.KernelIdeal.Gen.V10_of m outs c Cert.KernelIdeal.main_v37 (by decide)).trans ((Cert.KernelIdeal.Gen.V9_of m outs c Cert.KernelIdeal.main_v37 (by decide)).trans (Cert.KernelIdeal.Gen.V8_of m outs c Cert.KernelIdeal.main_v37 (by decide)))))))))))).symm.trans (same_main_v37 m outs m' hag c h35)
  have E1 : after (Cert.KernelIdeal.Gen.hostOps1 (F := Ideal)) (Cert.KernelIdeal.Gen.V6 m outs c) (Proc.devRef .tc Cert.KernelIdeal.main_v39) = Rf m' c Cert.ReferenceIdeal.main_v39 :=
    (((Cert.KernelIdeal.Gen.V17_of m outs c Cert.KernelIdeal.main_v39 (by decide)).trans ((Cert.KernelIdeal.Gen.V16_of m outs c Cert.KernelIdeal.main_v39 (by decide)).trans ((Cert.KernelIdeal.Gen.V15_of m outs c Cert.KernelIdeal.main_v39 (by decide)).trans ((Cert.KernelIdeal.Gen.V14_of m outs c Cert.KernelIdeal.main_v39 (by decide)).trans ((Cert.KernelIdeal.Gen.V13_of m outs c Cert.KernelIdeal.main_v39 (by decide)).trans ((Cert.KernelIdeal.Gen.V12_of m outs c Cert.KernelIdeal.main_v39 (by decide)).trans ((Cert.KernelIdeal.Gen.V11_of m outs c Cert.KernelIdeal.main_v39 (by decide)).trans ((Cert.KernelIdeal.Gen.V10_of m outs c Cert.KernelIdeal.main_v39 (by decide)).trans ((Cert.KernelIdeal.Gen.V9_of m outs c Cert.KernelIdeal.main_v39 (by decide)).trans (Cert.KernelIdeal.Gen.V8_of m outs c Cert.KernelIdeal.main_v39 (by decide)))))))))))).symm.trans (same_main_v39 m outs m' hag c h35)
  have E2 : after (Cert.KernelIdeal.Gen.hostOps1 (F := Ideal)) (Cert.KernelIdeal.Gen.V6 m outs c) (Proc.devRef .tc Cert.KernelIdeal.main_v5) = Rf m' c Cert.ReferenceIdeal.main_v5 :=
    (((Cert.KernelIdeal.Gen.V17_of m outs c Cert.KernelIdeal.main_v5 (by decide)).trans ((Cert.KernelIdeal.Gen.V16_of m outs c Cert.KernelIdeal.main_v5 (by decide)).trans ((Cert.KernelIdeal.Gen.V15_of m outs c Cert.KernelIdeal.main_v5 (by decide)).trans ((Cert.KernelIdeal.Gen.V14_of m outs c Cert.KernelIdeal.main_v5 (by decide)).trans ((Cert.KernelIdeal.Gen.V13_of m outs c Cert.KernelIdeal.main_v5 (by decide)).trans ((Cert.KernelIdeal.Gen.V12_of m outs c Cert.KernelIdeal.main_v5 (by decide)).trans ((Cert.KernelIdeal.Gen.V11_of m outs c Cert.KernelIdeal.main_v5 (by decide)).trans ((Cert.KernelIdeal.Gen.V10_of m outs c Cert.KernelIdeal.main_v5 (by decide)).trans ((Cert.KernelIdeal.Gen.V9_of m outs c Cert.KernelIdeal.main_v5 (by decide)).trans (Cert.KernelIdeal.Gen.V8_of m outs c Cert.KernelIdeal.main_v5 (by decide)))))))))))).symm.trans (same_main_v5 m outs m' hag c)
  rw [E0, E1, E2] at hK
  exact hK.trans hR.symm

theorem same_main_v41 : Cert.KernelIdeal.Gen.V17 m outs c Cert.KernelIdeal.main_v41 = Rf m' c Cert.ReferenceIdeal.main_v41 := by
  have hK := (((Cert.KernelIdeal.Gen.V17_of m outs c Cert.KernelIdeal.main_v41 (by decide)).trans ((Cert.KernelIdeal.Gen.V16_of m outs c Cert.KernelIdeal.main_v41 (by decide)).trans ((Cert.KernelIdeal.Gen.V15_of m outs c Cert.KernelIdeal.main_v41 (by decide)).trans ((Cert.KernelIdeal.Gen.V14_of m outs c Cert.KernelIdeal.main_v41 (by decide)).trans ((Cert.KernelIdeal.Gen.V13_of m outs c Cert.KernelIdeal.main_v41 (by decide)).trans ((Cert.KernelIdeal.Gen.V12_of m outs c Cert.KernelIdeal.main_v41 (by decide)).trans ((Cert.KernelIdeal.Gen.V11_of m outs c Cert.KernelIdeal.main_v41 (by decide)).trans ((Cert.KernelIdeal.Gen.V10_of m outs c Cert.KernelIdeal.main_v41 (by decide)).trans ((Cert.KernelIdeal.Gen.V9_of m outs c Cert.KernelIdeal.main_v41 (by decide)).trans (Cert.KernelIdeal.Gen.V8_of m outs c Cert.KernelIdeal.main_v41 (by decide)))))))))))).trans (after_unary each_hostOps1 (Cert.KernelIdeal.Gen.V6 m outs c) 7 _ _ _ _ _ rfl (by decide) (by decide))
  have hR := after_unary eachR (launchContents m' c) 57 _ _ _ _ _ rfl (by decide) (by decide)
  have E0 : after (Cert.KernelIdeal.Gen.hostOps1 (F := Ideal)) (Cert.KernelIdeal.Gen.V6 m outs c) (Proc.devRef .tc Cert.KernelIdeal.main_v40) = Rf m' c Cert.ReferenceIdeal.main_v40 :=
    (((Cert.KernelIdeal.Gen.V17_of m outs c Cert.KernelIdeal.main_v40 (by decide)).trans ((Cert.KernelIdeal.Gen.V16_of m outs c Cert.KernelIdeal.main_v40 (by decide)).trans ((Cert.KernelIdeal.Gen.V15_of m outs c Cert.KernelIdeal.main_v40 (by decide)).trans ((Cert.KernelIdeal.Gen.V14_of m outs c Cert.KernelIdeal.main_v40 (by decide)).trans ((Cert.KernelIdeal.Gen.V13_of m outs c Cert.KernelIdeal.main_v40 (by decide)).trans ((Cert.KernelIdeal.Gen.V12_of m outs c Cert.KernelIdeal.main_v40 (by decide)).trans ((Cert.KernelIdeal.Gen.V11_of m outs c Cert.KernelIdeal.main_v40 (by decide)).trans ((Cert.KernelIdeal.Gen.V10_of m outs c Cert.KernelIdeal.main_v40 (by decide)).trans ((Cert.KernelIdeal.Gen.V9_of m outs c Cert.KernelIdeal.main_v40 (by decide)).trans (Cert.KernelIdeal.Gen.V8_of m outs c Cert.KernelIdeal.main_v40 (by decide)))))))))))).symm.trans (same_main_v40 m outs m' hag c h35)
  rw [E0] at hK
  exact hK.trans hR.symm

theorem same_main_v42 : Cert.KernelIdeal.Gen.V17 m outs c Cert.KernelIdeal.main_v42 = Rf m' c Cert.ReferenceIdeal.main_v42 := by
  have hK := (((Cert.KernelIdeal.Gen.V17_of m outs c Cert.KernelIdeal.main_v42 (by decide)).trans ((Cert.KernelIdeal.Gen.V16_of m outs c Cert.KernelIdeal.main_v42 (by decide)).trans ((Cert.KernelIdeal.Gen.V15_of m outs c Cert.KernelIdeal.main_v42 (by decide)).trans ((Cert.KernelIdeal.Gen.V14_of m outs c Cert.KernelIdeal.main_v42 (by decide)).trans ((Cert.KernelIdeal.Gen.V13_of m outs c Cert.KernelIdeal.main_v42 (by decide)).trans ((Cert.KernelIdeal.Gen.V12_of m outs c Cert.KernelIdeal.main_v42 (by decide)).trans ((Cert.KernelIdeal.Gen.V11_of m outs c Cert.KernelIdeal.main_v42 (by decide)).trans ((Cert.KernelIdeal.Gen.V10_of m outs c Cert.KernelIdeal.main_v42 (by decide)).trans ((Cert.KernelIdeal.Gen.V9_of m outs c Cert.KernelIdeal.main_v42 (by decide)).trans (Cert.KernelIdeal.Gen.V8_of m outs c Cert.KernelIdeal.main_v42 (by decide)))))))))))).trans (after_binary each_hostOps1 (Cert.KernelIdeal.Gen.V6 m outs c) 8 _ _ _ _ _ _ _ rfl (by decide) (by decide) (by decide))
  have hR := after_binary eachR (launchContents m' c) 58 _ _ _ _ _ _ _ rfl (by decide) (by decide) (by decide)
  have E0 : after (Cert.KernelIdeal.Gen.hostOps1 (F := Ideal)) (Cert.KernelIdeal.Gen.V6 m outs c) (Proc.devRef .tc Cert.KernelIdeal.main_v35) = Rf m' c Cert.ReferenceIdeal.main_v35 :=
    (((Cert.KernelIdeal.Gen.V17_of m outs c Cert.KernelIdeal.main_v35 (by decide)).trans ((Cert.KernelIdeal.Gen.V16_of m outs c Cert.KernelIdeal.main_v35 (by decide)).trans ((Cert.KernelIdeal.Gen.V15_of m outs c Cert.KernelIdeal.main_v35 (by decide)).trans ((Cert.KernelIdeal.Gen.V14_of m outs c Cert.KernelIdeal.main_v35 (by decide)).trans ((Cert.KernelIdeal.Gen.V13_of m outs c Cert.KernelIdeal.main_v35 (by decide)).trans ((Cert.KernelIdeal.Gen.V12_of m outs c Cert.KernelIdeal.main_v35 (by decide)).trans ((Cert.KernelIdeal.Gen.V11_of m outs c Cert.KernelIdeal.main_v35 (by decide)).trans ((Cert.KernelIdeal.Gen.V10_of m outs c Cert.KernelIdeal.main_v35 (by decide)).trans ((Cert.KernelIdeal.Gen.V9_of m outs c Cert.KernelIdeal.main_v35 (by decide)).trans (Cert.KernelIdeal.Gen.V8_of m outs c Cert.KernelIdeal.main_v35 (by decide)))))))))))).symm.trans h35
  have E1 : after (Cert.KernelIdeal.Gen.hostOps1 (F := Ideal)) (Cert.KernelIdeal.Gen.V6 m outs c) (Proc.devRef .tc Cert.KernelIdeal.main_v41) = Rf m' c Cert.ReferenceIdeal.main_v41 :=
    (((Cert.KernelIdeal.Gen.V17_of m outs c Cert.KernelIdeal.main_v41 (by decide)).trans ((Cert.KernelIdeal.Gen.V16_of m outs c Cert.KernelIdeal.main_v41 (by decide)).trans ((Cert.KernelIdeal.Gen.V15_of m outs c Cert.KernelIdeal.main_v41 (by decide)).trans ((Cert.KernelIdeal.Gen.V14_of m outs c Cert.KernelIdeal.main_v41 (by decide)).trans ((Cert.KernelIdeal.Gen.V13_of m outs c Cert.KernelIdeal.main_v41 (by decide)).trans ((Cert.KernelIdeal.Gen.V12_of m outs c Cert.KernelIdeal.main_v41 (by decide)).trans ((Cert.KernelIdeal.Gen.V11_of m outs c Cert.KernelIdeal.main_v41 (by decide)).trans ((Cert.KernelIdeal.Gen.V10_of m outs c Cert.KernelIdeal.main_v41 (by decide)).trans ((Cert.KernelIdeal.Gen.V9_of m outs c Cert.KernelIdeal.main_v41 (by decide)).trans (Cert.KernelIdeal.Gen.V8_of m outs c Cert.KernelIdeal.main_v41 (by decide)))))))))))).symm.trans (same_main_v41 m outs m' hag c h35)
  rw [E0, E1] at hK
  exact hK.trans hR.symm

theorem same_main_v43 : Cert.KernelIdeal.Gen.V17 m outs c Cert.KernelIdeal.main_v43 = Rf m' c Cert.ReferenceIdeal.main_v43 := by
  have hK := (((Cert.KernelIdeal.Gen.V17_of m outs c Cert.KernelIdeal.main_v43 (by decide)).trans ((Cert.KernelIdeal.Gen.V16_of m outs c Cert.KernelIdeal.main_v43 (by decide)).trans ((Cert.KernelIdeal.Gen.V15_of m outs c Cert.KernelIdeal.main_v43 (by decide)).trans ((Cert.KernelIdeal.Gen.V14_of m outs c Cert.KernelIdeal.main_v43 (by decide)).trans ((Cert.KernelIdeal.Gen.V13_of m outs c Cert.KernelIdeal.main_v43 (by decide)).trans ((Cert.KernelIdeal.Gen.V12_of m outs c Cert.KernelIdeal.main_v43 (by decide)).trans ((Cert.KernelIdeal.Gen.V11_of m outs c Cert.KernelIdeal.main_v43 (by decide)).trans ((Cert.KernelIdeal.Gen.V10_of m outs c Cert.KernelIdeal.main_v43 (by decide)).trans ((Cert.KernelIdeal.Gen.V9_of m outs c Cert.KernelIdeal.main_v43 (by decide)).trans (Cert.KernelIdeal.Gen.V8_of m outs c Cert.KernelIdeal.main_v43 (by decide)))))))))))).trans (after_unary each_hostOps1 (Cert.KernelIdeal.Gen.V6 m outs c) 9 _ _ _ _ _ rfl (by decide) (by decide))
  have hR := after_unary eachR (launchContents m' c) 59 _ _ _ _ _ rfl (by decide) (by decide)
  have E0 : after (Cert.KernelIdeal.Gen.hostOps1 (F := Ideal)) (Cert.KernelIdeal.Gen.V6 m outs c) (Proc.devRef .tc Cert.KernelIdeal.main_v34) = Rf m' c Cert.ReferenceIdeal.main_v34 :=
    (((Cert.KernelIdeal.Gen.V17_of m outs c Cert.KernelIdeal.main_v34 (by decide)).trans ((Cert.KernelIdeal.Gen.V16_of m outs c Cert.KernelIdeal.main_v34 (by decide)).trans ((Cert.KernelIdeal.Gen.V15_of m outs c Cert.KernelIdeal.main_v34 (by decide)).trans ((Cert.KernelIdeal.Gen.V14_of m outs c Cert.KernelIdeal.main_v34 (by decide)).trans ((Cert.KernelIdeal.Gen.V13_of m outs c Cert.KernelIdeal.main_v34 (by decide)).trans ((Cert.KernelIdeal.Gen.V12_of m outs c Cert.KernelIdeal.main_v34 (by decide)).trans ((Cert.KernelIdeal.Gen.V11_of m outs c Cert.KernelIdeal.main_v34 (by decide)).trans ((Cert.KernelIdeal.Gen.V10_of m outs c Cert.KernelIdeal.main_v34 (by decide)).trans ((Cert.KernelIdeal.Gen.V9_of m outs c Cert.KernelIdeal.main_v34 (by decide)).trans (Cert.KernelIdeal.Gen.V8_of m outs c Cert.KernelIdeal.main_v34 (by decide)))))))))))).symm.trans (same_main_v34 m outs m' hag c)
  rw [E0] at hK
  exact hK.trans hR.symm

theorem same_main_v44 : Cert.KernelIdeal.Gen.V17 m outs c Cert.KernelIdeal.main_v44 = Rf m' c Cert.ReferenceIdeal.main_v44 := by
  have hK := (((Cert.KernelIdeal.Gen.V17_of m outs c Cert.KernelIdeal.main_v44 (by decide)).trans ((Cert.KernelIdeal.Gen.V16_of m outs c Cert.KernelIdeal.main_v44 (by decide)).trans ((Cert.KernelIdeal.Gen.V15_of m outs c Cert.KernelIdeal.main_v44 (by decide)).trans ((Cert.KernelIdeal.Gen.V14_of m outs c Cert.KernelIdeal.main_v44 (by decide)).trans ((Cert.KernelIdeal.Gen.V13_of m outs c Cert.KernelIdeal.main_v44 (by decide)).trans ((Cert.KernelIdeal.Gen.V12_of m outs c Cert.KernelIdeal.main_v44 (by decide)).trans ((Cert.KernelIdeal.Gen.V11_of m outs c Cert.KernelIdeal.main_v44 (by decide)).trans ((Cert.KernelIdeal.Gen.V10_of m outs c Cert.KernelIdeal.main_v44 (by decide)).trans ((Cert.KernelIdeal.Gen.V9_of m outs c Cert.KernelIdeal.main_v44 (by decide)).trans (Cert.KernelIdeal.Gen.V8_of m outs c Cert.KernelIdeal.main_v44 (by decide)))))))))))).trans (after_unary each_hostOps1 (Cert.KernelIdeal.Gen.V6 m outs c) 10 _ _ _ _ _ rfl (by decide) (by decide))
  have hR := after_unary eachR (launchContents m' c) 60 _ _ _ _ _ rfl (by decide) (by decide)
  have E0 : after (Cert.KernelIdeal.Gen.hostOps1 (F := Ideal)) (Cert.KernelIdeal.Gen.V6 m outs c) (Proc.devRef .tc Cert.KernelIdeal.main_v43) = Rf m' c Cert.ReferenceIdeal.main_v43 :=
    (((Cert.KernelIdeal.Gen.V17_of m outs c Cert.KernelIdeal.main_v43 (by decide)).trans ((Cert.KernelIdeal.Gen.V16_of m outs c Cert.KernelIdeal.main_v43 (by decide)).trans ((Cert.KernelIdeal.Gen.V15_of m outs c Cert.KernelIdeal.main_v43 (by decide)).trans ((Cert.KernelIdeal.Gen.V14_of m outs c Cert.KernelIdeal.main_v43 (by decide)).trans ((Cert.KernelIdeal.Gen.V13_of m outs c Cert.KernelIdeal.main_v43 (by decide)).trans ((Cert.KernelIdeal.Gen.V12_of m outs c Cert.KernelIdeal.main_v43 (by decide)).trans ((Cert.KernelIdeal.Gen.V11_of m outs c Cert.KernelIdeal.main_v43 (by decide)).trans ((Cert.KernelIdeal.Gen.V10_of m outs c Cert.KernelIdeal.main_v43 (by decide)).trans ((Cert.KernelIdeal.Gen.V9_of m outs c Cert.KernelIdeal.main_v43 (by decide)).trans (Cert.KernelIdeal.Gen.V8_of m outs c Cert.KernelIdeal.main_v43 (by decide)))))))))))).symm.trans (same_main_v43 m outs m' hag c h35)
  rw [E0] at hK
  exact hK.trans hR.symm

theorem same_main_v45 : Cert.KernelIdeal.Gen.V17 m outs c Cert.KernelIdeal.main_v45 = Rf m' c Cert.ReferenceIdeal.main_v45 := by
  have hK := (((Cert.KernelIdeal.Gen.V17_of m outs c Cert.KernelIdeal.main_v45 (by decide)).trans ((Cert.KernelIdeal.Gen.V16_of m outs c Cert.KernelIdeal.main_v45 (by decide)).trans ((Cert.KernelIdeal.Gen.V15_of m outs c Cert.KernelIdeal.main_v45 (by decide)).trans ((Cert.KernelIdeal.Gen.V14_of m outs c Cert.KernelIdeal.main_v45 (by decide)).trans ((Cert.KernelIdeal.Gen.V13_of m outs c Cert.KernelIdeal.main_v45 (by decide)).trans ((Cert.KernelIdeal.Gen.V12_of m outs c Cert.KernelIdeal.main_v45 (by decide)).trans ((Cert.KernelIdeal.Gen.V11_of m outs c Cert.KernelIdeal.main_v45 (by decide)).trans ((Cert.KernelIdeal.Gen.V10_of m outs c Cert.KernelIdeal.main_v45 (by decide)).trans ((Cert.KernelIdeal.Gen.V9_of m outs c Cert.KernelIdeal.main_v45 (by decide)).trans (Cert.KernelIdeal.Gen.V8_of m outs c Cert.KernelIdeal.main_v45 (by decide)))))))))))).trans (after_binary each_hostOps1 (Cert.KernelIdeal.Gen.V6 m outs c) 11 _ _ _ _ _ _ _ rfl (by decide) (by decide) (by decide))
  have hR := after_binary eachR (launchContents m' c) 61 _ _ _ _ _ _ _ rfl (by decide) (by decide) (by decide)
  have E0 : after (Cert.KernelIdeal.Gen.hostOps1 (F := Ideal)) (Cert.KernelIdeal.Gen.V6 m outs c) (Proc.devRef .tc Cert.KernelIdeal.main_v42) = Rf m' c Cert.ReferenceIdeal.main_v42 :=
    (((Cert.KernelIdeal.Gen.V17_of m outs c Cert.KernelIdeal.main_v42 (by decide)).trans ((Cert.KernelIdeal.Gen.V16_of m outs c Cert.KernelIdeal.main_v42 (by decide)).trans ((Cert.KernelIdeal.Gen.V15_of m outs c Cert.KernelIdeal.main_v42 (by decide)).trans ((Cert.KernelIdeal.Gen.V14_of m outs c Cert.KernelIdeal.main_v42 (by decide)).trans ((Cert.KernelIdeal.Gen.V13_of m outs c Cert.KernelIdeal.main_v42 (by decide)).trans ((Cert.KernelIdeal.Gen.V12_of m outs c Cert.KernelIdeal.main_v42 (by decide)).trans ((Cert.KernelIdeal.Gen.V11_of m outs c Cert.KernelIdeal.main_v42 (by decide)).trans ((Cert.KernelIdeal.Gen.V10_of m outs c Cert.KernelIdeal.main_v42 (by decide)).trans ((Cert.KernelIdeal.Gen.V9_of m outs c Cert.KernelIdeal.main_v42 (by decide)).trans (Cert.KernelIdeal.Gen.V8_of m outs c Cert.KernelIdeal.main_v42 (by decide)))))))))))).symm.trans (same_main_v42 m outs m' hag c h35)
  have E1 : after (Cert.KernelIdeal.Gen.hostOps1 (F := Ideal)) (Cert.KernelIdeal.Gen.V6 m outs c) (Proc.devRef .tc Cert.KernelIdeal.main_v44) = Rf m' c Cert.ReferenceIdeal.main_v44 :=
    (((Cert.KernelIdeal.Gen.V17_of m outs c Cert.KernelIdeal.main_v44 (by decide)).trans ((Cert.KernelIdeal.Gen.V16_of m outs c Cert.KernelIdeal.main_v44 (by decide)).trans ((Cert.KernelIdeal.Gen.V15_of m outs c Cert.KernelIdeal.main_v44 (by decide)).trans ((Cert.KernelIdeal.Gen.V14_of m outs c Cert.KernelIdeal.main_v44 (by decide)).trans ((Cert.KernelIdeal.Gen.V13_of m outs c Cert.KernelIdeal.main_v44 (by decide)).trans ((Cert.KernelIdeal.Gen.V12_of m outs c Cert.KernelIdeal.main_v44 (by decide)).trans ((Cert.KernelIdeal.Gen.V11_of m outs c Cert.KernelIdeal.main_v44 (by decide)).trans ((Cert.KernelIdeal.Gen.V10_of m outs c Cert.KernelIdeal.main_v44 (by decide)).trans ((Cert.KernelIdeal.Gen.V9_of m outs c Cert.KernelIdeal.main_v44 (by decide)).trans (Cert.KernelIdeal.Gen.V8_of m outs c Cert.KernelIdeal.main_v44 (by decide)))))))))))).symm.trans (same_main_v44 m outs m' hag c h35)
  rw [E0, E1] at hK
  exact hK.trans hR.symm

theorem same_main_cst_10 : Cert.KernelIdeal.Gen.V17 m outs c Cert.KernelIdeal.main_cst_10 = Rf m' c Cert.ReferenceIdeal.main_cst_10 := by
  have hK := (((Cert.KernelIdeal.Gen.V17_of m outs c Cert.KernelIdeal.main_cst_10 (by decide)).trans ((Cert.KernelIdeal.Gen.V16_of m outs c Cert.KernelIdeal.main_cst_10 (by decide)).trans ((Cert.KernelIdeal.Gen.V15_of m outs c Cert.KernelIdeal.main_cst_10 (by decide)).trans ((Cert.KernelIdeal.Gen.V14_of m outs c Cert.KernelIdeal.main_cst_10 (by decide)).trans ((Cert.KernelIdeal.Gen.V13_of m outs c Cert.KernelIdeal.main_cst_10 (by decide)).trans ((Cert.KernelIdeal.Gen.V12_of m outs c Cert.KernelIdeal.main_cst_10 (by decide)).trans ((Cert.KernelIdeal.Gen.V11_of m outs c Cert.KernelIdeal.main_cst_10 (by decide)).trans ((Cert.KernelIdeal.Gen.V10_of m outs c Cert.KernelIdeal.main_cst_10 (by decide)).trans ((Cert.KernelIdeal.Gen.V9_of m outs c Cert.KernelIdeal.main_cst_10 (by decide)).trans (Cert.KernelIdeal.Gen.V8_of m outs c Cert.KernelIdeal.main_cst_10 (by decide)))))))))))).trans (after_nullary each_hostOps1 (Cert.KernelIdeal.Gen.V6 m outs c) 12 _ _ _ rfl (by decide))
  have hR := after_nullary eachR (launchContents m' c) 62 _ _ _ rfl (by decide)

  exact hK.trans hR.symm

theorem same_main_v46 : Cert.KernelIdeal.Gen.V17 m outs c Cert.KernelIdeal.main_v46 = Rf m' c Cert.ReferenceIdeal.main_v46 := by
  have hK := (((Cert.KernelIdeal.Gen.V17_of m outs c Cert.KernelIdeal.main_v46 (by decide)).trans ((Cert.KernelIdeal.Gen.V16_of m outs c Cert.KernelIdeal.main_v46 (by decide)).trans ((Cert.KernelIdeal.Gen.V15_of m outs c Cert.KernelIdeal.main_v46 (by decide)).trans ((Cert.KernelIdeal.Gen.V14_of m outs c Cert.KernelIdeal.main_v46 (by decide)).trans ((Cert.KernelIdeal.Gen.V13_of m outs c Cert.KernelIdeal.main_v46 (by decide)).trans ((Cert.KernelIdeal.Gen.V12_of m outs c Cert.KernelIdeal.main_v46 (by decide)).trans ((Cert.KernelIdeal.Gen.V11_of m outs c Cert.KernelIdeal.main_v46 (by decide)).trans ((Cert.KernelIdeal.Gen.V10_of m outs c Cert.KernelIdeal.main_v46 (by decide)).trans ((Cert.KernelIdeal.Gen.V9_of m outs c Cert.KernelIdeal.main_v46 (by decide)).trans (Cert.KernelIdeal.Gen.V8_of m outs c Cert.KernelIdeal.main_v46 (by decide)))))))))))).trans (after_unary each_hostOps1 (Cert.KernelIdeal.Gen.V6 m outs c) 13 _ _ _ _ _ rfl (by decide) (by decide))
  have hR := after_unary eachR (launchContents m' c) 63 _ _ _ _ _ rfl (by decide) (by decide)
  have E0 : after (Cert.KernelIdeal.Gen.hostOps1 (F := Ideal)) (Cert.KernelIdeal.Gen.V6 m outs c) (Proc.devRef .tc Cert.KernelIdeal.main_cst_10) = Rf m' c Cert.ReferenceIdeal.main_cst_10 :=
    (((Cert.KernelIdeal.Gen.V17_of m outs c Cert.KernelIdeal.main_cst_10 (by decide)).trans ((Cert.KernelIdeal.Gen.V16_of m outs c Cert.KernelIdeal.main_cst_10 (by decide)).trans ((Cert.KernelIdeal.Gen.V15_of m outs c Cert.KernelIdeal.main_cst_10 (by decide)).trans ((Cert.KernelIdeal.Gen.V14_of m outs c Cert.KernelIdeal.main_cst_10 (by decide)).trans ((Cert.KernelIdeal.Gen.V13_of m outs c Cert.KernelIdeal.main_cst_10 (by decide)).trans ((Cert.KernelIdeal.Gen.V12_of m outs c Cert.KernelIdeal.main_cst_10 (by decide)).trans ((Cert.KernelIdeal.Gen.V11_of m outs c Cert.KernelIdeal.main_cst_10 (by decide)).trans ((Cert.KernelIdeal.Gen.V10_of m outs c Cert.KernelIdeal.main_cst_10 (by decide)).trans ((Cert.KernelIdeal.Gen.V9_of m outs c Cert.KernelIdeal.main_cst_10 (by decide)).trans (Cert.KernelIdeal.Gen.V8_of m outs c Cert.KernelIdeal.main_cst_10 (by decide)))))))))))).symm.trans (same_main_cst_10 m outs m' hag c h35)
  rw [E0] at hK
  exact hK.trans hR.symm

theorem same_main_v47 : Cert.KernelIdeal.Gen.V17 m outs c Cert.KernelIdeal.main_v47 = Rf m' c Cert.ReferenceIdeal.main_v47 := by
  have hK := (((Cert.KernelIdeal.Gen.V17_of m outs c Cert.KernelIdeal.main_v47 (by decide)).trans ((Cert.KernelIdeal.Gen.V16_of m outs c Cert.KernelIdeal.main_v47 (by decide)).trans ((Cert.KernelIdeal.Gen.V15_of m outs c Cert.KernelIdeal.main_v47 (by decide)).trans ((Cert.KernelIdeal.Gen.V14_of m outs c Cert.KernelIdeal.main_v47 (by decide)).trans ((Cert.KernelIdeal.Gen.V13_of m outs c Cert.KernelIdeal.main_v47 (by decide)).trans ((Cert.KernelIdeal.Gen.V12_of m outs c Cert.KernelIdeal.main_v47 (by decide)).trans ((Cert.KernelIdeal.Gen.V11_of m outs c Cert.KernelIdeal.main_v47 (by decide)).trans ((Cert.KernelIdeal.Gen.V10_of m outs c Cert.KernelIdeal.main_v47 (by decide)).trans ((Cert.KernelIdeal.Gen.V9_of m outs c Cert.KernelIdeal.main_v47 (by decide)).trans (Cert.KernelIdeal.Gen.V8_of m outs c Cert.KernelIdeal.main_v47 (by decide)))))))))))).trans (after_unary each_hostOps1 (Cert.KernelIdeal.Gen.V6 m outs c) 14 _ _ _ _ _ rfl (by decide) (by decide))
  have hR := after_unary eachR (launchContents m' c) 64 _ _ _ _ _ rfl (by decide) (by decide)
  have E0 : after (Cert.KernelIdeal.Gen.hostOps1 (F := Ideal)) (Cert.KernelIdeal.Gen.V6 m outs c) (Proc.devRef .tc Cert.KernelIdeal.main_v6) = Rf m' c Cert.ReferenceIdeal.main_v6 :=
    (((Cert.KernelIdeal.Gen.V17_of m outs c Cert.KernelIdeal.main_v6 (by decide)).trans ((Cert.KernelIdeal.Gen.V16_of m outs c Cert.KernelIdeal.main_v6 (by decide)).trans ((Cert.KernelIdeal.Gen.V15_of m outs c Cert.KernelIdeal.main_v6 (by decide)).trans ((Cert.KernelIdeal.Gen.V14_of m outs c Cert.KernelIdeal.main_v6 (by decide)).trans ((Cert.KernelIdeal.Gen.V13_of m outs c Cert.KernelIdeal.main_v6 (by decide)).trans ((Cert.KernelIdeal.Gen.V12_of m outs c Cert.KernelIdeal.main_v6 (by decide)).trans ((Cert.KernelIdeal.Gen.V11_of m outs c Cert.KernelIdeal.main_v6 (by decide)).trans ((Cert.KernelIdeal.Gen.V10_of m outs c Cert.KernelIdeal.main_v6 (by decide)).trans ((Cert.KernelIdeal.Gen.V9_of m outs c Cert.KernelIdeal.main_v6 (by decide)).trans (Cert.KernelIdeal.Gen.V8_of m outs c Cert.KernelIdeal.main_v6 (by decide)))))))))))).symm.trans (same_main_v6 m outs m' hag c)
  rw [E0] at hK
  exact hK.trans hR.symm

theorem same_main_v48 : Cert.KernelIdeal.Gen.V17 m outs c Cert.KernelIdeal.main_v48 = Rf m' c Cert.ReferenceIdeal.main_v48 := by
  have hK := (((Cert.KernelIdeal.Gen.V17_of m outs c Cert.KernelIdeal.main_v48 (by decide)).trans ((Cert.KernelIdeal.Gen.V16_of m outs c Cert.KernelIdeal.main_v48 (by decide)).trans ((Cert.KernelIdeal.Gen.V15_of m outs c Cert.KernelIdeal.main_v48 (by decide)).trans ((Cert.KernelIdeal.Gen.V14_of m outs c Cert.KernelIdeal.main_v48 (by decide)).trans ((Cert.KernelIdeal.Gen.V13_of m outs c Cert.KernelIdeal.main_v48 (by decide)).trans ((Cert.KernelIdeal.Gen.V12_of m outs c Cert.KernelIdeal.main_v48 (by decide)).trans ((Cert.KernelIdeal.Gen.V11_of m outs c Cert.KernelIdeal.main_v48 (by decide)).trans ((Cert.KernelIdeal.Gen.V10_of m outs c Cert.KernelIdeal.main_v48 (by decide)).trans ((Cert.KernelIdeal.Gen.V9_of m outs c Cert.KernelIdeal.main_v48 (by decide)).trans (Cert.KernelIdeal.Gen.V8_of m outs c Cert.KernelIdeal.main_v48 (by decide)))))))))))).trans (after_ternary each_hostOps1 (Cert.KernelIdeal.Gen.V6 m outs c) 15 _ _ _ _ _ _ _ _ _ rfl (by decide) (by decide) (by decide) (by decide))
  have hR := after_ternary eachR (launchContents m' c) 65 _ _ _ _ _ _ _ _ _ rfl (by decide) (by decide) (by decide) (by decide)
  have E0 : after (Cert.KernelIdeal.Gen.hostOps1 (F := Ideal)) (Cert.KernelIdeal.Gen.V6 m outs c) (Proc.devRef .tc Cert.KernelIdeal.main_v46) = Rf m' c Cert.ReferenceIdeal.main_v46 :=
    (((Cert.KernelIdeal.Gen.V17_of m outs c Cert.KernelIdeal.main_v46 (by decide)).trans ((Cert.KernelIdeal.Gen.V16_of m outs c Cert.KernelIdeal.main_v46 (by decide)).trans ((Cert.KernelIdeal.Gen.V15_of m outs c Cert.KernelIdeal.main_v46 (by decide)).trans ((Cert.KernelIdeal.Gen.V14_of m outs c Cert.KernelIdeal.main_v46 (by decide)).trans ((Cert.KernelIdeal.Gen.V13_of m outs c Cert.KernelIdeal.main_v46 (by decide)).trans ((Cert.KernelIdeal.Gen.V12_of m outs c Cert.KernelIdeal.main_v46 (by decide)).trans ((Cert.KernelIdeal.Gen.V11_of m outs c Cert.KernelIdeal.main_v46 (by decide)).trans ((Cert.KernelIdeal.Gen.V10_of m outs c Cert.KernelIdeal.main_v46 (by decide)).trans ((Cert.KernelIdeal.Gen.V9_of m outs c Cert.KernelIdeal.main_v46 (by decide)).trans (Cert.KernelIdeal.Gen.V8_of m outs c Cert.KernelIdeal.main_v46 (by decide)))))))))))).symm.trans (same_main_v46 m outs m' hag c h35)
  have E1 : after (Cert.KernelIdeal.Gen.hostOps1 (F := Ideal)) (Cert.KernelIdeal.Gen.V6 m outs c) (Proc.devRef .tc Cert.KernelIdeal.main_v47) = Rf m' c Cert.ReferenceIdeal.main_v47 :=
    (((Cert.KernelIdeal.Gen.V17_of m outs c Cert.KernelIdeal.main_v47 (by decide)).trans ((Cert.KernelIdeal.Gen.V16_of m outs c Cert.KernelIdeal.main_v47 (by decide)).trans ((Cert.KernelIdeal.Gen.V15_of m outs c Cert.KernelIdeal.main_v47 (by decide)).trans ((Cert.KernelIdeal.Gen.V14_of m outs c Cert.KernelIdeal.main_v47 (by decide)).trans ((Cert.KernelIdeal.Gen.V13_of m outs c Cert.KernelIdeal.main_v47 (by decide)).trans ((Cert.KernelIdeal.Gen.V12_of m outs c Cert.KernelIdeal.main_v47 (by decide)).trans ((Cert.KernelIdeal.Gen.V11_of m outs c Cert.KernelIdeal.main_v47 (by decide)).trans ((Cert.KernelIdeal.Gen.V10_of m outs c Cert.KernelIdeal.main_v47 (by decide)).trans ((Cert.KernelIdeal.Gen.V9_of m outs c Cert.KernelIdeal.main_v47 (by decide)).trans (Cert.KernelIdeal.Gen.V8_of m outs c Cert.KernelIdeal.main_v47 (by decide)))))))))))).symm.trans (same_main_v47 m outs m' hag c h35)
  have E2 : after (Cert.KernelIdeal.Gen.hostOps1 (F := Ideal)) (Cert.KernelIdeal.Gen.V6 m outs c) (Proc.devRef .tc Cert.KernelIdeal.main_v45) = Rf m' c Cert.ReferenceIdeal.main_v45 :=
    (((Cert.KernelIdeal.Gen.V17_of m outs c Cert.KernelIdeal.main_v45 (by decide)).trans ((Cert.KernelIdeal.Gen.V16_of m outs c Cert.KernelIdeal.main_v45 (by decide)).trans ((Cert.KernelIdeal.Gen.V15_of m outs c Cert.KernelIdeal.main_v45 (by decide)).trans ((Cert.KernelIdeal.Gen.V14_of m outs c Cert.KernelIdeal.main_v45 (by decide)).trans ((Cert.KernelIdeal.Gen.V13_of m outs c Cert.KernelIdeal.main_v45 (by decide)).trans ((Cert.KernelIdeal.Gen.V12_of m outs c Cert.KernelIdeal.main_v45 (by decide)).trans ((Cert.KernelIdeal.Gen.V11_of m outs c Cert.KernelIdeal.main_v45 (by decide)).trans ((Cert.KernelIdeal.Gen.V10_of m outs c Cert.KernelIdeal.main_v45 (by decide)).trans ((Cert.KernelIdeal.Gen.V9_of m outs c Cert.KernelIdeal.main_v45 (by decide)).trans (Cert.KernelIdeal.Gen.V8_of m outs c Cert.KernelIdeal.main_v45 (by decide)))))))))))).symm.trans (same_main_v45 m outs m' hag c h35)
  rw [E0, E1, E2] at hK
  exact hK.trans hR.symm

theorem same_main_v49 : Cert.KernelIdeal.Gen.V17 m outs c Cert.KernelIdeal.main_v49 = Rf m' c Cert.ReferenceIdeal.main_v49 := by
  have hK := (((Cert.KernelIdeal.Gen.V17_of m outs c Cert.KernelIdeal.main_v49 (by decide)).trans ((Cert.KernelIdeal.Gen.V16_of m outs c Cert.KernelIdeal.main_v49 (by decide)).trans ((Cert.KernelIdeal.Gen.V15_of m outs c Cert.KernelIdeal.main_v49 (by decide)).trans ((Cert.KernelIdeal.Gen.V14_of m outs c Cert.KernelIdeal.main_v49 (by decide)).trans ((Cert.KernelIdeal.Gen.V13_of m outs c Cert.KernelIdeal.main_v49 (by decide)).trans ((Cert.KernelIdeal.Gen.V12_of m outs c Cert.KernelIdeal.main_v49 (by decide)).trans ((Cert.KernelIdeal.Gen.V11_of m outs c Cert.KernelIdeal.main_v49 (by decide)).trans ((Cert.KernelIdeal.Gen.V10_of m outs c Cert.KernelIdeal.main_v49 (by decide)).trans ((Cert.KernelIdeal.Gen.V9_of m outs c Cert.KernelIdeal.main_v49 (by decide)).trans (Cert.KernelIdeal.Gen.V8_of m outs c Cert.KernelIdeal.main_v49 (by decide)))))))))))).trans (after_unary each_hostOps1 (Cert.KernelIdeal.Gen.V6 m outs c) 16 _ _ _ _ _ rfl (by decide) (by decide))
  have hR := after_unary eachR (launchContents m' c) 66 _ _ _ _ _ rfl (by decide) (by decide)
  have E0 : after (Cert.KernelIdeal.Gen.hostOps1 (F := Ideal)) (Cert.KernelIdeal.Gen.V6 m outs c) (Proc.devRef .tc Cert.KernelIdeal.main_arg4) = Rf m' c Cert.ReferenceIdeal.main_arg4 :=
    (((Cert.KernelIdeal.Gen.V17_of m outs c Cert.KernelIdeal.main_arg4 (by decide)).trans ((Cert.KernelIdeal.Gen.V16_of m outs c Cert.KernelIdeal.main_arg4 (by decide)).trans ((Cert.KernelIdeal.Gen.V15_of m outs c Cert.KernelIdeal.main_arg4 (by decide)).trans ((Cert.KernelIdeal.Gen.V14_of m outs c Cert.KernelIdeal.main_arg4 (by decide)).trans ((Cert.KernelIdeal.Gen.V13_of m outs c Cert.KernelIdeal.main_arg4 (by decide)).trans ((Cert.KernelIdeal.Gen.V12_of m outs c Cert.KernelIdeal.main_arg4 (by decide)).trans ((Cert.KernelIdeal.Gen.V11_of m outs c Cert.KernelIdeal.main_arg4 (by decide)).trans ((Cert.KernelIdeal.Gen.V10_of m outs c Cert.KernelIdeal.main_arg4 (by decide)).trans ((Cert.KernelIdeal.Gen.V9_of m outs c Cert.KernelIdeal.main_arg4 (by decide)).trans (Cert.KernelIdeal.Gen.V8_of m outs c Cert.KernelIdeal.main_arg4 (by decide)))))))))))).symm.trans (same_main_arg4 m outs m' hag c)
  rw [E0] at hK
  exact hK.trans hR.symm

theorem same_main_v50 : Cert.KernelIdeal.Gen.V17 m outs c Cert.KernelIdeal.main_v50 = Rf m' c Cert.ReferenceIdeal.main_v50 := by
  have hK := (((Cert.KernelIdeal.Gen.V17_of m outs c Cert.KernelIdeal.main_v50 (by decide)).trans ((Cert.KernelIdeal.Gen.V16_of m outs c Cert.KernelIdeal.main_v50 (by decide)).trans ((Cert.KernelIdeal.Gen.V15_of m outs c Cert.KernelIdeal.main_v50 (by decide)).trans ((Cert.KernelIdeal.Gen.V14_of m outs c Cert.KernelIdeal.main_v50 (by decide)).trans ((Cert.KernelIdeal.Gen.V13_of m outs c Cert.KernelIdeal.main_v50 (by decide)).trans ((Cert.KernelIdeal.Gen.V12_of m outs c Cert.KernelIdeal.main_v50 (by decide)).trans ((Cert.KernelIdeal.Gen.V11_of m outs c Cert.KernelIdeal.main_v50 (by decide)).trans ((Cert.KernelIdeal.Gen.V10_of m outs c Cert.KernelIdeal.main_v50 (by decide)).trans ((Cert.KernelIdeal.Gen.V9_of m outs c Cert.KernelIdeal.main_v50 (by decide)).trans (Cert.KernelIdeal.Gen.V8_of m outs c Cert.KernelIdeal.main_v50 (by decide)))))))))))).trans (after_unary each_hostOps1 (Cert.KernelIdeal.Gen.V6 m outs c) 17 _ _ _ _ _ rfl (by decide) (by decide))
  have hR := after_unary eachR (launchContents m' c) 67 _ _ _ _ _ rfl (by decide) (by decide)
  have E0 : after (Cert.KernelIdeal.Gen.hostOps1 (F := Ideal)) (Cert.KernelIdeal.Gen.V6 m outs c) (Proc.devRef .tc Cert.KernelIdeal.main_v49) = Rf m' c Cert.ReferenceIdeal.main_v49 :=
    (((Cert.KernelIdeal.Gen.V17_of m outs c Cert.KernelIdeal.main_v49 (by decide)).trans ((Cert.KernelIdeal.Gen.V16_of m outs c Cert.KernelIdeal.main_v49 (by decide)).trans ((Cert.KernelIdeal.Gen.V15_of m outs c Cert.KernelIdeal.main_v49 (by decide)).trans ((Cert.KernelIdeal.Gen.V14_of m outs c Cert.KernelIdeal.main_v49 (by decide)).trans ((Cert.KernelIdeal.Gen.V13_of m outs c Cert.KernelIdeal.main_v49 (by decide)).trans ((Cert.KernelIdeal.Gen.V12_of m outs c Cert.KernelIdeal.main_v49 (by decide)).trans ((Cert.KernelIdeal.Gen.V11_of m outs c Cert.KernelIdeal.main_v49 (by decide)).trans ((Cert.KernelIdeal.Gen.V10_of m outs c Cert.KernelIdeal.main_v49 (by decide)).trans ((Cert.KernelIdeal.Gen.V9_of m outs c Cert.KernelIdeal.main_v49 (by decide)).trans (Cert.KernelIdeal.Gen.V8_of m outs c Cert.KernelIdeal.main_v49 (by decide)))))))))))).symm.trans (same_main_v49 m outs m' hag c h35)
  rw [E0] at hK
  exact hK.trans hR.symm

theorem same_main_v51 : Cert.KernelIdeal.Gen.V17 m outs c Cert.KernelIdeal.main_v51 = Rf m' c Cert.ReferenceIdeal.main_v51 := by
  have hK := (((Cert.KernelIdeal.Gen.V17_of m outs c Cert.KernelIdeal.main_v51 (by decide)).trans ((Cert.KernelIdeal.Gen.V16_of m outs c Cert.KernelIdeal.main_v51 (by decide)).trans ((Cert.KernelIdeal.Gen.V15_of m outs c Cert.KernelIdeal.main_v51 (by decide)).trans ((Cert.KernelIdeal.Gen.V14_of m outs c Cert.KernelIdeal.main_v51 (by decide)).trans ((Cert.KernelIdeal.Gen.V13_of m outs c Cert.KernelIdeal.main_v51 (by decide)).trans ((Cert.KernelIdeal.Gen.V12_of m outs c Cert.KernelIdeal.main_v51 (by decide)).trans ((Cert.KernelIdeal.Gen.V11_of m outs c Cert.KernelIdeal.main_v51 (by decide)).trans ((Cert.KernelIdeal.Gen.V10_of m outs c Cert.KernelIdeal.main_v51 (by decide)).trans ((Cert.KernelIdeal.Gen.V9_of m outs c Cert.KernelIdeal.main_v51 (by decide)).trans (Cert.KernelIdeal.Gen.V8_of m outs c Cert.KernelIdeal.main_v51 (by decide)))))))))))).trans (after_binary each_hostOps1 (Cert.KernelIdeal.Gen.V6 m outs c) 18 _ _ _ _ _ _ _ rfl (by decide) (by decide) (by decide))
  have hR := after_binary eachR (launchContents m' c) 68 _ _ _ _ _ _ _ rfl (by decide) (by decide) (by decide)
  have E0 : after (Cert.KernelIdeal.Gen.hostOps1 (F := Ideal)) (Cert.KernelIdeal.Gen.V6 m outs c) (Proc.devRef .tc Cert.KernelIdeal.main_v48) = Rf m' c Cert.ReferenceIdeal.main_v48 :=
    (((Cert.KernelIdeal.Gen.V17_of m outs c Cert.KernelIdeal.main_v48 (by decide)).trans ((Cert.KernelIdeal.Gen.V16_of m outs c Cert.KernelIdeal.main_v48 (by decide)).trans ((Cert.KernelIdeal.Gen.V15_of m outs c Cert.KernelIdeal.main_v48 (by decide)).trans ((Cert.KernelIdeal.Gen.V14_of m outs c Cert.KernelIdeal.main_v48 (by decide)).trans ((Cert.KernelIdeal.Gen.V13_of m outs c Cert.KernelIdeal.main_v48 (by decide)).trans ((Cert.KernelIdeal.Gen.V12_of m outs c Cert.KernelIdeal.main_v48 (by decide)).trans ((Cert.KernelIdeal.Gen.V11_of m outs c Cert.KernelIdeal.main_v48 (by decide)).trans ((Cert.KernelIdeal.Gen.V10_of m outs c Cert.KernelIdeal.main_v48 (by decide)).trans ((Cert.KernelIdeal.Gen.V9_of m outs c Cert.KernelIdeal.main_v48 (by decide)).trans (Cert.KernelIdeal.Gen.V8_of m outs c Cert.KernelIdeal.main_v48 (by decide)))))))))))).symm.trans (same_main_v48 m outs m' hag c h35)
  have E1 : after (Cert.KernelIdeal.Gen.hostOps1 (F := Ideal)) (Cert.KernelIdeal.Gen.V6 m outs c) (Proc.devRef .tc Cert.KernelIdeal.main_v50) = Rf m' c Cert.ReferenceIdeal.main_v50 :=
    (((Cert.KernelIdeal.Gen.V17_of m outs c Cert.KernelIdeal.main_v50 (by decide)).trans ((Cert.KernelIdeal.Gen.V16_of m outs c Cert.KernelIdeal.main_v50 (by decide)).trans ((Cert.KernelIdeal.Gen.V15_of m outs c Cert.KernelIdeal.main_v50 (by decide)).trans ((Cert.KernelIdeal.Gen.V14_of m outs c Cert.KernelIdeal.main_v50 (by decide)).trans ((Cert.KernelIdeal.Gen.V13_of m outs c Cert.KernelIdeal.main_v50 (by decide)).trans ((Cert.KernelIdeal.Gen.V12_of m outs c Cert.KernelIdeal.main_v50 (by decide)).trans ((Cert.KernelIdeal.Gen.V11_of m outs c Cert.KernelIdeal.main_v50 (by decide)).trans ((Cert.KernelIdeal.Gen.V10_of m outs c Cert.KernelIdeal.main_v50 (by decide)).trans ((Cert.KernelIdeal.Gen.V9_of m outs c Cert.KernelIdeal.main_v50 (by decide)).trans (Cert.KernelIdeal.Gen.V8_of m outs c Cert.KernelIdeal.main_v50 (by decide)))))))))))).symm.trans (same_main_v50 m outs m' hag c h35)
  rw [E0, E1] at hK
  exact hK.trans hR.symm

theorem same_main_call2_cst : Cert.KernelIdeal.Gen.V17 m outs c Cert.KernelIdeal.main_call2_cst = Rf m' c Cert.ReferenceIdeal.main_call2_cst := by
  have hK := (((Cert.KernelIdeal.Gen.V17_of m outs c Cert.KernelIdeal.main_call2_cst (by decide)).trans ((Cert.KernelIdeal.Gen.V16_of m outs c Cert.KernelIdeal.main_call2_cst (by decide)).trans ((Cert.KernelIdeal.Gen.V15_of m outs c Cert.KernelIdeal.main_call2_cst (by decide)).trans ((Cert.KernelIdeal.Gen.V14_of m outs c Cert.KernelIdeal.main_call2_cst (by decide)).trans ((Cert.KernelIdeal.Gen.V13_of m outs c Cert.KernelIdeal.main_call2_cst (by decide)).trans ((Cert.KernelIdeal.Gen.V12_of m outs c Cert.KernelIdeal.main_call2_cst (by decide)).trans ((Cert.KernelIdeal.Gen.V11_of m outs c Cert.KernelIdeal.main_call2_cst (by decide)).trans ((Cert.KernelIdeal.Gen.V10_of m outs c Cert.KernelIdeal.main_call2_cst (by decide)).trans (Cert.KernelIdeal.Gen.V9_of m outs c Cert.KernelIdeal.main_call2_cst (by decide))))))))))).trans (after_nullary each_hostOps1_1 (Cert.KernelIdeal.Gen.V7 m outs c) 0 _ _ _ rfl (by decide))
  have hR := after_nullary eachR (launchContents m' c) 69 _ _ _ rfl (by decide)

  exact hK.trans hR.symm

theorem same_main_call2_v0 : Cert.KernelIdeal.Gen.V17 m outs c Cert.KernelIdeal.main_call2_v0 = Rf m' c Cert.ReferenceIdeal.main_call2_v0 := by
  have hK := (((Cert.KernelIdeal.Gen.V17_of m outs c Cert.KernelIdeal.main_call2_v0 (by decide)).trans ((Cert.KernelIdeal.Gen.V16_of m outs c Cert.KernelIdeal.main_call2_v0 (by decide)).trans ((Cert.KernelIdeal.Gen.V15_of m outs c Cert.KernelIdeal.main_call2_v0 (by decide)).trans ((Cert.KernelIdeal.Gen.V14_of m outs c Cert.KernelIdeal.main_call2_v0 (by decide)).trans ((Cert.KernelIdeal.Gen.V13_of m outs c Cert.KernelIdeal.main_call2_v0 (by decide)).trans ((Cert.KernelIdeal.Gen.V12_of m outs c Cert.KernelIdeal.main_call2_v0 (by decide)).trans ((Cert.KernelIdeal.Gen.V11_of m outs c Cert.KernelIdeal.main_call2_v0 (by decide)).trans ((Cert.KernelIdeal.Gen.V10_of m outs c Cert.KernelIdeal.main_call2_v0 (by decide)).trans (Cert.KernelIdeal.Gen.V9_of m outs c Cert.KernelIdeal.main_call2_v0 (by decide))))))))))).trans (after_unary each_hostOps1_1 (Cert.KernelIdeal.Gen.V7 m outs c) 1 _ _ _ _ _ rfl (by decide) (by decide))
  have hR := after_unary eachR (launchContents m' c) 70 _ _ _ _ _ rfl (by decide) (by decide)
  have E0 : after (Cert.KernelIdeal.Gen.hostOps1_1 (F := Ideal)) (Cert.KernelIdeal.Gen.V7 m outs c) (Proc.devRef .tc Cert.KernelIdeal.main_call2_cst) = Rf m' c Cert.ReferenceIdeal.main_call2_cst :=
    (((Cert.KernelIdeal.Gen.V17_of m outs c Cert.KernelIdeal.main_call2_cst (by decide)).trans ((Cert.KernelIdeal.Gen.V16_of m outs c Cert.KernelIdeal.main_call2_cst (by decide)).trans ((Cert.KernelIdeal.Gen.V15_of m outs c Cert.KernelIdeal.main_call2_cst (by decide)).trans ((Cert.KernelIdeal.Gen.V14_of m outs c Cert.KernelIdeal.main_call2_cst (by decide)).trans ((Cert.KernelIdeal.Gen.V13_of m outs c Cert.KernelIdeal.main_call2_cst (by decide)).trans ((Cert.KernelIdeal.Gen.V12_of m outs c Cert.KernelIdeal.main_call2_cst (by decide)).trans ((Cert.KernelIdeal.Gen.V11_of m outs c Cert.KernelIdeal.main_call2_cst (by decide)).trans ((Cert.KernelIdeal.Gen.V10_of m outs c Cert.KernelIdeal.main_call2_cst (by decide)).trans (Cert.KernelIdeal.Gen.V9_of m outs c Cert.KernelIdeal.main_call2_cst (by decide))))))))))).symm.trans (same_main_call2_cst m outs m' hag c h35)
  rw [E0] at hK
  exact hK.trans hR.symm

theorem same_main_v52 : Cert.KernelIdeal.Gen.V17 m outs c Cert.KernelIdeal.main_v52 = Rf m' c Cert.ReferenceIdeal.main_v52 := by
  have hK := (((Cert.KernelIdeal.Gen.V17_of m outs c Cert.KernelIdeal.main_v52 (by decide)).trans ((Cert.KernelIdeal.Gen.V16_of m outs c Cert.KernelIdeal.main_v52 (by decide)).trans ((Cert.KernelIdeal.Gen.V15_of m outs c Cert.KernelIdeal.main_v52 (by decide)).trans ((Cert.KernelIdeal.Gen.V14_of m outs c Cert.KernelIdeal.main_v52 (by decide)).trans ((Cert.KernelIdeal.Gen.V13_of m outs c Cert.KernelIdeal.main_v52 (by decide)).trans ((Cert.KernelIdeal.Gen.V12_of m outs c Cert.KernelIdeal.main_v52 (by decide)).trans ((Cert.KernelIdeal.Gen.V11_of m outs c Cert.KernelIdeal.main_v52 (by decide)).trans ((Cert.KernelIdeal.Gen.V10_of m outs c Cert.KernelIdeal.main_v52 (by decide)).trans (Cert.KernelIdeal.Gen.V9_of m outs c Cert.KernelIdeal.main_v52 (by decide))))))))))).trans (after_binary each_hostOps1_1 (Cert.KernelIdeal.Gen.V7 m outs c) 2 _ _ _ _ _ _ _ rfl (by decide) (by decide) (by decide))
  have hR := after_binary eachR (launchContents m' c) 71 _ _ _ _ _ _ _ rfl (by decide) (by decide) (by decide)
  have E0 : after (Cert.KernelIdeal.Gen.hostOps1_1 (F := Ideal)) (Cert.KernelIdeal.Gen.V7 m outs c) (Proc.devRef .tc Cert.KernelIdeal.main_v51) = Rf m' c Cert.ReferenceIdeal.main_v51 :=
    (((Cert.KernelIdeal.Gen.V17_of m outs c Cert.KernelIdeal.main_v51 (by decide)).trans ((Cert.KernelIdeal.Gen.V16_of m outs c Cert.KernelIdeal.main_v51 (by decide)).trans ((Cert.KernelIdeal.Gen.V15_of m outs c Cert.KernelIdeal.main_v51 (by decide)).trans ((Cert.KernelIdeal.Gen.V14_of m outs c Cert.KernelIdeal.main_v51 (by decide)).trans ((Cert.KernelIdeal.Gen.V13_of m outs c Cert.KernelIdeal.main_v51 (by decide)).trans ((Cert.KernelIdeal.Gen.V12_of m outs c Cert.KernelIdeal.main_v51 (by decide)).trans ((Cert.KernelIdeal.Gen.V11_of m outs c Cert.KernelIdeal.main_v51 (by decide)).trans ((Cert.KernelIdeal.Gen.V10_of m outs c Cert.KernelIdeal.main_v51 (by decide)).trans (Cert.KernelIdeal.Gen.V9_of m outs c Cert.KernelIdeal.main_v51 (by decide))))))))))).symm.trans (same_main_v51 m outs m' hag c h35)
  have E1 : after (Cert.KernelIdeal.Gen.hostOps1_1 (F := Ideal)) (Cert.KernelIdeal.Gen.V7 m outs c) (Proc.devRef .tc Cert.KernelIdeal.main_call2_v0) = Rf m' c Cert.ReferenceIdeal.main_call2_v0 :=
    (((Cert.KernelIdeal.Gen.V17_of m outs c Cert.KernelIdeal.main_call2_v0 (by decide)).trans ((Cert.KernelIdeal.Gen.V16_of m outs c Cert.KernelIdeal.main_call2_v0 (by decide)).trans ((Cert.KernelIdeal.Gen.V15_of m outs c Cert.KernelIdeal.main_call2_v0 (by decide)).trans ((Cert.KernelIdeal.Gen.V14_of m outs c Cert.KernelIdeal.main_call2_v0 (by decide)).trans ((Cert.KernelIdeal.Gen.V13_of m outs c Cert.KernelIdeal.main_call2_v0 (by decide)).trans ((Cert.KernelIdeal.Gen.V12_of m outs c Cert.KernelIdeal.main_call2_v0 (by decide)).trans ((Cert.KernelIdeal.Gen.V11_of m outs c Cert.KernelIdeal.main_call2_v0 (by decide)).trans ((Cert.KernelIdeal.Gen.V10_of m outs c Cert.KernelIdeal.main_call2_v0 (by decide)).trans (Cert.KernelIdeal.Gen.V9_of m outs c Cert.KernelIdeal.main_call2_v0 (by decide))))))))))).symm.trans (same_main_call2_v0 m outs m' hag c h35)
  rw [E0, E1] at hK
  exact hK.trans hR.symm

theorem same_main_cst_11 : Cert.KernelIdeal.Gen.V17 m outs c Cert.KernelIdeal.main_cst_11 = Rf m' c Cert.ReferenceIdeal.main_cst_11 := by
  have hK := (((Cert.KernelIdeal.Gen.V17_of m outs c Cert.KernelIdeal.main_cst_11 (by decide)).trans ((Cert.KernelIdeal.Gen.V16_of m outs c Cert.KernelIdeal.main_cst_11 (by decide)).trans ((Cert.KernelIdeal.Gen.V15_of m outs c Cert.KernelIdeal.main_cst_11 (by decide)).trans ((Cert.KernelIdeal.Gen.V14_of m outs c Cert.KernelIdeal.main_cst_11 (by decide)).trans ((Cert.KernelIdeal.Gen.V13_of m outs c Cert.KernelIdeal.main_cst_11 (by decide)).trans ((Cert.KernelIdeal.Gen.V12_of m outs c Cert.KernelIdeal.main_cst_11 (by decide)).trans ((Cert.KernelIdeal.Gen.V11_of m outs c Cert.KernelIdeal.main_cst_11 (by decide)).trans (Cert.KernelIdeal.Gen.V10_of m outs c Cert.KernelIdeal.main_cst_11 (by decide)))))))))).trans (after_nullary each_hostOps1_2 (Cert.KernelIdeal.Gen.V8 m outs c) 0 _ _ _ rfl (by decide))
  have hR := after_nullary eachR (launchContents m' c) 72 _ _ _ rfl (by decide)

  exact hK.trans hR.symm

theorem same_main_v53 : Cert.KernelIdeal.Gen.V17 m outs c Cert.KernelIdeal.main_v53 = Rf m' c Cert.ReferenceIdeal.main_v53 := by
  have hK := (((Cert.KernelIdeal.Gen.V17_of m outs c Cert.KernelIdeal.main_v53 (by decide)).trans ((Cert.KernelIdeal.Gen.V16_of m outs c Cert.KernelIdeal.main_v53 (by decide)).trans ((Cert.KernelIdeal.Gen.V15_of m outs c Cert.KernelIdeal.main_v53 (by decide)).trans ((Cert.KernelIdeal.Gen.V14_of m outs c Cert.KernelIdeal.main_v53 (by decide)).trans ((Cert.KernelIdeal.Gen.V13_of m outs c Cert.KernelIdeal.main_v53 (by decide)).trans ((Cert.KernelIdeal.Gen.V12_of m outs c Cert.KernelIdeal.main_v53 (by decide)).trans ((Cert.KernelIdeal.Gen.V11_of m outs c Cert.KernelIdeal.main_v53 (by decide)).trans (Cert.KernelIdeal.Gen.V10_of m outs c Cert.KernelIdeal.main_v53 (by decide)))))))))).trans (after_binary each_hostOps1_2 (Cert.KernelIdeal.Gen.V8 m outs c) 1 _ _ _ _ _ _ _ rfl (by decide) (by decide) (by decide))
  have hR := after_binary eachR (launchContents m' c) 73 _ _ _ _ _ _ _ rfl (by decide) (by decide) (by decide)
  have E0 : after (Cert.KernelIdeal.Gen.hostOps1_2 (F := Ideal)) (Cert.KernelIdeal.Gen.V8 m outs c) (Proc.devRef .tc Cert.KernelIdeal.main_v52) = Rf m' c Cert.ReferenceIdeal.main_v52 :=
    (((Cert.KernelIdeal.Gen.V17_of m outs c Cert.KernelIdeal.main_v52 (by decide)).trans ((Cert.KernelIdeal.Gen.V16_of m outs c Cert.KernelIdeal.main_v52 (by decide)).trans ((Cert.KernelIdeal.Gen.V15_of m outs c Cert.KernelIdeal.main_v52 (by decide)).trans ((Cert.KernelIdeal.Gen.V14_of m outs c Cert.KernelIdeal.main_v52 (by decide)).trans ((Cert.KernelIdeal.Gen.V13_of m outs c Cert.KernelIdeal.main_v52 (by decide)).trans ((Cert.KernelIdeal.Gen.V12_of m outs c Cert.KernelIdeal.main_v52 (by decide)).trans ((Cert.KernelIdeal.Gen.V11_of m outs c Cert.KernelIdeal.main_v52 (by decide)).trans (Cert.KernelIdeal.Gen.V10_of m outs c Cert.KernelIdeal.main_v52 (by decide)))))))))).symm.trans (same_main_v52 m outs m' hag c h35)
  have E1 : after (Cert.KernelIdeal.Gen.hostOps1_2 (F := Ideal)) (Cert.KernelIdeal.Gen.V8 m outs c) (Proc.devRef .tc Cert.KernelIdeal.main_cst_11) = Rf m' c Cert.ReferenceIdeal.main_cst_11 :=
    (((Cert.KernelIdeal.Gen.V17_of m outs c Cert.KernelIdeal.main_cst_11 (by decide)).trans ((Cert.KernelIdeal.Gen.V16_of m outs c Cert.KernelIdeal.main_cst_11 (by decide)).trans ((Cert.KernelIdeal.Gen.V15_of m outs c Cert.KernelIdeal.main_cst_11 (by decide)).trans ((Cert.KernelIdeal.Gen.V14_of m outs c Cert.KernelIdeal.main_cst_11 (by decide)).trans ((Cert.KernelIdeal.Gen.V13_of m outs c Cert.KernelIdeal.main_cst_11 (by decide)).trans ((Cert.KernelIdeal.Gen.V12_of m outs c Cert.KernelIdeal.main_cst_11 (by decide)).trans ((Cert.KernelIdeal.Gen.V11_of m outs c Cert.KernelIdeal.main_cst_11 (by decide)).trans (Cert.KernelIdeal.Gen.V10_of m outs c Cert.KernelIdeal.main_cst_11 (by decide)))))))))).symm.trans (same_main_cst_11 m outs m' hag c h35)
  rw [E0, E1] at hK
  exact hK.trans hR.symm

theorem same_main_cst_12 : Cert.KernelIdeal.Gen.V17 m outs c Cert.KernelIdeal.main_cst_12 = Rf m' c Cert.ReferenceIdeal.main_cst_12 := by
  have hK := (((Cert.KernelIdeal.Gen.V17_of m outs c Cert.KernelIdeal.main_cst_12 (by decide)).trans ((Cert.KernelIdeal.Gen.V16_of m outs c Cert.KernelIdeal.main_cst_12 (by decide)).trans ((Cert.KernelIdeal.Gen.V15_of m outs c Cert.KernelIdeal.main_cst_12 (by decide)).trans ((Cert.KernelIdeal.Gen.V14_of m outs c Cert.KernelIdeal.main_cst_12 (by decide)).trans ((Cert.KernelIdeal.Gen.V13_of m outs c Cert.KernelIdeal.main_cst_12 (by decide)).trans ((Cert.KernelIdeal.Gen.V12_of m outs c Cert.KernelIdeal.main_cst_12 (by decide)).trans ((Cert.KernelIdeal.Gen.V11_of m outs c Cert.KernelIdeal.main_cst_12 (by decide)).trans (Cert.KernelIdeal.Gen.V10_of m outs c Cert.KernelIdeal.main_cst_12 (by decide)))))))))).trans (after_nullary each_hostOps1_2 (Cert.KernelIdeal.Gen.V8 m outs c) 2 _ _ _ rfl (by decide))
  have hR := after_nullary eachR (launchContents m' c) 74 _ _ _ rfl (by decide)

  exact hK.trans hR.symm

theorem same_main_v54 : Cert.KernelIdeal.Gen.V17 m outs c Cert.KernelIdeal.main_v54 = Rf m' c Cert.ReferenceIdeal.main_v54 := by
  have hK := (((Cert.KernelIdeal.Gen.V17_of m outs c Cert.KernelIdeal.main_v54 (by decide)).trans ((Cert.KernelIdeal.Gen.V16_of m outs c Cert.KernelIdeal.main_v54 (by decide)).trans ((Cert.KernelIdeal.Gen.V15_of m outs c Cert.KernelIdeal.main_v54 (by decide)).trans ((Cert.KernelIdeal.Gen.V14_of m outs c Cert.KernelIdeal.main_v54 (by decide)).trans ((Cert.KernelIdeal.Gen.V13_of m outs c Cert.KernelIdeal.main_v54 (by decide)).trans ((Cert.KernelIdeal.Gen.V12_of m outs c Cert.KernelIdeal.main_v54 (by decide)).trans ((Cert.KernelIdeal.Gen.V11_of m outs c Cert.KernelIdeal.main_v54 (by decide)).trans (Cert.KernelIdeal.Gen.V10_of m outs c Cert.KernelIdeal.main_v54 (by decide)))))))))).trans (after_unary each_hostOps1_2 (Cert.KernelIdeal.Gen.V8 m outs c) 3 _ _ _ _ _ rfl (by decide) (by decide))
  have hR := after_unary eachR (launchContents m' c) 75 _ _ _ _ _ rfl (by decide) (by decide)
  have E0 : after (Cert.KernelIdeal.Gen.hostOps1_2 (F := Ideal)) (Cert.KernelIdeal.Gen.V8 m outs c) (Proc.devRef .tc Cert.KernelIdeal.main_cst_12) = Rf m' c Cert.ReferenceIdeal.main_cst_12 :=
    (((Cert.KernelIdeal.Gen.V17_of m outs c Cert.KernelIdeal.main_cst_12 (by decide)).trans ((Cert.KernelIdeal.Gen.V16_of m outs c Cert.KernelIdeal.main_cst_12 (by decide)).trans ((Cert.KernelIdeal.Gen.V15_of m outs c Cert.KernelIdeal.main_cst_12 (by decide)).trans ((Cert.KernelIdeal.Gen.V14_of m outs c Cert.KernelIdeal.main_cst_12 (by decide)).trans ((Cert.KernelIdeal.Gen.V13_of m outs c Cert.KernelIdeal.main_cst_12 (by decide)).trans ((Cert.KernelIdeal.Gen.V12_of m outs c Cert.KernelIdeal.main_cst_12 (by decide)).trans ((Cert.KernelIdeal.Gen.V11_of m outs c Cert.KernelIdeal.main_cst_12 (by decide)).trans (Cert.KernelIdeal.Gen.V10_of m outs c Cert.KernelIdeal.main_cst_12 (by decide)))))))))).symm.trans (same_main_cst_12 m outs m' hag c h35)
  rw [E0] at hK
  exact hK.trans hR.symm

theorem same_main_v55 : Cert.KernelIdeal.Gen.V17 m outs c Cert.KernelIdeal.main_v55 = Rf m' c Cert.ReferenceIdeal.main_v55 := by
  have hK := (((Cert.KernelIdeal.Gen.V17_of m outs c Cert.KernelIdeal.main_v55 (by decide)).trans ((Cert.KernelIdeal.Gen.V16_of m outs c Cert.KernelIdeal.main_v55 (by decide)).trans ((Cert.KernelIdeal.Gen.V15_of m outs c Cert.KernelIdeal.main_v55 (by decide)).trans ((Cert.KernelIdeal.Gen.V14_of m outs c Cert.KernelIdeal.main_v55 (by decide)).trans ((Cert.KernelIdeal.Gen.V13_of m outs c Cert.KernelIdeal.main_v55 (by decide)).trans ((Cert.KernelIdeal.Gen.V12_of m outs c Cert.KernelIdeal.main_v55 (by decide)).trans ((Cert.KernelIdeal.Gen.V11_of m outs c Cert.KernelIdeal.main_v55 (by decide)).trans (Cert.KernelIdeal.Gen.V10_of m outs c Cert.KernelIdeal.main_v55 (by decide)))))))))).trans (after_binary each_hostOps1_2 (Cert.KernelIdeal.Gen.V8 m outs c) 4 _ _ _ _ _ _ _ rfl (by decide) (by decide) (by decide))
  have hR := after_binary eachR (launchContents m' c) 76 _ _ _ _ _ _ _ rfl (by decide) (by decide) (by decide)
  have E0 : after (Cert.KernelIdeal.Gen.hostOps1_2 (F := Ideal)) (Cert.KernelIdeal.Gen.V8 m outs c) (Proc.devRef .tc Cert.KernelIdeal.main_v53) = Rf m' c Cert.ReferenceIdeal.main_v53 :=
    (((Cert.KernelIdeal.Gen.V17_of m outs c Cert.KernelIdeal.main_v53 (by decide)).trans ((Cert.KernelIdeal.Gen.V16_of m outs c Cert.KernelIdeal.main_v53 (by decide)).trans ((Cert.KernelIdeal.Gen.V15_of m outs c Cert.KernelIdeal.main_v53 (by decide)).trans ((Cert.KernelIdeal.Gen.V14_of m outs c Cert.KernelIdeal.main_v53 (by decide)).trans ((Cert.KernelIdeal.Gen.V13_of m outs c Cert.KernelIdeal.main_v53 (by decide)).trans ((Cert.KernelIdeal.Gen.V12_of m outs c Cert.KernelIdeal.main_v53 (by decide)).trans ((Cert.KernelIdeal.Gen.V11_of m outs c Cert.KernelIdeal.main_v53 (by decide)).trans (Cert.KernelIdeal.Gen.V10_of m outs c Cert.KernelIdeal.main_v53 (by decide)))))))))).symm.trans (same_main_v53 m outs m' hag c h35)
  have E1 : after (Cert.KernelIdeal.Gen.hostOps1_2 (F := Ideal)) (Cert.KernelIdeal.Gen.V8 m outs c) (Proc.devRef .tc Cert.KernelIdeal.main_v54) = Rf m' c Cert.ReferenceIdeal.main_v54 :=
    (((Cert.KernelIdeal.Gen.V17_of m outs c Cert.KernelIdeal.main_v54 (by decide)).trans ((Cert.KernelIdeal.Gen.V16_of m outs c Cert.KernelIdeal.main_v54 (by decide)).trans ((Cert.KernelIdeal.Gen.V15_of m outs c Cert.KernelIdeal.main_v54 (by decide)).trans ((Cert.KernelIdeal.Gen.V14_of m outs c Cert.KernelIdeal.main_v54 (by decide)).trans ((Cert.KernelIdeal.Gen.V13_of m outs c Cert.KernelIdeal.main_v54 (by decide)).trans ((Cert.KernelIdeal.Gen.V12_of m outs c Cert.KernelIdeal.main_v54 (by decide)).trans ((Cert.KernelIdeal.Gen.V11_of m outs c Cert.KernelIdeal.main_v54 (by decide)).trans (Cert.KernelIdeal.Gen.V10_of m outs c Cert.KernelIdeal.main_v54 (by decide)))))))))).symm.trans (same_main_v54 m outs m' hag c h35)
  rw [E0, E1] at hK
  exact hK.trans hR.symm

theorem same_main_v56 : Cert.KernelIdeal.Gen.V17 m outs c Cert.KernelIdeal.main_v56 = Rf m' c Cert.ReferenceIdeal.main_v56 := by
  have hK := (((Cert.KernelIdeal.Gen.V17_of m outs c Cert.KernelIdeal.main_v56 (by decide)).trans ((Cert.KernelIdeal.Gen.V16_of m outs c Cert.KernelIdeal.main_v56 (by decide)).trans ((Cert.KernelIdeal.Gen.V15_of m outs c Cert.KernelIdeal.main_v56 (by decide)).trans ((Cert.KernelIdeal.Gen.V14_of m outs c Cert.KernelIdeal.main_v56 (by decide)).trans ((Cert.KernelIdeal.Gen.V13_of m outs c Cert.KernelIdeal.main_v56 (by decide)).trans ((Cert.KernelIdeal.Gen.V12_of m outs c Cert.KernelIdeal.main_v56 (by decide)).trans ((Cert.KernelIdeal.Gen.V11_of m outs c Cert.KernelIdeal.main_v56 (by decide)).trans (Cert.KernelIdeal.Gen.V10_of m outs c Cert.KernelIdeal.main_v56 (by decide)))))))))).trans (after_unary each_hostOps1_2 (Cert.KernelIdeal.Gen.V8 m outs c) 5 _ _ _ _ _ rfl (by decide) (by decide))
  have hR := after_unary eachR (launchContents m' c) 77 _ _ _ _ _ rfl (by decide) (by decide)
  have E0 : after (Cert.KernelIdeal.Gen.hostOps1_2 (F := Ideal)) (Cert.KernelIdeal.Gen.V8 m outs c) (Proc.devRef .tc Cert.KernelIdeal.main_v55) = Rf m' c Cert.ReferenceIdeal.main_v55 :=
    (((Cert.KernelIdeal.Gen.V17_of m outs c Cert.KernelIdeal.main_v55 (by decide)).trans ((Cert.KernelIdeal.Gen.V16_of m outs c Cert.KernelIdeal.main_v55 (by decide)).trans ((Cert.KernelIdeal.Gen.V15_of m outs c Cert.KernelIdeal.main_v55 (by decide)).trans ((Cert.KernelIdeal.Gen.V14_of m outs c Cert.KernelIdeal.main_v55 (by decide)).trans ((Cert.KernelIdeal.Gen.V13_of m outs c Cert.KernelIdeal.main_v55 (by decide)).trans ((Cert.KernelIdeal.Gen.V12_of m outs c Cert.KernelIdeal.main_v55 (by decide)).trans ((Cert.KernelIdeal.Gen.V11_of m outs c Cert.KernelIdeal.main_v55 (by decide)).trans (Cert.KernelIdeal.Gen.V10_of m outs c Cert.KernelIdeal.main_v55 (by decide)))))))))).symm.trans (same_main_v55 m outs m' hag c h35)
  rw [E0] at hK
  exact hK.trans hR.symm

theorem same_main_v57 : Cert.KernelIdeal.Gen.V17 m outs c Cert.KernelIdeal.main_v57 = Rf m' c Cert.ReferenceIdeal.main_v57 := by
  have hK := (((Cert.KernelIdeal.Gen.V17_of m outs c Cert.KernelIdeal.main_v57 (by decide)).trans ((Cert.KernelIdeal.Gen.V16_of m outs c Cert.KernelIdeal.main_v57 (by decide)).trans ((Cert.KernelIdeal.Gen.V15_of m outs c Cert.KernelIdeal.main_v57 (by decide)).trans ((Cert.KernelIdeal.Gen.V14_of m outs c Cert.KernelIdeal.main_v57 (by decide)).trans ((Cert.KernelIdeal.Gen.V13_of m outs c Cert.KernelIdeal.main_v57 (by decide)).trans ((Cert.KernelIdeal.Gen.V12_of m outs c Cert.KernelIdeal.main_v57 (by decide)).trans ((Cert.KernelIdeal.Gen.V11_of m outs c Cert.KernelIdeal.main_v57 (by decide)).trans (Cert.KernelIdeal.Gen.V10_of m outs c Cert.KernelIdeal.main_v57 (by decide)))))))))).trans (after_unary each_hostOps1_2 (Cert.KernelIdeal.Gen.V8 m outs c) 6 _ _ _ _ _ rfl (by decide) (by decide))
  have hR := after_unary eachR (launchContents m' c) 78 _ _ _ _ _ rfl (by decide) (by decide)
  have E0 : after (Cert.KernelIdeal.Gen.hostOps1_2 (F := Ideal)) (Cert.KernelIdeal.Gen.V8 m outs c) (Proc.devRef .tc Cert.KernelIdeal.main_v56) = Rf m' c Cert.ReferenceIdeal.main_v56 :=
    (((Cert.KernelIdeal.Gen.V17_of m outs c Cert.KernelIdeal.main_v56 (by decide)).trans ((Cert.KernelIdeal.Gen.V16_of m outs c Cert.KernelIdeal.main_v56 (by decide)).trans ((Cert.KernelIdeal.Gen.V15_of m outs c Cert.KernelIdeal.main_v56 (by decide)).trans ((Cert.KernelIdeal.Gen.V14_of m outs c Cert.KernelIdeal.main_v56 (by decide)).trans ((Cert.KernelIdeal.Gen.V13_of m outs c Cert.KernelIdeal.main_v56 (by decide)).trans ((Cert.KernelIdeal.Gen.V12_of m outs c Cert.KernelIdeal.main_v56 (by decide)).trans ((Cert.KernelIdeal.Gen.V11_of m outs c Cert.KernelIdeal.main_v56 (by decide)).trans (Cert.KernelIdeal.Gen.V10_of m outs c Cert.KernelIdeal.main_v56 (by decide)))))))))).symm.trans (same_main_v56 m outs m' hag c h35)
  rw [E0] at hK
  exact hK.trans hR.symm

theorem same_main_v58 : Cert.KernelIdeal.Gen.V17 m outs c Cert.KernelIdeal.main_v58 = Rf m' c Cert.ReferenceIdeal.main_v58 := by
  have hK := (((Cert.KernelIdeal.Gen.V17_of m outs c Cert.KernelIdeal.main_v58 (by decide)).trans ((Cert.KernelIdeal.Gen.V16_of m outs c Cert.KernelIdeal.main_v58 (by decide)).trans ((Cert.KernelIdeal.Gen.V15_of m outs c Cert.KernelIdeal.main_v58 (by decide)).trans ((Cert.KernelIdeal.Gen.V14_of m outs c Cert.KernelIdeal.main_v58 (by decide)).trans ((Cert.KernelIdeal.Gen.V13_of m outs c Cert.KernelIdeal.main_v58 (by decide)).trans ((Cert.KernelIdeal.Gen.V12_of m outs c Cert.KernelIdeal.main_v58 (by decide)).trans ((Cert.KernelIdeal.Gen.V11_of m outs c Cert.KernelIdeal.main_v58 (by decide)).trans (Cert.KernelIdeal.Gen.V10_of m outs c Cert.KernelIdeal.main_v58 (by decide)))))))))).trans (after_binary each_hostOps1_2 (Cert.KernelIdeal.Gen.V8 m outs c) 7 _ _ _ _ _ _ _ rfl (by decide) (by decide) (by decide))
  have hR := after_binary eachR (launchContents m' c) 79 _ _ _ _ _ _ _ rfl (by decide) (by decide) (by decide)
  have E0 : after (Cert.KernelIdeal.Gen.hostOps1_2 (F := Ideal)) (Cert.KernelIdeal.Gen.V8 m outs c) (Proc.devRef .tc Cert.KernelIdeal.main_v52) = Rf m' c Cert.ReferenceIdeal.main_v52 :=
    (((Cert.KernelIdeal.Gen.V17_of m outs c Cert.KernelIdeal.main_v52 (by decide)).trans ((Cert.KernelIdeal.Gen.V16_of m outs c Cert.KernelIdeal.main_v52 (by decide)).trans ((Cert.KernelIdeal.Gen.V15_of m outs c Cert.KernelIdeal.main_v52 (by decide)).trans ((Cert.KernelIdeal.Gen.V14_of m outs c Cert.KernelIdeal.main_v52 (by decide)).trans ((Cert.KernelIdeal.Gen.V13_of m outs c Cert.KernelIdeal.main_v52 (by decide)).trans ((Cert.KernelIdeal.Gen.V12_of m outs c Cert.KernelIdeal.main_v52 (by decide)).trans ((Cert.KernelIdeal.Gen.V11_of m outs c Cert.KernelIdeal.main_v52 (by decide)).trans (Cert.KernelIdeal.Gen.V10_of m outs c Cert.KernelIdeal.main_v52 (by decide)))))))))).symm.trans (same_main_v52 m outs m' hag c h35)
  have E1 : after (Cert.KernelIdeal.Gen.hostOps1_2 (F := Ideal)) (Cert.KernelIdeal.Gen.V8 m outs c) (Proc.devRef .tc Cert.KernelIdeal.main_v57) = Rf m' c Cert.ReferenceIdeal.main_v57 :=
    (((Cert.KernelIdeal.Gen.V17_of m outs c Cert.KernelIdeal.main_v57 (by decide)).trans ((Cert.KernelIdeal.Gen.V16_of m outs c Cert.KernelIdeal.main_v57 (by decide)).trans ((Cert.KernelIdeal.Gen.V15_of m outs c Cert.KernelIdeal.main_v57 (by decide)).trans ((Cert.KernelIdeal.Gen.V14_of m outs c Cert.KernelIdeal.main_v57 (by decide)).trans ((Cert.KernelIdeal.Gen.V13_of m outs c Cert.KernelIdeal.main_v57 (by decide)).trans ((Cert.KernelIdeal.Gen.V12_of m outs c Cert.KernelIdeal.main_v57 (by decide)).trans ((Cert.KernelIdeal.Gen.V11_of m outs c Cert.KernelIdeal.main_v57 (by decide)).trans (Cert.KernelIdeal.Gen.V10_of m outs c Cert.KernelIdeal.main_v57 (by decide)))))))))).symm.trans (same_main_v57 m outs m' hag c h35)
  rw [E0, E1] at hK
  exact hK.trans hR.symm

theorem same_main_v59 : Cert.KernelIdeal.Gen.V17 m outs c Cert.KernelIdeal.main_v59 = Rf m' c Cert.ReferenceIdeal.main_v59 := by
  have hK := (((Cert.KernelIdeal.Gen.V17_of m outs c Cert.KernelIdeal.main_v59 (by decide)).trans ((Cert.KernelIdeal.Gen.V16_of m outs c Cert.KernelIdeal.main_v59 (by decide)).trans ((Cert.KernelIdeal.Gen.V15_of m outs c Cert.KernelIdeal.main_v59 (by decide)).trans ((Cert.KernelIdeal.Gen.V14_of m outs c Cert.KernelIdeal.main_v59 (by decide)).trans ((Cert.KernelIdeal.Gen.V13_of m outs c Cert.KernelIdeal.main_v59 (by decide)).trans ((Cert.KernelIdeal.Gen.V12_of m outs c Cert.KernelIdeal.main_v59 (by decide)).trans ((Cert.KernelIdeal.Gen.V11_of m outs c Cert.KernelIdeal.main_v59 (by decide)).trans (Cert.KernelIdeal.Gen.V10_of m outs c Cert.KernelIdeal.main_v59 (by decide)))))))))).trans (after_binary each_hostOps1_2 (Cert.KernelIdeal.Gen.V8 m outs c) 8 _ _ _ _ _ _ _ rfl (by decide) (by decide) (by decide))
  have hR := after_binary eachR (launchContents m' c) 80 _ _ _ _ _ _ _ rfl (by decide) (by decide) (by decide)
  have E0 : after (Cert.KernelIdeal.Gen.hostOps1_2 (F := Ideal)) (Cert.KernelIdeal.Gen.V8 m outs c) (Proc.devRef .tc Cert.KernelIdeal.main_v58) = Rf m' c Cert.ReferenceIdeal.main_v58 :=
    (((Cert.KernelIdeal.Gen.V17_of m outs c Cert.KernelIdeal.main_v58 (by decide)).trans ((Cert.KernelIdeal.Gen.V16_of m outs c Cert.KernelIdeal.main_v58 (by decide)).trans ((Cert.KernelIdeal.Gen.V15_of m outs c Cert.KernelIdeal.main_v58 (by decide)).trans ((Cert.KernelIdeal.Gen.V14_of m outs c Cert.KernelIdeal.main_v58 (by decide)).trans ((Cert.KernelIdeal.Gen.V13_of m outs c Cert.KernelIdeal.main_v58 (by decide)).trans ((Cert.KernelIdeal.Gen.V12_of m outs c Cert.KernelIdeal.main_v58 (by decide)).trans ((Cert.KernelIdeal.Gen.V11_of m outs c Cert.KernelIdeal.main_v58 (by decide)).trans (Cert.KernelIdeal.Gen.V10_of m outs c Cert.KernelIdeal.main_v58 (by decide)))))))))).symm.trans (same_main_v58 m outs m' hag c h35)
  rw [E0] at hK
  exact hK.trans hR.symm

theorem same_main_cst_13 : Cert.KernelIdeal.Gen.V17 m outs c Cert.KernelIdeal.main_cst_13 = Rf m' c Cert.ReferenceIdeal.main_cst_13 := by
  have hK := (((Cert.KernelIdeal.Gen.V17_of m outs c Cert.KernelIdeal.main_cst_13 (by decide)).trans ((Cert.KernelIdeal.Gen.V16_of m outs c Cert.KernelIdeal.main_cst_13 (by decide)).trans ((Cert.KernelIdeal.Gen.V15_of m outs c Cert.KernelIdeal.main_cst_13 (by decide)).trans ((Cert.KernelIdeal.Gen.V14_of m outs c Cert.KernelIdeal.main_cst_13 (by decide)).trans ((Cert.KernelIdeal.Gen.V13_of m outs c Cert.KernelIdeal.main_cst_13 (by decide)).trans ((Cert.KernelIdeal.Gen.V12_of m outs c Cert.KernelIdeal.main_cst_13 (by decide)).trans ((Cert.KernelIdeal.Gen.V11_of m outs c Cert.KernelIdeal.main_cst_13 (by decide)).trans (Cert.KernelIdeal.Gen.V10_of m outs c Cert.KernelIdeal.main_cst_13 (by decide)))))))))).trans (after_nullary each_hostOps1_2 (Cert.KernelIdeal.Gen.V8 m outs c) 9 _ _ _ rfl (by decide))
  have hR := after_nullary eachR (launchContents m' c) 81 _ _ _ rfl (by decide)

  exact hK.trans hR.symm

theorem same_main_v60 : Cert.KernelIdeal.Gen.V17 m outs c Cert.KernelIdeal.main_v60 = Rf m' c Cert.ReferenceIdeal.main_v60 := by
  have hK := (((Cert.KernelIdeal.Gen.V17_of m outs c Cert.KernelIdeal.main_v60 (by decide)).trans ((Cert.KernelIdeal.Gen.V16_of m outs c Cert.KernelIdeal.main_v60 (by decide)).trans ((Cert.KernelIdeal.Gen.V15_of m outs c Cert.KernelIdeal.main_v60 (by decide)).trans ((Cert.KernelIdeal.Gen.V14_of m outs c Cert.KernelIdeal.main_v60 (by decide)).trans ((Cert.KernelIdeal.Gen.V13_of m outs c Cert.KernelIdeal.main_v60 (by decide)).trans ((Cert.KernelIdeal.Gen.V12_of m outs c Cert.KernelIdeal.main_v60 (by decide)).trans ((Cert.KernelIdeal.Gen.V11_of m outs c Cert.KernelIdeal.main_v60 (by decide)).trans (Cert.KernelIdeal.Gen.V10_of m outs c Cert.KernelIdeal.main_v60 (by decide)))))))))).trans (after_binary each_hostOps1_2 (Cert.KernelIdeal.Gen.V8 m outs c) 10 _ _ _ _ _ _ _ rfl (by decide) (by decide) (by decide))
  have hR := after_binary eachR (launchContents m' c) 82 _ _ _ _ _ _ _ rfl (by decide) (by decide) (by decide)
  have E0 : after (Cert.KernelIdeal.Gen.hostOps1_2 (F := Ideal)) (Cert.KernelIdeal.Gen.V8 m outs c) (Proc.devRef .tc Cert.KernelIdeal.main_v59) = Rf m' c Cert.ReferenceIdeal.main_v59 :=
    (((Cert.KernelIdeal.Gen.V17_of m outs c Cert.KernelIdeal.main_v59 (by decide)).trans ((Cert.KernelIdeal.Gen.V16_of m outs c Cert.KernelIdeal.main_v59 (by decide)).trans ((Cert.KernelIdeal.Gen.V15_of m outs c Cert.KernelIdeal.main_v59 (by decide)).trans ((Cert.KernelIdeal.Gen.V14_of m outs c Cert.KernelIdeal.main_v59 (by decide)).trans ((Cert.KernelIdeal.Gen.V13_of m outs c Cert.KernelIdeal.main_v59 (by decide)).trans ((Cert.KernelIdeal.Gen.V12_of m outs c Cert.KernelIdeal.main_v59 (by decide)).trans ((Cert.KernelIdeal.Gen.V11_of m outs c Cert.KernelIdeal.main_v59 (by decide)).trans (Cert.KernelIdeal.Gen.V10_of m outs c Cert.KernelIdeal.main_v59 (by decide)))))))))).symm.trans (same_main_v59 m outs m' hag c h35)
  have E1 : after (Cert.KernelIdeal.Gen.hostOps1_2 (F := Ideal)) (Cert.KernelIdeal.Gen.V8 m outs c) (Proc.devRef .tc Cert.KernelIdeal.main_cst_13) = Rf m' c Cert.ReferenceIdeal.main_cst_13 :=
    (((Cert.KernelIdeal.Gen.V17_of m outs c Cert.KernelIdeal.main_cst_13 (by decide)).trans ((Cert.KernelIdeal.Gen.V16_of m outs c Cert.KernelIdeal.main_cst_13 (by decide)).trans ((Cert.KernelIdeal.Gen.V15_of m outs c Cert.KernelIdeal.main_cst_13 (by decide)).trans ((Cert.KernelIdeal.Gen.V14_of m outs c Cert.KernelIdeal.main_cst_13 (by decide)).trans ((Cert.KernelIdeal.Gen.V13_of m outs c Cert.KernelIdeal.main_cst_13 (by decide)).trans ((Cert.KernelIdeal.Gen.V12_of m outs c Cert.KernelIdeal.main_cst_13 (by decide)).trans ((Cert.KernelIdeal.Gen.V11_of m outs c Cert.KernelIdeal.main_cst_13 (by decide)).trans (Cert.KernelIdeal.Gen.V10_of m outs c Cert.KernelIdeal.main_cst_13 (by decide)))))))))).symm.trans (same_main_cst_13 m outs m' hag c h35)
  rw [E0, E1] at hK
  exact hK.trans hR.symm

theorem same_main_cst_14 : Cert.KernelIdeal.Gen.V17 m outs c Cert.KernelIdeal.main_cst_14 = Rf m' c Cert.ReferenceIdeal.main_cst_14 := by
  have hK := (((Cert.KernelIdeal.Gen.V17_of m outs c Cert.KernelIdeal.main_cst_14 (by decide)).trans ((Cert.KernelIdeal.Gen.V16_of m outs c Cert.KernelIdeal.main_cst_14 (by decide)).trans ((Cert.KernelIdeal.Gen.V15_of m outs c Cert.KernelIdeal.main_cst_14 (by decide)).trans ((Cert.KernelIdeal.Gen.V14_of m outs c Cert.KernelIdeal.main_cst_14 (by decide)).trans ((Cert.KernelIdeal.Gen.V13_of m outs c Cert.KernelIdeal.main_cst_14 (by decide)).trans ((Cert.KernelIdeal.Gen.V12_of m outs c Cert.KernelIdeal.main_cst_14 (by decide)).trans ((Cert.KernelIdeal.Gen.V11_of m outs c Cert.KernelIdeal.main_cst_14 (by decide)).trans (Cert.KernelIdeal.Gen.V10_of m outs c Cert.KernelIdeal.main_cst_14 (by decide)))))))))).trans (after_nullary each_hostOps1_2 (Cert.KernelIdeal.Gen.V8 m outs c) 11 _ _ _ rfl (by decide))
  have hR := after_nullary eachR (launchContents m' c) 83 _ _ _ rfl (by decide)

  exact hK.trans hR.symm

theorem same_main_v61 : Cert.KernelIdeal.Gen.V17 m outs c Cert.KernelIdeal.main_v61 = Rf m' c Cert.ReferenceIdeal.main_v61 := by
  have hK := (((Cert.KernelIdeal.Gen.V17_of m outs c Cert.KernelIdeal.main_v61 (by decide)).trans ((Cert.KernelIdeal.Gen.V16_of m outs c Cert.KernelIdeal.main_v61 (by decide)).trans ((Cert.KernelIdeal.Gen.V15_of m outs c Cert.KernelIdeal.main_v61 (by decide)).trans ((Cert.KernelIdeal.Gen.V14_of m outs c Cert.KernelIdeal.main_v61 (by decide)).trans ((Cert.KernelIdeal.Gen.V13_of m outs c Cert.KernelIdeal.main_v61 (by decide)).trans ((Cert.KernelIdeal.Gen.V12_of m outs c Cert.KernelIdeal.main_v61 (by decide)).trans ((Cert.KernelIdeal.Gen.V11_of m outs c Cert.KernelIdeal.main_v61 (by decide)).trans (Cert.KernelIdeal.Gen.V10_of m outs c Cert.KernelIdeal.main_v61 (by decide)))))))))).trans (after_unary each_hostOps1_2 (Cert.KernelIdeal.Gen.V8 m outs c) 12 _ _ _ _ _ rfl (by decide) (by decide))
  have hR := after_unary eachR (launchContents m' c) 84 _ _ _ _ _ rfl (by decide) (by decide)
  have E0 : after (Cert.KernelIdeal.Gen.hostOps1_2 (F := Ideal)) (Cert.KernelIdeal.Gen.V8 m outs c) (Proc.devRef .tc Cert.KernelIdeal.main_cst_14) = Rf m' c Cert.ReferenceIdeal.main_cst_14 :=
    (((Cert.KernelIdeal.Gen.V17_of m outs c Cert.KernelIdeal.main_cst_14 (by decide)).trans ((Cert.KernelIdeal.Gen.V16_of m outs c Cert.KernelIdeal.main_cst_14 (by decide)).trans ((Cert.KernelIdeal.Gen.V15_of m outs c Cert.KernelIdeal.main_cst_14 (by decide)).trans ((Cert.KernelIdeal.Gen.V14_of m outs c Cert.KernelIdeal.main_cst_14 (by decide)).trans ((Cert.KernelIdeal.Gen.V13_of m outs c Cert.KernelIdeal.main_cst_14 (by decide)).trans ((Cert.KernelIdeal.Gen.V12_of m outs c Cert.KernelIdeal.main_cst_14 (by decide)).trans ((Cert.KernelIdeal.Gen.V11_of m outs c Cert.KernelIdeal.main_cst_14 (by decide)).trans (Cert.KernelIdeal.Gen.V10_of m outs c Cert.KernelIdeal.main_cst_14 (by decide)))))))))).symm.trans (same_main_cst_14 m outs m' hag c h35)
  rw [E0] at hK
  exact hK.trans hR.symm

theorem same_main_v62 : Cert.KernelIdeal.Gen.V17 m outs c Cert.KernelIdeal.main_v62 = Rf m' c Cert.ReferenceIdeal.main_v62 := by
  have hK := (((Cert.KernelIdeal.Gen.V17_of m outs c Cert.KernelIdeal.main_v62 (by decide)).trans ((Cert.KernelIdeal.Gen.V16_of m outs c Cert.KernelIdeal.main_v62 (by decide)).trans ((Cert.KernelIdeal.Gen.V15_of m outs c Cert.KernelIdeal.main_v62 (by decide)).trans ((Cert.KernelIdeal.Gen.V14_of m outs c Cert.KernelIdeal.main_v62 (by decide)).trans ((Cert.KernelIdeal.Gen.V13_of m outs c Cert.KernelIdeal.main_v62 (by decide)).trans ((Cert.KernelIdeal.Gen.V12_of m outs c Cert.KernelIdeal.main_v62 (by decide)).trans ((Cert.KernelIdeal.Gen.V11_of m outs c Cert.KernelIdeal.main_v62 (by decide)).trans (Cert.KernelIdeal.Gen.V10_of m outs c Cert.KernelIdeal.main_v62 (by decide)))))))))).trans (after_binary each_hostOps1_2 (Cert.KernelIdeal.Gen.V8 m outs c) 13 _ _ _ _ _ _ _ rfl (by decide) (by decide) (by decide))
  have hR := after_binary eachR (launchContents m' c) 85 _ _ _ _ _ _ _ rfl (by decide) (by decide) (by decide)
  have E0 : after (Cert.KernelIdeal.Gen.hostOps1_2 (F := Ideal)) (Cert.KernelIdeal.Gen.V8 m outs c) (Proc.devRef .tc Cert.KernelIdeal.main_v60) = Rf m' c Cert.ReferenceIdeal.main_v60 :=
    (((Cert.KernelIdeal.Gen.V17_of m outs c Cert.KernelIdeal.main_v60 (by decide)).trans ((Cert.KernelIdeal.Gen.V16_of m outs c Cert.KernelIdeal.main_v60 (by decide)).trans ((Cert.KernelIdeal.Gen.V15_of m outs c Cert.KernelIdeal.main_v60 (by decide)).trans ((Cert.KernelIdeal.Gen.V14_of m outs c Cert.KernelIdeal.main_v60 (by decide)).trans ((Cert.KernelIdeal.Gen.V13_of m outs c Cert.KernelIdeal.main_v60 (by decide)).trans ((Cert.KernelIdeal.Gen.V12_of m outs c Cert.KernelIdeal.main_v60 (by decide)).trans ((Cert.KernelIdeal.Gen.V11_of m outs c Cert.KernelIdeal.main_v60 (by decide)).trans (Cert.KernelIdeal.Gen.V10_of m outs c Cert.KernelIdeal.main_v60 (by decide)))))))))).symm.trans (same_main_v60 m outs m' hag c h35)
  have E1 : after (Cert.KernelIdeal.Gen.hostOps1_2 (F := Ideal)) (Cert.KernelIdeal.Gen.V8 m outs c) (Proc.devRef .tc Cert.KernelIdeal.main_v61) = Rf m' c Cert.ReferenceIdeal.main_v61 :=
    (((Cert.KernelIdeal.Gen.V17_of m outs c Cert.KernelIdeal.main_v61 (by decide)).trans ((Cert.KernelIdeal.Gen.V16_of m outs c Cert.KernelIdeal.main_v61 (by decide)).trans ((Cert.KernelIdeal.Gen.V15_of m outs c Cert.KernelIdeal.main_v61 (by decide)).trans ((Cert.KernelIdeal.Gen.V14_of m outs c Cert.KernelIdeal.main_v61 (by decide)).trans ((Cert.KernelIdeal.Gen.V13_of m outs c Cert.KernelIdeal.main_v61 (by decide)).trans ((Cert.KernelIdeal.Gen.V12_of m outs c Cert.KernelIdeal.main_v61 (by decide)).trans ((Cert.KernelIdeal.Gen.V11_of m outs c Cert.KernelIdeal.main_v61 (by decide)).trans (Cert.KernelIdeal.Gen.V10_of m outs c Cert.KernelIdeal.main_v61 (by decide)))))))))).symm.trans (same_main_v61 m outs m' hag c h35)
  rw [E0, E1] at hK
  exact hK.trans hR.symm

theorem same_main_v63 : Cert.KernelIdeal.Gen.V17 m outs c Cert.KernelIdeal.main_v63 = Rf m' c Cert.ReferenceIdeal.main_v63 := by
  have hK := (((Cert.KernelIdeal.Gen.V17_of m outs c Cert.KernelIdeal.main_v63 (by decide)).trans ((Cert.KernelIdeal.Gen.V16_of m outs c Cert.KernelIdeal.main_v63 (by decide)).trans ((Cert.KernelIdeal.Gen.V15_of m outs c Cert.KernelIdeal.main_v63 (by decide)).trans ((Cert.KernelIdeal.Gen.V14_of m outs c Cert.KernelIdeal.main_v63 (by decide)).trans ((Cert.KernelIdeal.Gen.V13_of m outs c Cert.KernelIdeal.main_v63 (by decide)).trans ((Cert.KernelIdeal.Gen.V12_of m outs c Cert.KernelIdeal.main_v63 (by decide)).trans ((Cert.KernelIdeal.Gen.V11_of m outs c Cert.KernelIdeal.main_v63 (by decide)).trans (Cert.KernelIdeal.Gen.V10_of m outs c Cert.KernelIdeal.main_v63 (by decide)))))))))).trans (after_unary each_hostOps1_2 (Cert.KernelIdeal.Gen.V8 m outs c) 14 _ _ _ _ _ rfl (by decide) (by decide))
  have hR := after_unary eachR (launchContents m' c) 86 _ _ _ _ _ rfl (by decide) (by decide)
  have E0 : after (Cert.KernelIdeal.Gen.hostOps1_2 (F := Ideal)) (Cert.KernelIdeal.Gen.V8 m outs c) (Proc.devRef .tc Cert.KernelIdeal.main_v55) = Rf m' c Cert.ReferenceIdeal.main_v55 :=
    (((Cert.KernelIdeal.Gen.V17_of m outs c Cert.KernelIdeal.main_v55 (by decide)).trans ((Cert.KernelIdeal.Gen.V16_of m outs c Cert.KernelIdeal.main_v55 (by decide)).trans ((Cert.KernelIdeal.Gen.V15_of m outs c Cert.KernelIdeal.main_v55 (by decide)).trans ((Cert.KernelIdeal.Gen.V14_of m outs c Cert.KernelIdeal.main_v55 (by decide)).trans ((Cert.KernelIdeal.Gen.V13_of m outs c Cert.KernelIdeal.main_v55 (by decide)).trans ((Cert.KernelIdeal.Gen.V12_of m outs c Cert.KernelIdeal.main_v55 (by decide)).trans ((Cert.KernelIdeal.Gen.V11_of m outs c Cert.KernelIdeal.main_v55 (by decide)).trans (Cert.KernelIdeal.Gen.V10_of m outs c Cert.KernelIdeal.main_v55 (by decide)))))))))).symm.trans (same_main_v55 m outs m' hag c h35)
  rw [E0] at hK
  exact hK.trans hR.symm

theorem same_main_v64 : Cert.KernelIdeal.Gen.V17 m outs c Cert.KernelIdeal.main_v64 = Rf m' c Cert.ReferenceIdeal.main_v64 := by
  have hK := (((Cert.KernelIdeal.Gen.V17_of m outs c Cert.KernelIdeal.main_v64 (by decide)).trans ((Cert.KernelIdeal.Gen.V16_of m outs c Cert.KernelIdeal.main_v64 (by decide)).trans ((Cert.KernelIdeal.Gen.V15_of m outs c Cert.KernelIdeal.main_v64 (by decide)).trans ((Cert.KernelIdeal.Gen.V14_of m outs c Cert.KernelIdeal.main_v64 (by decide)).trans ((Cert.KernelIdeal.Gen.V13_of m outs c Cert.KernelIdeal.main_v64 (by decide)).trans ((Cert.KernelIdeal.Gen.V12_of m outs c Cert.KernelIdeal.main_v64 (by decide)).trans ((Cert.KernelIdeal.Gen.V11_of m outs c Cert.KernelIdeal.main_v64 (by decide)).trans (Cert.KernelIdeal.Gen.V10_of m outs c Cert.KernelIdeal.main_v64 (by decide)))))))))).trans (after_unary each_hostOps1_2 (Cert.KernelIdeal.Gen.V8 m outs c) 15 _ _ _ _ _ rfl (by decide) (by decide))
  have hR := after_unary eachR (launchContents m' c) 87 _ _ _ _ _ rfl (by decide) (by decide)
  have E0 : after (Cert.KernelIdeal.Gen.hostOps1_2 (F := Ideal)) (Cert.KernelIdeal.Gen.V8 m outs c) (Proc.devRef .tc Cert.KernelIdeal.main_v63) = Rf m' c Cert.ReferenceIdeal.main_v63 :=
    (((Cert.KernelIdeal.Gen.V17_of m outs c Cert.KernelIdeal.main_v63 (by decide)).trans ((Cert.KernelIdeal.Gen.V16_of m outs c Cert.KernelIdeal.main_v63 (by decide)).trans ((Cert.KernelIdeal.Gen.V15_of m outs c Cert.KernelIdeal.main_v63 (by decide)).trans ((Cert.KernelIdeal.Gen.V14_of m outs c Cert.KernelIdeal.main_v63 (by decide)).trans ((Cert.KernelIdeal.Gen.V13_of m outs c Cert.KernelIdeal.main_v63 (by decide)).trans ((Cert.KernelIdeal.Gen.V12_of m outs c Cert.KernelIdeal.main_v63 (by decide)).trans ((Cert.KernelIdeal.Gen.V11_of m outs c Cert.KernelIdeal.main_v63 (by decide)).trans (Cert.KernelIdeal.Gen.V10_of m outs c Cert.KernelIdeal.main_v63 (by decide)))))))))).symm.trans (same_main_v63 m outs m' hag c h35)
  rw [E0] at hK
  exact hK.trans hR.symm

theorem same_main_v65 : Cert.KernelIdeal.Gen.V17 m outs c Cert.KernelIdeal.main_v65 = Rf m' c Cert.ReferenceIdeal.main_v65 := by
  have hK := (((Cert.KernelIdeal.Gen.V17_of m outs c Cert.KernelIdeal.main_v65 (by decide)).trans ((Cert.KernelIdeal.Gen.V16_of m outs c Cert.KernelIdeal.main_v65 (by decide)).trans ((Cert.KernelIdeal.Gen.V15_of m outs c Cert.KernelIdeal.main_v65 (by decide)).trans ((Cert.KernelIdeal.Gen.V14_of m outs c Cert.KernelIdeal.main_v65 (by decide)).trans ((Cert.KernelIdeal.Gen.V13_of m outs c Cert.KernelIdeal.main_v65 (by decide)).trans ((Cert.KernelIdeal.Gen.V12_of m outs c Cert.KernelIdeal.main_v65 (by decide)).trans ((Cert.KernelIdeal.Gen.V11_of m outs c Cert.KernelIdeal.main_v65 (by decide)).trans (Cert.KernelIdeal.Gen.V10_of m outs c Cert.KernelIdeal.main_v65 (by decide)))))))))).trans (after_binary each_hostOps1_2 (Cert.KernelIdeal.Gen.V8 m outs c) 16 _ _ _ _ _ _ _ rfl (by decide) (by decide) (by decide))
  have hR := after_binary eachR (launchContents m' c) 88 _ _ _ _ _ _ _ rfl (by decide) (by decide) (by decide)
  have E0 : after (Cert.KernelIdeal.Gen.hostOps1_2 (F := Ideal)) (Cert.KernelIdeal.Gen.V8 m outs c) (Proc.devRef .tc Cert.KernelIdeal.main_v52) = Rf m' c Cert.ReferenceIdeal.main_v52 :=
    (((Cert.KernelIdeal.Gen.V17_of m outs c Cert.KernelIdeal.main_v52 (by decide)).trans ((Cert.KernelIdeal.Gen.V16_of m outs c Cert.KernelIdeal.main_v52 (by decide)).trans ((Cert.KernelIdeal.Gen.V15_of m outs c Cert.KernelIdeal.main_v52 (by decide)).trans ((Cert.KernelIdeal.Gen.V14_of m outs c Cert.KernelIdeal.main_v52 (by decide)).trans ((Cert.KernelIdeal.Gen.V13_of m outs c Cert.KernelIdeal.main_v52 (by decide)).trans ((Cert.KernelIdeal.Gen.V12_of m outs c Cert.KernelIdeal.main_v52 (by decide)).trans ((Cert.KernelIdeal.Gen.V11_of m outs c Cert.KernelIdeal.main_v52 (by decide)).trans (Cert.KernelIdeal.Gen.V10_of m outs c Cert.KernelIdeal.main_v52 (by decide)))))))))).symm.trans (same_main_v52 m outs m' hag c h35)
  have E1 : after (Cert.KernelIdeal.Gen.hostOps1_2 (F := Ideal)) (Cert.KernelIdeal.Gen.V8 m outs c) (Proc.devRef .tc Cert.KernelIdeal.main_v64) = Rf m' c Cert.ReferenceIdeal.main_v64 :=
    (((Cert.KernelIdeal.Gen.V17_of m outs c Cert.KernelIdeal.main_v64 (by decide)).trans ((Cert.KernelIdeal.Gen.V16_of m outs c Cert.KernelIdeal.main_v64 (by decide)).trans ((Cert.KernelIdeal.Gen.V15_of m outs c Cert.KernelIdeal.main_v64 (by decide)).trans ((Cert.KernelIdeal.Gen.V14_of m outs c Cert.KernelIdeal.main_v64 (by decide)).trans ((Cert.KernelIdeal.Gen.V13_of m outs c Cert.KernelIdeal.main_v64 (by decide)).trans ((Cert.KernelIdeal.Gen.V12_of m outs c Cert.KernelIdeal.main_v64 (by decide)).trans ((Cert.KernelIdeal.Gen.V11_of m outs c Cert.KernelIdeal.main_v64 (by decide)).trans (Cert.KernelIdeal.Gen.V10_of m outs c Cert.KernelIdeal.main_v64 (by decide)))))))))).symm.trans (same_main_v64 m outs m' hag c h35)
  rw [E0, E1] at hK
  exact hK.trans hR.symm

theorem same_main_cst_15 : Cert.KernelIdeal.Gen.V17 m outs c Cert.KernelIdeal.main_cst_15 = Rf m' c Cert.ReferenceIdeal.main_cst_15 := by
  have hK := (((Cert.KernelIdeal.Gen.V17_of m outs c Cert.KernelIdeal.main_cst_15 (by decide)).trans ((Cert.KernelIdeal.Gen.V16_of m outs c Cert.KernelIdeal.main_cst_15 (by decide)).trans ((Cert.KernelIdeal.Gen.V15_of m outs c Cert.KernelIdeal.main_cst_15 (by decide)).trans ((Cert.KernelIdeal.Gen.V14_of m outs c Cert.KernelIdeal.main_cst_15 (by decide)).trans ((Cert.KernelIdeal.Gen.V13_of m outs c Cert.KernelIdeal.main_cst_15 (by decide)).trans ((Cert.KernelIdeal.Gen.V12_of m outs c Cert.KernelIdeal.main_cst_15 (by decide)).trans ((Cert.KernelIdeal.Gen.V11_of m outs c Cert.KernelIdeal.main_cst_15 (by decide)).trans (Cert.KernelIdeal.Gen.V10_of m outs c Cert.KernelIdeal.main_cst_15 (by decide)))))))))).trans (after_nullary each_hostOps1_2 (Cert.KernelIdeal.Gen.V8 m outs c) 17 _ _ _ rfl (by decide))
  have hR := after_nullary eachR (launchContents m' c) 89 _ _ _ rfl (by decide)

  exact hK.trans hR.symm

theorem same_main_v66 : Cert.KernelIdeal.Gen.V17 m outs c Cert.KernelIdeal.main_v66 = Rf m' c Cert.ReferenceIdeal.main_v66 := by
  have hK := (((Cert.KernelIdeal.Gen.V17_of m outs c Cert.KernelIdeal.main_v66 (by decide)).trans ((Cert.KernelIdeal.Gen.V16_of m outs c Cert.KernelIdeal.main_v66 (by decide)).trans ((Cert.KernelIdeal.Gen.V15_of m outs c Cert.KernelIdeal.main_v66 (by decide)).trans ((Cert.KernelIdeal.Gen.V14_of m outs c Cert.KernelIdeal.main_v66 (by decide)).trans ((Cert.KernelIdeal.Gen.V13_of m outs c Cert.KernelIdeal.main_v66 (by decide)).trans ((Cert.KernelIdeal.Gen.V12_of m outs c Cert.KernelIdeal.main_v66 (by decide)).trans ((Cert.KernelIdeal.Gen.V11_of m outs c Cert.KernelIdeal.main_v66 (by decide)).trans (Cert.KernelIdeal.Gen.V10_of m outs c Cert.KernelIdeal.main_v66 (by decide)))))))))).trans (after_unary each_hostOps1_2 (Cert.KernelIdeal.Gen.V8 m outs c) 18 _ _ _ _ _ rfl (by decide) (by decide))
  have hR := after_unary eachR (launchContents m' c) 90 _ _ _ _ _ rfl (by decide) (by decide)
  have E0 : after (Cert.KernelIdeal.Gen.hostOps1_2 (F := Ideal)) (Cert.KernelIdeal.Gen.V8 m outs c) (Proc.devRef .tc Cert.KernelIdeal.main_cst_15) = Rf m' c Cert.ReferenceIdeal.main_cst_15 :=
    (((Cert.KernelIdeal.Gen.V17_of m outs c Cert.KernelIdeal.main_cst_15 (by decide)).trans ((Cert.KernelIdeal.Gen.V16_of m outs c Cert.KernelIdeal.main_cst_15 (by decide)).trans ((Cert.KernelIdeal.Gen.V15_of m outs c Cert.KernelIdeal.main_cst_15 (by decide)).trans ((Cert.KernelIdeal.Gen.V14_of m outs c Cert.KernelIdeal.main_cst_15 (by decide)).trans ((Cert.KernelIdeal.Gen.V13_of m outs c Cert.KernelIdeal.main_cst_15 (by decide)).trans ((Cert.KernelIdeal.Gen.V12_of m outs c Cert.KernelIdeal.main_cst_15 (by decide)).trans ((Cert.KernelIdeal.Gen.V11_of m outs c Cert.KernelIdeal.main_cst_15 (by decide)).trans (Cert.KernelIdeal.Gen.V10_of m outs c Cert.KernelIdeal.main_cst_15 (by decide)))))))))).symm.trans (same_main_cst_15 m outs m' hag c h35)
  rw [E0] at hK
  exact hK.trans hR.symm

theorem same_main_v67 : Cert.KernelIdeal.Gen.V17 m outs c Cert.KernelIdeal.main_v67 = Rf m' c Cert.ReferenceIdeal.main_v67 := by
  have hK := (((Cert.KernelIdeal.Gen.V17_of m outs c Cert.KernelIdeal.main_v67 (by decide)).trans ((Cert.KernelIdeal.Gen.V16_of m outs c Cert.KernelIdeal.main_v67 (by decide)).trans ((Cert.KernelIdeal.Gen.V15_of m outs c Cert.KernelIdeal.main_v67 (by decide)).trans ((Cert.KernelIdeal.Gen.V14_of m outs c Cert.KernelIdeal.main_v67 (by decide)).trans ((Cert.KernelIdeal.Gen.V13_of m outs c Cert.KernelIdeal.main_v67 (by decide)).trans ((Cert.KernelIdeal.Gen.V12_of m outs c Cert.KernelIdeal.main_v67 (by decide)).trans ((Cert.KernelIdeal.Gen.V11_of m outs c Cert.KernelIdeal.main_v67 (by decide)).trans (Cert.KernelIdeal.Gen.V10_of m outs c Cert.KernelIdeal.main_v67 (by decide)))))))))).trans (after_binary each_hostOps1_2 (Cert.KernelIdeal.Gen.V8 m outs c) 19 _ _ _ _ _ _ _ rfl (by decide) (by decide) (by decide))
  have hR := after_binary eachR (launchContents m' c) 91 _ _ _ _ _ _ _ rfl (by decide) (by decide) (by decide)
  have E0 : after (Cert.KernelIdeal.Gen.hostOps1_2 (F := Ideal)) (Cert.KernelIdeal.Gen.V8 m outs c) (Proc.devRef .tc Cert.KernelIdeal.main_v62) = Rf m' c Cert.ReferenceIdeal.main_v62 :=
    (((Cert.KernelIdeal.Gen.V17_of m outs c Cert.KernelIdeal.main_v62 (by decide)).trans ((Cert.KernelIdeal.Gen.V16_of m outs c Cert.KernelIdeal.main_v62 (by decide)).trans ((Cert.KernelIdeal.Gen.V15_of m outs c Cert.KernelIdeal.main_v62 (by decide)).trans ((Cert.KernelIdeal.Gen.V14_of m outs c Cert.KernelIdeal.main_v62 (by decide)).trans ((Cert.KernelIdeal.Gen.V13_of m outs c Cert.KernelIdeal.main_v62 (by decide)).trans ((Cert.KernelIdeal.Gen.V12_of m outs c Cert.KernelIdeal.main_v62 (by decide)).trans ((Cert.KernelIdeal.Gen.V11_of m outs c Cert.KernelIdeal.main_v62 (by decide)).trans (Cert.KernelIdeal.Gen.V10_of m outs c Cert.KernelIdeal.main_v62 (by decide)))))))))).symm.trans (same_main_v62 m outs m' hag c h35)
  have E1 : after (Cert.KernelIdeal.Gen.hostOps1_2 (F := Ideal)) (Cert.KernelIdeal.Gen.V8 m outs c) (Proc.devRef .tc Cert.KernelIdeal.main_v66) = Rf m' c Cert.ReferenceIdeal.main_v66 :=
    (((Cert.KernelIdeal.Gen.V17_of m outs c Cert.KernelIdeal.main_v66 (by decide)).trans ((Cert.KernelIdeal.Gen.V16_of m outs c Cert.KernelIdeal.main_v66 (by decide)).trans ((Cert.KernelIdeal.Gen.V15_of m outs c Cert.KernelIdeal.main_v66 (by decide)).trans ((Cert.KernelIdeal.Gen.V14_of m outs c Cert.KernelIdeal.main_v66 (by decide)).trans ((Cert.KernelIdeal.Gen.V13_of m outs c Cert.KernelIdeal.main_v66 (by decide)).trans ((Cert.KernelIdeal.Gen.V12_of m outs c Cert.KernelIdeal.main_v66 (by decide)).trans ((Cert.KernelIdeal.Gen.V11_of m outs c Cert.KernelIdeal.main_v66 (by decide)).trans (Cert.KernelIdeal.Gen.V10_of m outs c Cert.KernelIdeal.main_v66 (by decide)))))))))).symm.trans (same_main_v66 m outs m' hag c h35)
  rw [E0, E1] at hK
  exact hK.trans hR.symm

theorem same_main_v68 : Cert.KernelIdeal.Gen.V17 m outs c Cert.KernelIdeal.main_v68 = Rf m' c Cert.ReferenceIdeal.main_v68 := by
  have hK := (((Cert.KernelIdeal.Gen.V17_of m outs c Cert.KernelIdeal.main_v68 (by decide)).trans ((Cert.KernelIdeal.Gen.V16_of m outs c Cert.KernelIdeal.main_v68 (by decide)).trans ((Cert.KernelIdeal.Gen.V15_of m outs c Cert.KernelIdeal.main_v68 (by decide)).trans ((Cert.KernelIdeal.Gen.V14_of m outs c Cert.KernelIdeal.main_v68 (by decide)).trans ((Cert.KernelIdeal.Gen.V13_of m outs c Cert.KernelIdeal.main_v68 (by decide)).trans ((Cert.KernelIdeal.Gen.V12_of m outs c Cert.KernelIdeal.main_v68 (by decide)).trans ((Cert.KernelIdeal.Gen.V11_of m outs c Cert.KernelIdeal.main_v68 (by decide)).trans (Cert.KernelIdeal.Gen.V10_of m outs c Cert.KernelIdeal.main_v68 (by decide)))))))))).trans (after_unary each_hostOps1_2 (Cert.KernelIdeal.Gen.V8 m outs c) 20 _ _ _ _ _ rfl (by decide) (by decide))
  have hR := after_unary eachR (launchContents m' c) 92 _ _ _ _ _ rfl (by decide) (by decide)
  have E0 : after (Cert.KernelIdeal.Gen.hostOps1_2 (F := Ideal)) (Cert.KernelIdeal.Gen.V8 m outs c) (Proc.devRef .tc Cert.KernelIdeal.main_v67) = Rf m' c Cert.ReferenceIdeal.main_v67 :=
    (((Cert.KernelIdeal.Gen.V17_of m outs c Cert.KernelIdeal.main_v67 (by decide)).trans ((Cert.KernelIdeal.Gen.V16_of m outs c Cert.KernelIdeal.main_v67 (by decide)).trans ((Cert.KernelIdeal.Gen.V15_of m outs c Cert.KernelIdeal.main_v67 (by decide)).trans ((Cert.KernelIdeal.Gen.V14_of m outs c Cert.KernelIdeal.main_v67 (by decide)).trans ((Cert.KernelIdeal.Gen.V13_of m outs c Cert.KernelIdeal.main_v67 (by decide)).trans ((Cert.KernelIdeal.Gen.V12_of m outs c Cert.KernelIdeal.main_v67 (by decide)).trans ((Cert.KernelIdeal.Gen.V11_of m outs c Cert.KernelIdeal.main_v67 (by decide)).trans (Cert.KernelIdeal.Gen.V10_of m outs c Cert.KernelIdeal.main_v67 (by decide)))))))))).symm.trans (same_main_v67 m outs m' hag c h35)
  rw [E0] at hK
  exact hK.trans hR.symm

theorem same_main_v69 : Cert.KernelIdeal.Gen.V17 m outs c Cert.KernelIdeal.main_v69 = Rf m' c Cert.ReferenceIdeal.main_v69 := by
  have hK := (((Cert.KernelIdeal.Gen.V17_of m outs c Cert.KernelIdeal.main_v69 (by decide)).trans ((Cert.KernelIdeal.Gen.V16_of m outs c Cert.KernelIdeal.main_v69 (by decide)).trans ((Cert.KernelIdeal.Gen.V15_of m outs c Cert.KernelIdeal.main_v69 (by decide)).trans ((Cert.KernelIdeal.Gen.V14_of m outs c Cert.KernelIdeal.main_v69 (by decide)).trans ((Cert.KernelIdeal.Gen.V13_of m outs c Cert.KernelIdeal.main_v69 (by decide)).trans ((Cert.KernelIdeal.Gen.V12_of m outs c Cert.KernelIdeal.main_v69 (by decide)).trans ((Cert.KernelIdeal.Gen.V11_of m outs c Cert.KernelIdeal.main_v69 (by decide)).trans (Cert.KernelIdeal.Gen.V10_of m outs c Cert.KernelIdeal.main_v69 (by decide)))))))))).trans (after_unary each_hostOps1_2 (Cert.KernelIdeal.Gen.V8 m outs c) 21 _ _ _ _ _ rfl (by decide) (by decide))
  have hR := after_unary eachR (launchContents m' c) 93 _ _ _ _ _ rfl (by decide) (by decide)
  have E0 : after (Cert.KernelIdeal.Gen.hostOps1_2 (F := Ideal)) (Cert.KernelIdeal.Gen.V8 m outs c) (Proc.devRef .tc Cert.KernelIdeal.main_v68) = Rf m' c Cert.ReferenceIdeal.main_v68 :=
    (((Cert.KernelIdeal.Gen.V17_of m outs c Cert.KernelIdeal.main_v68 (by decide)).trans ((Cert.KernelIdeal.Gen.V16_of m outs c Cert.KernelIdeal.main_v68 (by decide)).trans ((Cert.KernelIdeal.Gen.V15_of m outs c Cert.KernelIdeal.main_v68 (by decide)).trans ((Cert.KernelIdeal.Gen.V14_of m outs c Cert.KernelIdeal.main_v68 (by decide)).trans ((Cert.KernelIdeal.Gen.V13_of m outs c Cert.KernelIdeal.main_v68 (by decide)).trans ((Cert.KernelIdeal.Gen.V12_of m outs c Cert.KernelIdeal.main_v68 (by decide)).trans ((Cert.KernelIdeal.Gen.V11_of m outs c Cert.KernelIdeal.main_v68 (by decide)).trans (Cert.KernelIdeal.Gen.V10_of m outs c Cert.KernelIdeal.main_v68 (by decide)))))))))).symm.trans (same_main_v68 m outs m' hag c h35)
  rw [E0] at hK
  exact hK.trans hR.symm

theorem same_main_v70 : Cert.KernelIdeal.Gen.V17 m outs c Cert.KernelIdeal.main_v70 = Rf m' c Cert.ReferenceIdeal.main_v70 := by
  have hK := (((Cert.KernelIdeal.Gen.V17_of m outs c Cert.KernelIdeal.main_v70 (by decide)).trans ((Cert.KernelIdeal.Gen.V16_of m outs c Cert.KernelIdeal.main_v70 (by decide)).trans ((Cert.KernelIdeal.Gen.V15_of m outs c Cert.KernelIdeal.main_v70 (by decide)).trans ((Cert.KernelIdeal.Gen.V14_of m outs c Cert.KernelIdeal.main_v70 (by decide)).trans ((Cert.KernelIdeal.Gen.V13_of m outs c Cert.KernelIdeal.main_v70 (by decide)).trans ((Cert.KernelIdeal.Gen.V12_of m outs c Cert.KernelIdeal.main_v70 (by decide)).trans ((Cert.KernelIdeal.Gen.V11_of m outs c Cert.KernelIdeal.main_v70 (by decide)).trans (Cert.KernelIdeal.Gen.V10_of m outs c Cert.KernelIdeal.main_v70 (by decide)))))))))).trans (after_unary each_hostOps1_2 (Cert.KernelIdeal.Gen.V8 m outs c) 22 _ _ _ _ _ rfl (by decide) (by decide))
  have hR := after_unary eachR (launchContents m' c) 94 _ _ _ _ _ rfl (by decide) (by decide)
  have E0 : after (Cert.KernelIdeal.Gen.hostOps1_2 (F := Ideal)) (Cert.KernelIdeal.Gen.V8 m outs c) (Proc.devRef .tc Cert.KernelIdeal.main_v69) = Rf m' c Cert.ReferenceIdeal.main_v69 :=
    (((Cert.KernelIdeal.Gen.V17_of m outs c Cert.KernelIdeal.main_v69 (by decide)).trans ((Cert.KernelIdeal.Gen.V16_of m outs c Cert.KernelIdeal.main_v69 (by decide)).trans ((Cert.KernelIdeal.Gen.V15_of m outs c Cert.KernelIdeal.main_v69 (by decide)).trans ((Cert.KernelIdeal.Gen.V14_of m outs c Cert.KernelIdeal.main_v69 (by decide)).trans ((Cert.KernelIdeal.Gen.V13_of m outs c Cert.KernelIdeal.main_v69 (by decide)).trans ((Cert.KernelIdeal.Gen.V12_of m outs c Cert.KernelIdeal.main_v69 (by decide)).trans ((Cert.KernelIdeal.Gen.V11_of m outs c Cert.KernelIdeal.main_v69 (by decide)).trans (Cert.KernelIdeal.Gen.V10_of m outs c Cert.KernelIdeal.main_v69 (by decide)))))))))).symm.trans (same_main_v69 m outs m' hag c h35)
  rw [E0] at hK
  exact hK.trans hR.symm

theorem same_main_v71 : Cert.KernelIdeal.Gen.V17 m outs c Cert.KernelIdeal.main_v71 = Rf m' c Cert.ReferenceIdeal.main_v71 := by
  have hK := (((Cert.KernelIdeal.Gen.V17_of m outs c Cert.KernelIdeal.main_v71 (by decide)).trans ((Cert.KernelIdeal.Gen.V16_of m outs c Cert.KernelIdeal.main_v71 (by decide)).trans ((Cert.KernelIdeal.Gen.V15_of m outs c Cert.KernelIdeal.main_v71 (by decide)).trans ((Cert.KernelIdeal.Gen.V14_of m outs c Cert.KernelIdeal.main_v71 (by decide)).trans ((Cert.KernelIdeal.Gen.V13_of m outs c Cert.KernelIdeal.main_v71 (by decide)).trans ((Cert.KernelIdeal.Gen.V12_of m outs c Cert.KernelIdeal.main_v71 (by decide)).trans ((Cert.KernelIdeal.Gen.V11_of m outs c Cert.KernelIdeal.main_v71 (by decide)).trans (Cert.KernelIdeal.Gen.V10_of m outs c Cert.KernelIdeal.main_v71 (by decide)))))))))).trans (after_binary each_hostOps1_2 (Cert.KernelIdeal.Gen.V8 m outs c) 23 _ _ _ _ _ _ _ rfl (by decide) (by decide) (by decide))
  have hR := after_binary eachR (launchContents m' c) 95 _ _ _ _ _ _ _ rfl (by decide) (by decide) (by decide)
  have E0 : after (Cert.KernelIdeal.Gen.hostOps1_2 (F := Ideal)) (Cert.KernelIdeal.Gen.V8 m outs c) (Proc.devRef .tc Cert.KernelIdeal.main_v65) = Rf m' c Cert.ReferenceIdeal.main_v65 :=
    (((Cert.KernelIdeal.Gen.V17_of m outs c Cert.KernelIdeal.main_v65 (by decide)).trans ((Cert.KernelIdeal.Gen.V16_of m outs c Cert.KernelIdeal.main_v65 (by decide)).trans ((Cert.KernelIdeal.Gen.V15_of m outs c Cert.KernelIdeal.main_v65 (by decide)).trans ((Cert.KernelIdeal.Gen.V14_of m outs c Cert.KernelIdeal.main_v65 (by decide)).trans ((Cert.KernelIdeal.Gen.V13_of m outs c Cert.KernelIdeal.main_v65 (by decide)).trans ((Cert.KernelIdeal.Gen.V12_of m outs c Cert.KernelIdeal.main_v65 (by decide)).trans ((Cert.KernelIdeal.Gen.V11_of m outs c Cert.KernelIdeal.main_v65 (by decide)).trans (Cert.KernelIdeal.Gen.V10_of m outs c Cert.KernelIdeal.main_v65 (by decide)))))))))).symm.trans (same_main_v65 m outs m' hag c h35)
  have E1 : after (Cert.KernelIdeal.Gen.hostOps1_2 (F := Ideal)) (Cert.KernelIdeal.Gen.V8 m outs c) (Proc.devRef .tc Cert.KernelIdeal.main_v70) = Rf m' c Cert.ReferenceIdeal.main_v70 :=
    (((Cert.KernelIdeal.Gen.V17_of m outs c Cert.KernelIdeal.main_v70 (by decide)).trans ((Cert.KernelIdeal.Gen.V16_of m outs c Cert.KernelIdeal.main_v70 (by decide)).trans ((Cert.KernelIdeal.Gen.V15_of m outs c Cert.KernelIdeal.main_v70 (by decide)).trans ((Cert.KernelIdeal.Gen.V14_of m outs c Cert.KernelIdeal.main_v70 (by decide)).trans ((Cert.KernelIdeal.Gen.V13_of m outs c Cert.KernelIdeal.main_v70 (by decide)).trans ((Cert.KernelIdeal.Gen.V12_of m outs c Cert.KernelIdeal.main_v70 (by decide)).trans ((Cert.KernelIdeal.Gen.V11_of m outs c Cert.KernelIdeal.main_v70 (by decide)).trans (Cert.KernelIdeal.Gen.V10_of m outs c Cert.KernelIdeal.main_v70 (by decide)))))))))).symm.trans (same_main_v70 m outs m' hag c h35)
  rw [E0, E1] at hK
  exact hK.trans hR.symm

theorem same_main_v72 : Cert.KernelIdeal.Gen.V17 m outs c Cert.KernelIdeal.main_v72 = Rf m' c Cert.ReferenceIdeal.main_v72 := by
  have hK := (((Cert.KernelIdeal.Gen.V17_of m outs c Cert.KernelIdeal.main_v72 (by decide)).trans ((Cert.KernelIdeal.Gen.V16_of m outs c Cert.KernelIdeal.main_v72 (by decide)).trans ((Cert.KernelIdeal.Gen.V15_of m outs c Cert.KernelIdeal.main_v72 (by decide)).trans ((Cert.KernelIdeal.Gen.V14_of m outs c Cert.KernelIdeal.main_v72 (by decide)).trans ((Cert.KernelIdeal.Gen.V13_of m outs c Cert.KernelIdeal.main_v72 (by decide)).trans ((Cert.KernelIdeal.Gen.V12_of m outs c Cert.KernelIdeal.main_v72 (by decide)).trans ((Cert.KernelIdeal.Gen.V11_of m outs c Cert.KernelIdeal.main_v72 (by decide)).trans (Cert.KernelIdeal.Gen.V10_of m outs c Cert.KernelIdeal.main_v72 (by decide)))))))))).trans (after_unary each_hostOps1_2 (Cert.KernelIdeal.Gen.V8 m outs c) 24 _ _ _ _ _ rfl (by decide) (by decide))
  have hR := after_unary eachR (launchContents m' c) 96 _ _ _ _ _ rfl (by decide) (by decide)
  have E0 : after (Cert.KernelIdeal.Gen.hostOps1_2 (F := Ideal)) (Cert.KernelIdeal.Gen.V8 m outs c) (Proc.devRef .tc Cert.KernelIdeal.main_arg7) = Rf m' c Cert.ReferenceIdeal.main_arg7 :=
    (((Cert.KernelIdeal.Gen.V17_of m outs c Cert.KernelIdeal.main_arg7 (by decide)).trans ((Cert.KernelIdeal.Gen.V16_of m outs c Cert.KernelIdeal.main_arg7 (by decide)).trans ((Cert.KernelIdeal.Gen.V15_of m outs c Cert.KernelIdeal.main_arg7 (by decide)).trans ((Cert.KernelIdeal.Gen.V14_of m outs c Cert.KernelIdeal.main_arg7 (by decide)).trans ((Cert.KernelIdeal.Gen.V13_of m outs c Cert.KernelIdeal.main_arg7 (by decide)).trans ((Cert.KernelIdeal.Gen.V12_of m outs c Cert.KernelIdeal.main_arg7 (by decide)).trans ((Cert.KernelIdeal.Gen.V11_of m outs c Cert.KernelIdeal.main_arg7 (by decide)).trans (Cert.KernelIdeal.Gen.V10_of m outs c Cert.KernelIdeal.main_arg7 (by decide)))))))))).symm.trans (same_main_arg7 m outs m' hag c)
  rw [E0] at hK
  exact hK.trans hR.symm

theorem same_main_v73 : Cert.KernelIdeal.Gen.V17 m outs c Cert.KernelIdeal.main_v73 = Rf m' c Cert.ReferenceIdeal.main_v73 := by
  have hK := (((Cert.KernelIdeal.Gen.V17_of m outs c Cert.KernelIdeal.main_v73 (by decide)).trans ((Cert.KernelIdeal.Gen.V16_of m outs c Cert.KernelIdeal.main_v73 (by decide)).trans ((Cert.KernelIdeal.Gen.V15_of m outs c Cert.KernelIdeal.main_v73 (by decide)).trans ((Cert.KernelIdeal.Gen.V14_of m outs c Cert.KernelIdeal.main_v73 (by decide)).trans ((Cert.KernelIdeal.Gen.V13_of m outs c Cert.KernelIdeal.main_v73 (by decide)).trans ((Cert.KernelIdeal.Gen.V12_of m outs c Cert.KernelIdeal.main_v73 (by decide)).trans ((Cert.KernelIdeal.Gen.V11_of m outs c Cert.KernelIdeal.main_v73 (by decide)).trans (Cert.KernelIdeal.Gen.V10_of m outs c Cert.KernelIdeal.main_v73 (by decide)))))))))).trans (after_unary each_hostOps1_2 (Cert.KernelIdeal.Gen.V8 m outs c) 25 _ _ _ _ _ rfl (by decide) (by decide))
  have hR := after_unary eachR (launchContents m' c) 97 _ _ _ _ _ rfl (by decide) (by decide)
  have E0 : after (Cert.KernelIdeal.Gen.hostOps1_2 (F := Ideal)) (Cert.KernelIdeal.Gen.V8 m outs c) (Proc.devRef .tc Cert.KernelIdeal.main_v72) = Rf m' c Cert.ReferenceIdeal.main_v72 :=
    (((Cert.KernelIdeal.Gen.V17_of m outs c Cert.KernelIdeal.main_v72 (by decide)).trans ((Cert.KernelIdeal.Gen.V16_of m outs c Cert.KernelIdeal.main_v72 (by decide)).trans ((Cert.KernelIdeal.Gen.V15_of m outs c Cert.KernelIdeal.main_v72 (by decide)).trans ((Cert.KernelIdeal.Gen.V14_of m outs c Cert.KernelIdeal.main_v72 (by decide)).trans ((Cert.KernelIdeal.Gen.V13_of m outs c Cert.KernelIdeal.main_v72 (by decide)).trans ((Cert.KernelIdeal.Gen.V12_of m outs c Cert.KernelIdeal.main_v72 (by decide)).trans ((Cert.KernelIdeal.Gen.V11_of m outs c Cert.KernelIdeal.main_v72 (by decide)).trans (Cert.KernelIdeal.Gen.V10_of m outs c Cert.KernelIdeal.main_v72 (by decide)))))))))).symm.trans (same_main_v72 m outs m' hag c h35)
  rw [E0] at hK
  exact hK.trans hR.symm

theorem same_main_v74 : Cert.KernelIdeal.Gen.V17 m outs c Cert.KernelIdeal.main_v74 = Rf m' c Cert.ReferenceIdeal.main_v74 := by
  have hK := (((Cert.KernelIdeal.Gen.V17_of m outs c Cert.KernelIdeal.main_v74 (by decide)).trans ((Cert.KernelIdeal.Gen.V16_of m outs c Cert.KernelIdeal.main_v74 (by decide)).trans ((Cert.KernelIdeal.Gen.V15_of m outs c Cert.KernelIdeal.main_v74 (by decide)).trans ((Cert.KernelIdeal.Gen.V14_of m outs c Cert.KernelIdeal.main_v74 (by decide)).trans ((Cert.KernelIdeal.Gen.V13_of m outs c Cert.KernelIdeal.main_v74 (by decide)).trans ((Cert.KernelIdeal.Gen.V12_of m outs c Cert.KernelIdeal.main_v74 (by decide)).trans ((Cert.KernelIdeal.Gen.V11_of m outs c Cert.KernelIdeal.main_v74 (by decide)).trans (Cert.KernelIdeal.Gen.V10_of m outs c Cert.KernelIdeal.main_v74 (by decide)))))))))).trans (after_binary each_hostOps1_2 (Cert.KernelIdeal.Gen.V8 m outs c) 26 _ _ _ _ _ _ _ rfl (by decide) (by decide) (by decide))
  have hR := after_binary eachR (launchContents m' c) 98 _ _ _ _ _ _ _ rfl (by decide) (by decide) (by decide)
  have E0 : after (Cert.KernelIdeal.Gen.hostOps1_2 (F := Ideal)) (Cert.KernelIdeal.Gen.V8 m outs c) (Proc.devRef .tc Cert.KernelIdeal.main_v71) = Rf m' c Cert.ReferenceIdeal.main_v71 :=
    (((Cert.KernelIdeal.Gen.V17_of m outs c Cert.KernelIdeal.main_v71 (by decide)).trans ((Cert.KernelIdeal.Gen.V16_of m outs c Cert.KernelIdeal.main_v71 (by decide)).trans ((Cert.KernelIdeal.Gen.V15_of m outs c Cert.KernelIdeal.main_v71 (by decide)).trans ((Cert.KernelIdeal.Gen.V14_of m outs c Cert.KernelIdeal.main_v71 (by decide)).trans ((Cert.KernelIdeal.Gen.V13_of m outs c Cert.KernelIdeal.main_v71 (by decide)).trans ((Cert.KernelIdeal.Gen.V12_of m outs c Cert.KernelIdeal.main_v71 (by decide)).trans ((Cert.KernelIdeal.Gen.V11_of m outs c Cert.KernelIdeal.main_v71 (by decide)).trans (Cert.KernelIdeal.Gen.V10_of m outs c Cert.KernelIdeal.main_v71 (by decide)))))))))).symm.trans (same_main_v71 m outs m' hag c h35)
  have E1 : after (Cert.KernelIdeal.Gen.hostOps1_2 (F := Ideal)) (Cert.KernelIdeal.Gen.V8 m outs c) (Proc.devRef .tc Cert.KernelIdeal.main_v73) = Rf m' c Cert.ReferenceIdeal.main_v73 :=
    (((Cert.KernelIdeal.Gen.V17_of m outs c Cert.KernelIdeal.main_v73 (by decide)).trans ((Cert.KernelIdeal.Gen.V16_of m outs c Cert.KernelIdeal.main_v73 (by decide)).trans ((Cert.KernelIdeal.Gen.V15_of m outs c Cert.KernelIdeal.main_v73 (by decide)).trans ((Cert.KernelIdeal.Gen.V14_of m outs c Cert.KernelIdeal.main_v73 (by decide)).trans ((Cert.KernelIdeal.Gen.V13_of m outs c Cert.KernelIdeal.main_v73 (by decide)).trans ((Cert.KernelIdeal.Gen.V12_of m outs c Cert.KernelIdeal.main_v73 (by decide)).trans ((Cert.KernelIdeal.Gen.V11_of m outs c Cert.KernelIdeal.main_v73 (by decide)).trans (Cert.KernelIdeal.Gen.V10_of m outs c Cert.KernelIdeal.main_v73 (by decide)))))))))).symm.trans (same_main_v73 m outs m' hag c h35)
  rw [E0, E1] at hK
  exact hK.trans hR.symm

theorem same_main_v75 : Cert.KernelIdeal.Gen.V17 m outs c Cert.KernelIdeal.main_v75 = Rf m' c Cert.ReferenceIdeal.main_v75 := by
  have hK := (((Cert.KernelIdeal.Gen.V17_of m outs c Cert.KernelIdeal.main_v75 (by decide)).trans ((Cert.KernelIdeal.Gen.V16_of m outs c Cert.KernelIdeal.main_v75 (by decide)).trans ((Cert.KernelIdeal.Gen.V15_of m outs c Cert.KernelIdeal.main_v75 (by decide)).trans ((Cert.KernelIdeal.Gen.V14_of m outs c Cert.KernelIdeal.main_v75 (by decide)).trans ((Cert.KernelIdeal.Gen.V13_of m outs c Cert.KernelIdeal.main_v75 (by decide)).trans ((Cert.KernelIdeal.Gen.V12_of m outs c Cert.KernelIdeal.main_v75 (by decide)).trans ((Cert.KernelIdeal.Gen.V11_of m outs c Cert.KernelIdeal.main_v75 (by decide)).trans (Cert.KernelIdeal.Gen.V10_of m outs c Cert.KernelIdeal.main_v75 (by decide)))))))))).trans (after_unary each_hostOps1_2 (Cert.KernelIdeal.Gen.V8 m outs c) 27 _ _ _ _ _ rfl (by decide) (by decide))
  have hR := after_unary eachR (launchContents m' c) 99 _ _ _ _ _ rfl (by decide) (by decide)
  have E0 : after (Cert.KernelIdeal.Gen.hostOps1_2 (F := Ideal)) (Cert.KernelIdeal.Gen.V8 m outs c) (Proc.devRef .tc Cert.KernelIdeal.main_arg8) = Rf m' c Cert.ReferenceIdeal.main_arg8 :=
    (((Cert.KernelIdeal.Gen.V17_of m outs c Cert.KernelIdeal.main_arg8 (by decide)).trans ((Cert.KernelIdeal.Gen.V16_of m outs c Cert.KernelIdeal.main_arg8 (by decide)).trans ((Cert.KernelIdeal.Gen.V15_of m outs c Cert.KernelIdeal.main_arg8 (by decide)).trans ((Cert.KernelIdeal.Gen.V14_of m outs c Cert.KernelIdeal.main_arg8 (by decide)).trans ((Cert.KernelIdeal.Gen.V13_of m outs c Cert.KernelIdeal.main_arg8 (by decide)).trans ((Cert.KernelIdeal.Gen.V12_of m outs c Cert.KernelIdeal.main_arg8 (by decide)).trans ((Cert.KernelIdeal.Gen.V11_of m outs c Cert.KernelIdeal.main_arg8 (by decide)).trans (Cert.KernelIdeal.Gen.V10_of m outs c Cert.KernelIdeal.main_arg8 (by decide)))))))))).symm.trans (same_main_arg8 m outs m' hag c)
  rw [E0] at hK
  exact hK.trans hR.symm

theorem same_main_v76 : Cert.KernelIdeal.Gen.V17 m outs c Cert.KernelIdeal.main_v76 = Rf m' c Cert.ReferenceIdeal.main_v76 := by
  have hK := (((Cert.KernelIdeal.Gen.V17_of m outs c Cert.KernelIdeal.main_v76 (by decide)).trans ((Cert.KernelIdeal.Gen.V16_of m outs c Cert.KernelIdeal.main_v76 (by decide)).trans ((Cert.KernelIdeal.Gen.V15_of m outs c Cert.KernelIdeal.main_v76 (by decide)).trans ((Cert.KernelIdeal.Gen.V14_of m outs c Cert.KernelIdeal.main_v76 (by decide)).trans ((Cert.KernelIdeal.Gen.V13_of m outs c Cert.KernelIdeal.main_v76 (by decide)).trans ((Cert.KernelIdeal.Gen.V12_of m outs c Cert.KernelIdeal.main_v76 (by decide)).trans ((Cert.KernelIdeal.Gen.V11_of m outs c Cert.KernelIdeal.main_v76 (by decide)).trans (Cert.KernelIdeal.Gen.V10_of m outs c Cert.KernelIdeal.main_v76 (by decide)))))))))).trans (after_unary each_hostOps1_2 (Cert.KernelIdeal.Gen.V8 m outs c) 28 _ _ _ _ _ rfl (by decide) (by decide))
  have hR := after_unary eachR (launchContents m' c) 100 _ _ _ _ _ rfl (by decide) (by decide)
  have E0 : after (Cert.KernelIdeal.Gen.hostOps1_2 (F := Ideal)) (Cert.KernelIdeal.Gen.V8 m outs c) (Proc.devRef .tc Cert.KernelIdeal.main_v75) = Rf m' c Cert.ReferenceIdeal.main_v75 :=
    (((Cert.KernelIdeal.Gen.V17_of m outs c Cert.KernelIdeal.main_v75 (by decide)).trans ((Cert.KernelIdeal.Gen.V16_of m outs c Cert.KernelIdeal.main_v75 (by decide)).trans ((Cert.KernelIdeal.Gen.V15_of m outs c Cert.KernelIdeal.main_v75 (by decide)).trans ((Cert.KernelIdeal.Gen.V14_of m outs c Cert.KernelIdeal.main_v75 (by decide)).trans ((Cert.KernelIdeal.Gen.V13_of m outs c Cert.KernelIdeal.main_v75 (by decide)).trans ((Cert.KernelIdeal.Gen.V12_of m outs c Cert.KernelIdeal.main_v75 (by decide)).trans ((Cert.KernelIdeal.Gen.V11_of m outs c Cert.KernelIdeal.main_v75 (by decide)).trans (Cert.KernelIdeal.Gen.V10_of m outs c Cert.KernelIdeal.main_v75 (by decide)))))))))).symm.trans (same_main_v75 m outs m' hag c h35)
  rw [E0] at hK
  exact hK.trans hR.symm

theorem same_main_v77 : Cert.KernelIdeal.Gen.V17 m outs c Cert.KernelIdeal.main_v77 = Rf m' c Cert.ReferenceIdeal.main_v77 := by
  have hK := (((Cert.KernelIdeal.Gen.V17_of m outs c Cert.KernelIdeal.main_v77 (by decide)).trans ((Cert.KernelIdeal.Gen.V16_of m outs c Cert.KernelIdeal.main_v77 (by decide)).trans ((Cert.KernelIdeal.Gen.V15_of m outs c Cert.KernelIdeal.main_v77 (by decide)).trans ((Cert.KernelIdeal.Gen.V14_of m outs c Cert.KernelIdeal.main_v77 (by decide)).trans ((Cert.KernelIdeal.Gen.V13_of m outs c Cert.KernelIdeal.main_v77 (by decide)).trans ((Cert.KernelIdeal.Gen.V12_of m outs c Cert.KernelIdeal.main_v77 (by decide)).trans ((Cert.KernelIdeal.Gen.V11_of m outs c Cert.KernelIdeal.main_v77 (by decide)).trans (Cert.KernelIdeal.Gen.V10_of m outs c Cert.KernelIdeal.main_v77 (by decide)))))))))).trans (after_binary each_hostOps1_2 (Cert.KernelIdeal.Gen.V8 m outs c) 29 _ _ _ _ _ _ _ rfl (by decide) (by decide) (by decide))
  have hR := after_binary eachR (launchContents m' c) 101 _ _ _ _ _ _ _ rfl (by decide) (by decide) (by decide)
  have E0 : after (Cert.KernelIdeal.Gen.hostOps1_2 (F := Ideal)) (Cert.KernelIdeal.Gen.V8 m outs c) (Proc.devRef .tc Cert.KernelIdeal.main_v74) = Rf m' c Cert.ReferenceIdeal.main_v74 :=
    (((Cert.KernelIdeal.Gen.V17_of m outs c Cert.KernelIdeal.main_v74 (by decide)).trans ((Cert.KernelIdeal.Gen.V16_of m outs c Cert.KernelIdeal.main_v74 (by decide)).trans ((Cert.KernelIdeal.Gen.V15_of m outs c Cert.KernelIdeal.main_v74 (by decide)).trans ((Cert.KernelIdeal.Gen.V14_of m outs c Cert.KernelIdeal.main_v74 (by decide)).trans ((Cert.KernelIdeal.Gen.V13_of m outs c Cert.KernelIdeal.main_v74 (by decide)).trans ((Cert.KernelIdeal.Gen.V12_of m outs c Cert.KernelIdeal.main_v74 (by decide)).trans ((Cert.KernelIdeal.Gen.V11_of m outs c Cert.KernelIdeal.main_v74 (by decide)).trans (Cert.KernelIdeal.Gen.V10_of m outs c Cert.KernelIdeal.main_v74 (by decide)))))))))).symm.trans (same_main_v74 m outs m' hag c h35)
  have E1 : after (Cert.KernelIdeal.Gen.hostOps1_2 (F := Ideal)) (Cert.KernelIdeal.Gen.V8 m outs c) (Proc.devRef .tc Cert.KernelIdeal.main_v76) = Rf m' c Cert.ReferenceIdeal.main_v76 :=
    (((Cert.KernelIdeal.Gen.V17_of m outs c Cert.KernelIdeal.main_v76 (by decide)).trans ((Cert.KernelIdeal.Gen.V16_of m outs c Cert.KernelIdeal.main_v76 (by decide)).trans ((Cert.KernelIdeal.Gen.V15_of m outs c Cert.KernelIdeal.main_v76 (by decide)).trans ((Cert.KernelIdeal.Gen.V14_of m outs c Cert.KernelIdeal.main_v76 (by decide)).trans ((Cert.KernelIdeal.Gen.V13_of m outs c Cert.KernelIdeal.main_v76 (by decide)).trans ((Cert.KernelIdeal.Gen.V12_of m outs c Cert.KernelIdeal.main_v76 (by decide)).trans ((Cert.KernelIdeal.Gen.V11_of m outs c Cert.KernelIdeal.main_v76 (by decide)).trans (Cert.KernelIdeal.Gen.V10_of m outs c Cert.KernelIdeal.main_v76 (by decide)))))))))).symm.trans (same_main_v76 m outs m' hag c h35)
  rw [E0, E1] at hK
  exact hK.trans hR.symm

end Cert.Same

end
-- ==== Proof.Same.C.lean ====
import proofs.«178557_j80719615361183_1_alg».proof.Proof.Same.A

set_option maxRecDepth 16384

noncomputable section

namespace Cert.Same

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ) (outs : Cert.KernelIdeal.Gen.Outs (F := Ideal))
  (m' : (ℓ : Loc Cert.ReferenceIdeal.nD Cert.ReferenceIdeal.τ Cert.ReferenceIdeal.sig) → Buf (Elt Ideal) ℓ)
  (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
  (c : Dev Cert.KernelIdeal.nD)
variable (h77 : Cert.KernelIdeal.Gen.V17 m outs c Cert.KernelIdeal.main_v77 = Rf m' c Cert.ReferenceIdeal.main_v77) (h78 : Cert.KernelIdeal.Gen.V17 m outs c Cert.KernelIdeal.main_v78 = Rf m' c Cert.ReferenceIdeal.main_v78)
include hag h77 h78

/-! # The second graph layer, its normalisation, and the operands of the first recurrent step -/

theorem same_main_c_16 : Cert.KernelIdeal.Gen.V17 m outs c Cert.KernelIdeal.main_c_16 = Rf m' c Cert.ReferenceIdeal.main_c_16 := by
  have hK := (((Cert.KernelIdeal.Gen.V17_of m outs c Cert.KernelIdeal.main_c_16 (by decide)).trans ((Cert.KernelIdeal.Gen.V16_of m outs c Cert.KernelIdeal.main_c_16 (by decide)).trans ((Cert.KernelIdeal.Gen.V15_of m outs c Cert.KernelIdeal.main_c_16 (by decide)).trans ((Cert.KernelIdeal.Gen.V14_of m outs c Cert.KernelIdeal.main_c_16 (by decide)).trans ((Cert.KernelIdeal.Gen.V13_of m outs c Cert.KernelIdeal.main_c_16 (by decide)).trans (Cert.KernelIdeal.Gen.V12_of m outs c Cert.KernelIdeal.main_c_16 (by decide)))))))).trans (after_nullary each_hostOps2 (Cert.KernelIdeal.Gen.V10 m outs c) 0 _ _ _ rfl (by decide))
  have hR := after_nullary eachR (launchContents m' c) 103 _ _ _ rfl (by decide)

  exact hK.trans hR.symm

theorem same_main_v79 : Cert.KernelIdeal.Gen.V17 m outs c Cert.KernelIdeal.main_v79 = Rf m' c Cert.ReferenceIdeal.main_v79 := by
  have hK := (((Cert.KernelIdeal.Gen.V17_of m outs c Cert.KernelIdeal.main_v79 (by decide)).trans ((Cert.KernelIdeal.Gen.V16_of m outs c Cert.KernelIdeal.main_v79 (by decide)).trans ((Cert.KernelIdeal.Gen.V15_of m outs c Cert.KernelIdeal.main_v79 (by decide)).trans ((Cert.KernelIdeal.Gen.V14_of m outs c Cert.KernelIdeal.main_v79 (by decide)).trans ((Cert.KernelIdeal.Gen.V13_of m outs c Cert.KernelIdeal.main_v79 (by decide)).trans (Cert.KernelIdeal.Gen.V12_of m outs c Cert.KernelIdeal.main_v79 (by decide)))))))).trans (after_unary each_hostOps2 (Cert.KernelIdeal.Gen.V10 m outs c) 1 _ _ _ _ _ rfl (by decide) (by decide))
  have hR := after_unary eachR (launchContents m' c) 104 _ _ _ _ _ rfl (by decide) (by decide)
  have E0 : after (Cert.KernelIdeal.Gen.hostOps2 (F := Ideal)) (Cert.KernelIdeal.Gen.V10 m outs c) (Proc.devRef .tc Cert.KernelIdeal.main_c_16) = Rf m' c Cert.ReferenceIdeal.main_c_16 :=
    (((Cert.KernelIdeal.Gen.V17_of m outs c Cert.KernelIdeal.main_c_16 (by decide)).trans ((Cert.KernelIdeal.Gen.V16_of m outs c Cert.KernelIdeal.main_c_16 (by decide)).trans ((Cert.KernelIdeal.Gen.V15_of m outs c Cert.KernelIdeal.main_c_16 (by decide)).trans ((Cert.KernelIdeal.Gen.V14_of m outs c Cert.KernelIdeal.main_c_16 (by decide)).trans ((Cert.KernelIdeal.Gen.V13_of m outs c Cert.KernelIdeal.main_c_16 (by decide)).trans (Cert.KernelIdeal.Gen.V12_of m outs c Cert.KernelIdeal.main_c_16 (by decide)))))))).symm.trans (same_main_c_16 m outs m' hag c h77 h78)
  rw [E0] at hK
  exact hK.trans hR.symm

theorem same_main_v80 : Cert.KernelIdeal.Gen.V17 m outs c Cert.KernelIdeal.main_v80 = Rf m' c Cert.ReferenceIdeal.main_v80 := by
  have hK := (((Cert.KernelIdeal.Gen.V17_of m outs c Cert.KernelIdeal.main_v80 (by decide)).trans ((Cert.KernelIdeal.Gen.V16_of m outs c Cert.KernelIdeal.main_v80 (by decide)).trans ((Cert.KernelIdeal.Gen.V15_of m outs c Cert.KernelIdeal.main_v80 (by decide)).trans ((Cert.KernelIdeal.Gen.V14_of m outs c Cert.KernelIdeal.main_v80 (by decide)).trans ((Cert.KernelIdeal.Gen.V13_of m outs c Cert.KernelIdeal.main_v80 (by decide)).trans (Cert.KernelIdeal.Gen.V12_of m outs c Cert.KernelIdeal.main_v80 (by decide)))))))).trans (after_binary each_hostOps2 (Cert.KernelIdeal.Gen.V10 m outs c) 2 _ _ _ _ _ _ _ rfl (by decide) (by decide) (by decide))
  have hR := after_binary eachR (launchContents m' c) 105 _ _ _ _ _ _ _ rfl (by decide) (by decide) (by decide)
  have E0 : after (Cert.KernelIdeal.Gen.hostOps2 (F := Ideal)) (Cert.KernelIdeal.Gen.V10 m outs c) (Proc.devRef .tc Cert.KernelIdeal.main_v5) = Rf m' c Cert.ReferenceIdeal.main_v5 :=
    (((Cert.KernelIdeal.Gen.V17_of m outs c Cert.KernelIdeal.main_v5 (by decide)).trans ((Cert.KernelIdeal.Gen.V16_of m outs c Cert.KernelIdeal.main_v5 (by decide)).trans ((Cert.KernelIdeal.Gen.V15_of m outs c Cert.KernelIdeal.main_v5 (by decide)).trans ((Cert.KernelIdeal.Gen.V14_of m outs c Cert.KernelIdeal.main_v5 (by decide)).trans ((Cert.KernelIdeal.Gen.V13_of m outs c Cert.KernelIdeal.main_v5 (by decide)).trans (Cert.KernelIdeal.Gen.V12_of m outs c Cert.KernelIdeal.main_v5 (by decide)))))))).symm.trans (same_main_v5 m outs m' hag c)
  have E1 : after (Cert.KernelIdeal.Gen.hostOps2 (F := Ideal)) (Cert.KernelIdeal.Gen.V10 m outs c) (Proc.devRef .tc Cert.KernelIdeal.main_v79) = Rf m' c Cert.ReferenceIdeal.main_v79 :=
    (((Cert.KernelIdeal.Gen.V17_of m outs c Cert.KernelIdeal.main_v79 (by decide)).trans ((Cert.KernelIdeal.Gen.V16_of m outs c Cert.KernelIdeal.main_v79 (by decide)).trans ((Cert.KernelIdeal.Gen.V15_of m outs c Cert.KernelIdeal.main_v79 (by decide)).trans ((Cert.KernelIdeal.Gen.V14_of m outs c Cert.KernelIdeal.main_v79 (by decide)).trans ((Cert.KernelIdeal.Gen.V13_of m outs c Cert.KernelIdeal.main_v79 (by decide)).trans (Cert.KernelIdeal.Gen.V12_of m outs c Cert.KernelIdeal.main_v79 (by decide)))))))).symm.trans (same_main_v79 m outs m' hag c h77 h78)
  rw [E0, E1] at hK
  exact hK.trans hR.symm

theorem same_main_c_17 : Cert.KernelIdeal.Gen.V17 m outs c Cert.KernelIdeal.main_c_17 = Rf m' c Cert.ReferenceIdeal.main_c_17 := by
  have hK := (((Cert.KernelIdeal.Gen.V17_of m outs c Cert.KernelIdeal.main_c_17 (by decide)).trans ((Cert.KernelIdeal.Gen.V16_of m outs c Cert.KernelIdeal.main_c_17 (by decide)).trans ((Cert.KernelIdeal.Gen.V15_of m outs c Cert.KernelIdeal.main_c_17 (by decide)).trans ((Cert.KernelIdeal.Gen.V14_of m outs c Cert.KernelIdeal.main_c_17 (by decide)).trans ((Cert.KernelIdeal.Gen.V13_of m outs c Cert.KernelIdeal.main_c_17 (by decide)).trans (Cert.KernelIdeal.Gen.V12_of m outs c Cert.KernelIdeal.main_c_17 (by decide)))))))).trans (after_nullary each_hostOps2 (Cert.KernelIdeal.Gen.V10 m outs c) 3 _ _ _ rfl (by decide))
  have hR := after_nullary eachR (launchContents m' c) 106 _ _ _ rfl (by decide)

  exact hK.trans hR.symm

theorem same_main_v81 : Cert.KernelIdeal.Gen.V17 m outs c Cert.KernelIdeal.main_v81 = Rf m' c Cert.ReferenceIdeal.main_v81 := by
  have hK := (((Cert.KernelIdeal.Gen.V17_of m outs c Cert.KernelIdeal.main_v81 (by decide)).trans ((Cert.KernelIdeal.Gen.V16_of m outs c Cert.KernelIdeal.main_v81 (by decide)).trans ((Cert.KernelIdeal.Gen.V15_of m outs c Cert.KernelIdeal.main_v81 (by decide)).trans ((Cert.KernelIdeal.Gen.V14_of m outs c Cert.KernelIdeal.main_v81 (by decide)).trans ((Cert.KernelIdeal.Gen.V13_of m outs c Cert.KernelIdeal.main_v81 (by decide)).trans (Cert.KernelIdeal.Gen.V12_of m outs c Cert.KernelIdeal.main_v81 (by decide)))))))).trans (after_unary each_hostOps2 (Cert.KernelIdeal.Gen.V10 m outs c) 4 _ _ _ _ _ rfl (by decide) (by decide))
  have hR := after_unary eachR (launchContents m' c) 107 _ _ _ _ _ rfl (by decide) (by decide)
  have E0 : after (Cert.KernelIdeal.Gen.hostOps2 (F := Ideal)) (Cert.KernelIdeal.Gen.V10 m outs c) (Proc.devRef .tc Cert.KernelIdeal.main_c_17) = Rf m' c Cert.ReferenceIdeal.main_c_17 :=
    (((Cert.KernelIdeal.Gen.V17_of m outs c Cert.KernelIdeal.main_c_17 (by decide)).trans ((Cert.KernelIdeal.Gen.V16_of m outs c Cert.KernelIdeal.main_c_17 (by decide)).trans ((Cert.KernelIdeal.Gen.V15_of m outs c Cert.KernelIdeal.main_c_17 (by decide)).trans ((Cert.KernelIdeal.Gen.V14_of m outs c Cert.KernelIdeal.main_c_17 (by decide)).trans ((Cert.KernelIdeal.Gen.V13_of m outs c Cert.KernelIdeal.main_c_17 (by decide)).trans (Cert.KernelIdeal.Gen.V12_of m outs c Cert.KernelIdeal.main_c_17 (by decide)))))))).symm.trans (same_main_c_17 m outs m' hag c h77 h78)
  rw [E0] at hK
  exact hK.trans hR.symm

theorem same_main_v82 : Cert.KernelIdeal.Gen.V17 m outs c Cert.KernelIdeal.main_v82 = Rf m' c Cert.ReferenceIdeal.main_v82 := by
  have hK := (((Cert.KernelIdeal.Gen.V17_of m outs c Cert.KernelIdeal.main_v82 (by decide)).trans ((Cert.KernelIdeal.Gen.V16_of m outs c Cert.KernelIdeal.main_v82 (by decide)).trans ((Cert.KernelIdeal.Gen.V15_of m outs c Cert.KernelIdeal.main_v82 (by decide)).trans ((Cert.KernelIdeal.Gen.V14_of m outs c Cert.KernelIdeal.main_v82 (by decide)).trans ((Cert.KernelIdeal.Gen.V13_of m outs c Cert.KernelIdeal.main_v82 (by decide)).trans (Cert.KernelIdeal.Gen.V12_of m outs c Cert.KernelIdeal.main_v82 (by decide)))))))).trans (after_binary each_hostOps2 (Cert.KernelIdeal.Gen.V10 m outs c) 5 _ _ _ _ _ _ _ rfl (by decide) (by decide) (by decide))
  have hR := after_binary eachR (launchContents m' c) 108 _ _ _ _ _ _ _ rfl (by decide) (by decide) (by decide)
  have E0 : after (Cert.KernelIdeal.Gen.hostOps2 (F := Ideal)) (Cert.KernelIdeal.Gen.V10 m outs c) (Proc.devRef .tc Cert.KernelIdeal.main_v5) = Rf m' c Cert.ReferenceIdeal.main_v5 :=
    (((Cert.KernelIdeal.Gen.V17_of m outs c Cert.KernelIdeal.main_v5 (by decide)).trans ((Cert.KernelIdeal.Gen.V16_of m outs c Cert.KernelIdeal.main_v5 (by decide)).trans ((Cert.KernelIdeal.Gen.V15_of m outs c Cert.KernelIdeal.main_v5 (by decide)).trans ((Cert.KernelIdeal.Gen.V14_of m outs c Cert.KernelIdeal.main_v5 (by decide)).trans ((Cert.KernelIdeal.Gen.V13_of m outs c Cert.KernelIdeal.main_v5 (by decide)).trans (Cert.KernelIdeal.Gen.V12_of m outs c Cert.KernelIdeal.main_v5 (by decide)))))))).symm.trans (same_main_v5 m outs m' hag c)
  have E1 : after (Cert.KernelIdeal.Gen.hostOps2 (F := Ideal)) (Cert.KernelIdeal.Gen.V10 m outs c) (Proc.devRef .tc Cert.KernelIdeal.main_v81) = Rf m' c Cert.ReferenceIdeal.main_v81 :=
    (((Cert.KernelIdeal.Gen.V17_of m outs c Cert.KernelIdeal.main_v81 (by decide)).trans ((Cert.KernelIdeal.Gen.V16_of m outs c Cert.KernelIdeal.main_v81 (by decide)).trans ((Cert.KernelIdeal.Gen.V15_of m outs c Cert.KernelIdeal.main_v81 (by decide)).trans ((Cert.KernelIdeal.Gen.V14_of m outs c Cert.KernelIdeal.main_v81 (by decide)).trans ((Cert.KernelIdeal.Gen.V13_of m outs c Cert.KernelIdeal.main_v81 (by decide)).trans (Cert.KernelIdeal.Gen.V12_of m outs c Cert.KernelIdeal.main_v81 (by decide)))))))).symm.trans (same_main_v81 m outs m' hag c h77 h78)
  rw [E0, E1] at hK
  exact hK.trans hR.symm

theorem same_main_v83 : Cert.KernelIdeal.Gen.V17 m outs c Cert.KernelIdeal.main_v83 = Rf m' c Cert.ReferenceIdeal.main_v83 := by
  have hK := (((Cert.KernelIdeal.Gen.V17_of m outs c Cert.KernelIdeal.main_v83 (by decide)).trans ((Cert.KernelIdeal.Gen.V16_of m outs c Cert.KernelIdeal.main_v83 (by decide)).trans ((Cert.KernelIdeal.Gen.V15_of m outs c Cert.KernelIdeal.main_v83 (by decide)).trans ((Cert.KernelIdeal.Gen.V14_of m outs c Cert.KernelIdeal.main_v83 (by decide)).trans ((Cert.KernelIdeal.Gen.V13_of m outs c Cert.KernelIdeal.main_v83 (by decide)).trans (Cert.KernelIdeal.Gen.V12_of m outs c Cert.KernelIdeal.main_v83 (by decide)))))))).trans (after_ternary each_hostOps2 (Cert.KernelIdeal.Gen.V10 m outs c) 6 _ _ _ _ _ _ _ _ _ rfl (by decide) (by decide) (by decide) (by decide))
  have hR := after_ternary eachR (launchContents m' c) 109 _ _ _ _ _ _ _ _ _ rfl (by decide) (by decide) (by decide) (by decide)
  have E0 : after (Cert.KernelIdeal.Gen.hostOps2 (F := Ideal)) (Cert.KernelIdeal.Gen.V10 m outs c) (Proc.devRef .tc Cert.KernelIdeal.main_v80) = Rf m' c Cert.ReferenceIdeal.main_v80 :=
    (((Cert.KernelIdeal.Gen.V17_of m outs c Cert.KernelIdeal.main_v80 (by decide)).trans ((Cert.KernelIdeal.Gen.V16_of m outs c Cert.KernelIdeal.main_v80 (by decide)).trans ((Cert.KernelIdeal.Gen.V15_of m outs c Cert.KernelIdeal.main_v80 (by decide)).trans ((Cert.KernelIdeal.Gen.V14_of m outs c Cert.KernelIdeal.main_v80 (by decide)).trans ((Cert.KernelIdeal.Gen.V13_of m outs c Cert.KernelIdeal.main_v80 (by decide)).trans (Cert.KernelIdeal.Gen.V12_of m outs c Cert.KernelIdeal.main_v80 (by decide)))))))).symm.trans (same_main_v80 m outs m' hag c h77 h78)
  have E1 : after (Cert.KernelIdeal.Gen.hostOps2 (F := Ideal)) (Cert.KernelIdeal.Gen.V10 m outs c) (Proc.devRef .tc Cert.KernelIdeal.main_v82) = Rf m' c Cert.ReferenceIdeal.main_v82 :=
    (((Cert.KernelIdeal.Gen.V17_of m outs c Cert.KernelIdeal.main_v82 (by decide)).trans ((Cert.KernelIdeal.Gen.V16_of m outs c Cert.KernelIdeal.main_v82 (by decide)).trans ((Cert.KernelIdeal.Gen.V15_of m outs c Cert.KernelIdeal.main_v82 (by decide)).trans ((Cert.KernelIdeal.Gen.V14_of m outs c Cert.KernelIdeal.main_v82 (by decide)).trans ((Cert.KernelIdeal.Gen.V13_of m outs c Cert.KernelIdeal.main_v82 (by decide)).trans (Cert.KernelIdeal.Gen.V12_of m outs c Cert.KernelIdeal.main_v82 (by decide)))))))).symm.trans (same_main_v82 m outs m' hag c h77 h78)
  have E2 : after (Cert.KernelIdeal.Gen.hostOps2 (F := Ideal)) (Cert.KernelIdeal.Gen.V10 m outs c) (Proc.devRef .tc Cert.KernelIdeal.main_v5) = Rf m' c Cert.ReferenceIdeal.main_v5 :=
    (((Cert.KernelIdeal.Gen.V17_of m outs c Cert.KernelIdeal.main_v5 (by decide)).trans ((Cert.KernelIdeal.Gen.V16_of m outs c Cert.KernelIdeal.main_v5 (by decide)).trans ((Cert.KernelIdeal.Gen.V15_of m outs c Cert.KernelIdeal.main_v5 (by decide)).trans ((Cert.KernelIdeal.Gen.V14_of m outs c Cert.KernelIdeal.main_v5 (by decide)).trans ((Cert.KernelIdeal.Gen.V13_of m outs c Cert.KernelIdeal.main_v5 (by decide)).trans (Cert.KernelIdeal.Gen.V12_of m outs c Cert.KernelIdeal.main_v5 (by decide)))))))).symm.trans (same_main_v5 m outs m' hag c)
  rw [E0, E1, E2] at hK
  exact hK.trans hR.symm

theorem same_main_v84 : Cert.KernelIdeal.Gen.V17 m outs c Cert.KernelIdeal.main_v84 = Rf m' c Cert.ReferenceIdeal.main_v84 := by
  have hK := (((Cert.KernelIdeal.Gen.V17_of m outs c Cert.KernelIdeal.main_v84 (by decide)).trans ((Cert.KernelIdeal.Gen.V16_of m outs c Cert.KernelIdeal.main_v84 (by decide)).trans ((Cert.KernelIdeal.Gen.V15_of m outs c Cert.KernelIdeal.main_v84 (by decide)).trans ((Cert.KernelIdeal.Gen.V14_of m outs c Cert.KernelIdeal.main_v84 (by decide)).trans ((Cert.KernelIdeal.Gen.V13_of m outs c Cert.KernelIdeal.main_v84 (by decide)).trans (Cert.KernelIdeal.Gen.V12_of m outs c Cert.KernelIdeal.main_v84 (by decide)))))))).trans (after_unary each_hostOps2 (Cert.KernelIdeal.Gen.V10 m outs c) 7 _ _ _ _ _ rfl (by decide) (by decide))
  have hR := after_unary eachR (launchContents m' c) 110 _ _ _ _ _ rfl (by decide) (by decide)
  have E0 : after (Cert.KernelIdeal.Gen.hostOps2 (F := Ideal)) (Cert.KernelIdeal.Gen.V10 m outs c) (Proc.devRef .tc Cert.KernelIdeal.main_v83) = Rf m' c Cert.ReferenceIdeal.main_v83 :=
    (((Cert.KernelIdeal.Gen.V17_of m outs c Cert.KernelIdeal.main_v83 (by decide)).trans ((Cert.KernelIdeal.Gen.V16_of m outs c Cert.KernelIdeal.main_v83 (by decide)).trans ((Cert.KernelIdeal.Gen.V15_of m outs c Cert.KernelIdeal.main_v83 (by decide)).trans ((Cert.KernelIdeal.Gen.V14_of m outs c Cert.KernelIdeal.main_v83 (by decide)).trans ((Cert.KernelIdeal.Gen.V13_of m outs c Cert.KernelIdeal.main_v83 (by decide)).trans (Cert.KernelIdeal.Gen.V12_of m outs c Cert.KernelIdeal.main_v83 (by decide)))))))).symm.trans (same_main_v83 m outs m' hag c h77 h78)
  rw [E0] at hK
  exact hK.trans hR.symm

theorem same_main_v85 : Cert.KernelIdeal.Gen.V17 m outs c Cert.KernelIdeal.main_v85 = Rf m' c Cert.ReferenceIdeal.main_v85 := by
  have hK := (((Cert.KernelIdeal.Gen.V17_of m outs c Cert.KernelIdeal.main_v85 (by decide)).trans ((Cert.KernelIdeal.Gen.V16_of m outs c Cert.KernelIdeal.main_v85 (by decide)).trans ((Cert.KernelIdeal.Gen.V15_of m outs c Cert.KernelIdeal.main_v85 (by decide)).trans ((Cert.KernelIdeal.Gen.V14_of m outs c Cert.KernelIdeal.main_v85 (by decide)).trans ((Cert.KernelIdeal.Gen.V13_of m outs c Cert.KernelIdeal.main_v85 (by decide)).trans (Cert.KernelIdeal.Gen.V12_of m outs c Cert.KernelIdeal.main_v85 (by decide)))))))).trans (after_binary each_hostOps2 (Cert.KernelIdeal.Gen.V10 m outs c) 8 _ _ _ _ _ _ _ rfl (by decide) (by decide) (by decide))
  have hR := after_binary eachR (launchContents m' c) 111 _ _ _ _ _ _ _ rfl (by decide) (by decide) (by decide)
  have E0 : after (Cert.KernelIdeal.Gen.hostOps2 (F := Ideal)) (Cert.KernelIdeal.Gen.V10 m outs c) (Proc.devRef .tc Cert.KernelIdeal.main_v78) = Rf m' c Cert.ReferenceIdeal.main_v78 :=
    (((Cert.KernelIdeal.Gen.V17_of m outs c Cert.KernelIdeal.main_v78 (by decide)).trans ((Cert.KernelIdeal.Gen.V16_of m outs c Cert.KernelIdeal.main_v78 (by decide)).trans ((Cert.KernelIdeal.Gen.V15_of m outs c Cert.KernelIdeal.main_v78 (by decide)).trans ((Cert.KernelIdeal.Gen.V14_of m outs c Cert.KernelIdeal.main_v78 (by decide)).trans ((Cert.KernelIdeal.Gen.V13_of m outs c Cert.KernelIdeal.main_v78 (by decide)).trans (Cert.KernelIdeal.Gen.V12_of m outs c Cert.KernelIdeal.main_v78 (by decide)))))))).symm.trans h78
  have E1 : after (Cert.KernelIdeal.Gen.hostOps2 (F := Ideal)) (Cert.KernelIdeal.Gen.V10 m outs c) (Proc.devRef .tc Cert.KernelIdeal.main_v84) = Rf m' c Cert.ReferenceIdeal.main_v84 :=
    (((Cert.KernelIdeal.Gen.V17_of m outs c Cert.KernelIdeal.main_v84 (by decide)).trans ((Cert.KernelIdeal.Gen.V16_of m outs c Cert.KernelIdeal.main_v84 (by decide)).trans ((Cert.KernelIdeal.Gen.V15_of m outs c Cert.KernelIdeal.main_v84 (by decide)).trans ((Cert.KernelIdeal.Gen.V14_of m outs c Cert.KernelIdeal.main_v84 (by decide)).trans ((Cert.KernelIdeal.Gen.V13_of m outs c Cert.KernelIdeal.main_v84 (by decide)).trans (Cert.KernelIdeal.Gen.V12_of m outs c Cert.KernelIdeal.main_v84 (by decide)))))))).symm.trans (same_main_v84 m outs m' hag c h77 h78)
  rw [E0, E1] at hK
  exact hK.trans hR.symm

theorem same_main_v86 : Cert.KernelIdeal.Gen.V17 m outs c Cert.KernelIdeal.main_v86 = Rf m' c Cert.ReferenceIdeal.main_v86 := by
  have hK := (((Cert.KernelIdeal.Gen.V17_of m outs c Cert.KernelIdeal.main_v86 (by decide)).trans ((Cert.KernelIdeal.Gen.V16_of m outs c Cert.KernelIdeal.main_v86 (by decide)).trans ((Cert.KernelIdeal.Gen.V15_of m outs c Cert.KernelIdeal.main_v86 (by decide)).trans ((Cert.KernelIdeal.Gen.V14_of m outs c Cert.KernelIdeal.main_v86 (by decide)).trans ((Cert.KernelIdeal.Gen.V13_of m outs c Cert.KernelIdeal.main_v86 (by decide)).trans (Cert.KernelIdeal.Gen.V12_of m outs c Cert.KernelIdeal.main_v86 (by decide)))))))).trans (after_unary each_hostOps2 (Cert.KernelIdeal.Gen.V10 m outs c) 9 _ _ _ _ _ rfl (by decide) (by decide))
  have hR := after_unary eachR (launchContents m' c) 112 _ _ _ _ _ rfl (by decide) (by decide)
  have E0 : after (Cert.KernelIdeal.Gen.hostOps2 (F := Ideal)) (Cert.KernelIdeal.Gen.V10 m outs c) (Proc.devRef .tc Cert.KernelIdeal.main_v34) = Rf m' c Cert.ReferenceIdeal.main_v34 :=
    (((Cert.KernelIdeal.Gen.V17_of m outs c Cert.KernelIdeal.main_v34 (by decide)).trans ((Cert.KernelIdeal.Gen.V16_of m outs c Cert.KernelIdeal.main_v34 (by decide)).trans ((Cert.KernelIdeal.Gen.V15_of m outs c Cert.KernelIdeal.main_v34 (by decide)).trans ((Cert.KernelIdeal.Gen.V14_of m outs c Cert.KernelIdeal.main_v34 (by decide)).trans ((Cert.KernelIdeal.Gen.V13_of m outs c Cert.KernelIdeal.main_v34 (by decide)).trans (Cert.KernelIdeal.Gen.V12_of m outs c Cert.KernelIdeal.main_v34 (by decide)))))))).symm.trans (same_main_v34 m outs m' hag c)
  rw [E0] at hK
  exact hK.trans hR.symm

theorem same_main_v87 : Cert.KernelIdeal.Gen.V17 m outs c Cert.KernelIdeal.main_v87 = Rf m' c Cert.ReferenceIdeal.main_v87 := by
  have hK := (((Cert.KernelIdeal.Gen.V17_of m outs c Cert.KernelIdeal.main_v87 (by decide)).trans ((Cert.KernelIdeal.Gen.V16_of m outs c Cert.KernelIdeal.main_v87 (by decide)).trans ((Cert.KernelIdeal.Gen.V15_of m outs c Cert.KernelIdeal.main_v87 (by decide)).trans ((Cert.KernelIdeal.Gen.V14_of m outs c Cert.KernelIdeal.main_v87 (by decide)).trans ((Cert.KernelIdeal.Gen.V13_of m outs c Cert.KernelIdeal.main_v87 (by decide)).trans (Cert.KernelIdeal.Gen.V12_of m outs c Cert.KernelIdeal.main_v87 (by decide)))))))).trans (after_unary each_hostOps2 (Cert.KernelIdeal.Gen.V10 m outs c) 10 _ _ _ _ _ rfl (by decide) (by decide))
  have hR := after_unary eachR (launchContents m' c) 113 _ _ _ _ _ rfl (by decide) (by decide)
  have E0 : after (Cert.KernelIdeal.Gen.hostOps2 (F := Ideal)) (Cert.KernelIdeal.Gen.V10 m outs c) (Proc.devRef .tc Cert.KernelIdeal.main_v86) = Rf m' c Cert.ReferenceIdeal.main_v86 :=
    (((Cert.KernelIdeal.Gen.V17_of m outs c Cert.KernelIdeal.main_v86 (by decide)).trans ((Cert.KernelIdeal.Gen.V16_of m outs c Cert.KernelIdeal.main_v86 (by decide)).trans ((Cert.KernelIdeal.Gen.V15_of m outs c Cert.KernelIdeal.main_v86 (by decide)).trans ((Cert.KernelIdeal.Gen.V14_of m outs c Cert.KernelIdeal.main_v86 (by decide)).trans ((Cert.KernelIdeal.Gen.V13_of m outs c Cert.KernelIdeal.main_v86 (by decide)).trans (Cert.KernelIdeal.Gen.V12_of m outs c Cert.KernelIdeal.main_v86 (by decide)))))))).symm.trans (same_main_v86 m outs m' hag c h77 h78)
  rw [E0] at hK
  exact hK.trans hR.symm

theorem same_main_v88 : Cert.KernelIdeal.Gen.V17 m outs c Cert.KernelIdeal.main_v88 = Rf m' c Cert.ReferenceIdeal.main_v88 := by
  have hK := (((Cert.KernelIdeal.Gen.V17_of m outs c Cert.KernelIdeal.main_v88 (by decide)).trans ((Cert.KernelIdeal.Gen.V16_of m outs c Cert.KernelIdeal.main_v88 (by decide)).trans ((Cert.KernelIdeal.Gen.V15_of m outs c Cert.KernelIdeal.main_v88 (by decide)).trans ((Cert.KernelIdeal.Gen.V14_of m outs c Cert.KernelIdeal.main_v88 (by decide)).trans ((Cert.KernelIdeal.Gen.V13_of m outs c Cert.KernelIdeal.main_v88 (by decide)).trans (Cert.KernelIdeal.Gen.V12_of m outs c Cert.KernelIdeal.main_v88 (by decide)))))))).trans (after_binary each_hostOps2 (Cert.KernelIdeal.Gen.V10 m outs c) 11 _ _ _ _ _ _ _ rfl (by decide) (by decide) (by decide))
  have hR := after_binary eachR (launchContents m' c) 114 _ _ _ _ _ _ _ rfl (by decide) (by decide) (by decide)
  have E0 : after (Cert.KernelIdeal.Gen.hostOps2 (F := Ideal)) (Cert.KernelIdeal.Gen.V10 m outs c) (Proc.devRef .tc Cert.KernelIdeal.main_v85) = Rf m' c Cert.ReferenceIdeal.main_v85 :=
    (((Cert.KernelIdeal.Gen.V17_of m outs c Cert.KernelIdeal.main_v85 (by decide)).trans ((Cert.KernelIdeal.Gen.V16_of m outs c Cert.KernelIdeal.main_v85 (by decide)).trans ((Cert.KernelIdeal.Gen.V15_of m outs c Cert.KernelIdeal.main_v85 (by decide)).trans ((Cert.KernelIdeal.Gen.V14_of m outs c Cert.KernelIdeal.main_v85 (by decide)).trans ((Cert.KernelIdeal.Gen.V13_of m outs c Cert.KernelIdeal.main_v85 (by decide)).trans (Cert.KernelIdeal.Gen.V12_of m outs c Cert.KernelIdeal.main_v85 (by decide)))))))).symm.trans (same_main_v85 m outs m' hag c h77 h78)
  have E1 : after (Cert.KernelIdeal.Gen.hostOps2 (F := Ideal)) (Cert.KernelIdeal.Gen.V10 m outs c) (Proc.devRef .tc Cert.KernelIdeal.main_v87) = Rf m' c Cert.ReferenceIdeal.main_v87 :=
    (((Cert.KernelIdeal.Gen.V17_of m outs c Cert.KernelIdeal.main_v87 (by decide)).trans ((Cert.KernelIdeal.Gen.V16_of m outs c Cert.KernelIdeal.main_v87 (by decide)).trans ((Cert.KernelIdeal.Gen.V15_of m outs c Cert.KernelIdeal.main_v87 (by decide)).trans ((Cert.KernelIdeal.Gen.V14_of m outs c Cert.KernelIdeal.main_v87 (by decide)).trans ((Cert.KernelIdeal.Gen.V13_of m outs c Cert.KernelIdeal.main_v87 (by decide)).trans (Cert.KernelIdeal.Gen.V12_of m outs c Cert.KernelIdeal.main_v87 (by decide)))))))).symm.trans (same_main_v87 m outs m' hag c h77 h78)
  rw [E0, E1] at hK
  exact hK.trans hR.symm

theorem same_main_cst_18 : Cert.KernelIdeal.Gen.V17 m outs c Cert.KernelIdeal.main_cst_18 = Rf m' c Cert.ReferenceIdeal.main_cst_18 := by
  have hK := (((Cert.KernelIdeal.Gen.V17_of m outs c Cert.KernelIdeal.main_cst_18 (by decide)).trans ((Cert.KernelIdeal.Gen.V16_of m outs c Cert.KernelIdeal.main_cst_18 (by decide)).trans ((Cert.KernelIdeal.Gen.V15_of m outs c Cert.KernelIdeal.main_cst_18 (by decide)).trans ((Cert.KernelIdeal.Gen.V14_of m outs c Cert.KernelIdeal.main_cst_18 (by decide)).trans ((Cert.KernelIdeal.Gen.V13_of m outs c Cert.KernelIdeal.main_cst_18 (by decide)).trans (Cert.KernelIdeal.Gen.V12_of m outs c Cert.KernelIdeal.main_cst_18 (by decide)))))))).trans (after_nullary each_hostOps2 (Cert.KernelIdeal.Gen.V10 m outs c) 12 _ _ _ rfl (by decide))
  have hR := after_nullary eachR (launchContents m' c) 115 _ _ _ rfl (by decide)

  exact hK.trans hR.symm

theorem same_main_v89 : Cert.KernelIdeal.Gen.V17 m outs c Cert.KernelIdeal.main_v89 = Rf m' c Cert.ReferenceIdeal.main_v89 := by
  have hK := (((Cert.KernelIdeal.Gen.V17_of m outs c Cert.KernelIdeal.main_v89 (by decide)).trans ((Cert.KernelIdeal.Gen.V16_of m outs c Cert.KernelIdeal.main_v89 (by decide)).trans ((Cert.KernelIdeal.Gen.V15_of m outs c Cert.KernelIdeal.main_v89 (by decide)).trans ((Cert.KernelIdeal.Gen.V14_of m outs c Cert.KernelIdeal.main_v89 (by decide)).trans ((Cert.KernelIdeal.Gen.V13_of m outs c Cert.KernelIdeal.main_v89 (by decide)).trans (Cert.KernelIdeal.Gen.V12_of m outs c Cert.KernelIdeal.main_v89 (by decide)))))))).trans (after_unary each_hostOps2 (Cert.KernelIdeal.Gen.V10 m outs c) 13 _ _ _ _ _ rfl (by decide) (by decide))
  have hR := after_unary eachR (launchContents m' c) 116 _ _ _ _ _ rfl (by decide) (by decide)
  have E0 : after (Cert.KernelIdeal.Gen.hostOps2 (F := Ideal)) (Cert.KernelIdeal.Gen.V10 m outs c) (Proc.devRef .tc Cert.KernelIdeal.main_cst_18) = Rf m' c Cert.ReferenceIdeal.main_cst_18 :=
    (((Cert.KernelIdeal.Gen.V17_of m outs c Cert.KernelIdeal.main_cst_18 (by decide)).trans ((Cert.KernelIdeal.Gen.V16_of m outs c Cert.KernelIdeal.main_cst_18 (by decide)).trans ((Cert.KernelIdeal.Gen.V15_of m outs c Cert.KernelIdeal.main_cst_18 (by decide)).trans ((Cert.KernelIdeal.Gen.V14_of m outs c Cert.KernelIdeal.main_cst_18 (by decide)).trans ((Cert.KernelIdeal.Gen.V13_of m outs c Cert.KernelIdeal.main_cst_18 (by decide)).trans (Cert.KernelIdeal.Gen.V12_of m outs c Cert.KernelIdeal.main_cst_18 (by decide)))))))).symm.trans (same_main_cst_18 m outs m' hag c h77 h78)
  rw [E0] at hK
  exact hK.trans hR.symm

theorem same_main_v90 : Cert.KernelIdeal.Gen.V17 m outs c Cert.KernelIdeal.main_v90 = Rf m' c Cert.ReferenceIdeal.main_v90 := by
  have hK := (((Cert.KernelIdeal.Gen.V17_of m outs c Cert.KernelIdeal.main_v90 (by decide)).trans ((Cert.KernelIdeal.Gen.V16_of m outs c Cert.KernelIdeal.main_v90 (by decide)).trans ((Cert.KernelIdeal.Gen.V15_of m outs c Cert.KernelIdeal.main_v90 (by decide)).trans ((Cert.KernelIdeal.Gen.V14_of m outs c Cert.KernelIdeal.main_v90 (by decide)).trans ((Cert.KernelIdeal.Gen.V13_of m outs c Cert.KernelIdeal.main_v90 (by decide)).trans (Cert.KernelIdeal.Gen.V12_of m outs c Cert.KernelIdeal.main_v90 (by decide)))))))).trans (after_unary each_hostOps2 (Cert.KernelIdeal.Gen.V10 m outs c) 14 _ _ _ _ _ rfl (by decide) (by decide))
  have hR := after_unary eachR (launchContents m' c) 117 _ _ _ _ _ rfl (by decide) (by decide)
  have E0 : after (Cert.KernelIdeal.Gen.hostOps2 (F := Ideal)) (Cert.KernelIdeal.Gen.V10 m outs c) (Proc.devRef .tc Cert.KernelIdeal.main_v6) = Rf m' c Cert.ReferenceIdeal.main_v6 :=
    (((Cert.KernelIdeal.Gen.V17_of m outs c Cert.KernelIdeal.main_v6 (by decide)).trans ((Cert.KernelIdeal.Gen.V16_of m outs c Cert.KernelIdeal.main_v6 (by decide)).trans ((Cert.KernelIdeal.Gen.V15_of m outs c Cert.KernelIdeal.main_v6 (by decide)).trans ((Cert.KernelIdeal.Gen.V14_of m outs c Cert.KernelIdeal.main_v6 (by decide)).trans ((Cert.KernelIdeal.Gen.V13_of m outs c Cert.KernelIdeal.main_v6 (by decide)).trans (Cert.KernelIdeal.Gen.V12_of m outs c Cert.KernelIdeal.main_v6 (by decide)))))))).symm.trans (same_main_v6 m outs m' hag c)
  rw [E0] at hK
  exact hK.trans hR.symm

theorem same_main_v91 : Cert.KernelIdeal.Gen.V17 m outs c Cert.KernelIdeal.main_v91 = Rf m' c Cert.ReferenceIdeal.main_v91 := by
  have hK := (((Cert.KernelIdeal.Gen.V17_of m outs c Cert.KernelIdeal.main_v91 (by decide)).trans ((Cert.KernelIdeal.Gen.V16_of m outs c Cert.KernelIdeal.main_v91 (by decide)).trans ((Cert.KernelIdeal.Gen.V15_of m outs c Cert.KernelIdeal.main_v91 (by decide)).trans ((Cert.KernelIdeal.Gen.V14_of m outs c Cert.KernelIdeal.main_v91 (by decide)).trans ((Cert.KernelIdeal.Gen.V13_of m outs c Cert.KernelIdeal.main_v91 (by decide)).trans (Cert.KernelIdeal.Gen.V12_of m outs c Cert.KernelIdeal.main_v91 (by decide)))))))).trans (after_ternary each_hostOps2 (Cert.KernelIdeal.Gen.V10 m outs c) 15 _ _ _ _ _ _ _ _ _ rfl (by decide) (by decide) (by decide) (by decide))
  have hR := after_ternary eachR (launchContents m' c) 118 _ _ _ _ _ _ _ _ _ rfl (by decide) (by decide) (by decide) (by decide)
  have E0 : after (Cert.KernelIdeal.Gen.hostOps2 (F := Ideal)) (Cert.KernelIdeal.Gen.V10 m outs c) (Proc.devRef .tc Cert.KernelIdeal.main_v89) = Rf m' c Cert.ReferenceIdeal.main_v89 :=
    (((Cert.KernelIdeal.Gen.V17_of m outs c Cert.KernelIdeal.main_v89 (by decide)).trans ((Cert.KernelIdeal.Gen.V16_of m outs c Cert.KernelIdeal.main_v89 (by decide)).trans ((Cert.KernelIdeal.Gen.V15_of m outs c Cert.KernelIdeal.main_v89 (by decide)).trans ((Cert.KernelIdeal.Gen.V14_of m outs c Cert.KernelIdeal.main_v89 (by decide)).trans ((Cert.KernelIdeal.Gen.V13_of m outs c Cert.KernelIdeal.main_v89 (by decide)).trans (Cert.KernelIdeal.Gen.V12_of m outs c Cert.KernelIdeal.main_v89 (by decide)))))))).symm.trans (same_main_v89 m outs m' hag c h77 h78)
  have E1 : after (Cert.KernelIdeal.Gen.hostOps2 (F := Ideal)) (Cert.KernelIdeal.Gen.V10 m outs c) (Proc.devRef .tc Cert.KernelIdeal.main_v90) = Rf m' c Cert.ReferenceIdeal.main_v90 :=
    (((Cert.KernelIdeal.Gen.V17_of m outs c Cert.KernelIdeal.main_v90 (by decide)).trans ((Cert.KernelIdeal.Gen.V16_of m outs c Cert.KernelIdeal.main_v90 (by decide)).trans ((Cert.KernelIdeal.Gen.V15_of m outs c Cert.KernelIdeal.main_v90 (by decide)).trans ((Cert.KernelIdeal.Gen.V14_of m outs c Cert.KernelIdeal.main_v90 (by decide)).trans ((Cert.KernelIdeal.Gen.V13_of m outs c Cert.KernelIdeal.main_v90 (by decide)).trans (Cert.KernelIdeal.Gen.V12_of m outs c Cert.KernelIdeal.main_v90 (by decide)))))))).symm.trans (same_main_v90 m outs m' hag c h77 h78)
  have E2 : after (Cert.KernelIdeal.Gen.hostOps2 (F := Ideal)) (Cert.KernelIdeal.Gen.V10 m outs c) (Proc.devRef .tc Cert.KernelIdeal.main_v88) = Rf m' c Cert.ReferenceIdeal.main_v88 :=
    (((Cert.KernelIdeal.Gen.V17_of m outs c Cert.KernelIdeal.main_v88 (by decide)).trans ((Cert.KernelIdeal.Gen.V16_of m outs c Cert.KernelIdeal.main_v88 (by decide)).trans ((Cert.KernelIdeal.Gen.V15_of m outs c Cert.KernelIdeal.main_v88 (by decide)).trans ((Cert.KernelIdeal.Gen.V14_of m outs c Cert.KernelIdeal.main_v88 (by decide)).trans ((Cert.KernelIdeal.Gen.V13_of m outs c Cert.KernelIdeal.main_v88 (by decide)).trans (Cert.KernelIdeal.Gen.V12_of m outs c Cert.KernelIdeal.main_v88 (by decide)))))))).symm.trans (same_main_v88 m outs m' hag c h77 h78)
  rw [E0, E1, E2] at hK
  exact hK.trans hR.symm

theorem same_main_v92 : Cert.KernelIdeal.Gen.V17 m outs c Cert.KernelIdeal.main_v92 = Rf m' c Cert.ReferenceIdeal.main_v92 := by
  have hK := (((Cert.KernelIdeal.Gen.V17_of m outs c Cert.KernelIdeal.main_v92 (by decide)).trans ((Cert.KernelIdeal.Gen.V16_of m outs c Cert.KernelIdeal.main_v92 (by decide)).trans ((Cert.KernelIdeal.Gen.V15_of m outs c Cert.KernelIdeal.main_v92 (by decide)).trans ((Cert.KernelIdeal.Gen.V14_of m outs c Cert.KernelIdeal.main_v92 (by decide)).trans ((Cert.KernelIdeal.Gen.V13_of m outs c Cert.KernelIdeal.main_v92 (by decide)).trans (Cert.KernelIdeal.Gen.V12_of m outs c Cert.KernelIdeal.main_v92 (by decide)))))))).trans (after_unary each_hostOps2 (Cert.KernelIdeal.Gen.V10 m outs c) 16 _ _ _ _ _ rfl (by decide) (by decide))
  have hR := after_unary eachR (launchContents m' c) 119 _ _ _ _ _ rfl (by decide) (by decide)
  have E0 : after (Cert.KernelIdeal.Gen.hostOps2 (F := Ideal)) (Cert.KernelIdeal.Gen.V10 m outs c) (Proc.devRef .tc Cert.KernelIdeal.main_arg6) = Rf m' c Cert.ReferenceIdeal.main_arg6 :=
    (((Cert.KernelIdeal.Gen.V17_of m outs c Cert.KernelIdeal.main_arg6 (by decide)).trans ((Cert.KernelIdeal.Gen.V16_of m outs c Cert.KernelIdeal.main_arg6 (by decide)).trans ((Cert.KernelIdeal.Gen.V15_of m outs c Cert.KernelIdeal.main_arg6 (by decide)).trans ((Cert.KernelIdeal.Gen.V14_of m outs c Cert.KernelIdeal.main_arg6 (by decide)).trans ((Cert.KernelIdeal.Gen.V13_of m outs c Cert.KernelIdeal.main_arg6 (by decide)).trans (Cert.KernelIdeal.Gen.V12_of m outs c Cert.KernelIdeal.main_arg6 (by decide)))))))).symm.trans (same_main_arg6 m outs m' hag c)
  rw [E0] at hK
  exact hK.trans hR.symm

theorem same_main_v93 : Cert.KernelIdeal.Gen.V17 m outs c Cert.KernelIdeal.main_v93 = Rf m' c Cert.ReferenceIdeal.main_v93 := by
  have hK := (((Cert.KernelIdeal.Gen.V17_of m outs c Cert.KernelIdeal.main_v93 (by decide)).trans ((Cert.KernelIdeal.Gen.V16_of m outs c Cert.KernelIdeal.main_v93 (by decide)).trans ((Cert.KernelIdeal.Gen.V15_of m outs c Cert.KernelIdeal.main_v93 (by decide)).trans ((Cert.KernelIdeal.Gen.V14_of m outs c Cert.KernelIdeal.main_v93 (by decide)).trans ((Cert.KernelIdeal.Gen.V13_of m outs c Cert.KernelIdeal.main_v93 (by decide)).trans (Cert.KernelIdeal.Gen.V12_of m outs c Cert.KernelIdeal.main_v93 (by decide)))))))).trans (after_unary each_hostOps2 (Cert.KernelIdeal.Gen.V10 m outs c) 17 _ _ _ _ _ rfl (by decide) (by decide))
  have hR := after_unary eachR (launchContents m' c) 120 _ _ _ _ _ rfl (by decide) (by decide)
  have E0 : after (Cert.KernelIdeal.Gen.hostOps2 (F := Ideal)) (Cert.KernelIdeal.Gen.V10 m outs c) (Proc.devRef .tc Cert.KernelIdeal.main_v92) = Rf m' c Cert.ReferenceIdeal.main_v92 :=
    (((Cert.KernelIdeal.Gen.V17_of m outs c Cert.KernelIdeal.main_v92 (by decide)).trans ((Cert.KernelIdeal.Gen.V16_of m outs c Cert.KernelIdeal.main_v92 (by decide)).trans ((Cert.KernelIdeal.Gen.V15_of m outs c Cert.KernelIdeal.main_v92 (by decide)).trans ((Cert.KernelIdeal.Gen.V14_of m outs c Cert.KernelIdeal.main_v92 (by decide)).trans ((Cert.KernelIdeal.Gen.V13_of m outs c Cert.KernelIdeal.main_v92 (by decide)).trans (Cert.KernelIdeal.Gen.V12_of m outs c Cert.KernelIdeal.main_v92 (by decide)))))))).symm.trans (same_main_v92 m outs m' hag c h77 h78)
  rw [E0] at hK
  exact hK.trans hR.symm

theorem same_main_v94 : Cert.KernelIdeal.Gen.V17 m outs c Cert.KernelIdeal.main_v94 = Rf m' c Cert.ReferenceIdeal.main_v94 := by
  have hK := (((Cert.KernelIdeal.Gen.V17_of m outs c Cert.KernelIdeal.main_v94 (by decide)).trans ((Cert.KernelIdeal.Gen.V16_of m outs c Cert.KernelIdeal.main_v94 (by decide)).trans ((Cert.KernelIdeal.Gen.V15_of m outs c Cert.KernelIdeal.main_v94 (by decide)).trans ((Cert.KernelIdeal.Gen.V14_of m outs c Cert.KernelIdeal.main_v94 (by decide)).trans ((Cert.KernelIdeal.Gen.V13_of m outs c Cert.KernelIdeal.main_v94 (by decide)).trans (Cert.KernelIdeal.Gen.V12_of m outs c Cert.KernelIdeal.main_v94 (by decide)))))))).trans (after_binary each_hostOps2 (Cert.KernelIdeal.Gen.V10 m outs c) 18 _ _ _ _ _ _ _ rfl (by decide) (by decide) (by decide))
  have hR := after_binary eachR (launchContents m' c) 121 _ _ _ _ _ _ _ rfl (by decide) (by decide) (by decide)
  have E0 : after (Cert.KernelIdeal.Gen.hostOps2 (F := Ideal)) (Cert.KernelIdeal.Gen.V10 m outs c) (Proc.devRef .tc Cert.KernelIdeal.main_v91) = Rf m' c Cert.ReferenceIdeal.main_v91 :=
    (((Cert.KernelIdeal.Gen.V17_of m outs c Cert.KernelIdeal.main_v91 (by decide)).trans ((Cert.KernelIdeal.Gen.V16_of m outs c Cert.KernelIdeal.main_v91 (by decide)).trans ((Cert.KernelIdeal.Gen.V15_of m outs c Cert.KernelIdeal.main_v91 (by decide)).trans ((Cert.KernelIdeal.Gen.V14_of m outs c Cert.KernelIdeal.main_v91 (by decide)).trans ((Cert.KernelIdeal.Gen.V13_of m outs c Cert.KernelIdeal.main_v91 (by decide)).trans (Cert.KernelIdeal.Gen.V12_of m outs c Cert.KernelIdeal.main_v91 (by decide)))))))).symm.trans (same_main_v91 m outs m' hag c h77 h78)
  have E1 : after (Cert.KernelIdeal.Gen.hostOps2 (F := Ideal)) (Cert.KernelIdeal.Gen.V10 m outs c) (Proc.devRef .tc Cert.KernelIdeal.main_v93) = Rf m' c Cert.ReferenceIdeal.main_v93 :=
    (((Cert.KernelIdeal.Gen.V17_of m outs c Cert.KernelIdeal.main_v93 (by decide)).trans ((Cert.KernelIdeal.Gen.V16_of m outs c Cert.KernelIdeal.main_v93 (by decide)).trans ((Cert.KernelIdeal.Gen.V15_of m outs c Cert.KernelIdeal.main_v93 (by decide)).trans ((Cert.KernelIdeal.Gen.V14_of m outs c Cert.KernelIdeal.main_v93 (by decide)).trans ((Cert.KernelIdeal.Gen.V13_of m outs c Cert.KernelIdeal.main_v93 (by decide)).trans (Cert.KernelIdeal.Gen.V12_of m outs c Cert.KernelIdeal.main_v93 (by decide)))))))).symm.trans (same_main_v93 m outs m' hag c h77 h78)
  rw [E0, E1] at hK
  exact hK.trans hR.symm

theorem same_main_call3_cst : Cert.KernelIdeal.Gen.V17 m outs c Cert.KernelIdeal.main_call3_cst = Rf m' c Cert.ReferenceIdeal.main_call3_cst := by
  have hK := (((Cert.KernelIdeal.Gen.V17_of m outs c Cert.KernelIdeal.main_call3_cst (by decide)).trans ((Cert.KernelIdeal.Gen.V16_of m outs c Cert.KernelIdeal.main_call3_cst (by decide)).trans ((Cert.KernelIdeal.Gen.V15_of m outs c Cert.KernelIdeal.main_call3_cst (by decide)).trans ((Cert.KernelIdeal.Gen.V14_of m outs c Cert.KernelIdeal.main_call3_cst (by decide)).trans (Cert.KernelIdeal.Gen.V13_of m outs c Cert.KernelIdeal.main_call3_cst (by decide))))))).trans (after_nullary each_hostOps2_1 (Cert.KernelIdeal.Gen.V11 m outs c) 0 _ _ _ rfl (by decide))
  have hR := after_nullary eachR (launchContents m' c) 122 _ _ _ rfl (by decide)

  exact hK.trans hR.symm

theorem same_main_call3_v0 : Cert.KernelIdeal.Gen.V17 m outs c Cert.KernelIdeal.main_call3_v0 = Rf m' c Cert.ReferenceIdeal.main_call3_v0 := by
  have hK := (((Cert.KernelIdeal.Gen.V17_of m outs c Cert.KernelIdeal.main_call3_v0 (by decide)).trans ((Cert.KernelIdeal.Gen.V16_of m outs c Cert.KernelIdeal.main_call3_v0 (by decide)).trans ((Cert.KernelIdeal.Gen.V15_of m outs c Cert.KernelIdeal.main_call3_v0 (by decide)).trans ((Cert.KernelIdeal.Gen.V14_of m outs c Cert.KernelIdeal.main_call3_v0 (by decide)).trans (Cert.KernelIdeal.Gen.V13_of m outs c Cert.KernelIdeal.main_call3_v0 (by decide))))))).trans (after_unary each_hostOps2_1 (Cert.KernelIdeal.Gen.V11 m outs c) 1 _ _ _ _ _ rfl (by decide) (by decide))
  have hR := after_unary eachR (launchContents m' c) 123 _ _ _ _ _ rfl (by decide) (by decide)
  have E0 : after (Cert.KernelIdeal.Gen.hostOps2_1 (F := Ideal)) (Cert.KernelIdeal.Gen.V11 m outs c) (Proc.devRef .tc Cert.KernelIdeal.main_call3_cst) = Rf m' c Cert.ReferenceIdeal.main_call3_cst :=
    (((Cert.KernelIdeal.Gen.V17_of m outs c Cert.KernelIdeal.main_call3_cst (by decide)).trans ((Cert.KernelIdeal.Gen.V16_of m outs c Cert.KernelIdeal.main_call3_cst (by decide)).trans ((Cert.KernelIdeal.Gen.V15_of m outs c Cert.KernelIdeal.main_call3_cst (by decide)).trans ((Cert.KernelIdeal.Gen.V14_of m outs c Cert.KernelIdeal.main_call3_cst (by decide)).trans (Cert.KernelIdeal.Gen.V13_of m outs c Cert.KernelIdeal.main_call3_cst (by decide))))))).symm.trans (same_main_call3_cst m outs m' hag c h77 h78)
  rw [E0] at hK
  exact hK.trans hR.symm

theorem same_main_v95 : Cert.KernelIdeal.Gen.V17 m outs c Cert.KernelIdeal.main_v95 = Rf m' c Cert.ReferenceIdeal.main_v95 := by
  have hK := (((Cert.KernelIdeal.Gen.V17_of m outs c Cert.KernelIdeal.main_v95 (by decide)).trans ((Cert.KernelIdeal.Gen.V16_of m outs c Cert.KernelIdeal.main_v95 (by decide)).trans ((Cert.KernelIdeal.Gen.V15_of m outs c Cert.KernelIdeal.main_v95 (by decide)).trans ((Cert.KernelIdeal.Gen.V14_of m outs c Cert.KernelIdeal.main_v95 (by decide)).trans (Cert.KernelIdeal.Gen.V13_of m outs c Cert.KernelIdeal.main_v95 (by decide))))))).trans (after_binary each_hostOps2_1 (Cert.KernelIdeal.Gen.V11 m outs c) 2 _ _ _ _ _ _ _ rfl (by decide) (by decide) (by decide))
  have hR := after_binary eachR (launchContents m' c) 124 _ _ _ _ _ _ _ rfl (by decide) (by decide) (by decide)
  have E0 : after (Cert.KernelIdeal.Gen.hostOps2_1 (F := Ideal)) (Cert.KernelIdeal.Gen.V11 m outs c) (Proc.devRef .tc Cert.KernelIdeal.main_v94) = Rf m' c Cert.ReferenceIdeal.main_v94 :=
    (((Cert.KernelIdeal.Gen.V17_of m outs c Cert.KernelIdeal.main_v94 (by decide)).trans ((Cert.KernelIdeal.Gen.V16_of m outs c Cert.KernelIdeal.main_v94 (by decide)).trans ((Cert.KernelIdeal.Gen.V15_of m outs c Cert.KernelIdeal.main_v94 (by decide)).trans ((Cert.KernelIdeal.Gen.V14_of m outs c Cert.KernelIdeal.main_v94 (by decide)).trans (Cert.KernelIdeal.Gen.V13_of m outs c Cert.KernelIdeal.main_v94 (by decide))))))).symm.trans (same_main_v94 m outs m' hag c h77 h78)
  have E1 : after (Cert.KernelIdeal.Gen.hostOps2_1 (F := Ideal)) (Cert.KernelIdeal.Gen.V11 m outs c) (Proc.devRef .tc Cert.KernelIdeal.main_call3_v0) = Rf m' c Cert.ReferenceIdeal.main_call3_v0 :=
    (((Cert.KernelIdeal.Gen.V17_of m outs c Cert.KernelIdeal.main_call3_v0 (by decide)).trans ((Cert.KernelIdeal.Gen.V16_of m outs c Cert.KernelIdeal.main_call3_v0 (by decide)).trans ((Cert.KernelIdeal.Gen.V15_of m outs c Cert.KernelIdeal.main_call3_v0 (by decide)).trans ((Cert.KernelIdeal.Gen.V14_of m outs c Cert.KernelIdeal.main_call3_v0 (by decide)).trans (Cert.KernelIdeal.Gen.V13_of m outs c Cert.KernelIdeal.main_call3_v0 (by decide))))))).symm.trans (same_main_call3_v0 m outs m' hag c h77 h78)
  rw [E0, E1] at hK
  exact hK.trans hR.symm

theorem same_main_cst_19 : Cert.KernelIdeal.Gen.V17 m outs c Cert.KernelIdeal.main_cst_19 = Rf m' c Cert.ReferenceIdeal.main_cst_19 := by
  have hK := (((Cert.KernelIdeal.Gen.V17_of m outs c Cert.KernelIdeal.main_cst_19 (by decide)).trans ((Cert.KernelIdeal.Gen.V16_of m outs c Cert.KernelIdeal.main_cst_19 (by decide)).trans ((Cert.KernelIdeal.Gen.V15_of m outs c Cert.KernelIdeal.main_cst_19 (by decide)).trans (Cert.KernelIdeal.Gen.V14_of m outs c Cert.KernelIdeal.main_cst_19 (by decide)))))).trans (after_nullary each_hostOps2_2 (Cert.KernelIdeal.Gen.V12 m outs c) 0 _ _ _ rfl (by decide))
  have hR := after_nullary eachR (launchContents m' c) 125 _ _ _ rfl (by decide)

  exact hK.trans hR.symm

theorem same_main_v96 : Cert.KernelIdeal.Gen.V17 m outs c Cert.KernelIdeal.main_v96 = Rf m' c Cert.ReferenceIdeal.main_v96 := by
  have hK := (((Cert.KernelIdeal.Gen.V17_of m outs c Cert.KernelIdeal.main_v96 (by decide)).trans ((Cert.KernelIdeal.Gen.V16_of m outs c Cert.KernelIdeal.main_v96 (by decide)).trans ((Cert.KernelIdeal.Gen.V15_of m outs c Cert.KernelIdeal.main_v96 (by decide)).trans (Cert.KernelIdeal.Gen.V14_of m outs c Cert.KernelIdeal.main_v96 (by decide)))))).trans (after_binary each_hostOps2_2 (Cert.KernelIdeal.Gen.V12 m outs c) 1 _ _ _ _ _ _ _ rfl (by decide) (by decide) (by decide))
  have hR := after_binary eachR (launchContents m' c) 126 _ _ _ _ _ _ _ rfl (by decide) (by decide) (by decide)
  have E0 : after (Cert.KernelIdeal.Gen.hostOps2_2 (F := Ideal)) (Cert.KernelIdeal.Gen.V12 m outs c) (Proc.devRef .tc Cert.KernelIdeal.main_v95) = Rf m' c Cert.ReferenceIdeal.main_v95 :=
    (((Cert.KernelIdeal.Gen.V17_of m outs c Cert.KernelIdeal.main_v95 (by decide)).trans ((Cert.KernelIdeal.Gen.V16_of m outs c Cert.KernelIdeal.main_v95 (by decide)).trans ((Cert.KernelIdeal.Gen.V15_of m outs c Cert.KernelIdeal.main_v95 (by decide)).trans (Cert.KernelIdeal.Gen.V14_of m outs c Cert.KernelIdeal.main_v95 (by decide)))))).symm.trans (same_main_v95 m outs m' hag c h77 h78)
  have E1 : after (Cert.KernelIdeal.Gen.hostOps2_2 (F := Ideal)) (Cert.KernelIdeal.Gen.V12 m outs c) (Proc.devRef .tc Cert.KernelIdeal.main_cst_19) = Rf m' c Cert.ReferenceIdeal.main_cst_19 :=
    (((Cert.KernelIdeal.Gen.V17_of m outs c Cert.KernelIdeal.main_cst_19 (by decide)).trans ((Cert.KernelIdeal.Gen.V16_of m outs c Cert.KernelIdeal.main_cst_19 (by decide)).trans ((Cert.KernelIdeal.Gen.V15_of m outs c Cert.KernelIdeal.main_cst_19 (by decide)).trans (Cert.KernelIdeal.Gen.V14_of m outs c Cert.KernelIdeal.main_cst_19 (by decide)))))).symm.trans (same_main_cst_19 m outs m' hag c h77 h78)
  rw [E0, E1] at hK
  exact hK.trans hR.symm

theorem same_main_cst_20 : Cert.KernelIdeal.Gen.V17 m outs c Cert.KernelIdeal.main_cst_20 = Rf m' c Cert.ReferenceIdeal.main_cst_20 := by
  have hK := (((Cert.KernelIdeal.Gen.V17_of m outs c Cert.KernelIdeal.main_cst_20 (by decide)).trans ((Cert.KernelIdeal.Gen.V16_of m outs c Cert.KernelIdeal.main_cst_20 (by decide)).trans ((Cert.KernelIdeal.Gen.V15_of m outs c Cert.KernelIdeal.main_cst_20 (by decide)).trans (Cert.KernelIdeal.Gen.V14_of m outs c Cert.KernelIdeal.main_cst_20 (by decide)))))).trans (after_nullary each_hostOps2_2 (Cert.KernelIdeal.Gen.V12 m outs c) 2 _ _ _ rfl (by decide))
  have hR := after_nullary eachR (launchContents m' c) 127 _ _ _ rfl (by decide)

  exact hK.trans hR.symm

theorem same_main_v97 : Cert.KernelIdeal.Gen.V17 m outs c Cert.KernelIdeal.main_v97 = Rf m' c Cert.ReferenceIdeal.main_v97 := by
  have hK := (((Cert.KernelIdeal.Gen.V17_of m outs c Cert.KernelIdeal.main_v97 (by decide)).trans ((Cert.KernelIdeal.Gen.V16_of m outs c Cert.KernelIdeal.main_v97 (by decide)).trans ((Cert.KernelIdeal.Gen.V15_of m outs c Cert.KernelIdeal.main_v97 (by decide)).trans (Cert.KernelIdeal.Gen.V14_of m outs c Cert.KernelIdeal.main_v97 (by decide)))))).trans (after_unary each_hostOps2_2 (Cert.KernelIdeal.Gen.V12 m outs c) 3 _ _ _ _ _ rfl (by decide) (by decide))
  have hR := after_unary eachR (launchContents m' c) 128 _ _ _ _ _ rfl (by decide) (by decide)
  have E0 : after (Cert.KernelIdeal.Gen.hostOps2_2 (F := Ideal)) (Cert.KernelIdeal.Gen.V12 m outs c) (Proc.devRef .tc Cert.KernelIdeal.main_cst_20) = Rf m' c Cert.ReferenceIdeal.main_cst_20 :=
    (((Cert.KernelIdeal.Gen.V17_of m outs c Cert.KernelIdeal.main_cst_20 (by decide)).trans ((Cert.KernelIdeal.Gen.V16_of m outs c Cert.KernelIdeal.main_cst_20 (by decide)).trans ((Cert.KernelIdeal.Gen.V15_of m outs c Cert.KernelIdeal.main_cst_20 (by decide)).trans (Cert.KernelIdeal.Gen.V14_of m outs c Cert.KernelIdeal.main_cst_20 (by decide)))))).symm.trans (same_main_cst_20 m outs m' hag c h77 h78)
  rw [E0] at hK
  exact hK.trans hR.symm

theorem same_main_v98 : Cert.KernelIdeal.Gen.V17 m outs c Cert.KernelIdeal.main_v98 = Rf m' c Cert.ReferenceIdeal.main_v98 := by
  have hK := (((Cert.KernelIdeal.Gen.V17_of m outs c Cert.KernelIdeal.main_v98 (by decide)).trans ((Cert.KernelIdeal.Gen.V16_of m outs c Cert.KernelIdeal.main_v98 (by decide)).trans ((Cert.KernelIdeal.Gen.V15_of m outs c Cert.KernelIdeal.main_v98 (by decide)).trans (Cert.KernelIdeal.Gen.V14_of m outs c Cert.KernelIdeal.main_v98 (by decide)))))).trans (after_binary each_hostOps2_2 (Cert.KernelIdeal.Gen.V12 m outs c) 4 _ _ _ _ _ _ _ rfl (by decide) (by decide) (by decide))
  have hR := after_binary eachR (launchContents m' c) 129 _ _ _ _ _ _ _ rfl (by decide) (by decide) (by decide)
  have E0 : after (Cert.KernelIdeal.Gen.hostOps2_2 (F := Ideal)) (Cert.KernelIdeal.Gen.V12 m outs c) (Proc.devRef .tc Cert.KernelIdeal.main_v96) = Rf m' c Cert.ReferenceIdeal.main_v96 :=
    (((Cert.KernelIdeal.Gen.V17_of m outs c Cert.KernelIdeal.main_v96 (by decide)).trans ((Cert.KernelIdeal.Gen.V16_of m outs c Cert.KernelIdeal.main_v96 (by decide)).trans ((Cert.KernelIdeal.Gen.V15_of m outs c Cert.KernelIdeal.main_v96 (by decide)).trans (Cert.KernelIdeal.Gen.V14_of m outs c Cert.KernelIdeal.main_v96 (by decide)))))).symm.trans (same_main_v96 m outs m' hag c h77 h78)
  have E1 : after (Cert.KernelIdeal.Gen.hostOps2_2 (F := Ideal)) (Cert.KernelIdeal.Gen.V12 m outs c) (Proc.devRef .tc Cert.KernelIdeal.main_v97) = Rf m' c Cert.ReferenceIdeal.main_v97 :=
    (((Cert.KernelIdeal.Gen.V17_of m outs c Cert.KernelIdeal.main_v97 (by decide)).trans ((Cert.KernelIdeal.Gen.V16_of m outs c Cert.KernelIdeal.main_v97 (by decide)).trans ((Cert.KernelIdeal.Gen.V15_of m outs c Cert.KernelIdeal.main_v97 (by decide)).trans (Cert.KernelIdeal.Gen.V14_of m outs c Cert.KernelIdeal.main_v97 (by decide)))))).symm.trans (same_main_v97 m outs m' hag c h77 h78)
  rw [E0, E1] at hK
  exact hK.trans hR.symm

theorem same_main_v99 : Cert.KernelIdeal.Gen.V17 m outs c Cert.KernelIdeal.main_v99 = Rf m' c Cert.ReferenceIdeal.main_v99 := by
  have hK := (((Cert.KernelIdeal.Gen.V17_of m outs c Cert.KernelIdeal.main_v99 (by decide)).trans ((Cert.KernelIdeal.Gen.V16_of m outs c Cert.KernelIdeal.main_v99 (by decide)).trans ((Cert.KernelIdeal.Gen.V15_of m outs c Cert.KernelIdeal.main_v99 (by decide)).trans (Cert.KernelIdeal.Gen.V14_of m outs c Cert.KernelIdeal.main_v99 (by decide)))))).trans (after_unary each_hostOps2_2 (Cert.KernelIdeal.Gen.V12 m outs c) 5 _ _ _ _ _ rfl (by decide) (by decide))
  have hR := after_unary eachR (launchContents m' c) 130 _ _ _ _ _ rfl (by decide) (by decide)
  have E0 : after (Cert.KernelIdeal.Gen.hostOps2_2 (F := Ideal)) (Cert.KernelIdeal.Gen.V12 m outs c) (Proc.devRef .tc Cert.KernelIdeal.main_v98) = Rf m' c Cert.ReferenceIdeal.main_v98 :=
    (((Cert.KernelIdeal.Gen.V17_of m outs c Cert.KernelIdeal.main_v98 (by decide)).trans ((Cert.KernelIdeal.Gen.V16_of m outs c Cert.KernelIdeal.main_v98 (by decide)).trans ((Cert.KernelIdeal.Gen.V15_of m outs c Cert.KernelIdeal.main_v98 (by decide)).trans (Cert.KernelIdeal.Gen.V14_of m outs c Cert.KernelIdeal.main_v98 (by decide)))))).symm.trans (same_main_v98 m outs m' hag c h77 h78)
  rw [E0] at hK
  exact hK.trans hR.symm

theorem same_main_v100 : Cert.KernelIdeal.Gen.V17 m outs c Cert.KernelIdeal.main_v100 = Rf m' c Cert.ReferenceIdeal.main_v100 := by
  have hK := (((Cert.KernelIdeal.Gen.V17_of m outs c Cert.KernelIdeal.main_v100 (by decide)).trans ((Cert.KernelIdeal.Gen.V16_of m outs c Cert.KernelIdeal.main_v100 (by decide)).trans ((Cert.KernelIdeal.Gen.V15_of m outs c Cert.KernelIdeal.main_v100 (by decide)).trans (Cert.KernelIdeal.Gen.V14_of m outs c Cert.KernelIdeal.main_v100 (by decide)))))).trans (after_unary each_hostOps2_2 (Cert.KernelIdeal.Gen.V12 m outs c) 6 _ _ _ _ _ rfl (by decide) (by decide))
  have hR := after_unary eachR (launchContents m' c) 131 _ _ _ _ _ rfl (by decide) (by decide)
  have E0 : after (Cert.KernelIdeal.Gen.hostOps2_2 (F := Ideal)) (Cert.KernelIdeal.Gen.V12 m outs c) (Proc.devRef .tc Cert.KernelIdeal.main_v99) = Rf m' c Cert.ReferenceIdeal.main_v99 :=
    (((Cert.KernelIdeal.Gen.V17_of m outs c Cert.KernelIdeal.main_v99 (by decide)).trans ((Cert.KernelIdeal.Gen.V16_of m outs c Cert.KernelIdeal.main_v99 (by decide)).trans ((Cert.KernelIdeal.Gen.V15_of m outs c Cert.KernelIdeal.main_v99 (by decide)).trans (Cert.KernelIdeal.Gen.V14_of m outs c Cert.KernelIdeal.main_v99 (by decide)))))).symm.trans (same_main_v99 m outs m' hag c h77 h78)
  rw [E0] at hK
  exact hK.trans hR.symm

theorem same_main_v101 : Cert.KernelIdeal.Gen.V17 m outs c Cert.KernelIdeal.main_v101 = Rf m' c Cert.ReferenceIdeal.main_v101 := by
  have hK := (((Cert.KernelIdeal.Gen.V17_of m outs c Cert.KernelIdeal.main_v101 (by decide)).trans ((Cert.KernelIdeal.Gen.V16_of m outs c Cert.KernelIdeal.main_v101 (by decide)).trans ((Cert.KernelIdeal.Gen.V15_of m outs c Cert.KernelIdeal.main_v101 (by decide)).trans (Cert.KernelIdeal.Gen.V14_of m outs c Cert.KernelIdeal.main_v101 (by decide)))))).trans (after_binary each_hostOps2_2 (Cert.KernelIdeal.Gen.V12 m outs c) 7 _ _ _ _ _ _ _ rfl (by decide) (by decide) (by decide))
  have hR := after_binary eachR (launchContents m' c) 132 _ _ _ _ _ _ _ rfl (by decide) (by decide) (by decide)
  have E0 : after (Cert.KernelIdeal.Gen.hostOps2_2 (F := Ideal)) (Cert.KernelIdeal.Gen.V12 m outs c) (Proc.devRef .tc Cert.KernelIdeal.main_v95) = Rf m' c Cert.ReferenceIdeal.main_v95 :=
    (((Cert.KernelIdeal.Gen.V17_of m outs c Cert.KernelIdeal.main_v95 (by decide)).trans ((Cert.KernelIdeal.Gen.V16_of m outs c Cert.KernelIdeal.main_v95 (by decide)).trans ((Cert.KernelIdeal.Gen.V15_of m outs c Cert.KernelIdeal.main_v95 (by decide)).trans (Cert.KernelIdeal.Gen.V14_of m outs c Cert.KernelIdeal.main_v95 (by decide)))))).symm.trans (same_main_v95 m outs m' hag c h77 h78)
  have E1 : after (Cert.KernelIdeal.Gen.hostOps2_2 (F := Ideal)) (Cert.KernelIdeal.Gen.V12 m outs c) (Proc.devRef .tc Cert.KernelIdeal.main_v100) = Rf m' c Cert.ReferenceIdeal.main_v100 :=
    (((Cert.KernelIdeal.Gen.V17_of m outs c Cert.KernelIdeal.main_v100 (by decide)).trans ((Cert.KernelIdeal.Gen.V16_of m outs c Cert.KernelIdeal.main_v100 (by decide)).trans ((Cert.KernelIdeal.Gen.V15_of m outs c Cert.KernelIdeal.main_v100 (by decide)).trans (Cert.KernelIdeal.Gen.V14_of m outs c Cert.KernelIdeal.main_v100 (by decide)))))).symm.trans (same_main_v100 m outs m' hag c h77 h78)
  rw [E0, E1] at hK
  exact hK.trans hR.symm

theorem same_main_v102 : Cert.KernelIdeal.Gen.V17 m outs c Cert.KernelIdeal.main_v102 = Rf m' c Cert.ReferenceIdeal.main_v102 := by
  have hK := (((Cert.KernelIdeal.Gen.V17_of m outs c Cert.KernelIdeal.main_v102 (by decide)).trans ((Cert.KernelIdeal.Gen.V16_of m outs c Cert.KernelIdeal.main_v102 (by decide)).trans ((Cert.KernelIdeal.Gen.V15_of m outs c Cert.KernelIdeal.main_v102 (by decide)).trans (Cert.KernelIdeal.Gen.V14_of m outs c Cert.KernelIdeal.main_v102 (by decide)))))).trans (after_binary each_hostOps2_2 (Cert.KernelIdeal.Gen.V12 m outs c) 8 _ _ _ _ _ _ _ rfl (by decide) (by decide) (by decide))
  have hR := after_binary eachR (launchContents m' c) 133 _ _ _ _ _ _ _ rfl (by decide) (by decide) (by decide)
  have E0 : after (Cert.KernelIdeal.Gen.hostOps2_2 (F := Ideal)) (Cert.KernelIdeal.Gen.V12 m outs c) (Proc.devRef .tc Cert.KernelIdeal.main_v101) = Rf m' c Cert.ReferenceIdeal.main_v101 :=
    (((Cert.KernelIdeal.Gen.V17_of m outs c Cert.KernelIdeal.main_v101 (by decide)).trans ((Cert.KernelIdeal.Gen.V16_of m outs c Cert.KernelIdeal.main_v101 (by decide)).trans ((Cert.KernelIdeal.Gen.V15_of m outs c Cert.KernelIdeal.main_v101 (by decide)).trans (Cert.KernelIdeal.Gen.V14_of m outs c Cert.KernelIdeal.main_v101 (by decide)))))).symm.trans (same_main_v101 m outs m' hag c h77 h78)
  rw [E0] at hK
  exact hK.trans hR.symm

theorem same_main_cst_21 : Cert.KernelIdeal.Gen.V17 m outs c Cert.KernelIdeal.main_cst_21 = Rf m' c Cert.ReferenceIdeal.main_cst_21 := by
  have hK := (((Cert.KernelIdeal.Gen.V17_of m outs c Cert.KernelIdeal.main_cst_21 (by decide)).trans ((Cert.KernelIdeal.Gen.V16_of m outs c Cert.KernelIdeal.main_cst_21 (by decide)).trans ((Cert.KernelIdeal.Gen.V15_of m outs c Cert.KernelIdeal.main_cst_21 (by decide)).trans (Cert.KernelIdeal.Gen.V14_of m outs c Cert.KernelIdeal.main_cst_21 (by decide)))))).trans (after_nullary each_hostOps2_2 (Cert.KernelIdeal.Gen.V12 m outs c) 9 _ _ _ rfl (by decide))
  have hR := after_nullary eachR (launchContents m' c) 134 _ _ _ rfl (by decide)

  exact hK.trans hR.symm

theorem same_main_v103 : Cert.KernelIdeal.Gen.V17 m outs c Cert.KernelIdeal.main_v103 = Rf m' c Cert.ReferenceIdeal.main_v103 := by
  have hK := (((Cert.KernelIdeal.Gen.V17_of m outs c Cert.KernelIdeal.main_v103 (by decide)).trans ((Cert.KernelIdeal.Gen.V16_of m outs c Cert.KernelIdeal.main_v103 (by decide)).trans ((Cert.KernelIdeal.Gen.V15_of m outs c Cert.KernelIdeal.main_v103 (by decide)).trans (Cert.KernelIdeal.Gen.V14_of m outs c Cert.KernelIdeal.main_v103 (by decide)))))).trans (after_binary each_hostOps2_2 (Cert.KernelIdeal.Gen.V12 m outs c) 10 _ _ _ _ _ _ _ rfl (by decide) (by decide) (by decide))
  have hR := after_binary eachR (launchContents m' c) 135 _ _ _ _ _ _ _ rfl (by decide) (by decide) (by decide)
  have E0 : after (Cert.KernelIdeal.Gen.hostOps2_2 (F := Ideal)) (Cert.KernelIdeal.Gen.V12 m outs c) (Proc.devRef .tc Cert.KernelIdeal.main_v102) = Rf m' c Cert.ReferenceIdeal.main_v102 :=
    (((Cert.KernelIdeal.Gen.V17_of m outs c Cert.KernelIdeal.main_v102 (by decide)).trans ((Cert.KernelIdeal.Gen.V16_of m outs c Cert.KernelIdeal.main_v102 (by decide)).trans ((Cert.KernelIdeal.Gen.V15_of m outs c Cert.KernelIdeal.main_v102 (by decide)).trans (Cert.KernelIdeal.Gen.V14_of m outs c Cert.KernelIdeal.main_v102 (by decide)))))).symm.trans (same_main_v102 m outs m' hag c h77 h78)
  have E1 : after (Cert.KernelIdeal.Gen.hostOps2_2 (F := Ideal)) (Cert.KernelIdeal.Gen.V12 m outs c) (Proc.devRef .tc Cert.KernelIdeal.main_cst_21) = Rf m' c Cert.ReferenceIdeal.main_cst_21 :=
    (((Cert.KernelIdeal.Gen.V17_of m outs c Cert.KernelIdeal.main_cst_21 (by decide)).trans ((Cert.KernelIdeal.Gen.V16_of m outs c Cert.KernelIdeal.main_cst_21 (by decide)).trans ((Cert.KernelIdeal.Gen.V15_of m outs c Cert.KernelIdeal.main_cst_21 (by decide)).trans (Cert.KernelIdeal.Gen.V14_of m outs c Cert.KernelIdeal.main_cst_21 (by decide)))))).symm.trans (same_main_cst_21 m outs m' hag c h77 h78)
  rw [E0, E1] at hK
  exact hK.trans hR.symm

theorem same_main_cst_22 : Cert.KernelIdeal.Gen.V17 m outs c Cert.KernelIdeal.main_cst_22 = Rf m' c Cert.ReferenceIdeal.main_cst_22 := by
  have hK := (((Cert.KernelIdeal.Gen.V17_of m outs c Cert.KernelIdeal.main_cst_22 (by decide)).trans ((Cert.KernelIdeal.Gen.V16_of m outs c Cert.KernelIdeal.main_cst_22 (by decide)).trans ((Cert.KernelIdeal.Gen.V15_of m outs c Cert.KernelIdeal.main_cst_22 (by decide)).trans (Cert.KernelIdeal.Gen.V14_of m outs c Cert.KernelIdeal.main_cst_22 (by decide)))))).trans (after_nullary each_hostOps2_2 (Cert.KernelIdeal.Gen.V12 m outs c) 11 _ _ _ rfl (by decide))
  have hR := after_nullary eachR (launchContents m' c) 136 _ _ _ rfl (by decide)

  exact hK.trans hR.symm

theorem same_main_v104 : Cert.KernelIdeal.Gen.V17 m outs c Cert.KernelIdeal.main_v104 = Rf m' c Cert.ReferenceIdeal.main_v104 := by
  have hK := (((Cert.KernelIdeal.Gen.V17_of m outs c Cert.KernelIdeal.main_v104 (by decide)).trans ((Cert.KernelIdeal.Gen.V16_of m outs c Cert.KernelIdeal.main_v104 (by decide)).trans ((Cert.KernelIdeal.Gen.V15_of m outs c Cert.KernelIdeal.main_v104 (by decide)).trans (Cert.KernelIdeal.Gen.V14_of m outs c Cert.KernelIdeal.main_v104 (by decide)))))).trans (after_unary each_hostOps2_2 (Cert.KernelIdeal.Gen.V12 m outs c) 12 _ _ _ _ _ rfl (by decide) (by decide))
  have hR := after_unary eachR (launchContents m' c) 137 _ _ _ _ _ rfl (by decide) (by decide)
  have E0 : after (Cert.KernelIdeal.Gen.hostOps2_2 (F := Ideal)) (Cert.KernelIdeal.Gen.V12 m outs c) (Proc.devRef .tc Cert.KernelIdeal.main_cst_22) = Rf m' c Cert.ReferenceIdeal.main_cst_22 :=
    (((Cert.KernelIdeal.Gen.V17_of m outs c Cert.KernelIdeal.main_cst_22 (by decide)).trans ((Cert.KernelIdeal.Gen.V16_of m outs c Cert.KernelIdeal.main_cst_22 (by decide)).trans ((Cert.KernelIdeal.Gen.V15_of m outs c Cert.KernelIdeal.main_cst_22 (by decide)).trans (Cert.KernelIdeal.Gen.V14_of m outs c Cert.KernelIdeal.main_cst_22 (by decide)))))).symm.trans (same_main_cst_22 m outs m' hag c h77 h78)
  rw [E0] at hK
  exact hK.trans hR.symm

theorem same_main_v105 : Cert.KernelIdeal.Gen.V17 m outs c Cert.KernelIdeal.main_v105 = Rf m' c Cert.ReferenceIdeal.main_v105 := by
  have hK := (((Cert.KernelIdeal.Gen.V17_of m outs c Cert.KernelIdeal.main_v105 (by decide)).trans ((Cert.KernelIdeal.Gen.V16_of m outs c Cert.KernelIdeal.main_v105 (by decide)).trans ((Cert.KernelIdeal.Gen.V15_of m outs c Cert.KernelIdeal.main_v105 (by decide)).trans (Cert.KernelIdeal.Gen.V14_of m outs c Cert.KernelIdeal.main_v105 (by decide)))))).trans (after_binary each_hostOps2_2 (Cert.KernelIdeal.Gen.V12 m outs c) 13 _ _ _ _ _ _ _ rfl (by decide) (by decide) (by decide))
  have hR := after_binary eachR (launchContents m' c) 138 _ _ _ _ _ _ _ rfl (by decide) (by decide) (by decide)
  have E0 : after (Cert.KernelIdeal.Gen.hostOps2_2 (F := Ideal)) (Cert.KernelIdeal.Gen.V12 m outs c) (Proc.devRef .tc Cert.KernelIdeal.main_v103) = Rf m' c Cert.ReferenceIdeal.main_v103 :=
    (((Cert.KernelIdeal.Gen.V17_of m outs c Cert.KernelIdeal.main_v103 (by decide)).trans ((Cert.KernelIdeal.Gen.V16_of m outs c Cert.KernelIdeal.main_v103 (by decide)).trans ((Cert.KernelIdeal.Gen.V15_of m outs c Cert.KernelIdeal.main_v103 (by decide)).trans (Cert.KernelIdeal.Gen.V14_of m outs c Cert.KernelIdeal.main_v103 (by decide)))))).symm.trans (same_main_v103 m outs m' hag c h77 h78)
  have E1 : after (Cert.KernelIdeal.Gen.hostOps2_2 (F := Ideal)) (Cert.KernelIdeal.Gen.V12 m outs c) (Proc.devRef .tc Cert.KernelIdeal.main_v104) = Rf m' c Cert.ReferenceIdeal.main_v104 :=
    (((Cert.KernelIdeal.Gen.V17_of m outs c Cert.KernelIdeal.main_v104 (by decide)).trans ((Cert.KernelIdeal.Gen.V16_of m outs c Cert.KernelIdeal.main_v104 (by decide)).trans ((Cert.KernelIdeal.Gen.V15_of m outs c Cert.KernelIdeal.main_v104 (by decide)).trans (Cert.KernelIdeal.Gen.V14_of m outs c Cert.KernelIdeal.main_v104 (by decide)))))).symm.trans (same_main_v104 m outs m' hag c h77 h78)
  rw [E0, E1] at hK
  exact hK.trans hR.symm

theorem same_main_v106 : Cert.KernelIdeal.Gen.V17 m outs c Cert.KernelIdeal.main_v106 = Rf m' c Cert.ReferenceIdeal.main_v106 := by
  have hK := (((Cert.KernelIdeal.Gen.V17_of m outs c Cert.KernelIdeal.main_v106 (by decide)).trans ((Cert.KernelIdeal.Gen.V16_of m outs c Cert.KernelIdeal.main_v106 (by decide)).trans ((Cert.KernelIdeal.Gen.V15_of m outs c Cert.KernelIdeal.main_v106 (by decide)).trans (Cert.KernelIdeal.Gen.V14_of m outs c Cert.KernelIdeal.main_v106 (by decide)))))).trans (after_unary each_hostOps2_2 (Cert.KernelIdeal.Gen.V12 m outs c) 14 _ _ _ _ _ rfl (by decide) (by decide))
  have hR := after_unary eachR (launchContents m' c) 139 _ _ _ _ _ rfl (by decide) (by decide)
  have E0 : after (Cert.KernelIdeal.Gen.hostOps2_2 (F := Ideal)) (Cert.KernelIdeal.Gen.V12 m outs c) (Proc.devRef .tc Cert.KernelIdeal.main_v98) = Rf m' c Cert.ReferenceIdeal.main_v98 :=
    (((Cert.KernelIdeal.Gen.V17_of m outs c Cert.KernelIdeal.main_v98 (by decide)).trans ((Cert.KernelIdeal.Gen.V16_of m outs c Cert.KernelIdeal.main_v98 (by decide)).trans ((Cert.KernelIdeal.Gen.V15_of m outs c Cert.KernelIdeal.main_v98 (by decide)).trans (Cert.KernelIdeal.Gen.V14_of m outs c Cert.KernelIdeal.main_v98 (by decide)))))).symm.trans (same_main_v98 m outs m' hag c h77 h78)
  rw [E0] at hK
  exact hK.trans hR.symm

theorem same_main_v107 : Cert.KernelIdeal.Gen.V17 m outs c Cert.KernelIdeal.main_v107 = Rf m' c Cert.ReferenceIdeal.main_v107 := by
  have hK := (((Cert.KernelIdeal.Gen.V17_of m outs c Cert.KernelIdeal.main_v107 (by decide)).trans ((Cert.KernelIdeal.Gen.V16_of m outs c Cert.KernelIdeal.main_v107 (by decide)).trans ((Cert.KernelIdeal.Gen.V15_of m outs c Cert.KernelIdeal.main_v107 (by decide)).trans (Cert.KernelIdeal.Gen.V14_of m outs c Cert.KernelIdeal.main_v107 (by decide)))))).trans (after_unary each_hostOps2_2 (Cert.KernelIdeal.Gen.V12 m outs c) 15 _ _ _ _ _ rfl (by decide) (by decide))
  have hR := after_unary eachR (launchContents m' c) 140 _ _ _ _ _ rfl (by decide) (by decide)
  have E0 : after (Cert.KernelIdeal.Gen.hostOps2_2 (F := Ideal)) (Cert.KernelIdeal.Gen.V12 m outs c) (Proc.devRef .tc Cert.KernelIdeal.main_v106) = Rf m' c Cert.ReferenceIdeal.main_v106 :=
    (((Cert.KernelIdeal.Gen.V17_of m outs c Cert.KernelIdeal.main_v106 (by decide)).trans ((Cert.KernelIdeal.Gen.V16_of m outs c Cert.KernelIdeal.main_v106 (by decide)).trans ((Cert.KernelIdeal.Gen.V15_of m outs c Cert.KernelIdeal.main_v106 (by decide)).trans (Cert.KernelIdeal.Gen.V14_of m outs c Cert.KernelIdeal.main_v106 (by decide)))))).symm.trans (same_main_v106 m outs m' hag c h77 h78)
  rw [E0] at hK
  exact hK.trans hR.symm

theorem same_main_v108 : Cert.KernelIdeal.Gen.V17 m outs c Cert.KernelIdeal.main_v108 = Rf m' c Cert.ReferenceIdeal.main_v108 := by
  have hK := (((Cert.KernelIdeal.Gen.V17_of m outs c Cert.KernelIdeal.main_v108 (by decide)).trans ((Cert.KernelIdeal.Gen.V16_of m outs c Cert.KernelIdeal.main_v108 (by decide)).trans ((Cert.KernelIdeal.Gen.V15_of m outs c Cert.KernelIdeal.main_v108 (by decide)).trans (Cert.KernelIdeal.Gen.V14_of m outs c Cert.KernelIdeal.main_v108 (by decide)))))).trans (after_binary each_hostOps2_2 (Cert.KernelIdeal.Gen.V12 m outs c) 16 _ _ _ _ _ _ _ rfl (by decide) (by decide) (by decide))
  have hR := after_binary eachR (launchContents m' c) 141 _ _ _ _ _ _ _ rfl (by decide) (by decide) (by decide)
  have E0 : after (Cert.KernelIdeal.Gen.hostOps2_2 (F := Ideal)) (Cert.KernelIdeal.Gen.V12 m outs c) (Proc.devRef .tc Cert.KernelIdeal.main_v95) = Rf m' c Cert.ReferenceIdeal.main_v95 :=
    (((Cert.KernelIdeal.Gen.V17_of m outs c Cert.KernelIdeal.main_v95 (by decide)).trans ((Cert.KernelIdeal.Gen.V16_of m outs c Cert.KernelIdeal.main_v95 (by decide)).trans ((Cert.KernelIdeal.Gen.V15_of m outs c Cert.KernelIdeal.main_v95 (by decide)).trans (Cert.KernelIdeal.Gen.V14_of m outs c Cert.KernelIdeal.main_v95 (by decide)))))).symm.trans (same_main_v95 m outs m' hag c h77 h78)
  have E1 : after (Cert.KernelIdeal.Gen.hostOps2_2 (F := Ideal)) (Cert.KernelIdeal.Gen.V12 m outs c) (Proc.devRef .tc Cert.KernelIdeal.main_v107) = Rf m' c Cert.ReferenceIdeal.main_v107 :=
    (((Cert.KernelIdeal.Gen.V17_of m outs c Cert.KernelIdeal.main_v107 (by decide)).trans ((Cert.KernelIdeal.Gen.V16_of m outs c Cert.KernelIdeal.main_v107 (by decide)).trans ((Cert.KernelIdeal.Gen.V15_of m outs c Cert.KernelIdeal.main_v107 (by decide)).trans (Cert.KernelIdeal.Gen.V14_of m outs c Cert.KernelIdeal.main_v107 (by decide)))))).symm.trans (same_main_v107 m outs m' hag c h77 h78)
  rw [E0, E1] at hK
  exact hK.trans hR.symm

theorem same_main_cst_23 : Cert.KernelIdeal.Gen.V17 m outs c Cert.KernelIdeal.main_cst_23 = Rf m' c Cert.ReferenceIdeal.main_cst_23 := by
  have hK := (((Cert.KernelIdeal.Gen.V17_of m outs c Cert.KernelIdeal.main_cst_23 (by decide)).trans ((Cert.KernelIdeal.Gen.V16_of m outs c Cert.KernelIdeal.main_cst_23 (by decide)).trans ((Cert.KernelIdeal.Gen.V15_of m outs c Cert.KernelIdeal.main_cst_23 (by decide)).trans (Cert.KernelIdeal.Gen.V14_of m outs c Cert.KernelIdeal.main_cst_23 (by decide)))))).trans (after_nullary each_hostOps2_2 (Cert.KernelIdeal.Gen.V12 m outs c) 17 _ _ _ rfl (by decide))
  have hR := after_nullary eachR (launchContents m' c) 142 _ _ _ rfl (by decide)

  exact hK.trans hR.symm

theorem same_main_v109 : Cert.KernelIdeal.Gen.V17 m outs c Cert.KernelIdeal.main_v109 = Rf m' c Cert.ReferenceIdeal.main_v109 := by
  have hK := (((Cert.KernelIdeal.Gen.V17_of m outs c Cert.KernelIdeal.main_v109 (by decide)).trans ((Cert.KernelIdeal.Gen.V16_of m outs c Cert.KernelIdeal.main_v109 (by decide)).trans ((Cert.KernelIdeal.Gen.V15_of m outs c Cert.KernelIdeal.main_v109 (by decide)).trans (Cert.KernelIdeal.Gen.V14_of m outs c Cert.KernelIdeal.main_v109 (by decide)))))).trans (after_unary each_hostOps2_2 (Cert.KernelIdeal.Gen.V12 m outs c) 18 _ _ _ _ _ rfl (by decide) (by decide))
  have hR := after_unary eachR (launchContents m' c) 143 _ _ _ _ _ rfl (by decide) (by decide)
  have E0 : after (Cert.KernelIdeal.Gen.hostOps2_2 (F := Ideal)) (Cert.KernelIdeal.Gen.V12 m outs c) (Proc.devRef .tc Cert.KernelIdeal.main_cst_23) = Rf m' c Cert.ReferenceIdeal.main_cst_23 :=
    (((Cert.KernelIdeal.Gen.V17_of m outs c Cert.KernelIdeal.main_cst_23 (by decide)).trans ((Cert.KernelIdeal.Gen.V16_of m outs c Cert.KernelIdeal.main_cst_23 (by decide)).trans ((Cert.KernelIdeal.Gen.V15_of m outs c Cert.KernelIdeal.main_cst_23 (by decide)).trans (Cert.KernelIdeal.Gen.V14_of m outs c Cert.KernelIdeal.main_cst_23 (by decide)))))).symm.trans (same_main_cst_23 m outs m' hag c h77 h78)
  rw [E0] at hK
  exact hK.trans hR.symm

theorem same_main_v110 : Cert.KernelIdeal.Gen.V17 m outs c Cert.KernelIdeal.main_v110 = Rf m' c Cert.ReferenceIdeal.main_v110 := by
  have hK := (((Cert.KernelIdeal.Gen.V17_of m outs c Cert.KernelIdeal.main_v110 (by decide)).trans ((Cert.KernelIdeal.Gen.V16_of m outs c Cert.KernelIdeal.main_v110 (by decide)).trans ((Cert.KernelIdeal.Gen.V15_of m outs c Cert.KernelIdeal.main_v110 (by decide)).trans (Cert.KernelIdeal.Gen.V14_of m outs c Cert.KernelIdeal.main_v110 (by decide)))))).trans (after_binary each_hostOps2_2 (Cert.KernelIdeal.Gen.V12 m outs c) 19 _ _ _ _ _ _ _ rfl (by decide) (by decide) (by decide))
  have hR := after_binary eachR (launchContents m' c) 144 _ _ _ _ _ _ _ rfl (by decide) (by decide) (by decide)
  have E0 : after (Cert.KernelIdeal.Gen.hostOps2_2 (F := Ideal)) (Cert.KernelIdeal.Gen.V12 m outs c) (Proc.devRef .tc Cert.KernelIdeal.main_v105) = Rf m' c Cert.ReferenceIdeal.main_v105 :=
    (((Cert.KernelIdeal.Gen.V17_of m outs c Cert.KernelIdeal.main_v105 (by decide)).trans ((Cert.KernelIdeal.Gen.V16_of m outs c Cert.KernelIdeal.main_v105 (by decide)).trans ((Cert.KernelIdeal.Gen.V15_of m outs c Cert.KernelIdeal.main_v105 (by decide)).trans (Cert.KernelIdeal.Gen.V14_of m outs c Cert.KernelIdeal.main_v105 (by decide)))))).symm.trans (same_main_v105 m outs m' hag c h77 h78)
  have E1 : after (Cert.KernelIdeal.Gen.hostOps2_2 (F := Ideal)) (Cert.KernelIdeal.Gen.V12 m outs c) (Proc.devRef .tc Cert.KernelIdeal.main_v109) = Rf m' c Cert.ReferenceIdeal.main_v109 :=
    (((Cert.KernelIdeal.Gen.V17_of m outs c Cert.KernelIdeal.main_v109 (by decide)).trans ((Cert.KernelIdeal.Gen.V16_of m outs c Cert.KernelIdeal.main_v109 (by decide)).trans ((Cert.KernelIdeal.Gen.V15_of m outs c Cert.KernelIdeal.main_v109 (by decide)).trans (Cert.KernelIdeal.Gen.V14_of m outs c Cert.KernelIdeal.main_v109 (by decide)))))).symm.trans (same_main_v109 m outs m' hag c h77 h78)
  rw [E0, E1] at hK
  exact hK.trans hR.symm

theorem same_main_v111 : Cert.KernelIdeal.Gen.V17 m outs c Cert.KernelIdeal.main_v111 = Rf m' c Cert.ReferenceIdeal.main_v111 := by
  have hK := (((Cert.KernelIdeal.Gen.V17_of m outs c Cert.KernelIdeal.main_v111 (by decide)).trans ((Cert.KernelIdeal.Gen.V16_of m outs c Cert.KernelIdeal.main_v111 (by decide)).trans ((Cert.KernelIdeal.Gen.V15_of m outs c Cert.KernelIdeal.main_v111 (by decide)).trans (Cert.KernelIdeal.Gen.V14_of m outs c Cert.KernelIdeal.main_v111 (by decide)))))).trans (after_unary each_hostOps2_2 (Cert.KernelIdeal.Gen.V12 m outs c) 20 _ _ _ _ _ rfl (by decide) (by decide))
  have hR := after_unary eachR (launchContents m' c) 145 _ _ _ _ _ rfl (by decide) (by decide)
  have E0 : after (Cert.KernelIdeal.Gen.hostOps2_2 (F := Ideal)) (Cert.KernelIdeal.Gen.V12 m outs c) (Proc.devRef .tc Cert.KernelIdeal.main_v110) = Rf m' c Cert.ReferenceIdeal.main_v110 :=
    (((Cert.KernelIdeal.Gen.V17_of m outs c Cert.KernelIdeal.main_v110 (by decide)).trans ((Cert.KernelIdeal.Gen.V16_of m outs c Cert.KernelIdeal.main_v110 (by decide)).trans ((Cert.KernelIdeal.Gen.V15_of m outs c Cert.KernelIdeal.main_v110 (by decide)).trans (Cert.KernelIdeal.Gen.V14_of m outs c Cert.KernelIdeal.main_v110 (by decide)))))).symm.trans (same_main_v110 m outs m' hag c h77 h78)
  rw [E0] at hK
  exact hK.trans hR.symm

theorem same_main_v112 : Cert.KernelIdeal.Gen.V17 m outs c Cert.KernelIdeal.main_v112 = Rf m' c Cert.ReferenceIdeal.main_v112 := by
  have hK := (((Cert.KernelIdeal.Gen.V17_of m outs c Cert.KernelIdeal.main_v112 (by decide)).trans ((Cert.KernelIdeal.Gen.V16_of m outs c Cert.KernelIdeal.main_v112 (by decide)).trans ((Cert.KernelIdeal.Gen.V15_of m outs c Cert.KernelIdeal.main_v112 (by decide)).trans (Cert.KernelIdeal.Gen.V14_of m outs c Cert.KernelIdeal.main_v112 (by decide)))))).trans (after_unary each_hostOps2_2 (Cert.KernelIdeal.Gen.V12 m outs c) 21 _ _ _ _ _ rfl (by decide) (by decide))
  have hR := after_unary eachR (launchContents m' c) 146 _ _ _ _ _ rfl (by decide) (by decide)
  have E0 : after (Cert.KernelIdeal.Gen.hostOps2_2 (F := Ideal)) (Cert.KernelIdeal.Gen.V12 m outs c) (Proc.devRef .tc Cert.KernelIdeal.main_v111) = Rf m' c Cert.ReferenceIdeal.main_v111 :=
    (((Cert.KernelIdeal.Gen.V17_of m outs c Cert.KernelIdeal.main_v111 (by decide)).trans ((Cert.KernelIdeal.Gen.V16_of m outs c Cert.KernelIdeal.main_v111 (by decide)).trans ((Cert.KernelIdeal.Gen.V15_of m outs c Cert.KernelIdeal.main_v111 (by decide)).trans (Cert.KernelIdeal.Gen.V14_of m outs c Cert.KernelIdeal.main_v111 (by decide)))))).symm.trans (same_main_v111 m outs m' hag c h77 h78)
  rw [E0] at hK
  exact hK.trans hR.symm

theorem same_main_v113 : Cert.KernelIdeal.Gen.V17 m outs c Cert.KernelIdeal.main_v113 = Rf m' c Cert.ReferenceIdeal.main_v113 := by
  have hK := (((Cert.KernelIdeal.Gen.V17_of m outs c Cert.KernelIdeal.main_v113 (by decide)).trans ((Cert.KernelIdeal.Gen.V16_of m outs c Cert.KernelIdeal.main_v113 (by decide)).trans ((Cert.KernelIdeal.Gen.V15_of m outs c Cert.KernelIdeal.main_v113 (by decide)).trans (Cert.KernelIdeal.Gen.V14_of m outs c Cert.KernelIdeal.main_v113 (by decide)))))).trans (after_unary each_hostOps2_2 (Cert.KernelIdeal.Gen.V12 m outs c) 22 _ _ _ _ _ rfl (by decide) (by decide))
  have hR := after_unary eachR (launchContents m' c) 147 _ _ _ _ _ rfl (by decide) (by decide)
  have E0 : after (Cert.KernelIdeal.Gen.hostOps2_2 (F := Ideal)) (Cert.KernelIdeal.Gen.V12 m outs c) (Proc.devRef .tc Cert.KernelIdeal.main_v112) = Rf m' c Cert.ReferenceIdeal.main_v112 :=
    (((Cert.KernelIdeal.Gen.V17_of m outs c Cert.KernelIdeal.main_v112 (by decide)).trans ((Cert.KernelIdeal.Gen.V16_of m outs c Cert.KernelIdeal.main_v112 (by decide)).trans ((Cert.KernelIdeal.Gen.V15_of m outs c Cert.KernelIdeal.main_v112 (by decide)).trans (Cert.KernelIdeal.Gen.V14_of m outs c Cert.KernelIdeal.main_v112 (by decide)))))).symm.trans (same_main_v112 m outs m' hag c h77 h78)
  rw [E0] at hK
  exact hK.trans hR.symm

theorem same_main_v114 : Cert.KernelIdeal.Gen.V17 m outs c Cert.KernelIdeal.main_v114 = Rf m' c Cert.ReferenceIdeal.main_v114 := by
  have hK := (((Cert.KernelIdeal.Gen.V17_of m outs c Cert.KernelIdeal.main_v114 (by decide)).trans ((Cert.KernelIdeal.Gen.V16_of m outs c Cert.KernelIdeal.main_v114 (by decide)).trans ((Cert.KernelIdeal.Gen.V15_of m outs c Cert.KernelIdeal.main_v114 (by decide)).trans (Cert.KernelIdeal.Gen.V14_of m outs c Cert.KernelIdeal.main_v114 (by decide)))))).trans (after_binary each_hostOps2_2 (Cert.KernelIdeal.Gen.V12 m outs c) 23 _ _ _ _ _ _ _ rfl (by decide) (by decide) (by decide))
  have hR := after_binary eachR (launchContents m' c) 148 _ _ _ _ _ _ _ rfl (by decide) (by decide) (by decide)
  have E0 : after (Cert.KernelIdeal.Gen.hostOps2_2 (F := Ideal)) (Cert.KernelIdeal.Gen.V12 m outs c) (Proc.devRef .tc Cert.KernelIdeal.main_v108) = Rf m' c Cert.ReferenceIdeal.main_v108 :=
    (((Cert.KernelIdeal.Gen.V17_of m outs c Cert.KernelIdeal.main_v108 (by decide)).trans ((Cert.KernelIdeal.Gen.V16_of m outs c Cert.KernelIdeal.main_v108 (by decide)).trans ((Cert.KernelIdeal.Gen.V15_of m outs c Cert.KernelIdeal.main_v108 (by decide)).trans (Cert.KernelIdeal.Gen.V14_of m outs c Cert.KernelIdeal.main_v108 (by decide)))))).symm.trans (same_main_v108 m outs m' hag c h77 h78)
  have E1 : after (Cert.KernelIdeal.Gen.hostOps2_2 (F := Ideal)) (Cert.KernelIdeal.Gen.V12 m outs c) (Proc.devRef .tc Cert.KernelIdeal.main_v113) = Rf m' c Cert.ReferenceIdeal.main_v113 :=
    (((Cert.KernelIdeal.Gen.V17_of m outs c Cert.KernelIdeal.main_v113 (by decide)).trans ((Cert.KernelIdeal.Gen.V16_of m outs c Cert.KernelIdeal.main_v113 (by decide)).trans ((Cert.KernelIdeal.Gen.V15_of m outs c Cert.KernelIdeal.main_v113 (by decide)).trans (Cert.KernelIdeal.Gen.V14_of m outs c Cert.KernelIdeal.main_v113 (by decide)))))).symm.trans (same_main_v113 m outs m' hag c h77 h78)
  rw [E0, E1] at hK
  exact hK.trans hR.symm

theorem same_main_v115 : Cert.KernelIdeal.Gen.V17 m outs c Cert.KernelIdeal.main_v115 = Rf m' c Cert.ReferenceIdeal.main_v115 := by
  have hK := (((Cert.KernelIdeal.Gen.V17_of m outs c Cert.KernelIdeal.main_v115 (by decide)).trans ((Cert.KernelIdeal.Gen.V16_of m outs c Cert.KernelIdeal.main_v115 (by decide)).trans ((Cert.KernelIdeal.Gen.V15_of m outs c Cert.KernelIdeal.main_v115 (by decide)).trans (Cert.KernelIdeal.Gen.V14_of m outs c Cert.KernelIdeal.main_v115 (by decide)))))).trans (after_unary each_hostOps2_2 (Cert.KernelIdeal.Gen.V12 m outs c) 24 _ _ _ _ _ rfl (by decide) (by decide))
  have hR := after_unary eachR (launchContents m' c) 149 _ _ _ _ _ rfl (by decide) (by decide)
  have E0 : after (Cert.KernelIdeal.Gen.hostOps2_2 (F := Ideal)) (Cert.KernelIdeal.Gen.V12 m outs c) (Proc.devRef .tc Cert.KernelIdeal.main_arg9) = Rf m' c Cert.ReferenceIdeal.main_arg9 :=
    (((Cert.KernelIdeal.Gen.V17_of m outs c Cert.KernelIdeal.main_arg9 (by decide)).trans ((Cert.KernelIdeal.Gen.V16_of m outs c Cert.KernelIdeal.main_arg9 (by decide)).trans ((Cert.KernelIdeal.Gen.V15_of m outs c Cert.KernelIdeal.main_arg9 (by decide)).trans (Cert.KernelIdeal.Gen.V14_of m outs c Cert.KernelIdeal.main_arg9 (by decide)))))).symm.trans (same_main_arg9 m outs m' hag c)
  rw [E0] at hK
  exact hK.trans hR.symm

theorem same_main_v116 : Cert.KernelIdeal.Gen.V17 m outs c Cert.KernelIdeal.main_v116 = Rf m' c Cert.ReferenceIdeal.main_v116 := by
  have hK := (((Cert.KernelIdeal.Gen.V17_of m outs c Cert.KernelIdeal.main_v116 (by decide)).trans ((Cert.KernelIdeal.Gen.V16_of m outs c Cert.KernelIdeal.main_v116 (by decide)).trans ((Cert.KernelIdeal.Gen.V15_of m outs c Cert.KernelIdeal.main_v116 (by decide)).trans (Cert.KernelIdeal.Gen.V14_of m outs c Cert.KernelIdeal.main_v116 (by decide)))))).trans (after_unary each_hostOps2_2 (Cert.KernelIdeal.Gen.V12 m outs c) 25 _ _ _ _ _ rfl (by decide) (by decide))
  have hR := after_unary eachR (launchContents m' c) 150 _ _ _ _ _ rfl (by decide) (by decide)
  have E0 : after (Cert.KernelIdeal.Gen.hostOps2_2 (F := Ideal)) (Cert.KernelIdeal.Gen.V12 m outs c) (Proc.devRef .tc Cert.KernelIdeal.main_v115) = Rf m' c Cert.ReferenceIdeal.main_v115 :=
    (((Cert.KernelIdeal.Gen.V17_of m outs c Cert.KernelIdeal.main_v115 (by decide)).trans ((Cert.KernelIdeal.Gen.V16_of m outs c Cert.KernelIdeal.main_v115 (by decide)).trans ((Cert.KernelIdeal.Gen.V15_of m outs c Cert.KernelIdeal.main_v115 (by decide)).trans (Cert.KernelIdeal.Gen.V14_of m outs c Cert.KernelIdeal.main_v115 (by decide)))))).symm.trans (same_main_v115 m outs m' hag c h77 h78)
  rw [E0] at hK
  exact hK.trans hR.symm

theorem same_main_v117 : Cert.KernelIdeal.Gen.V17 m outs c Cert.KernelIdeal.main_v117 = Rf m' c Cert.ReferenceIdeal.main_v117 := by
  have hK := (((Cert.KernelIdeal.Gen.V17_of m outs c Cert.KernelIdeal.main_v117 (by decide)).trans ((Cert.KernelIdeal.Gen.V16_of m outs c Cert.KernelIdeal.main_v117 (by decide)).trans ((Cert.KernelIdeal.Gen.V15_of m outs c Cert.KernelIdeal.main_v117 (by decide)).trans (Cert.KernelIdeal.Gen.V14_of m outs c Cert.KernelIdeal.main_v117 (by decide)))))).trans (after_binary each_hostOps2_2 (Cert.KernelIdeal.Gen.V12 m outs c) 26 _ _ _ _ _ _ _ rfl (by decide) (by decide) (by decide))
  have hR := after_binary eachR (launchContents m' c) 151 _ _ _ _ _ _ _ rfl (by decide) (by decide) (by decide)
  have E0 : after (Cert.KernelIdeal.Gen.hostOps2_2 (F := Ideal)) (Cert.KernelIdeal.Gen.V12 m outs c) (Proc.devRef .tc Cert.KernelIdeal.main_v114) = Rf m' c Cert.ReferenceIdeal.main_v114 :=
    (((Cert.KernelIdeal.Gen.V17_of m outs c Cert.KernelIdeal.main_v114 (by decide)).trans ((Cert.KernelIdeal.Gen.V16_of m outs c Cert.KernelIdeal.main_v114 (by decide)).trans ((Cert.KernelIdeal.Gen.V15_of m outs c Cert.KernelIdeal.main_v114 (by decide)).trans (Cert.KernelIdeal.Gen.V14_of m outs c Cert.KernelIdeal.main_v114 (by decide)))))).symm.trans (same_main_v114 m outs m' hag c h77 h78)
  have E1 : after (Cert.KernelIdeal.Gen.hostOps2_2 (F := Ideal)) (Cert.KernelIdeal.Gen.V12 m outs c) (Proc.devRef .tc Cert.KernelIdeal.main_v116) = Rf m' c Cert.ReferenceIdeal.main_v116 :=
    (((Cert.KernelIdeal.Gen.V17_of m outs c Cert.KernelIdeal.main_v116 (by decide)).trans ((Cert.KernelIdeal.Gen.V16_of m outs c Cert.KernelIdeal.main_v116 (by decide)).trans ((Cert.KernelIdeal.Gen.V15_of m outs c Cert.KernelIdeal.main_v116 (by decide)).trans (Cert.KernelIdeal.Gen.V14_of m outs c Cert.KernelIdeal.main_v116 (by decide)))))).symm.trans (same_main_v116 m outs m' hag c h77 h78)
  rw [E0, E1] at hK
  exact hK.trans hR.symm

theorem same_main_v118 : Cert.KernelIdeal.Gen.V17 m outs c Cert.KernelIdeal.main_v118 = Rf m' c Cert.ReferenceIdeal.main_v118 := by
  have hK := (((Cert.KernelIdeal.Gen.V17_of m outs c Cert.KernelIdeal.main_v118 (by decide)).trans ((Cert.KernelIdeal.Gen.V16_of m outs c Cert.KernelIdeal.main_v118 (by decide)).trans ((Cert.KernelIdeal.Gen.V15_of m outs c Cert.KernelIdeal.main_v118 (by decide)).trans (Cert.KernelIdeal.Gen.V14_of m outs c Cert.KernelIdeal.main_v118 (by decide)))))).trans (after_unary each_hostOps2_2 (Cert.KernelIdeal.Gen.V12 m outs c) 27 _ _ _ _ _ rfl (by decide) (by decide))
  have hR := after_unary eachR (launchContents m' c) 152 _ _ _ _ _ rfl (by decide) (by decide)
  have E0 : after (Cert.KernelIdeal.Gen.hostOps2_2 (F := Ideal)) (Cert.KernelIdeal.Gen.V12 m outs c) (Proc.devRef .tc Cert.KernelIdeal.main_arg10) = Rf m' c Cert.ReferenceIdeal.main_arg10 :=
    (((Cert.KernelIdeal.Gen.V17_of m outs c Cert.KernelIdeal.main_arg10 (by decide)).trans ((Cert.KernelIdeal.Gen.V16_of m outs c Cert.KernelIdeal.main_arg10 (by decide)).trans ((Cert.KernelIdeal.Gen.V15_of m outs c Cert.KernelIdeal.main_arg10 (by decide)).trans (Cert.KernelIdeal.Gen.V14_of m outs c Cert.KernelIdeal.main_arg10 (by decide)))))).symm.trans (same_main_arg10 m outs m' hag c)
  rw [E0] at hK
  exact hK.trans hR.symm

theorem same_main_v119 : Cert.KernelIdeal.Gen.V17 m outs c Cert.KernelIdeal.main_v119 = Rf m' c Cert.ReferenceIdeal.main_v119 := by
  have hK := (((Cert.KernelIdeal.Gen.V17_of m outs c Cert.KernelIdeal.main_v119 (by decide)).trans ((Cert.KernelIdeal.Gen.V16_of m outs c Cert.KernelIdeal.main_v119 (by decide)).trans ((Cert.KernelIdeal.Gen.V15_of m outs c Cert.KernelIdeal.main_v119 (by decide)).trans (Cert.KernelIdeal.Gen.V14_of m outs c Cert.KernelIdeal.main_v119 (by decide)))))).trans (after_unary each_hostOps2_2 (Cert.KernelIdeal.Gen.V12 m outs c) 28 _ _ _ _ _ rfl (by decide) (by decide))
  have hR := after_unary eachR (launchContents m' c) 153 _ _ _ _ _ rfl (by decide) (by decide)
  have E0 : after (Cert.KernelIdeal.Gen.hostOps2_2 (F := Ideal)) (Cert.KernelIdeal.Gen.V12 m outs c) (Proc.devRef .tc Cert.KernelIdeal.main_v118) = Rf m' c Cert.ReferenceIdeal.main_v118 :=
    (((Cert.KernelIdeal.Gen.V17_of m outs c Cert.KernelIdeal.main_v118 (by decide)).trans ((Cert.KernelIdeal.Gen.V16_of m outs c Cert.KernelIdeal.main_v118 (by decide)).trans ((Cert.KernelIdeal.Gen.V15_of m outs c Cert.KernelIdeal.main_v118 (by decide)).trans (Cert.KernelIdeal.Gen.V14_of m outs c Cert.KernelIdeal.main_v118 (by decide)))))).symm.trans (same_main_v118 m outs m' hag c h77 h78)
  rw [E0] at hK
  exact hK.trans hR.symm

theorem same_main_v120 : Cert.KernelIdeal.Gen.V17 m outs c Cert.KernelIdeal.main_v120 = Rf m' c Cert.ReferenceIdeal.main_v120 := by
  have hK := (((Cert.KernelIdeal.Gen.V17_of m outs c Cert.KernelIdeal.main_v120 (by decide)).trans ((Cert.KernelIdeal.Gen.V16_of m outs c Cert.KernelIdeal.main_v120 (by decide)).trans ((Cert.KernelIdeal.Gen.V15_of m outs c Cert.KernelIdeal.main_v120 (by decide)).trans (Cert.KernelIdeal.Gen.V14_of m outs c Cert.KernelIdeal.main_v120 (by decide)))))).trans (after_binary each_hostOps2_2 (Cert.KernelIdeal.Gen.V12 m outs c) 29 _ _ _ _ _ _ _ rfl (by decide) (by decide) (by decide))
  have hR := after_binary eachR (launchContents m' c) 154 _ _ _ _ _ _ _ rfl (by decide) (by decide) (by decide)
  have E0 : after (Cert.KernelIdeal.Gen.hostOps2_2 (F := Ideal)) (Cert.KernelIdeal.Gen.V12 m outs c) (Proc.devRef .tc Cert.KernelIdeal.main_v117) = Rf m' c Cert.ReferenceIdeal.main_v117 :=
    (((Cert.KernelIdeal.Gen.V17_of m outs c Cert.KernelIdeal.main_v117 (by decide)).trans ((Cert.KernelIdeal.Gen.V16_of m outs c Cert.KernelIdeal.main_v117 (by decide)).trans ((Cert.KernelIdeal.Gen.V15_of m outs c Cert.KernelIdeal.main_v117 (by decide)).trans (Cert.KernelIdeal.Gen.V14_of m outs c Cert.KernelIdeal.main_v117 (by decide)))))).symm.trans (same_main_v117 m outs m' hag c h77 h78)
  have E1 : after (Cert.KernelIdeal.Gen.hostOps2_2 (F := Ideal)) (Cert.KernelIdeal.Gen.V12 m outs c) (Proc.devRef .tc Cert.KernelIdeal.main_v119) = Rf m' c Cert.ReferenceIdeal.main_v119 :=
    (((Cert.KernelIdeal.Gen.V17_of m outs c Cert.KernelIdeal.main_v119 (by decide)).trans ((Cert.KernelIdeal.Gen.V16_of m outs c Cert.KernelIdeal.main_v119 (by decide)).trans ((Cert.KernelIdeal.Gen.V15_of m outs c Cert.KernelIdeal.main_v119 (by decide)).trans (Cert.KernelIdeal.Gen.V14_of m outs c Cert.KernelIdeal.main_v119 (by decide)))))).symm.trans (same_main_v119 m outs m' hag c h77 h78)
  rw [E0, E1] at hK
  exact hK.trans hR.symm

theorem same_main_v121 : Cert.KernelIdeal.Gen.V17 m outs c Cert.KernelIdeal.main_v121 = Rf m' c Cert.ReferenceIdeal.main_v121 := by
  have hK := (((Cert.KernelIdeal.Gen.V17_of m outs c Cert.KernelIdeal.main_v121 (by decide)).trans ((Cert.KernelIdeal.Gen.V16_of m outs c Cert.KernelIdeal.main_v121 (by decide)).trans ((Cert.KernelIdeal.Gen.V15_of m outs c Cert.KernelIdeal.main_v121 (by decide)).trans (Cert.KernelIdeal.Gen.V14_of m outs c Cert.KernelIdeal.main_v121 (by decide)))))).trans (after_binary each_hostOps2_2 (Cert.KernelIdeal.Gen.V12 m outs c) 30 _ _ _ _ _ _ _ rfl (by decide) (by decide) (by decide))
  have hR := after_binary eachR (launchContents m' c) 155 _ _ _ _ _ _ _ rfl (by decide) (by decide) (by decide)
  have E0 : after (Cert.KernelIdeal.Gen.hostOps2_2 (F := Ideal)) (Cert.KernelIdeal.Gen.V12 m outs c) (Proc.devRef .tc Cert.KernelIdeal.main_v77) = Rf m' c Cert.ReferenceIdeal.main_v77 :=
    (((Cert.KernelIdeal.Gen.V17_of m outs c Cert.KernelIdeal.main_v77 (by decide)).trans ((Cert.KernelIdeal.Gen.V16_of m outs c Cert.KernelIdeal.main_v77 (by decide)).trans ((Cert.KernelIdeal.Gen.V15_of m outs c Cert.KernelIdeal.main_v77 (by decide)).trans (Cert.KernelIdeal.Gen.V14_of m outs c Cert.KernelIdeal.main_v77 (by decide)))))).symm.trans h77
  have E1 : after (Cert.KernelIdeal.Gen.hostOps2_2 (F := Ideal)) (Cert.KernelIdeal.Gen.V12 m outs c) (Proc.devRef .tc Cert.KernelIdeal.main_v120) = Rf m' c Cert.ReferenceIdeal.main_v120 :=
    (((Cert.KernelIdeal.Gen.V17_of m outs c Cert.KernelIdeal.main_v120 (by decide)).trans ((Cert.KernelIdeal.Gen.V16_of m outs c Cert.KernelIdeal.main_v120 (by decide)).trans ((Cert.KernelIdeal.Gen.V15_of m outs c Cert.KernelIdeal.main_v120 (by decide)).trans (Cert.KernelIdeal.Gen.V14_of m outs c Cert.KernelIdeal.main_v120 (by decide)))))).symm.trans (same_main_v120 m outs m' hag c h77 h78)
  rw [E0, E1] at hK
  exact hK.trans hR.symm

theorem same_main_v122 : Cert.KernelIdeal.Gen.V17 m outs c Cert.KernelIdeal.main_v122 = Rf m' c Cert.ReferenceIdeal.main_v122 := by
  have hK := (((Cert.KernelIdeal.Gen.V17_of m outs c Cert.KernelIdeal.main_v122 (by decide)).trans ((Cert.KernelIdeal.Gen.V16_of m outs c Cert.KernelIdeal.main_v122 (by decide)).trans ((Cert.KernelIdeal.Gen.V15_of m outs c Cert.KernelIdeal.main_v122 (by decide)).trans (Cert.KernelIdeal.Gen.V14_of m outs c Cert.KernelIdeal.main_v122 (by decide)))))).trans (after_unary each_hostOps2_2 (Cert.KernelIdeal.Gen.V12 m outs c) 31 _ _ _ _ _ rfl (by decide) (by decide))
  have hR := after_unary eachR (launchContents m' c) 156 _ _ _ _ _ rfl (by decide) (by decide)
  have E0 : after (Cert.KernelIdeal.Gen.hostOps2_2 (F := Ideal)) (Cert.KernelIdeal.Gen.V12 m outs c) (Proc.devRef .tc Cert.KernelIdeal.main_arg11) = Rf m' c Cert.ReferenceIdeal.main_arg11 :=
    (((Cert.KernelIdeal.Gen.V17_of m outs c Cert.KernelIdeal.main_arg11 (by decide)).trans ((Cert.KernelIdeal.Gen.V16_of m outs c Cert.KernelIdeal.main_arg11 (by decide)).trans ((Cert.KernelIdeal.Gen.V15_of m outs c Cert.KernelIdeal.main_arg11 (by decide)).trans (Cert.KernelIdeal.Gen.V14_of m outs c Cert.KernelIdeal.main_arg11 (by decide)))))).symm.trans (same_main_arg11 m outs m' hag c)
  rw [E0] at hK
  exact hK.trans hR.symm

end Cert.Same

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Ideal.Product.lean ====
/-
  The two rows-by-matrix products, as whole arrays. Each of the first two calls walks 50 grid points; point `t` multiplies
  rows 1000·t … 1000·t + 999 of a [50000,256] array by the whole of a [256,256] matrix and writes the 1000 product rows back
  to the same rows of the result. On the extended reals the change of float format before the product is the identity and
  the product into a zero accumulator is the plain sum over the contracted index, so entry (r, q) of the result array after
  the call is  ∑ k, x (r, k) · w (k, q)  of the two arrays the call is entered with: one payload entry, one block read
  where the result's rectangle says, the 50 blocks covering the array.
-/
import proofs.«178557_j80719615361183_1_alg».proof.Proof.Ideal.Block0
import proofs.«178557_j80719615361183_1_alg».proof.Proof.Ideal.Block1
import proofs.«178557_j80719615361183_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-- The product's dimension numbers contract the columns of the left operand with the rows of the right one. -/
theorem rowsByCols : Cert.LibDot.Plain dot_S1000x256_S256x256_S1000x256_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

/-- One entry of the first call's payload: row `p` of the rows block times column `q` of the matrix. -/
theorem k0_pay1_ix2 (a : Vec Ideal S1000x256 .f32) (b : Vec Ideal S256x256 .f32) (p : Fin 1000) (q : Fin 256) :
    k0_pay1 a b (ix2 p q) = ∑ k : Fin 256, a (ix2 p k) * b (ix2 k q) := by
  unfold k0_pay1
  exact Cert.LibDot.matmul_ix2 rowsByCols none _ _ p q

/-- One entry of the second call's payload. -/
theorem k1_pay1_ix2 (a : Vec Ideal S1000x256 .f32) (b : Vec Ideal S256x256 .f32) (p : Fin 1000) (q : Fin 256) :
    k1_pay1 a b (ix2 p q) = ∑ k : Fin 256, a (ix2 p k) * b (ix2 k q) := by
  unfold k1_pay1
  rw [shapeCast_self]
  exact Cert.LibDot.matmul_ix2 rowsByCols none _ _ p q

/-- The rows-by-matrix product of a [50000,256] array and a [256,256] matrix, entry by entry. -/
def rowsTimes (x : S50000x256.Idx → EReal) (w : S256x256.Idx → EReal) : S50000x256.Idx → EReal :=
  fun i => ∑ k : Fin 256, x (ix2 (n0 := 50000) (i 0) k) * w (ix2 (n1 := 256) k (i 1))

theorem zeros2 : (![0, 0] : Fin 2 → Nat) = fun _ => 0 := funext fun a => by fin_cases a <;> rfl

/-! ## The first product -/

variable (V : (c : Dev nD) → (b : Ref sig .tc) → Buf (Elt Ideal) ((c : Thread nD τ).loc b))

/-- The printed index maps of the first call over its 50 points: the rows operand and the result move together down the rows,
    the matrix stays, and nothing moves along the columns. -/
theorem index_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the two arrays the call is entered with. -/
theorem flushed0_eq (c : Dev nD) (t : Fin cfg0.N) :
    (dat0 (F := Ideal) V c).flushed 2 t
      = ((cfg0.win 2).blk t).view.read (Elt Ideal) (rowsTimes (V c main_arg0) (V c main_arg3)) := by
  show (cfg0.win 2).cut (grid0.coords t) ((dat0 V c).after 2 t) = _
  rw [dat0_after_out]
  unfold prod0
  rw [View.canon_unit_zero zeros2]
  simp only [View.ld_unit_zero (S := S1000x256) zeros2, View.ld_unit_zero (S := S256x256) zeros2]
  obtain ⟨e00, e01, e10, e11, e20, e21⟩ := index_facts0 t
  refine funext fun (j : S1000x256.Idx) => ?_
  obtain ⟨p, q, rfl⟩ : ∃ (p : Fin 1000) (q : Fin 256), j = ix2 p q := ⟨j 0, j 1, eq_ix2 j⟩
  show k0_pay1 (blk0 V c 0 t) (blk0 V c 1 t) (ix2 p q) = rowsTimes (V c main_arg0) (V c main_arg3) (((cfg0.win 2).blk t).view.emb (ix2 p q))
  refine (k0_pay1_ix2 _ _ p q).trans ?_
  unfold rowsTimes
  refine Finset.sum_congr rfl fun k _ => ?_
  have hrows : blk0 V c 0 t (ix2 p k)
      = (V c main_arg0 : S50000x256.Idx → EReal) (ix2 (n0 := 50000) ((((cfg0.win 2).blk t).view.emb (ix2 p q)) 0) k) := by
    show V c main_arg0 (((cfg0.win 0).blk t).view.emb (ix2 p k)) = V c main_arg0 _
    refine congrArg (V c main_arg0) ?_
    funext a; apply Fin.ext
    match a with
    | ⟨0, _⟩ => show win0_0.index t (0 : Fin 2) * 1000 + 1 * p.val = win0_2.index t (0 : Fin 2) * 1000 + 1 * p.val; omega
    | ⟨1, _⟩ => show win0_0.index t (1 : Fin 2) * 256 + 1 * k.val = k.val; omega
  have hmat : blk0 V c 1 t (ix2 k q)
      = (V c main_arg3 : S256x256.Idx → EReal) (ix2 (n1 := 256) k ((((cfg0.win 2).blk t).view.emb (ix2 p q)) 1)) := by
    show V c main_arg3 (((cfg0.win 1).blk t).view.emb (ix2 k q)) = V c main_arg3 _
    refine congrArg (V c main_arg3) ?_
    funext a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  rw [hrows, hmat]

/-- An index of the result array is in point `t`'s block iff each coordinate is in the block's range on its axis. -/
theorem mem_block0 (t : Fin cfg0.N) (i : S50000x256.Idx) :
    i ∈ ((cfg0.win 2).blk t).view.set ↔ ∀ a : Fin 2, win0_2.index t a * S1000x256.size a ≤ (i a).val
      ∧ (i a).val < win0_2.index t a * S1000x256.size a + S1000x256.size a := by
  show i ∈ ((View.whole main_v35).slice (win0_2.rect t)).set ↔ _
  rw [View.set_slice_whole, Rect.mem_set_unit]
  exact Iff.rfl

/-- Row `r` of the result is in the block of point `r / 1000`, and every point writes its block back. -/
theorem covered0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨e00, e01, e10, e11, e20, e21⟩ := index_facts0 t
  refine ⟨t, flush0_2 t, ?_⟩
  rw [mem_block0]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 256 ≤ (i 1).val ∧ (i 1).val < win0_2.index t (1 : Fin 2) * 256 + 256
    omega

/-- The result array after the first call is the product of the two arrays the call is entered with. -/
theorem product0_array (c : Dev nD) :
    (dat0 (F := Ideal) V c).arrAt 2 cfg0.N = rowsTimes (V c main_arg0) (V c main_arg3) :=
  (dat0 (F := Ideal) V c).arrAt_eq_of_cover 2 (rowsTimes (V c main_arg0) (V c main_arg3))
    (fun t _ => flushed0_eq V c t) covered0

/-- The first product, entry by entry: entry (r, q) of the result is row `r` of the rows operand times column `q` of the matrix. -/
theorem product0 (c : Dev nD) (r : Fin 50000) (q : Fin 256) :
    Eq (α := EReal) ((dat0 (F := Ideal) V c).arrAt 2 cfg0.N (ix2 r q))
      (∑ k : Fin 256, HMul.hMul (α := EReal) (β := EReal) (γ := EReal) (V c main_arg0 (ix2 r k)) (V c main_arg3 (ix2 k q))) :=
  congrFun (product0_array V c) (ix2 r q)

/-! ## The second product -/

/-- The printed index maps of the second call over its 50 points: the rows operand and the result move together down the rows,
    the matrix stays, and nothing moves along the columns. -/
theorem index_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the product of the two arrays the call is entered with. -/
theorem flushed1_eq (c : Dev nD) (t : Fin cfg1.N) :
    (dat1 (F := Ideal) V c).flushed 2 t
      = ((cfg1.win 2).blk t).view.read (Elt Ideal) (rowsTimes (V c main_v77) (V c main_arg5)) := by
  show (cfg1.win 2).cut (grid1.coords t) ((dat1 V c).after 2 t) = _
  rw [dat1_after_out]
  unfold prod1
  rw [View.canon_unit_zero zeros2]
  simp only [View.ld_unit_zero (S := S1000x256) zeros2, View.ld_unit_zero (S := S256x256) zeros2]
  obtain ⟨e00, e01, e10, e11, e20, e21⟩ := index_facts1 t
  refine funext fun (j : S1000x256.Idx) => ?_
  obtain ⟨p, q, rfl⟩ : ∃ (p : Fin 1000) (q : Fin 256), j = ix2 p q := ⟨j 0, j 1, eq_ix2 j⟩
  show k1_pay1 (blk1 V c 0 t) (blk1 V c 1 t) (ix2 p q) = rowsTimes (V c main_v77) (V c main_arg5) (((cfg1.win 2).blk t).view.emb (ix2 p q))
  refine (k1_pay1_ix2 _ _ p q).trans ?_
  unfold rowsTimes
  refine Finset.sum_congr rfl fun k _ => ?_
  have hrows : blk1 V c 0 t (ix2 p k)
      = (V c main_v77 : S50000x256.Idx → EReal) (ix2 (n0 := 50000) ((((cfg1.win 2).blk t).view.emb (ix2 p q)) 0) k) := by
    show V c main_v77 (((cfg1.win 0).blk t).view.emb (ix2 p k)) = V c main_v77 _
    refine congrArg (V c main_v77) ?_
    funext a; apply Fin.ext
    match a with
    | ⟨0, _⟩ => show win1_0.index t (0 : Fin 2) * 1000 + 1 * p.val = win1_2.index t (0 : Fin 2) * 1000 + 1 * p.val; omega
    | ⟨1, _⟩ => show win1_0.index t (1 : Fin 2) * 256 + 1 * k.val = k.val; omega
  have hmat : blk1 V c 1 t (ix2 k q)
      = (V c main_arg5 : S256x256.Idx → EReal) (ix2 (n1 := 256) k ((((cfg1.win 2).blk t).view.emb (ix2 p q)) 1)) := by
    show V c main_arg5 (((cfg1.win 1).blk t).view.emb (ix2 k q)) = V c main_arg5 _
    refine congrArg (V c main_arg5) ?_
    funext a; apply Fin.ext
    match a with
    | ⟨0, _⟩ => show win1_1.index t (0 : Fin 2) * 256 + 1 * k.val = k.val; omega
    | ⟨1, _⟩ => show win1_1.index t (1 : Fin 2) * 256 + 1 * q.val = win1_2.index t (1 : Fin 2) * 256 + 1 * q.val; omega
  rw [hrows, hmat]

/-- An index of the result array is in point `t`'s block iff each coordinate is in the block's range on its axis. -/
theorem mem_block1 (t : Fin cfg1.N) (i : S50000x256.Idx) :
    i ∈ ((cfg1.win 2).blk t).view.set ↔ ∀ a : Fin 2, win1_2.index t a * S1000x256.size a ≤ (i a).val
      ∧ (i a).val < win1_2.index t a * S1000x256.size a + S1000x256.size a := by
  show i ∈ ((View.whole main_v78).slice (win1_2.rect t)).set ↔ _
  rw [View.set_slice_whole, Rect.mem_set_unit]
  exact Iff.rfl

/-- Row `r` of the result is in the block of point `r / 1000`, and every point writes its block back. -/
theorem covered1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 50 := N_1
  obtain ⟨t, ht⟩ : ∃ t : Fin cfg1.N, t.val = (i 0).val / 1000 := ⟨⟨(i 0).val / 1000, by rw [hN]; omega⟩, rfl⟩
  obtain ⟨e00, e01, e10, e11, e20, e21⟩ := index_facts1 t
  refine ⟨t, flush1_2 t, ?_⟩
  rw [mem_block1]
  intro a
  match a with
  | ⟨0, _⟩ =>
    show win1_2.index t (0 : Fin 2) * 1000 ≤ (i 0).val ∧ (i 0).val < win1_2.index t (0 : Fin 2) * 1000 + 1000
    omega
  | ⟨1, _⟩ =>
    show win1_2.index t (1 : Fin 2) * 256 ≤ (i 1).val ∧ (i 1).val < win1_2.index t (1 : Fin 2) * 256 + 256
    omega

/-- The result array after the second call is the product of the two arrays the call is entered with. -/
theorem product1_array (c : Dev nD) :
    (dat1 (F := Ideal) V c).arrAt 2 cfg1.N = rowsTimes (V c main_v77) (V c main_arg5) :=
  (dat1 (F := Ideal) V c).arrAt_eq_of_cover 2 (rowsTimes (V c main_v77) (V c main_arg5))
    (fun t _ => flushed1_eq V c t) covered1

/-- The second product, entry by entry: entry (r, q) of the result is row `r` of the rows operand times column `q` of the matrix. -/
theorem product1 (c : Dev nD) (r : Fin 50000) (q : Fin 256) :
    Eq (α := EReal) ((dat1 (F := Ideal) V c).arrAt 2 cfg1.N (ix2 r q))
      (∑ k : Fin 256, HMul.hMul (α := EReal) (β := EReal) (γ := EReal) (V c main_v77 (ix2 r k)) (V c main_arg5 (ix2 k q))) :=
  congrFun (product1_array V c) (ix2 r q)

end Cert.KernelIdeal.Blocks

end
-- ==== Proof.Gate.lean ====
/-
  One recurrent step from a zero state, at one hidden unit.

  A row's 1024 gate pre-activations are laid out as four runs of 256: input gate, forget gate, cell candidate, output gate.
  From a zero cell state the forget gate multiplies zero and is never read, so hidden unit `q` is
      h = σ(o_q) · tanh(σ(i_q) · tanh(g_q)),   i_q = g q,  g_q = g (q + 512),  o_q = g (q + 768),
  with σ the logistic function and every operation the exact one on the extended reals.
-/
import Idealize.ShloMosaic.PureOps.Ideal

noncomputable section

namespace Cert.Gate

open Idealize.ShloMosaic

/-- The hidden state of unit `q` from the row's pre-activations `g`. -/
def hidden (g : Fin 1024 → EReal) (q : Fin 256) : EReal :=
  Ideal.logistic (g ⟨q.val + 768, by omega⟩) * Ideal.tanh (Ideal.logistic (g ⟨q.val, by omega⟩) * Ideal.tanh (g ⟨q.val + 512, by omega⟩))

end Cert.Gate

end
-- ==== Proof.Ideal.Cell.lean ====
/-
  One recurrent step from a zero state, as an array.

  Each of the two recurrent calls walks a grid of 50 points; point `t` takes rows 1000·t … 1000·t + 999 of the features `X`,
  the whole of the weights `W` and of the bias row `b`, and writes the same rows of the result. One entry of what a point stores
  is the gated hidden state (`Cert.Gate.hidden`) of that row's pre-activations `X · W + b`; the 50 row blocks tile the result
  array, so after the call entry (r, q) of the result is the hidden state of unit `q` from row `r` of `X · W + b`.
-/
import proofs.«178557_j80719615361183_1_alg».proof.Proof.Ideal.Block2
import proofs.«178557_j80719615361183_1_alg».proof.Proof.Ideal.Block3
import proofs.«178557_j80719615361183_1_alg».proof.Proof.Gate
import proofs.«178557_j80719615361183_1_alg».proof.Proof.LibDot
import Idealize.ShloMosaic.Lib.ValueIdx
import Idealize.ShloMosaic.Lib.Pipeline.Value
import Idealize.ShloMosaic.PureOps.Ideal.Laws

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.ShloMosaic.Pipeline (Dat)

/-! # What one grid point stores, entry by entry -/

/-- A slice of 256 columns starting at column `off`, read at row `p`, column `q`: the operand at column `q + off`. -/
theorem cols_apply (off : Nat) (v : S1000x1024.Idx → EReal) (h : S1000x1024.Slices ![0, off] S1000x256)
    (p : Fin 1000) (q : Fin 256) (hq : q.val + off < 1024) :
    extractStridedSlice S1000x256 ![0, off] v h (ix2 p q) = v (ix2 p (⟨q.val + off, hq⟩ : Fin 1024)) :=
  extractStridedSlice_apply _ v h _ _ (fun a => match a with
    | ⟨0, _⟩ => (Nat.zero_add _).symm
    | ⟨1, _⟩ => Nat.add_comm _ _)

/-- The bias row broadcast over the rows, read at row `p`, column `j`: the bias at column `j`. -/
theorem bias_rows_apply (b : S1x1024.Idx → EReal) (h : S1x1024.Broadcasts S1000x1024) (p : Fin 1000) (j : Fin 1024) :
    broadcastTo S1000x1024 b h (ix2 p j) = b (ix2 0 j) :=
  broadcastTo_apply b h _ _ (fun a => match a with
    | ⟨0, _⟩ => rfl
    | ⟨1, _⟩ => rfl)

theorem zeros2 : (![0, 0] : Fin 2 → Nat) = fun _ => 0 := funext fun a => by fin_cases a <;> rfl

variable (V : (c : Dev nD) → (b : Ref sig .tc) → Buf (Elt Ideal) ((c : Thread nD τ).loc b))

/-! # Call 2: the step over 512 features -/

/-- The product's dimension numbers contract the rows block's columns with the weights' rows. -/
theorem plain2 : Cert.LibDot.Plain dot_S1000x512_S512x1024_S1000x1024_1_0_0_1_n_n where
  hrank := rfl
  hs := rfl
  hl0 := fun _ _ => rfl
  hl1 := fun j k => dot_S1000x512_S512x1024_S1000x1024_1_0_0_1_n_n.lhsIdx_val_of_single rfl j k
  hr0 := fun j k => dot_S1000x512_S512x1024_S1000x1024_1_0_0_1_n_n.rhsIdx_val_of_single rfl j k
  hr1 := fun _ _ => rfl

/-- One entry of the point's result from a rows block `a`, the weights `w` and the bias row `b`: the gated hidden state of the
    row's pre-activations `a · w + b`. -/
theorem k2_pay1_apply (a : Vec Ideal S1000x512 .f32) (w : Vec Ideal S512x1024 .f32) (b : Vec Ideal S1x1024 .f32)
    (p : Fin 1000) (q : Fin 256) :
    k2_pay1 a w b (ix2 p q)
      = Cert.Gate.hidden (fun j => (∑ k : Fin 512, a (ix2 p k) * w (ix2 k j)) + b (ix2 0 j)) q := by
  unfold k2_pay1 Cert.Gate.hidden
  simp only [shapeCast_self]
  show Ideal.logistic (extractStridedSlice (s := S1000x1024) S1000x256 ![0, 768] _ _ (ix2 p q))
      * Ideal.tanh (Ideal.logistic (extractStridedSlice (s := S1000x1024) S1000x256 ![0, 0] _ _ (ix2 p q))
          * Ideal.tanh (extractStridedSlice (s := S1000x1024) S1000x256 ![0, 512] _ _ (ix2 p q))) = _
  rw [cols_apply 768 _ _ p q (by omega), cols_apply 0 _ _ p q (by omega), cols_apply 512 _ _ p q (by omega)]
  simp only [addf_apply, bias_rows_apply, Cert.LibDot.matmul_ix2 plain2, truncf_apply]
  rfl

/-- The result array of the step: entry (r, q) is the hidden state of unit `q` from row `r` of `X · W + b`. -/
def step2Of (X : S50000x512.Idx → EReal) (W : S512x1024.Idx → EReal) (b : S1x1024.Idx → EReal) : S50000x256.Idx → EReal :=
  fun i => Cert.Gate.hidden (fun j => (∑ k : Fin 512, X (ix2 (i 0) k) * W (ix2 k j)) + b (ix2 0 j)) (i 1)

/-- The grid has 50 points. -/
theorem point2_lt (t : Fin cfg2.N) : t.val < 50 := lt_of_lt_of_eq t.isLt N_2

/-- The block index maps over the grid: the features' and the result's blocks move down one block of rows per point,
    the weights' and the bias row's stay at the origin. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the features' block at point `t` is row `1000·t + p` of the features. -/
theorem rows2_apply (c : Dev nD) (t : Fin cfg2.N) (p : Fin 1000) (k : Fin 512) :
    (blk2 (F := Ideal) V c 0 t : S1000x512.Idx → EReal) (ix2 p k)
      = (V c main_v121 : S50000x512.Idx → EReal) (ix2 (⟨1000 * t.val + p.val, by have := point2_lt t; omega⟩ : Fin 50000) k) := by
  unfold blk2
  rw [View.read_apply]
  show V c main_v121 _ = V c main_v121 _
  refine congrArg (V c main_v121) (funext fun a => Fin.ext ?_)
  obtain ⟨e0, e1, -⟩ := index_facts2 t
  match a with
  | ⟨0, _⟩ => show win2_0.index t (0 : Fin 2) * 1000 + 1 * p.val = 1000 * t.val + p.val; omega
  | ⟨1, _⟩ => show win2_0.index t (1 : Fin 2) * 512 + 1 * k.val = k.val; omega

/-- The weights' block at every point is the weights. -/
theorem weights2_apply (c : Dev nD) (t : Fin cfg2.N) (k : Fin 512) (j : Fin 1024) :
    (blk2 (F := Ideal) V c 1 t : S512x1024.Idx → EReal) (ix2 k j) = (V c main_v122 : S512x1024.Idx → EReal) (ix2 k j) := by
  unfold blk2
  rw [View.read_apply]
  show V c main_v122 _ = V c main_v122 _
  refine congrArg (V c main_v122) (funext fun a => Fin.ext ?_)
  obtain ⟨-, -, e2, e3, -⟩ := index_facts2 t
  match a with
  | ⟨0, _⟩ => show win2_1.index t (0 : Fin 2) * 512 + 1 * k.val = k.val; omega
  | ⟨1, _⟩ => show win2_1.index t (1 : Fin 2) * 1024 + 1 * j.val = j.val; omega

/-- The bias row's block at every point is the bias row. -/
theorem bias2_apply (c : Dev nD) (t : Fin cfg2.N) (j : Fin 1024) :
    (blk2 (F := Ideal) V c 2 t : S1x1024.Idx → EReal) (ix2 0 j) = (V c main_v124 : S1x1024.Idx → EReal) (ix2 0 j) := by
  unfold blk2
  rw [View.read_apply]
  show V c main_v124 _ = V c main_v124 _
  refine congrArg (V c main_v124) (funext fun a => Fin.ext ?_)
  obtain ⟨-, -, -, -, e4, e5, -⟩ := index_facts2 t
  match a with
  | ⟨0, _⟩ => show win2_2.index t (0 : Fin 2) * 1 + 1 * 0 = 0; omega
  | ⟨1, _⟩ => show win2_2.index t (1 : Fin 2) * 1024 + 1 * j.val = j.val; omega

/-- What point `t` writes back is its block of rows of the step's result array. -/
theorem flushed2_eq (c : Dev nD) (t : Fin cfg2.N) :
    (dat2 (F := Ideal) V c).flushed 3 t
      = ((cfg2.win 3).blk t).view.read (Elt Ideal) (step2Of (V c main_v121) (V c main_v122) (V c main_v124)) := by
  show (cfg2.win 3).cut (grid2.coords t) ((dat2 V c).after 3 t) = _
  rw [dat2_after_out]
  unfold cell2
  rw [View.canon_unit_zero zeros2]
  simp only [View.ld_unit_zero (S := S1000x512) zeros2, View.ld_unit_zero (S := S512x1024) zeros2, View.ld_unit_zero (S := S1x1024) zeros2]
  obtain ⟨-, -, -, -, -, -, e6, e7⟩ := index_facts2 t
  have ht : t.val < 50 := point2_lt t
  funext y
  have hy0 : (y 0).val < 1000 := (y 0).isLt
  have hy1 : (y 1).val < 256 := (y 1).isLt
  have hy : (cfg2.win 3).xinj (grid2.coords t) y = ix2 (⟨(y 0).val, hy0⟩ : Fin 1000) (⟨(y 1).val, hy1⟩ : Fin 256) :=
    funext fun a => match a with | ⟨0, _⟩ => rfl | ⟨1, _⟩ => rfl
  have he : ((cfg2.win 3).blk t).view.emb y
      = ix2 (⟨1000 * t.val + (y 0).val, by omega⟩ : Fin 50000) (⟨(y 1).val, hy1⟩ : Fin 256) := by
    funext a; apply Fin.ext
    match a with
    | ⟨0, _⟩ => show win2_3.index t (0 : Fin 2) * 1000 + 1 * (y 0).val = 1000 * t.val + (y 0).val; omega
    | ⟨1, _⟩ => show win2_3.index t (1 : Fin 2) * 256 + 1 * (y 1).val = (y 1).val; omega
  show k2_pay1 (blk2 V c 0 t) (blk2 V c 1 t) (blk2 V c 2 t) ((cfg2.win 3).xinj (grid2.coords t) y) = _
  rw [hy, View.read_apply, he]
  refine (k2_pay1_apply _ _ _ _ _).trans ?_
  simp only [rows2_apply, weights2_apply, bias2_apply]
  rfl

/-- An entry of the result array is in point `t`'s block iff each coordinate is in the block's range on its axis. -/
theorem mem_rows2 (t : Fin cfg2.N) (i : S50000x256.Idx) :
    i ∈ ((cfg2.win 3).blk t).view.set
      ↔ ∀ a : Fin 2, win2_3.index t a * S1000x256.size a ≤ (i a).val ∧ (i a).val < win2_3.index t a * S1000x256.size a + S1000x256.size a := by
  show i ∈ ((View.whole main_v125).slice (win2_3.rect t)).set ↔ _
  rw [View.set_slice_whole, Rect.mem_set_unit]
  exact Iff.rfl

/-- Row `r` of the result array is in the block of point `r / 1000`, which is written back: the 50 row blocks tile the array. -/
theorem rows2_cover (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  have hN : (i 0).val / 1000 < cfg2.N := lt_of_lt_of_eq (show (i 0).val / 1000 < 50 by omega) N_2.symm
  obtain ⟨-, -, -, -, -, -, e6, e7⟩ := index_facts2 ⟨(i 0).val / 1000, hN⟩
  have e6' : win2_3.index ⟨(i 0).val / 1000, hN⟩ (0 : Fin 2) = (i 0).val / 1000 := e6
  refine ⟨⟨(i 0).val / 1000, hN⟩, flush2_3 _, ?_⟩
  rw [mem_rows2]
  intro a
  match a with
  | ⟨0, _⟩ =>
    show win2_3.index ⟨(i 0).val / 1000, hN⟩ (0 : Fin 2) * 1000 ≤ (i 0).val
      ∧ (i 0).val < win2_3.index ⟨(i 0).val / 1000, hN⟩ (0 : Fin 2) * 1000 + 1000
    omega
  | ⟨1, _⟩ =>
    show win2_3.index ⟨(i 0).val / 1000, hN⟩ (1 : Fin 2) * 256 ≤ (i 1).val
      ∧ (i 1).val < win2_3.index ⟨(i 0).val / 1000, hN⟩ (1 : Fin 2) * 256 + 256
    omega

/-- After the call the result array is the step's result array of the arrays the call was entered with. -/
theorem result2 (c : Dev nD) :
    (dat2 (F := Ideal) V c).arrAt 3 cfg2.N = step2Of (V c main_v121) (V c main_v122) (V c main_v124) :=
  (dat2 V c).arrAt_eq_of_cover 3 _ (fun t _ => flushed2_eq V c t) rows2_cover

/-- Entry (r, q) of the result array after the call: the hidden state of unit `q` from row `r` of `X · W + b`, for `X`, `W`, `b` the
    features, weights and bias row the call was entered with. -/
theorem step2 (c : Dev nD) (X : S50000x512.Idx → EReal) (W : S512x1024.Idx → EReal) (b : S1x1024.Idx → EReal)
    (hX : V c main_v121 = X) (hW : V c main_v122 = W) (hb : V c main_v124 = b) (r : Fin 50000) (q : Fin 256) :
    (dat2 (F := Ideal) V c).arrAt 3 cfg2.N (ix2 r q)
      = Cert.Gate.hidden (fun j => (∑ k : Fin 512, X (ix2 r k) * W (ix2 k j)) + b (ix2 0 j)) q := by
  subst hX hW hb
  rw [result2]
  rfl

/-! # Call 3: the step over 256 features -/

/-- The product's dimension numbers contract the rows block's columns with the weights' rows. -/
theorem plain3 : Cert.LibDot.Plain dot_S1000x256_S256x1024_S1000x1024_1_0_0_1_n_n where
  hrank := rfl
  hs := rfl
  hl0 := fun _ _ => rfl
  hl1 := fun j k => dot_S1000x256_S256x1024_S1000x1024_1_0_0_1_n_n.lhsIdx_val_of_single rfl j k
  hr0 := fun j k => dot_S1000x256_S256x1024_S1000x1024_1_0_0_1_n_n.rhsIdx_val_of_single rfl j k
  hr1 := fun _ _ => rfl

/-- One entry of the point's result from a rows block `a`, the weights `w` and the bias row `b`: the gated hidden state of the
    row's pre-activations `a · w + b`. -/
theorem k3_pay1_apply (a : Vec Ideal S1000x256 .f32) (w : Vec Ideal S256x1024 .f32) (b : Vec Ideal S1x1024 .f32)
    (p : Fin 1000) (q : Fin 256) :
    k3_pay1 a w b (ix2 p q)
      = Cert.Gate.hidden (fun j => (∑ k : Fin 256, a (ix2 p k) * w (ix2 k j)) + b (ix2 0 j)) q := by
  unfold k3_pay1 Cert.Gate.hidden
  simp only [shapeCast_self]
  show Ideal.logistic (extractStridedSlice (s := S1000x1024) S1000x256 ![0, 768] _ _ (ix2 p q))
      * Ideal.tanh (Ideal.logistic (extractStridedSlice (s := S1000x1024) S1000x256 ![0, 0] _ _ (ix2 p q))
          * Ideal.tanh (extractStridedSlice (s := S1000x1024) S1000x256 ![0, 512] _ _ (ix2 p q))) = _
  rw [cols_apply 768 _ _ p q (by omega), cols_apply 0 _ _ p q (by omega), cols_apply 512 _ _ p q (by omega)]
  simp only [addf_apply, bias_rows_apply, Cert.LibDot.matmul_ix2 plain3, truncf_apply]
  rfl

/-- The result array of the step: entry (r, q) is the hidden state of unit `q` from row `r` of `X · W + b`. -/
def step3Of (X : S50000x256.Idx → EReal) (W : S256x1024.Idx → EReal) (b : S1x1024.Idx → EReal) : S50000x256.Idx → EReal :=
  fun i => Cert.Gate.hidden (fun j => (∑ k : Fin 256, X (ix2 (i 0) k) * W (ix2 k j)) + b (ix2 0 j)) (i 1)

/-- The grid has 50 points. -/
theorem point3_lt (t : Fin cfg3.N) : t.val < 50 := lt_of_lt_of_eq t.isLt N_3

/-- The block index maps over the grid: the features' and the result's blocks move down one block of rows per point,
    the weights' and the bias row's stay at the origin. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of the features' block at point `t` is row `1000·t + p` of the features. -/
theorem rows3_apply (c : Dev nD) (t : Fin cfg3.N) (p : Fin 1000) (k : Fin 256) :
    (blk3 (F := Ideal) V c 0 t : S1000x256.Idx → EReal) (ix2 p k)
      = (V c main_v125 : S50000x256.Idx → EReal) (ix2 (⟨1000 * t.val + p.val, by have := point3_lt t; omega⟩ : Fin 50000) k) := by
  unfold blk3
  rw [View.read_apply]
  show V c main_v125 _ = V c main_v125 _
  refine congrArg (V c main_v125) (funext fun a => Fin.ext ?_)
  obtain ⟨e0, e1, -⟩ := index_facts3 t
  match a with
  | ⟨0, _⟩ => show win3_0.index t (0 : Fin 2) * 1000 + 1 * p.val = 1000 * t.val + p.val; omega
  | ⟨1, _⟩ => show win3_0.index t (1 : Fin 2) * 256 + 1 * k.val = k.val; omega

/-- The weights' block at every point is the weights. -/
theorem weights3_apply (c : Dev nD) (t : Fin cfg3.N) (k : Fin 256) (j : Fin 1024) :
    (blk3 (F := Ideal) V c 1 t : S256x1024.Idx → EReal) (ix2 k j) = (V c main_v126 : S256x1024.Idx → EReal) (ix2 k j) := by
  unfold blk3
  rw [View.read_apply]
  show V c main_v126 _ = V c main_v126 _
  refine congrArg (V c main_v126) (funext fun a => Fin.ext ?_)
  obtain ⟨-, -, e2, e3, -⟩ := index_facts3 t
  match a with
  | ⟨0, _⟩ => show win3_1.index t (0 : Fin 2) * 256 + 1 * k.val = k.val; omega
  | ⟨1, _⟩ => show win3_1.index t (1 : Fin 2) * 1024 + 1 * j.val = j.val; omega

/-- The bias row's block at every point is the bias row. -/
theorem bias3_apply (c : Dev nD) (t : Fin cfg3.N) (j : Fin 1024) :
    (blk3 (F := Ideal) V c 2 t : S1x1024.Idx → EReal) (ix2 0 j) = (V c main_v128 : S1x1024.Idx → EReal) (ix2 0 j) := by
  unfold blk3
  rw [View.read_apply]
  show V c main_v128 _ = V c main_v128 _
  refine congrArg (V c main_v128) (funext fun a => Fin.ext ?_)
  obtain ⟨-, -, -, -, e4, e5, -⟩ := index_facts3 t
  match a with
  | ⟨0, _⟩ => show win3_2.index t (0 : Fin 2) * 1 + 1 * 0 = 0; omega
  | ⟨1, _⟩ => show win3_2.index t (1 : Fin 2) * 1024 + 1 * j.val = j.val; omega

/-- What point `t` writes back is its block of rows of the step's result array. -/
theorem flushed3_eq (c : Dev nD) (t : Fin cfg3.N) :
    (dat3 (F := Ideal) V c).flushed 3 t
      = ((cfg3.win 3).blk t).view.read (Elt Ideal) (step3Of (V c main_v125) (V c main_v126) (V c main_v128)) := by
  show (cfg3.win 3).cut (grid3.coords t) ((dat3 V c).after 3 t) = _
  rw [dat3_after_out]
  unfold cell3
  rw [View.canon_unit_zero zeros2]
  simp only [View.ld_unit_zero (S := S1000x256) zeros2, View.ld_unit_zero (S := S256x1024) zeros2, View.ld_unit_zero (S := S1x1024) zeros2]
  obtain ⟨-, -, -, -, -, -, e6, e7⟩ := index_facts3 t
  have ht : t.val < 50 := point3_lt t
  funext y
  have hy0 : (y 0).val < 1000 := (y 0).isLt
  have hy1 : (y 1).val < 256 := (y 1).isLt
  have hy : (cfg3.win 3).xinj (grid3.coords t) y = ix2 (⟨(y 0).val, hy0⟩ : Fin 1000) (⟨(y 1).val, hy1⟩ : Fin 256) :=
    funext fun a => match a with | ⟨0, _⟩ => rfl | ⟨1, _⟩ => rfl
  have he : ((cfg3.win 3).blk t).view.emb y
      = ix2 (⟨1000 * t.val + (y 0).val, by omega⟩ : Fin 50000) (⟨(y 1).val, hy1⟩ : Fin 256) := by
    funext a; apply Fin.ext
    match a with
    | ⟨0, _⟩ => show win3_3.index t (0 : Fin 2) * 1000 + 1 * (y 0).val = 1000 * t.val + (y 0).val; omega
    | ⟨1, _⟩ => show win3_3.index t (1 : Fin 2) * 256 + 1 * (y 1).val = (y 1).val; omega
  show k3_pay1 (blk3 V c 0 t) (blk3 V c 1 t) (blk3 V c 2 t) ((cfg3.win 3).xinj (grid3.coords t) y) = _
  rw [hy, View.read_apply, he]
  refine (k3_pay1_apply _ _ _ _ _).trans ?_
  simp only [rows3_apply, weights3_apply, bias3_apply]
  rfl

/-- An entry of the result array is in point `t`'s block iff each coordinate is in the block's range on its axis. -/
theorem mem_rows3 (t : Fin cfg3.N) (i : S50000x256.Idx) :
    i ∈ ((cfg3.win 3).blk t).view.set
      ↔ ∀ a : Fin 2, win3_3.index t a * S1000x256.size a ≤ (i a).val ∧ (i a).val < win3_3.index t a * S1000x256.size a + S1000x256.size a := by
  show i ∈ ((View.whole main_v129).slice (win3_3.rect t)).set ↔ _
  rw [View.set_slice_whole, Rect.mem_set_unit]
  exact Iff.rfl

/-- Row `r` of the result array is in the block of point `r / 1000`, which is written back: the 50 row blocks tile the array. -/
theorem rows3_cover (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  have hN : (i 0).val / 1000 < cfg3.N := lt_of_lt_of_eq (show (i 0).val / 1000 < 50 by omega) N_3.symm
  obtain ⟨-, -, -, -, -, -, e6, e7⟩ := index_facts3 ⟨(i 0).val / 1000, hN⟩
  have e6' : win3_3.index ⟨(i 0).val / 1000, hN⟩ (0 : Fin 2) = (i 0).val / 1000 := e6
  refine ⟨⟨(i 0).val / 1000, hN⟩, flush3_3 _, ?_⟩
  rw [mem_rows3]
  intro a
  match a with
  | ⟨0, _⟩ =>
    show win3_3.index ⟨(i 0).val / 1000, hN⟩ (0 : Fin 2) * 1000 ≤ (i 0).val
      ∧ (i 0).val < win3_3.index ⟨(i 0).val / 1000, hN⟩ (0 : Fin 2) * 1000 + 1000
    omega
  | ⟨1, _⟩ =>
    show win3_3.index ⟨(i 0).val / 1000, hN⟩ (1 : Fin 2) * 256 ≤ (i 1).val
      ∧ (i 1).val < win3_3.index ⟨(i 0).val / 1000, hN⟩ (1 : Fin 2) * 256 + 256
    omega

/-- After the call the result array is the step's result array of the arrays the call was entered with. -/
theorem result3 (c : Dev nD) :
    (dat3 (F := Ideal) V c).arrAt 3 cfg3.N = step3Of (V c main_v125) (V c main_v126) (V c main_v128) :=
  (dat3 V c).arrAt_eq_of_cover 3 _ (fun t _ => flushed3_eq V c t) rows3_cover

/-- Entry (r, q) of the result array after the call: the hidden state of unit `q` from row `r` of `X · W + b`, for `X`, `W`, `b` the
    features, weights and bias row the call was entered with. -/
theorem step3 (c : Dev nD) (X : S50000x256.Idx → EReal) (W : S256x1024.Idx → EReal) (b : S1x1024.Idx → EReal)
    (hX : V c main_v125 = X) (hW : V c main_v126 = W) (hb : V c main_v128 = b) (r : Fin 50000) (q : Fin 256) :
    (dat3 (F := Ideal) V c).arrAt 3 cfg3.N (ix2 r q)
      = Cert.Gate.hidden (fun j => (∑ k : Fin 256, X (ix2 r k) * W (ix2 k j)) + b (ix2 0 j)) q := by
  subst hX hW hb
  rw [result3]
  rfl

end Cert.KernelIdeal.Blocks

end
-- ==== Proof.RefGates.lean ====
/-
  The reference's recurrent step after its matrix product: both bias vectors broadcast over the rows and added one after the other,
  the four gate runs sliced out, the logistic function spelt 1 / (1 + exp(−x)) with broadcast constants, and
  σ(o) · tanh(σ(i) · tanh(g)) — as one function of the product `D` and the two bias vectors, operation by operation as the program
  prints them.
-/
import proofs.«178557_j80719615361183_1_alg».proof.Proof.Gen.ReferenceIdeal

noncomputable section

namespace Cert.ReferenceIdeal.Step

open Cert.ReferenceIdeal Cert.ReferenceIdeal.Gen Idealize.ShloMosaic

variable {F : FTy → Type} [FloatOps F]

/-- The hidden state from the product and the two bias vectors. -/
def gates (D : FVec F S50000x1024 .f32) (b1 b2 : FVec F S1024 .f32) : FVec F S50000x256 .f32 :=
  have v124 : FVec F S1x1024 .f32 := ((broadcastInDim S1x1024 ![1] bcast_S1024_S1x1024_1 : (⟨S1024, .f32⟩ : BufTy).Contents (Elt F) → (⟨S1x1024, .f32⟩ : BufTy).Contents (Elt F))) b1
  have v125 : FVec F S50000x1024 .f32 := ((broadcastInDim S50000x1024 ![0, 1] bcast_S1x1024_S50000x1024_0_1 : (⟨S1x1024, .f32⟩ : BufTy).Contents (Elt F) → (⟨S50000x1024, .f32⟩ : BufTy).Contents (Elt F))) v124
  have v126 : FVec F S50000x1024 .f32 := ((addf : (⟨S50000x1024, .f32⟩ : BufTy).Contents (Elt F) → (⟨S50000x1024, .f32⟩ : BufTy).Contents (Elt F) → (⟨S50000x1024, .f32⟩ : BufTy).Contents (Elt F))) D v125
  have v127 : FVec F S1x1024 .f32 := ((broadcastInDim S1x1024 ![1] bcast_S1024_S1x1024_1 : (⟨S1024, .f32⟩ : BufTy).Contents (Elt F) → (⟨S1x1024, .f32⟩ : BufTy).Contents (Elt F))) b2
  have v128 : FVec F S50000x1024 .f32 := ((broadcastInDim S50000x1024 ![0, 1] bcast_S1x1024_S50000x1024_0_1 : (⟨S1x1024, .f32⟩ : BufTy).Contents (Elt F) → (⟨S50000x1024, .f32⟩ : BufTy).Contents (Elt F))) v127
  have v129 : FVec F S50000x1024 .f32 := ((addf : (⟨S50000x1024, .f32⟩ : BufTy).Contents (Elt F) → (⟨S50000x1024, .f32⟩ : BufTy).Contents (Elt F) → (⟨S50000x1024, .f32⟩ : BufTy).Contents (Elt F))) v126 v128
  have v130 : FVec F S50000x256 .f32 := (((extractStridedSlice S50000x256 ![0, 0] · slices_S50000x1024_S50000x256_0_0) : (⟨S50000x1024, .f32⟩ : BufTy).Contents (Elt F) → (⟨S50000x256, .f32⟩ : BufTy).Contents (Elt F))) v129
  have v131 : FVec F S50000x256 .f32 := (((extractStridedSlice S50000x256 ![0, 256] · slices_S50000x1024_S50000x256_0_256) : (⟨S50000x1024, .f32⟩ : BufTy).Contents (Elt F) → (⟨S50000x256, .f32⟩ : BufTy).Contents (Elt F))) v129
  have v132 : FVec F S50000x256 .f32 := (((extractStridedSlice S50000x256 ![0, 512] · slices_S50000x1024_S50000x256_0_512) : (⟨S50000x1024, .f32⟩ : BufTy).Contents (Elt F) → (⟨S50000x256, .f32⟩ : BufTy).Contents (Elt F))) v129
  have v133 : FVec F S50000x256 .f32 := (((extractStridedSlice S50000x256 ![0, 768] · slices_S50000x1024_S50000x256_0_768) : (⟨S50000x1024, .f32⟩ : BufTy).Contents (Elt F) → (⟨S50000x256, .f32⟩ : BufTy).Contents (Elt F))) v129
  have v134 : FVec F S50000x256 .f32 := ((Host.negf : (⟨S50000x256, .f32⟩ : BufTy).Contents (Elt F) → (⟨S50000x256, .f32⟩ : BufTy).Contents (Elt F))) v130
  have v135 : FVec F S50000x256 .f32 := ((Host.exp : (⟨S50000x256, .f32⟩ : BufTy).Contents (Elt F) → (⟨S50000x256, .f32⟩ : BufTy).Contents (Elt F))) v134
  have cst_24 : FVec F S_ .f32 := (constant S_ .f32 0x3F800000#32)
  have v136 : FVec F S50000x256 .f32 := ((broadcastInDim S50000x256 ![] bcast_S_S50000x256 : (⟨S_, .f32⟩ : BufTy).Contents (Elt F) → (⟨S50000x256, .f32⟩ : BufTy).Contents (Elt F))) cst_24
  have v137 : FVec F S50000x256 .f32 := ((addf : (⟨S50000x256, .f32⟩ : BufTy).Contents (Elt F) → (⟨S50000x256, .f32⟩ : BufTy).Contents (Elt F) → (⟨S50000x256, .f32⟩ : BufTy).Contents (Elt F))) v136 v135
  have cst_25 : FVec F S_ .f32 := (constant S_ .f32 0x3F800000#32)
  have v138 : FVec F S50000x256 .f32 := ((broadcastInDim S50000x256 ![] bcast_S_S50000x256 : (⟨S_, .f32⟩ : BufTy).Contents (Elt F) → (⟨S50000x256, .f32⟩ : BufTy).Contents (Elt F))) cst_25
  have v139 : FVec F S50000x256 .f32 := ((Host.divf : (⟨S50000x256, .f32⟩ : BufTy).Contents (Elt F) → (⟨S50000x256, .f32⟩ : BufTy).Contents (Elt F) → (⟨S50000x256, .f32⟩ : BufTy).Contents (Elt F))) v138 v137
  have v140 : FVec F S50000x256 .f32 := ((Host.tanh : (⟨S50000x256, .f32⟩ : BufTy).Contents (Elt F) → (⟨S50000x256, .f32⟩ : BufTy).Contents (Elt F))) v132
  have v141 : FVec F S50000x256 .f32 := ((mulf : (⟨S50000x256, .f32⟩ : BufTy).Contents (Elt F) → (⟨S50000x256, .f32⟩ : BufTy).Contents (Elt F) → (⟨S50000x256, .f32⟩ : BufTy).Contents (Elt F))) v139 v140
  have v142 : FVec F S50000x256 .f32 := ((Host.negf : (⟨S50000x256, .f32⟩ : BufTy).Contents (Elt F) → (⟨S50000x256, .f32⟩ : BufTy).Contents (Elt F))) v133
  have v143 : FVec F S50000x256 .f32 := ((Host.exp : (⟨S50000x256, .f32⟩ : BufTy).Contents (Elt F) → (⟨S50000x256, .f32⟩ : BufTy).Contents (Elt F))) v142
  have cst_26 : FVec F S_ .f32 := (constant S_ .f32 0x3F800000#32)
  have v144 : FVec F S50000x256 .f32 := ((broadcastInDim S50000x256 ![] bcast_S_S50000x256 : (⟨S_, .f32⟩ : BufTy).Contents (Elt F) → (⟨S50000x256, .f32⟩ : BufTy).Contents (Elt F))) cst_26
  have v145 : FVec F S50000x256 .f32 := ((addf : (⟨S50000x256, .f32⟩ : BufTy).Contents (Elt F) → (⟨S50000x256, .f32⟩ : BufTy).Contents (Elt F) → (⟨S50000x256, .f32⟩ : BufTy).Contents (Elt F))) v144 v143
  have cst_27 : FVec F S_ .f32 := (constant S_ .f32 0x3F800000#32)
  have v146 : FVec F S50000x256 .f32 := ((broadcastInDim S50000x256 ![] bcast_S_S50000x256 : (⟨S_, .f32⟩ : BufTy).Contents (Elt F) → (⟨S50000x256, .f32⟩ : BufTy).Contents (Elt F))) cst_27
  have v147 : FVec F S50000x256 .f32 := ((Host.divf : (⟨S50000x256, .f32⟩ : BufTy).Contents (Elt F) → (⟨S50000x256, .f32⟩ : BufTy).Contents (Elt F) → (⟨S50000x256, .f32⟩ : BufTy).Contents (Elt F))) v146 v145
  have v148 : FVec F S50000x256 .f32 := ((Host.tanh : (⟨S50000x256, .f32⟩ : BufTy).Contents (Elt F) → (⟨S50000x256, .f32⟩ : BufTy).Contents (Elt F))) v141
  have v149 : FVec F S50000x256 .f32 := ((mulf : (⟨S50000x256, .f32⟩ : BufTy).Contents (Elt F) → (⟨S50000x256, .f32⟩ : BufTy).Contents (Elt F) → (⟨S50000x256, .f32⟩ : BufTy).Contents (Elt F))) v147 v148
  v149

end Cert.ReferenceIdeal.Step

end
-- ==== Proof.RefGatesAt.lean ====
/-
  The reference's recurrent step read at one entry. Both bias vectors are laid out as a one-row matrix, repeated down the rows and
  added to the product, so entry (r, j) of the pre-activations is (D (r, j) + b1 j) + b2 j. The four column slices read runs
  0, 256, 512 and 768 of that row (the run at 256, the forget gate, is never used: it would multiply a zero cell state). The
  pattern 0x3F800000 is the number one, so 1 / (1 + exp (−x)) with broadcast constants is the logistic function, and every
  remaining operation acts entry by entry: entry (r, q) of the result is σ(o_q) · tanh(σ(i_q) · tanh(g_q)) of row r.
-/
import proofs.«178557_j80719615361183_1_alg».proof.Proof.RefGates
import proofs.«178557_j80719615361183_1_alg».proof.Proof.Gate
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Step

open Cert.ReferenceIdeal Cert.ReferenceIdeal.Gen Idealize.ShloMosaic Idealize.ShloMosaic.ValueIdx

/-- The pattern 0x3F800000 is the number one. -/
theorem one_f32 : Ideal.ofBits .f32 0x3F800000#32 = 1 := by
  simp [Ideal.ofBits, Ideal.ieee, -EReal.coe_mul]; norm_num

/-- The constant one broadcast over the [50000,256] array is one at every entry. -/
theorem ones_apply (j : S50000x256.Idx) :
    broadcastInDim S50000x256 ![] bcast_S_S50000x256 (constant (F := Ideal) S_ .f32 0x3F800000#32) j = 1 :=
  (broadcastInDim_apply _ _ _ j ix0 (fun a => a.elim0)).trans one_f32

/-- A bias vector laid out as a one-row matrix: entry (0, j) is entry j. -/
theorem bias_row_apply (b : S1024.Idx → EReal) (j : Fin 1024) :
    broadcastInDim S1x1024 ![1] bcast_S1024_S1x1024_1 b (ix2 (0 : Fin 1) j) = b (ix1 j) :=
  broadcastInDim_apply _ _ _ _ (ix1 j) (fun a => by
    match a with
    | ⟨0, _⟩ => rfl)

/-- A one-row matrix repeated down the 50000 rows: entry (r, j) is entry (0, j) of the row. -/
theorem bias_rows_apply (v : S1x1024.Idx → EReal) (r : Fin 50000) (j : Fin 1024) :
    broadcastInDim S50000x1024 ![0, 1] bcast_S1x1024_S50000x1024_0_1 v (ix2 r j) = v (ix2 (0 : Fin 1) j) :=
  broadcastInDim_apply _ _ _ _ (ix2 (0 : Fin 1) j) (fun a => by
    match a with
    | ⟨0, _⟩ => rfl
    | ⟨1, _⟩ => rfl)

/-- The gate arithmetic on an array `P` of pre-activations, read at entry (r, q): the three runs of `P`'s row `r` that are
    read, the constant ones, and the logistic function spelt 1 / (1 + exp (−x)). -/
theorem gates_of_preactivations (P : FVec Ideal S50000x1024 .f32) (r : Fin 50000) (q : Fin 256) :
    mulf
      (Host.divf (broadcastInDim S50000x256 ![] bcast_S_S50000x256 (constant (F := Ideal) S_ .f32 0x3F800000#32))
        (addf (broadcastInDim S50000x256 ![] bcast_S_S50000x256 (constant (F := Ideal) S_ .f32 0x3F800000#32))
          (Host.exp (Host.negf (extractStridedSlice S50000x256 ![0, 768] P slices_S50000x1024_S50000x256_0_768)))))
      (Host.tanh
        (mulf
          (Host.divf (broadcastInDim S50000x256 ![] bcast_S_S50000x256 (constant (F := Ideal) S_ .f32 0x3F800000#32))
            (addf (broadcastInDim S50000x256 ![] bcast_S_S50000x256 (constant (F := Ideal) S_ .f32 0x3F800000#32))
              (Host.exp (Host.negf (extractStridedSlice S50000x256 ![0, 0] P slices_S50000x1024_S50000x256_0_0)))))
          (Host.tanh (extractStridedSlice S50000x256 ![0, 512] P slices_S50000x1024_S50000x256_0_512))))
      (ix2 r q)
    = Cert.Gate.hidden (fun j => P (ix2 r j)) q := by
  have hs768 : extractStridedSlice S50000x256 ![0, 768] P slices_S50000x1024_S50000x256_0_768 (ix2 r q)
      = P (ix2 r (⟨q.val + 768, by omega⟩ : Fin 1024)) :=
    slice2_axis1_apply 768 P _ r q ⟨q.val + 768, by omega⟩ (Nat.add_comm _ _)
  have hs512 : extractStridedSlice S50000x256 ![0, 512] P slices_S50000x1024_S50000x256_0_512 (ix2 r q)
      = P (ix2 r (⟨q.val + 512, by omega⟩ : Fin 1024)) :=
    slice2_axis1_apply 512 P _ r q ⟨q.val + 512, by omega⟩ (Nat.add_comm _ _)
  have hs0 : extractStridedSlice S50000x256 ![0, 0] P slices_S50000x1024_S50000x256_0_0 (ix2 r q)
      = P (ix2 r (⟨q.val, by omega⟩ : Fin 1024)) :=
    slice2_axis1_apply 0 P _ r q ⟨q.val, by omega⟩ (Nat.zero_add _).symm
  show Ideal.div (broadcastInDim S50000x256 ![] bcast_S_S50000x256 (constant (F := Ideal) S_ .f32 0x3F800000#32) (ix2 r q))
        (broadcastInDim S50000x256 ![] bcast_S_S50000x256 (constant (F := Ideal) S_ .f32 0x3F800000#32) (ix2 r q)
          + Ideal.exp (-(extractStridedSlice S50000x256 ![0, 768] P slices_S50000x1024_S50000x256_0_768 (ix2 r q))))
      * Ideal.tanh
        (Ideal.div (broadcastInDim S50000x256 ![] bcast_S_S50000x256 (constant (F := Ideal) S_ .f32 0x3F800000#32) (ix2 r q))
            (broadcastInDim S50000x256 ![] bcast_S_S50000x256 (constant (F := Ideal) S_ .f32 0x3F800000#32) (ix2 r q)
              + Ideal.exp (-(extractStridedSlice S50000x256 ![0, 0] P slices_S50000x1024_S50000x256_0_0 (ix2 r q))))
          * Ideal.tanh (extractStridedSlice S50000x256 ![0, 512] P slices_S50000x1024_S50000x256_0_512 (ix2 r q)))
    = _
  rw [ones_apply, hs768, hs512, hs0]
  rfl

/-- The hidden state the reference computes, entry by entry: the one-step gate arithmetic of the product's row plus both bias vectors. -/
theorem gates_apply (D : S50000x1024.Idx → EReal) (b1 b2 : S1024.Idx → EReal) (r : Fin 50000) (q : Fin 256) :
    gates (F := Ideal) D b1 b2 (ix2 r q) = Cert.Gate.hidden (fun j => (D (ix2 r j) + b1 (ix1 j)) + b2 (ix1 j)) q := by
  unfold gates
  refine (gates_of_preactivations _ r q).trans ?_
  refine congrArg (fun g => Cert.Gate.hidden g q) (funext fun j => ?_)
  show (D (ix2 r j)
        + broadcastInDim S50000x1024 ![0, 1] bcast_S1x1024_S50000x1024_0_1 (broadcastInDim S1x1024 ![1] bcast_S1024_S1x1024_1 b1) (ix2 r j))
      + broadcastInDim S50000x1024 ![0, 1] bcast_S1x1024_S50000x1024_0_1 (broadcastInDim S1x1024 ![1] bcast_S1024_S1x1024_1 b2) (ix2 r j)
    = _
  rw [bias_rows_apply, bias_row_apply, bias_rows_apply, bias_row_apply]

end Cert.ReferenceIdeal.Step

end
-- ==== Proof.Laws.lean ====
/-
  The pure laws that join each kernel call's closed form to the reference's own operations, on the extended reals.

  The reference's matrix products are the plain sums over the contracted index; the kernel's bias row, the two bias vectors added
  and viewed as one row, is their entrywise sum; and one recurrent step from a zero state computes the same array whether the
  two bias vectors are added first and then to the product (the kernel's order) or one after the other onto the product (the
  reference's): addition on the extended reals is associative.
-/
import proofs.«178557_j80719615361183_1_alg».proof.Proof.Ideal.Product
import proofs.«178557_j80719615361183_1_alg».proof.Proof.Ideal.Cell
import proofs.«178557_j80719615361183_1_alg».proof.Proof.RefGates
import proofs.«178557_j80719615361183_1_alg».proof.Proof.RefGatesAt
import proofs.«178557_j80719615361183_1_alg».proof.Proof.LibDot
import proofs.«178557_j80719615361183_1_alg».proof.Proof.Gate
import proofs.«178557_j80719615361183_1_alg».proof.ReferenceIdeal
import proofs.«178557_j80719615361183_1_alg».proof.Proof.Gen.ReferenceIdeal
import Idealize.ShloMosaic.Lib.ValueIdx
import Idealize.ShloMosaic.Lib.Pipeline.Value
import Idealize.ShloMosaic.PureOps.Ideal.Laws

noncomputable section

namespace Cert.Laws

open Idealize.ShloMosaic Idealize.ShloMosaic.ValueIdx

/-! # The reference's matrix products are plain sums -/

/-- Each of the reference's three products contracts the columns of the left operand with the rows of the right one. -/
theorem plain256 : Cert.LibDot.Plain Cert.ReferenceIdeal.dot_S50000x256_S256x256_S50000x256_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

theorem plain512x1024 : Cert.LibDot.Plain Cert.ReferenceIdeal.dot_S50000x512_S512x1024_S50000x1024_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

theorem plain256x1024 : Cert.LibDot.Plain Cert.ReferenceIdeal.dot_S50000x256_S256x1024_S50000x1024_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

/-! # The kernel's bias row -/

/-- The two bias vectors added and viewed as a one-row matrix. -/
def biasRow (b1 b2 : Cert.KernelIdeal.S1024.Idx → EReal) : Cert.KernelIdeal.S1x1024.Idx → EReal :=
  fun i => shapeCast Cert.KernelIdeal.S1x1024 (addf (F := Ideal) (φ := .f32) b1 b2) Cert.KernelIdeal.Gen.shapeCasts_S1024_S1x1024 i

/-- Column `j` of the bias row is the sum of the two bias vectors' entries `j`. -/
theorem biasRow_apply (b1 b2 : Cert.KernelIdeal.S1024.Idx → EReal) (j : Fin 1024) :
    biasRow b1 b2 (ix2 0 j) = b1 (ix1 j) + b2 (ix1 j) := by
  unfold biasRow
  refine (shapeCast_apply (s := Cert.KernelIdeal.S1024) (t := Cert.KernelIdeal.S1x1024) _ _ (ix2 0 j) (ix1 j) ?_).trans rfl
  rw [Shape.rowMajor_val_one, Shape.rowMajor_val_two]
  show j.val = 0 * 1024 + j.val
  omega

/-! # The products, whole arrays -/

/-- The reference's [50000,256] × [256,256] product is the rows-by-matrix product, entry by entry. -/
theorem product_law (x : Cert.KernelIdeal.S50000x256.Idx → EReal) (w : Cert.KernelIdeal.S256x256.Idx → EReal) :
    Host.dotGeneral (F := Ideal) (φ₁ := .f32) (φ₂ := .f32) Cert.ReferenceIdeal.dot_S50000x256_S256x256_S50000x256_1_0_0_1_n_n none x w
      = Cert.KernelIdeal.Blocks.rowsTimes x w := by
  funext i
  obtain ⟨r, q, rfl⟩ : ∃ (r : Fin 50000) (q : Fin 256), i = ix2 r q := ⟨i 0, i 1, eq_ix2 i⟩
  exact Cert.LibDot.dotGeneral_ix2 plain256 none x w r q

/-! # One recurrent step: the kernel's order of additions and the reference's -/

/-- The step over 512 features: the kernel's closed form at the summed bias row is the reference's gates of its product
    and the two bias vectors. -/
theorem cell_law2 (X : Cert.KernelIdeal.S50000x512.Idx → EReal) (W : Cert.KernelIdeal.S512x1024.Idx → EReal)
    (b1 b2 : Cert.KernelIdeal.S1024.Idx → EReal) :
    Cert.KernelIdeal.Blocks.step2Of X W (biasRow b1 b2)
      = Cert.ReferenceIdeal.Step.gates (F := Ideal)
          (Host.dotGeneral (F := Ideal) (φ₁ := .f32) (φ₂ := .f32) Cert.ReferenceIdeal.dot_S50000x512_S512x1024_S50000x1024_1_0_0_1_n_n none X W) b1 b2 := by
  funext i
  obtain ⟨r, q, rfl⟩ : ∃ (r : Fin 50000) (q : Fin 256), i = ix2 r q := ⟨i 0, i 1, eq_ix2 i⟩
  refine Eq.trans ?_ (Cert.ReferenceIdeal.Step.gates_apply _ b1 b2 r q).symm
  show Cert.Gate.hidden (fun j => (∑ k : Fin 512, X (ix2 r k) * W (ix2 k j)) + biasRow b1 b2 (ix2 0 j)) q = _
  refine congrArg (fun g => Cert.Gate.hidden g q) (funext fun j => ?_)
  rw [biasRow_apply, Cert.LibDot.dotGeneral_ix2 plain512x1024, add_assoc]

/-- The step over 256 features, likewise. -/
theorem cell_law3 (X : Cert.KernelIdeal.S50000x256.Idx → EReal) (W : Cert.KernelIdeal.S256x1024.Idx → EReal)
    (b1 b2 : Cert.KernelIdeal.S1024.Idx → EReal) :
    Cert.KernelIdeal.Blocks.step3Of X W (biasRow b1 b2)
      = Cert.ReferenceIdeal.Step.gates (F := Ideal)
          (Host.dotGeneral (F := Ideal) (φ₁ := .f32) (φ₂ := .f32) Cert.ReferenceIdeal.dot_S50000x256_S256x1024_S50000x1024_1_0_0_1_n_n none X W) b1 b2 := by
  funext i
  obtain ⟨r, q, rfl⟩ : ∃ (r : Fin 50000) (q : Fin 256), i = ix2 r q := ⟨i 0, i 1, eq_ix2 i⟩
  refine Eq.trans ?_ (Cert.ReferenceIdeal.Step.gates_apply _ b1 b2 r q).symm
  show Cert.Gate.hidden (fun j => (∑ k : Fin 256, X (ix2 r k) * W (ix2 k j)) + biasRow b1 b2 (ix2 0 j)) q = _
  refine congrArg (fun g => Cert.Gate.hidden g q) (funext fun j => ?_)
  rw [biasRow_apply, Cert.LibDot.dotGeneral_ix2 plain256x1024, add_assoc]

end Cert.Laws

end
-- ==== Proof.Same.Join.lean ====
import proofs.«178557_j80719615361183_1_alg».proof.Proof.Same.B
import proofs.«178557_j80719615361183_1_alg».proof.Proof.Same.C
import proofs.«178557_j80719615361183_1_alg».proof.Proof.Laws
import proofs.«178557_j80719615361183_1_alg».proof.Proof.Ideal.Product
import proofs.«178557_j80719615361183_1_alg».proof.Proof.Ideal.Cell

set_option maxRecDepth 16384

noncomputable section

namespace Cert.Same

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ) (outs : Cert.KernelIdeal.Gen.Outs (F := Ideal))
  (m' : (ℓ : Loc Cert.ReferenceIdeal.nD Cert.ReferenceIdeal.τ Cert.ReferenceIdeal.sig) → Buf (Elt Ideal) ℓ)

/-! # Where a kernel call meets the reference's own operations

Each call's result array is, entry by entry, a closed formula of the arrays the call is entered with (a matrix product; a gated
recurrent step). The reference computes the same formula with its own host operations: one `dot_general` for a product; a
`dot_general`, two bias broadcasts added one after the other, four slices and the logistic function written out for a recurrent
step. The kernel adds the SUM of the two bias vectors once, the reference adds them one after the other: one use of the associativity of
addition on the extended reals, inside `cell_law2` / `cell_law3`. -/

/-- The reference's recurrent step, read back one operation at a time: its hidden state is `gates` of its product and the two bias vectors. -/
theorem ref_step1 (c : Dev Cert.KernelIdeal.nD) : after (Cert.ReferenceIdeal.ValueP.ops (F := Ideal)) (launchContents m' c) (Proc.devRef .tc Cert.ReferenceIdeal.main_v149) = Cert.ReferenceIdeal.Step.gates (F := Ideal) (after (Cert.ReferenceIdeal.ValueP.ops (F := Ideal)) (launchContents m' c) (Proc.devRef .tc Cert.ReferenceIdeal.main_v123)) (after (Cert.ReferenceIdeal.ValueP.ops (F := Ideal)) (launchContents m' c) (Proc.devRef .tc Cert.ReferenceIdeal.main_arg13)) (after (Cert.ReferenceIdeal.ValueP.ops (F := Ideal)) (launchContents m' c) (Proc.devRef .tc Cert.ReferenceIdeal.main_arg14)) := by
  have e_main_v149 := (after_binary eachR (launchContents m' c) 187 _ _ _ _ _ _ _ rfl (by decide) (by decide) (by decide))
  have e_main_v148 := (after_unary eachR (launchContents m' c) 186 _ _ _ _ _ rfl (by decide) (by decide))
  have e_main_v147 := (after_binary eachR (launchContents m' c) 185 _ _ _ _ _ _ _ rfl (by decide) (by decide) (by decide))
  have e_main_v146 := (after_unary eachR (launchContents m' c) 184 _ _ _ _ _ rfl (by decide) (by decide))
  have e_main_cst_27 := (after_nullary eachR (launchContents m' c) 183 _ _ _ rfl (by decide))
  have e_main_v145 := (after_binary eachR (launchContents m' c) 182 _ _ _ _ _ _ _ rfl (by decide) (by decide) (by decide))
  have e_main_v144 := (after_unary eachR (launchContents m' c) 181 _ _ _ _ _ rfl (by decide) (by decide))
  have e_main_cst_26 := (after_nullary eachR (launchContents m' c) 180 _ _ _ rfl (by decide))
  have e_main_v143 := (after_unary eachR (launchContents m' c) 179 _ _ _ _ _ rfl (by decide) (by decide))
  have e_main_v142 := (after_unary eachR (launchContents m' c) 178 _ _ _ _ _ rfl (by decide) (by decide))
  have e_main_v141 := (after_binary eachR (launchContents m' c) 177 _ _ _ _ _ _ _ rfl (by decide) (by decide) (by decide))
  have e_main_v140 := (after_unary eachR (launchContents m' c) 176 _ _ _ _ _ rfl (by decide) (by decide))
  have e_main_v139 := (after_binary eachR (launchContents m' c) 175 _ _ _ _ _ _ _ rfl (by decide) (by decide) (by decide))
  have e_main_v138 := (after_unary eachR (launchContents m' c) 174 _ _ _ _ _ rfl (by decide) (by decide))
  have e_main_cst_25 := (after_nullary eachR (launchContents m' c) 173 _ _ _ rfl (by decide))
  have e_main_v137 := (after_binary eachR (launchContents m' c) 172 _ _ _ _ _ _ _ rfl (by decide) (by decide) (by decide))
  have e_main_v136 := (after_unary eachR (launchContents m' c) 171 _ _ _ _ _ rfl (by decide) (by decide))
  have e_main_cst_24 := (after_nullary eachR (launchContents m' c) 170 _ _ _ rfl (by decide))
  have e_main_v135 := (after_unary eachR (launchContents m' c) 169 _ _ _ _ _ rfl (by decide) (by decide))
  have e_main_v134 := (after_unary eachR (launchContents m' c) 168 _ _ _ _ _ rfl (by decide) (by decide))
  have e_main_v133 := (after_unary eachR (launchContents m' c) 167 _ _ _ _ _ rfl (by decide) (by decide))
  have e_main_v132 := (after_unary eachR (launchContents m' c) 166 _ _ _ _ _ rfl (by decide) (by decide))
  have e_main_v130 := (after_unary eachR (launchContents m' c) 164 _ _ _ _ _ rfl (by decide) (by decide))
  have e_main_v129 := (after_binary eachR (launchContents m' c) 163 _ _ _ _ _ _ _ rfl (by decide) (by decide) (by decide))
  have e_main_v128 := (after_unary eachR (launchContents m' c) 162 _ _ _ _ _ rfl (by decide) (by decide))
  have e_main_v127 := (after_unary eachR (launchContents m' c) 161 _ _ _ _ _ rfl (by decide) (by decide))
  have e_main_v126 := (after_binary eachR (launchContents m' c) 160 _ _ _ _ _ _ _ rfl (by decide) (by decide) (by decide))
  have e_main_v125 := (after_unary eachR (launchContents m' c) 159 _ _ _ _ _ rfl (by decide) (by decide))
  have e_main_v124 := (after_unary eachR (launchContents m' c) 158 _ _ _ _ _ rfl (by decide) (by decide))
  rw [e_main_v149, e_main_v148, e_main_v147, e_main_v146, e_main_cst_27, e_main_v145, e_main_v144, e_main_cst_26, e_main_v143, e_main_v142, e_main_v141, e_main_v140, e_main_v139, e_main_v138, e_main_cst_25, e_main_v137, e_main_v136, e_main_cst_24, e_main_v135, e_main_v134, e_main_v133, e_main_v132, e_main_v130, e_main_v129, e_main_v128, e_main_v127, e_main_v126, e_main_v125, e_main_v124]
  rfl

/-- The reference's recurrent step, read back one operation at a time: its hidden state is `gates` of its product and the two bias vectors. -/
theorem ref_step2 (c : Dev Cert.KernelIdeal.nD) : after (Cert.ReferenceIdeal.ValueP.ops (F := Ideal)) (launchContents m' c) (Proc.devRef .tc Cert.ReferenceIdeal.main_v177) = Cert.ReferenceIdeal.Step.gates (F := Ideal) (after (Cert.ReferenceIdeal.ValueP.ops (F := Ideal)) (launchContents m' c) (Proc.devRef .tc Cert.ReferenceIdeal.main_v151)) (after (Cert.ReferenceIdeal.ValueP.ops (F := Ideal)) (launchContents m' c) (Proc.devRef .tc Cert.ReferenceIdeal.main_arg17)) (after (Cert.ReferenceIdeal.ValueP.ops (F := Ideal)) (launchContents m' c) (Proc.devRef .tc Cert.ReferenceIdeal.main_arg18)) := by
  have e_main_v177 := (after_binary eachR (launchContents m' c) 219 _ _ _ _ _ _ _ rfl (by decide) (by decide) (by decide))
  have e_main_v176 := (after_unary eachR (launchContents m' c) 218 _ _ _ _ _ rfl (by decide) (by decide))
  have e_main_v175 := (after_binary eachR (launchContents m' c) 217 _ _ _ _ _ _ _ rfl (by decide) (by decide) (by decide))
  have e_main_v174 := (after_unary eachR (launchContents m' c) 216 _ _ _ _ _ rfl (by decide) (by decide))
  have e_main_cst_31 := (after_nullary eachR (launchContents m' c) 215 _ _ _ rfl (by decide))
  have e_main_v173 := (after_binary eachR (launchContents m' c) 214 _ _ _ _ _ _ _ rfl (by decide) (by decide) (by decide))
  have e_main_v172 := (after_unary eachR (launchContents m' c) 213 _ _ _ _ _ rfl (by decide) (by decide))
  have e_main_cst_30 := (after_nullary eachR (launchContents m' c) 212 _ _ _ rfl (by decide))
  have e_main_v171 := (after_unary eachR (launchContents m' c) 211 _ _ _ _ _ rfl (by decide) (by decide))
  have e_main_v170 := (after_unary eachR (launchContents m' c) 210 _ _ _ _ _ rfl (by decide) (by decide))
  have e_main_v169 := (after_binary eachR (launchContents m' c) 209 _ _ _ _ _ _ _ rfl (by decide) (by decide) (by decide))
  have e_main_v168 := (after_unary eachR (launchContents m' c) 208 _ _ _ _ _ rfl (by decide) (by decide))
  have e_main_v167 := (after_binary eachR (launchContents m' c) 207 _ _ _ _ _ _ _ rfl (by decide) (by decide) (by decide))
  have e_main_v166 := (after_unary eachR (launchContents m' c) 206 _ _ _ _ _ rfl (by decide) (by decide))
  have e_main_cst_29 := (after_nullary eachR (launchContents m' c) 205 _ _ _ rfl (by decide))
  have e_main_v165 := (after_binary eachR (launchContents m' c) 204 _ _ _ _ _ _ _ rfl (by decide) (by decide) (by decide))
  have e_main_v164 := (after_unary eachR (launchContents m' c) 203 _ _ _ _ _ rfl (by decide) (by decide))
  have e_main_cst_28 := (after_nullary eachR (launchContents m' c) 202 _ _ _ rfl (by decide))
  have e_main_v163 := (after_unary eachR (launchContents m' c) 201 _ _ _ _ _ rfl (by decide) (by decide))
  have e_main_v162 := (after_unary eachR (launchContents m' c) 200 _ _ _ _ _ rfl (by decide) (by decide))
  have e_main_v161 := (after_unary eachR (launchContents m' c) 199 _ _ _ _ _ rfl (by decide) (by decide))
  have e_main_v160 := (after_unary eachR (launchContents m' c) 198 _ _ _ _ _ rfl (by decide) (by decide))
  have e_main_v158 := (after_unary eachR (launchContents m' c) 196 _ _ _ _ _ rfl (by decide) (by decide))
  have e_main_v157 := (after_binary eachR (launchContents m' c) 195 _ _ _ _ _ _ _ rfl (by decide) (by decide) (by decide))
  have e_main_v156 := (after_unary eachR (launchContents m' c) 194 _ _ _ _ _ rfl (by decide) (by decide))
  have e_main_v155 := (after_unary eachR (launchContents m' c) 193 _ _ _ _ _ rfl (by decide) (by decide))
  have e_main_v154 := (after_binary eachR (launchContents m' c) 192 _ _ _ _ _ _ _ rfl (by decide) (by decide) (by decide))
  have e_main_v153 := (after_unary eachR (launchContents m' c) 191 _ _ _ _ _ rfl (by decide) (by decide))
  have e_main_v152 := (after_unary eachR (launchContents m' c) 190 _ _ _ _ _ rfl (by decide) (by decide))
  rw [e_main_v177, e_main_v176, e_main_v175, e_main_v174, e_main_cst_31, e_main_v173, e_main_v172, e_main_cst_30, e_main_v171, e_main_v170, e_main_v169, e_main_v168, e_main_v167, e_main_v166, e_main_cst_29, e_main_v165, e_main_v164, e_main_cst_28, e_main_v163, e_main_v162, e_main_v161, e_main_v160, e_main_v158, e_main_v157, e_main_v156, e_main_v155, e_main_v154, e_main_v153, e_main_v152]
  rfl

variable (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
  (c : Dev Cert.KernelIdeal.nD) (hf : Cert.KernelIdeal.Blocks.Fits m outs)
include hag hf

/-- The first product: the kernel's blocks assemble to the reference's `dot_general` of the same two arrays. -/
theorem join35 : Cert.KernelIdeal.Gen.V17 m outs c Cert.KernelIdeal.main_v35 = Rf m' c Cert.ReferenceIdeal.main_v35 := by
  have h1 := (((Cert.KernelIdeal.Gen.V17_of m outs c Cert.KernelIdeal.main_v35 (by decide)).trans ((Cert.KernelIdeal.Gen.V16_of m outs c Cert.KernelIdeal.main_v35 (by decide)).trans ((Cert.KernelIdeal.Gen.V15_of m outs c Cert.KernelIdeal.main_v35 (by decide)).trans ((Cert.KernelIdeal.Gen.V14_of m outs c Cert.KernelIdeal.main_v35 (by decide)).trans ((Cert.KernelIdeal.Gen.V13_of m outs c Cert.KernelIdeal.main_v35 (by decide)).trans ((Cert.KernelIdeal.Gen.V12_of m outs c Cert.KernelIdeal.main_v35 (by decide)).trans ((Cert.KernelIdeal.Gen.V11_of m outs c Cert.KernelIdeal.main_v35 (by decide)).trans ((Cert.KernelIdeal.Gen.V10_of m outs c Cert.KernelIdeal.main_v35 (by decide)).trans ((Cert.KernelIdeal.Gen.V9_of m outs c Cert.KernelIdeal.main_v35 (by decide)).trans ((Cert.KernelIdeal.Gen.V8_of m outs c Cert.KernelIdeal.main_v35 (by decide)).trans (Cert.KernelIdeal.Gen.V7_of m outs c Cert.KernelIdeal.main_v35 (by decide))))))))))))).trans (Function.update_self (Proc.devRef .tc Cert.KernelIdeal.main_v35 : DevRef Cert.KernelIdeal.τ Cert.KernelIdeal.sig) (outs 6 Cert.KernelIdeal.main_v35 c) (Cert.KernelIdeal.Gen.V5 m c))
  have h2 := (hf.at0 c).symm.trans (Cert.KernelIdeal.Blocks.product0_array (Cert.KernelIdeal.Blocks.into0 m) c)
  have Ea : Cert.KernelIdeal.Blocks.into0 m c Cert.KernelIdeal.main_arg0 = Rf m' c Cert.ReferenceIdeal.main_arg0 := (((Cert.KernelIdeal.Gen.V17_of m outs c Cert.KernelIdeal.main_arg0 (by decide)).trans ((Cert.KernelIdeal.Gen.V16_of m outs c Cert.KernelIdeal.main_arg0 (by decide)).trans ((Cert.KernelIdeal.Gen.V15_of m outs c Cert.KernelIdeal.main_arg0 (by decide)).trans ((Cert.KernelIdeal.Gen.V14_of m outs c Cert.KernelIdeal.main_arg0 (by decide)).trans ((Cert.KernelIdeal.Gen.V13_of m outs c Cert.KernelIdeal.main_arg0 (by decide)).trans ((Cert.KernelIdeal.Gen.V12_of m outs c Cert.KernelIdeal.main_arg0 (by decide)).trans ((Cert.KernelIdeal.Gen.V11_of m outs c Cert.KernelIdeal.main_arg0 (by decide)).trans ((Cert.KernelIdeal.Gen.V10_of m outs c Cert.KernelIdeal.main_arg0 (by decide)).trans ((Cert.KernelIdeal.Gen.V9_of m outs c Cert.KernelIdeal.main_arg0 (by decide)).trans ((Cert.KernelIdeal.Gen.V8_of m outs c Cert.KernelIdeal.main_arg0 (by decide)).trans ((Cert.KernelIdeal.Gen.V7_of m outs c Cert.KernelIdeal.main_arg0 (by decide)).trans (Cert.KernelIdeal.Gen.V6_of m outs c Cert.KernelIdeal.main_arg0 (by decide)))))))))))))).symm.trans (same_main_arg0 m outs m' hag c)
  have Eb : Cert.KernelIdeal.Blocks.into0 m c Cert.KernelIdeal.main_arg3 = Rf m' c Cert.ReferenceIdeal.main_arg3 := (((Cert.KernelIdeal.Gen.V17_of m outs c Cert.KernelIdeal.main_arg3 (by decide)).trans ((Cert.KernelIdeal.Gen.V16_of m outs c Cert.KernelIdeal.main_arg3 (by decide)).trans ((Cert.KernelIdeal.Gen.V15_of m outs c Cert.KernelIdeal.main_arg3 (by decide)).trans ((Cert.KernelIdeal.Gen.V14_of m outs c Cert.KernelIdeal.main_arg3 (by decide)).trans ((Cert.KernelIdeal.Gen.V13_of m outs c Cert.KernelIdeal.main_arg3 (by decide)).trans ((Cert.KernelIdeal.Gen.V12_of m outs c Cert.KernelIdeal.main_arg3 (by decide)).trans ((Cert.KernelIdeal.Gen.V11_of m outs c Cert.KernelIdeal.main_arg3 (by decide)).trans ((Cert.KernelIdeal.Gen.V10_of m outs c Cert.KernelIdeal.main_arg3 (by decide)).trans ((Cert.KernelIdeal.Gen.V9_of m outs c Cert.KernelIdeal.main_arg3 (by decide)).trans ((Cert.KernelIdeal.Gen.V8_of m outs c Cert.KernelIdeal.main_arg3 (by decide)).trans ((Cert.KernelIdeal.Gen.V7_of m outs c Cert.KernelIdeal.main_arg3 (by decide)).trans (Cert.KernelIdeal.Gen.V6_of m outs c Cert.KernelIdeal.main_arg3 (by decide)))))))))))))).symm.trans (same_main_arg3 m outs m' hag c)
  rw [Ea, Eb] at h2
  have hR := (after_binary eachR (launchContents m' c) 49 _ _ _ _ _ _ _ rfl (by decide) (by decide) (by decide))
  exact (h1.trans h2).trans ((Cert.Laws.product_law _ _).symm.trans hR.symm)

/-- The second product. -/
theorem join78 : Cert.KernelIdeal.Gen.V17 m outs c Cert.KernelIdeal.main_v78 = Rf m' c Cert.ReferenceIdeal.main_v78 := by
  have h1 := (((Cert.KernelIdeal.Gen.V17_of m outs c Cert.KernelIdeal.main_v78 (by decide)).trans ((Cert.KernelIdeal.Gen.V16_of m outs c Cert.KernelIdeal.main_v78 (by decide)).trans ((Cert.KernelIdeal.Gen.V15_of m outs c Cert.KernelIdeal.main_v78 (by decide)).trans ((Cert.KernelIdeal.Gen.V14_of m outs c Cert.KernelIdeal.main_v78 (by decide)).trans ((Cert.KernelIdeal.Gen.V13_of m outs c Cert.KernelIdeal.main_v78 (by decide)).trans ((Cert.KernelIdeal.Gen.V12_of m outs c Cert.KernelIdeal.main_v78 (by decide)).trans (Cert.KernelIdeal.Gen.V11_of m outs c Cert.KernelIdeal.main_v78 (by decide))))))))).trans (Function.update_self (Proc.devRef .tc Cert.KernelIdeal.main_v78 : DevRef Cert.KernelIdeal.τ Cert.KernelIdeal.sig) (outs 10 Cert.KernelIdeal.main_v78 c) (Cert.KernelIdeal.Gen.V9 m outs c))
  have h2 := (hf.at1 c).symm.trans (Cert.KernelIdeal.Blocks.product1_array (Cert.KernelIdeal.Blocks.into1 m outs) c)
  have Ea : Cert.KernelIdeal.Blocks.into1 m outs c Cert.KernelIdeal.main_v77 = Rf m' c Cert.ReferenceIdeal.main_v77 := (((Cert.KernelIdeal.Gen.V17_of m outs c Cert.KernelIdeal.main_v77 (by decide)).trans ((Cert.KernelIdeal.Gen.V16_of m outs c Cert.KernelIdeal.main_v77 (by decide)).trans ((Cert.KernelIdeal.Gen.V15_of m outs c Cert.KernelIdeal.main_v77 (by decide)).trans ((Cert.KernelIdeal.Gen.V14_of m outs c Cert.KernelIdeal.main_v77 (by decide)).trans ((Cert.KernelIdeal.Gen.V13_of m outs c Cert.KernelIdeal.main_v77 (by decide)).trans ((Cert.KernelIdeal.Gen.V12_of m outs c Cert.KernelIdeal.main_v77 (by decide)).trans ((Cert.KernelIdeal.Gen.V11_of m outs c Cert.KernelIdeal.main_v77 (by decide)).trans (Cert.KernelIdeal.Gen.V10_of m outs c Cert.KernelIdeal.main_v77 (by decide)))))))))).symm.trans (same_main_v77 m outs m' hag c (join35 m outs m' hag c hf))
  have Eb : Cert.KernelIdeal.Blocks.into1 m outs c Cert.KernelIdeal.main_arg5 = Rf m' c Cert.ReferenceIdeal.main_arg5 := (((Cert.KernelIdeal.Gen.V17_of m outs c Cert.KernelIdeal.main_arg5 (by decide)).trans ((Cert.KernelIdeal.Gen.V16_of m outs c Cert.KernelIdeal.main_arg5 (by decide)).trans ((Cert.KernelIdeal.Gen.V15_of m outs c Cert.KernelIdeal.main_arg5 (by decide)).trans ((Cert.KernelIdeal.Gen.V14_of m outs c Cert.KernelIdeal.main_arg5 (by decide)).trans ((Cert.KernelIdeal.Gen.V13_of m outs c Cert.KernelIdeal.main_arg5 (by decide)).trans ((Cert.KernelIdeal.Gen.V12_of m outs c Cert.KernelIdeal.main_arg5 (by decide)).trans ((Cert.KernelIdeal.Gen.V11_of m outs c Cert.KernelIdeal.main_arg5 (by decide)).trans (Cert.KernelIdeal.Gen.V10_of m outs c Cert.KernelIdeal.main_arg5 (by decide)))))))))).symm.trans (same_main_arg5 m outs m' hag c)
  rw [Ea, Eb] at h2
  have hR := (after_binary eachR (launchContents m' c) 102 _ _ _ _ _ _ _ rfl (by decide) (by decide) (by decide))
  exact (h1.trans h2).trans ((Cert.Laws.product_law _ _).symm.trans hR.symm)

/-- The first recurrent step: the kernel's hidden state is the reference's. -/
theorem join125 : Cert.KernelIdeal.Gen.V17 m outs c Cert.KernelIdeal.main_v125 = Rf m' c Cert.ReferenceIdeal.main_v149 := by
  have h1 := (((Cert.KernelIdeal.Gen.V17_of m outs c Cert.KernelIdeal.main_v125 (by decide)).trans ((Cert.KernelIdeal.Gen.V16_of m outs c Cert.KernelIdeal.main_v125 (by decide)).trans (Cert.KernelIdeal.Gen.V15_of m outs c Cert.KernelIdeal.main_v125 (by decide))))).trans (Function.update_self (Proc.devRef .tc Cert.KernelIdeal.main_v125 : DevRef Cert.KernelIdeal.τ Cert.KernelIdeal.sig) (outs 14 Cert.KernelIdeal.main_v125 c) (Cert.KernelIdeal.Gen.V13 m outs c))
  have h2 := (hf.at2 c).symm.trans (Cert.KernelIdeal.Blocks.result2 (Cert.KernelIdeal.Blocks.into2 m outs) c)
  have E_x : Cert.KernelIdeal.Blocks.into2 m outs c Cert.KernelIdeal.main_v121 = Rf m' c Cert.ReferenceIdeal.main_v121 := (((Cert.KernelIdeal.Gen.V17_of m outs c Cert.KernelIdeal.main_v121 (by decide)).trans ((Cert.KernelIdeal.Gen.V16_of m outs c Cert.KernelIdeal.main_v121 (by decide)).trans ((Cert.KernelIdeal.Gen.V15_of m outs c Cert.KernelIdeal.main_v121 (by decide)).trans (Cert.KernelIdeal.Gen.V14_of m outs c Cert.KernelIdeal.main_v121 (by decide)))))).symm.trans (same_main_v121 m outs m' hag c (same_main_v77 m outs m' hag c (join35 m outs m' hag c hf)) (join78 m outs m' hag c hf))
  have E_w : Cert.KernelIdeal.Blocks.into2 m outs c Cert.KernelIdeal.main_v122 = Rf m' c Cert.ReferenceIdeal.main_v122 := (((Cert.KernelIdeal.Gen.V17_of m outs c Cert.KernelIdeal.main_v122 (by decide)).trans ((Cert.KernelIdeal.Gen.V16_of m outs c Cert.KernelIdeal.main_v122 (by decide)).trans ((Cert.KernelIdeal.Gen.V15_of m outs c Cert.KernelIdeal.main_v122 (by decide)).trans (Cert.KernelIdeal.Gen.V14_of m outs c Cert.KernelIdeal.main_v122 (by decide)))))).symm.trans (same_main_v122 m outs m' hag c (same_main_v77 m outs m' hag c (join35 m outs m' hag c hf)) (join78 m outs m' hag c hf))
  have E_b : Cert.KernelIdeal.Blocks.into2 m outs c Cert.KernelIdeal.main_v124 = Cert.Laws.biasRow (Rf m' c Cert.ReferenceIdeal.main_arg13) (Rf m' c Cert.ReferenceIdeal.main_arg14) := by
    have k_row := (after_reshape each_hostOps2_2 (Cert.KernelIdeal.Gen.V12 m outs c) 33 _ _ _ _ _ _ rfl (by decide) (by decide))
    have k_sum := (after_binary each_hostOps2_2 (Cert.KernelIdeal.Gen.V12 m outs c) 32 _ _ _ _ _ _ _ rfl (by decide) (by decide) (by decide))
    have e1 : after (Cert.KernelIdeal.Gen.hostOps2_2 (F := Ideal)) (Cert.KernelIdeal.Gen.V12 m outs c) (Proc.devRef .tc Cert.KernelIdeal.main_arg13) = Rf m' c Cert.ReferenceIdeal.main_arg13 :=
      (((Cert.KernelIdeal.Gen.V17_of m outs c Cert.KernelIdeal.main_arg13 (by decide)).trans ((Cert.KernelIdeal.Gen.V16_of m outs c Cert.KernelIdeal.main_arg13 (by decide)).trans ((Cert.KernelIdeal.Gen.V15_of m outs c Cert.KernelIdeal.main_arg13 (by decide)).trans (Cert.KernelIdeal.Gen.V14_of m outs c Cert.KernelIdeal.main_arg13 (by decide)))))).symm.trans (same_main_arg13 m outs m' hag c)
    have e2 : after (Cert.KernelIdeal.Gen.hostOps2_2 (F := Ideal)) (Cert.KernelIdeal.Gen.V12 m outs c) (Proc.devRef .tc Cert.KernelIdeal.main_arg14) = Rf m' c Cert.ReferenceIdeal.main_arg14 :=
      (((Cert.KernelIdeal.Gen.V17_of m outs c Cert.KernelIdeal.main_arg14 (by decide)).trans ((Cert.KernelIdeal.Gen.V16_of m outs c Cert.KernelIdeal.main_arg14 (by decide)).trans ((Cert.KernelIdeal.Gen.V15_of m outs c Cert.KernelIdeal.main_arg14 (by decide)).trans (Cert.KernelIdeal.Gen.V14_of m outs c Cert.KernelIdeal.main_arg14 (by decide)))))).symm.trans (same_main_arg14 m outs m' hag c)
    rw [e1, e2] at k_sum
    rw [k_sum] at k_row
    exact k_row
  rw [E_x, E_w, E_b] at h2
  have hG := ref_step1 m' c
  have hD := (after_binary eachR (launchContents m' c) 157 _ _ _ _ _ _ _ rfl (by decide) (by decide) (by decide))
  rw [hD] at hG
  exact (h1.trans h2).trans ((Cert.Laws.cell_law2 _ _ _ _).trans hG.symm)

theorem same_main_v126 : Cert.KernelIdeal.Gen.V17 m outs c Cert.KernelIdeal.main_v126 = Rf m' c Cert.ReferenceIdeal.main_v150 := by
  have hK := (((Cert.KernelIdeal.Gen.V17_of m outs c Cert.KernelIdeal.main_v126 (by decide)).trans (Cert.KernelIdeal.Gen.V16_of m outs c Cert.KernelIdeal.main_v126 (by decide)))).trans (after_unary each_hostOps3 (Cert.KernelIdeal.Gen.V14 m outs c) 0 _ _ _ _ _ rfl (by decide) (by decide))
  have hR := after_unary eachR (launchContents m' c) 188 _ _ _ _ _ rfl (by decide) (by decide)
  have E0 : after (Cert.KernelIdeal.Gen.hostOps3 (F := Ideal)) (Cert.KernelIdeal.Gen.V14 m outs c) (Proc.devRef .tc Cert.KernelIdeal.main_arg15) = Rf m' c Cert.ReferenceIdeal.main_arg15 :=
    (((Cert.KernelIdeal.Gen.V17_of m outs c Cert.KernelIdeal.main_arg15 (by decide)).trans (Cert.KernelIdeal.Gen.V16_of m outs c Cert.KernelIdeal.main_arg15 (by decide)))).symm.trans (same_main_arg15 m outs m' hag c)
  rw [E0] at hK
  exact hK.trans hR.symm

/-- The second recurrent step. -/
theorem join129 : Cert.KernelIdeal.Gen.V17 m outs c Cert.KernelIdeal.main_v129 = Rf m' c Cert.ReferenceIdeal.main_v177 := by
  have h1 := ((Cert.KernelIdeal.Gen.V17_of m outs c Cert.KernelIdeal.main_v129 (by decide))).trans (Function.update_self (Proc.devRef .tc Cert.KernelIdeal.main_v129 : DevRef Cert.KernelIdeal.τ Cert.KernelIdeal.sig) (outs 16 Cert.KernelIdeal.main_v129 c) (Cert.KernelIdeal.Gen.V15 m outs c))
  have h2 := (hf.at3 c).symm.trans (Cert.KernelIdeal.Blocks.result3 (Cert.KernelIdeal.Blocks.into3 m outs) c)
  have E_x : Cert.KernelIdeal.Blocks.into3 m outs c Cert.KernelIdeal.main_v125 = Rf m' c Cert.ReferenceIdeal.main_v149 := (((Cert.KernelIdeal.Gen.V17_of m outs c Cert.KernelIdeal.main_v125 (by decide)).trans (Cert.KernelIdeal.Gen.V16_of m outs c Cert.KernelIdeal.main_v125 (by decide)))).symm.trans (join125 m outs m' hag c hf)
  have E_w : Cert.KernelIdeal.Blocks.into3 m outs c Cert.KernelIdeal.main_v126 = Rf m' c Cert.ReferenceIdeal.main_v150 := (((Cert.KernelIdeal.Gen.V17_of m outs c Cert.KernelIdeal.main_v126 (by decide)).trans (Cert.KernelIdeal.Gen.V16_of m outs c Cert.KernelIdeal.main_v126 (by decide)))).symm.trans (same_main_v126 m outs m' hag c hf)
  have E_b : Cert.KernelIdeal.Blocks.into3 m outs c Cert.KernelIdeal.main_v128 = Cert.Laws.biasRow (Rf m' c Cert.ReferenceIdeal.main_arg17) (Rf m' c Cert.ReferenceIdeal.main_arg18) := by
    have k_row := (after_reshape each_hostOps3 (Cert.KernelIdeal.Gen.V14 m outs c) 2 _ _ _ _ _ _ rfl (by decide) (by decide))
    have k_sum := (after_binary each_hostOps3 (Cert.KernelIdeal.Gen.V14 m outs c) 1 _ _ _ _ _ _ _ rfl (by decide) (by decide) (by decide))
    have e1 : after (Cert.KernelIdeal.Gen.hostOps3 (F := Ideal)) (Cert.KernelIdeal.Gen.V14 m outs c) (Proc.devRef .tc Cert.KernelIdeal.main_arg17) = Rf m' c Cert.ReferenceIdeal.main_arg17 :=
      (((Cert.KernelIdeal.Gen.V17_of m outs c Cert.KernelIdeal.main_arg17 (by decide)).trans (Cert.KernelIdeal.Gen.V16_of m outs c Cert.KernelIdeal.main_arg17 (by decide)))).symm.trans (same_main_arg17 m outs m' hag c)
    have e2 : after (Cert.KernelIdeal.Gen.hostOps3 (F := Ideal)) (Cert.KernelIdeal.Gen.V14 m outs c) (Proc.devRef .tc Cert.KernelIdeal.main_arg18) = Rf m' c Cert.ReferenceIdeal.main_arg18 :=
      (((Cert.KernelIdeal.Gen.V17_of m outs c Cert.KernelIdeal.main_arg18 (by decide)).trans (Cert.KernelIdeal.Gen.V16_of m outs c Cert.KernelIdeal.main_arg18 (by decide)))).symm.trans (same_main_arg18 m outs m' hag c)
    rw [e1, e2] at k_sum
    rw [k_sum] at k_row
    exact k_row
  rw [E_x, E_w, E_b] at h2
  have hG := ref_step2 m' c
  have hD := (after_binary eachR (launchContents m' c) 189 _ _ _ _ _ _ _ rfl (by decide) (by decide) (by decide))
  rw [hD] at hG
  exact (h1.trans h2).trans ((Cert.Laws.cell_law3 _ _ _ _).trans hG.symm)

/-- The result: both programs lay the two hidden states and the input side by side. -/
theorem same_result : Cert.KernelIdeal.Gen.V17 m outs c Cert.KernelIdeal.main_v130 = Rf m' c Cert.ReferenceIdeal.main_v178 := by
  have hK : Cert.KernelIdeal.Gen.V17 m outs c Cert.KernelIdeal.main_v130 = concatenate Cert.KernelIdeal.S50000x768 1 [⟨Cert.KernelIdeal.S50000x256, Cert.KernelIdeal.Gen.V17 m outs c Cert.KernelIdeal.main_v125⟩, ⟨Cert.KernelIdeal.S50000x256, Cert.KernelIdeal.Gen.V17 m outs c Cert.KernelIdeal.main_v129⟩, ⟨Cert.KernelIdeal.S50000x256, Cert.KernelIdeal.Gen.V17 m outs c Cert.KernelIdeal.main_arg0⟩] Cert.KernelIdeal.Gen.concatenates_S50000x256_S50000x256_S50000x256_S50000x768_d1 :=
    after_nary each_hostOps4 (Cert.KernelIdeal.Gen.V16 m outs c) 0 _ _ _ _ _ rfl (by decide) (fun j => by fin_cases j <;> decide)
  have hR : Rf m' c Cert.ReferenceIdeal.main_v178 = concatenate Cert.ReferenceIdeal.S50000x768 1 [⟨Cert.ReferenceIdeal.S50000x256, Rf m' c Cert.ReferenceIdeal.main_v149⟩, ⟨Cert.ReferenceIdeal.S50000x256, Rf m' c Cert.ReferenceIdeal.main_v177⟩, ⟨Cert.ReferenceIdeal.S50000x256, Rf m' c Cert.ReferenceIdeal.main_arg0⟩] Cert.ReferenceIdeal.Gen.concatenates_S50000x256_S50000x256_S50000x256_S50000x768_d1 :=
    after_nary eachR (launchContents m' c) 220 _ _ _ _ _ rfl (by decide) (fun j => by fin_cases j <;> decide)
  rw [join125 m outs m' hag c hf, join129 m outs m' hag c hf, same_main_arg0 m outs m' hag c] at hK
  exact hK.trans hR.symm

end Cert.Same

end
-- ==== Proof.lean ====
/-
  A two-layer graph network feeding two recurrent steps, with its four dense products as tiled kernels, against the plain reference.

  The program: the edge normalisation of a graph with self-loops (a scatter-add of edge weights into degrees, an inverse square
  root guarded where a degree is zero, two gathers); two graph layers, each a matrix product, a gather of its rows along the edges,
  a scaling, a scatter-add into the nodes, a bias, a rectifier and a batch normalisation over the 50000 nodes; the two layers side
  by side fed to one recurrent step from a zero state, whose hidden state is fed to a second; and the two hidden states laid beside
  the input. In the kernel program the two products `x·W1`, `h1·W2` and the two recurrent steps are tiled calls: grid point `t` of 50
  takes rows 1000·t … 1000·t + 999 of the left operand and the whole of the weights (and of the bias row), and writes the same rows of
  the result. Everything else is the same host operation in both programs.

  Why the two programs agree at the ideal instance (floats are extended reals, every operation exact, a change of float format the
  identity). (1) A product call's blocks are restrictions of one function of the whole arrays, entry (r, q) ↦ Σ_k a(r,k)·w(k,q), and
  they tile the result; the reference's `dot_general` is that sum. (2) A recurrent call's entry (r, q) is
  σ(o)·tanh(σ(i)·tanh(g)) of the row's pre-activations Σ_k x(r,k)·w(k,j) + b(j) at j = q + 768, q, q + 512, with b the SUM of the two
  bias vectors, formed once on the host; the reference adds the two bias vectors one after the other to its product and writes σ out as
  1 / (1 + exp(−x)): the same extended real, by the associativity of addition (no finiteness is needed: sums on the extended reals
  are associative and commutative at the infinities too) and the definition of the logistic function. (3) Every other operation is
  literally the same function of the same earlier values in both programs, so, reading both programs one operation at a time — each
  operation writes a buffer of its own and reads only buffers written before it —, equal operands give equal results, from the
  argument arrays down to the final concatenation. The precondition is never opened.

  The frames: each call's body loads whole staging buffers, computes, and stores one whole buffer; the pipeline around it is the
  library's; the host operations between the calls write fresh buffers only, so every argument array ends as launched. The
  idealization rewrote no operation, so it is the program's own text read at the ideal instance.
-/
import proofs.«178557_j80719615361183_1_alg».proof.Defs
import proofs.«178557_j80719615361183_1_alg».proof.Proof.Gen.Kernel
import proofs.«178557_j80719615361183_1_alg».proof.Proof.Gen.KernelIdeal
import proofs.«178557_j80719615361183_1_alg».proof.Proof.Gen.ReferenceIdeal
import proofs.«178557_j80719615361183_1_alg».proof.Proof.Gen.Pre_finite_inputs
import proofs.«178557_j80719615361183_1_alg».proof.Proof.Bits.Whole
import proofs.«178557_j80719615361183_1_alg».proof.Proof.Bits.Outs
import proofs.«178557_j80719615361183_1_alg».proof.Proof.Ideal.Whole
import proofs.«178557_j80719615361183_1_alg».proof.Proof.Ideal.Outs
import proofs.«178557_j80719615361183_1_alg».proof.Proof.Same.Join
import Idealize.ShloMosaic.Adequacy
import Idealize.ShloMosaic.Init

set_option maxRecDepth 16384

noncomputable section

namespace Cert.Proof

open Idealize.ShloMosaic Idealize.ShloMosaic.TcCoe Idealize.ShloMosaic.StableHlo Idealize.SL.Sem

/-- The kernel program as printed: it runs to the end and its argument arrays end as launched. -/
theorem frame_words : Cert.frame_Kernel (hKernel := Cert.Kernel.Gen.facts) (hPre_finite_inputs := Cert.Pre_finite_inputs.Gen.facts) := fun m ρ _ =>
  Cert.Kernel.Blocks.arguments_kept (F := Bits) m (Cert.Kernel.Blocks.results m) (Cert.Kernel.Blocks.results_fit m) ρ

/-- The same program read at the ideal instance. -/
theorem frame_ideal : Cert.frame_KernelIdeal (hKernelIdeal := Cert.KernelIdeal.Gen.facts) (hPre_finite_inputs := Cert.Pre_finite_inputs.Gen.facts) := fun m ρ _ =>
  Cert.KernelIdeal.Blocks.arguments_kept (F := Ideal) m (Cert.KernelIdeal.Blocks.results m) (Cert.KernelIdeal.Blocks.results_fit m) ρ

/-- The reference is host operations only, none of which writes an argument array. -/
theorem frame_reference : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun r h c =>
    ⟨(h c Cert.ReferenceIdeal.main_arg0).trans (after_of_not_written Cert.Same.eachR (launchContents m c) Cert.ReferenceIdeal.main_arg0 (by decide)),
      (h c Cert.ReferenceIdeal.main_arg1).trans (after_of_not_written Cert.Same.eachR (launchContents m c) Cert.ReferenceIdeal.main_arg1 (by decide)),
      (h c Cert.ReferenceIdeal.main_arg2).trans (after_of_not_written Cert.Same.eachR (launchContents m c) Cert.ReferenceIdeal.main_arg2 (by decide)),
      (h c Cert.ReferenceIdeal.main_arg3).trans (after_of_not_written Cert.Same.eachR (launchContents m c) Cert.ReferenceIdeal.main_arg3 (by decide)),
      (h c Cert.ReferenceIdeal.main_arg4).trans (after_of_not_written Cert.Same.eachR (launchContents m c) Cert.ReferenceIdeal.main_arg4 (by decide)),
      (h c Cert.ReferenceIdeal.main_arg5).trans (after_of_not_written Cert.Same.eachR (launchContents m c) Cert.ReferenceIdeal.main_arg5 (by decide)),
      (h c Cert.ReferenceIdeal.main_arg6).trans (after_of_not_written Cert.Same.eachR (launchContents m c) Cert.ReferenceIdeal.main_arg6 (by decide)),
      (h c Cert.ReferenceIdeal.main_arg7).trans (after_of_not_written Cert.Same.eachR (launchContents m c) Cert.ReferenceIdeal.main_arg7 (by decide)),
      (h c Cert.ReferenceIdeal.main_arg8).trans (after_of_not_written Cert.Same.eachR (launchContents m c) Cert.ReferenceIdeal.main_arg8 (by decide)),
      (h c Cert.ReferenceIdeal.main_arg9).trans (after_of_not_written Cert.Same.eachR (launchContents m c) Cert.ReferenceIdeal.main_arg9 (by decide)),
      (h c Cert.ReferenceIdeal.main_arg10).trans (after_of_not_written Cert.Same.eachR (launchContents m c) Cert.ReferenceIdeal.main_arg10 (by decide)),
      (h c Cert.ReferenceIdeal.main_arg11).trans (after_of_not_written Cert.Same.eachR (launchContents m c) Cert.ReferenceIdeal.main_arg11 (by decide)),
      (h c Cert.ReferenceIdeal.main_arg12).trans (after_of_not_written Cert.Same.eachR (launchContents m c) Cert.ReferenceIdeal.main_arg12 (by decide)),
      (h c Cert.ReferenceIdeal.main_arg13).trans (after_of_not_written Cert.Same.eachR (launchContents m c) Cert.ReferenceIdeal.main_arg13 (by decide)),
      (h c Cert.ReferenceIdeal.main_arg14).trans (after_of_not_written Cert.Same.eachR (launchContents m c) Cert.ReferenceIdeal.main_arg14 (by decide)),
      (h c Cert.ReferenceIdeal.main_arg15).trans (after_of_not_written Cert.Same.eachR (launchContents m c) Cert.ReferenceIdeal.main_arg15 (by decide)),
      (h c Cert.ReferenceIdeal.main_arg16).trans (after_of_not_written Cert.Same.eachR (launchContents m c) Cert.ReferenceIdeal.main_arg16 (by decide)),
      (h c Cert.ReferenceIdeal.main_arg17).trans (after_of_not_written Cert.Same.eachR (launchContents m c) Cert.ReferenceIdeal.main_arg17 (by decide)),
      (h c Cert.ReferenceIdeal.main_arg18).trans (after_of_not_written Cert.Same.eachR (launchContents m c) Cert.ReferenceIdeal.main_arg18 (by decide))⟩)
    (Cert.ReferenceIdeal.ValueP.run (F := Ideal) m ρ)

/-- The idealization rewrote nothing. -/
theorem preserves : Cert.preserves_Kernel_KernelIdeal := trivial

/-- From memories agreeing on the arguments both idealized programs run to the end with the same result array, the arguments unchanged. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hag
  have hf := Cert.KernelIdeal.Blocks.results_fit (F := Ideal) m
  refine ⟨fun c => Cert.KernelIdeal.Gen.V17 m (Cert.KernelIdeal.Blocks.results m) c Cert.KernelIdeal.main_v130, ?_, ?_⟩
  · exact (θ_run Cert.KernelIdeal.defs _ _).mono (fun r h c =>
      ⟨h c _ (Cert.KernelIdeal.Blocks.mem_unscoped Cert.KernelIdeal.main_v130 (by decide)),
      (h c _ (Cert.KernelIdeal.Blocks.mem_unscoped Cert.KernelIdeal.main_arg0 (by decide))).trans (Cert.KernelIdeal.Gen.V17_main_arg0 m (Cert.KernelIdeal.Blocks.results m) c),
      (h c _ (Cert.KernelIdeal.Blocks.mem_unscoped Cert.KernelIdeal.main_arg1 (by decide))).trans (Cert.KernelIdeal.Gen.V17_main_arg1 m (Cert.KernelIdeal.Blocks.results m) c),
      (h c _ (Cert.KernelIdeal.Blocks.mem_unscoped Cert.KernelIdeal.main_arg2 (by decide))).trans (Cert.KernelIdeal.Gen.V17_main_arg2 m (Cert.KernelIdeal.Blocks.results m) c),
      (h c _ (Cert.KernelIdeal.Blocks.mem_unscoped Cert.KernelIdeal.main_arg3 (by decide))).trans (Cert.KernelIdeal.Gen.V17_main_arg3 m (Cert.KernelIdeal.Blocks.results m) c),
      (h c _ (Cert.KernelIdeal.Blocks.mem_unscoped Cert.KernelIdeal.main_arg4 (by decide))).trans (Cert.KernelIdeal.Gen.V17_main_arg4 m (Cert.KernelIdeal.Blocks.results m) c),
      (h c _ (Cert.KernelIdeal.Blocks.mem_unscoped Cert.KernelIdeal.main_arg5 (by decide))).trans (Cert.KernelIdeal.Gen.V17_main_arg5 m (Cert.KernelIdeal.Blocks.results m) c),
      (h c _ (Cert.KernelIdeal.Blocks.mem_unscoped Cert.KernelIdeal.main_arg6 (by decide))).trans (Cert.KernelIdeal.Gen.V17_main_arg6 m (Cert.KernelIdeal.Blocks.results m) c),
      (h c _ (Cert.KernelIdeal.Blocks.mem_unscoped Cert.KernelIdeal.main_arg7 (by decide))).trans (Cert.KernelIdeal.Gen.V17_main_arg7 m (Cert.KernelIdeal.Blocks.results m) c),
      (h c _ (Cert.KernelIdeal.Blocks.mem_unscoped Cert.KernelIdeal.main_arg8 (by decide))).trans (Cert.KernelIdeal.Gen.V17_main_arg8 m (Cert.KernelIdeal.Blocks.results m) c),
      (h c _ (Cert.KernelIdeal.Blocks.mem_unscoped Cert.KernelIdeal.main_arg9 (by decide))).trans (Cert.KernelIdeal.Gen.V17_main_arg9 m (Cert.KernelIdeal.Blocks.results m) c),
      (h c _ (Cert.KernelIdeal.Blocks.mem_unscoped Cert.KernelIdeal.main_arg10 (by decide))).trans (Cert.KernelIdeal.Gen.V17_main_arg10 m (Cert.KernelIdeal.Blocks.results m) c),
      (h c _ (Cert.KernelIdeal.Blocks.mem_unscoped Cert.KernelIdeal.main_arg11 (by decide))).trans (Cert.KernelIdeal.Gen.V17_main_arg11 m (Cert.KernelIdeal.Blocks.results m) c),
      (h c _ (Cert.KernelIdeal.Blocks.mem_unscoped Cert.KernelIdeal.main_arg12 (by decide))).trans (Cert.KernelIdeal.Gen.V17_main_arg12 m (Cert.KernelIdeal.Blocks.results m) c),
      (h c _ (Cert.KernelIdeal.Blocks.mem_unscoped Cert.KernelIdeal.main_arg13 (by decide))).trans (Cert.KernelIdeal.Gen.V17_main_arg13 m (Cert.KernelIdeal.Blocks.results m) c),
      (h c _ (Cert.KernelIdeal.Blocks.mem_unscoped Cert.KernelIdeal.main_arg14 (by decide))).trans (Cert.KernelIdeal.Gen.V17_main_arg14 m (Cert.KernelIdeal.Blocks.results m) c),
      (h c _ (Cert.KernelIdeal.Blocks.mem_unscoped Cert.KernelIdeal.main_arg15 (by decide))).trans (Cert.KernelIdeal.Gen.V17_main_arg15 m (Cert.KernelIdeal.Blocks.results m) c),
      (h c _ (Cert.KernelIdeal.Blocks.mem_unscoped Cert.KernelIdeal.main_arg16 (by decide))).trans (Cert.KernelIdeal.Gen.V17_main_arg16 m (Cert.KernelIdeal.Blocks.results m) c),
      (h c _ (Cert.KernelIdeal.Blocks.mem_unscoped Cert.KernelIdeal.main_arg17 (by decide))).trans (Cert.KernelIdeal.Gen.V17_main_arg17 m (Cert.KernelIdeal.Blocks.results m) c),
      (h c _ (Cert.KernelIdeal.Blocks.mem_unscoped Cert.KernelIdeal.main_arg18 (by decide))).trans (Cert.KernelIdeal.Gen.V17_main_arg18 m (Cert.KernelIdeal.Blocks.results m) c)⟩)
      (Cert.KernelIdeal.Blocks.run_reads (F := Ideal) m (Cert.KernelIdeal.Blocks.results m) hf ρ)
  · exact (θ_run Cert.ReferenceIdeal.defs _ _).mono (fun r h c =>
      ⟨(h c Cert.ReferenceIdeal.main_v178).trans (Cert.Same.same_result m (Cert.KernelIdeal.Blocks.results m) m' hag c hf).symm,
      (h c Cert.ReferenceIdeal.main_arg0).trans (after_of_not_written Cert.Same.eachR (launchContents m' c) Cert.ReferenceIdeal.main_arg0 (by decide)),
      (h c Cert.ReferenceIdeal.main_arg1).trans (after_of_not_written Cert.Same.eachR (launchContents m' c) Cert.ReferenceIdeal.main_arg1 (by decide)),
      (h c Cert.ReferenceIdeal.main_arg2).trans (after_of_not_written Cert.Same.eachR (launchContents m' c) Cert.ReferenceIdeal.main_arg2 (by decide)),
      (h c Cert.ReferenceIdeal.main_arg3).trans (after_of_not_written Cert.Same.eachR (launchContents m' c) Cert.ReferenceIdeal.main_arg3 (by decide)),
      (h c Cert.ReferenceIdeal.main_arg4).trans (after_of_not_written Cert.Same.eachR (launchContents m' c) Cert.ReferenceIdeal.main_arg4 (by decide)),
      (h c Cert.ReferenceIdeal.main_arg5).trans (after_of_not_written Cert.Same.eachR (launchContents m' c) Cert.ReferenceIdeal.main_arg5 (by decide)),
      (h c Cert.ReferenceIdeal.main_arg6).trans (after_of_not_written Cert.Same.eachR (launchContents m' c) Cert.ReferenceIdeal.main_arg6 (by decide)),
      (h c Cert.ReferenceIdeal.main_arg7).trans (after_of_not_written Cert.Same.eachR (launchContents m' c) Cert.ReferenceIdeal.main_arg7 (by decide)),
      (h c Cert.ReferenceIdeal.main_arg8).trans (after_of_not_written Cert.Same.eachR (launchContents m' c) Cert.ReferenceIdeal.main_arg8 (by decide)),
      (h c Cert.ReferenceIdeal.main_arg9).trans (after_of_not_written Cert.Same.eachR (launchContents m' c) Cert.ReferenceIdeal.main_arg9 (by decide)),
      (h c Cert.ReferenceIdeal.main_arg10).trans (after_of_not_written Cert.Same.eachR (launchContents m' c) Cert.ReferenceIdeal.main_arg10 (by decide)),
      (h c Cert.ReferenceIdeal.main_arg11).trans (after_of_not_written Cert.Same.eachR (launchContents m' c) Cert.ReferenceIdeal.main_arg11 (by decide)),
      (h c Cert.ReferenceIdeal.main_arg12).trans (after_of_not_written Cert.Same.eachR (launchContents m' c) Cert.ReferenceIdeal.main_arg12 (by decide)),
      (h c Cert.ReferenceIdeal.main_arg13).trans (after_of_not_written Cert.Same.eachR (launchContents m' c) Cert.ReferenceIdeal.main_arg13 (by decide)),
      (h c Cert.ReferenceIdeal.main_arg14).trans (after_of_not_written Cert.Same.eachR (launchContents m' c) Cert.ReferenceIdeal.main_arg14 (by decide)),
      (h c Cert.ReferenceIdeal.main_arg15).trans (after_of_not_written Cert.Same.eachR (launchContents m' c) Cert.ReferenceIdeal.main_arg15 (by decide)),
      (h c Cert.ReferenceIdeal.main_arg16).trans (after_of_not_written Cert.Same.eachR (launchContents m' c) Cert.ReferenceIdeal.main_arg16 (by decide)),
      (h c Cert.ReferenceIdeal.main_arg17).trans (after_of_not_written Cert.Same.eachR (launchContents m' c) Cert.ReferenceIdeal.main_arg17 (by decide)),
      (h c Cert.ReferenceIdeal.main_arg18).trans (after_of_not_written Cert.Same.eachR (launchContents m' c) Cert.ReferenceIdeal.main_arg18 (by decide))⟩)
      (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_words, frame_ideal, frame_reference, preserves, algebraic⟩

end Cert.Proof

end
